-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x64 : Shape := ⟨2, ![100000, 64]⟩
abbrev S512x64 : Shape := ⟨2, ![512, 64]⟩
abbrev S2x64 : Shape := ⟨2, ![2, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S2x64 : S_.BroadcastsInDim S2x64 (![] : Fin 0 → Fin S2x64.rank)
  reducesTo_S2x64_S_d0_1 : S2x64.ReducesTo [0, 1] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_v13 : IVec S_ 1) (main_v15 : IVec S1024x200 1) (main_c_5 : IVec S_ 32) : IVec S_ 1 :=
  let main_v16 : IVec S1024x200 32 := broadcastInDim S1024x200 ![] bcast_S_S1024x200 main_c_5
  let main_v17 : IVec S1024x200 1 := cmpi .sle main_arg0 main_v16
  let main_v18 : IVec S1024x200 1 := andi main_v15 main_v17
  let main_c_6 : IVec S_ 1 := constantI S_ 1 1#1
  let main_v19 : IVec S_ 1 := (fun x v => Host.reduce IntOp.andi x v reducesTo_S1024x200_S_d0_1 h_S_) main_v18 main_c_6
  let main_v20 : IVec S_ 1 := andi main_v13 main_v19
  main_v20

def fn {F : FTy → Type} [FloatOps F] (main_arg0 : IVec S1024x200 32) (main_arg1 : FVec F S100000x64 .f32) (main_arg2 : FVec F S512x64 .f32) (main_arg3 : FVec F S2x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_c_4 : IVec S_ 32 := constantI S_ 32 0#32
  let main_v14 : IVec S1024x200 32 := broadcastInDim S1024x200 ![] bcast_S_S1024x200 main_c_4
  let main_v15 : IVec S1024x200 1 := cmpi .sge main_arg0 main_v14
  let main_c_5 : IVec S_ 32 := constantI S_ 32 99999#32
  fn_part1 (F := F) main_arg0 main_v13 main_v15 main_c_5
-- ==== Kernel.lean ====
abbrev S1024x200 : Shape := ⟨2, ![1024, 200]⟩
abbrev S100000x64 : Shape := ⟨2, ![100000, 64]⟩
abbrev S512x64 : Shape := ⟨2, ![512, 64]⟩
abbrev S2x64 : Shape := ⟨2, ![2, 64]⟩
abbrev S200x1024 : Shape := ⟨2, ![200, 1024]⟩
abbrev S204800 : Shape := ⟨1, ![204800]⟩
abbrev S64x100000 : Shape := ⟨2, ![64, 100000]⟩
abbrev S64x512 : Shape := ⟨2, ![64, 512]⟩
abbrev S32768 : Shape := ⟨1, ![32768]⟩
abbrev S128 : Shape := ⟨1, ![128]⟩
abbrev S200x8x8x8x128 : Shape := ⟨5, ![200, 8, 8, 8, 128]⟩
abbrev S1x100000 : Shape := ⟨2, ![1, 100000]⟩
abbrev S4096 : Shape := ⟨1, ![4096]⟩
abbrev S4x1x8x1x128 : Shape := ⟨5, ![4, 1, 8, 1, 128]⟩
abbrev S208 : Shape := ⟨1, ![208]⟩
abbrev S64 : Shape := ⟨1, ![64]⟩
abbrev S_ : Shape := ⟨0, ![]⟩
abbrev S16 : Shape := ⟨1, ![16]⟩
abbrev S1x1x1x1x16 : Shape := ⟨5, ![1, 1, 1, 1, 16]⟩
abbrev S8x128x200x8x8 : Shape := ⟨5, ![8, 128, 200, 8, 8]⟩
abbrev S1024x200x64 : Shape := ⟨3, ![1024, 200, 64]⟩

abbrev nBuf : Table → Nat
  | .hbm => 13
  | .shared => 1
  | .local .scVector .vmem => 8
  | _ => 0

abbrev bufTy : (tb : Table) → Fin (nBuf tb) → BufTy
  | .hbm, ⟨0, _⟩ => ⟨S1024x200, .i32⟩
  | .hbm, ⟨1, _⟩ => ⟨S100000x64, .f32⟩
  | .hbm, ⟨2, _⟩ => ⟨S512x64, .f32⟩
  | .hbm, ⟨3, _⟩ => ⟨S2x64, .f32⟩
  | .hbm, ⟨4, _⟩ => ⟨S200x1024, .i32⟩
  | .hbm, ⟨5, _⟩ => ⟨S204800, .i32⟩
  | .hbm, ⟨6, _⟩ => ⟨S64x100000, .f32⟩
  | .hbm, ⟨7, _⟩ => ⟨S64x512, .f32⟩
  | .hbm, ⟨8, _⟩ => ⟨S32768, .f32⟩
  | .hbm, ⟨9, _⟩ => ⟨S128, .f32⟩
  | .hbm, ⟨10, _⟩ => ⟨S200x8x8x8x128, .f32⟩
  | .hbm, ⟨11, _⟩ => ⟨S8x128x200x8x8, .f32⟩
  | .hbm, ⟨12, _⟩ => ⟨S1024x200x64, .f32⟩
  | .shared, ⟨0, _⟩ => ⟨S204800, .i32⟩
  | .local .scVector .vmem, ⟨0, _⟩ => ⟨S1x100000, .f32⟩
  | .local .scVector .vmem, ⟨1, _⟩ => ⟨S4096, .i32⟩
  | .local .scVector .vmem, ⟨2, _⟩ => ⟨S4096, .i32⟩
  | .local .scVector .vmem, ⟨3, _⟩ => ⟨S4x1x8x1x128, .f32⟩
  | .local .scVector .vmem, ⟨4, _⟩ => ⟨S4x1x8x1x128, .f32⟩
  | .local .scVector .vmem, ⟨5, _⟩ => ⟨S208, .f32⟩
  | .local .scVector .vmem, ⟨6, _⟩ => ⟨S208, .f32⟩
  | .local .scVector .vmem, ⟨7, _⟩ => ⟨S64, .f32⟩
  | _, _ => ⟨S1024x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 5 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v1_scv : Ref sig .scVector := ⟨.hbm, 5, rfl⟩
abbrev main_v2_scv : Ref sig .scVector := ⟨.hbm, 6, rfl⟩
abbrev main_v4_scv : Ref sig .scVector := ⟨.hbm, 8, rfl⟩
abbrev main_v5_scv : Ref sig .scVector := ⟨.hbm, 9, rfl⟩
abbrev main_v6_scv : Ref sig .scVector := ⟨.hbm, 10, rfl⟩
abbrev cc0_scratch8 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c2_i32_3 : BitVec 32 := 2#32
  let v6 : BitVec 32 := Scalar.addi c0_i32_2 c2_i32_3
  let c1_i32 : BitVec 32 := 1#32
  ⟨c0_i32_2, v6, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_8 : BitVec 32 := 0#32
  ![v10.toNat, 0]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c512_i32 : BitVec 32 := 512#32
  let v17 : BitVec 32 := Scalar.muli v10 c512_i32
  ![v17.toNat]

def k0_chk1 (v18 : IVec S16 32) : Prop :=
  (∀ a x, ((![v18] : Fin 1 → IVec S16 32) a x).toNat < S64.size a)
instance k0_chk1.dec : ∀ (v18 : IVec S16 32), Decidable (k0_chk1 v18) := fun v18 => decidable_of_iff' _ (Iff.of_eq (k0_chk1.eq_1 v18))
theorem k0_idx1_inb : ∀ (v18 : IVec S16 32) (k0_hw1 : k0_chk1 v18), ∀ a x, ((![v18] : Fin 1 → IVec S16 32) a x).toNat < S64.size a := fun v18 k0_hw1 => k0_hw1
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_27 : BitVec 32 := 0#32
  ![v10.toNat, 0]
@[reducible] def k0_t2_loop : Scf.Loop 32 :=
  let c0_i32_31 : BitVec 32 := 0#32
  let c4_i32 : BitVec 32 := 4#32
  let v63 : BitVec 32 := Scalar.addi c0_i32_31 c4_i32
  let c1_i32_32 : BitVec 32 := 1#32
  ⟨c0_i32_31, v63, c1_i32_32⟩

def k0_chk2 (v313 : IVec S16 32) : Prop :=
  (∀ a x, ((![v313] : Fin 1 → IVec S16 32) a x).toNat < S208.size a)
instance k0_chk2.dec : ∀ (v313 : IVec S16 32), Decidable (k0_chk2 v313) := fun v313 => decidable_of_iff' _ (Iff.of_eq (k0_chk2.eq_1 v313))
theorem k0_idx2_inb : ∀ (v313 : IVec S16 32) (k0_hw2 : k0_chk2 v313), ∀ a x, ((![v313] : Fin 1 → IVec S16 32) a x).toNat < S208.size a := fun v313 k0_hw2 => k0_hw2
@[reducible] def k0_t3_loop : Scf.Loop 32 :=
  let c0_i32_205 : BitVec 32 := 0#32
  let c4_i32_206 : BitVec 32 := 4#32
  let v315 : BitVec 32 := Scalar.addi c0_i32_205 c4_i32_206
  let c1_i32_207 : BitVec 32 := 1#32
  ⟨c0_i32_205, v315, c1_i32_207⟩
def k0_off4 (k0_t2 : Fin k0_t2_loop.trips) (k0_t3 : Fin k0_t3_loop.trips) (c0_i32_212 : BitVec 32) : Fin 1 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let c1024_i32 : BitVec 32 := 1024#32
  let v318 : BitVec 32 := Scalar.muli v311 c1024_i32
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32 : BitVec 32 := 16#32
  let v319 : BitVec 32 := Scalar.muli v317 c16_i32
  let c16_i32_211 : BitVec 32 := 16#32
  let v320 : BitVec 32 := Scalar.muli v319 c16_i32_211
  let v321 : BitVec 32 := Scalar.addi v318 v320
  let v322 : BitVec 32 := Scalar.addi v321 c0_i32_212
  let v323 : Index := Scalar.indexCast v322
  ![v323.toNat]

def k0_chk3 (v2 : IVec S16 32) (v324 : IVec S16 32) : Prop :=
  (∀ a x, ((![v2, v324] : Fin 2 → IVec S16 32) a x).toNat < S1x100000.size a)
instance k0_chk3.dec : ∀ (v2 : IVec S16 32) (v324 : IVec S16 32), Decidable (k0_chk3 v2 v324) := fun v2 v324 => decidable_of_iff' _ (Iff.of_eq (k0_chk3.eq_1 v2 v324))
theorem k0_idx3_inb : ∀ (v2 : IVec S16 32) (v324 : IVec S16 32) (k0_hw3 : k0_chk3 v2 v324), ∀ a x, ((![v2, v324] : Fin 2 → IVec S16 32) a x).toNat < S1x100000.size a := fun v2 v324 k0_hw3 => k0_hw3

def k0_chk4 (v2 : IVec S16 32) (v327 : IVec S16 32) : Prop :=
  (∀ a x, ((![v2, v327] : Fin 2 → IVec S16 32) a x).toNat < S1x100000.size a)
instance k0_chk4.dec : ∀ (v2 : IVec S16 32) (v327 : IVec S16 32), Decidable (k0_chk4 v2 v327) := fun v2 v327 => decidable_of_iff' _ (Iff.of_eq (k0_chk4.eq_1 v2 v327))
theorem k0_idx4_inb : ∀ (v2 : IVec S16 32) (v327 : IVec S16 32) (k0_hw4 : k0_chk4 v2 v327), ∀ a x, ((![v2, v327] : Fin 2 → IVec S16 32) a x).toNat < S1x100000.size a := fun v2 v327 k0_hw4 => k0_hw4

def k0_chk5 (v2 : IVec S16 32) (v330 : IVec S16 32) : Prop :=
  (∀ a x, ((![v2, v330] : Fin 2 → IVec S16 32) a x).toNat < S1x100000.size a)
instance k0_chk5.dec : ∀ (v2 : IVec S16 32) (v330 : IVec S16 32), Decidable (k0_chk5 v2 v330) := fun v2 v330 => decidable_of_iff' _ (Iff.of_eq (k0_chk5.eq_1 v2 v330))
theorem k0_idx5_inb : ∀ (v2 : IVec S16 32) (v330 : IVec S16 32) (k0_hw5 : k0_chk5 v2 v330), ∀ a x, ((![v2, v330] : Fin 2 → IVec S16 32) a x).toNat < S1x100000.size a := fun v2 v330 k0_hw5 => k0_hw5

def k0_chk6 (v2 : IVec S16 32) (v333 : IVec S16 32) : Prop :=
  (∀ a x, ((![v2, v333] : Fin 2 → IVec S16 32) a x).toNat < S1x100000.size a)
instance k0_chk6.dec : ∀ (v2 : IVec S16 32) (v333 : IVec S16 32), Decidable (k0_chk6 v2 v333) := fun v2 v333 => decidable_of_iff' _ (Iff.of_eq (k0_chk6.eq_1 v2 v333))
theorem k0_idx6_inb : ∀ (v2 : IVec S16 32) (v333 : IVec S16 32) (k0_hw6 : k0_chk6 v2 v333), ∀ a x, ((![v2, v333] : Fin 2 → IVec S16 32) a x).toNat < S1x100000.size a := fun v2 v333 k0_hw6 => k0_hw6

def k0_chk7 (v2 : IVec S16 32) (v336 : IVec S16 32) : Prop :=
  (∀ a x, ((![v2, v336] : Fin 2 → IVec S16 32) a x).toNat < S1x100000.size a)
instance k0_chk7.dec : ∀ (v2 : IVec S16 32) (v336 : IVec S16 32), Decidable (k0_chk7 v2 v336) := fun v2 v336 => decidable_of_iff' _ (Iff.of_eq (k0_chk7.eq_1 v2 v336))
theorem k0_idx7_inb : ∀ (v2 : IVec S16 32) (v336 : IVec S16 32) (k0_hw7 : k0_chk7 v2 v336), ∀ a x, ((![v2, v336] : Fin 2 → IVec S16 32) a x).toNat < S1x100000.size a := fun v2 v336 k0_hw7 => k0_hw7

def k0_chk8 (v2 : IVec S16 32) (v339 : IVec S16 32) : Prop :=
  (∀ a x, ((![v2, v339] : Fin 2 → IVec S16 32) a x).toNat < S1x100000.size a)
instance k0_chk8.dec : ∀ (v2 : IVec S16 32) (v339 : IVec S16 32), Decidable (k0_chk8 v2 v339) := fun v2 v339 => decidable_of_iff' _ (Iff.of_eq (k0_chk8.eq_1 v2 v339))
theorem k0_idx8_inb : ∀ (v2 : IVec S16 32) (v339 : IVec S16 32) (k0_hw8 : k0_chk8 v2 v339), ∀ a x, ((![v2, v339] : Fin 2 → IVec S16 32) a x).toNat < S1x100000.size a := fun v2 v339 k0_hw8 => k0_hw8

def k0_chk9 (v2 : IVec S16 32) (v342 : IVec S16 32) : Prop :=
  (∀ a x, ((![v2, v342] : Fin 2 → IVec S16 32) a x).toNat < S1x100000.size a)
instance k0_chk9.dec : ∀ (v2 : IVec S16 32) (v342 : IVec S16 32), Decidable (k0_chk9 v2 v342) := fun v2 v342 => decidable_of_iff' _ (Iff.of_eq (k0_chk9.eq_1 v2 v342))
theorem k0_idx9_inb : ∀ (v2 : IVec S16 32) (v342 : IVec S16 32) (k0_hw9 : k0_chk9 v2 v342), ∀ a x, ((![v2, v342] : Fin 2 → IVec S16 32) a x).toNat < S1x100000.size a := fun v2 v342 k0_hw9 => k0_hw9

def k0_chk10 (v2 : IVec S16 32) (v345 : IVec S16 32) : Prop :=
  (∀ a x, ((![v2, v345] : Fin 2 → IVec S16 32) a x).toNat < S1x100000.size a)
instance k0_chk10.dec : ∀ (v2 : IVec S16 32) (v345 : IVec S16 32), Decidable (k0_chk10 v2 v345) := fun v2 v345 => decidable_of_iff' _ (Iff.of_eq (k0_chk10.eq_1 v2 v345))
theorem k0_idx10_inb : ∀ (v2 : IVec S16 32) (v345 : IVec S16 32) (k0_hw10 : k0_chk10 v2 v345), ∀ a x, ((![v2, v345] : Fin 2 → IVec S16 32) a x).toNat < S1x100000.size a := fun v2 v345 k0_hw10 => k0_hw10

def k0_chk11 (v2 : IVec S16 32) (v348 : IVec S16 32) : Prop :=
  (∀ a x, ((![v2, v348] : Fin 2 → IVec S16 32) a x).toNat < S1x100000.size a)
instance k0_chk11.dec : ∀ (v2 : IVec S16 32) (v348 : IVec S16 32), Decidable (k0_chk11 v2 v348) := fun v2 v348 => decidable_of_iff' _ (Iff.of_eq (k0_chk11.eq_1 v2 v348))
theorem k0_idx11_inb : ∀ (v2 : IVec S16 32) (v348 : IVec S16 32) (k0_hw11 : k0_chk11 v2 v348), ∀ a x, ((![v2, v348] : Fin 2 → IVec S16 32) a x).toNat < S1x100000.size a := fun v2 v348 k0_hw11 => k0_hw11

def k0_chk12 (v2 : IVec S16 32) (v351 : IVec S16 32) : Prop :=
  (∀ a x, ((![v2, v351] : Fin 2 → IVec S16 32) a x).toNat < S1x100000.size a)
instance k0_chk12.dec : ∀ (v2 : IVec S16 32) (v351 : IVec S16 32), Decidable (k0_chk12 v2 v351) := fun v2 v351 => decidable_of_iff' _ (Iff.of_eq (k0_chk12.eq_1 v2 v351))
theorem k0_idx12_inb : ∀ (v2 : IVec S16 32) (v351 : IVec S16 32) (k0_hw12 : k0_chk12 v2 v351), ∀ a x, ((![v2, v351] : Fin 2 → IVec S16 32) a x).toNat < S1x100000.size a := fun v2 v351 k0_hw12 => k0_hw12

def k0_chk13 (v2 : IVec S16 32) (v354 : IVec S16 32) : Prop :=
  (∀ a x, ((![v2, v354] : Fin 2 → IVec S16 32) a x).toNat < S1x100000.size a)
instance k0_chk13.dec : ∀ (v2 : IVec S16 32) (v354 : IVec S16 32), Decidable (k0_chk13 v2 v354) := fun v2 v354 => decidable_of_iff' _ (Iff.of_eq (k0_chk13.eq_1 v2 v354))
theorem k0_idx13_inb : ∀ (v2 : IVec S16 32) (v354 : IVec S16 32) (k0_hw13 : k0_chk13 v2 v354), ∀ a x, ((![v2, v354] : Fin 2 → IVec S16 32) a x).toNat < S1x100000.size a := fun v2 v354 k0_hw13 => k0_hw13

def k0_chk14 (v2 : IVec S16 32) (v357 : IVec S16 32) : Prop :=
  (∀ a x, ((![v2, v357] : Fin 2 → IVec S16 32) a x).toNat < S1x100000.size a)
instance k0_chk14.dec : ∀ (v2 : IVec S16 32) (v357 : IVec S16 32), Decidable (k0_chk14 v2 v357) := fun v2 v357 => decidable_of_iff' _ (Iff.of_eq (k0_chk14.eq_1 v2 v357))
theorem k0_idx14_inb : ∀ (v2 : IVec S16 32) (v357 : IVec S16 32) (k0_hw14 : k0_chk14 v2 v357), ∀ a x, ((![v2, v357] : Fin 2 → IVec S16 32) a x).toNat < S1x100000.size a := fun v2 v357 k0_hw14 => k0_hw14

def k0_chk15 (v2 : IVec S16 32) (v360 : IVec S16 32) : Prop :=
  (∀ a x, ((![v2, v360] : Fin 2 → IVec S16 32) a x).toNat < S1x100000.size a)
instance k0_chk15.dec : ∀ (v2 : IVec S16 32) (v360 : IVec S16 32), Decidable (k0_chk15 v2 v360) := fun v2 v360 => decidable_of_iff' _ (Iff.of_eq (k0_chk15.eq_1 v2 v360))
theorem k0_idx15_inb : ∀ (v2 : IVec S16 32) (v360 : IVec S16 32) (k0_hw15 : k0_chk15 v2 v360), ∀ a x, ((![v2, v360] : Fin 2 → IVec S16 32) a x).toNat < S1x100000.size a := fun v2 v360 k0_hw15 => k0_hw15

def k0_chk16 (v2 : IVec S16 32) (v363 : IVec S16 32) : Prop :=
  (∀ a x, ((![v2, v363] : Fin 2 → IVec S16 32) a x).toNat < S1x100000.size a)
instance k0_chk16.dec : ∀ (v2 : IVec S16 32) (v363 : IVec S16 32), Decidable (k0_chk16 v2 v363) := fun v2 v363 => decidable_of_iff' _ (Iff.of_eq (k0_chk16.eq_1 v2 v363))
theorem k0_idx16_inb : ∀ (v2 : IVec S16 32) (v363 : IVec S16 32) (k0_hw16 : k0_chk16 v2 v363), ∀ a x, ((![v2, v363] : Fin 2 → IVec S16 32) a x).toNat < S1x100000.size a := fun v2 v363 k0_hw16 => k0_hw16

def k0_chk17 (v2 : IVec S16 32) (v366 : IVec S16 32) : Prop :=
  (∀ a x, ((![v2, v366] : Fin 2 → IVec S16 32) a x).toNat < S1x100000.size a)
instance k0_chk17.dec : ∀ (v2 : IVec S16 32) (v366 : IVec S16 32), Decidable (k0_chk17 v2 v366) := fun v2 v366 => decidable_of_iff' _ (Iff.of_eq (k0_chk17.eq_1 v2 v366))
theorem k0_idx17_inb : ∀ (v2 : IVec S16 32) (v366 : IVec S16 32) (k0_hw17 : k0_chk17 v2 v366), ∀ a x, ((![v2, v366] : Fin 2 → IVec S16 32) a x).toNat < S1x100000.size a := fun v2 v366 k0_hw17 => k0_hw17

def k0_chk18 (v2 : IVec S16 32) (v369 : IVec S16 32) : Prop :=
  (∀ a x, ((![v2, v369] : Fin 2 → IVec S16 32) a x).toNat < S1x100000.size a)
instance k0_chk18.dec : ∀ (v2 : IVec S16 32) (v369 : IVec S16 32), Decidable (k0_chk18 v2 v369) := fun v2 v369 => decidable_of_iff' _ (Iff.of_eq (k0_chk18.eq_1 v2 v369))
theorem k0_idx18_inb : ∀ (v2 : IVec S16 32) (v369 : IVec S16 32) (k0_hw18 : k0_chk18 v2 v369), ∀ a x, ((![v2, v369] : Fin 2 → IVec S16 32) a x).toNat < S1x100000.size a := fun v2 v369 k0_hw18 => k0_hw18
def k0_off5 (k0_t2 : Fin k0_t2_loop.trips) (k0_t3 : Fin k0_t3_loop.trips) (c0_i32_216 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v406 : Index := Scalar.indexCast v311
  let c0_i32_224 : BitVec 32 := 0#32
  let v407 : Index := Scalar.indexCast c0_i32_224
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_215 : BitVec 32 := 16#32
  let v386 : BitVec 32 := Scalar.muli v317 c16_i32_215
  let v387 : BitVec 32 := Scalar.addi v386 c0_i32_216
  let c0_i32_218 : BitVec 32 := 0#32
  let v389 : BitVec 1 := Scalar.cmpi .sgt v387 c0_i32_218
  let v390 : BitVec 32 := Scalar.extui v389
  let c0_i32_219 : BitVec 32 := 0#32
  let v391 : BitVec 1 := Scalar.cmpi .slt v387 c0_i32_219
  let v392 : BitVec 32 := Scalar.extui v391
  let v393 : BitVec 32 := Scalar.subi v390 v392
  let c8_i32_217 : BitVec 32 := 8#32
  let c0_i32_220 : BitVec 32 := 0#32
  let v394 : BitVec 1 := Scalar.cmpi .sgt c8_i32_217 c0_i32_220
  let v395 : BitVec 32 := Scalar.extui v394
  let c0_i32_221 : BitVec 32 := 0#32
  let v396 : BitVec 1 := Scalar.cmpi .slt c8_i32_217 c0_i32_221
  let v397 : BitVec 32 := Scalar.extui v396
  let v398 : BitVec 32 := Scalar.subi v395 v397
  let v399 : BitVec 1 := Scalar.cmpi .ne v393 v398
  let v400 : BitVec 32 := Scalar.remsi v387 c8_i32_217
  let c0_i32_222 : BitVec 32 := 0#32
  let v401 : BitVec 1 := Scalar.cmpi .ne v400 c0_i32_222
  let v402 : BitVec 1 := Scalar.andi v399 v401
  let v388 : BitVec 32 := Scalar.divsi v387 c8_i32_217
  let c1_i32_223 : BitVec 32 := 1#32
  let v403 : BitVec 32 := Scalar.subi v388 c1_i32_223
  let v404 : BitVec 32 := Scalar.select v402 v403 v388
  let v408 : Index := Scalar.indexCast v404
  let c0_i32_225 : BitVec 32 := 0#32
  let v409 : Index := Scalar.indexCast c0_i32_225
  let c0_226 : Index := 0#32
  ![v406.toNat, 0, v408.toNat, 0, 0]
def k0_off6 (k0_t2 : Fin k0_t2_loop.trips) (k0_t3 : Fin k0_t3_loop.trips) (c1_i32_228 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v431 : Index := Scalar.indexCast v311
  let c0_i32_236 : BitVec 32 := 0#32
  let v432 : Index := Scalar.indexCast c0_i32_236
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_227 : BitVec 32 := 16#32
  let v411 : BitVec 32 := Scalar.muli v317 c16_i32_227
  let v412 : BitVec 32 := Scalar.addi v411 c1_i32_228
  let c0_i32_230 : BitVec 32 := 0#32
  let v414 : BitVec 1 := Scalar.cmpi .sgt v412 c0_i32_230
  let v415 : BitVec 32 := Scalar.extui v414
  let c0_i32_231 : BitVec 32 := 0#32
  let v416 : BitVec 1 := Scalar.cmpi .slt v412 c0_i32_231
  let v417 : BitVec 32 := Scalar.extui v416
  let v418 : BitVec 32 := Scalar.subi v415 v417
  let c8_i32_229 : BitVec 32 := 8#32
  let c0_i32_232 : BitVec 32 := 0#32
  let v419 : BitVec 1 := Scalar.cmpi .sgt c8_i32_229 c0_i32_232
  let v420 : BitVec 32 := Scalar.extui v419
  let c0_i32_233 : BitVec 32 := 0#32
  let v421 : BitVec 1 := Scalar.cmpi .slt c8_i32_229 c0_i32_233
  let v422 : BitVec 32 := Scalar.extui v421
  let v423 : BitVec 32 := Scalar.subi v420 v422
  let v424 : BitVec 1 := Scalar.cmpi .ne v418 v423
  let v425 : BitVec 32 := Scalar.remsi v412 c8_i32_229
  let c0_i32_234 : BitVec 32 := 0#32
  let v426 : BitVec 1 := Scalar.cmpi .ne v425 c0_i32_234
  let v427 : BitVec 1 := Scalar.andi v424 v426
  let v413 : BitVec 32 := Scalar.divsi v412 c8_i32_229
  let c1_i32_235 : BitVec 32 := 1#32
  let v428 : BitVec 32 := Scalar.subi v413 c1_i32_235
  let v429 : BitVec 32 := Scalar.select v427 v428 v413
  let v433 : Index := Scalar.indexCast v429
  let c0_i32_237 : BitVec 32 := 0#32
  let v434 : Index := Scalar.indexCast c0_i32_237
  let c16_238 : Index := 16#32
  ![v431.toNat, 0, v433.toNat, 0, 16]
def k0_off7 (k0_t2 : Fin k0_t2_loop.trips) (k0_t3 : Fin k0_t3_loop.trips) (c2_i32_240 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v456 : Index := Scalar.indexCast v311
  let c0_i32_248 : BitVec 32 := 0#32
  let v457 : Index := Scalar.indexCast c0_i32_248
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_239 : BitVec 32 := 16#32
  let v436 : BitVec 32 := Scalar.muli v317 c16_i32_239
  let v437 : BitVec 32 := Scalar.addi v436 c2_i32_240
  let c0_i32_242 : BitVec 32 := 0#32
  let v439 : BitVec 1 := Scalar.cmpi .sgt v437 c0_i32_242
  let v440 : BitVec 32 := Scalar.extui v439
  let c0_i32_243 : BitVec 32 := 0#32
  let v441 : BitVec 1 := Scalar.cmpi .slt v437 c0_i32_243
  let v442 : BitVec 32 := Scalar.extui v441
  let v443 : BitVec 32 := Scalar.subi v440 v442
  let c8_i32_241 : BitVec 32 := 8#32
  let c0_i32_244 : BitVec 32 := 0#32
  let v444 : BitVec 1 := Scalar.cmpi .sgt c8_i32_241 c0_i32_244
  let v445 : BitVec 32 := Scalar.extui v444
  let c0_i32_245 : BitVec 32 := 0#32
  let v446 : BitVec 1 := Scalar.cmpi .slt c8_i32_241 c0_i32_245
  let v447 : BitVec 32 := Scalar.extui v446
  let v448 : BitVec 32 := Scalar.subi v445 v447
  let v449 : BitVec 1 := Scalar.cmpi .ne v443 v448
  let v450 : BitVec 32 := Scalar.remsi v437 c8_i32_241
  let c0_i32_246 : BitVec 32 := 0#32
  let v451 : BitVec 1 := Scalar.cmpi .ne v450 c0_i32_246
  let v452 : BitVec 1 := Scalar.andi v449 v451
  let v438 : BitVec 32 := Scalar.divsi v437 c8_i32_241
  let c1_i32_247 : BitVec 32 := 1#32
  let v453 : BitVec 32 := Scalar.subi v438 c1_i32_247
  let v454 : BitVec 32 := Scalar.select v452 v453 v438
  let v458 : Index := Scalar.indexCast v454
  let c0_i32_249 : BitVec 32 := 0#32
  let v459 : Index := Scalar.indexCast c0_i32_249
  let c32_250 : Index := 32#32
  ![v456.toNat, 0, v458.toNat, 0, 32]
def k0_off8 (k0_t2 : Fin k0_t2_loop.trips) (k0_t3 : Fin k0_t3_loop.trips) (c3_i32 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v481 : Index := Scalar.indexCast v311
  let c0_i32_259 : BitVec 32 := 0#32
  let v482 : Index := Scalar.indexCast c0_i32_259
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_251 : BitVec 32 := 16#32
  let v461 : BitVec 32 := Scalar.muli v317 c16_i32_251
  let v462 : BitVec 32 := Scalar.addi v461 c3_i32
  let c0_i32_253 : BitVec 32 := 0#32
  let v464 : BitVec 1 := Scalar.cmpi .sgt v462 c0_i32_253
  let v465 : BitVec 32 := Scalar.extui v464
  let c0_i32_254 : BitVec 32 := 0#32
  let v466 : BitVec 1 := Scalar.cmpi .slt v462 c0_i32_254
  let v467 : BitVec 32 := Scalar.extui v466
  let v468 : BitVec 32 := Scalar.subi v465 v467
  let c8_i32_252 : BitVec 32 := 8#32
  let c0_i32_255 : BitVec 32 := 0#32
  let v469 : BitVec 1 := Scalar.cmpi .sgt c8_i32_252 c0_i32_255
  let v470 : BitVec 32 := Scalar.extui v469
  let c0_i32_256 : BitVec 32 := 0#32
  let v471 : BitVec 1 := Scalar.cmpi .slt c8_i32_252 c0_i32_256
  let v472 : BitVec 32 := Scalar.extui v471
  let v473 : BitVec 32 := Scalar.subi v470 v472
  let v474 : BitVec 1 := Scalar.cmpi .ne v468 v473
  let v475 : BitVec 32 := Scalar.remsi v462 c8_i32_252
  let c0_i32_257 : BitVec 32 := 0#32
  let v476 : BitVec 1 := Scalar.cmpi .ne v475 c0_i32_257
  let v477 : BitVec 1 := Scalar.andi v474 v476
  let v463 : BitVec 32 := Scalar.divsi v462 c8_i32_252
  let c1_i32_258 : BitVec 32 := 1#32
  let v478 : BitVec 32 := Scalar.subi v463 c1_i32_258
  let v479 : BitVec 32 := Scalar.select v477 v478 v463
  let v483 : Index := Scalar.indexCast v479
  let c0_i32_260 : BitVec 32 := 0#32
  let v484 : Index := Scalar.indexCast c0_i32_260
  let c48_261 : Index := 48#32
  ![v481.toNat, 0, v483.toNat, 0, 48]
def k0_off9 (k0_t2 : Fin k0_t2_loop.trips) (k0_t3 : Fin k0_t3_loop.trips) (c4_i32_263 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v506 : Index := Scalar.indexCast v311
  let c0_i32_271 : BitVec 32 := 0#32
  let v507 : Index := Scalar.indexCast c0_i32_271
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_262 : BitVec 32 := 16#32
  let v486 : BitVec 32 := Scalar.muli v317 c16_i32_262
  let v487 : BitVec 32 := Scalar.addi v486 c4_i32_263
  let c0_i32_265 : BitVec 32 := 0#32
  let v489 : BitVec 1 := Scalar.cmpi .sgt v487 c0_i32_265
  let v490 : BitVec 32 := Scalar.extui v489
  let c0_i32_266 : BitVec 32 := 0#32
  let v491 : BitVec 1 := Scalar.cmpi .slt v487 c0_i32_266
  let v492 : BitVec 32 := Scalar.extui v491
  let v493 : BitVec 32 := Scalar.subi v490 v492
  let c8_i32_264 : BitVec 32 := 8#32
  let c0_i32_267 : BitVec 32 := 0#32
  let v494 : BitVec 1 := Scalar.cmpi .sgt c8_i32_264 c0_i32_267
  let v495 : BitVec 32 := Scalar.extui v494
  let c0_i32_268 : BitVec 32 := 0#32
  let v496 : BitVec 1 := Scalar.cmpi .slt c8_i32_264 c0_i32_268
  let v497 : BitVec 32 := Scalar.extui v496
  let v498 : BitVec 32 := Scalar.subi v495 v497
  let v499 : BitVec 1 := Scalar.cmpi .ne v493 v498
  let v500 : BitVec 32 := Scalar.remsi v487 c8_i32_264
  let c0_i32_269 : BitVec 32 := 0#32
  let v501 : BitVec 1 := Scalar.cmpi .ne v500 c0_i32_269
  let v502 : BitVec 1 := Scalar.andi v499 v501
  let v488 : BitVec 32 := Scalar.divsi v487 c8_i32_264
  let c1_i32_270 : BitVec 32 := 1#32
  let v503 : BitVec 32 := Scalar.subi v488 c1_i32_270
  let v504 : BitVec 32 := Scalar.select v502 v503 v488
  let v508 : Index := Scalar.indexCast v504
  let c0_i32_272 : BitVec 32 := 0#32
  let v509 : Index := Scalar.indexCast c0_i32_272
  let c64_273 : Index := 64#32
  ![v506.toNat, 0, v508.toNat, 0, 64]
def k0_off10 (k0_t2 : Fin k0_t2_loop.trips) (k0_t3 : Fin k0_t3_loop.trips) (c5_i32 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v531 : Index := Scalar.indexCast v311
  let c0_i32_282 : BitVec 32 := 0#32
  let v532 : Index := Scalar.indexCast c0_i32_282
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_274 : BitVec 32 := 16#32
  let v511 : BitVec 32 := Scalar.muli v317 c16_i32_274
  let v512 : BitVec 32 := Scalar.addi v511 c5_i32
  let c0_i32_276 : BitVec 32 := 0#32
  let v514 : BitVec 1 := Scalar.cmpi .sgt v512 c0_i32_276
  let v515 : BitVec 32 := Scalar.extui v514
  let c0_i32_277 : BitVec 32 := 0#32
  let v516 : BitVec 1 := Scalar.cmpi .slt v512 c0_i32_277
  let v517 : BitVec 32 := Scalar.extui v516
  let v518 : BitVec 32 := Scalar.subi v515 v517
  let c8_i32_275 : BitVec 32 := 8#32
  let c0_i32_278 : BitVec 32 := 0#32
  let v519 : BitVec 1 := Scalar.cmpi .sgt c8_i32_275 c0_i32_278
  let v520 : BitVec 32 := Scalar.extui v519
  let c0_i32_279 : BitVec 32 := 0#32
  let v521 : BitVec 1 := Scalar.cmpi .slt c8_i32_275 c0_i32_279
  let v522 : BitVec 32 := Scalar.extui v521
  let v523 : BitVec 32 := Scalar.subi v520 v522
  let v524 : BitVec 1 := Scalar.cmpi .ne v518 v523
  let v525 : BitVec 32 := Scalar.remsi v512 c8_i32_275
  let c0_i32_280 : BitVec 32 := 0#32
  let v526 : BitVec 1 := Scalar.cmpi .ne v525 c0_i32_280
  let v527 : BitVec 1 := Scalar.andi v524 v526
  let v513 : BitVec 32 := Scalar.divsi v512 c8_i32_275
  let c1_i32_281 : BitVec 32 := 1#32
  let v528 : BitVec 32 := Scalar.subi v513 c1_i32_281
  let v529 : BitVec 32 := Scalar.select v527 v528 v513
  let v533 : Index := Scalar.indexCast v529
  let c0_i32_283 : BitVec 32 := 0#32
  let v534 : Index := Scalar.indexCast c0_i32_283
  let c80_284 : Index := 80#32
  ![v531.toNat, 0, v533.toNat, 0, 80]
def k0_off11 (k0_t2 : Fin k0_t2_loop.trips) (k0_t3 : Fin k0_t3_loop.trips) (c6_i32 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v556 : Index := Scalar.indexCast v311
  let c0_i32_293 : BitVec 32 := 0#32
  let v557 : Index := Scalar.indexCast c0_i32_293
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_285 : BitVec 32 := 16#32
  let v536 : BitVec 32 := Scalar.muli v317 c16_i32_285
  let v537 : BitVec 32 := Scalar.addi v536 c6_i32
  let c0_i32_287 : BitVec 32 := 0#32
  let v539 : BitVec 1 := Scalar.cmpi .sgt v537 c0_i32_287
  let v540 : BitVec 32 := Scalar.extui v539
  let c0_i32_288 : BitVec 32 := 0#32
  let v541 : BitVec 1 := Scalar.cmpi .slt v537 c0_i32_288
  let v542 : BitVec 32 := Scalar.extui v541
  let v543 : BitVec 32 := Scalar.subi v540 v542
  let c8_i32_286 : BitVec 32 := 8#32
  let c0_i32_289 : BitVec 32 := 0#32
  let v544 : BitVec 1 := Scalar.cmpi .sgt c8_i32_286 c0_i32_289
  let v545 : BitVec 32 := Scalar.extui v544
  let c0_i32_290 : BitVec 32 := 0#32
  let v546 : BitVec 1 := Scalar.cmpi .slt c8_i32_286 c0_i32_290
  let v547 : BitVec 32 := Scalar.extui v546
  let v548 : BitVec 32 := Scalar.subi v545 v547
  let v549 : BitVec 1 := Scalar.cmpi .ne v543 v548
  let v550 : BitVec 32 := Scalar.remsi v537 c8_i32_286
  let c0_i32_291 : BitVec 32 := 0#32
  let v551 : BitVec 1 := Scalar.cmpi .ne v550 c0_i32_291
  let v552 : BitVec 1 := Scalar.andi v549 v551
  let v538 : BitVec 32 := Scalar.divsi v537 c8_i32_286
  let c1_i32_292 : BitVec 32 := 1#32
  let v553 : BitVec 32 := Scalar.subi v538 c1_i32_292
  let v554 : BitVec 32 := Scalar.select v552 v553 v538
  let v558 : Index := Scalar.indexCast v554
  let c0_i32_294 : BitVec 32 := 0#32
  let v559 : Index := Scalar.indexCast c0_i32_294
  let c96_295 : Index := 96#32
  ![v556.toNat, 0, v558.toNat, 0, 96]
def k0_off12 (k0_t2 : Fin k0_t2_loop.trips) (k0_t3 : Fin k0_t3_loop.trips) (c7_i32 : BitVec 32) : Fin 5 → Nat :=
  let c0_i32_203 : BitVec 32 := 0#32
  let c0_i32_31 : BitVec 32 := 0#32
  let c1_i32_32 : BitVec 32 := 1#32
  let arg22 : BitVec 32 := Scf.iv c0_i32_31 c1_i32_32 k0_t2
  let c1_i32_202 : BitVec 32 := 1#32
  let v310 : BitVec 32 := Scalar.muli arg22 c1_i32_202
  let v311 : BitVec 32 := Scalar.addi c0_i32_203 v310
  let v581 : Index := Scalar.indexCast v311
  let c0_i32_304 : BitVec 32 := 0#32
  let v582 : Index := Scalar.indexCast c0_i32_304
  let c0_i32_210 : BitVec 32 := 0#32
  let c0_i32_205 : BitVec 32 := 0#32
  let c1_i32_207 : BitVec 32 := 1#32
  let arg23 : BitVec 32 := Scf.iv c0_i32_205 c1_i32_207 k0_t3
  let c1_i32_209 : BitVec 32 := 1#32
  let v316 : BitVec 32 := Scalar.muli arg23 c1_i32_209
  let v317 : BitVec 32 := Scalar.addi c0_i32_210 v316
  let c16_i32_296 : BitVec 32 := 16#32
  let v561 : BitVec 32 := Scalar.muli v317 c16_i32_296
  let v562 : BitVec 32 := Scalar.addi v561 c7_i32
  let c0_i32_298 : BitVec 32 := 0#32
  let v564 : BitVec 1 := Scalar.cmpi .sgt v562 c0_i32_298
  let v565 : BitVec 32 := Scalar.extui v564
  let c0_i32_299 : BitVec 32 := 0#32
  let v566 : BitVec 1 := Scalar.cmpi .slt v562 c0_i32_299
  let v567 : BitVec 32 := Scalar.extui v566
  let v568 : BitVec 32 := Scalar.subi v565 v567
  let c8_i32_297 : BitVec 32 := 8#32
  let c0_i32_300 : BitVec 32 := 0#32
  let v569 : BitVec 1 := Scalar.cmpi .sgt c8_i32_297 c0_i32_300
  let v570 : BitVec 32 := Scalar.extui v569
  let c0_i32_301 : BitVec 32 := 0#32
  let v571 : BitVec 1 := Scalar.cmpi .slt c8_i32_297 c0_i32_301
  let v572 : BitVec 32 := Scalar.extui v571
  let v573 : BitVec 32 := Scalar.subi v570 v572
  let v574 : BitVec 1 := Scalar.cmpi .ne v568 v573
  let v575 : BitVec 32 := Scalar.remsi v562 c8_i32_297
  let c0_i32_302 : BitVec 32 := 0#32
  let v576 : BitVec 1 := Scalar.cmpi .ne v575 c0_i32_302
  let v577 : BitVec 1 := Scalar.andi v574 v576
  let v563 : BitVec 32 := Scalar.divsi v562 c8_i32_297
  let c1_i32_303 : BitVec 32 := 1#32
  let v578 : BitVec 32 := Scalar.subi v563 c1_i32_303
  let v579 : BitVec 32 := Scalar.select v577 v578 v563
  let v583 : Index := Scalar.indexCast v579
  let c0_i32_305 : BitVec 32 := 0#32
  let v584 : Index := Scalar.indexCast c0_i32_305
  let c112_306 : Index := 112#32
  ![v581.toNat, 0, v583.toNat, 0, 112]
def k0_off13 (i : grid0.Coords) (k0_t1 : Fin k0_t1_loop.trips) : Fin 5 → Nat :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_34 : BitVec 32 := 0#32
  let v65 : BitVec 1 := Scalar.cmpi .sgt v10 c0_i32_34
  let v66 : BitVec 32 := Scalar.extui v65
  let c0_i32_35 : BitVec 32 := 0#32
  let v67 : BitVec 1 := Scalar.cmpi .slt v10 c0_i32_35
  let v68 : BitVec 32 := Scalar.extui v67
  let v69 : BitVec 32 := Scalar.subi v66 v68
  let c8_i32 : BitVec 32 := 8#32
  let c0_i32_36 : BitVec 32 := 0#32
  let v70 : BitVec 1 := Scalar.cmpi .sgt c8_i32 c0_i32_36
  let v71 : BitVec 32 := Scalar.extui v70
  let c0_i32_37 : BitVec 32 := 0#32
  let v72 : BitVec 1 := Scalar.cmpi .slt c8_i32 c0_i32_37
  let v73 : BitVec 32 := Scalar.extui v72
  let v74 : BitVec 32 := Scalar.subi v71 v73
  let v75 : BitVec 1 := Scalar.cmpi .ne v69 v74
  let v76 : BitVec 32 := Scalar.remsi v10 c8_i32
  let c0_i32_38 : BitVec 32 := 0#32
  let v77 : BitVec 1 := Scalar.cmpi .ne v76 c0_i32_38
  let v78 : BitVec 1 := Scalar.andi v75 v77
  let v64 : BitVec 32 := Scalar.divsi v10 c8_i32
  let c1_i32_39 : BitVec 32 := 1#32
  let v79 : BitVec 32 := Scalar.subi v64 c1_i32_39
  let v80 : BitVec 32 := Scalar.select v78 v79 v64
  let c0_i32_47 : BitVec 32 := 0#32
  let c8_i32_40 : BitVec 32 := 8#32
  let c0_i32_41 : BitVec 32 := 0#32
  let v81 : BitVec 1 := Scalar.cmpi .eq c8_i32_40 c0_i32_41
  let c1_i32_42 : BitVec 32 := 1#32
  let v82 : BitVec 32 := Scalar.select v81 c1_i32_42 c8_i32_40
  let v83 : BitVec 32 := Scalar.remsi v10 v82
  let c0_i32_44 : BitVec 32 := 0#32
  let v85 : BitVec 1 := Scalar.cmpi .slt v83 c0_i32_44
  let c0_i32_45 : BitVec 32 := 0#32
  let v86 : BitVec 1 := Scalar.cmpi .slt v82 c0_i32_45
  let v87 : BitVec 1 := Scalar.xori v85 v86
  let c0_i32_43 : BitVec 32 := 0#32
  let v84 : BitVec 1 := Scalar.cmpi .ne v83 c0_i32_43
  let v88 : BitVec 1 := Scalar.andi v87 v84
  let v89 : BitVec 32 := Scalar.addi v83 v82
  let v90 : BitVec 32 := Scalar.select v88 v89 v83
  let c0_i32_48 : BitVec 32 := 0#32
  ![0, v80.toNat, 0, v90.toNat, 0]
@[reducible] def k0_t4_loop : Scf.Loop 32 :=
  let c0_i32_55 : BitVec 32 := 0#32
  let c4_i32_56 : BitVec 32 := 4#32
  let v97 : BitVec 32 := Scalar.addi c0_i32_55 c4_i32_56
  let c1_i32_57 : BitVec 32 := 1#32
  ⟨c0_i32_55, v97, c1_i32_57⟩

def k0_chk19 (v313 : IVec S16 32) : Prop :=
  (∀ a x, ((![v313] : Fin 1 → IVec S16 32) a x).toNat < S208.size a)
instance k0_chk19.dec : ∀ (v313 : IVec S16 32), Decidable (k0_chk19 v313) := fun v313 => decidable_of_iff' _ (Iff.of_eq (k0_chk19.eq_1 v313))
theorem k0_idx19_inb : ∀ (v313 : IVec S16 32) (k0_hw19 : k0_chk19 v313), ∀ a x, ((![v313] : Fin 1 → IVec S16 32) a x).toNat < S208.size a := fun v313 k0_hw19 => k0_hw19
@[reducible] def k0_t5_loop : Scf.Loop 32 :=
  let c0_i32_205 : BitVec 32 := 0#32
  let c4_i32_206 : BitVec 32 := 4#32
  let v315 : BitVec 32 := Scalar.addi c0_i32_205 c4_i32_206
  let c1_i32_207 : BitVec 32 := 1#32
  ⟨c0_i32_205, v315, c1_i32_207⟩
def k0_off14 (k0_t4 : Fin k0_t4_loop.trips) (k0_t5 : Fin k0_t5_loop.trips) (c0_i32_212 : BitVec 32) : Fin 1 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let c1024_i32 : BitVec 32 := 1024#32
  let v318 : BitVec 32 := Scalar.muli v311 c1024_i32
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32 : BitVec 32 := 16#32
  let v319 : BitVec 32 := Scalar.muli v317 c16_i32
  let c16_i32_211 : BitVec 32 := 16#32
  let v320 : BitVec 32 := Scalar.muli v319 c16_i32_211
  let v321 : BitVec 32 := Scalar.addi v318 v320
  let v322 : BitVec 32 := Scalar.addi v321 c0_i32_212
  let v323 : Index := Scalar.indexCast v322
  ![v323.toNat]

def k0_chk20 (v2 : IVec S16 32) (v324 : IVec S16 32) : Prop :=
  (∀ a x, ((![v2, v324] : Fin 2 → IVec S16 32) a x).toNat < S1x100000.size a)
instance k0_chk20.dec : ∀ (v2 : IVec S16 32) (v324 : IVec S16 32), Decidable (k0_chk20 v2 v324) := fun v2 v324 => decidable_of_iff' _ (Iff.of_eq (k0_chk20.eq_1 v2 v324))
theorem k0_idx20_inb : ∀ (v2 : IVec S16 32) (v324 : IVec S16 32) (k0_hw20 : k0_chk20 v2 v324), ∀ a x, ((![v2, v324] : Fin 2 → IVec S16 32) a x).toNat < S1x100000.size a := fun v2 v324 k0_hw20 => k0_hw20

def k0_chk21 (v2 : IVec S16 32) (v327 : IVec S16 32) : Prop :=
  (∀ a x, ((![v2, v327] : Fin 2 → IVec S16 32) a x).toNat < S1x100000.size a)
instance k0_chk21.dec : ∀ (v2 : IVec S16 32) (v327 : IVec S16 32), Decidable (k0_chk21 v2 v327) := fun v2 v327 => decidable_of_iff' _ (Iff.of_eq (k0_chk21.eq_1 v2 v327))
theorem k0_idx21_inb : ∀ (v2 : IVec S16 32) (v327 : IVec S16 32) (k0_hw21 : k0_chk21 v2 v327), ∀ a x, ((![v2, v327] : Fin 2 → IVec S16 32) a x).toNat < S1x100000.size a := fun v2 v327 k0_hw21 => k0_hw21

def k0_chk22 (v2 : IVec S16 32) (v330 : IVec S16 32) : Prop :=
  (∀ a x, ((![v2, v330] : Fin 2 → IVec S16 32) a x).toNat < S1x100000.size a)
instance k0_chk22.dec : ∀ (v2 : IVec S16 32) (v330 : IVec S16 32), Decidable (k0_chk22 v2 v330) := fun v2 v330 => decidable_of_iff' _ (Iff.of_eq (k0_chk22.eq_1 v2 v330))
theorem k0_idx22_inb : ∀ (v2 : IVec S16 32) (v330 : IVec S16 32) (k0_hw22 : k0_chk22 v2 v330), ∀ a x, ((![v2, v330] : Fin 2 → IVec S16 32) a x).toNat < S1x100000.size a := fun v2 v330 k0_hw22 => k0_hw22

def k0_chk23 (v2 : IVec S16 32) (v333 : IVec S16 32) : Prop :=
  (∀ a x, ((![v2, v333] : Fin 2 → IVec S16 32) a x).toNat < S1x100000.size a)
instance k0_chk23.dec : ∀ (v2 : IVec S16 32) (v333 : IVec S16 32), Decidable (k0_chk23 v2 v333) := fun v2 v333 => decidable_of_iff' _ (Iff.of_eq (k0_chk23.eq_1 v2 v333))
theorem k0_idx23_inb : ∀ (v2 : IVec S16 32) (v333 : IVec S16 32) (k0_hw23 : k0_chk23 v2 v333), ∀ a x, ((![v2, v333] : Fin 2 → IVec S16 32) a x).toNat < S1x100000.size a := fun v2 v333 k0_hw23 => k0_hw23

def k0_chk24 (v2 : IVec S16 32) (v336 : IVec S16 32) : Prop :=
  (∀ a x, ((![v2, v336] : Fin 2 → IVec S16 32) a x).toNat < S1x100000.size a)
instance k0_chk24.dec : ∀ (v2 : IVec S16 32) (v336 : IVec S16 32), Decidable (k0_chk24 v2 v336) := fun v2 v336 => decidable_of_iff' _ (Iff.of_eq (k0_chk24.eq_1 v2 v336))
theorem k0_idx24_inb : ∀ (v2 : IVec S16 32) (v336 : IVec S16 32) (k0_hw24 : k0_chk24 v2 v336), ∀ a x, ((![v2, v336] : Fin 2 → IVec S16 32) a x).toNat < S1x100000.size a := fun v2 v336 k0_hw24 => k0_hw24

def k0_chk25 (v2 : IVec S16 32) (v339 : IVec S16 32) : Prop :=
  (∀ a x, ((![v2, v339] : Fin 2 → IVec S16 32) a x).toNat < S1x100000.size a)
instance k0_chk25.dec : ∀ (v2 : IVec S16 32) (v339 : IVec S16 32), Decidable (k0_chk25 v2 v339) := fun v2 v339 => decidable_of_iff' _ (Iff.of_eq (k0_chk25.eq_1 v2 v339))
theorem k0_idx25_inb : ∀ (v2 : IVec S16 32) (v339 : IVec S16 32) (k0_hw25 : k0_chk25 v2 v339), ∀ a x, ((![v2, v339] : Fin 2 → IVec S16 32) a x).toNat < S1x100000.size a := fun v2 v339 k0_hw25 => k0_hw25

def k0_chk26 (v2 : IVec S16 32) (v342 : IVec S16 32) : Prop :=
  (∀ a x, ((![v2, v342] : Fin 2 → IVec S16 32) a x).toNat < S1x100000.size a)
instance k0_chk26.dec : ∀ (v2 : IVec S16 32) (v342 : IVec S16 32), Decidable (k0_chk26 v2 v342) := fun v2 v342 => decidable_of_iff' _ (Iff.of_eq (k0_chk26.eq_1 v2 v342))
theorem k0_idx26_inb : ∀ (v2 : IVec S16 32) (v342 : IVec S16 32) (k0_hw26 : k0_chk26 v2 v342), ∀ a x, ((![v2, v342] : Fin 2 → IVec S16 32) a x).toNat < S1x100000.size a := fun v2 v342 k0_hw26 => k0_hw26

def k0_chk27 (v2 : IVec S16 32) (v345 : IVec S16 32) : Prop :=
  (∀ a x, ((![v2, v345] : Fin 2 → IVec S16 32) a x).toNat < S1x100000.size a)
instance k0_chk27.dec : ∀ (v2 : IVec S16 32) (v345 : IVec S16 32), Decidable (k0_chk27 v2 v345) := fun v2 v345 => decidable_of_iff' _ (Iff.of_eq (k0_chk27.eq_1 v2 v345))
theorem k0_idx27_inb : ∀ (v2 : IVec S16 32) (v345 : IVec S16 32) (k0_hw27 : k0_chk27 v2 v345), ∀ a x, ((![v2, v345] : Fin 2 → IVec S16 32) a x).toNat < S1x100000.size a := fun v2 v345 k0_hw27 => k0_hw27

def k0_chk28 (v2 : IVec S16 32) (v348 : IVec S16 32) : Prop :=
  (∀ a x, ((![v2, v348] : Fin 2 → IVec S16 32) a x).toNat < S1x100000.size a)
instance k0_chk28.dec : ∀ (v2 : IVec S16 32) (v348 : IVec S16 32), Decidable (k0_chk28 v2 v348) := fun v2 v348 => decidable_of_iff' _ (Iff.of_eq (k0_chk28.eq_1 v2 v348))
theorem k0_idx28_inb : ∀ (v2 : IVec S16 32) (v348 : IVec S16 32) (k0_hw28 : k0_chk28 v2 v348), ∀ a x, ((![v2, v348] : Fin 2 → IVec S16 32) a x).toNat < S1x100000.size a := fun v2 v348 k0_hw28 => k0_hw28

def k0_chk29 (v2 : IVec S16 32) (v351 : IVec S16 32) : Prop :=
  (∀ a x, ((![v2, v351] : Fin 2 → IVec S16 32) a x).toNat < S1x100000.size a)
instance k0_chk29.dec : ∀ (v2 : IVec S16 32) (v351 : IVec S16 32), Decidable (k0_chk29 v2 v351) := fun v2 v351 => decidable_of_iff' _ (Iff.of_eq (k0_chk29.eq_1 v2 v351))
theorem k0_idx29_inb : ∀ (v2 : IVec S16 32) (v351 : IVec S16 32) (k0_hw29 : k0_chk29 v2 v351), ∀ a x, ((![v2, v351] : Fin 2 → IVec S16 32) a x).toNat < S1x100000.size a := fun v2 v351 k0_hw29 => k0_hw29

def k0_chk30 (v2 : IVec S16 32) (v354 : IVec S16 32) : Prop :=
  (∀ a x, ((![v2, v354] : Fin 2 → IVec S16 32) a x).toNat < S1x100000.size a)
instance k0_chk30.dec : ∀ (v2 : IVec S16 32) (v354 : IVec S16 32), Decidable (k0_chk30 v2 v354) := fun v2 v354 => decidable_of_iff' _ (Iff.of_eq (k0_chk30.eq_1 v2 v354))
theorem k0_idx30_inb : ∀ (v2 : IVec S16 32) (v354 : IVec S16 32) (k0_hw30 : k0_chk30 v2 v354), ∀ a x, ((![v2, v354] : Fin 2 → IVec S16 32) a x).toNat < S1x100000.size a := fun v2 v354 k0_hw30 => k0_hw30

def k0_chk31 (v2 : IVec S16 32) (v357 : IVec S16 32) : Prop :=
  (∀ a x, ((![v2, v357] : Fin 2 → IVec S16 32) a x).toNat < S1x100000.size a)
instance k0_chk31.dec : ∀ (v2 : IVec S16 32) (v357 : IVec S16 32), Decidable (k0_chk31 v2 v357) := fun v2 v357 => decidable_of_iff' _ (Iff.of_eq (k0_chk31.eq_1 v2 v357))
theorem k0_idx31_inb : ∀ (v2 : IVec S16 32) (v357 : IVec S16 32) (k0_hw31 : k0_chk31 v2 v357), ∀ a x, ((![v2, v357] : Fin 2 → IVec S16 32) a x).toNat < S1x100000.size a := fun v2 v357 k0_hw31 => k0_hw31

def k0_chk32 (v2 : IVec S16 32) (v360 : IVec S16 32) : Prop :=
  (∀ a x, ((![v2, v360] : Fin 2 → IVec S16 32) a x).toNat < S1x100000.size a)
instance k0_chk32.dec : ∀ (v2 : IVec S16 32) (v360 : IVec S16 32), Decidable (k0_chk32 v2 v360) := fun v2 v360 => decidable_of_iff' _ (Iff.of_eq (k0_chk32.eq_1 v2 v360))
theorem k0_idx32_inb : ∀ (v2 : IVec S16 32) (v360 : IVec S16 32) (k0_hw32 : k0_chk32 v2 v360), ∀ a x, ((![v2, v360] : Fin 2 → IVec S16 32) a x).toNat < S1x100000.size a := fun v2 v360 k0_hw32 => k0_hw32

def k0_chk33 (v2 : IVec S16 32) (v363 : IVec S16 32) : Prop :=
  (∀ a x, ((![v2, v363] : Fin 2 → IVec S16 32) a x).toNat < S1x100000.size a)
instance k0_chk33.dec : ∀ (v2 : IVec S16 32) (v363 : IVec S16 32), Decidable (k0_chk33 v2 v363) := fun v2 v363 => decidable_of_iff' _ (Iff.of_eq (k0_chk33.eq_1 v2 v363))
theorem k0_idx33_inb : ∀ (v2 : IVec S16 32) (v363 : IVec S16 32) (k0_hw33 : k0_chk33 v2 v363), ∀ a x, ((![v2, v363] : Fin 2 → IVec S16 32) a x).toNat < S1x100000.size a := fun v2 v363 k0_hw33 => k0_hw33

def k0_chk34 (v2 : IVec S16 32) (v366 : IVec S16 32) : Prop :=
  (∀ a x, ((![v2, v366] : Fin 2 → IVec S16 32) a x).toNat < S1x100000.size a)
instance k0_chk34.dec : ∀ (v2 : IVec S16 32) (v366 : IVec S16 32), Decidable (k0_chk34 v2 v366) := fun v2 v366 => decidable_of_iff' _ (Iff.of_eq (k0_chk34.eq_1 v2 v366))
theorem k0_idx34_inb : ∀ (v2 : IVec S16 32) (v366 : IVec S16 32) (k0_hw34 : k0_chk34 v2 v366), ∀ a x, ((![v2, v366] : Fin 2 → IVec S16 32) a x).toNat < S1x100000.size a := fun v2 v366 k0_hw34 => k0_hw34

def k0_chk35 (v2 : IVec S16 32) (v369 : IVec S16 32) : Prop :=
  (∀ a x, ((![v2, v369] : Fin 2 → IVec S16 32) a x).toNat < S1x100000.size a)
instance k0_chk35.dec : ∀ (v2 : IVec S16 32) (v369 : IVec S16 32), Decidable (k0_chk35 v2 v369) := fun v2 v369 => decidable_of_iff' _ (Iff.of_eq (k0_chk35.eq_1 v2 v369))
theorem k0_idx35_inb : ∀ (v2 : IVec S16 32) (v369 : IVec S16 32) (k0_hw35 : k0_chk35 v2 v369), ∀ a x, ((![v2, v369] : Fin 2 → IVec S16 32) a x).toNat < S1x100000.size a := fun v2 v369 k0_hw35 => k0_hw35
def k0_off15 (k0_t4 : Fin k0_t4_loop.trips) (k0_t5 : Fin k0_t5_loop.trips) (c0_i32_216 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v406 : Index := Scalar.indexCast v311
  let c0_i32_224 : BitVec 32 := 0#32
  let v407 : Index := Scalar.indexCast c0_i32_224
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_215 : BitVec 32 := 16#32
  let v386 : BitVec 32 := Scalar.muli v317 c16_i32_215
  let v387 : BitVec 32 := Scalar.addi v386 c0_i32_216
  let c0_i32_218 : BitVec 32 := 0#32
  let v389 : BitVec 1 := Scalar.cmpi .sgt v387 c0_i32_218
  let v390 : BitVec 32 := Scalar.extui v389
  let c0_i32_219 : BitVec 32 := 0#32
  let v391 : BitVec 1 := Scalar.cmpi .slt v387 c0_i32_219
  let v392 : BitVec 32 := Scalar.extui v391
  let v393 : BitVec 32 := Scalar.subi v390 v392
  let c8_i32_217 : BitVec 32 := 8#32
  let c0_i32_220 : BitVec 32 := 0#32
  let v394 : BitVec 1 := Scalar.cmpi .sgt c8_i32_217 c0_i32_220
  let v395 : BitVec 32 := Scalar.extui v394
  let c0_i32_221 : BitVec 32 := 0#32
  let v396 : BitVec 1 := Scalar.cmpi .slt c8_i32_217 c0_i32_221
  let v397 : BitVec 32 := Scalar.extui v396
  let v398 : BitVec 32 := Scalar.subi v395 v397
  let v399 : BitVec 1 := Scalar.cmpi .ne v393 v398
  let v400 : BitVec 32 := Scalar.remsi v387 c8_i32_217
  let c0_i32_222 : BitVec 32 := 0#32
  let v401 : BitVec 1 := Scalar.cmpi .ne v400 c0_i32_222
  let v402 : BitVec 1 := Scalar.andi v399 v401
  let v388 : BitVec 32 := Scalar.divsi v387 c8_i32_217
  let c1_i32_223 : BitVec 32 := 1#32
  let v403 : BitVec 32 := Scalar.subi v388 c1_i32_223
  let v404 : BitVec 32 := Scalar.select v402 v403 v388
  let v408 : Index := Scalar.indexCast v404
  let c0_i32_225 : BitVec 32 := 0#32
  let v409 : Index := Scalar.indexCast c0_i32_225
  let c0_226 : Index := 0#32
  ![v406.toNat, 0, v408.toNat, 0, 0]
def k0_off16 (k0_t4 : Fin k0_t4_loop.trips) (k0_t5 : Fin k0_t5_loop.trips) (c1_i32_228 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v431 : Index := Scalar.indexCast v311
  let c0_i32_236 : BitVec 32 := 0#32
  let v432 : Index := Scalar.indexCast c0_i32_236
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_227 : BitVec 32 := 16#32
  let v411 : BitVec 32 := Scalar.muli v317 c16_i32_227
  let v412 : BitVec 32 := Scalar.addi v411 c1_i32_228
  let c0_i32_230 : BitVec 32 := 0#32
  let v414 : BitVec 1 := Scalar.cmpi .sgt v412 c0_i32_230
  let v415 : BitVec 32 := Scalar.extui v414
  let c0_i32_231 : BitVec 32 := 0#32
  let v416 : BitVec 1 := Scalar.cmpi .slt v412 c0_i32_231
  let v417 : BitVec 32 := Scalar.extui v416
  let v418 : BitVec 32 := Scalar.subi v415 v417
  let c8_i32_229 : BitVec 32 := 8#32
  let c0_i32_232 : BitVec 32 := 0#32
  let v419 : BitVec 1 := Scalar.cmpi .sgt c8_i32_229 c0_i32_232
  let v420 : BitVec 32 := Scalar.extui v419
  let c0_i32_233 : BitVec 32 := 0#32
  let v421 : BitVec 1 := Scalar.cmpi .slt c8_i32_229 c0_i32_233
  let v422 : BitVec 32 := Scalar.extui v421
  let v423 : BitVec 32 := Scalar.subi v420 v422
  let v424 : BitVec 1 := Scalar.cmpi .ne v418 v423
  let v425 : BitVec 32 := Scalar.remsi v412 c8_i32_229
  let c0_i32_234 : BitVec 32 := 0#32
  let v426 : BitVec 1 := Scalar.cmpi .ne v425 c0_i32_234
  let v427 : BitVec 1 := Scalar.andi v424 v426
  let v413 : BitVec 32 := Scalar.divsi v412 c8_i32_229
  let c1_i32_235 : BitVec 32 := 1#32
  let v428 : BitVec 32 := Scalar.subi v413 c1_i32_235
  let v429 : BitVec 32 := Scalar.select v427 v428 v413
  let v433 : Index := Scalar.indexCast v429
  let c0_i32_237 : BitVec 32 := 0#32
  let v434 : Index := Scalar.indexCast c0_i32_237
  let c16_238 : Index := 16#32
  ![v431.toNat, 0, v433.toNat, 0, 16]
def k0_off17 (k0_t4 : Fin k0_t4_loop.trips) (k0_t5 : Fin k0_t5_loop.trips) (c2_i32_240 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v456 : Index := Scalar.indexCast v311
  let c0_i32_248 : BitVec 32 := 0#32
  let v457 : Index := Scalar.indexCast c0_i32_248
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_239 : BitVec 32 := 16#32
  let v436 : BitVec 32 := Scalar.muli v317 c16_i32_239
  let v437 : BitVec 32 := Scalar.addi v436 c2_i32_240
  let c0_i32_242 : BitVec 32 := 0#32
  let v439 : BitVec 1 := Scalar.cmpi .sgt v437 c0_i32_242
  let v440 : BitVec 32 := Scalar.extui v439
  let c0_i32_243 : BitVec 32 := 0#32
  let v441 : BitVec 1 := Scalar.cmpi .slt v437 c0_i32_243
  let v442 : BitVec 32 := Scalar.extui v441
  let v443 : BitVec 32 := Scalar.subi v440 v442
  let c8_i32_241 : BitVec 32 := 8#32
  let c0_i32_244 : BitVec 32 := 0#32
  let v444 : BitVec 1 := Scalar.cmpi .sgt c8_i32_241 c0_i32_244
  let v445 : BitVec 32 := Scalar.extui v444
  let c0_i32_245 : BitVec 32 := 0#32
  let v446 : BitVec 1 := Scalar.cmpi .slt c8_i32_241 c0_i32_245
  let v447 : BitVec 32 := Scalar.extui v446
  let v448 : BitVec 32 := Scalar.subi v445 v447
  let v449 : BitVec 1 := Scalar.cmpi .ne v443 v448
  let v450 : BitVec 32 := Scalar.remsi v437 c8_i32_241
  let c0_i32_246 : BitVec 32 := 0#32
  let v451 : BitVec 1 := Scalar.cmpi .ne v450 c0_i32_246
  let v452 : BitVec 1 := Scalar.andi v449 v451
  let v438 : BitVec 32 := Scalar.divsi v437 c8_i32_241
  let c1_i32_247 : BitVec 32 := 1#32
  let v453 : BitVec 32 := Scalar.subi v438 c1_i32_247
  let v454 : BitVec 32 := Scalar.select v452 v453 v438
  let v458 : Index := Scalar.indexCast v454
  let c0_i32_249 : BitVec 32 := 0#32
  let v459 : Index := Scalar.indexCast c0_i32_249
  let c32_250 : Index := 32#32
  ![v456.toNat, 0, v458.toNat, 0, 32]
def k0_off18 (k0_t4 : Fin k0_t4_loop.trips) (k0_t5 : Fin k0_t5_loop.trips) (c3_i32 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v481 : Index := Scalar.indexCast v311
  let c0_i32_259 : BitVec 32 := 0#32
  let v482 : Index := Scalar.indexCast c0_i32_259
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_251 : BitVec 32 := 16#32
  let v461 : BitVec 32 := Scalar.muli v317 c16_i32_251
  let v462 : BitVec 32 := Scalar.addi v461 c3_i32
  let c0_i32_253 : BitVec 32 := 0#32
  let v464 : BitVec 1 := Scalar.cmpi .sgt v462 c0_i32_253
  let v465 : BitVec 32 := Scalar.extui v464
  let c0_i32_254 : BitVec 32 := 0#32
  let v466 : BitVec 1 := Scalar.cmpi .slt v462 c0_i32_254
  let v467 : BitVec 32 := Scalar.extui v466
  let v468 : BitVec 32 := Scalar.subi v465 v467
  let c8_i32_252 : BitVec 32 := 8#32
  let c0_i32_255 : BitVec 32 := 0#32
  let v469 : BitVec 1 := Scalar.cmpi .sgt c8_i32_252 c0_i32_255
  let v470 : BitVec 32 := Scalar.extui v469
  let c0_i32_256 : BitVec 32 := 0#32
  let v471 : BitVec 1 := Scalar.cmpi .slt c8_i32_252 c0_i32_256
  let v472 : BitVec 32 := Scalar.extui v471
  let v473 : BitVec 32 := Scalar.subi v470 v472
  let v474 : BitVec 1 := Scalar.cmpi .ne v468 v473
  let v475 : BitVec 32 := Scalar.remsi v462 c8_i32_252
  let c0_i32_257 : BitVec 32 := 0#32
  let v476 : BitVec 1 := Scalar.cmpi .ne v475 c0_i32_257
  let v477 : BitVec 1 := Scalar.andi v474 v476
  let v463 : BitVec 32 := Scalar.divsi v462 c8_i32_252
  let c1_i32_258 : BitVec 32 := 1#32
  let v478 : BitVec 32 := Scalar.subi v463 c1_i32_258
  let v479 : BitVec 32 := Scalar.select v477 v478 v463
  let v483 : Index := Scalar.indexCast v479
  let c0_i32_260 : BitVec 32 := 0#32
  let v484 : Index := Scalar.indexCast c0_i32_260
  let c48_261 : Index := 48#32
  ![v481.toNat, 0, v483.toNat, 0, 48]
def k0_off19 (k0_t4 : Fin k0_t4_loop.trips) (k0_t5 : Fin k0_t5_loop.trips) (c4_i32_263 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v506 : Index := Scalar.indexCast v311
  let c0_i32_271 : BitVec 32 := 0#32
  let v507 : Index := Scalar.indexCast c0_i32_271
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_262 : BitVec 32 := 16#32
  let v486 : BitVec 32 := Scalar.muli v317 c16_i32_262
  let v487 : BitVec 32 := Scalar.addi v486 c4_i32_263
  let c0_i32_265 : BitVec 32 := 0#32
  let v489 : BitVec 1 := Scalar.cmpi .sgt v487 c0_i32_265
  let v490 : BitVec 32 := Scalar.extui v489
  let c0_i32_266 : BitVec 32 := 0#32
  let v491 : BitVec 1 := Scalar.cmpi .slt v487 c0_i32_266
  let v492 : BitVec 32 := Scalar.extui v491
  let v493 : BitVec 32 := Scalar.subi v490 v492
  let c8_i32_264 : BitVec 32 := 8#32
  let c0_i32_267 : BitVec 32 := 0#32
  let v494 : BitVec 1 := Scalar.cmpi .sgt c8_i32_264 c0_i32_267
  let v495 : BitVec 32 := Scalar.extui v494
  let c0_i32_268 : BitVec 32 := 0#32
  let v496 : BitVec 1 := Scalar.cmpi .slt c8_i32_264 c0_i32_268
  let v497 : BitVec 32 := Scalar.extui v496
  let v498 : BitVec 32 := Scalar.subi v495 v497
  let v499 : BitVec 1 := Scalar.cmpi .ne v493 v498
  let v500 : BitVec 32 := Scalar.remsi v487 c8_i32_264
  let c0_i32_269 : BitVec 32 := 0#32
  let v501 : BitVec 1 := Scalar.cmpi .ne v500 c0_i32_269
  let v502 : BitVec 1 := Scalar.andi v499 v501
  let v488 : BitVec 32 := Scalar.divsi v487 c8_i32_264
  let c1_i32_270 : BitVec 32 := 1#32
  let v503 : BitVec 32 := Scalar.subi v488 c1_i32_270
  let v504 : BitVec 32 := Scalar.select v502 v503 v488
  let v508 : Index := Scalar.indexCast v504
  let c0_i32_272 : BitVec 32 := 0#32
  let v509 : Index := Scalar.indexCast c0_i32_272
  let c64_273 : Index := 64#32
  ![v506.toNat, 0, v508.toNat, 0, 64]
def k0_off20 (k0_t4 : Fin k0_t4_loop.trips) (k0_t5 : Fin k0_t5_loop.trips) (c5_i32 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v531 : Index := Scalar.indexCast v311
  let c0_i32_282 : BitVec 32 := 0#32
  let v532 : Index := Scalar.indexCast c0_i32_282
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_274 : BitVec 32 := 16#32
  let v511 : BitVec 32 := Scalar.muli v317 c16_i32_274
  let v512 : BitVec 32 := Scalar.addi v511 c5_i32
  let c0_i32_276 : BitVec 32 := 0#32
  let v514 : BitVec 1 := Scalar.cmpi .sgt v512 c0_i32_276
  let v515 : BitVec 32 := Scalar.extui v514
  let c0_i32_277 : BitVec 32 := 0#32
  let v516 : BitVec 1 := Scalar.cmpi .slt v512 c0_i32_277
  let v517 : BitVec 32 := Scalar.extui v516
  let v518 : BitVec 32 := Scalar.subi v515 v517
  let c8_i32_275 : BitVec 32 := 8#32
  let c0_i32_278 : BitVec 32 := 0#32
  let v519 : BitVec 1 := Scalar.cmpi .sgt c8_i32_275 c0_i32_278
  let v520 : BitVec 32 := Scalar.extui v519
  let c0_i32_279 : BitVec 32 := 0#32
  let v521 : BitVec 1 := Scalar.cmpi .slt c8_i32_275 c0_i32_279
  let v522 : BitVec 32 := Scalar.extui v521
  let v523 : BitVec 32 := Scalar.subi v520 v522
  let v524 : BitVec 1 := Scalar.cmpi .ne v518 v523
  let v525 : BitVec 32 := Scalar.remsi v512 c8_i32_275
  let c0_i32_280 : BitVec 32 := 0#32
  let v526 : BitVec 1 := Scalar.cmpi .ne v525 c0_i32_280
  let v527 : BitVec 1 := Scalar.andi v524 v526
  let v513 : BitVec 32 := Scalar.divsi v512 c8_i32_275
  let c1_i32_281 : BitVec 32 := 1#32
  let v528 : BitVec 32 := Scalar.subi v513 c1_i32_281
  let v529 : BitVec 32 := Scalar.select v527 v528 v513
  let v533 : Index := Scalar.indexCast v529
  let c0_i32_283 : BitVec 32 := 0#32
  let v534 : Index := Scalar.indexCast c0_i32_283
  let c80_284 : Index := 80#32
  ![v531.toNat, 0, v533.toNat, 0, 80]
def k0_off21 (k0_t4 : Fin k0_t4_loop.trips) (k0_t5 : Fin k0_t5_loop.trips) (c6_i32 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v556 : Index := Scalar.indexCast v311
  let c0_i32_293 : BitVec 32 := 0#32
  let v557 : Index := Scalar.indexCast c0_i32_293
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_285 : BitVec 32 := 16#32
  let v536 : BitVec 32 := Scalar.muli v317 c16_i32_285
  let v537 : BitVec 32 := Scalar.addi v536 c6_i32
  let c0_i32_287 : BitVec 32 := 0#32
  let v539 : BitVec 1 := Scalar.cmpi .sgt v537 c0_i32_287
  let v540 : BitVec 32 := Scalar.extui v539
  let c0_i32_288 : BitVec 32 := 0#32
  let v541 : BitVec 1 := Scalar.cmpi .slt v537 c0_i32_288
  let v542 : BitVec 32 := Scalar.extui v541
  let v543 : BitVec 32 := Scalar.subi v540 v542
  let c8_i32_286 : BitVec 32 := 8#32
  let c0_i32_289 : BitVec 32 := 0#32
  let v544 : BitVec 1 := Scalar.cmpi .sgt c8_i32_286 c0_i32_289
  let v545 : BitVec 32 := Scalar.extui v544
  let c0_i32_290 : BitVec 32 := 0#32
  let v546 : BitVec 1 := Scalar.cmpi .slt c8_i32_286 c0_i32_290
  let v547 : BitVec 32 := Scalar.extui v546
  let v548 : BitVec 32 := Scalar.subi v545 v547
  let v549 : BitVec 1 := Scalar.cmpi .ne v543 v548
  let v550 : BitVec 32 := Scalar.remsi v537 c8_i32_286
  let c0_i32_291 : BitVec 32 := 0#32
  let v551 : BitVec 1 := Scalar.cmpi .ne v550 c0_i32_291
  let v552 : BitVec 1 := Scalar.andi v549 v551
  let v538 : BitVec 32 := Scalar.divsi v537 c8_i32_286
  let c1_i32_292 : BitVec 32 := 1#32
  let v553 : BitVec 32 := Scalar.subi v538 c1_i32_292
  let v554 : BitVec 32 := Scalar.select v552 v553 v538
  let v558 : Index := Scalar.indexCast v554
  let c0_i32_294 : BitVec 32 := 0#32
  let v559 : Index := Scalar.indexCast c0_i32_294
  let c96_295 : Index := 96#32
  ![v556.toNat, 0, v558.toNat, 0, 96]
def k0_off22 (k0_t4 : Fin k0_t4_loop.trips) (k0_t5 : Fin k0_t5_loop.trips) (c7_i32 : BitVec 32) : Fin 5 → Nat :=
  let c0_i32_203 : BitVec 32 := 0#32
  let c0_i32_55 : BitVec 32 := 0#32
  let c1_i32_57 : BitVec 32 := 1#32
  let arg22 : BitVec 32 := Scf.iv c0_i32_55 c1_i32_57 k0_t4
  let c1_i32_202 : BitVec 32 := 1#32
  let v310 : BitVec 32 := Scalar.muli arg22 c1_i32_202
  let v311 : BitVec 32 := Scalar.addi c0_i32_203 v310
  let v581 : Index := Scalar.indexCast v311
  let c0_i32_304 : BitVec 32 := 0#32
  let v582 : Index := Scalar.indexCast c0_i32_304
  let c0_i32_210 : BitVec 32 := 0#32
  let c0_i32_205 : BitVec 32 := 0#32
  let c1_i32_207 : BitVec 32 := 1#32
  let arg23 : BitVec 32 := Scf.iv c0_i32_205 c1_i32_207 k0_t5
  let c1_i32_209 : BitVec 32 := 1#32
  let v316 : BitVec 32 := Scalar.muli arg23 c1_i32_209
  let v317 : BitVec 32 := Scalar.addi c0_i32_210 v316
  let c16_i32_296 : BitVec 32 := 16#32
  let v561 : BitVec 32 := Scalar.muli v317 c16_i32_296
  let v562 : BitVec 32 := Scalar.addi v561 c7_i32
  let c0_i32_298 : BitVec 32 := 0#32
  let v564 : BitVec 1 := Scalar.cmpi .sgt v562 c0_i32_298
  let v565 : BitVec 32 := Scalar.extui v564
  let c0_i32_299 : BitVec 32 := 0#32
  let v566 : BitVec 1 := Scalar.cmpi .slt v562 c0_i32_299
  let v567 : BitVec 32 := Scalar.extui v566
  let v568 : BitVec 32 := Scalar.subi v565 v567
  let c8_i32_297 : BitVec 32 := 8#32
  let c0_i32_300 : BitVec 32 := 0#32
  let v569 : BitVec 1 := Scalar.cmpi .sgt c8_i32_297 c0_i32_300
  let v570 : BitVec 32 := Scalar.extui v569
  let c0_i32_301 : BitVec 32 := 0#32
  let v571 : BitVec 1 := Scalar.cmpi .slt c8_i32_297 c0_i32_301
  let v572 : BitVec 32 := Scalar.extui v571
  let v573 : BitVec 32 := Scalar.subi v570 v572
  let v574 : BitVec 1 := Scalar.cmpi .ne v568 v573
  let v575 : BitVec 32 := Scalar.remsi v562 c8_i32_297
  let c0_i32_302 : BitVec 32 := 0#32
  let v576 : BitVec 1 := Scalar.cmpi .ne v575 c0_i32_302
  let v577 : BitVec 1 := Scalar.andi v574 v576
  let v563 : BitVec 32 := Scalar.divsi v562 c8_i32_297
  let c1_i32_303 : BitVec 32 := 1#32
  let v578 : BitVec 32 := Scalar.subi v563 c1_i32_303
  let v579 : BitVec 32 := Scalar.select v577 v578 v563
  let v583 : Index := Scalar.indexCast v579
  let c0_i32_305 : BitVec 32 := 0#32
  let v584 : Index := Scalar.indexCast c0_i32_305
  let c112_306 : Index := 112#32
  ![v581.toNat, 0, v583.toNat, 0, 112]
def k0_off23 (i : grid0.Coords) (k0_t1 : Fin k0_t1_loop.trips) : Fin 5 → Nat :=
  let c4_i32_72 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_60 : BitVec 32 := 0#32
  let v99 : BitVec 1 := Scalar.cmpi .sgt v10 c0_i32_60
  let v100 : BitVec 32 := Scalar.extui v99
  let c0_i32_61 : BitVec 32 := 0#32
  let v101 : BitVec 1 := Scalar.cmpi .slt v10 c0_i32_61
  let v102 : BitVec 32 := Scalar.extui v101
  let v103 : BitVec 32 := Scalar.subi v100 v102
  let c8_i32_59 : BitVec 32 := 8#32
  let c0_i32_62 : BitVec 32 := 0#32
  let v104 : BitVec 1 := Scalar.cmpi .sgt c8_i32_59 c0_i32_62
  let v105 : BitVec 32 := Scalar.extui v104
  let c0_i32_63 : BitVec 32 := 0#32
  let v106 : BitVec 1 := Scalar.cmpi .slt c8_i32_59 c0_i32_63
  let v107 : BitVec 32 := Scalar.extui v106
  let v108 : BitVec 32 := Scalar.subi v105 v107
  let v109 : BitVec 1 := Scalar.cmpi .ne v103 v108
  let v110 : BitVec 32 := Scalar.remsi v10 c8_i32_59
  let c0_i32_64 : BitVec 32 := 0#32
  let v111 : BitVec 1 := Scalar.cmpi .ne v110 c0_i32_64
  let v112 : BitVec 1 := Scalar.andi v109 v111
  let v98 : BitVec 32 := Scalar.divsi v10 c8_i32_59
  let c1_i32_65 : BitVec 32 := 1#32
  let v113 : BitVec 32 := Scalar.subi v98 c1_i32_65
  let v114 : BitVec 32 := Scalar.select v112 v113 v98
  let c0_i32_73 : BitVec 32 := 0#32
  let c8_i32_66 : BitVec 32 := 8#32
  let c0_i32_67 : BitVec 32 := 0#32
  let v115 : BitVec 1 := Scalar.cmpi .eq c8_i32_66 c0_i32_67
  let c1_i32_68 : BitVec 32 := 1#32
  let v116 : BitVec 32 := Scalar.select v115 c1_i32_68 c8_i32_66
  let v117 : BitVec 32 := Scalar.remsi v10 v116
  let c0_i32_70 : BitVec 32 := 0#32
  let v119 : BitVec 1 := Scalar.cmpi .slt v117 c0_i32_70
  let c0_i32_71 : BitVec 32 := 0#32
  let v120 : BitVec 1 := Scalar.cmpi .slt v116 c0_i32_71
  let v121 : BitVec 1 := Scalar.xori v119 v120
  let c0_i32_69 : BitVec 32 := 0#32
  let v118 : BitVec 1 := Scalar.cmpi .ne v117 c0_i32_69
  let v122 : BitVec 1 := Scalar.andi v121 v118
  let v123 : BitVec 32 := Scalar.addi v117 v116
  let v124 : BitVec 32 := Scalar.select v122 v123 v117
  let c0_i32_74 : BitVec 32 := 0#32
  ![4, v114.toNat, 0, v124.toNat, 0]
@[reducible] def k0_t6_loop : Scf.Loop 32 :=
  let c0_i32_79 : BitVec 32 := 0#32
  let c23_i32 : BitVec 32 := 23#32
  let v129 : BitVec 32 := Scalar.addi c0_i32_79 c23_i32
  let c1_i32_80 : BitVec 32 := 1#32
  ⟨c0_i32_79, v129, c1_i32_80⟩
def k0_off24 (k0_t6 : Fin k0_t6_loop.trips) : Fin 1 → Nat :=
  let c2_i32_203 : BitVec 32 := 2#32
  let c0_i32_79 : BitVec 32 := 0#32
  let c1_i32_80 : BitVec 32 := 1#32
  let arg22 : BitVec 32 := Scf.iv c0_i32_79 c1_i32_80 k0_t6
  let c2_i32_202 : BitVec 32 := 2#32
  let v310 : BitVec 32 := Scalar.muli arg22 c2_i32_202
  let v311 : BitVec 32 := Scalar.addi c2_i32_203 v310
  let c4096_i32_204 : BitVec 32 := 4096#32
  let v312 : BitVec 32 := Scalar.muli v311 c4096_i32_204
  ![v312.toNat]
def k0_off25 (i : grid0.Coords) (k0_t1 : Fin k0_t1_loop.trips) (k0_t6 : Fin k0_t6_loop.trips) : Fin 5 → Nat :=
  let c2_i32_203 : BitVec 32 := 2#32
  let c0_i32_79 : BitVec 32 := 0#32
  let c1_i32_80 : BitVec 32 := 1#32
  let arg22 : BitVec 32 := Scf.iv c0_i32_79 c1_i32_80 k0_t6
  let c2_i32_202 : BitVec 32 := 2#32
  let v310 : BitVec 32 := Scalar.muli arg22 c2_i32_202
  let v311 : BitVec 32 := Scalar.addi c2_i32_203 v310
  let c2_i32_205 : BitVec 32 := 2#32
  let v315 : BitVec 32 := Scalar.subi v311 c2_i32_205
  let c4_i32_206 : BitVec 32 := 4#32
  let v316 : BitVec 32 := Scalar.muli v315 c4_i32_206
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_208 : BitVec 32 := 0#32
  let v318 : BitVec 1 := Scalar.cmpi .sgt v10 c0_i32_208
  let v319 : BitVec 32 := Scalar.extui v318
  let c0_i32_209 : BitVec 32 := 0#32
  let v320 : BitVec 1 := Scalar.cmpi .slt v10 c0_i32_209
  let v321 : BitVec 32 := Scalar.extui v320
  let v322 : BitVec 32 := Scalar.subi v319 v321
  let c8_i32_207 : BitVec 32 := 8#32
  let c0_i32_210 : BitVec 32 := 0#32
  let v323 : BitVec 1 := Scalar.cmpi .sgt c8_i32_207 c0_i32_210
  let v324 : BitVec 32 := Scalar.extui v323
  let c0_i32_211 : BitVec 32 := 0#32
  let v325 : BitVec 1 := Scalar.cmpi .slt c8_i32_207 c0_i32_211
  let v326 : BitVec 32 := Scalar.extui v325
  let v327 : BitVec 32 := Scalar.subi v324 v326
  let v328 : BitVec 1 := Scalar.cmpi .ne v322 v327
  let v329 : BitVec 32 := Scalar.remsi v10 c8_i32_207
  let c0_i32_212 : BitVec 32 := 0#32
  let v330 : BitVec 1 := Scalar.cmpi .ne v329 c0_i32_212
  let v331 : BitVec 1 := Scalar.andi v328 v330
  let v317 : BitVec 32 := Scalar.divsi v10 c8_i32_207
  let c1_i32_213 : BitVec 32 := 1#32
  let v332 : BitVec 32 := Scalar.subi v317 c1_i32_213
  let v333 : BitVec 32 := Scalar.select v331 v332 v317
  let c0_i32_220 : BitVec 32 := 0#32
  let c8_i32_214 : BitVec 32 := 8#32
  let c0_i32_215 : BitVec 32 := 0#32
  let v334 : BitVec 1 := Scalar.cmpi .eq c8_i32_214 c0_i32_215
  let c1_i32_216 : BitVec 32 := 1#32
  let v335 : BitVec 32 := Scalar.select v334 c1_i32_216 c8_i32_214
  let v336 : BitVec 32 := Scalar.remsi v10 v335
  let c0_i32_218 : BitVec 32 := 0#32
  let v338 : BitVec 1 := Scalar.cmpi .slt v336 c0_i32_218
  let c0_i32_219 : BitVec 32 := 0#32
  let v339 : BitVec 1 := Scalar.cmpi .slt v335 c0_i32_219
  let v340 : BitVec 1 := Scalar.xori v338 v339
  let c0_i32_217 : BitVec 32 := 0#32
  let v337 : BitVec 1 := Scalar.cmpi .ne v336 c0_i32_217
  let v341 : BitVec 1 := Scalar.andi v340 v337
  let v342 : BitVec 32 := Scalar.addi v336 v335
  let v343 : BitVec 32 := Scalar.select v341 v342 v336
  let c0_i32_221 : BitVec 32 := 0#32
  ![v316.toNat, v333.toNat, 0, v343.toNat, 0]
@[reducible] def k0_t7_loop : Scf.Loop 32 :=
  let c0_i32_224 : BitVec 32 := 0#32
  let c4_i32_225 : BitVec 32 := 4#32
  let v346 : BitVec 32 := Scalar.addi c0_i32_224 c4_i32_225
  let c1_i32_226 : BitVec 32 := 1#32
  ⟨c0_i32_224, v346, c1_i32_226⟩

def k0_chk36 (v455 : IVec S16 32) : Prop :=
  (∀ a x, ((![v455] : Fin 1 → IVec S16 32) a x).toNat < S208.size a)
instance k0_chk36.dec : ∀ (v455 : IVec S16 32), Decidable (k0_chk36 v455) := fun v455 => decidable_of_iff' _ (Iff.of_eq (k0_chk36.eq_1 v455))
theorem k0_idx36_inb : ∀ (v455 : IVec S16 32) (k0_hw36 : k0_chk36 v455), ∀ a x, ((![v455] : Fin 1 → IVec S16 32) a x).toNat < S208.size a := fun v455 k0_hw36 => k0_hw36
@[reducible] def k0_t8_loop : Scf.Loop 32 :=
  let c0_i32_296 : BitVec 32 := 0#32
  let c4_i32_297 : BitVec 32 := 4#32
  let v457 : BitVec 32 := Scalar.addi c0_i32_296 c4_i32_297
  let c1_i32_298 : BitVec 32 := 1#32
  ⟨c0_i32_296, v457, c1_i32_298⟩
def k0_off26 (k0_t7 : Fin k0_t7_loop.trips) (k0_t8 : Fin k0_t8_loop.trips) (c0_i32_303 : BitVec 32) : Fin 1 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let c1024_i32 : BitVec 32 := 1024#32
  let v460 : BitVec 32 := Scalar.muli v452 c1024_i32
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32 : BitVec 32 := 16#32
  let v461 : BitVec 32 := Scalar.muli v459 c16_i32
  let c16_i32_302 : BitVec 32 := 16#32
  let v462 : BitVec 32 := Scalar.muli v461 c16_i32_302
  let v463 : BitVec 32 := Scalar.addi v460 v462
  let v464 : BitVec 32 := Scalar.addi v463 c0_i32_303
  let v465 : Index := Scalar.indexCast v464
  ![v465.toNat]

def k0_chk37 (v2 : IVec S16 32) (v466 : IVec S16 32) : Prop :=
  (∀ a x, ((![v2, v466] : Fin 2 → IVec S16 32) a x).toNat < S1x100000.size a)
instance k0_chk37.dec : ∀ (v2 : IVec S16 32) (v466 : IVec S16 32), Decidable (k0_chk37 v2 v466) := fun v2 v466 => decidable_of_iff' _ (Iff.of_eq (k0_chk37.eq_1 v2 v466))
theorem k0_idx37_inb : ∀ (v2 : IVec S16 32) (v466 : IVec S16 32) (k0_hw37 : k0_chk37 v2 v466), ∀ a x, ((![v2, v466] : Fin 2 → IVec S16 32) a x).toNat < S1x100000.size a := fun v2 v466 k0_hw37 => k0_hw37

def k0_chk38 (v2 : IVec S16 32) (v469 : IVec S16 32) : Prop :=
  (∀ a x, ((![v2, v469] : Fin 2 → IVec S16 32) a x).toNat < S1x100000.size a)
instance k0_chk38.dec : ∀ (v2 : IVec S16 32) (v469 : IVec S16 32), Decidable (k0_chk38 v2 v469) := fun v2 v469 => decidable_of_iff' _ (Iff.of_eq (k0_chk38.eq_1 v2 v469))
theorem k0_idx38_inb : ∀ (v2 : IVec S16 32) (v469 : IVec S16 32) (k0_hw38 : k0_chk38 v2 v469), ∀ a x, ((![v2, v469] : Fin 2 → IVec S16 32) a x).toNat < S1x100000.size a := fun v2 v469 k0_hw38 => k0_hw38

def k0_chk39 (v2 : IVec S16 32) (v472 : IVec S16 32) : Prop :=
  (∀ a x, ((![v2, v472] : Fin 2 → IVec S16 32) a x).toNat < S1x100000.size a)
instance k0_chk39.dec : ∀ (v2 : IVec S16 32) (v472 : IVec S16 32), Decidable (k0_chk39 v2 v472) := fun v2 v472 => decidable_of_iff' _ (Iff.of_eq (k0_chk39.eq_1 v2 v472))
theorem k0_idx39_inb : ∀ (v2 : IVec S16 32) (v472 : IVec S16 32) (k0_hw39 : k0_chk39 v2 v472), ∀ a x, ((![v2, v472] : Fin 2 → IVec S16 32) a x).toNat < S1x100000.size a := fun v2 v472 k0_hw39 => k0_hw39

def k0_chk40 (v2 : IVec S16 32) (v475 : IVec S16 32) : Prop :=
  (∀ a x, ((![v2, v475] : Fin 2 → IVec S16 32) a x).toNat < S1x100000.size a)
instance k0_chk40.dec : ∀ (v2 : IVec S16 32) (v475 : IVec S16 32), Decidable (k0_chk40 v2 v475) := fun v2 v475 => decidable_of_iff' _ (Iff.of_eq (k0_chk40.eq_1 v2 v475))
theorem k0_idx40_inb : ∀ (v2 : IVec S16 32) (v475 : IVec S16 32) (k0_hw40 : k0_chk40 v2 v475), ∀ a x, ((![v2, v475] : Fin 2 → IVec S16 32) a x).toNat < S1x100000.size a := fun v2 v475 k0_hw40 => k0_hw40

def k0_chk41 (v2 : IVec S16 32) (v478 : IVec S16 32) : Prop :=
  (∀ a x, ((![v2, v478] : Fin 2 → IVec S16 32) a x).toNat < S1x100000.size a)
instance k0_chk41.dec : ∀ (v2 : IVec S16 32) (v478 : IVec S16 32), Decidable (k0_chk41 v2 v478) := fun v2 v478 => decidable_of_iff' _ (Iff.of_eq (k0_chk41.eq_1 v2 v478))
theorem k0_idx41_inb : ∀ (v2 : IVec S16 32) (v478 : IVec S16 32) (k0_hw41 : k0_chk41 v2 v478), ∀ a x, ((![v2, v478] : Fin 2 → IVec S16 32) a x).toNat < S1x100000.size a := fun v2 v478 k0_hw41 => k0_hw41

def k0_chk42 (v2 : IVec S16 32) (v481 : IVec S16 32) : Prop :=
  (∀ a x, ((![v2, v481] : Fin 2 → IVec S16 32) a x).toNat < S1x100000.size a)
instance k0_chk42.dec : ∀ (v2 : IVec S16 32) (v481 : IVec S16 32), Decidable (k0_chk42 v2 v481) := fun v2 v481 => decidable_of_iff' _ (Iff.of_eq (k0_chk42.eq_1 v2 v481))
theorem k0_idx42_inb : ∀ (v2 : IVec S16 32) (v481 : IVec S16 32) (k0_hw42 : k0_chk42 v2 v481), ∀ a x, ((![v2, v481] : Fin 2 → IVec S16 32) a x).toNat < S1x100000.size a := fun v2 v481 k0_hw42 => k0_hw42

def k0_chk43 (v2 : IVec S16 32) (v484 : IVec S16 32) : Prop :=
  (∀ a x, ((![v2, v484] : Fin 2 → IVec S16 32) a x).toNat < S1x100000.size a)
instance k0_chk43.dec : ∀ (v2 : IVec S16 32) (v484 : IVec S16 32), Decidable (k0_chk43 v2 v484) := fun v2 v484 => decidable_of_iff' _ (Iff.of_eq (k0_chk43.eq_1 v2 v484))
theorem k0_idx43_inb : ∀ (v2 : IVec S16 32) (v484 : IVec S16 32) (k0_hw43 : k0_chk43 v2 v484), ∀ a x, ((![v2, v484] : Fin 2 → IVec S16 32) a x).toNat < S1x100000.size a := fun v2 v484 k0_hw43 => k0_hw43

def k0_chk44 (v2 : IVec S16 32) (v487 : IVec S16 32) : Prop :=
  (∀ a x, ((![v2, v487] : Fin 2 → IVec S16 32) a x).toNat < S1x100000.size a)
instance k0_chk44.dec : ∀ (v2 : IVec S16 32) (v487 : IVec S16 32), Decidable (k0_chk44 v2 v487) := fun v2 v487 => decidable_of_iff' _ (Iff.of_eq (k0_chk44.eq_1 v2 v487))
theorem k0_idx44_inb : ∀ (v2 : IVec S16 32) (v487 : IVec S16 32) (k0_hw44 : k0_chk44 v2 v487), ∀ a x, ((![v2, v487] : Fin 2 → IVec S16 32) a x).toNat < S1x100000.size a := fun v2 v487 k0_hw44 => k0_hw44

def k0_chk45 (v2 : IVec S16 32) (v490 : IVec S16 32) : Prop :=
  (∀ a x, ((![v2, v490] : Fin 2 → IVec S16 32) a x).toNat < S1x100000.size a)
instance k0_chk45.dec : ∀ (v2 : IVec S16 32) (v490 : IVec S16 32), Decidable (k0_chk45 v2 v490) := fun v2 v490 => decidable_of_iff' _ (Iff.of_eq (k0_chk45.eq_1 v2 v490))
theorem k0_idx45_inb : ∀ (v2 : IVec S16 32) (v490 : IVec S16 32) (k0_hw45 : k0_chk45 v2 v490), ∀ a x, ((![v2, v490] : Fin 2 → IVec S16 32) a x).toNat < S1x100000.size a := fun v2 v490 k0_hw45 => k0_hw45

def k0_chk46 (v2 : IVec S16 32) (v493 : IVec S16 32) : Prop :=
  (∀ a x, ((![v2, v493] : Fin 2 → IVec S16 32) a x).toNat < S1x100000.size a)
instance k0_chk46.dec : ∀ (v2 : IVec S16 32) (v493 : IVec S16 32), Decidable (k0_chk46 v2 v493) := fun v2 v493 => decidable_of_iff' _ (Iff.of_eq (k0_chk46.eq_1 v2 v493))
theorem k0_idx46_inb : ∀ (v2 : IVec S16 32) (v493 : IVec S16 32) (k0_hw46 : k0_chk46 v2 v493), ∀ a x, ((![v2, v493] : Fin 2 → IVec S16 32) a x).toNat < S1x100000.size a := fun v2 v493 k0_hw46 => k0_hw46

def k0_chk47 (v2 : IVec S16 32) (v496 : IVec S16 32) : Prop :=
  (∀ a x, ((![v2, v496] : Fin 2 → IVec S16 32) a x).toNat < S1x100000.size a)
instance k0_chk47.dec : ∀ (v2 : IVec S16 32) (v496 : IVec S16 32), Decidable (k0_chk47 v2 v496) := fun v2 v496 => decidable_of_iff' _ (Iff.of_eq (k0_chk47.eq_1 v2 v496))
theorem k0_idx47_inb : ∀ (v2 : IVec S16 32) (v496 : IVec S16 32) (k0_hw47 : k0_chk47 v2 v496), ∀ a x, ((![v2, v496] : Fin 2 → IVec S16 32) a x).toNat < S1x100000.size a := fun v2 v496 k0_hw47 => k0_hw47

def k0_chk48 (v2 : IVec S16 32) (v499 : IVec S16 32) : Prop :=
  (∀ a x, ((![v2, v499] : Fin 2 → IVec S16 32) a x).toNat < S1x100000.size a)
instance k0_chk48.dec : ∀ (v2 : IVec S16 32) (v499 : IVec S16 32), Decidable (k0_chk48 v2 v499) := fun v2 v499 => decidable_of_iff' _ (Iff.of_eq (k0_chk48.eq_1 v2 v499))
theorem k0_idx48_inb : ∀ (v2 : IVec S16 32) (v499 : IVec S16 32) (k0_hw48 : k0_chk48 v2 v499), ∀ a x, ((![v2, v499] : Fin 2 → IVec S16 32) a x).toNat < S1x100000.size a := fun v2 v499 k0_hw48 => k0_hw48

def k0_chk49 (v2 : IVec S16 32) (v502 : IVec S16 32) : Prop :=
  (∀ a x, ((![v2, v502] : Fin 2 → IVec S16 32) a x).toNat < S1x100000.size a)
instance k0_chk49.dec : ∀ (v2 : IVec S16 32) (v502 : IVec S16 32), Decidable (k0_chk49 v2 v502) := fun v2 v502 => decidable_of_iff' _ (Iff.of_eq (k0_chk49.eq_1 v2 v502))
theorem k0_idx49_inb : ∀ (v2 : IVec S16 32) (v502 : IVec S16 32) (k0_hw49 : k0_chk49 v2 v502), ∀ a x, ((![v2, v502] : Fin 2 → IVec S16 32) a x).toNat < S1x100000.size a := fun v2 v502 k0_hw49 => k0_hw49

def k0_chk50 (v2 : IVec S16 32) (v505 : IVec S16 32) : Prop :=
  (∀ a x, ((![v2, v505] : Fin 2 → IVec S16 32) a x).toNat < S1x100000.size a)
instance k0_chk50.dec : ∀ (v2 : IVec S16 32) (v505 : IVec S16 32), Decidable (k0_chk50 v2 v505) := fun v2 v505 => decidable_of_iff' _ (Iff.of_eq (k0_chk50.eq_1 v2 v505))
theorem k0_idx50_inb : ∀ (v2 : IVec S16 32) (v505 : IVec S16 32) (k0_hw50 : k0_chk50 v2 v505), ∀ a x, ((![v2, v505] : Fin 2 → IVec S16 32) a x).toNat < S1x100000.size a := fun v2 v505 k0_hw50 => k0_hw50

def k0_chk51 (v2 : IVec S16 32) (v508 : IVec S16 32) : Prop :=
  (∀ a x, ((![v2, v508] : Fin 2 → IVec S16 32) a x).toNat < S1x100000.size a)
instance k0_chk51.dec : ∀ (v2 : IVec S16 32) (v508 : IVec S16 32), Decidable (k0_chk51 v2 v508) := fun v2 v508 => decidable_of_iff' _ (Iff.of_eq (k0_chk51.eq_1 v2 v508))
theorem k0_idx51_inb : ∀ (v2 : IVec S16 32) (v508 : IVec S16 32) (k0_hw51 : k0_chk51 v2 v508), ∀ a x, ((![v2, v508] : Fin 2 → IVec S16 32) a x).toNat < S1x100000.size a := fun v2 v508 k0_hw51 => k0_hw51

def k0_chk52 (v2 : IVec S16 32) (v511 : IVec S16 32) : Prop :=
  (∀ a x, ((![v2, v511] : Fin 2 → IVec S16 32) a x).toNat < S1x100000.size a)
instance k0_chk52.dec : ∀ (v2 : IVec S16 32) (v511 : IVec S16 32), Decidable (k0_chk52 v2 v511) := fun v2 v511 => decidable_of_iff' _ (Iff.of_eq (k0_chk52.eq_1 v2 v511))
theorem k0_idx52_inb : ∀ (v2 : IVec S16 32) (v511 : IVec S16 32) (k0_hw52 : k0_chk52 v2 v511), ∀ a x, ((![v2, v511] : Fin 2 → IVec S16 32) a x).toNat < S1x100000.size a := fun v2 v511 k0_hw52 => k0_hw52
def k0_off27 (k0_t7 : Fin k0_t7_loop.trips) (k0_t8 : Fin k0_t8_loop.trips) (c0_i32_307 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v548 : Index := Scalar.indexCast v452
  let c0_i32_315 : BitVec 32 := 0#32
  let v549 : Index := Scalar.indexCast c0_i32_315
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_306 : BitVec 32 := 16#32
  let v528 : BitVec 32 := Scalar.muli v459 c16_i32_306
  let v529 : BitVec 32 := Scalar.addi v528 c0_i32_307
  let c0_i32_309 : BitVec 32 := 0#32
  let v531 : BitVec 1 := Scalar.cmpi .sgt v529 c0_i32_309
  let v532 : BitVec 32 := Scalar.extui v531
  let c0_i32_310 : BitVec 32 := 0#32
  let v533 : BitVec 1 := Scalar.cmpi .slt v529 c0_i32_310
  let v534 : BitVec 32 := Scalar.extui v533
  let v535 : BitVec 32 := Scalar.subi v532 v534
  let c8_i32_308 : BitVec 32 := 8#32
  let c0_i32_311 : BitVec 32 := 0#32
  let v536 : BitVec 1 := Scalar.cmpi .sgt c8_i32_308 c0_i32_311
  let v537 : BitVec 32 := Scalar.extui v536
  let c0_i32_312 : BitVec 32 := 0#32
  let v538 : BitVec 1 := Scalar.cmpi .slt c8_i32_308 c0_i32_312
  let v539 : BitVec 32 := Scalar.extui v538
  let v540 : BitVec 32 := Scalar.subi v537 v539
  let v541 : BitVec 1 := Scalar.cmpi .ne v535 v540
  let v542 : BitVec 32 := Scalar.remsi v529 c8_i32_308
  let c0_i32_313 : BitVec 32 := 0#32
  let v543 : BitVec 1 := Scalar.cmpi .ne v542 c0_i32_313
  let v544 : BitVec 1 := Scalar.andi v541 v543
  let v530 : BitVec 32 := Scalar.divsi v529 c8_i32_308
  let c1_i32_314 : BitVec 32 := 1#32
  let v545 : BitVec 32 := Scalar.subi v530 c1_i32_314
  let v546 : BitVec 32 := Scalar.select v544 v545 v530
  let v550 : Index := Scalar.indexCast v546
  let c0_i32_316 : BitVec 32 := 0#32
  let v551 : Index := Scalar.indexCast c0_i32_316
  let c0_317 : Index := 0#32
  ![v548.toNat, 0, v550.toNat, 0, 0]
def k0_off28 (k0_t7 : Fin k0_t7_loop.trips) (k0_t8 : Fin k0_t8_loop.trips) (c1_i32_319 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v573 : Index := Scalar.indexCast v452
  let c0_i32_327 : BitVec 32 := 0#32
  let v574 : Index := Scalar.indexCast c0_i32_327
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_318 : BitVec 32 := 16#32
  let v553 : BitVec 32 := Scalar.muli v459 c16_i32_318
  let v554 : BitVec 32 := Scalar.addi v553 c1_i32_319
  let c0_i32_321 : BitVec 32 := 0#32
  let v556 : BitVec 1 := Scalar.cmpi .sgt v554 c0_i32_321
  let v557 : BitVec 32 := Scalar.extui v556
  let c0_i32_322 : BitVec 32 := 0#32
  let v558 : BitVec 1 := Scalar.cmpi .slt v554 c0_i32_322
  let v559 : BitVec 32 := Scalar.extui v558
  let v560 : BitVec 32 := Scalar.subi v557 v559
  let c8_i32_320 : BitVec 32 := 8#32
  let c0_i32_323 : BitVec 32 := 0#32
  let v561 : BitVec 1 := Scalar.cmpi .sgt c8_i32_320 c0_i32_323
  let v562 : BitVec 32 := Scalar.extui v561
  let c0_i32_324 : BitVec 32 := 0#32
  let v563 : BitVec 1 := Scalar.cmpi .slt c8_i32_320 c0_i32_324
  let v564 : BitVec 32 := Scalar.extui v563
  let v565 : BitVec 32 := Scalar.subi v562 v564
  let v566 : BitVec 1 := Scalar.cmpi .ne v560 v565
  let v567 : BitVec 32 := Scalar.remsi v554 c8_i32_320
  let c0_i32_325 : BitVec 32 := 0#32
  let v568 : BitVec 1 := Scalar.cmpi .ne v567 c0_i32_325
  let v569 : BitVec 1 := Scalar.andi v566 v568
  let v555 : BitVec 32 := Scalar.divsi v554 c8_i32_320
  let c1_i32_326 : BitVec 32 := 1#32
  let v570 : BitVec 32 := Scalar.subi v555 c1_i32_326
  let v571 : BitVec 32 := Scalar.select v569 v570 v555
  let v575 : Index := Scalar.indexCast v571
  let c0_i32_328 : BitVec 32 := 0#32
  let v576 : Index := Scalar.indexCast c0_i32_328
  let c16_329 : Index := 16#32
  ![v573.toNat, 0, v575.toNat, 0, 16]
def k0_off29 (k0_t7 : Fin k0_t7_loop.trips) (k0_t8 : Fin k0_t8_loop.trips) (c2_i32_331 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v598 : Index := Scalar.indexCast v452
  let c0_i32_339 : BitVec 32 := 0#32
  let v599 : Index := Scalar.indexCast c0_i32_339
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_330 : BitVec 32 := 16#32
  let v578 : BitVec 32 := Scalar.muli v459 c16_i32_330
  let v579 : BitVec 32 := Scalar.addi v578 c2_i32_331
  let c0_i32_333 : BitVec 32 := 0#32
  let v581 : BitVec 1 := Scalar.cmpi .sgt v579 c0_i32_333
  let v582 : BitVec 32 := Scalar.extui v581
  let c0_i32_334 : BitVec 32 := 0#32
  let v583 : BitVec 1 := Scalar.cmpi .slt v579 c0_i32_334
  let v584 : BitVec 32 := Scalar.extui v583
  let v585 : BitVec 32 := Scalar.subi v582 v584
  let c8_i32_332 : BitVec 32 := 8#32
  let c0_i32_335 : BitVec 32 := 0#32
  let v586 : BitVec 1 := Scalar.cmpi .sgt c8_i32_332 c0_i32_335
  let v587 : BitVec 32 := Scalar.extui v586
  let c0_i32_336 : BitVec 32 := 0#32
  let v588 : BitVec 1 := Scalar.cmpi .slt c8_i32_332 c0_i32_336
  let v589 : BitVec 32 := Scalar.extui v588
  let v590 : BitVec 32 := Scalar.subi v587 v589
  let v591 : BitVec 1 := Scalar.cmpi .ne v585 v590
  let v592 : BitVec 32 := Scalar.remsi v579 c8_i32_332
  let c0_i32_337 : BitVec 32 := 0#32
  let v593 : BitVec 1 := Scalar.cmpi .ne v592 c0_i32_337
  let v594 : BitVec 1 := Scalar.andi v591 v593
  let v580 : BitVec 32 := Scalar.divsi v579 c8_i32_332
  let c1_i32_338 : BitVec 32 := 1#32
  let v595 : BitVec 32 := Scalar.subi v580 c1_i32_338
  let v596 : BitVec 32 := Scalar.select v594 v595 v580
  let v600 : Index := Scalar.indexCast v596
  let c0_i32_340 : BitVec 32 := 0#32
  let v601 : Index := Scalar.indexCast c0_i32_340
  let c32_341 : Index := 32#32
  ![v598.toNat, 0, v600.toNat, 0, 32]
def k0_off30 (k0_t7 : Fin k0_t7_loop.trips) (k0_t8 : Fin k0_t8_loop.trips) (c3_i32 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v623 : Index := Scalar.indexCast v452
  let c0_i32_350 : BitVec 32 := 0#32
  let v624 : Index := Scalar.indexCast c0_i32_350
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_342 : BitVec 32 := 16#32
  let v603 : BitVec 32 := Scalar.muli v459 c16_i32_342
  let v604 : BitVec 32 := Scalar.addi v603 c3_i32
  let c0_i32_344 : BitVec 32 := 0#32
  let v606 : BitVec 1 := Scalar.cmpi .sgt v604 c0_i32_344
  let v607 : BitVec 32 := Scalar.extui v606
  let c0_i32_345 : BitVec 32 := 0#32
  let v608 : BitVec 1 := Scalar.cmpi .slt v604 c0_i32_345
  let v609 : BitVec 32 := Scalar.extui v608
  let v610 : BitVec 32 := Scalar.subi v607 v609
  let c8_i32_343 : BitVec 32 := 8#32
  let c0_i32_346 : BitVec 32 := 0#32
  let v611 : BitVec 1 := Scalar.cmpi .sgt c8_i32_343 c0_i32_346
  let v612 : BitVec 32 := Scalar.extui v611
  let c0_i32_347 : BitVec 32 := 0#32
  let v613 : BitVec 1 := Scalar.cmpi .slt c8_i32_343 c0_i32_347
  let v614 : BitVec 32 := Scalar.extui v613
  let v615 : BitVec 32 := Scalar.subi v612 v614
  let v616 : BitVec 1 := Scalar.cmpi .ne v610 v615
  let v617 : BitVec 32 := Scalar.remsi v604 c8_i32_343
  let c0_i32_348 : BitVec 32 := 0#32
  let v618 : BitVec 1 := Scalar.cmpi .ne v617 c0_i32_348
  let v619 : BitVec 1 := Scalar.andi v616 v618
  let v605 : BitVec 32 := Scalar.divsi v604 c8_i32_343
  let c1_i32_349 : BitVec 32 := 1#32
  let v620 : BitVec 32 := Scalar.subi v605 c1_i32_349
  let v621 : BitVec 32 := Scalar.select v619 v620 v605
  let v625 : Index := Scalar.indexCast v621
  let c0_i32_351 : BitVec 32 := 0#32
  let v626 : Index := Scalar.indexCast c0_i32_351
  let c48_352 : Index := 48#32
  ![v623.toNat, 0, v625.toNat, 0, 48]
def k0_off31 (k0_t7 : Fin k0_t7_loop.trips) (k0_t8 : Fin k0_t8_loop.trips) (c4_i32_354 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v648 : Index := Scalar.indexCast v452
  let c0_i32_362 : BitVec 32 := 0#32
  let v649 : Index := Scalar.indexCast c0_i32_362
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_353 : BitVec 32 := 16#32
  let v628 : BitVec 32 := Scalar.muli v459 c16_i32_353
  let v629 : BitVec 32 := Scalar.addi v628 c4_i32_354
  let c0_i32_356 : BitVec 32 := 0#32
  let v631 : BitVec 1 := Scalar.cmpi .sgt v629 c0_i32_356
  let v632 : BitVec 32 := Scalar.extui v631
  let c0_i32_357 : BitVec 32 := 0#32
  let v633 : BitVec 1 := Scalar.cmpi .slt v629 c0_i32_357
  let v634 : BitVec 32 := Scalar.extui v633
  let v635 : BitVec 32 := Scalar.subi v632 v634
  let c8_i32_355 : BitVec 32 := 8#32
  let c0_i32_358 : BitVec 32 := 0#32
  let v636 : BitVec 1 := Scalar.cmpi .sgt c8_i32_355 c0_i32_358
  let v637 : BitVec 32 := Scalar.extui v636
  let c0_i32_359 : BitVec 32 := 0#32
  let v638 : BitVec 1 := Scalar.cmpi .slt c8_i32_355 c0_i32_359
  let v639 : BitVec 32 := Scalar.extui v638
  let v640 : BitVec 32 := Scalar.subi v637 v639
  let v641 : BitVec 1 := Scalar.cmpi .ne v635 v640
  let v642 : BitVec 32 := Scalar.remsi v629 c8_i32_355
  let c0_i32_360 : BitVec 32 := 0#32
  let v643 : BitVec 1 := Scalar.cmpi .ne v642 c0_i32_360
  let v644 : BitVec 1 := Scalar.andi v641 v643
  let v630 : BitVec 32 := Scalar.divsi v629 c8_i32_355
  let c1_i32_361 : BitVec 32 := 1#32
  let v645 : BitVec 32 := Scalar.subi v630 c1_i32_361
  let v646 : BitVec 32 := Scalar.select v644 v645 v630
  let v650 : Index := Scalar.indexCast v646
  let c0_i32_363 : BitVec 32 := 0#32
  let v651 : Index := Scalar.indexCast c0_i32_363
  let c64_364 : Index := 64#32
  ![v648.toNat, 0, v650.toNat, 0, 64]
def k0_off32 (k0_t7 : Fin k0_t7_loop.trips) (k0_t8 : Fin k0_t8_loop.trips) (c5_i32 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v673 : Index := Scalar.indexCast v452
  let c0_i32_373 : BitVec 32 := 0#32
  let v674 : Index := Scalar.indexCast c0_i32_373
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_365 : BitVec 32 := 16#32
  let v653 : BitVec 32 := Scalar.muli v459 c16_i32_365
  let v654 : BitVec 32 := Scalar.addi v653 c5_i32
  let c0_i32_367 : BitVec 32 := 0#32
  let v656 : BitVec 1 := Scalar.cmpi .sgt v654 c0_i32_367
  let v657 : BitVec 32 := Scalar.extui v656
  let c0_i32_368 : BitVec 32 := 0#32
  let v658 : BitVec 1 := Scalar.cmpi .slt v654 c0_i32_368
  let v659 : BitVec 32 := Scalar.extui v658
  let v660 : BitVec 32 := Scalar.subi v657 v659
  let c8_i32_366 : BitVec 32 := 8#32
  let c0_i32_369 : BitVec 32 := 0#32
  let v661 : BitVec 1 := Scalar.cmpi .sgt c8_i32_366 c0_i32_369
  let v662 : BitVec 32 := Scalar.extui v661
  let c0_i32_370 : BitVec 32 := 0#32
  let v663 : BitVec 1 := Scalar.cmpi .slt c8_i32_366 c0_i32_370
  let v664 : BitVec 32 := Scalar.extui v663
  let v665 : BitVec 32 := Scalar.subi v662 v664
  let v666 : BitVec 1 := Scalar.cmpi .ne v660 v665
  let v667 : BitVec 32 := Scalar.remsi v654 c8_i32_366
  let c0_i32_371 : BitVec 32 := 0#32
  let v668 : BitVec 1 := Scalar.cmpi .ne v667 c0_i32_371
  let v669 : BitVec 1 := Scalar.andi v666 v668
  let v655 : BitVec 32 := Scalar.divsi v654 c8_i32_366
  let c1_i32_372 : BitVec 32 := 1#32
  let v670 : BitVec 32 := Scalar.subi v655 c1_i32_372
  let v671 : BitVec 32 := Scalar.select v669 v670 v655
  let v675 : Index := Scalar.indexCast v671
  let c0_i32_374 : BitVec 32 := 0#32
  let v676 : Index := Scalar.indexCast c0_i32_374
  let c80_375 : Index := 80#32
  ![v673.toNat, 0, v675.toNat, 0, 80]
def k0_off33 (k0_t7 : Fin k0_t7_loop.trips) (k0_t8 : Fin k0_t8_loop.trips) (c6_i32 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v698 : Index := Scalar.indexCast v452
  let c0_i32_384 : BitVec 32 := 0#32
  let v699 : Index := Scalar.indexCast c0_i32_384
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_376 : BitVec 32 := 16#32
  let v678 : BitVec 32 := Scalar.muli v459 c16_i32_376
  let v679 : BitVec 32 := Scalar.addi v678 c6_i32
  let c0_i32_378 : BitVec 32 := 0#32
  let v681 : BitVec 1 := Scalar.cmpi .sgt v679 c0_i32_378
  let v682 : BitVec 32 := Scalar.extui v681
  let c0_i32_379 : BitVec 32 := 0#32
  let v683 : BitVec 1 := Scalar.cmpi .slt v679 c0_i32_379
  let v684 : BitVec 32 := Scalar.extui v683
  let v685 : BitVec 32 := Scalar.subi v682 v684
  let c8_i32_377 : BitVec 32 := 8#32
  let c0_i32_380 : BitVec 32 := 0#32
  let v686 : BitVec 1 := Scalar.cmpi .sgt c8_i32_377 c0_i32_380
  let v687 : BitVec 32 := Scalar.extui v686
  let c0_i32_381 : BitVec 32 := 0#32
  let v688 : BitVec 1 := Scalar.cmpi .slt c8_i32_377 c0_i32_381
  let v689 : BitVec 32 := Scalar.extui v688
  let v690 : BitVec 32 := Scalar.subi v687 v689
  let v691 : BitVec 1 := Scalar.cmpi .ne v685 v690
  let v692 : BitVec 32 := Scalar.remsi v679 c8_i32_377
  let c0_i32_382 : BitVec 32 := 0#32
  let v693 : BitVec 1 := Scalar.cmpi .ne v692 c0_i32_382
  let v694 : BitVec 1 := Scalar.andi v691 v693
  let v680 : BitVec 32 := Scalar.divsi v679 c8_i32_377
  let c1_i32_383 : BitVec 32 := 1#32
  let v695 : BitVec 32 := Scalar.subi v680 c1_i32_383
  let v696 : BitVec 32 := Scalar.select v694 v695 v680
  let v700 : Index := Scalar.indexCast v696
  let c0_i32_385 : BitVec 32 := 0#32
  let v701 : Index := Scalar.indexCast c0_i32_385
  let c96_386 : Index := 96#32
  ![v698.toNat, 0, v700.toNat, 0, 96]
def k0_off34 (k0_t7 : Fin k0_t7_loop.trips) (k0_t8 : Fin k0_t8_loop.trips) (c7_i32 : BitVec 32) : Fin 5 → Nat :=
  let c0_i32_294 : BitVec 32 := 0#32
  let c0_i32_224 : BitVec 32 := 0#32
  let c1_i32_226 : BitVec 32 := 1#32
  let arg23 : BitVec 32 := Scf.iv c0_i32_224 c1_i32_226 k0_t7
  let c1_i32_293 : BitVec 32 := 1#32
  let v451 : BitVec 32 := Scalar.muli arg23 c1_i32_293
  let v452 : BitVec 32 := Scalar.addi c0_i32_294 v451
  let v723 : Index := Scalar.indexCast v452
  let c0_i32_395 : BitVec 32 := 0#32
  let v724 : Index := Scalar.indexCast c0_i32_395
  let c0_i32_301 : BitVec 32 := 0#32
  let c0_i32_296 : BitVec 32 := 0#32
  let c1_i32_298 : BitVec 32 := 1#32
  let arg24 : BitVec 32 := Scf.iv c0_i32_296 c1_i32_298 k0_t8
  let c1_i32_300 : BitVec 32 := 1#32
  let v458 : BitVec 32 := Scalar.muli arg24 c1_i32_300
  let v459 : BitVec 32 := Scalar.addi c0_i32_301 v458
  let c16_i32_387 : BitVec 32 := 16#32
  let v703 : BitVec 32 := Scalar.muli v459 c16_i32_387
  let v704 : BitVec 32 := Scalar.addi v703 c7_i32
  let c0_i32_389 : BitVec 32 := 0#32
  let v706 : BitVec 1 := Scalar.cmpi .sgt v704 c0_i32_389
  let v707 : BitVec 32 := Scalar.extui v706
  let c0_i32_390 : BitVec 32 := 0#32
  let v708 : BitVec 1 := Scalar.cmpi .slt v704 c0_i32_390
  let v709 : BitVec 32 := Scalar.extui v708
  let v710 : BitVec 32 := Scalar.subi v707 v709
  let c8_i32_388 : BitVec 32 := 8#32
  let c0_i32_391 : BitVec 32 := 0#32
  let v711 : BitVec 1 := Scalar.cmpi .sgt c8_i32_388 c0_i32_391
  let v712 : BitVec 32 := Scalar.extui v711
  let c0_i32_392 : BitVec 32 := 0#32
  let v713 : BitVec 1 := Scalar.cmpi .slt c8_i32_388 c0_i32_392
  let v714 : BitVec 32 := Scalar.extui v713
  let v715 : BitVec 32 := Scalar.subi v712 v714
  let v716 : BitVec 1 := Scalar.cmpi .ne v710 v715
  let v717 : BitVec 32 := Scalar.remsi v704 c8_i32_388
  let c0_i32_393 : BitVec 32 := 0#32
  let v718 : BitVec 1 := Scalar.cmpi .ne v717 c0_i32_393
  let v719 : BitVec 1 := Scalar.andi v716 v718
  let v705 : BitVec 32 := Scalar.divsi v704 c8_i32_388
  let c1_i32_394 : BitVec 32 := 1#32
  let v720 : BitVec 32 := Scalar.subi v705 c1_i32_394
  let v721 : BitVec 32 := Scalar.select v719 v720 v705
  let v725 : Index := Scalar.indexCast v721
  let c0_i32_396 : BitVec 32 := 0#32
  let v726 : Index := Scalar.indexCast c0_i32_396
  let c112_397 : Index := 112#32
  ![v723.toNat, 0, v725.toNat, 0, 112]
def k0_off35 (i : grid0.Coords) (k0_t1 : Fin k0_t1_loop.trips) (k0_t6 : Fin k0_t6_loop.trips) : Fin 5 → Nat :=
  let c2_i32_203 : BitVec 32 := 2#32
  let c0_i32_79 : BitVec 32 := 0#32
  let c1_i32_80 : BitVec 32 := 1#32
  let arg22 : BitVec 32 := Scf.iv c0_i32_79 c1_i32_80 k0_t6
  let c2_i32_202 : BitVec 32 := 2#32
  let v310 : BitVec 32 := Scalar.muli arg22 c2_i32_202
  let v311 : BitVec 32 := Scalar.addi c2_i32_203 v310
  let c4_i32_228 : BitVec 32 := 4#32
  let v347 : BitVec 32 := Scalar.muli v311 c4_i32_228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_230 : BitVec 32 := 0#32
  let v349 : BitVec 1 := Scalar.cmpi .sgt v10 c0_i32_230
  let v350 : BitVec 32 := Scalar.extui v349
  let c0_i32_231 : BitVec 32 := 0#32
  let v351 : BitVec 1 := Scalar.cmpi .slt v10 c0_i32_231
  let v352 : BitVec 32 := Scalar.extui v351
  let v353 : BitVec 32 := Scalar.subi v350 v352
  let c8_i32_229 : BitVec 32 := 8#32
  let c0_i32_232 : BitVec 32 := 0#32
  let v354 : BitVec 1 := Scalar.cmpi .sgt c8_i32_229 c0_i32_232
  let v355 : BitVec 32 := Scalar.extui v354
  let c0_i32_233 : BitVec 32 := 0#32
  let v356 : BitVec 1 := Scalar.cmpi .slt c8_i32_229 c0_i32_233
  let v357 : BitVec 32 := Scalar.extui v356
  let v358 : BitVec 32 := Scalar.subi v355 v357
  let v359 : BitVec 1 := Scalar.cmpi .ne v353 v358
  let v360 : BitVec 32 := Scalar.remsi v10 c8_i32_229
  let c0_i32_234 : BitVec 32 := 0#32
  let v361 : BitVec 1 := Scalar.cmpi .ne v360 c0_i32_234
  let v362 : BitVec 1 := Scalar.andi v359 v361
  let v348 : BitVec 32 := Scalar.divsi v10 c8_i32_229
  let c1_i32_235 : BitVec 32 := 1#32
  let v363 : BitVec 32 := Scalar.subi v348 c1_i32_235
  let v364 : BitVec 32 := Scalar.select v362 v363 v348
  let c0_i32_242 : BitVec 32 := 0#32
  let c8_i32_236 : BitVec 32 := 8#32
  let c0_i32_237 : BitVec 32 := 0#32
  let v365 : BitVec 1 := Scalar.cmpi .eq c8_i32_236 c0_i32_237
  let c1_i32_238 : BitVec 32 := 1#32
  let v366 : BitVec 32 := Scalar.select v365 c1_i32_238 c8_i32_236
  let v367 : BitVec 32 := Scalar.remsi v10 v366
  let c0_i32_240 : BitVec 32 := 0#32
  let v369 : BitVec 1 := Scalar.cmpi .slt v367 c0_i32_240
  let c0_i32_241 : BitVec 32 := 0#32
  let v370 : BitVec 1 := Scalar.cmpi .slt v366 c0_i32_241
  let v371 : BitVec 1 := Scalar.xori v369 v370
  let c0_i32_239 : BitVec 32 := 0#32
  let v368 : BitVec 1 := Scalar.cmpi .ne v367 c0_i32_239
  let v372 : BitVec 1 := Scalar.andi v371 v368
  let v373 : BitVec 32 := Scalar.addi v367 v366
  let v374 : BitVec 32 := Scalar.select v372 v373 v367
  let c0_i32_243 : BitVec 32 := 0#32
  ![v347.toNat, v364.toNat, 0, v374.toNat, 0]
def k0_off36 (k0_t6 : Fin k0_t6_loop.trips) (c2_i32_246 : BitVec 32) : Fin 1 → Nat :=
  let c2_i32_203 : BitVec 32 := 2#32
  let c0_i32_79 : BitVec 32 := 0#32
  let c1_i32_80 : BitVec 32 := 1#32
  let arg22 : BitVec 32 := Scf.iv c0_i32_79 c1_i32_80 k0_t6
  let c2_i32_202 : BitVec 32 := 2#32
  let v310 : BitVec 32 := Scalar.muli arg22 c2_i32_202
  let v311 : BitVec 32 := Scalar.addi c2_i32_203 v310
  let v377 : BitVec 32 := Scalar.addi v311 c2_i32_246
  let c4096_i32_247 : BitVec 32 := 4096#32
  let v378 : BitVec 32 := Scalar.muli v377 c4096_i32_247
  ![v378.toNat]
def k0_off37 (i : grid0.Coords) (k0_t1 : Fin k0_t1_loop.trips) (k0_t6 : Fin k0_t6_loop.trips) : Fin 5 → Nat :=
  let c2_i32_203 : BitVec 32 := 2#32
  let c0_i32_79 : BitVec 32 := 0#32
  let c1_i32_80 : BitVec 32 := 1#32
  let arg22 : BitVec 32 := Scf.iv c0_i32_79 c1_i32_80 k0_t6
  let c2_i32_202 : BitVec 32 := 2#32
  let v310 : BitVec 32 := Scalar.muli arg22 c2_i32_202
  let v311 : BitVec 32 := Scalar.addi c2_i32_203 v310
  let c1_i32_248 : BitVec 32 := 1#32
  let v381 : BitVec 32 := Scalar.addi v311 c1_i32_248
  let c2_i32_250 : BitVec 32 := 2#32
  let v385 : BitVec 32 := Scalar.subi v381 c2_i32_250
  let c4_i32_251 : BitVec 32 := 4#32
  let v386 : BitVec 32 := Scalar.muli v385 c4_i32_251
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_253 : BitVec 32 := 0#32
  let v388 : BitVec 1 := Scalar.cmpi .sgt v10 c0_i32_253
  let v389 : BitVec 32 := Scalar.extui v388
  let c0_i32_254 : BitVec 32 := 0#32
  let v390 : BitVec 1 := Scalar.cmpi .slt v10 c0_i32_254
  let v391 : BitVec 32 := Scalar.extui v390
  let v392 : BitVec 32 := Scalar.subi v389 v391
  let c8_i32_252 : BitVec 32 := 8#32
  let c0_i32_255 : BitVec 32 := 0#32
  let v393 : BitVec 1 := Scalar.cmpi .sgt c8_i32_252 c0_i32_255
  let v394 : BitVec 32 := Scalar.extui v393
  let c0_i32_256 : BitVec 32 := 0#32
  let v395 : BitVec 1 := Scalar.cmpi .slt c8_i32_252 c0_i32_256
  let v396 : BitVec 32 := Scalar.extui v395
  let v397 : BitVec 32 := Scalar.subi v394 v396
  let v398 : BitVec 1 := Scalar.cmpi .ne v392 v397
  let v399 : BitVec 32 := Scalar.remsi v10 c8_i32_252
  let c0_i32_257 : BitVec 32 := 0#32
  let v400 : BitVec 1 := Scalar.cmpi .ne v399 c0_i32_257
  let v401 : BitVec 1 := Scalar.andi v398 v400
  let v387 : BitVec 32 := Scalar.divsi v10 c8_i32_252
  let c1_i32_258 : BitVec 32 := 1#32
  let v402 : BitVec 32 := Scalar.subi v387 c1_i32_258
  let v403 : BitVec 32 := Scalar.select v401 v402 v387
  let c0_i32_265 : BitVec 32 := 0#32
  let c8_i32_259 : BitVec 32 := 8#32
  let c0_i32_260 : BitVec 32 := 0#32
  let v404 : BitVec 1 := Scalar.cmpi .eq c8_i32_259 c0_i32_260
  let c1_i32_261 : BitVec 32 := 1#32
  let v405 : BitVec 32 := Scalar.select v404 c1_i32_261 c8_i32_259
  let v406 : BitVec 32 := Scalar.remsi v10 v405
  let c0_i32_263 : BitVec 32 := 0#32
  let v408 : BitVec 1 := Scalar.cmpi .slt v406 c0_i32_263
  let c0_i32_264 : BitVec 32 := 0#32
  let v409 : BitVec 1 := Scalar.cmpi .slt v405 c0_i32_264
  let v410 : BitVec 1 := Scalar.xori v408 v409
  let c0_i32_262 : BitVec 32 := 0#32
  let v407 : BitVec 1 := Scalar.cmpi .ne v406 c0_i32_262
  let v411 : BitVec 1 := Scalar.andi v410 v407
  let v412 : BitVec 32 := Scalar.addi v406 v405
  let v413 : BitVec 32 := Scalar.select v411 v412 v406
  let c0_i32_266 : BitVec 32 := 0#32
  ![v386.toNat, v403.toNat, 0, v413.toNat, 0]
@[reducible] def k0_t9_loop : Scf.Loop 32 :=
  let c0_i32_269 : BitVec 32 := 0#32
  let c4_i32_270 : BitVec 32 := 4#32
  let v416 : BitVec 32 := Scalar.addi c0_i32_269 c4_i32_270
  let c1_i32_271 : BitVec 32 := 1#32
  ⟨c0_i32_269, v416, c1_i32_271⟩

def k0_chk53 (v455 : IVec S16 32) : Prop :=
  (∀ a x, ((![v455] : Fin 1 → IVec S16 32) a x).toNat < S208.size a)
instance k0_chk53.dec : ∀ (v455 : IVec S16 32), Decidable (k0_chk53 v455) := fun v455 => decidable_of_iff' _ (Iff.of_eq (k0_chk53.eq_1 v455))
theorem k0_idx53_inb : ∀ (v455 : IVec S16 32) (k0_hw53 : k0_chk53 v455), ∀ a x, ((![v455] : Fin 1 → IVec S16 32) a x).toNat < S208.size a := fun v455 k0_hw53 => k0_hw53
@[reducible] def k0_t10_loop : Scf.Loop 32 :=
  let c0_i32_296 : BitVec 32 := 0#32
  let c4_i32_297 : BitVec 32 := 4#32
  let v457 : BitVec 32 := Scalar.addi c0_i32_296 c4_i32_297
  let c1_i32_298 : BitVec 32 := 1#32
  ⟨c0_i32_296, v457, c1_i32_298⟩
def k0_off38 (k0_t9 : Fin k0_t9_loop.trips) (k0_t10 : Fin k0_t10_loop.trips) (c0_i32_303 : BitVec 32) : Fin 1 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let c1024_i32 : BitVec 32 := 1024#32
  let v460 : BitVec 32 := Scalar.muli v452 c1024_i32
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32 : BitVec 32 := 16#32
  let v461 : BitVec 32 := Scalar.muli v459 c16_i32
  let c16_i32_302 : BitVec 32 := 16#32
  let v462 : BitVec 32 := Scalar.muli v461 c16_i32_302
  let v463 : BitVec 32 := Scalar.addi v460 v462
  let v464 : BitVec 32 := Scalar.addi v463 c0_i32_303
  let v465 : Index := Scalar.indexCast v464
  ![v465.toNat]

def k0_chk54 (v2 : IVec S16 32) (v466 : IVec S16 32) : Prop :=
  (∀ a x, ((![v2, v466] : Fin 2 → IVec S16 32) a x).toNat < S1x100000.size a)
instance k0_chk54.dec : ∀ (v2 : IVec S16 32) (v466 : IVec S16 32), Decidable (k0_chk54 v2 v466) := fun v2 v466 => decidable_of_iff' _ (Iff.of_eq (k0_chk54.eq_1 v2 v466))
theorem k0_idx54_inb : ∀ (v2 : IVec S16 32) (v466 : IVec S16 32) (k0_hw54 : k0_chk54 v2 v466), ∀ a x, ((![v2, v466] : Fin 2 → IVec S16 32) a x).toNat < S1x100000.size a := fun v2 v466 k0_hw54 => k0_hw54

def k0_chk55 (v2 : IVec S16 32) (v469 : IVec S16 32) : Prop :=
  (∀ a x, ((![v2, v469] : Fin 2 → IVec S16 32) a x).toNat < S1x100000.size a)
instance k0_chk55.dec : ∀ (v2 : IVec S16 32) (v469 : IVec S16 32), Decidable (k0_chk55 v2 v469) := fun v2 v469 => decidable_of_iff' _ (Iff.of_eq (k0_chk55.eq_1 v2 v469))
theorem k0_idx55_inb : ∀ (v2 : IVec S16 32) (v469 : IVec S16 32) (k0_hw55 : k0_chk55 v2 v469), ∀ a x, ((![v2, v469] : Fin 2 → IVec S16 32) a x).toNat < S1x100000.size a := fun v2 v469 k0_hw55 => k0_hw55

def k0_chk56 (v2 : IVec S16 32) (v472 : IVec S16 32) : Prop :=
  (∀ a x, ((![v2, v472] : Fin 2 → IVec S16 32) a x).toNat < S1x100000.size a)
instance k0_chk56.dec : ∀ (v2 : IVec S16 32) (v472 : IVec S16 32), Decidable (k0_chk56 v2 v472) := fun v2 v472 => decidable_of_iff' _ (Iff.of_eq (k0_chk56.eq_1 v2 v472))
theorem k0_idx56_inb : ∀ (v2 : IVec S16 32) (v472 : IVec S16 32) (k0_hw56 : k0_chk56 v2 v472), ∀ a x, ((![v2, v472] : Fin 2 → IVec S16 32) a x).toNat < S1x100000.size a := fun v2 v472 k0_hw56 => k0_hw56

def k0_chk57 (v2 : IVec S16 32) (v475 : IVec S16 32) : Prop :=
  (∀ a x, ((![v2, v475] : Fin 2 → IVec S16 32) a x).toNat < S1x100000.size a)
instance k0_chk57.dec : ∀ (v2 : IVec S16 32) (v475 : IVec S16 32), Decidable (k0_chk57 v2 v475) := fun v2 v475 => decidable_of_iff' _ (Iff.of_eq (k0_chk57.eq_1 v2 v475))
theorem k0_idx57_inb : ∀ (v2 : IVec S16 32) (v475 : IVec S16 32) (k0_hw57 : k0_chk57 v2 v475), ∀ a x, ((![v2, v475] : Fin 2 → IVec S16 32) a x).toNat < S1x100000.size a := fun v2 v475 k0_hw57 => k0_hw57

def k0_chk58 (v2 : IVec S16 32) (v478 : IVec S16 32) : Prop :=
  (∀ a x, ((![v2, v478] : Fin 2 → IVec S16 32) a x).toNat < S1x100000.size a)
instance k0_chk58.dec : ∀ (v2 : IVec S16 32) (v478 : IVec S16 32), Decidable (k0_chk58 v2 v478) := fun v2 v478 => decidable_of_iff' _ (Iff.of_eq (k0_chk58.eq_1 v2 v478))
theorem k0_idx58_inb : ∀ (v2 : IVec S16 32) (v478 : IVec S16 32) (k0_hw58 : k0_chk58 v2 v478), ∀ a x, ((![v2, v478] : Fin 2 → IVec S16 32) a x).toNat < S1x100000.size a := fun v2 v478 k0_hw58 => k0_hw58

def k0_chk59 (v2 : IVec S16 32) (v481 : IVec S16 32) : Prop :=
  (∀ a x, ((![v2, v481] : Fin 2 → IVec S16 32) a x).toNat < S1x100000.size a)
instance k0_chk59.dec : ∀ (v2 : IVec S16 32) (v481 : IVec S16 32), Decidable (k0_chk59 v2 v481) := fun v2 v481 => decidable_of_iff' _ (Iff.of_eq (k0_chk59.eq_1 v2 v481))
theorem k0_idx59_inb : ∀ (v2 : IVec S16 32) (v481 : IVec S16 32) (k0_hw59 : k0_chk59 v2 v481), ∀ a x, ((![v2, v481] : Fin 2 → IVec S16 32) a x).toNat < S1x100000.size a := fun v2 v481 k0_hw59 => k0_hw59

def k0_chk60 (v2 : IVec S16 32) (v484 : IVec S16 32) : Prop :=
  (∀ a x, ((![v2, v484] : Fin 2 → IVec S16 32) a x).toNat < S1x100000.size a)
instance k0_chk60.dec : ∀ (v2 : IVec S16 32) (v484 : IVec S16 32), Decidable (k0_chk60 v2 v484) := fun v2 v484 => decidable_of_iff' _ (Iff.of_eq (k0_chk60.eq_1 v2 v484))
theorem k0_idx60_inb : ∀ (v2 : IVec S16 32) (v484 : IVec S16 32) (k0_hw60 : k0_chk60 v2 v484), ∀ a x, ((![v2, v484] : Fin 2 → IVec S16 32) a x).toNat < S1x100000.size a := fun v2 v484 k0_hw60 => k0_hw60

def k0_chk61 (v2 : IVec S16 32) (v487 : IVec S16 32) : Prop :=
  (∀ a x, ((![v2, v487] : Fin 2 → IVec S16 32) a x).toNat < S1x100000.size a)
instance k0_chk61.dec : ∀ (v2 : IVec S16 32) (v487 : IVec S16 32), Decidable (k0_chk61 v2 v487) := fun v2 v487 => decidable_of_iff' _ (Iff.of_eq (k0_chk61.eq_1 v2 v487))
theorem k0_idx61_inb : ∀ (v2 : IVec S16 32) (v487 : IVec S16 32) (k0_hw61 : k0_chk61 v2 v487), ∀ a x, ((![v2, v487] : Fin 2 → IVec S16 32) a x).toNat < S1x100000.size a := fun v2 v487 k0_hw61 => k0_hw61

def k0_chk62 (v2 : IVec S16 32) (v490 : IVec S16 32) : Prop :=
  (∀ a x, ((![v2, v490] : Fin 2 → IVec S16 32) a x).toNat < S1x100000.size a)
instance k0_chk62.dec : ∀ (v2 : IVec S16 32) (v490 : IVec S16 32), Decidable (k0_chk62 v2 v490) := fun v2 v490 => decidable_of_iff' _ (Iff.of_eq (k0_chk62.eq_1 v2 v490))
theorem k0_idx62_inb : ∀ (v2 : IVec S16 32) (v490 : IVec S16 32) (k0_hw62 : k0_chk62 v2 v490), ∀ a x, ((![v2, v490] : Fin 2 → IVec S16 32) a x).toNat < S1x100000.size a := fun v2 v490 k0_hw62 => k0_hw62

def k0_chk63 (v2 : IVec S16 32) (v493 : IVec S16 32) : Prop :=
  (∀ a x, ((![v2, v493] : Fin 2 → IVec S16 32) a x).toNat < S1x100000.size a)
instance k0_chk63.dec : ∀ (v2 : IVec S16 32) (v493 : IVec S16 32), Decidable (k0_chk63 v2 v493) := fun v2 v493 => decidable_of_iff' _ (Iff.of_eq (k0_chk63.eq_1 v2 v493))
theorem k0_idx63_inb : ∀ (v2 : IVec S16 32) (v493 : IVec S16 32) (k0_hw63 : k0_chk63 v2 v493), ∀ a x, ((![v2, v493] : Fin 2 → IVec S16 32) a x).toNat < S1x100000.size a := fun v2 v493 k0_hw63 => k0_hw63

def k0_chk64 (v2 : IVec S16 32) (v496 : IVec S16 32) : Prop :=
  (∀ a x, ((![v2, v496] : Fin 2 → IVec S16 32) a x).toNat < S1x100000.size a)
instance k0_chk64.dec : ∀ (v2 : IVec S16 32) (v496 : IVec S16 32), Decidable (k0_chk64 v2 v496) := fun v2 v496 => decidable_of_iff' _ (Iff.of_eq (k0_chk64.eq_1 v2 v496))
theorem k0_idx64_inb : ∀ (v2 : IVec S16 32) (v496 : IVec S16 32) (k0_hw64 : k0_chk64 v2 v496), ∀ a x, ((![v2, v496] : Fin 2 → IVec S16 32) a x).toNat < S1x100000.size a := fun v2 v496 k0_hw64 => k0_hw64

def k0_chk65 (v2 : IVec S16 32) (v499 : IVec S16 32) : Prop :=
  (∀ a x, ((![v2, v499] : Fin 2 → IVec S16 32) a x).toNat < S1x100000.size a)
instance k0_chk65.dec : ∀ (v2 : IVec S16 32) (v499 : IVec S16 32), Decidable (k0_chk65 v2 v499) := fun v2 v499 => decidable_of_iff' _ (Iff.of_eq (k0_chk65.eq_1 v2 v499))
theorem k0_idx65_inb : ∀ (v2 : IVec S16 32) (v499 : IVec S16 32) (k0_hw65 : k0_chk65 v2 v499), ∀ a x, ((![v2, v499] : Fin 2 → IVec S16 32) a x).toNat < S1x100000.size a := fun v2 v499 k0_hw65 => k0_hw65

def k0_chk66 (v2 : IVec S16 32) (v502 : IVec S16 32) : Prop :=
  (∀ a x, ((![v2, v502] : Fin 2 → IVec S16 32) a x).toNat < S1x100000.size a)
instance k0_chk66.dec : ∀ (v2 : IVec S16 32) (v502 : IVec S16 32), Decidable (k0_chk66 v2 v502) := fun v2 v502 => decidable_of_iff' _ (Iff.of_eq (k0_chk66.eq_1 v2 v502))
theorem k0_idx66_inb : ∀ (v2 : IVec S16 32) (v502 : IVec S16 32) (k0_hw66 : k0_chk66 v2 v502), ∀ a x, ((![v2, v502] : Fin 2 → IVec S16 32) a x).toNat < S1x100000.size a := fun v2 v502 k0_hw66 => k0_hw66

def k0_chk67 (v2 : IVec S16 32) (v505 : IVec S16 32) : Prop :=
  (∀ a x, ((![v2, v505] : Fin 2 → IVec S16 32) a x).toNat < S1x100000.size a)
instance k0_chk67.dec : ∀ (v2 : IVec S16 32) (v505 : IVec S16 32), Decidable (k0_chk67 v2 v505) := fun v2 v505 => decidable_of_iff' _ (Iff.of_eq (k0_chk67.eq_1 v2 v505))
theorem k0_idx67_inb : ∀ (v2 : IVec S16 32) (v505 : IVec S16 32) (k0_hw67 : k0_chk67 v2 v505), ∀ a x, ((![v2, v505] : Fin 2 → IVec S16 32) a x).toNat < S1x100000.size a := fun v2 v505 k0_hw67 => k0_hw67

def k0_chk68 (v2 : IVec S16 32) (v508 : IVec S16 32) : Prop :=
  (∀ a x, ((![v2, v508] : Fin 2 → IVec S16 32) a x).toNat < S1x100000.size a)
instance k0_chk68.dec : ∀ (v2 : IVec S16 32) (v508 : IVec S16 32), Decidable (k0_chk68 v2 v508) := fun v2 v508 => decidable_of_iff' _ (Iff.of_eq (k0_chk68.eq_1 v2 v508))
theorem k0_idx68_inb : ∀ (v2 : IVec S16 32) (v508 : IVec S16 32) (k0_hw68 : k0_chk68 v2 v508), ∀ a x, ((![v2, v508] : Fin 2 → IVec S16 32) a x).toNat < S1x100000.size a := fun v2 v508 k0_hw68 => k0_hw68

def k0_chk69 (v2 : IVec S16 32) (v511 : IVec S16 32) : Prop :=
  (∀ a x, ((![v2, v511] : Fin 2 → IVec S16 32) a x).toNat < S1x100000.size a)
instance k0_chk69.dec : ∀ (v2 : IVec S16 32) (v511 : IVec S16 32), Decidable (k0_chk69 v2 v511) := fun v2 v511 => decidable_of_iff' _ (Iff.of_eq (k0_chk69.eq_1 v2 v511))
theorem k0_idx69_inb : ∀ (v2 : IVec S16 32) (v511 : IVec S16 32) (k0_hw69 : k0_chk69 v2 v511), ∀ a x, ((![v2, v511] : Fin 2 → IVec S16 32) a x).toNat < S1x100000.size a := fun v2 v511 k0_hw69 => k0_hw69
def k0_off39 (k0_t9 : Fin k0_t9_loop.trips) (k0_t10 : Fin k0_t10_loop.trips) (c0_i32_307 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v548 : Index := Scalar.indexCast v452
  let c0_i32_315 : BitVec 32 := 0#32
  let v549 : Index := Scalar.indexCast c0_i32_315
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_306 : BitVec 32 := 16#32
  let v528 : BitVec 32 := Scalar.muli v459 c16_i32_306
  let v529 : BitVec 32 := Scalar.addi v528 c0_i32_307
  let c0_i32_309 : BitVec 32 := 0#32
  let v531 : BitVec 1 := Scalar.cmpi .sgt v529 c0_i32_309
  let v532 : BitVec 32 := Scalar.extui v531
  let c0_i32_310 : BitVec 32 := 0#32
  let v533 : BitVec 1 := Scalar.cmpi .slt v529 c0_i32_310
  let v534 : BitVec 32 := Scalar.extui v533
  let v535 : BitVec 32 := Scalar.subi v532 v534
  let c8_i32_308 : BitVec 32 := 8#32
  let c0_i32_311 : BitVec 32 := 0#32
  let v536 : BitVec 1 := Scalar.cmpi .sgt c8_i32_308 c0_i32_311
  let v537 : BitVec 32 := Scalar.extui v536
  let c0_i32_312 : BitVec 32 := 0#32
  let v538 : BitVec 1 := Scalar.cmpi .slt c8_i32_308 c0_i32_312
  let v539 : BitVec 32 := Scalar.extui v538
  let v540 : BitVec 32 := Scalar.subi v537 v539
  let v541 : BitVec 1 := Scalar.cmpi .ne v535 v540
  let v542 : BitVec 32 := Scalar.remsi v529 c8_i32_308
  let c0_i32_313 : BitVec 32 := 0#32
  let v543 : BitVec 1 := Scalar.cmpi .ne v542 c0_i32_313
  let v544 : BitVec 1 := Scalar.andi v541 v543
  let v530 : BitVec 32 := Scalar.divsi v529 c8_i32_308
  let c1_i32_314 : BitVec 32 := 1#32
  let v545 : BitVec 32 := Scalar.subi v530 c1_i32_314
  let v546 : BitVec 32 := Scalar.select v544 v545 v530
  let v550 : Index := Scalar.indexCast v546
  let c0_i32_316 : BitVec 32 := 0#32
  let v551 : Index := Scalar.indexCast c0_i32_316
  let c0_317 : Index := 0#32
  ![v548.toNat, 0, v550.toNat, 0, 0]
def k0_off40 (k0_t9 : Fin k0_t9_loop.trips) (k0_t10 : Fin k0_t10_loop.trips) (c1_i32_319 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v573 : Index := Scalar.indexCast v452
  let c0_i32_327 : BitVec 32 := 0#32
  let v574 : Index := Scalar.indexCast c0_i32_327
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_318 : BitVec 32 := 16#32
  let v553 : BitVec 32 := Scalar.muli v459 c16_i32_318
  let v554 : BitVec 32 := Scalar.addi v553 c1_i32_319
  let c0_i32_321 : BitVec 32 := 0#32
  let v556 : BitVec 1 := Scalar.cmpi .sgt v554 c0_i32_321
  let v557 : BitVec 32 := Scalar.extui v556
  let c0_i32_322 : BitVec 32 := 0#32
  let v558 : BitVec 1 := Scalar.cmpi .slt v554 c0_i32_322
  let v559 : BitVec 32 := Scalar.extui v558
  let v560 : BitVec 32 := Scalar.subi v557 v559
  let c8_i32_320 : BitVec 32 := 8#32
  let c0_i32_323 : BitVec 32 := 0#32
  let v561 : BitVec 1 := Scalar.cmpi .sgt c8_i32_320 c0_i32_323
  let v562 : BitVec 32 := Scalar.extui v561
  let c0_i32_324 : BitVec 32 := 0#32
  let v563 : BitVec 1 := Scalar.cmpi .slt c8_i32_320 c0_i32_324
  let v564 : BitVec 32 := Scalar.extui v563
  let v565 : BitVec 32 := Scalar.subi v562 v564
  let v566 : BitVec 1 := Scalar.cmpi .ne v560 v565
  let v567 : BitVec 32 := Scalar.remsi v554 c8_i32_320
  let c0_i32_325 : BitVec 32 := 0#32
  let v568 : BitVec 1 := Scalar.cmpi .ne v567 c0_i32_325
  let v569 : BitVec 1 := Scalar.andi v566 v568
  let v555 : BitVec 32 := Scalar.divsi v554 c8_i32_320
  let c1_i32_326 : BitVec 32 := 1#32
  let v570 : BitVec 32 := Scalar.subi v555 c1_i32_326
  let v571 : BitVec 32 := Scalar.select v569 v570 v555
  let v575 : Index := Scalar.indexCast v571
  let c0_i32_328 : BitVec 32 := 0#32
  let v576 : Index := Scalar.indexCast c0_i32_328
  let c16_329 : Index := 16#32
  ![v573.toNat, 0, v575.toNat, 0, 16]
def k0_off41 (k0_t9 : Fin k0_t9_loop.trips) (k0_t10 : Fin k0_t10_loop.trips) (c2_i32_331 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v598 : Index := Scalar.indexCast v452
  let c0_i32_339 : BitVec 32 := 0#32
  let v599 : Index := Scalar.indexCast c0_i32_339
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_330 : BitVec 32 := 16#32
  let v578 : BitVec 32 := Scalar.muli v459 c16_i32_330
  let v579 : BitVec 32 := Scalar.addi v578 c2_i32_331
  let c0_i32_333 : BitVec 32 := 0#32
  let v581 : BitVec 1 := Scalar.cmpi .sgt v579 c0_i32_333
  let v582 : BitVec 32 := Scalar.extui v581
  let c0_i32_334 : BitVec 32 := 0#32
  let v583 : BitVec 1 := Scalar.cmpi .slt v579 c0_i32_334
  let v584 : BitVec 32 := Scalar.extui v583
  let v585 : BitVec 32 := Scalar.subi v582 v584
  let c8_i32_332 : BitVec 32 := 8#32
  let c0_i32_335 : BitVec 32 := 0#32
  let v586 : BitVec 1 := Scalar.cmpi .sgt c8_i32_332 c0_i32_335
  let v587 : BitVec 32 := Scalar.extui v586
  let c0_i32_336 : BitVec 32 := 0#32
  let v588 : BitVec 1 := Scalar.cmpi .slt c8_i32_332 c0_i32_336
  let v589 : BitVec 32 := Scalar.extui v588
  let v590 : BitVec 32 := Scalar.subi v587 v589
  let v591 : BitVec 1 := Scalar.cmpi .ne v585 v590
  let v592 : BitVec 32 := Scalar.remsi v579 c8_i32_332
  let c0_i32_337 : BitVec 32 := 0#32
  let v593 : BitVec 1 := Scalar.cmpi .ne v592 c0_i32_337
  let v594 : BitVec 1 := Scalar.andi v591 v593
  let v580 : BitVec 32 := Scalar.divsi v579 c8_i32_332
  let c1_i32_338 : BitVec 32 := 1#32
  let v595 : BitVec 32 := Scalar.subi v580 c1_i32_338
  let v596 : BitVec 32 := Scalar.select v594 v595 v580
  let v600 : Index := Scalar.indexCast v596
  let c0_i32_340 : BitVec 32 := 0#32
  let v601 : Index := Scalar.indexCast c0_i32_340
  let c32_341 : Index := 32#32
  ![v598.toNat, 0, v600.toNat, 0, 32]
def k0_off42 (k0_t9 : Fin k0_t9_loop.trips) (k0_t10 : Fin k0_t10_loop.trips) (c3_i32 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v623 : Index := Scalar.indexCast v452
  let c0_i32_350 : BitVec 32 := 0#32
  let v624 : Index := Scalar.indexCast c0_i32_350
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_342 : BitVec 32 := 16#32
  let v603 : BitVec 32 := Scalar.muli v459 c16_i32_342
  let v604 : BitVec 32 := Scalar.addi v603 c3_i32
  let c0_i32_344 : BitVec 32 := 0#32
  let v606 : BitVec 1 := Scalar.cmpi .sgt v604 c0_i32_344
  let v607 : BitVec 32 := Scalar.extui v606
  let c0_i32_345 : BitVec 32 := 0#32
  let v608 : BitVec 1 := Scalar.cmpi .slt v604 c0_i32_345
  let v609 : BitVec 32 := Scalar.extui v608
  let v610 : BitVec 32 := Scalar.subi v607 v609
  let c8_i32_343 : BitVec 32 := 8#32
  let c0_i32_346 : BitVec 32 := 0#32
  let v611 : BitVec 1 := Scalar.cmpi .sgt c8_i32_343 c0_i32_346
  let v612 : BitVec 32 := Scalar.extui v611
  let c0_i32_347 : BitVec 32 := 0#32
  let v613 : BitVec 1 := Scalar.cmpi .slt c8_i32_343 c0_i32_347
  let v614 : BitVec 32 := Scalar.extui v613
  let v615 : BitVec 32 := Scalar.subi v612 v614
  let v616 : BitVec 1 := Scalar.cmpi .ne v610 v615
  let v617 : BitVec 32 := Scalar.remsi v604 c8_i32_343
  let c0_i32_348 : BitVec 32 := 0#32
  let v618 : BitVec 1 := Scalar.cmpi .ne v617 c0_i32_348
  let v619 : BitVec 1 := Scalar.andi v616 v618
  let v605 : BitVec 32 := Scalar.divsi v604 c8_i32_343
  let c1_i32_349 : BitVec 32 := 1#32
  let v620 : BitVec 32 := Scalar.subi v605 c1_i32_349
  let v621 : BitVec 32 := Scalar.select v619 v620 v605
  let v625 : Index := Scalar.indexCast v621
  let c0_i32_351 : BitVec 32 := 0#32
  let v626 : Index := Scalar.indexCast c0_i32_351
  let c48_352 : Index := 48#32
  ![v623.toNat, 0, v625.toNat, 0, 48]
def k0_off43 (k0_t9 : Fin k0_t9_loop.trips) (k0_t10 : Fin k0_t10_loop.trips) (c4_i32_354 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v648 : Index := Scalar.indexCast v452
  let c0_i32_362 : BitVec 32 := 0#32
  let v649 : Index := Scalar.indexCast c0_i32_362
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_353 : BitVec 32 := 16#32
  let v628 : BitVec 32 := Scalar.muli v459 c16_i32_353
  let v629 : BitVec 32 := Scalar.addi v628 c4_i32_354
  let c0_i32_356 : BitVec 32 := 0#32
  let v631 : BitVec 1 := Scalar.cmpi .sgt v629 c0_i32_356
  let v632 : BitVec 32 := Scalar.extui v631
  let c0_i32_357 : BitVec 32 := 0#32
  let v633 : BitVec 1 := Scalar.cmpi .slt v629 c0_i32_357
  let v634 : BitVec 32 := Scalar.extui v633
  let v635 : BitVec 32 := Scalar.subi v632 v634
  let c8_i32_355 : BitVec 32 := 8#32
  let c0_i32_358 : BitVec 32 := 0#32
  let v636 : BitVec 1 := Scalar.cmpi .sgt c8_i32_355 c0_i32_358
  let v637 : BitVec 32 := Scalar.extui v636
  let c0_i32_359 : BitVec 32 := 0#32
  let v638 : BitVec 1 := Scalar.cmpi .slt c8_i32_355 c0_i32_359
  let v639 : BitVec 32 := Scalar.extui v638
  let v640 : BitVec 32 := Scalar.subi v637 v639
  let v641 : BitVec 1 := Scalar.cmpi .ne v635 v640
  let v642 : BitVec 32 := Scalar.remsi v629 c8_i32_355
  let c0_i32_360 : BitVec 32 := 0#32
  let v643 : BitVec 1 := Scalar.cmpi .ne v642 c0_i32_360
  let v644 : BitVec 1 := Scalar.andi v641 v643
  let v630 : BitVec 32 := Scalar.divsi v629 c8_i32_355
  let c1_i32_361 : BitVec 32 := 1#32
  let v645 : BitVec 32 := Scalar.subi v630 c1_i32_361
  let v646 : BitVec 32 := Scalar.select v644 v645 v630
  let v650 : Index := Scalar.indexCast v646
  let c0_i32_363 : BitVec 32 := 0#32
  let v651 : Index := Scalar.indexCast c0_i32_363
  let c64_364 : Index := 64#32
  ![v648.toNat, 0, v650.toNat, 0, 64]
def k0_off44 (k0_t9 : Fin k0_t9_loop.trips) (k0_t10 : Fin k0_t10_loop.trips) (c5_i32 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v673 : Index := Scalar.indexCast v452
  let c0_i32_373 : BitVec 32 := 0#32
  let v674 : Index := Scalar.indexCast c0_i32_373
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_365 : BitVec 32 := 16#32
  let v653 : BitVec 32 := Scalar.muli v459 c16_i32_365
  let v654 : BitVec 32 := Scalar.addi v653 c5_i32
  let c0_i32_367 : BitVec 32 := 0#32
  let v656 : BitVec 1 := Scalar.cmpi .sgt v654 c0_i32_367
  let v657 : BitVec 32 := Scalar.extui v656
  let c0_i32_368 : BitVec 32 := 0#32
  let v658 : BitVec 1 := Scalar.cmpi .slt v654 c0_i32_368
  let v659 : BitVec 32 := Scalar.extui v658
  let v660 : BitVec 32 := Scalar.subi v657 v659
  let c8_i32_366 : BitVec 32 := 8#32
  let c0_i32_369 : BitVec 32 := 0#32
  let v661 : BitVec 1 := Scalar.cmpi .sgt c8_i32_366 c0_i32_369
  let v662 : BitVec 32 := Scalar.extui v661
  let c0_i32_370 : BitVec 32 := 0#32
  let v663 : BitVec 1 := Scalar.cmpi .slt c8_i32_366 c0_i32_370
  let v664 : BitVec 32 := Scalar.extui v663
  let v665 : BitVec 32 := Scalar.subi v662 v664
  let v666 : BitVec 1 := Scalar.cmpi .ne v660 v665
  let v667 : BitVec 32 := Scalar.remsi v654 c8_i32_366
  let c0_i32_371 : BitVec 32 := 0#32
  let v668 : BitVec 1 := Scalar.cmpi .ne v667 c0_i32_371
  let v669 : BitVec 1 := Scalar.andi v666 v668
  let v655 : BitVec 32 := Scalar.divsi v654 c8_i32_366
  let c1_i32_372 : BitVec 32 := 1#32
  let v670 : BitVec 32 := Scalar.subi v655 c1_i32_372
  let v671 : BitVec 32 := Scalar.select v669 v670 v655
  let v675 : Index := Scalar.indexCast v671
  let c0_i32_374 : BitVec 32 := 0#32
  let v676 : Index := Scalar.indexCast c0_i32_374
  let c80_375 : Index := 80#32
  ![v673.toNat, 0, v675.toNat, 0, 80]
def k0_off45 (k0_t9 : Fin k0_t9_loop.trips) (k0_t10 : Fin k0_t10_loop.trips) (c6_i32 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v698 : Index := Scalar.indexCast v452
  let c0_i32_384 : BitVec 32 := 0#32
  let v699 : Index := Scalar.indexCast c0_i32_384
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_376 : BitVec 32 := 16#32
  let v678 : BitVec 32 := Scalar.muli v459 c16_i32_376
  let v679 : BitVec 32 := Scalar.addi v678 c6_i32
  let c0_i32_378 : BitVec 32 := 0#32
  let v681 : BitVec 1 := Scalar.cmpi .sgt v679 c0_i32_378
  let v682 : BitVec 32 := Scalar.extui v681
  let c0_i32_379 : BitVec 32 := 0#32
  let v683 : BitVec 1 := Scalar.cmpi .slt v679 c0_i32_379
  let v684 : BitVec 32 := Scalar.extui v683
  let v685 : BitVec 32 := Scalar.subi v682 v684
  let c8_i32_377 : BitVec 32 := 8#32
  let c0_i32_380 : BitVec 32 := 0#32
  let v686 : BitVec 1 := Scalar.cmpi .sgt c8_i32_377 c0_i32_380
  let v687 : BitVec 32 := Scalar.extui v686
  let c0_i32_381 : BitVec 32 := 0#32
  let v688 : BitVec 1 := Scalar.cmpi .slt c8_i32_377 c0_i32_381
  let v689 : BitVec 32 := Scalar.extui v688
  let v690 : BitVec 32 := Scalar.subi v687 v689
  let v691 : BitVec 1 := Scalar.cmpi .ne v685 v690
  let v692 : BitVec 32 := Scalar.remsi v679 c8_i32_377
  let c0_i32_382 : BitVec 32 := 0#32
  let v693 : BitVec 1 := Scalar.cmpi .ne v692 c0_i32_382
  let v694 : BitVec 1 := Scalar.andi v691 v693
  let v680 : BitVec 32 := Scalar.divsi v679 c8_i32_377
  let c1_i32_383 : BitVec 32 := 1#32
  let v695 : BitVec 32 := Scalar.subi v680 c1_i32_383
  let v696 : BitVec 32 := Scalar.select v694 v695 v680
  let v700 : Index := Scalar.indexCast v696
  let c0_i32_385 : BitVec 32 := 0#32
  let v701 : Index := Scalar.indexCast c0_i32_385
  let c96_386 : Index := 96#32
  ![v698.toNat, 0, v700.toNat, 0, 96]
def k0_off46 (k0_t9 : Fin k0_t9_loop.trips) (k0_t10 : Fin k0_t10_loop.trips) (c7_i32 : BitVec 32) : Fin 5 → Nat :=
  let c0_i32_294 : BitVec 32 := 0#32
  let c0_i32_269 : BitVec 32 := 0#32
  let c1_i32_271 : BitVec 32 := 1#32
  let arg23 : BitVec 32 := Scf.iv c0_i32_269 c1_i32_271 k0_t9
  let c1_i32_293 : BitVec 32 := 1#32
  let v451 : BitVec 32 := Scalar.muli arg23 c1_i32_293
  let v452 : BitVec 32 := Scalar.addi c0_i32_294 v451
  let v723 : Index := Scalar.indexCast v452
  let c0_i32_395 : BitVec 32 := 0#32
  let v724 : Index := Scalar.indexCast c0_i32_395
  let c0_i32_301 : BitVec 32 := 0#32
  let c0_i32_296 : BitVec 32 := 0#32
  let c1_i32_298 : BitVec 32 := 1#32
  let arg24 : BitVec 32 := Scf.iv c0_i32_296 c1_i32_298 k0_t10
  let c1_i32_300 : BitVec 32 := 1#32
  let v458 : BitVec 32 := Scalar.muli arg24 c1_i32_300
  let v459 : BitVec 32 := Scalar.addi c0_i32_301 v458
  let c16_i32_387 : BitVec 32 := 16#32
  let v703 : BitVec 32 := Scalar.muli v459 c16_i32_387
  let v704 : BitVec 32 := Scalar.addi v703 c7_i32
  let c0_i32_389 : BitVec 32 := 0#32
  let v706 : BitVec 1 := Scalar.cmpi .sgt v704 c0_i32_389
  let v707 : BitVec 32 := Scalar.extui v706
  let c0_i32_390 : BitVec 32 := 0#32
  let v708 : BitVec 1 := Scalar.cmpi .slt v704 c0_i32_390
  let v709 : BitVec 32 := Scalar.extui v708
  let v710 : BitVec 32 := Scalar.subi v707 v709
  let c8_i32_388 : BitVec 32 := 8#32
  let c0_i32_391 : BitVec 32 := 0#32
  let v711 : BitVec 1 := Scalar.cmpi .sgt c8_i32_388 c0_i32_391
  let v712 : BitVec 32 := Scalar.extui v711
  let c0_i32_392 : BitVec 32 := 0#32
  let v713 : BitVec 1 := Scalar.cmpi .slt c8_i32_388 c0_i32_392
  let v714 : BitVec 32 := Scalar.extui v713
  let v715 : BitVec 32 := Scalar.subi v712 v714
  let v716 : BitVec 1 := Scalar.cmpi .ne v710 v715
  let v717 : BitVec 32 := Scalar.remsi v704 c8_i32_388
  let c0_i32_393 : BitVec 32 := 0#32
  let v718 : BitVec 1 := Scalar.cmpi .ne v717 c0_i32_393
  let v719 : BitVec 1 := Scalar.andi v716 v718
  let v705 : BitVec 32 := Scalar.divsi v704 c8_i32_388
  let c1_i32_394 : BitVec 32 := 1#32
  let v720 : BitVec 32 := Scalar.subi v705 c1_i32_394
  let v721 : BitVec 32 := Scalar.select v719 v720 v705
  let v725 : Index := Scalar.indexCast v721
  let c0_i32_396 : BitVec 32 := 0#32
  let v726 : Index := Scalar.indexCast c0_i32_396
  let c112_397 : Index := 112#32
  ![v723.toNat, 0, v725.toNat, 0, 112]
def k0_off47 (i : grid0.Coords) (k0_t1 : Fin k0_t1_loop.trips) (k0_t6 : Fin k0_t6_loop.trips) : Fin 5 → Nat :=
  let c2_i32_203 : BitVec 32 := 2#32
  let c0_i32_79 : BitVec 32 := 0#32
  let c1_i32_80 : BitVec 32 := 1#32
  let arg22 : BitVec 32 := Scf.iv c0_i32_79 c1_i32_80 k0_t6
  let c2_i32_202 : BitVec 32 := 2#32
  let v310 : BitVec 32 := Scalar.muli arg22 c2_i32_202
  let v311 : BitVec 32 := Scalar.addi c2_i32_203 v310
  let c1_i32_248 : BitVec 32 := 1#32
  let v381 : BitVec 32 := Scalar.addi v311 c1_i32_248
  let c4_i32_273 : BitVec 32 := 4#32
  let v417 : BitVec 32 := Scalar.muli v381 c4_i32_273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_275 : BitVec 32 := 0#32
  let v419 : BitVec 1 := Scalar.cmpi .sgt v10 c0_i32_275
  let v420 : BitVec 32 := Scalar.extui v419
  let c0_i32_276 : BitVec 32 := 0#32
  let v421 : BitVec 1 := Scalar.cmpi .slt v10 c0_i32_276
  let v422 : BitVec 32 := Scalar.extui v421
  let v423 : BitVec 32 := Scalar.subi v420 v422
  let c8_i32_274 : BitVec 32 := 8#32
  let c0_i32_277 : BitVec 32 := 0#32
  let v424 : BitVec 1 := Scalar.cmpi .sgt c8_i32_274 c0_i32_277
  let v425 : BitVec 32 := Scalar.extui v424
  let c0_i32_278 : BitVec 32 := 0#32
  let v426 : BitVec 1 := Scalar.cmpi .slt c8_i32_274 c0_i32_278
  let v427 : BitVec 32 := Scalar.extui v426
  let v428 : BitVec 32 := Scalar.subi v425 v427
  let v429 : BitVec 1 := Scalar.cmpi .ne v423 v428
  let v430 : BitVec 32 := Scalar.remsi v10 c8_i32_274
  let c0_i32_279 : BitVec 32 := 0#32
  let v431 : BitVec 1 := Scalar.cmpi .ne v430 c0_i32_279
  let v432 : BitVec 1 := Scalar.andi v429 v431
  let v418 : BitVec 32 := Scalar.divsi v10 c8_i32_274
  let c1_i32_280 : BitVec 32 := 1#32
  let v433 : BitVec 32 := Scalar.subi v418 c1_i32_280
  let v434 : BitVec 32 := Scalar.select v432 v433 v418
  let c0_i32_287 : BitVec 32 := 0#32
  let c8_i32_281 : BitVec 32 := 8#32
  let c0_i32_282 : BitVec 32 := 0#32
  let v435 : BitVec 1 := Scalar.cmpi .eq c8_i32_281 c0_i32_282
  let c1_i32_283 : BitVec 32 := 1#32
  let v436 : BitVec 32 := Scalar.select v435 c1_i32_283 c8_i32_281
  let v437 : BitVec 32 := Scalar.remsi v10 v436
  let c0_i32_285 : BitVec 32 := 0#32
  let v439 : BitVec 1 := Scalar.cmpi .slt v437 c0_i32_285
  let c0_i32_286 : BitVec 32 := 0#32
  let v440 : BitVec 1 := Scalar.cmpi .slt v436 c0_i32_286
  let v441 : BitVec 1 := Scalar.xori v439 v440
  let c0_i32_284 : BitVec 32 := 0#32
  let v438 : BitVec 1 := Scalar.cmpi .ne v437 c0_i32_284
  let v442 : BitVec 1 := Scalar.andi v441 v438
  let v443 : BitVec 32 := Scalar.addi v437 v436
  let v444 : BitVec 32 := Scalar.select v442 v443 v437
  let c0_i32_288 : BitVec 32 := 0#32
  ![v417.toNat, v434.toNat, 0, v444.toNat, 0]
def k0_off48 (k0_t6 : Fin k0_t6_loop.trips) : Fin 1 → Nat :=
  let c2_i32_203 : BitVec 32 := 2#32
  let c0_i32_79 : BitVec 32 := 0#32
  let c1_i32_80 : BitVec 32 := 1#32
  let arg22 : BitVec 32 := Scf.iv c0_i32_79 c1_i32_80 k0_t6
  let c2_i32_202 : BitVec 32 := 2#32
  let v310 : BitVec 32 := Scalar.muli arg22 c2_i32_202
  let v311 : BitVec 32 := Scalar.addi c2_i32_203 v310
  let c1_i32_248 : BitVec 32 := 1#32
  let v381 : BitVec 32 := Scalar.addi v311 c1_i32_248
  let c2_i32_291 : BitVec 32 := 2#32
  let v447 : BitVec 32 := Scalar.addi v381 c2_i32_291
  let c4096_i32_292 : BitVec 32 := 4096#32
  let v448 : BitVec 32 := Scalar.muli v447 c4096_i32_292
  ![v448.toNat]
def k0_off49 (i : grid0.Coords) (k0_t1 : Fin k0_t1_loop.trips) : Fin 5 → Nat :=
  let c184_i32 : BitVec 32 := 184#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_84 : BitVec 32 := 0#32
  let v133 : BitVec 1 := Scalar.cmpi .sgt v10 c0_i32_84
  let v134 : BitVec 32 := Scalar.extui v133
  let c0_i32_85 : BitVec 32 := 0#32
  let v135 : BitVec 1 := Scalar.cmpi .slt v10 c0_i32_85
  let v136 : BitVec 32 := Scalar.extui v135
  let v137 : BitVec 32 := Scalar.subi v134 v136
  let c8_i32_83 : BitVec 32 := 8#32
  let c0_i32_86 : BitVec 32 := 0#32
  let v138 : BitVec 1 := Scalar.cmpi .sgt c8_i32_83 c0_i32_86
  let v139 : BitVec 32 := Scalar.extui v138
  let c0_i32_87 : BitVec 32 := 0#32
  let v140 : BitVec 1 := Scalar.cmpi .slt c8_i32_83 c0_i32_87
  let v141 : BitVec 32 := Scalar.extui v140
  let v142 : BitVec 32 := Scalar.subi v139 v141
  let v143 : BitVec 1 := Scalar.cmpi .ne v137 v142
  let v144 : BitVec 32 := Scalar.remsi v10 c8_i32_83
  let c0_i32_88 : BitVec 32 := 0#32
  let v145 : BitVec 1 := Scalar.cmpi .ne v144 c0_i32_88
  let v146 : BitVec 1 := Scalar.andi v143 v145
  let v132 : BitVec 32 := Scalar.divsi v10 c8_i32_83
  let c1_i32_89 : BitVec 32 := 1#32
  let v147 : BitVec 32 := Scalar.subi v132 c1_i32_89
  let v148 : BitVec 32 := Scalar.select v146 v147 v132
  let c0_i32_96 : BitVec 32 := 0#32
  let c8_i32_90 : BitVec 32 := 8#32
  let c0_i32_91 : BitVec 32 := 0#32
  let v149 : BitVec 1 := Scalar.cmpi .eq c8_i32_90 c0_i32_91
  let c1_i32_92 : BitVec 32 := 1#32
  let v150 : BitVec 32 := Scalar.select v149 c1_i32_92 c8_i32_90
  let v151 : BitVec 32 := Scalar.remsi v10 v150
  let c0_i32_94 : BitVec 32 := 0#32
  let v153 : BitVec 1 := Scalar.cmpi .slt v151 c0_i32_94
  let c0_i32_95 : BitVec 32 := 0#32
  let v154 : BitVec 1 := Scalar.cmpi .slt v150 c0_i32_95
  let v155 : BitVec 1 := Scalar.xori v153 v154
  let c0_i32_93 : BitVec 32 := 0#32
  let v152 : BitVec 1 := Scalar.cmpi .ne v151 c0_i32_93
  let v156 : BitVec 1 := Scalar.andi v155 v152
  let v157 : BitVec 32 := Scalar.addi v151 v150
  let v158 : BitVec 32 := Scalar.select v156 v157 v151
  let c0_i32_97 : BitVec 32 := 0#32
  ![184, v148.toNat, 0, v158.toNat, 0]
@[reducible] def k0_t11_loop : Scf.Loop 32 :=
  let c0_i32_101 : BitVec 32 := 0#32
  let c4_i32_102 : BitVec 32 := 4#32
  let v161 : BitVec 32 := Scalar.addi c0_i32_101 c4_i32_102
  let c1_i32_103 : BitVec 32 := 1#32
  ⟨c0_i32_101, v161, c1_i32_103⟩

def k0_chk70 (v313 : IVec S16 32) : Prop :=
  (∀ a x, ((![v313] : Fin 1 → IVec S16 32) a x).toNat < S208.size a)
instance k0_chk70.dec : ∀ (v313 : IVec S16 32), Decidable (k0_chk70 v313) := fun v313 => decidable_of_iff' _ (Iff.of_eq (k0_chk70.eq_1 v313))
theorem k0_idx70_inb : ∀ (v313 : IVec S16 32) (k0_hw70 : k0_chk70 v313), ∀ a x, ((![v313] : Fin 1 → IVec S16 32) a x).toNat < S208.size a := fun v313 k0_hw70 => k0_hw70
@[reducible] def k0_t12_loop : Scf.Loop 32 :=
  let c0_i32_205 : BitVec 32 := 0#32
  let c4_i32_206 : BitVec 32 := 4#32
  let v315 : BitVec 32 := Scalar.addi c0_i32_205 c4_i32_206
  let c1_i32_207 : BitVec 32 := 1#32
  ⟨c0_i32_205, v315, c1_i32_207⟩
def k0_off50 (k0_t11 : Fin k0_t11_loop.trips) (k0_t12 : Fin k0_t12_loop.trips) (c0_i32_212 : BitVec 32) : Fin 1 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let c1024_i32 : BitVec 32 := 1024#32
  let v318 : BitVec 32 := Scalar.muli v311 c1024_i32
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32 : BitVec 32 := 16#32
  let v319 : BitVec 32 := Scalar.muli v317 c16_i32
  let c16_i32_211 : BitVec 32 := 16#32
  let v320 : BitVec 32 := Scalar.muli v319 c16_i32_211
  let v321 : BitVec 32 := Scalar.addi v318 v320
  let v322 : BitVec 32 := Scalar.addi v321 c0_i32_212
  let v323 : Index := Scalar.indexCast v322
  ![v323.toNat]

def k0_chk71 (v2 : IVec S16 32) (v324 : IVec S16 32) : Prop :=
  (∀ a x, ((![v2, v324] : Fin 2 → IVec S16 32) a x).toNat < S1x100000.size a)
instance k0_chk71.dec : ∀ (v2 : IVec S16 32) (v324 : IVec S16 32), Decidable (k0_chk71 v2 v324) := fun v2 v324 => decidable_of_iff' _ (Iff.of_eq (k0_chk71.eq_1 v2 v324))
theorem k0_idx71_inb : ∀ (v2 : IVec S16 32) (v324 : IVec S16 32) (k0_hw71 : k0_chk71 v2 v324), ∀ a x, ((![v2, v324] : Fin 2 → IVec S16 32) a x).toNat < S1x100000.size a := fun v2 v324 k0_hw71 => k0_hw71

def k0_chk72 (v2 : IVec S16 32) (v327 : IVec S16 32) : Prop :=
  (∀ a x, ((![v2, v327] : Fin 2 → IVec S16 32) a x).toNat < S1x100000.size a)
instance k0_chk72.dec : ∀ (v2 : IVec S16 32) (v327 : IVec S16 32), Decidable (k0_chk72 v2 v327) := fun v2 v327 => decidable_of_iff' _ (Iff.of_eq (k0_chk72.eq_1 v2 v327))
theorem k0_idx72_inb : ∀ (v2 : IVec S16 32) (v327 : IVec S16 32) (k0_hw72 : k0_chk72 v2 v327), ∀ a x, ((![v2, v327] : Fin 2 → IVec S16 32) a x).toNat < S1x100000.size a := fun v2 v327 k0_hw72 => k0_hw72

def k0_chk73 (v2 : IVec S16 32) (v330 : IVec S16 32) : Prop :=
  (∀ a x, ((![v2, v330] : Fin 2 → IVec S16 32) a x).toNat < S1x100000.size a)
instance k0_chk73.dec : ∀ (v2 : IVec S16 32) (v330 : IVec S16 32), Decidable (k0_chk73 v2 v330) := fun v2 v330 => decidable_of_iff' _ (Iff.of_eq (k0_chk73.eq_1 v2 v330))
theorem k0_idx73_inb : ∀ (v2 : IVec S16 32) (v330 : IVec S16 32) (k0_hw73 : k0_chk73 v2 v330), ∀ a x, ((![v2, v330] : Fin 2 → IVec S16 32) a x).toNat < S1x100000.size a := fun v2 v330 k0_hw73 => k0_hw73

def k0_chk74 (v2 : IVec S16 32) (v333 : IVec S16 32) : Prop :=
  (∀ a x, ((![v2, v333] : Fin 2 → IVec S16 32) a x).toNat < S1x100000.size a)
instance k0_chk74.dec : ∀ (v2 : IVec S16 32) (v333 : IVec S16 32), Decidable (k0_chk74 v2 v333) := fun v2 v333 => decidable_of_iff' _ (Iff.of_eq (k0_chk74.eq_1 v2 v333))
theorem k0_idx74_inb : ∀ (v2 : IVec S16 32) (v333 : IVec S16 32) (k0_hw74 : k0_chk74 v2 v333), ∀ a x, ((![v2, v333] : Fin 2 → IVec S16 32) a x).toNat < S1x100000.size a := fun v2 v333 k0_hw74 => k0_hw74

def k0_chk75 (v2 : IVec S16 32) (v336 : IVec S16 32) : Prop :=
  (∀ a x, ((![v2, v336] : Fin 2 → IVec S16 32) a x).toNat < S1x100000.size a)
instance k0_chk75.dec : ∀ (v2 : IVec S16 32) (v336 : IVec S16 32), Decidable (k0_chk75 v2 v336) := fun v2 v336 => decidable_of_iff' _ (Iff.of_eq (k0_chk75.eq_1 v2 v336))
theorem k0_idx75_inb : ∀ (v2 : IVec S16 32) (v336 : IVec S16 32) (k0_hw75 : k0_chk75 v2 v336), ∀ a x, ((![v2, v336] : Fin 2 → IVec S16 32) a x).toNat < S1x100000.size a := fun v2 v336 k0_hw75 => k0_hw75

def k0_chk76 (v2 : IVec S16 32) (v339 : IVec S16 32) : Prop :=
  (∀ a x, ((![v2, v339] : Fin 2 → IVec S16 32) a x).toNat < S1x100000.size a)
instance k0_chk76.dec : ∀ (v2 : IVec S16 32) (v339 : IVec S16 32), Decidable (k0_chk76 v2 v339) := fun v2 v339 => decidable_of_iff' _ (Iff.of_eq (k0_chk76.eq_1 v2 v339))
theorem k0_idx76_inb : ∀ (v2 : IVec S16 32) (v339 : IVec S16 32) (k0_hw76 : k0_chk76 v2 v339), ∀ a x, ((![v2, v339] : Fin 2 → IVec S16 32) a x).toNat < S1x100000.size a := fun v2 v339 k0_hw76 => k0_hw76

def k0_chk77 (v2 : IVec S16 32) (v342 : IVec S16 32) : Prop :=
  (∀ a x, ((![v2, v342] : Fin 2 → IVec S16 32) a x).toNat < S1x100000.size a)
instance k0_chk77.dec : ∀ (v2 : IVec S16 32) (v342 : IVec S16 32), Decidable (k0_chk77 v2 v342) := fun v2 v342 => decidable_of_iff' _ (Iff.of_eq (k0_chk77.eq_1 v2 v342))
theorem k0_idx77_inb : ∀ (v2 : IVec S16 32) (v342 : IVec S16 32) (k0_hw77 : k0_chk77 v2 v342), ∀ a x, ((![v2, v342] : Fin 2 → IVec S16 32) a x).toNat < S1x100000.size a := fun v2 v342 k0_hw77 => k0_hw77

def k0_chk78 (v2 : IVec S16 32) (v345 : IVec S16 32) : Prop :=
  (∀ a x, ((![v2, v345] : Fin 2 → IVec S16 32) a x).toNat < S1x100000.size a)
instance k0_chk78.dec : ∀ (v2 : IVec S16 32) (v345 : IVec S16 32), Decidable (k0_chk78 v2 v345) := fun v2 v345 => decidable_of_iff' _ (Iff.of_eq (k0_chk78.eq_1 v2 v345))
theorem k0_idx78_inb : ∀ (v2 : IVec S16 32) (v345 : IVec S16 32) (k0_hw78 : k0_chk78 v2 v345), ∀ a x, ((![v2, v345] : Fin 2 → IVec S16 32) a x).toNat < S1x100000.size a := fun v2 v345 k0_hw78 => k0_hw78

def k0_chk79 (v2 : IVec S16 32) (v348 : IVec S16 32) : Prop :=
  (∀ a x, ((![v2, v348] : Fin 2 → IVec S16 32) a x).toNat < S1x100000.size a)
instance k0_chk79.dec : ∀ (v2 : IVec S16 32) (v348 : IVec S16 32), Decidable (k0_chk79 v2 v348) := fun v2 v348 => decidable_of_iff' _ (Iff.of_eq (k0_chk79.eq_1 v2 v348))
theorem k0_idx79_inb : ∀ (v2 : IVec S16 32) (v348 : IVec S16 32) (k0_hw79 : k0_chk79 v2 v348), ∀ a x, ((![v2, v348] : Fin 2 → IVec S16 32) a x).toNat < S1x100000.size a := fun v2 v348 k0_hw79 => k0_hw79

def k0_chk80 (v2 : IVec S16 32) (v351 : IVec S16 32) : Prop :=
  (∀ a x, ((![v2, v351] : Fin 2 → IVec S16 32) a x).toNat < S1x100000.size a)
instance k0_chk80.dec : ∀ (v2 : IVec S16 32) (v351 : IVec S16 32), Decidable (k0_chk80 v2 v351) := fun v2 v351 => decidable_of_iff' _ (Iff.of_eq (k0_chk80.eq_1 v2 v351))
theorem k0_idx80_inb : ∀ (v2 : IVec S16 32) (v351 : IVec S16 32) (k0_hw80 : k0_chk80 v2 v351), ∀ a x, ((![v2, v351] : Fin 2 → IVec S16 32) a x).toNat < S1x100000.size a := fun v2 v351 k0_hw80 => k0_hw80

def k0_chk81 (v2 : IVec S16 32) (v354 : IVec S16 32) : Prop :=
  (∀ a x, ((![v2, v354] : Fin 2 → IVec S16 32) a x).toNat < S1x100000.size a)
instance k0_chk81.dec : ∀ (v2 : IVec S16 32) (v354 : IVec S16 32), Decidable (k0_chk81 v2 v354) := fun v2 v354 => decidable_of_iff' _ (Iff.of_eq (k0_chk81.eq_1 v2 v354))
theorem k0_idx81_inb : ∀ (v2 : IVec S16 32) (v354 : IVec S16 32) (k0_hw81 : k0_chk81 v2 v354), ∀ a x, ((![v2, v354] : Fin 2 → IVec S16 32) a x).toNat < S1x100000.size a := fun v2 v354 k0_hw81 => k0_hw81

def k0_chk82 (v2 : IVec S16 32) (v357 : IVec S16 32) : Prop :=
  (∀ a x, ((![v2, v357] : Fin 2 → IVec S16 32) a x).toNat < S1x100000.size a)
instance k0_chk82.dec : ∀ (v2 : IVec S16 32) (v357 : IVec S16 32), Decidable (k0_chk82 v2 v357) := fun v2 v357 => decidable_of_iff' _ (Iff.of_eq (k0_chk82.eq_1 v2 v357))
theorem k0_idx82_inb : ∀ (v2 : IVec S16 32) (v357 : IVec S16 32) (k0_hw82 : k0_chk82 v2 v357), ∀ a x, ((![v2, v357] : Fin 2 → IVec S16 32) a x).toNat < S1x100000.size a := fun v2 v357 k0_hw82 => k0_hw82

def k0_chk83 (v2 : IVec S16 32) (v360 : IVec S16 32) : Prop :=
  (∀ a x, ((![v2, v360] : Fin 2 → IVec S16 32) a x).toNat < S1x100000.size a)
instance k0_chk83.dec : ∀ (v2 : IVec S16 32) (v360 : IVec S16 32), Decidable (k0_chk83 v2 v360) := fun v2 v360 => decidable_of_iff' _ (Iff.of_eq (k0_chk83.eq_1 v2 v360))
theorem k0_idx83_inb : ∀ (v2 : IVec S16 32) (v360 : IVec S16 32) (k0_hw83 : k0_chk83 v2 v360), ∀ a x, ((![v2, v360] : Fin 2 → IVec S16 32) a x).toNat < S1x100000.size a := fun v2 v360 k0_hw83 => k0_hw83

def k0_chk84 (v2 : IVec S16 32) (v363 : IVec S16 32) : Prop :=
  (∀ a x, ((![v2, v363] : Fin 2 → IVec S16 32) a x).toNat < S1x100000.size a)
instance k0_chk84.dec : ∀ (v2 : IVec S16 32) (v363 : IVec S16 32), Decidable (k0_chk84 v2 v363) := fun v2 v363 => decidable_of_iff' _ (Iff.of_eq (k0_chk84.eq_1 v2 v363))
theorem k0_idx84_inb : ∀ (v2 : IVec S16 32) (v363 : IVec S16 32) (k0_hw84 : k0_chk84 v2 v363), ∀ a x, ((![v2, v363] : Fin 2 → IVec S16 32) a x).toNat < S1x100000.size a := fun v2 v363 k0_hw84 => k0_hw84

def k0_chk85 (v2 : IVec S16 32) (v366 : IVec S16 32) : Prop :=
  (∀ a x, ((![v2, v366] : Fin 2 → IVec S16 32) a x).toNat < S1x100000.size a)
instance k0_chk85.dec : ∀ (v2 : IVec S16 32) (v366 : IVec S16 32), Decidable (k0_chk85 v2 v366) := fun v2 v366 => decidable_of_iff' _ (Iff.of_eq (k0_chk85.eq_1 v2 v366))
theorem k0_idx85_inb : ∀ (v2 : IVec S16 32) (v366 : IVec S16 32) (k0_hw85 : k0_chk85 v2 v366), ∀ a x, ((![v2, v366] : Fin 2 → IVec S16 32) a x).toNat < S1x100000.size a := fun v2 v366 k0_hw85 => k0_hw85

def k0_chk86 (v2 : IVec S16 32) (v369 : IVec S16 32) : Prop :=
  (∀ a x, ((![v2, v369] : Fin 2 → IVec S16 32) a x).toNat < S1x100000.size a)
instance k0_chk86.dec : ∀ (v2 : IVec S16 32) (v369 : IVec S16 32), Decidable (k0_chk86 v2 v369) := fun v2 v369 => decidable_of_iff' _ (Iff.of_eq (k0_chk86.eq_1 v2 v369))
theorem k0_idx86_inb : ∀ (v2 : IVec S16 32) (v369 : IVec S16 32) (k0_hw86 : k0_chk86 v2 v369), ∀ a x, ((![v2, v369] : Fin 2 → IVec S16 32) a x).toNat < S1x100000.size a := fun v2 v369 k0_hw86 => k0_hw86
def k0_off51 (k0_t11 : Fin k0_t11_loop.trips) (k0_t12 : Fin k0_t12_loop.trips) (c0_i32_216 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v406 : Index := Scalar.indexCast v311
  let c0_i32_224 : BitVec 32 := 0#32
  let v407 : Index := Scalar.indexCast c0_i32_224
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_215 : BitVec 32 := 16#32
  let v386 : BitVec 32 := Scalar.muli v317 c16_i32_215
  let v387 : BitVec 32 := Scalar.addi v386 c0_i32_216
  let c0_i32_218 : BitVec 32 := 0#32
  let v389 : BitVec 1 := Scalar.cmpi .sgt v387 c0_i32_218
  let v390 : BitVec 32 := Scalar.extui v389
  let c0_i32_219 : BitVec 32 := 0#32
  let v391 : BitVec 1 := Scalar.cmpi .slt v387 c0_i32_219
  let v392 : BitVec 32 := Scalar.extui v391
  let v393 : BitVec 32 := Scalar.subi v390 v392
  let c8_i32_217 : BitVec 32 := 8#32
  let c0_i32_220 : BitVec 32 := 0#32
  let v394 : BitVec 1 := Scalar.cmpi .sgt c8_i32_217 c0_i32_220
  let v395 : BitVec 32 := Scalar.extui v394
  let c0_i32_221 : BitVec 32 := 0#32
  let v396 : BitVec 1 := Scalar.cmpi .slt c8_i32_217 c0_i32_221
  let v397 : BitVec 32 := Scalar.extui v396
  let v398 : BitVec 32 := Scalar.subi v395 v397
  let v399 : BitVec 1 := Scalar.cmpi .ne v393 v398
  let v400 : BitVec 32 := Scalar.remsi v387 c8_i32_217
  let c0_i32_222 : BitVec 32 := 0#32
  let v401 : BitVec 1 := Scalar.cmpi .ne v400 c0_i32_222
  let v402 : BitVec 1 := Scalar.andi v399 v401
  let v388 : BitVec 32 := Scalar.divsi v387 c8_i32_217
  let c1_i32_223 : BitVec 32 := 1#32
  let v403 : BitVec 32 := Scalar.subi v388 c1_i32_223
  let v404 : BitVec 32 := Scalar.select v402 v403 v388
  let v408 : Index := Scalar.indexCast v404
  let c0_i32_225 : BitVec 32 := 0#32
  let v409 : Index := Scalar.indexCast c0_i32_225
  let c0_226 : Index := 0#32
  ![v406.toNat, 0, v408.toNat, 0, 0]
def k0_off52 (k0_t11 : Fin k0_t11_loop.trips) (k0_t12 : Fin k0_t12_loop.trips) (c1_i32_228 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v431 : Index := Scalar.indexCast v311
  let c0_i32_236 : BitVec 32 := 0#32
  let v432 : Index := Scalar.indexCast c0_i32_236
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_227 : BitVec 32 := 16#32
  let v411 : BitVec 32 := Scalar.muli v317 c16_i32_227
  let v412 : BitVec 32 := Scalar.addi v411 c1_i32_228
  let c0_i32_230 : BitVec 32 := 0#32
  let v414 : BitVec 1 := Scalar.cmpi .sgt v412 c0_i32_230
  let v415 : BitVec 32 := Scalar.extui v414
  let c0_i32_231 : BitVec 32 := 0#32
  let v416 : BitVec 1 := Scalar.cmpi .slt v412 c0_i32_231
  let v417 : BitVec 32 := Scalar.extui v416
  let v418 : BitVec 32 := Scalar.subi v415 v417
  let c8_i32_229 : BitVec 32 := 8#32
  let c0_i32_232 : BitVec 32 := 0#32
  let v419 : BitVec 1 := Scalar.cmpi .sgt c8_i32_229 c0_i32_232
  let v420 : BitVec 32 := Scalar.extui v419
  let c0_i32_233 : BitVec 32 := 0#32
  let v421 : BitVec 1 := Scalar.cmpi .slt c8_i32_229 c0_i32_233
  let v422 : BitVec 32 := Scalar.extui v421
  let v423 : BitVec 32 := Scalar.subi v420 v422
  let v424 : BitVec 1 := Scalar.cmpi .ne v418 v423
  let v425 : BitVec 32 := Scalar.remsi v412 c8_i32_229
  let c0_i32_234 : BitVec 32 := 0#32
  let v426 : BitVec 1 := Scalar.cmpi .ne v425 c0_i32_234
  let v427 : BitVec 1 := Scalar.andi v424 v426
  let v413 : BitVec 32 := Scalar.divsi v412 c8_i32_229
  let c1_i32_235 : BitVec 32 := 1#32
  let v428 : BitVec 32 := Scalar.subi v413 c1_i32_235
  let v429 : BitVec 32 := Scalar.select v427 v428 v413
  let v433 : Index := Scalar.indexCast v429
  let c0_i32_237 : BitVec 32 := 0#32
  let v434 : Index := Scalar.indexCast c0_i32_237
  let c16_238 : Index := 16#32
  ![v431.toNat, 0, v433.toNat, 0, 16]
def k0_off53 (k0_t11 : Fin k0_t11_loop.trips) (k0_t12 : Fin k0_t12_loop.trips) (c2_i32_240 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v456 : Index := Scalar.indexCast v311
  let c0_i32_248 : BitVec 32 := 0#32
  let v457 : Index := Scalar.indexCast c0_i32_248
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_239 : BitVec 32 := 16#32
  let v436 : BitVec 32 := Scalar.muli v317 c16_i32_239
  let v437 : BitVec 32 := Scalar.addi v436 c2_i32_240
  let c0_i32_242 : BitVec 32 := 0#32
  let v439 : BitVec 1 := Scalar.cmpi .sgt v437 c0_i32_242
  let v440 : BitVec 32 := Scalar.extui v439
  let c0_i32_243 : BitVec 32 := 0#32
  let v441 : BitVec 1 := Scalar.cmpi .slt v437 c0_i32_243
  let v442 : BitVec 32 := Scalar.extui v441
  let v443 : BitVec 32 := Scalar.subi v440 v442
  let c8_i32_241 : BitVec 32 := 8#32
  let c0_i32_244 : BitVec 32 := 0#32
  let v444 : BitVec 1 := Scalar.cmpi .sgt c8_i32_241 c0_i32_244
  let v445 : BitVec 32 := Scalar.extui v444
  let c0_i32_245 : BitVec 32 := 0#32
  let v446 : BitVec 1 := Scalar.cmpi .slt c8_i32_241 c0_i32_245
  let v447 : BitVec 32 := Scalar.extui v446
  let v448 : BitVec 32 := Scalar.subi v445 v447
  let v449 : BitVec 1 := Scalar.cmpi .ne v443 v448
  let v450 : BitVec 32 := Scalar.remsi v437 c8_i32_241
  let c0_i32_246 : BitVec 32 := 0#32
  let v451 : BitVec 1 := Scalar.cmpi .ne v450 c0_i32_246
  let v452 : BitVec 1 := Scalar.andi v449 v451
  let v438 : BitVec 32 := Scalar.divsi v437 c8_i32_241
  let c1_i32_247 : BitVec 32 := 1#32
  let v453 : BitVec 32 := Scalar.subi v438 c1_i32_247
  let v454 : BitVec 32 := Scalar.select v452 v453 v438
  let v458 : Index := Scalar.indexCast v454
  let c0_i32_249 : BitVec 32 := 0#32
  let v459 : Index := Scalar.indexCast c0_i32_249
  let c32_250 : Index := 32#32
  ![v456.toNat, 0, v458.toNat, 0, 32]
def k0_off54 (k0_t11 : Fin k0_t11_loop.trips) (k0_t12 : Fin k0_t12_loop.trips) (c3_i32 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v481 : Index := Scalar.indexCast v311
  let c0_i32_259 : BitVec 32 := 0#32
  let v482 : Index := Scalar.indexCast c0_i32_259
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_251 : BitVec 32 := 16#32
  let v461 : BitVec 32 := Scalar.muli v317 c16_i32_251
  let v462 : BitVec 32 := Scalar.addi v461 c3_i32
  let c0_i32_253 : BitVec 32 := 0#32
  let v464 : BitVec 1 := Scalar.cmpi .sgt v462 c0_i32_253
  let v465 : BitVec 32 := Scalar.extui v464
  let c0_i32_254 : BitVec 32 := 0#32
  let v466 : BitVec 1 := Scalar.cmpi .slt v462 c0_i32_254
  let v467 : BitVec 32 := Scalar.extui v466
  let v468 : BitVec 32 := Scalar.subi v465 v467
  let c8_i32_252 : BitVec 32 := 8#32
  let c0_i32_255 : BitVec 32 := 0#32
  let v469 : BitVec 1 := Scalar.cmpi .sgt c8_i32_252 c0_i32_255
  let v470 : BitVec 32 := Scalar.extui v469
  let c0_i32_256 : BitVec 32 := 0#32
  let v471 : BitVec 1 := Scalar.cmpi .slt c8_i32_252 c0_i32_256
  let v472 : BitVec 32 := Scalar.extui v471
  let v473 : BitVec 32 := Scalar.subi v470 v472
  let v474 : BitVec 1 := Scalar.cmpi .ne v468 v473
  let v475 : BitVec 32 := Scalar.remsi v462 c8_i32_252
  let c0_i32_257 : BitVec 32 := 0#32
  let v476 : BitVec 1 := Scalar.cmpi .ne v475 c0_i32_257
  let v477 : BitVec 1 := Scalar.andi v474 v476
  let v463 : BitVec 32 := Scalar.divsi v462 c8_i32_252
  let c1_i32_258 : BitVec 32 := 1#32
  let v478 : BitVec 32 := Scalar.subi v463 c1_i32_258
  let v479 : BitVec 32 := Scalar.select v477 v478 v463
  let v483 : Index := Scalar.indexCast v479
  let c0_i32_260 : BitVec 32 := 0#32
  let v484 : Index := Scalar.indexCast c0_i32_260
  let c48_261 : Index := 48#32
  ![v481.toNat, 0, v483.toNat, 0, 48]
def k0_off55 (k0_t11 : Fin k0_t11_loop.trips) (k0_t12 : Fin k0_t12_loop.trips) (c4_i32_263 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v506 : Index := Scalar.indexCast v311
  let c0_i32_271 : BitVec 32 := 0#32
  let v507 : Index := Scalar.indexCast c0_i32_271
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_262 : BitVec 32 := 16#32
  let v486 : BitVec 32 := Scalar.muli v317 c16_i32_262
  let v487 : BitVec 32 := Scalar.addi v486 c4_i32_263
  let c0_i32_265 : BitVec 32 := 0#32
  let v489 : BitVec 1 := Scalar.cmpi .sgt v487 c0_i32_265
  let v490 : BitVec 32 := Scalar.extui v489
  let c0_i32_266 : BitVec 32 := 0#32
  let v491 : BitVec 1 := Scalar.cmpi .slt v487 c0_i32_266
  let v492 : BitVec 32 := Scalar.extui v491
  let v493 : BitVec 32 := Scalar.subi v490 v492
  let c8_i32_264 : BitVec 32 := 8#32
  let c0_i32_267 : BitVec 32 := 0#32
  let v494 : BitVec 1 := Scalar.cmpi .sgt c8_i32_264 c0_i32_267
  let v495 : BitVec 32 := Scalar.extui v494
  let c0_i32_268 : BitVec 32 := 0#32
  let v496 : BitVec 1 := Scalar.cmpi .slt c8_i32_264 c0_i32_268
  let v497 : BitVec 32 := Scalar.extui v496
  let v498 : BitVec 32 := Scalar.subi v495 v497
  let v499 : BitVec 1 := Scalar.cmpi .ne v493 v498
  let v500 : BitVec 32 := Scalar.remsi v487 c8_i32_264
  let c0_i32_269 : BitVec 32 := 0#32
  let v501 : BitVec 1 := Scalar.cmpi .ne v500 c0_i32_269
  let v502 : BitVec 1 := Scalar.andi v499 v501
  let v488 : BitVec 32 := Scalar.divsi v487 c8_i32_264
  let c1_i32_270 : BitVec 32 := 1#32
  let v503 : BitVec 32 := Scalar.subi v488 c1_i32_270
  let v504 : BitVec 32 := Scalar.select v502 v503 v488
  let v508 : Index := Scalar.indexCast v504
  let c0_i32_272 : BitVec 32 := 0#32
  let v509 : Index := Scalar.indexCast c0_i32_272
  let c64_273 : Index := 64#32
  ![v506.toNat, 0, v508.toNat, 0, 64]
def k0_off56 (k0_t11 : Fin k0_t11_loop.trips) (k0_t12 : Fin k0_t12_loop.trips) (c5_i32 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v531 : Index := Scalar.indexCast v311
  let c0_i32_282 : BitVec 32 := 0#32
  let v532 : Index := Scalar.indexCast c0_i32_282
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_274 : BitVec 32 := 16#32
  let v511 : BitVec 32 := Scalar.muli v317 c16_i32_274
  let v512 : BitVec 32 := Scalar.addi v511 c5_i32
  let c0_i32_276 : BitVec 32 := 0#32
  let v514 : BitVec 1 := Scalar.cmpi .sgt v512 c0_i32_276
  let v515 : BitVec 32 := Scalar.extui v514
  let c0_i32_277 : BitVec 32 := 0#32
  let v516 : BitVec 1 := Scalar.cmpi .slt v512 c0_i32_277
  let v517 : BitVec 32 := Scalar.extui v516
  let v518 : BitVec 32 := Scalar.subi v515 v517
  let c8_i32_275 : BitVec 32 := 8#32
  let c0_i32_278 : BitVec 32 := 0#32
  let v519 : BitVec 1 := Scalar.cmpi .sgt c8_i32_275 c0_i32_278
  let v520 : BitVec 32 := Scalar.extui v519
  let c0_i32_279 : BitVec 32 := 0#32
  let v521 : BitVec 1 := Scalar.cmpi .slt c8_i32_275 c0_i32_279
  let v522 : BitVec 32 := Scalar.extui v521
  let v523 : BitVec 32 := Scalar.subi v520 v522
  let v524 : BitVec 1 := Scalar.cmpi .ne v518 v523
  let v525 : BitVec 32 := Scalar.remsi v512 c8_i32_275
  let c0_i32_280 : BitVec 32 := 0#32
  let v526 : BitVec 1 := Scalar.cmpi .ne v525 c0_i32_280
  let v527 : BitVec 1 := Scalar.andi v524 v526
  let v513 : BitVec 32 := Scalar.divsi v512 c8_i32_275
  let c1_i32_281 : BitVec 32 := 1#32
  let v528 : BitVec 32 := Scalar.subi v513 c1_i32_281
  let v529 : BitVec 32 := Scalar.select v527 v528 v513
  let v533 : Index := Scalar.indexCast v529
  let c0_i32_283 : BitVec 32 := 0#32
  let v534 : Index := Scalar.indexCast c0_i32_283
  let c80_284 : Index := 80#32
  ![v531.toNat, 0, v533.toNat, 0, 80]
def k0_off57 (k0_t11 : Fin k0_t11_loop.trips) (k0_t12 : Fin k0_t12_loop.trips) (c6_i32 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v556 : Index := Scalar.indexCast v311
  let c0_i32_293 : BitVec 32 := 0#32
  let v557 : Index := Scalar.indexCast c0_i32_293
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_285 : BitVec 32 := 16#32
  let v536 : BitVec 32 := Scalar.muli v317 c16_i32_285
  let v537 : BitVec 32 := Scalar.addi v536 c6_i32
  let c0_i32_287 : BitVec 32 := 0#32
  let v539 : BitVec 1 := Scalar.cmpi .sgt v537 c0_i32_287
  let v540 : BitVec 32 := Scalar.extui v539
  let c0_i32_288 : BitVec 32 := 0#32
  let v541 : BitVec 1 := Scalar.cmpi .slt v537 c0_i32_288
  let v542 : BitVec 32 := Scalar.extui v541
  let v543 : BitVec 32 := Scalar.subi v540 v542
  let c8_i32_286 : BitVec 32 := 8#32
  let c0_i32_289 : BitVec 32 := 0#32
  let v544 : BitVec 1 := Scalar.cmpi .sgt c8_i32_286 c0_i32_289
  let v545 : BitVec 32 := Scalar.extui v544
  let c0_i32_290 : BitVec 32 := 0#32
  let v546 : BitVec 1 := Scalar.cmpi .slt c8_i32_286 c0_i32_290
  let v547 : BitVec 32 := Scalar.extui v546
  let v548 : BitVec 32 := Scalar.subi v545 v547
  let v549 : BitVec 1 := Scalar.cmpi .ne v543 v548
  let v550 : BitVec 32 := Scalar.remsi v537 c8_i32_286
  let c0_i32_291 : BitVec 32 := 0#32
  let v551 : BitVec 1 := Scalar.cmpi .ne v550 c0_i32_291
  let v552 : BitVec 1 := Scalar.andi v549 v551
  let v538 : BitVec 32 := Scalar.divsi v537 c8_i32_286
  let c1_i32_292 : BitVec 32 := 1#32
  let v553 : BitVec 32 := Scalar.subi v538 c1_i32_292
  let v554 : BitVec 32 := Scalar.select v552 v553 v538
  let v558 : Index := Scalar.indexCast v554
  let c0_i32_294 : BitVec 32 := 0#32
  let v559 : Index := Scalar.indexCast c0_i32_294
  let c96_295 : Index := 96#32
  ![v556.toNat, 0, v558.toNat, 0, 96]
def k0_off58 (k0_t11 : Fin k0_t11_loop.trips) (k0_t12 : Fin k0_t12_loop.trips) (c7_i32 : BitVec 32) : Fin 5 → Nat :=
  let c0_i32_203 : BitVec 32 := 0#32
  let c0_i32_101 : BitVec 32 := 0#32
  let c1_i32_103 : BitVec 32 := 1#32
  let arg22 : BitVec 32 := Scf.iv c0_i32_101 c1_i32_103 k0_t11
  let c1_i32_202 : BitVec 32 := 1#32
  let v310 : BitVec 32 := Scalar.muli arg22 c1_i32_202
  let v311 : BitVec 32 := Scalar.addi c0_i32_203 v310
  let v581 : Index := Scalar.indexCast v311
  let c0_i32_304 : BitVec 32 := 0#32
  let v582 : Index := Scalar.indexCast c0_i32_304
  let c0_i32_210 : BitVec 32 := 0#32
  let c0_i32_205 : BitVec 32 := 0#32
  let c1_i32_207 : BitVec 32 := 1#32
  let arg23 : BitVec 32 := Scf.iv c0_i32_205 c1_i32_207 k0_t12
  let c1_i32_209 : BitVec 32 := 1#32
  let v316 : BitVec 32 := Scalar.muli arg23 c1_i32_209
  let v317 : BitVec 32 := Scalar.addi c0_i32_210 v316
  let c16_i32_296 : BitVec 32 := 16#32
  let v561 : BitVec 32 := Scalar.muli v317 c16_i32_296
  let v562 : BitVec 32 := Scalar.addi v561 c7_i32
  let c0_i32_298 : BitVec 32 := 0#32
  let v564 : BitVec 1 := Scalar.cmpi .sgt v562 c0_i32_298
  let v565 : BitVec 32 := Scalar.extui v564
  let c0_i32_299 : BitVec 32 := 0#32
  let v566 : BitVec 1 := Scalar.cmpi .slt v562 c0_i32_299
  let v567 : BitVec 32 := Scalar.extui v566
  let v568 : BitVec 32 := Scalar.subi v565 v567
  let c8_i32_297 : BitVec 32 := 8#32
  let c0_i32_300 : BitVec 32 := 0#32
  let v569 : BitVec 1 := Scalar.cmpi .sgt c8_i32_297 c0_i32_300
  let v570 : BitVec 32 := Scalar.extui v569
  let c0_i32_301 : BitVec 32 := 0#32
  let v571 : BitVec 1 := Scalar.cmpi .slt c8_i32_297 c0_i32_301
  let v572 : BitVec 32 := Scalar.extui v571
  let v573 : BitVec 32 := Scalar.subi v570 v572
  let v574 : BitVec 1 := Scalar.cmpi .ne v568 v573
  let v575 : BitVec 32 := Scalar.remsi v562 c8_i32_297
  let c0_i32_302 : BitVec 32 := 0#32
  let v576 : BitVec 1 := Scalar.cmpi .ne v575 c0_i32_302
  let v577 : BitVec 1 := Scalar.andi v574 v576
  let v563 : BitVec 32 := Scalar.divsi v562 c8_i32_297
  let c1_i32_303 : BitVec 32 := 1#32
  let v578 : BitVec 32 := Scalar.subi v563 c1_i32_303
  let v579 : BitVec 32 := Scalar.select v577 v578 v563
  let v583 : Index := Scalar.indexCast v579
  let c0_i32_305 : BitVec 32 := 0#32
  let v584 : Index := Scalar.indexCast c0_i32_305
  let c112_306 : Index := 112#32
  ![v581.toNat, 0, v583.toNat, 0, 112]
def k0_off59 (i : grid0.Coords) (k0_t1 : Fin k0_t1_loop.trips) : Fin 5 → Nat :=
  let c192_i32 : BitVec 32 := 192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_106 : BitVec 32 := 0#32
  let v163 : BitVec 1 := Scalar.cmpi .sgt v10 c0_i32_106
  let v164 : BitVec 32 := Scalar.extui v163
  let c0_i32_107 : BitVec 32 := 0#32
  let v165 : BitVec 1 := Scalar.cmpi .slt v10 c0_i32_107
  let v166 : BitVec 32 := Scalar.extui v165
  let v167 : BitVec 32 := Scalar.subi v164 v166
  let c8_i32_105 : BitVec 32 := 8#32
  let c0_i32_108 : BitVec 32 := 0#32
  let v168 : BitVec 1 := Scalar.cmpi .sgt c8_i32_105 c0_i32_108
  let v169 : BitVec 32 := Scalar.extui v168
  let c0_i32_109 : BitVec 32 := 0#32
  let v170 : BitVec 1 := Scalar.cmpi .slt c8_i32_105 c0_i32_109
  let v171 : BitVec 32 := Scalar.extui v170
  let v172 : BitVec 32 := Scalar.subi v169 v171
  let v173 : BitVec 1 := Scalar.cmpi .ne v167 v172
  let v174 : BitVec 32 := Scalar.remsi v10 c8_i32_105
  let c0_i32_110 : BitVec 32 := 0#32
  let v175 : BitVec 1 := Scalar.cmpi .ne v174 c0_i32_110
  let v176 : BitVec 1 := Scalar.andi v173 v175
  let v162 : BitVec 32 := Scalar.divsi v10 c8_i32_105
  let c1_i32_111 : BitVec 32 := 1#32
  let v177 : BitVec 32 := Scalar.subi v162 c1_i32_111
  let v178 : BitVec 32 := Scalar.select v176 v177 v162
  let c0_i32_118 : BitVec 32 := 0#32
  let c8_i32_112 : BitVec 32 := 8#32
  let c0_i32_113 : BitVec 32 := 0#32
  let v179 : BitVec 1 := Scalar.cmpi .eq c8_i32_112 c0_i32_113
  let c1_i32_114 : BitVec 32 := 1#32
  let v180 : BitVec 32 := Scalar.select v179 c1_i32_114 c8_i32_112
  let v181 : BitVec 32 := Scalar.remsi v10 v180
  let c0_i32_116 : BitVec 32 := 0#32
  let v183 : BitVec 1 := Scalar.cmpi .slt v181 c0_i32_116
  let c0_i32_117 : BitVec 32 := 0#32
  let v184 : BitVec 1 := Scalar.cmpi .slt v180 c0_i32_117
  let v185 : BitVec 1 := Scalar.xori v183 v184
  let c0_i32_115 : BitVec 32 := 0#32
  let v182 : BitVec 1 := Scalar.cmpi .ne v181 c0_i32_115
  let v186 : BitVec 1 := Scalar.andi v185 v182
  let v187 : BitVec 32 := Scalar.addi v181 v180
  let v188 : BitVec 32 := Scalar.select v186 v187 v181
  let c0_i32_119 : BitVec 32 := 0#32
  ![192, v178.toNat, 0, v188.toNat, 0]
def k0_off60 (i : grid0.Coords) (k0_t1 : Fin k0_t1_loop.trips) : Fin 5 → Nat :=
  let c188_i32 : BitVec 32 := 188#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_125 : BitVec 32 := 0#32
  let v194 : BitVec 1 := Scalar.cmpi .sgt v10 c0_i32_125
  let v195 : BitVec 32 := Scalar.extui v194
  let c0_i32_126 : BitVec 32 := 0#32
  let v196 : BitVec 1 := Scalar.cmpi .slt v10 c0_i32_126
  let v197 : BitVec 32 := Scalar.extui v196
  let v198 : BitVec 32 := Scalar.subi v195 v197
  let c8_i32_124 : BitVec 32 := 8#32
  let c0_i32_127 : BitVec 32 := 0#32
  let v199 : BitVec 1 := Scalar.cmpi .sgt c8_i32_124 c0_i32_127
  let v200 : BitVec 32 := Scalar.extui v199
  let c0_i32_128 : BitVec 32 := 0#32
  let v201 : BitVec 1 := Scalar.cmpi .slt c8_i32_124 c0_i32_128
  let v202 : BitVec 32 := Scalar.extui v201
  let v203 : BitVec 32 := Scalar.subi v200 v202
  let v204 : BitVec 1 := Scalar.cmpi .ne v198 v203
  let v205 : BitVec 32 := Scalar.remsi v10 c8_i32_124
  let c0_i32_129 : BitVec 32 := 0#32
  let v206 : BitVec 1 := Scalar.cmpi .ne v205 c0_i32_129
  let v207 : BitVec 1 := Scalar.andi v204 v206
  let v193 : BitVec 32 := Scalar.divsi v10 c8_i32_124
  let c1_i32_130 : BitVec 32 := 1#32
  let v208 : BitVec 32 := Scalar.subi v193 c1_i32_130
  let v209 : BitVec 32 := Scalar.select v207 v208 v193
  let c0_i32_137 : BitVec 32 := 0#32
  let c8_i32_131 : BitVec 32 := 8#32
  let c0_i32_132 : BitVec 32 := 0#32
  let v210 : BitVec 1 := Scalar.cmpi .eq c8_i32_131 c0_i32_132
  let c1_i32_133 : BitVec 32 := 1#32
  let v211 : BitVec 32 := Scalar.select v210 c1_i32_133 c8_i32_131
  let v212 : BitVec 32 := Scalar.remsi v10 v211
  let c0_i32_135 : BitVec 32 := 0#32
  let v214 : BitVec 1 := Scalar.cmpi .slt v212 c0_i32_135
  let c0_i32_136 : BitVec 32 := 0#32
  let v215 : BitVec 1 := Scalar.cmpi .slt v211 c0_i32_136
  let v216 : BitVec 1 := Scalar.xori v214 v215
  let c0_i32_134 : BitVec 32 := 0#32
  let v213 : BitVec 1 := Scalar.cmpi .ne v212 c0_i32_134
  let v217 : BitVec 1 := Scalar.andi v216 v213
  let v218 : BitVec 32 := Scalar.addi v212 v211
  let v219 : BitVec 32 := Scalar.select v217 v218 v212
  let c0_i32_138 : BitVec 32 := 0#32
  ![188, v209.toNat, 0, v219.toNat, 0]
@[reducible] def k0_t13_loop : Scf.Loop 32 :=
  let c0_i32_142 : BitVec 32 := 0#32
  let c4_i32_143 : BitVec 32 := 4#32
  let v222 : BitVec 32 := Scalar.addi c0_i32_142 c4_i32_143
  let c1_i32_144 : BitVec 32 := 1#32
  ⟨c0_i32_142, v222, c1_i32_144⟩

def k0_chk87 (v313 : IVec S16 32) : Prop :=
  (∀ a x, ((![v313] : Fin 1 → IVec S16 32) a x).toNat < S208.size a)
instance k0_chk87.dec : ∀ (v313 : IVec S16 32), Decidable (k0_chk87 v313) := fun v313 => decidable_of_iff' _ (Iff.of_eq (k0_chk87.eq_1 v313))
theorem k0_idx87_inb : ∀ (v313 : IVec S16 32) (k0_hw87 : k0_chk87 v313), ∀ a x, ((![v313] : Fin 1 → IVec S16 32) a x).toNat < S208.size a := fun v313 k0_hw87 => k0_hw87
@[reducible] def k0_t14_loop : Scf.Loop 32 :=
  let c0_i32_205 : BitVec 32 := 0#32
  let c4_i32_206 : BitVec 32 := 4#32
  let v315 : BitVec 32 := Scalar.addi c0_i32_205 c4_i32_206
  let c1_i32_207 : BitVec 32 := 1#32
  ⟨c0_i32_205, v315, c1_i32_207⟩
def k0_off61 (k0_t13 : Fin k0_t13_loop.trips) (k0_t14 : Fin k0_t14_loop.trips) (c0_i32_212 : BitVec 32) : Fin 1 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let c1024_i32 : BitVec 32 := 1024#32
  let v318 : BitVec 32 := Scalar.muli v311 c1024_i32
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32 : BitVec 32 := 16#32
  let v319 : BitVec 32 := Scalar.muli v317 c16_i32
  let c16_i32_211 : BitVec 32 := 16#32
  let v320 : BitVec 32 := Scalar.muli v319 c16_i32_211
  let v321 : BitVec 32 := Scalar.addi v318 v320
  let v322 : BitVec 32 := Scalar.addi v321 c0_i32_212
  let v323 : Index := Scalar.indexCast v322
  ![v323.toNat]

def k0_chk88 (v2 : IVec S16 32) (v324 : IVec S16 32) : Prop :=
  (∀ a x, ((![v2, v324] : Fin 2 → IVec S16 32) a x).toNat < S1x100000.size a)
instance k0_chk88.dec : ∀ (v2 : IVec S16 32) (v324 : IVec S16 32), Decidable (k0_chk88 v2 v324) := fun v2 v324 => decidable_of_iff' _ (Iff.of_eq (k0_chk88.eq_1 v2 v324))
theorem k0_idx88_inb : ∀ (v2 : IVec S16 32) (v324 : IVec S16 32) (k0_hw88 : k0_chk88 v2 v324), ∀ a x, ((![v2, v324] : Fin 2 → IVec S16 32) a x).toNat < S1x100000.size a := fun v2 v324 k0_hw88 => k0_hw88

def k0_chk89 (v2 : IVec S16 32) (v327 : IVec S16 32) : Prop :=
  (∀ a x, ((![v2, v327] : Fin 2 → IVec S16 32) a x).toNat < S1x100000.size a)
instance k0_chk89.dec : ∀ (v2 : IVec S16 32) (v327 : IVec S16 32), Decidable (k0_chk89 v2 v327) := fun v2 v327 => decidable_of_iff' _ (Iff.of_eq (k0_chk89.eq_1 v2 v327))
theorem k0_idx89_inb : ∀ (v2 : IVec S16 32) (v327 : IVec S16 32) (k0_hw89 : k0_chk89 v2 v327), ∀ a x, ((![v2, v327] : Fin 2 → IVec S16 32) a x).toNat < S1x100000.size a := fun v2 v327 k0_hw89 => k0_hw89

def k0_chk90 (v2 : IVec S16 32) (v330 : IVec S16 32) : Prop :=
  (∀ a x, ((![v2, v330] : Fin 2 → IVec S16 32) a x).toNat < S1x100000.size a)
instance k0_chk90.dec : ∀ (v2 : IVec S16 32) (v330 : IVec S16 32), Decidable (k0_chk90 v2 v330) := fun v2 v330 => decidable_of_iff' _ (Iff.of_eq (k0_chk90.eq_1 v2 v330))
theorem k0_idx90_inb : ∀ (v2 : IVec S16 32) (v330 : IVec S16 32) (k0_hw90 : k0_chk90 v2 v330), ∀ a x, ((![v2, v330] : Fin 2 → IVec S16 32) a x).toNat < S1x100000.size a := fun v2 v330 k0_hw90 => k0_hw90

def k0_chk91 (v2 : IVec S16 32) (v333 : IVec S16 32) : Prop :=
  (∀ a x, ((![v2, v333] : Fin 2 → IVec S16 32) a x).toNat < S1x100000.size a)
instance k0_chk91.dec : ∀ (v2 : IVec S16 32) (v333 : IVec S16 32), Decidable (k0_chk91 v2 v333) := fun v2 v333 => decidable_of_iff' _ (Iff.of_eq (k0_chk91.eq_1 v2 v333))
theorem k0_idx91_inb : ∀ (v2 : IVec S16 32) (v333 : IVec S16 32) (k0_hw91 : k0_chk91 v2 v333), ∀ a x, ((![v2, v333] : Fin 2 → IVec S16 32) a x).toNat < S1x100000.size a := fun v2 v333 k0_hw91 => k0_hw91

def k0_chk92 (v2 : IVec S16 32) (v336 : IVec S16 32) : Prop :=
  (∀ a x, ((![v2, v336] : Fin 2 → IVec S16 32) a x).toNat < S1x100000.size a)
instance k0_chk92.dec : ∀ (v2 : IVec S16 32) (v336 : IVec S16 32), Decidable (k0_chk92 v2 v336) := fun v2 v336 => decidable_of_iff' _ (Iff.of_eq (k0_chk92.eq_1 v2 v336))
theorem k0_idx92_inb : ∀ (v2 : IVec S16 32) (v336 : IVec S16 32) (k0_hw92 : k0_chk92 v2 v336), ∀ a x, ((![v2, v336] : Fin 2 → IVec S16 32) a x).toNat < S1x100000.size a := fun v2 v336 k0_hw92 => k0_hw92

def k0_chk93 (v2 : IVec S16 32) (v339 : IVec S16 32) : Prop :=
  (∀ a x, ((![v2, v339] : Fin 2 → IVec S16 32) a x).toNat < S1x100000.size a)
instance k0_chk93.dec : ∀ (v2 : IVec S16 32) (v339 : IVec S16 32), Decidable (k0_chk93 v2 v339) := fun v2 v339 => decidable_of_iff' _ (Iff.of_eq (k0_chk93.eq_1 v2 v339))
theorem k0_idx93_inb : ∀ (v2 : IVec S16 32) (v339 : IVec S16 32) (k0_hw93 : k0_chk93 v2 v339), ∀ a x, ((![v2, v339] : Fin 2 → IVec S16 32) a x).toNat < S1x100000.size a := fun v2 v339 k0_hw93 => k0_hw93

def k0_chk94 (v2 : IVec S16 32) (v342 : IVec S16 32) : Prop :=
  (∀ a x, ((![v2, v342] : Fin 2 → IVec S16 32) a x).toNat < S1x100000.size a)
instance k0_chk94.dec : ∀ (v2 : IVec S16 32) (v342 : IVec S16 32), Decidable (k0_chk94 v2 v342) := fun v2 v342 => decidable_of_iff' _ (Iff.of_eq (k0_chk94.eq_1 v2 v342))
theorem k0_idx94_inb : ∀ (v2 : IVec S16 32) (v342 : IVec S16 32) (k0_hw94 : k0_chk94 v2 v342), ∀ a x, ((![v2, v342] : Fin 2 → IVec S16 32) a x).toNat < S1x100000.size a := fun v2 v342 k0_hw94 => k0_hw94

def k0_chk95 (v2 : IVec S16 32) (v345 : IVec S16 32) : Prop :=
  (∀ a x, ((![v2, v345] : Fin 2 → IVec S16 32) a x).toNat < S1x100000.size a)
instance k0_chk95.dec : ∀ (v2 : IVec S16 32) (v345 : IVec S16 32), Decidable (k0_chk95 v2 v345) := fun v2 v345 => decidable_of_iff' _ (Iff.of_eq (k0_chk95.eq_1 v2 v345))
theorem k0_idx95_inb : ∀ (v2 : IVec S16 32) (v345 : IVec S16 32) (k0_hw95 : k0_chk95 v2 v345), ∀ a x, ((![v2, v345] : Fin 2 → IVec S16 32) a x).toNat < S1x100000.size a := fun v2 v345 k0_hw95 => k0_hw95

def k0_chk96 (v2 : IVec S16 32) (v348 : IVec S16 32) : Prop :=
  (∀ a x, ((![v2, v348] : Fin 2 → IVec S16 32) a x).toNat < S1x100000.size a)
instance k0_chk96.dec : ∀ (v2 : IVec S16 32) (v348 : IVec S16 32), Decidable (k0_chk96 v2 v348) := fun v2 v348 => decidable_of_iff' _ (Iff.of_eq (k0_chk96.eq_1 v2 v348))
theorem k0_idx96_inb : ∀ (v2 : IVec S16 32) (v348 : IVec S16 32) (k0_hw96 : k0_chk96 v2 v348), ∀ a x, ((![v2, v348] : Fin 2 → IVec S16 32) a x).toNat < S1x100000.size a := fun v2 v348 k0_hw96 => k0_hw96

def k0_chk97 (v2 : IVec S16 32) (v351 : IVec S16 32) : Prop :=
  (∀ a x, ((![v2, v351] : Fin 2 → IVec S16 32) a x).toNat < S1x100000.size a)
instance k0_chk97.dec : ∀ (v2 : IVec S16 32) (v351 : IVec S16 32), Decidable (k0_chk97 v2 v351) := fun v2 v351 => decidable_of_iff' _ (Iff.of_eq (k0_chk97.eq_1 v2 v351))
theorem k0_idx97_inb : ∀ (v2 : IVec S16 32) (v351 : IVec S16 32) (k0_hw97 : k0_chk97 v2 v351), ∀ a x, ((![v2, v351] : Fin 2 → IVec S16 32) a x).toNat < S1x100000.size a := fun v2 v351 k0_hw97 => k0_hw97

def k0_chk98 (v2 : IVec S16 32) (v354 : IVec S16 32) : Prop :=
  (∀ a x, ((![v2, v354] : Fin 2 → IVec S16 32) a x).toNat < S1x100000.size a)
instance k0_chk98.dec : ∀ (v2 : IVec S16 32) (v354 : IVec S16 32), Decidable (k0_chk98 v2 v354) := fun v2 v354 => decidable_of_iff' _ (Iff.of_eq (k0_chk98.eq_1 v2 v354))
theorem k0_idx98_inb : ∀ (v2 : IVec S16 32) (v354 : IVec S16 32) (k0_hw98 : k0_chk98 v2 v354), ∀ a x, ((![v2, v354] : Fin 2 → IVec S16 32) a x).toNat < S1x100000.size a := fun v2 v354 k0_hw98 => k0_hw98

def k0_chk99 (v2 : IVec S16 32) (v357 : IVec S16 32) : Prop :=
  (∀ a x, ((![v2, v357] : Fin 2 → IVec S16 32) a x).toNat < S1x100000.size a)
instance k0_chk99.dec : ∀ (v2 : IVec S16 32) (v357 : IVec S16 32), Decidable (k0_chk99 v2 v357) := fun v2 v357 => decidable_of_iff' _ (Iff.of_eq (k0_chk99.eq_1 v2 v357))
theorem k0_idx99_inb : ∀ (v2 : IVec S16 32) (v357 : IVec S16 32) (k0_hw99 : k0_chk99 v2 v357), ∀ a x, ((![v2, v357] : Fin 2 → IVec S16 32) a x).toNat < S1x100000.size a := fun v2 v357 k0_hw99 => k0_hw99

def k0_chk100 (v2 : IVec S16 32) (v360 : IVec S16 32) : Prop :=
  (∀ a x, ((![v2, v360] : Fin 2 → IVec S16 32) a x).toNat < S1x100000.size a)
instance k0_chk100.dec : ∀ (v2 : IVec S16 32) (v360 : IVec S16 32), Decidable (k0_chk100 v2 v360) := fun v2 v360 => decidable_of_iff' _ (Iff.of_eq (k0_chk100.eq_1 v2 v360))
theorem k0_idx100_inb : ∀ (v2 : IVec S16 32) (v360 : IVec S16 32) (k0_hw100 : k0_chk100 v2 v360), ∀ a x, ((![v2, v360] : Fin 2 → IVec S16 32) a x).toNat < S1x100000.size a := fun v2 v360 k0_hw100 => k0_hw100

def k0_chk101 (v2 : IVec S16 32) (v363 : IVec S16 32) : Prop :=
  (∀ a x, ((![v2, v363] : Fin 2 → IVec S16 32) a x).toNat < S1x100000.size a)
instance k0_chk101.dec : ∀ (v2 : IVec S16 32) (v363 : IVec S16 32), Decidable (k0_chk101 v2 v363) := fun v2 v363 => decidable_of_iff' _ (Iff.of_eq (k0_chk101.eq_1 v2 v363))
theorem k0_idx101_inb : ∀ (v2 : IVec S16 32) (v363 : IVec S16 32) (k0_hw101 : k0_chk101 v2 v363), ∀ a x, ((![v2, v363] : Fin 2 → IVec S16 32) a x).toNat < S1x100000.size a := fun v2 v363 k0_hw101 => k0_hw101

def k0_chk102 (v2 : IVec S16 32) (v366 : IVec S16 32) : Prop :=
  (∀ a x, ((![v2, v366] : Fin 2 → IVec S16 32) a x).toNat < S1x100000.size a)
instance k0_chk102.dec : ∀ (v2 : IVec S16 32) (v366 : IVec S16 32), Decidable (k0_chk102 v2 v366) := fun v2 v366 => decidable_of_iff' _ (Iff.of_eq (k0_chk102.eq_1 v2 v366))
theorem k0_idx102_inb : ∀ (v2 : IVec S16 32) (v366 : IVec S16 32) (k0_hw102 : k0_chk102 v2 v366), ∀ a x, ((![v2, v366] : Fin 2 → IVec S16 32) a x).toNat < S1x100000.size a := fun v2 v366 k0_hw102 => k0_hw102

def k0_chk103 (v2 : IVec S16 32) (v369 : IVec S16 32) : Prop :=
  (∀ a x, ((![v2, v369] : Fin 2 → IVec S16 32) a x).toNat < S1x100000.size a)
instance k0_chk103.dec : ∀ (v2 : IVec S16 32) (v369 : IVec S16 32), Decidable (k0_chk103 v2 v369) := fun v2 v369 => decidable_of_iff' _ (Iff.of_eq (k0_chk103.eq_1 v2 v369))
theorem k0_idx103_inb : ∀ (v2 : IVec S16 32) (v369 : IVec S16 32) (k0_hw103 : k0_chk103 v2 v369), ∀ a x, ((![v2, v369] : Fin 2 → IVec S16 32) a x).toNat < S1x100000.size a := fun v2 v369 k0_hw103 => k0_hw103
def k0_off62 (k0_t13 : Fin k0_t13_loop.trips) (k0_t14 : Fin k0_t14_loop.trips) (c0_i32_216 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v406 : Index := Scalar.indexCast v311
  let c0_i32_224 : BitVec 32 := 0#32
  let v407 : Index := Scalar.indexCast c0_i32_224
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_215 : BitVec 32 := 16#32
  let v386 : BitVec 32 := Scalar.muli v317 c16_i32_215
  let v387 : BitVec 32 := Scalar.addi v386 c0_i32_216
  let c0_i32_218 : BitVec 32 := 0#32
  let v389 : BitVec 1 := Scalar.cmpi .sgt v387 c0_i32_218
  let v390 : BitVec 32 := Scalar.extui v389
  let c0_i32_219 : BitVec 32 := 0#32
  let v391 : BitVec 1 := Scalar.cmpi .slt v387 c0_i32_219
  let v392 : BitVec 32 := Scalar.extui v391
  let v393 : BitVec 32 := Scalar.subi v390 v392
  let c8_i32_217 : BitVec 32 := 8#32
  let c0_i32_220 : BitVec 32 := 0#32
  let v394 : BitVec 1 := Scalar.cmpi .sgt c8_i32_217 c0_i32_220
  let v395 : BitVec 32 := Scalar.extui v394
  let c0_i32_221 : BitVec 32 := 0#32
  let v396 : BitVec 1 := Scalar.cmpi .slt c8_i32_217 c0_i32_221
  let v397 : BitVec 32 := Scalar.extui v396
  let v398 : BitVec 32 := Scalar.subi v395 v397
  let v399 : BitVec 1 := Scalar.cmpi .ne v393 v398
  let v400 : BitVec 32 := Scalar.remsi v387 c8_i32_217
  let c0_i32_222 : BitVec 32 := 0#32
  let v401 : BitVec 1 := Scalar.cmpi .ne v400 c0_i32_222
  let v402 : BitVec 1 := Scalar.andi v399 v401
  let v388 : BitVec 32 := Scalar.divsi v387 c8_i32_217
  let c1_i32_223 : BitVec 32 := 1#32
  let v403 : BitVec 32 := Scalar.subi v388 c1_i32_223
  let v404 : BitVec 32 := Scalar.select v402 v403 v388
  let v408 : Index := Scalar.indexCast v404
  let c0_i32_225 : BitVec 32 := 0#32
  let v409 : Index := Scalar.indexCast c0_i32_225
  let c0_226 : Index := 0#32
  ![v406.toNat, 0, v408.toNat, 0, 0]
def k0_off63 (k0_t13 : Fin k0_t13_loop.trips) (k0_t14 : Fin k0_t14_loop.trips) (c1_i32_228 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v431 : Index := Scalar.indexCast v311
  let c0_i32_236 : BitVec 32 := 0#32
  let v432 : Index := Scalar.indexCast c0_i32_236
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_227 : BitVec 32 := 16#32
  let v411 : BitVec 32 := Scalar.muli v317 c16_i32_227
  let v412 : BitVec 32 := Scalar.addi v411 c1_i32_228
  let c0_i32_230 : BitVec 32 := 0#32
  let v414 : BitVec 1 := Scalar.cmpi .sgt v412 c0_i32_230
  let v415 : BitVec 32 := Scalar.extui v414
  let c0_i32_231 : BitVec 32 := 0#32
  let v416 : BitVec 1 := Scalar.cmpi .slt v412 c0_i32_231
  let v417 : BitVec 32 := Scalar.extui v416
  let v418 : BitVec 32 := Scalar.subi v415 v417
  let c8_i32_229 : BitVec 32 := 8#32
  let c0_i32_232 : BitVec 32 := 0#32
  let v419 : BitVec 1 := Scalar.cmpi .sgt c8_i32_229 c0_i32_232
  let v420 : BitVec 32 := Scalar.extui v419
  let c0_i32_233 : BitVec 32 := 0#32
  let v421 : BitVec 1 := Scalar.cmpi .slt c8_i32_229 c0_i32_233
  let v422 : BitVec 32 := Scalar.extui v421
  let v423 : BitVec 32 := Scalar.subi v420 v422
  let v424 : BitVec 1 := Scalar.cmpi .ne v418 v423
  let v425 : BitVec 32 := Scalar.remsi v412 c8_i32_229
  let c0_i32_234 : BitVec 32 := 0#32
  let v426 : BitVec 1 := Scalar.cmpi .ne v425 c0_i32_234
  let v427 : BitVec 1 := Scalar.andi v424 v426
  let v413 : BitVec 32 := Scalar.divsi v412 c8_i32_229
  let c1_i32_235 : BitVec 32 := 1#32
  let v428 : BitVec 32 := Scalar.subi v413 c1_i32_235
  let v429 : BitVec 32 := Scalar.select v427 v428 v413
  let v433 : Index := Scalar.indexCast v429
  let c0_i32_237 : BitVec 32 := 0#32
  let v434 : Index := Scalar.indexCast c0_i32_237
  let c16_238 : Index := 16#32
  ![v431.toNat, 0, v433.toNat, 0, 16]
def k0_off64 (k0_t13 : Fin k0_t13_loop.trips) (k0_t14 : Fin k0_t14_loop.trips) (c2_i32_240 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v456 : Index := Scalar.indexCast v311
  let c0_i32_248 : BitVec 32 := 0#32
  let v457 : Index := Scalar.indexCast c0_i32_248
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_239 : BitVec 32 := 16#32
  let v436 : BitVec 32 := Scalar.muli v317 c16_i32_239
  let v437 : BitVec 32 := Scalar.addi v436 c2_i32_240
  let c0_i32_242 : BitVec 32 := 0#32
  let v439 : BitVec 1 := Scalar.cmpi .sgt v437 c0_i32_242
  let v440 : BitVec 32 := Scalar.extui v439
  let c0_i32_243 : BitVec 32 := 0#32
  let v441 : BitVec 1 := Scalar.cmpi .slt v437 c0_i32_243
  let v442 : BitVec 32 := Scalar.extui v441
  let v443 : BitVec 32 := Scalar.subi v440 v442
  let c8_i32_241 : BitVec 32 := 8#32
  let c0_i32_244 : BitVec 32 := 0#32
  let v444 : BitVec 1 := Scalar.cmpi .sgt c8_i32_241 c0_i32_244
  let v445 : BitVec 32 := Scalar.extui v444
  let c0_i32_245 : BitVec 32 := 0#32
  let v446 : BitVec 1 := Scalar.cmpi .slt c8_i32_241 c0_i32_245
  let v447 : BitVec 32 := Scalar.extui v446
  let v448 : BitVec 32 := Scalar.subi v445 v447
  let v449 : BitVec 1 := Scalar.cmpi .ne v443 v448
  let v450 : BitVec 32 := Scalar.remsi v437 c8_i32_241
  let c0_i32_246 : BitVec 32 := 0#32
  let v451 : BitVec 1 := Scalar.cmpi .ne v450 c0_i32_246
  let v452 : BitVec 1 := Scalar.andi v449 v451
  let v438 : BitVec 32 := Scalar.divsi v437 c8_i32_241
  let c1_i32_247 : BitVec 32 := 1#32
  let v453 : BitVec 32 := Scalar.subi v438 c1_i32_247
  let v454 : BitVec 32 := Scalar.select v452 v453 v438
  let v458 : Index := Scalar.indexCast v454
  let c0_i32_249 : BitVec 32 := 0#32
  let v459 : Index := Scalar.indexCast c0_i32_249
  let c32_250 : Index := 32#32
  ![v456.toNat, 0, v458.toNat, 0, 32]
def k0_off65 (k0_t13 : Fin k0_t13_loop.trips) (k0_t14 : Fin k0_t14_loop.trips) (c3_i32 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v481 : Index := Scalar.indexCast v311
  let c0_i32_259 : BitVec 32 := 0#32
  let v482 : Index := Scalar.indexCast c0_i32_259
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_251 : BitVec 32 := 16#32
  let v461 : BitVec 32 := Scalar.muli v317 c16_i32_251
  let v462 : BitVec 32 := Scalar.addi v461 c3_i32
  let c0_i32_253 : BitVec 32 := 0#32
  let v464 : BitVec 1 := Scalar.cmpi .sgt v462 c0_i32_253
  let v465 : BitVec 32 := Scalar.extui v464
  let c0_i32_254 : BitVec 32 := 0#32
  let v466 : BitVec 1 := Scalar.cmpi .slt v462 c0_i32_254
  let v467 : BitVec 32 := Scalar.extui v466
  let v468 : BitVec 32 := Scalar.subi v465 v467
  let c8_i32_252 : BitVec 32 := 8#32
  let c0_i32_255 : BitVec 32 := 0#32
  let v469 : BitVec 1 := Scalar.cmpi .sgt c8_i32_252 c0_i32_255
  let v470 : BitVec 32 := Scalar.extui v469
  let c0_i32_256 : BitVec 32 := 0#32
  let v471 : BitVec 1 := Scalar.cmpi .slt c8_i32_252 c0_i32_256
  let v472 : BitVec 32 := Scalar.extui v471
  let v473 : BitVec 32 := Scalar.subi v470 v472
  let v474 : BitVec 1 := Scalar.cmpi .ne v468 v473
  let v475 : BitVec 32 := Scalar.remsi v462 c8_i32_252
  let c0_i32_257 : BitVec 32 := 0#32
  let v476 : BitVec 1 := Scalar.cmpi .ne v475 c0_i32_257
  let v477 : BitVec 1 := Scalar.andi v474 v476
  let v463 : BitVec 32 := Scalar.divsi v462 c8_i32_252
  let c1_i32_258 : BitVec 32 := 1#32
  let v478 : BitVec 32 := Scalar.subi v463 c1_i32_258
  let v479 : BitVec 32 := Scalar.select v477 v478 v463
  let v483 : Index := Scalar.indexCast v479
  let c0_i32_260 : BitVec 32 := 0#32
  let v484 : Index := Scalar.indexCast c0_i32_260
  let c48_261 : Index := 48#32
  ![v481.toNat, 0, v483.toNat, 0, 48]
def k0_off66 (k0_t13 : Fin k0_t13_loop.trips) (k0_t14 : Fin k0_t14_loop.trips) (c4_i32_263 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v506 : Index := Scalar.indexCast v311
  let c0_i32_271 : BitVec 32 := 0#32
  let v507 : Index := Scalar.indexCast c0_i32_271
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_262 : BitVec 32 := 16#32
  let v486 : BitVec 32 := Scalar.muli v317 c16_i32_262
  let v487 : BitVec 32 := Scalar.addi v486 c4_i32_263
  let c0_i32_265 : BitVec 32 := 0#32
  let v489 : BitVec 1 := Scalar.cmpi .sgt v487 c0_i32_265
  let v490 : BitVec 32 := Scalar.extui v489
  let c0_i32_266 : BitVec 32 := 0#32
  let v491 : BitVec 1 := Scalar.cmpi .slt v487 c0_i32_266
  let v492 : BitVec 32 := Scalar.extui v491
  let v493 : BitVec 32 := Scalar.subi v490 v492
  let c8_i32_264 : BitVec 32 := 8#32
  let c0_i32_267 : BitVec 32 := 0#32
  let v494 : BitVec 1 := Scalar.cmpi .sgt c8_i32_264 c0_i32_267
  let v495 : BitVec 32 := Scalar.extui v494
  let c0_i32_268 : BitVec 32 := 0#32
  let v496 : BitVec 1 := Scalar.cmpi .slt c8_i32_264 c0_i32_268
  let v497 : BitVec 32 := Scalar.extui v496
  let v498 : BitVec 32 := Scalar.subi v495 v497
  let v499 : BitVec 1 := Scalar.cmpi .ne v493 v498
  let v500 : BitVec 32 := Scalar.remsi v487 c8_i32_264
  let c0_i32_269 : BitVec 32 := 0#32
  let v501 : BitVec 1 := Scalar.cmpi .ne v500 c0_i32_269
  let v502 : BitVec 1 := Scalar.andi v499 v501
  let v488 : BitVec 32 := Scalar.divsi v487 c8_i32_264
  let c1_i32_270 : BitVec 32 := 1#32
  let v503 : BitVec 32 := Scalar.subi v488 c1_i32_270
  let v504 : BitVec 32 := Scalar.select v502 v503 v488
  let v508 : Index := Scalar.indexCast v504
  let c0_i32_272 : BitVec 32 := 0#32
  let v509 : Index := Scalar.indexCast c0_i32_272
  let c64_273 : Index := 64#32
  ![v506.toNat, 0, v508.toNat, 0, 64]
def k0_off67 (k0_t13 : Fin k0_t13_loop.trips) (k0_t14 : Fin k0_t14_loop.trips) (c5_i32 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v531 : Index := Scalar.indexCast v311
  let c0_i32_282 : BitVec 32 := 0#32
  let v532 : Index := Scalar.indexCast c0_i32_282
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_274 : BitVec 32 := 16#32
  let v511 : BitVec 32 := Scalar.muli v317 c16_i32_274
  let v512 : BitVec 32 := Scalar.addi v511 c5_i32
  let c0_i32_276 : BitVec 32 := 0#32
  let v514 : BitVec 1 := Scalar.cmpi .sgt v512 c0_i32_276
  let v515 : BitVec 32 := Scalar.extui v514
  let c0_i32_277 : BitVec 32 := 0#32
  let v516 : BitVec 1 := Scalar.cmpi .slt v512 c0_i32_277
  let v517 : BitVec 32 := Scalar.extui v516
  let v518 : BitVec 32 := Scalar.subi v515 v517
  let c8_i32_275 : BitVec 32 := 8#32
  let c0_i32_278 : BitVec 32 := 0#32
  let v519 : BitVec 1 := Scalar.cmpi .sgt c8_i32_275 c0_i32_278
  let v520 : BitVec 32 := Scalar.extui v519
  let c0_i32_279 : BitVec 32 := 0#32
  let v521 : BitVec 1 := Scalar.cmpi .slt c8_i32_275 c0_i32_279
  let v522 : BitVec 32 := Scalar.extui v521
  let v523 : BitVec 32 := Scalar.subi v520 v522
  let v524 : BitVec 1 := Scalar.cmpi .ne v518 v523
  let v525 : BitVec 32 := Scalar.remsi v512 c8_i32_275
  let c0_i32_280 : BitVec 32 := 0#32
  let v526 : BitVec 1 := Scalar.cmpi .ne v525 c0_i32_280
  let v527 : BitVec 1 := Scalar.andi v524 v526
  let v513 : BitVec 32 := Scalar.divsi v512 c8_i32_275
  let c1_i32_281 : BitVec 32 := 1#32
  let v528 : BitVec 32 := Scalar.subi v513 c1_i32_281
  let v529 : BitVec 32 := Scalar.select v527 v528 v513
  let v533 : Index := Scalar.indexCast v529
  let c0_i32_283 : BitVec 32 := 0#32
  let v534 : Index := Scalar.indexCast c0_i32_283
  let c80_284 : Index := 80#32
  ![v531.toNat, 0, v533.toNat, 0, 80]
def k0_off68 (k0_t13 : Fin k0_t13_loop.trips) (k0_t14 : Fin k0_t14_loop.trips) (c6_i32 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v556 : Index := Scalar.indexCast v311
  let c0_i32_293 : BitVec 32 := 0#32
  let v557 : Index := Scalar.indexCast c0_i32_293
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_285 : BitVec 32 := 16#32
  let v536 : BitVec 32 := Scalar.muli v317 c16_i32_285
  let v537 : BitVec 32 := Scalar.addi v536 c6_i32
  let c0_i32_287 : BitVec 32 := 0#32
  let v539 : BitVec 1 := Scalar.cmpi .sgt v537 c0_i32_287
  let v540 : BitVec 32 := Scalar.extui v539
  let c0_i32_288 : BitVec 32 := 0#32
  let v541 : BitVec 1 := Scalar.cmpi .slt v537 c0_i32_288
  let v542 : BitVec 32 := Scalar.extui v541
  let v543 : BitVec 32 := Scalar.subi v540 v542
  let c8_i32_286 : BitVec 32 := 8#32
  let c0_i32_289 : BitVec 32 := 0#32
  let v544 : BitVec 1 := Scalar.cmpi .sgt c8_i32_286 c0_i32_289
  let v545 : BitVec 32 := Scalar.extui v544
  let c0_i32_290 : BitVec 32 := 0#32
  let v546 : BitVec 1 := Scalar.cmpi .slt c8_i32_286 c0_i32_290
  let v547 : BitVec 32 := Scalar.extui v546
  let v548 : BitVec 32 := Scalar.subi v545 v547
  let v549 : BitVec 1 := Scalar.cmpi .ne v543 v548
  let v550 : BitVec 32 := Scalar.remsi v537 c8_i32_286
  let c0_i32_291 : BitVec 32 := 0#32
  let v551 : BitVec 1 := Scalar.cmpi .ne v550 c0_i32_291
  let v552 : BitVec 1 := Scalar.andi v549 v551
  let v538 : BitVec 32 := Scalar.divsi v537 c8_i32_286
  let c1_i32_292 : BitVec 32 := 1#32
  let v553 : BitVec 32 := Scalar.subi v538 c1_i32_292
  let v554 : BitVec 32 := Scalar.select v552 v553 v538
  let v558 : Index := Scalar.indexCast v554
  let c0_i32_294 : BitVec 32 := 0#32
  let v559 : Index := Scalar.indexCast c0_i32_294
  let c96_295 : Index := 96#32
  ![v556.toNat, 0, v558.toNat, 0, 96]
def k0_off69 (k0_t13 : Fin k0_t13_loop.trips) (k0_t14 : Fin k0_t14_loop.trips) (c7_i32 : BitVec 32) : Fin 5 → Nat :=
  let c0_i32_203 : BitVec 32 := 0#32
  let c0_i32_142 : BitVec 32 := 0#32
  let c1_i32_144 : BitVec 32 := 1#32
  let arg22 : BitVec 32 := Scf.iv c0_i32_142 c1_i32_144 k0_t13
  let c1_i32_202 : BitVec 32 := 1#32
  let v310 : BitVec 32 := Scalar.muli arg22 c1_i32_202
  let v311 : BitVec 32 := Scalar.addi c0_i32_203 v310
  let v581 : Index := Scalar.indexCast v311
  let c0_i32_304 : BitVec 32 := 0#32
  let v582 : Index := Scalar.indexCast c0_i32_304
  let c0_i32_210 : BitVec 32 := 0#32
  let c0_i32_205 : BitVec 32 := 0#32
  let c1_i32_207 : BitVec 32 := 1#32
  let arg23 : BitVec 32 := Scf.iv c0_i32_205 c1_i32_207 k0_t14
  let c1_i32_209 : BitVec 32 := 1#32
  let v316 : BitVec 32 := Scalar.muli arg23 c1_i32_209
  let v317 : BitVec 32 := Scalar.addi c0_i32_210 v316
  let c16_i32_296 : BitVec 32 := 16#32
  let v561 : BitVec 32 := Scalar.muli v317 c16_i32_296
  let v562 : BitVec 32 := Scalar.addi v561 c7_i32
  let c0_i32_298 : BitVec 32 := 0#32
  let v564 : BitVec 1 := Scalar.cmpi .sgt v562 c0_i32_298
  let v565 : BitVec 32 := Scalar.extui v564
  let c0_i32_299 : BitVec 32 := 0#32
  let v566 : BitVec 1 := Scalar.cmpi .slt v562 c0_i32_299
  let v567 : BitVec 32 := Scalar.extui v566
  let v568 : BitVec 32 := Scalar.subi v565 v567
  let c8_i32_297 : BitVec 32 := 8#32
  let c0_i32_300 : BitVec 32 := 0#32
  let v569 : BitVec 1 := Scalar.cmpi .sgt c8_i32_297 c0_i32_300
  let v570 : BitVec 32 := Scalar.extui v569
  let c0_i32_301 : BitVec 32 := 0#32
  let v571 : BitVec 1 := Scalar.cmpi .slt c8_i32_297 c0_i32_301
  let v572 : BitVec 32 := Scalar.extui v571
  let v573 : BitVec 32 := Scalar.subi v570 v572
  let v574 : BitVec 1 := Scalar.cmpi .ne v568 v573
  let v575 : BitVec 32 := Scalar.remsi v562 c8_i32_297
  let c0_i32_302 : BitVec 32 := 0#32
  let v576 : BitVec 1 := Scalar.cmpi .ne v575 c0_i32_302
  let v577 : BitVec 1 := Scalar.andi v574 v576
  let v563 : BitVec 32 := Scalar.divsi v562 c8_i32_297
  let c1_i32_303 : BitVec 32 := 1#32
  let v578 : BitVec 32 := Scalar.subi v563 c1_i32_303
  let v579 : BitVec 32 := Scalar.select v577 v578 v563
  let v583 : Index := Scalar.indexCast v579
  let c0_i32_305 : BitVec 32 := 0#32
  let v584 : Index := Scalar.indexCast c0_i32_305
  let c112_306 : Index := 112#32
  ![v581.toNat, 0, v583.toNat, 0, 112]
def k0_off70 (i : grid0.Coords) (k0_t1 : Fin k0_t1_loop.trips) : Fin 5 → Nat :=
  let c196_i32 : BitVec 32 := 196#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v9 : BitVec 32 := Scalar.muli v1 c2_i32_7
  let c0_i32_6 : BitVec 32 := 0#32
  let c0_i32_2 : BitVec 32 := 0#32
  let c1_i32 : BitVec 32 := 1#32
  let arg21 : BitVec 32 := Scf.iv c0_i32_2 c1_i32 k0_t1
  let c1_i32_5 : BitVec 32 := 1#32
  let v7 : BitVec 32 := Scalar.muli arg21 c1_i32_5
  let v8 : BitVec 32 := Scalar.addi c0_i32_6 v7
  let v10 : BitVec 32 := Scalar.addi v9 v8
  let c0_i32_147 : BitVec 32 := 0#32
  let v224 : BitVec 1 := Scalar.cmpi .sgt v10 c0_i32_147
  let v225 : BitVec 32 := Scalar.extui v224
  let c0_i32_148 : BitVec 32 := 0#32
  let v226 : BitVec 1 := Scalar.cmpi .slt v10 c0_i32_148
  let v227 : BitVec 32 := Scalar.extui v226
  let v228 : BitVec 32 := Scalar.subi v225 v227
  let c8_i32_146 : BitVec 32 := 8#32
  let c0_i32_149 : BitVec 32 := 0#32
  let v229 : BitVec 1 := Scalar.cmpi .sgt c8_i32_146 c0_i32_149
  let v230 : BitVec 32 := Scalar.extui v229
  let c0_i32_150 : BitVec 32 := 0#32
  let v231 : BitVec 1 := Scalar.cmpi .slt c8_i32_146 c0_i32_150
  let v232 : BitVec 32 := Scalar.extui v231
  let v233 : BitVec 32 := Scalar.subi v230 v232
  let v234 : BitVec 1 := Scalar.cmpi .ne v228 v233
  let v235 : BitVec 32 := Scalar.remsi v10 c8_i32_146
  let c0_i32_151 : BitVec 32 := 0#32
  let v236 : BitVec 1 := Scalar.cmpi .ne v235 c0_i32_151
  let v237 : BitVec 1 := Scalar.andi v234 v236
  let v223 : BitVec 32 := Scalar.divsi v10 c8_i32_146
  let c1_i32_152 : BitVec 32 := 1#32
  let v238 : BitVec 32 := Scalar.subi v223 c1_i32_152
  let v239 : BitVec 32 := Scalar.select v237 v238 v223
  let c0_i32_159 : BitVec 32 := 0#32
  let c8_i32_153 : BitVec 32 := 8#32
  let c0_i32_154 : BitVec 32 := 0#32
  let v240 : BitVec 1 := Scalar.cmpi .eq c8_i32_153 c0_i32_154
  let c1_i32_155 : BitVec 32 := 1#32
  let v241 : BitVec 32 := Scalar.select v240 c1_i32_155 c8_i32_153
  let v242 : BitVec 32 := Scalar.remsi v10 v241
  let c0_i32_157 : BitVec 32 := 0#32
  let v244 : BitVec 1 := Scalar.cmpi .slt v242 c0_i32_157
  let c0_i32_158 : BitVec 32 := 0#32
  let v245 : BitVec 1 := Scalar.cmpi .slt v241 c0_i32_158
  let v246 : BitVec 1 := Scalar.xori v244 v245
  let c0_i32_156 : BitVec 32 := 0#32
  let v243 : BitVec 1 := Scalar.cmpi .ne v242 c0_i32_156
  let v247 : BitVec 1 := Scalar.andi v246 v243
  let v248 : BitVec 32 := Scalar.addi v242 v241
  let v249 : BitVec 32 := Scalar.select v247 v248 v242
  let c0_i32_160 : BitVec 32 := 0#32
  ![196, v239.toNat, 0, v249.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x200_S200x1024_1_0 : S1024x200.Transposes [1, 0] S200x1024
  shapeCasts_S200x1024_S204800 : S200x1024.ShapeCasts S204800
  transposes_S100000x64_S64x100000_1_0 : S100000x64.Transposes [1, 0] S64x100000
  transposes_S512x64_S64x512_1_0 : S512x64.Transposes [1, 0] S64x512
  shapeCasts_S64x512_S32768 : S64x512.ShapeCasts S32768
  shapeCasts_S2x64_S128 : S2x64.ShapeCasts S128
  inb_S128_S64_0 : ∀ a, (![0] : Fin 1 → Nat) a + S64.size a ≤ S128.size a
  inb_S204800_S4096_0 : ∀ a, (![0] : Fin 1 → Nat) a + S4096.size a ≤ S204800.size a
  inb_S204800_S4096_4096 : ∀ a, (![4096] : Fin 1 → Nat) a + S4096.size a ≤ S204800.size a
  h_S64 : 0 < S64.numel
  inb_S208_S16_0 : ∀ a, (![0] : Fin 1 → Nat) a + S16.size a ≤ S208.size a
  h_S16 : 0 < S16.numel
  inb_S208_S16_16 : ∀ a, (![16] : Fin 1 → Nat) a + S16.size a ≤ S208.size a
  inb_S208_S16_32 : ∀ a, (![32] : Fin 1 → Nat) a + S16.size a ≤ S208.size a
  inb_S208_S16_48 : ∀ a, (![48] : Fin 1 → Nat) a + S16.size a ≤ S208.size a
  inb_S208_S16_64 : ∀ a, (![64] : Fin 1 → Nat) a + S16.size a ≤ S208.size a
  inb_S208_S16_80 : ∀ a, (![80] : Fin 1 → Nat) a + S16.size a ≤ S208.size a
  inb_S208_S16_96 : ∀ a, (![96] : Fin 1 → Nat) a + S16.size a ≤ S208.size a
  inb_S208_S16_112 : ∀ a, (![112] : Fin 1 → Nat) a + S16.size a ≤ S208.size a
  inb_S208_S16_128 : ∀ a, (![128] : Fin 1 → Nat) a + S16.size a ≤ S208.size a
  inb_S208_S16_144 : ∀ a, (![144] : Fin 1 → Nat) a + S16.size a ≤ S208.size a
  inb_S208_S16_160 : ∀ a, (![160] : Fin 1 → Nat) a + S16.size a ≤ S208.size a
  inb_S208_S16_176 : ∀ a, (![176] : Fin 1 → Nat) a + S16.size a ≤ S208.size a
  inb_S208_S16_192 : ∀ a, (![192] : Fin 1 → Nat) a + S16.size a ≤ S208.size a
  h_S208 : 0 < S208.numel
  h_S1x100000 : 0 < S1x100000.numel
  h_S1x1x1x1x16 : 0 < S1x1x1x1x16.numel
  shapeCasts_S1x1x1x1x16_S16 : S1x1x1x1x16.ShapeCasts S16
  shapeCasts_S16_S1x1x1x1x16 : S16.ShapeCasts S1x1x1x1x16
  inb_S204800_S4096_8192 : ∀ a, (![8192] : Fin 1 → Nat) a + S4096.size a ≤ S204800.size a
  inb_S204800_S4096_12288 : ∀ a, (![12288] : Fin 1 → Nat) a + S4096.size a ≤ S204800.size a
  inb_S204800_S4096_196608 : ∀ a, (![196608] : Fin 1 → Nat) a + S4096.size a ≤ S204800.size a
  inb_S204800_S4096_200704 : ∀ a, (![200704] : Fin 1 → Nat) a + S4096.size a ≤ S204800.size a
  transposes_S200x8x8x8x128_S8x128x200x8x8_2_4_0_1_3 : S200x8x8x8x128.Transposes [2, 4, 0, 1, 3] S8x128x200x8x8
  shapeCasts_S8x128x200x8x8_S1024x200x64 : S8x128x200x8x8.ShapeCasts S1024x200x64
  hcc0_scratch9 : 0 + S_.numel ≤ 8
  hcc0_scratch10 : 1 + S_.numel ≤ 8
  hcc0_scratch11 : 2 + S_.numel ≤ 8
  hcc0_scratch12 : 3 + S_.numel ≤ 8
  hcc0_scratch13 : 4 + S_.numel ≤ 8
  hcc0_scoped0 : 5 + S_.numel ≤ 8
  hcc0_scoped1 : 6 + S_.numel ≤ 8
  hcc0_scoped2 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x100000.size a ≤ S64x100000.size a
  k0_off2_inb : ∀ (i : grid0.Coords) (k0_t1 : Fin k0_t1_loop.trips), ∀ a, (k0_off2 i k0_t1) a + S208.size a ≤ S32768.size a
  k0_off3_inb : ∀ (i : grid0.Coords) (k0_t1 : Fin k0_t1_loop.trips), ∀ a, (k0_off3 i k0_t1) a + S1x100000.size a ≤ S64x100000.size a
  k0_t2_ok : k0_t2_loop.OK
  k0_t3_ok : k0_t3_loop.OK
  k0_off4_inb : ∀ (k0_t2 : Fin k0_t2_loop.trips) (k0_t3 : Fin k0_t3_loop.trips), ∀ (r : Fin 16), ∀ a, (k0_off4 k0_t2 k0_t3 (BitVec.ofNat 32 (16 * r.val))) a + S16.size a ≤ S4096.size a
  k0_off5_inb : ∀ (k0_t2 : Fin k0_t2_loop.trips) (k0_t3 : Fin k0_t3_loop.trips), ∀ (r : Fin 2), ∀ a, (k0_off5 k0_t2 k0_t3 (BitVec.ofNat 32 (8 * r.val))) a + S1x1x1x1x16.size a ≤ S4x1x8x1x128.size a
  k0_off6_inb : ∀ (k0_t2 : Fin k0_t2_loop.trips) (k0_t3 : Fin k0_t3_loop.trips), ∀ (r : Fin 2), ∀ a, (k0_off6 k0_t2 k0_t3 (BitVec.ofNat 32 (1 + 8 * r.val))) a + S1x1x1x1x16.size a ≤ S4x1x8x1x128.size a
  k0_off7_inb : ∀ (k0_t2 : Fin k0_t2_loop.trips) (k0_t3 : Fin k0_t3_loop.trips), ∀ (r : Fin 2), ∀ a, (k0_off7 k0_t2 k0_t3 (BitVec.ofNat 32 (2 + 8 * r.val))) a + S1x1x1x1x16.size a ≤ S4x1x8x1x128.size a
  k0_off8_inb : ∀ (k0_t2 : Fin k0_t2_loop.trips) (k0_t3 : Fin k0_t3_loop.trips), ∀ (r : Fin 2), ∀ a, (k0_off8 k0_t2 k0_t3 (BitVec.ofNat 32 (3 + 8 * r.val))) a + S1x1x1x1x16.size a ≤ S4x1x8x1x128.size a
  k0_off9_inb : ∀ (k0_t2 : Fin k0_t2_loop.trips) (k0_t3 : Fin k0_t3_loop.trips), ∀ (r : Fin 2), ∀ a, (k0_off9 k0_t2 k0_t3 (BitVec.ofNat 32 (4 + 8 * r.val))) a + S1x1x1x1x16.size a ≤ S4x1x8x1x128.size a
  k0_off10_inb : ∀ (k0_t2 : Fin k0_t2_loop.trips) (k0_t3 : Fin k0_t3_loop.trips), ∀ (r : Fin 2), ∀ a, (k0_off10 k0_t2 k0_t3 (BitVec.ofNat 32 (5 + 8 * r.val))) a + S1x1x1x1x16.size a ≤ S4x1x8x1x128.size a
  k0_off11_inb : ∀ (k0_t2 : Fin k0_t2_loop.trips) (k0_t3 : Fin k0_t3_loop.trips), ∀ (r : Fin 2), ∀ a, (k0_off11 k0_t2 k0_t3 (BitVec.ofNat 32 (6 + 8 * r.val))) a + S1x1x1x1x16.size a ≤ S4x1x8x1x128.size a
  k0_off12_inb : ∀ (k0_t2 : Fin k0_t2_loop.trips) (k0_t3 : Fin k0_t3_loop.trips), ∀ (r : Fin 2), ∀ a, (k0_off12 k0_t2 k0_t3 (BitVec.ofNat 32 (7 + 8 * r.val))) a + S1x1x1x1x16.size a ≤ S4x1x8x1x128.size a
  k0_off13_inb : ∀ (i : grid0.Coords) (k0_t1 : Fin k0_t1_loop.trips), ∀ a, (k0_off13 i k0_t1) a + S4x1x8x1x128.size a ≤ S200x8x8x8x128.size a
  k0_t4_ok : k0_t4_loop.OK
  k0_t5_ok : k0_t5_loop.OK
  k0_off14_inb : ∀ (k0_t4 : Fin k0_t4_loop.trips) (k0_t5 : Fin k0_t5_loop.trips), ∀ (r : Fin 16), ∀ a, (k0_off14 k0_t4 k0_t5 (BitVec.ofNat 32 (16 * r.val))) a + S16.size a ≤ S4096.size a
  k0_off15_inb : ∀ (k0_t4 : Fin k0_t4_loop.trips) (k0_t5 : Fin k0_t5_loop.trips), ∀ (r : Fin 2), ∀ a, (k0_off15 k0_t4 k0_t5 (BitVec.ofNat 32 (8 * r.val))) a + S1x1x1x1x16.size a ≤ S4x1x8x1x128.size a
  k0_off16_inb : ∀ (k0_t4 : Fin k0_t4_loop.trips) (k0_t5 : Fin k0_t5_loop.trips), ∀ (r : Fin 2), ∀ a, (k0_off16 k0_t4 k0_t5 (BitVec.ofNat 32 (1 + 8 * r.val))) a + S1x1x1x1x16.size a ≤ S4x1x8x1x128.size a
  k0_off17_inb : ∀ (k0_t4 : Fin k0_t4_loop.trips) (k0_t5 : Fin k0_t5_loop.trips), ∀ (r : Fin 2), ∀ a, (k0_off17 k0_t4 k0_t5 (BitVec.ofNat 32 (2 + 8 * r.val))) a + S1x1x1x1x16.size a ≤ S4x1x8x1x128.size a
  k0_off18_inb : ∀ (k0_t4 : Fin k0_t4_loop.trips) (k0_t5 : Fin k0_t5_loop.trips), ∀ (r : Fin 2), ∀ a, (k0_off18 k0_t4 k0_t5 (BitVec.ofNat 32 (3 + 8 * r.val))) a + S1x1x1x1x16.size a ≤ S4x1x8x1x128.size a
  k0_off19_inb : ∀ (k0_t4 : Fin k0_t4_loop.trips) (k0_t5 : Fin k0_t5_loop.trips), ∀ (r : Fin 2), ∀ a, (k0_off19 k0_t4 k0_t5 (BitVec.ofNat 32 (4 + 8 * r.val))) a + S1x1x1x1x16.size a ≤ S4x1x8x1x128.size a
  k0_off20_inb : ∀ (k0_t4 : Fin k0_t4_loop.trips) (k0_t5 : Fin k0_t5_loop.trips), ∀ (r : Fin 2), ∀ a, (k0_off20 k0_t4 k0_t5 (BitVec.ofNat 32 (5 + 8 * r.val))) a + S1x1x1x1x16.size a ≤ S4x1x8x1x128.size a
  k0_off21_inb : ∀ (k0_t4 : Fin k0_t4_loop.trips) (k0_t5 : Fin k0_t5_loop.trips), ∀ (r : Fin 2), ∀ a, (k0_off21 k0_t4 k0_t5 (BitVec.ofNat 32 (6 + 8 * r.val))) a + S1x1x1x1x16.size a ≤ S4x1x8x1x128.size a
  k0_off22_inb : ∀ (k0_t4 : Fin k0_t4_loop.trips) (k0_t5 : Fin k0_t5_loop.trips), ∀ (r : Fin 2), ∀ a, (k0_off22 k0_t4 k0_t5 (BitVec.ofNat 32 (7 + 8 * r.val))) a + S1x1x1x1x16.size a ≤ S4x1x8x1x128.size a
  k0_off23_inb : ∀ (i : grid0.Coords) (k0_t1 : Fin k0_t1_loop.trips), ∀ a, (k0_off23 i k0_t1) a + S4x1x8x1x128.size a ≤ S200x8x8x8x128.size a
  k0_t6_ok : k0_t6_loop.OK
  k0_off24_inb : ∀ k0_t6 : Fin k0_t6_loop.trips, ∀ a, (k0_off24 k0_t6) a + S4096.size a ≤ S204800.size a
  k0_off25_inb : ∀ (i : grid0.Coords) (k0_t1 : Fin k0_t1_loop.trips) (k0_t6 : Fin k0_t6_loop.trips), ∀ a, (k0_off25 i k0_t1 k0_t6) a + S4x1x8x1x128.size a ≤ S200x8x8x8x128.size a
  k0_t7_ok : k0_t7_loop.OK
  k0_t8_ok : k0_t8_loop.OK
  k0_off26_inb : ∀ (k0_t7 : Fin k0_t7_loop.trips) (k0_t8 : Fin k0_t8_loop.trips), ∀ (r : Fin 16), ∀ a, (k0_off26 k0_t7 k0_t8 (BitVec.ofNat 32 (16 * r.val))) a + S16.size a ≤ S4096.size a
  k0_off27_inb : ∀ (k0_t7 : Fin k0_t7_loop.trips) (k0_t8 : Fin k0_t8_loop.trips), ∀ (r : Fin 2), ∀ a, (k0_off27 k0_t7 k0_t8 (BitVec.ofNat 32 (8 * r.val))) a + S1x1x1x1x16.size a ≤ S4x1x8x1x128.size a
  k0_off28_inb : ∀ (k0_t7 : Fin k0_t7_loop.trips) (k0_t8 : Fin k0_t8_loop.trips), ∀ (r : Fin 2), ∀ a, (k0_off28 k0_t7 k0_t8 (BitVec.ofNat 32 (1 + 8 * r.val))) a + S1x1x1x1x16.size a ≤ S4x1x8x1x128.size a
  k0_off29_inb : ∀ (k0_t7 : Fin k0_t7_loop.trips) (k0_t8 : Fin k0_t8_loop.trips), ∀ (r : Fin 2), ∀ a, (k0_off29 k0_t7 k0_t8 (BitVec.ofNat 32 (2 + 8 * r.val))) a + S1x1x1x1x16.size a ≤ S4x1x8x1x128.size a
  k0_off30_inb : ∀ (k0_t7 : Fin k0_t7_loop.trips) (k0_t8 : Fin k0_t8_loop.trips), ∀ (r : Fin 2), ∀ a, (k0_off30 k0_t7 k0_t8 (BitVec.ofNat 32 (3 + 8 * r.val))) a + S1x1x1x1x16.size a ≤ S4x1x8x1x128.size a
  k0_off31_inb : ∀ (k0_t7 : Fin k0_t7_loop.trips) (k0_t8 : Fin k0_t8_loop.trips), ∀ (r : Fin 2), ∀ a, (k0_off31 k0_t7 k0_t8 (BitVec.ofNat 32 (4 + 8 * r.val))) a + S1x1x1x1x16.size a ≤ S4x1x8x1x128.size a
  k0_off32_inb : ∀ (k0_t7 : Fin k0_t7_loop.trips) (k0_t8 : Fin k0_t8_loop.trips), ∀ (r : Fin 2), ∀ a, (k0_off32 k0_t7 k0_t8 (BitVec.ofNat 32 (5 + 8 * r.val))) a + S1x1x1x1x16.size a ≤ S4x1x8x1x128.size a
  k0_off33_inb : ∀ (k0_t7 : Fin k0_t7_loop.trips) (k0_t8 : Fin k0_t8_loop.trips), ∀ (r : Fin 2), ∀ a, (k0_off33 k0_t7 k0_t8 (BitVec.ofNat 32 (6 + 8 * r.val))) a + S1x1x1x1x16.size a ≤ S4x1x8x1x128.size a
  k0_off34_inb : ∀ (k0_t7 : Fin k0_t7_loop.trips) (k0_t8 : Fin k0_t8_loop.trips), ∀ (r : Fin 2), ∀ a, (k0_off34 k0_t7 k0_t8 (BitVec.ofNat 32 (7 + 8 * r.val))) a + S1x1x1x1x16.size a ≤ S4x1x8x1x128.size a
  k0_off35_inb : ∀ (i : grid0.Coords) (k0_t1 : Fin k0_t1_loop.trips) (k0_t6 : Fin k0_t6_loop.trips), ∀ a, (k0_off35 i k0_t1 k0_t6) a + S4x1x8x1x128.size a ≤ S200x8x8x8x128.size a
  k0_off36_inb : ∀ k0_t6 : Fin k0_t6_loop.trips, ∀ (r : Fin 2), ∀ a, (k0_off36 k0_t6 (BitVec.ofNat 32 (1 + r.val))) a + S4096.size a ≤ S204800.size a
  k0_off37_inb : ∀ (i : grid0.Coords) (k0_t1 : Fin k0_t1_loop.trips) (k0_t6 : Fin k0_t6_loop.trips), ∀ a, (k0_off37 i k0_t1 k0_t6) a + S4x1x8x1x128.size a ≤ S200x8x8x8x128.size a
  k0_t9_ok : k0_t9_loop.OK
  k0_t10_ok : k0_t10_loop.OK
  k0_off38_inb : ∀ (k0_t9 : Fin k0_t9_loop.trips) (k0_t10 : Fin k0_t10_loop.trips), ∀ (r : Fin 16), ∀ a, (k0_off38 k0_t9 k0_t10 (BitVec.ofNat 32 (16 * r.val))) a + S16.size a ≤ S4096.size a
  k0_off39_inb : ∀ (k0_t9 : Fin k0_t9_loop.trips) (k0_t10 : Fin k0_t10_loop.trips), ∀ (r : Fin 2), ∀ a, (k0_off39 k0_t9 k0_t10 (BitVec.ofNat 32 (8 * r.val))) a + S1x1x1x1x16.size a ≤ S4x1x8x1x128.size a
  k0_off40_inb : ∀ (k0_t9 : Fin k0_t9_loop.trips) (k0_t10 : Fin k0_t10_loop.trips), ∀ (r : Fin 2), ∀ a, (k0_off40 k0_t9 k0_t10 (BitVec.ofNat 32 (1 + 8 * r.val))) a + S1x1x1x1x16.size a ≤ S4x1x8x1x128.size a
  k0_off41_inb : ∀ (k0_t9 : Fin k0_t9_loop.trips) (k0_t10 : Fin k0_t10_loop.trips), ∀ (r : Fin 2), ∀ a, (k0_off41 k0_t9 k0_t10 (BitVec.ofNat 32 (2 + 8 * r.val))) a + S1x1x1x1x16.size a ≤ S4x1x8x1x128.size a
  k0_off42_inb : ∀ (k0_t9 : Fin k0_t9_loop.trips) (k0_t10 : Fin k0_t10_loop.trips), ∀ (r : Fin 2), ∀ a, (k0_off42 k0_t9 k0_t10 (BitVec.ofNat 32 (3 + 8 * r.val))) a + S1x1x1x1x16.size a ≤ S4x1x8x1x128.size a
  k0_off43_inb : ∀ (k0_t9 : Fin k0_t9_loop.trips) (k0_t10 : Fin k0_t10_loop.trips), ∀ (r : Fin 2), ∀ a, (k0_off43 k0_t9 k0_t10 (BitVec.ofNat 32 (4 + 8 * r.val))) a + S1x1x1x1x16.size a ≤ S4x1x8x1x128.size a
  k0_off44_inb : ∀ (k0_t9 : Fin k0_t9_loop.trips) (k0_t10 : Fin k0_t10_loop.trips), ∀ (r : Fin 2), ∀ a, (k0_off44 k0_t9 k0_t10 (BitVec.ofNat 32 (5 + 8 * r.val))) a + S1x1x1x1x16.size a ≤ S4x1x8x1x128.size a
  k0_off45_inb : ∀ (k0_t9 : Fin k0_t9_loop.trips) (k0_t10 : Fin k0_t10_loop.trips), ∀ (r : Fin 2), ∀ a, (k0_off45 k0_t9 k0_t10 (BitVec.ofNat 32 (6 + 8 * r.val))) a + S1x1x1x1x16.size a ≤ S4x1x8x1x128.size a
  k0_off46_inb : ∀ (k0_t9 : Fin k0_t9_loop.trips) (k0_t10 : Fin k0_t10_loop.trips), ∀ (r : Fin 2), ∀ a, (k0_off46 k0_t9 k0_t10 (BitVec.ofNat 32 (7 + 8 * r.val))) a + S1x1x1x1x16.size a ≤ S4x1x8x1x128.size a
  k0_off47_inb : ∀ (i : grid0.Coords) (k0_t1 : Fin k0_t1_loop.trips) (k0_t6 : Fin k0_t6_loop.trips), ∀ a, (k0_off47 i k0_t1 k0_t6) a + S4x1x8x1x128.size a ≤ S200x8x8x8x128.size a
  k0_off48_inb : ∀ k0_t6 : Fin k0_t6_loop.trips, ∀ a, (k0_off48 k0_t6) a + S4096.size a ≤ S204800.size a
  k0_off49_inb : ∀ (i : grid0.Coords) (k0_t1 : Fin k0_t1_loop.trips), ∀ a, (k0_off49 i k0_t1) a + S4x1x8x1x128.size a ≤ S200x8x8x8x128.size a
  k0_t11_ok : k0_t11_loop.OK
  k0_t12_ok : k0_t12_loop.OK
  k0_off50_inb : ∀ (k0_t11 : Fin k0_t11_loop.trips) (k0_t12 : Fin k0_t12_loop.trips), ∀ (r : Fin 16), ∀ a, (k0_off50 k0_t11 k0_t12 (BitVec.ofNat 32 (16 * r.val))) a + S16.size a ≤ S4096.size a
  k0_off51_inb : ∀ (k0_t11 : Fin k0_t11_loop.trips) (k0_t12 : Fin k0_t12_loop.trips), ∀ (r : Fin 2), ∀ a, (k0_off51 k0_t11 k0_t12 (BitVec.ofNat 32 (8 * r.val))) a + S1x1x1x1x16.size a ≤ S4x1x8x1x128.size a
  k0_off52_inb : ∀ (k0_t11 : Fin k0_t11_loop.trips) (k0_t12 : Fin k0_t12_loop.trips), ∀ (r : Fin 2), ∀ a, (k0_off52 k0_t11 k0_t12 (BitVec.ofNat 32 (1 + 8 * r.val))) a + S1x1x1x1x16.size a ≤ S4x1x8x1x128.size a
  k0_off53_inb : ∀ (k0_t11 : Fin k0_t11_loop.trips) (k0_t12 : Fin k0_t12_loop.trips), ∀ (r : Fin 2), ∀ a, (k0_off53 k0_t11 k0_t12 (BitVec.ofNat 32 (2 + 8 * r.val))) a + S1x1x1x1x16.size a ≤ S4x1x8x1x128.size a
  k0_off54_inb : ∀ (k0_t11 : Fin k0_t11_loop.trips) (k0_t12 : Fin k0_t12_loop.trips), ∀ (r : Fin 2), ∀ a, (k0_off54 k0_t11 k0_t12 (BitVec.ofNat 32 (3 + 8 * r.val))) a + S1x1x1x1x16.size a ≤ S4x1x8x1x128.size a
  k0_off55_inb : ∀ (k0_t11 : Fin k0_t11_loop.trips) (k0_t12 : Fin k0_t12_loop.trips), ∀ (r : Fin 2), ∀ a, (k0_off55 k0_t11 k0_t12 (BitVec.ofNat 32 (4 + 8 * r.val))) a + S1x1x1x1x16.size a ≤ S4x1x8x1x128.size a
  k0_off56_inb : ∀ (k0_t11 : Fin k0_t11_loop.trips) (k0_t12 : Fin k0_t12_loop.trips), ∀ (r : Fin 2), ∀ a, (k0_off56 k0_t11 k0_t12 (BitVec.ofNat 32 (5 + 8 * r.val))) a + S1x1x1x1x16.size a ≤ S4x1x8x1x128.size a
  k0_off57_inb : ∀ (k0_t11 : Fin k0_t11_loop.trips) (k0_t12 : Fin k0_t12_loop.trips), ∀ (r : Fin 2), ∀ a, (k0_off57 k0_t11 k0_t12 (BitVec.ofNat 32 (6 + 8 * r.val))) a + S1x1x1x1x16.size a ≤ S4x1x8x1x128.size a
  k0_off58_inb : ∀ (k0_t11 : Fin k0_t11_loop.trips) (k0_t12 : Fin k0_t12_loop.trips), ∀ (r : Fin 2), ∀ a, (k0_off58 k0_t11 k0_t12 (BitVec.ofNat 32 (7 + 8 * r.val))) a + S1x1x1x1x16.size a ≤ S4x1x8x1x128.size a
  k0_off59_inb : ∀ (i : grid0.Coords) (k0_t1 : Fin k0_t1_loop.trips), ∀ a, (k0_off59 i k0_t1) a + S4x1x8x1x128.size a ≤ S200x8x8x8x128.size a
  k0_off60_inb : ∀ (i : grid0.Coords) (k0_t1 : Fin k0_t1_loop.trips), ∀ a, (k0_off60 i k0_t1) a + S4x1x8x1x128.size a ≤ S200x8x8x8x128.size a
  k0_t13_ok : k0_t13_loop.OK
  k0_t14_ok : k0_t14_loop.OK
  k0_off61_inb : ∀ (k0_t13 : Fin k0_t13_loop.trips) (k0_t14 : Fin k0_t14_loop.trips), ∀ (r : Fin 16), ∀ a, (k0_off61 k0_t13 k0_t14 (BitVec.ofNat 32 (16 * r.val))) a + S16.size a ≤ S4096.size a
  k0_off62_inb : ∀ (k0_t13 : Fin k0_t13_loop.trips) (k0_t14 : Fin k0_t14_loop.trips), ∀ (r : Fin 2), ∀ a, (k0_off62 k0_t13 k0_t14 (BitVec.ofNat 32 (8 * r.val))) a + S1x1x1x1x16.size a ≤ S4x1x8x1x128.size a
  k0_off63_inb : ∀ (k0_t13 : Fin k0_t13_loop.trips) (k0_t14 : Fin k0_t14_loop.trips), ∀ (r : Fin 2), ∀ a, (k0_off63 k0_t13 k0_t14 (BitVec.ofNat 32 (1 + 8 * r.val))) a + S1x1x1x1x16.size a ≤ S4x1x8x1x128.size a
  k0_off64_inb : ∀ (k0_t13 : Fin k0_t13_loop.trips) (k0_t14 : Fin k0_t14_loop.trips), ∀ (r : Fin 2), ∀ a, (k0_off64 k0_t13 k0_t14 (BitVec.ofNat 32 (2 + 8 * r.val))) a + S1x1x1x1x16.size a ≤ S4x1x8x1x128.size a
  k0_off65_inb : ∀ (k0_t13 : Fin k0_t13_loop.trips) (k0_t14 : Fin k0_t14_loop.trips), ∀ (r : Fin 2), ∀ a, (k0_off65 k0_t13 k0_t14 (BitVec.ofNat 32 (3 + 8 * r.val))) a + S1x1x1x1x16.size a ≤ S4x1x8x1x128.size a
  k0_off66_inb : ∀ (k0_t13 : Fin k0_t13_loop.trips) (k0_t14 : Fin k0_t14_loop.trips), ∀ (r : Fin 2), ∀ a, (k0_off66 k0_t13 k0_t14 (BitVec.ofNat 32 (4 + 8 * r.val))) a + S1x1x1x1x16.size a ≤ S4x1x8x1x128.size a
  k0_off67_inb : ∀ (k0_t13 : Fin k0_t13_loop.trips) (k0_t14 : Fin k0_t14_loop.trips), ∀ (r : Fin 2), ∀ a, (k0_off67 k0_t13 k0_t14 (BitVec.ofNat 32 (5 + 8 * r.val))) a + S1x1x1x1x16.size a ≤ S4x1x8x1x128.size a
  k0_off68_inb : ∀ (k0_t13 : Fin k0_t13_loop.trips) (k0_t14 : Fin k0_t14_loop.trips), ∀ (r : Fin 2), ∀ a, (k0_off68 k0_t13 k0_t14 (BitVec.ofNat 32 (6 + 8 * r.val))) a + S1x1x1x1x16.size a ≤ S4x1x8x1x128.size a
  k0_off69_inb : ∀ (k0_t13 : Fin k0_t13_loop.trips) (k0_t14 : Fin k0_t14_loop.trips), ∀ (r : Fin 2), ∀ a, (k0_off69 k0_t13 k0_t14 (BitVec.ofNat 32 (7 + 8 * r.val))) a + S1x1x1x1x16.size a ≤ S4x1x8x1x128.size a
  k0_off70_inb : ∀ (i : grid0.Coords) (k0_t1 : Fin k0_t1_loop.trips), ∀ a, (k0_off70 i k0_t1) a + S4x1x8x1x128.size a ≤ S200x8x8x8x128.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scoped0 : DmaSems sig S_ := SemArray.consecutive 5 S_ hcc0_scoped0
abbrev cc0_scoped1 : DmaSems sig S_ := SemArray.consecutive 6 S_ hcc0_scoped1
abbrev cc0_scoped2 : DmaSems sig S_ := SemArray.consecutive 7 S_ hcc0_scoped2

class Facts : Prop extends Facts₀ where

variable [Facts]
-- ==== ReferenceIdeal.lean ====
abbrev S1024x200 : Shape := ⟨2, ![1024, 200]⟩
abbrev S100000x64 : Shape := ⟨2, ![100000, 64]⟩
abbrev S512x64 : Shape := ⟨2, ![512, 64]⟩
abbrev S2x64 : Shape := ⟨2, ![2, 64]⟩
abbrev S200 : Shape := ⟨1, ![200]⟩
abbrev S1x200 : Shape := ⟨2, ![1, 200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩

abbrev nBuf : Space → Nat
  | .hbm => 80
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x64, .f32⟩
  | .hbm, ⟨2, _⟩ => ⟨S512x64, .f32⟩
  | .hbm, ⟨3, _⟩ => ⟨S2x64, .f32⟩
  | .hbm, ⟨4, _⟩ => ⟨S200, .i32⟩
  | .hbm, ⟨5, _⟩ => ⟨S1x200, .i32⟩
  | .hbm, ⟨6, _⟩ => ⟨S1024x200, .i32⟩
  | .hbm, ⟨7, _⟩ => ⟨S_, .i32⟩
  | .hbm, ⟨8, _⟩ => ⟨S1024x200, .i32⟩
  | .hbm, ⟨9, _⟩ => ⟨S_, .i32⟩
  | .hbm, ⟨10, _⟩ => ⟨S1024x200, .i32⟩
  | .hbm, ⟨11, _⟩ => ⟨S1024x200, .i1⟩
  | .hbm, ⟨12, _⟩ => ⟨S_, .i32⟩
  | .hbm, ⟨13, _⟩ => ⟨S1024x200, .i32⟩
  | .hbm, ⟨14, _⟩ => ⟨S1024x200, .i32⟩
  | .hbm, ⟨15, _⟩ => ⟨S1024x200, .i32⟩
  | .hbm, ⟨16, _⟩ => ⟨S1024x200x1, .i32⟩
  | .hbm, ⟨17, _⟩ => ⟨S1, .i32⟩
  | .hbm, ⟨18, _⟩ => ⟨S_, .i32⟩
  | .hbm, ⟨19, _⟩ => ⟨S1024x200x1, .i32⟩
  | .hbm, ⟨20, _⟩ => ⟨S1024x200x1, .i1⟩
  | .hbm, ⟨21, _⟩ => ⟨S1x1x1, .i32⟩
  | .hbm, ⟨22, _⟩ => ⟨S1024x200x1, .i32⟩
  | .hbm, ⟨23, _⟩ => ⟨S1024x200x1, .i1⟩
  | .hbm, ⟨24, _⟩ => ⟨S1024x200x1, .i1⟩
  | .hbm, ⟨25, _⟩ => ⟨S_, .i1⟩
  | .hbm, ⟨26, _⟩ => ⟨S1024x200, .i1⟩
  | .hbm, ⟨27, _⟩ => ⟨S1024x200x64, .f32⟩
  | .hbm, ⟨28, _⟩ => ⟨S1024x200x64, .i1⟩
  | .hbm, ⟨29, _⟩ => ⟨S_, .f32⟩
  | .hbm, ⟨30, _⟩ => ⟨S1024x200x64, .f32⟩
  | .hbm, ⟨31, _⟩ => ⟨S1024x200x64, .f32⟩
  | .hbm, ⟨32, _⟩ => ⟨S_, .i32⟩
  | .hbm, ⟨33, _⟩ => ⟨S1024x200, .i32⟩
  | .hbm, ⟨34, _⟩ => ⟨S1024x200, .i1⟩
  | .hbm, ⟨35, _⟩ => ⟨S_, .i32⟩
  | .hbm, ⟨36, _⟩ => ⟨S1024x200, .i32⟩
  | .hbm, ⟨37, _⟩ => ⟨S1024x200, .i32⟩
  | .hbm, ⟨38, _⟩ => ⟨S1024x200, .i32⟩
  | .hbm, ⟨39, _⟩ => ⟨S1024x200x1, .i32⟩
  | .hbm, ⟨40, _⟩ => ⟨S1, .i32⟩
  | .hbm, ⟨41, _⟩ => ⟨S_, .i32⟩
  | .hbm, ⟨42, _⟩ => ⟨S1024x200x1, .i32⟩
  | .hbm, ⟨43, _⟩ => ⟨S1024x200x1, .i1⟩
  | .hbm, ⟨44, _⟩ => ⟨S1x1x1, .i32⟩
  | .hbm, ⟨45, _⟩ => ⟨S1024x200x1, .i32⟩
  | .hbm, ⟨46, _⟩ => ⟨S1024x200x1, .i1⟩
  | .hbm, ⟨47, _⟩ => ⟨S1024x200x1, .i1⟩
  | .hbm, ⟨48, _⟩ => ⟨S_, .i1⟩
  | .hbm, ⟨49, _⟩ => ⟨S1024x200, .i1⟩
  | .hbm, ⟨50, _⟩ => ⟨S1024x200x64, .f32⟩
  | .hbm, ⟨51, _⟩ => ⟨S1024x200x64, .i1⟩
  | .hbm, ⟨52, _⟩ => ⟨S_, .f32⟩
  | .hbm, ⟨53, _⟩ => ⟨S1024x200x64, .f32⟩
  | .hbm, ⟨54, _⟩ => ⟨S1024x200x64, .f32⟩
  | .hbm, ⟨55, _⟩ => ⟨S1024x200x64, .f32⟩
  | .hbm, ⟨56, _⟩ => ⟨S_, .i32⟩
  | .hbm, ⟨57, _⟩ => ⟨S1024x200, .i32⟩
  | .hbm, ⟨58, _⟩ => ⟨S1024x200, .i1⟩
  | .hbm, ⟨59, _⟩ => ⟨S_, .i32⟩
  | .hbm, ⟨60, _⟩ => ⟨S1024x200, .i32⟩
  | .hbm, ⟨61, _⟩ => ⟨S1024x200, .i32⟩
  | .hbm, ⟨62, _⟩ => ⟨S1024x200, .i32⟩
  | .hbm, ⟨63, _⟩ => ⟨S1024x200x1, .i32⟩
  | .hbm, ⟨64, _⟩ => ⟨S1, .i32⟩
  | .hbm, ⟨65, _⟩ => ⟨S_, .i32⟩
  | .hbm, ⟨66, _⟩ => ⟨S1024x200x1, .i32⟩
  | .hbm, ⟨67, _⟩ => ⟨S1024x200x1, .i1⟩
  | .hbm, ⟨68, _⟩ => ⟨S1x1x1, .i32⟩
  | .hbm, ⟨69, _⟩ => ⟨S1024x200x1, .i32⟩
  | .hbm, ⟨70, _⟩ => ⟨S1024x200x1, .i1⟩
  | .hbm, ⟨71, _⟩ => ⟨S1024x200x1, .i1⟩
  | .hbm, ⟨72, _⟩ => ⟨S_, .i1⟩
  | .hbm, ⟨73, _⟩ => ⟨S1024x200, .i1⟩
  | .hbm, ⟨74, _⟩ => ⟨S1024x200x64, .f32⟩
  | .hbm, ⟨75, _⟩ => ⟨S1024x200x64, .i1⟩
  | .hbm, ⟨76, _⟩ => ⟨S_, .f32⟩
  | .hbm, ⟨77, _⟩ => ⟨S1024x200x64, .f32⟩
  | .hbm, ⟨78, _⟩ => ⟨S1024x200x64, .f32⟩
  | .hbm, ⟨79, _⟩ => ⟨S1024x200x64, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v5 : Ref sig .tc := ⟨.hbm, 54, rfl⟩
abbrev main_v6 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v7 : Ref sig .tc := ⟨.hbm, 78, rfl⟩
abbrev main_v8 : Ref sig .tc := ⟨.hbm, 79, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x64_0_1 : S1024x200.BroadcastsInDim S1024x200x64 (![0, 1] : Fin 2 → Fin S1024x200x64.rank)
  bcast_S_S1024x200x64 : S_.BroadcastsInDim S1024x200x64 (![] : Fin 0 → Fin S1024x200x64.rank)
  gather_S100000x64_S1024x200x1_S1024x200x64_2_0_n_n_0_2_164_wf : GatherDims.WF S100000x64 S1024x200x1 S1024x200x64 [2] [0] [] [0] [] 2 ![1, 64]
  gather_S512x64_S1024x200x1_S1024x200x64_2_0_n_n_0_2_164_wf : GatherDims.WF S512x64 S1024x200x1 S1024x200x64 [2] [0] [] [0] [] 2 ![1, 64]
  gather_S2x64_S1024x200x1_S1024x200x64_2_0_n_n_0_2_164_wf : GatherDims.WF S2x64 S1024x200x1 S1024x200x64 [2] [0] [] [0] [] 2 ![1, 64]

variable [Facts₀]

def gather_S100000x64_S1024x200x1_S1024x200x64_2_0_n_n_0_2_164 : GatherDims S100000x64 S1024x200x1 S1024x200x64 where
  offsetDims := [2]
  collapsedSliceDims := [0]
  operandBatchingDims := []
  startIndicesBatchingDims := []
  startIndexMap := [0]
  indexVectorDim := 2
  sliceSizes := ![1, 64]
  wf := gather_S100000x64_S1024x200x1_S1024x200x64_2_0_n_n_0_2_164_wf
def gather_S512x64_S1024x200x1_S1024x200x64_2_0_n_n_0_2_164 : GatherDims S512x64 S1024x200x1 S1024x200x64 where
  offsetDims := [2]
  collapsedSliceDims := [0]
  operandBatchingDims := []
  startIndicesBatchingDims := []
  startIndexMap := [0]
  indexVectorDim := 2
  sliceSizes := ![1, 64]
  wf := gather_S512x64_S1024x200x1_S1024x200x64_2_0_n_n_0_2_164_wf
def gather_S2x64_S1024x200x1_S1024x200x64_2_0_n_n_0_2_164 : GatherDims S2x64 S1024x200x1 S1024x200x64 where
  offsetDims := [2]
  collapsedSliceDims := [0]
  operandBatchingDims := []
  startIndicesBatchingDims := []
  startIndexMap := [0]
  indexVectorDim := 2
  sliceSizes := ![1, 64]
  wf := gather_S2x64_S1024x200x1_S1024x200x64_2_0_n_n_0_2_164_wf

class Facts : Prop extends Facts₀ where

variable [Facts]
-- ==== Proof.PreRange.lean ====
/-
  The input domain's last conjunct read back: the token array passes `jnp.all((tokens ≥ 0) ∧ (tokens ≤ 99999))`
  with signed comparisons, so every token, as a natural number, is below 100000 (a word in [0, n] signed, n < 2^31,
  is at most n unsigned). Generic in the float instance: the floats' conjuncts are not used.
-/
import proofs.«203565_g79912161509654_cont_9to1_m_411_39_alg».proof.Pre_input_domain
import Idealize.ShloMosaic.Lib.ReduceAll

noncomputable section

namespace Cert.Pre_input_domain

open Idealize.ShloMosaic

/-- The rank-0 shape has one index. -/
instance subsingleton_S_ : Subsingleton S_.Idx := ⟨fun a b => funext fun d => d.elim0⟩

/-- A 32-bit word in [0, n] signed is at most n unsigned. -/
theorem toNat_le_of_signed (w : BitVec 32) (n : Nat) (h0 : (0 : Int) ≤ w.toInt) (hn : w.toInt ≤ (n : Int)) : w.toNat ≤ n := by
  have h := BitVec.toInt_eq_toNat_cond w
  have h32 := w.isLt
  split at h <;> omega

theorem tokens_lt {F : FTy → Type} [FloatOps F] [Facts] (a0 : IVec S1024x200 32) (a1 : FVec F S100000x64 .f32)
    (a2 : FVec F S512x64 .f32) (a3 : FVec F S2x64 .f32) (h : fn (F := F) a0 a1 a2 a3 = fun _ => 1#1) :
    ∀ i, (a0 i).toNat < 100000 := by
  intro i
  have e := congrFun h (fun d => d.elim0)
  dsimp only [fn, fn_part1] at e
  -- the outer conjunction: the floats' part, and the reduction of the tokens' mask
  obtain ⟨-, e⟩ := IntOp.andi_eq_one.1 e
  -- every entry of the mask is 1
  have ei := Host.reduce_andi_all _ _ _ _ _ e i
  obtain ⟨e0, e1⟩ := IntOp.andi_eq_one.1 ei
  have h0 : (0 : Int) ≤ (a0 i).toInt := by
    have := IntOp.cmpi_sge.1 e0
    simpa [broadcastInDim, constantI] using this
  have h1 : (a0 i).toInt ≤ 99999 := by
    have := IntOp.cmpi_sle.1 e1
    simpa [broadcastInDim, constantI] using this
  have := toNat_le_of_signed (a0 i) 99999 h0 (by exact_mod_cast h1)
  omega

end Cert.Pre_input_domain

end
-- ==== Proof.RefRun.lean ====
/-
  The reference's run, by hand. Its entry function is a straight line of tensor operations once the three
  table lookups (and the index selection each of them calls) are unfolded at their call sites: seventy-six operations,
  each writing a buffer of its own. Every execution terminates with the result buffer at the operations' composed
  term `out` of the four arguments' launch contents, and the arguments unchanged.

  `out` is the sum, left to right, of three lookups: the token table at the tokens, the position table at the
  position l of entry (b, l) (an iota along the sequence axis, broadcast over the batch), the segment table at the
  constant 0. A lookup with row count n wraps a negative index by n, gathers the row, and keeps it where the
  wrapped index lies in [0, n - 1] (a quiet NaN elsewhere).
-/
import proofs.«203565_g79912161509654_cont_9to1_m_411_39_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-! ## The value -/

/-- A lookup's index array: an index below 0 is wrapped by the row count `n`; then a trailing unit axis. -/
def wrapIdx (n : BitVec 32) (idx : IVec S1024x200 32) : IVec S1024x200x1 32 :=
  broadcastInDim S1024x200x1 ![0, 1] bcast_S1024x200_S1024x200x1_0_1
    (select (cmpi .slt idx (broadcastInDim S1024x200 ![] bcast_S_S1024x200 (constantI S_ 32 0#32)))
      (addi idx (broadcastInDim S1024x200 ![] bcast_S_S1024x200 (constantI S_ 32 n))) idx)

/-- A lookup's mask: the wrapped index within [0, hi] signed, over the unit axis, along the row. -/
def inRange (hi : BitVec 32) (i : IVec S1024x200x1 32) : IVec S1024x200x64 1 :=
  broadcastInDim S1024x200x64 ![0, 1] bcast_S1024x200_S1024x200x64_0_1
    (Host.reduce IntOp.andi
      (andi (cmpi .sge i (broadcastInDim S1024x200x1 ![] bcast_S_S1024x200x1 (constantI S_ 32 0#32)))
        (cmpi .sle i (broadcastInDim S1024x200x1 ![0, 1, 2] bcast_S1x1x1_S1024x200x1_0_1_2
          (broadcastInDim S1x1x1 ![2] bcast_S1_S1x1x1_2 (constantI S1 32 hi)))))
      (constantI S_ 1 1#1) reducesTo_S1024x200x1_S1024x200_d2 h_S_)

/-- The value a lookup leaves outside the table: a quiet NaN everywhere. -/
def nanFill : FVec F S1024x200x64 .f32 :=
  broadcastInDim S1024x200x64 ![] bcast_S_S1024x200x64 (constant S_ .f32 0x7FC00000#32)

/-- The lookup in the 100000-row table. -/
def take0 (t : FVec F S100000x64 .f32) (idx : IVec S1024x200 32) : FVec F S1024x200x64 .f32 :=
  select (inRange 99999#32 (wrapIdx 100000#32 idx)) (Host.gather gather_S100000x64_S1024x200x1_S1024x200x64_2_0_n_n_0_2_164 t (wrapIdx 100000#32 idx)) nanFill

/-- The lookup in the 512-row table. -/
def take1 (t : FVec F S512x64 .f32) (idx : IVec S1024x200 32) : FVec F S1024x200x64 .f32 :=
  select (inRange 511#32 (wrapIdx 512#32 idx)) (Host.gather gather_S512x64_S1024x200x1_S1024x200x64_2_0_n_n_0_2_164 t (wrapIdx 512#32 idx)) nanFill

/-- The lookup in the 2-row table. -/
def take2 (t : FVec F S2x64 .f32) (idx : IVec S1024x200 32) : FVec F S1024x200x64 .f32 :=
  select (inRange 1#32 (wrapIdx 2#32 idx)) (Host.gather gather_S2x64_S1024x200x1_S1024x200x64_2_0_n_n_0_2_164 t (wrapIdx 2#32 idx)) nanFill

/-- The position indices: entry (b, l) is l. -/
def pos : IVec S1024x200 32 :=
  broadcastInDim S1024x200 ![0, 1] bcast_S1x200_S1024x200_0_1 (broadcastInDim S1x200 ![1] bcast_S200_S1x200_1 (iotaInDim S200 32 0))

/-- The segment indices: 0 everywhere. -/
def seg : IVec S1024x200 32 := broadcastInDim S1024x200 ![] bcast_S_S1024x200 (constantI S_ 32 0#32)

/-- The result as a function of the four arguments' contents. -/
def out (a0 : IVec S1024x200 32) (a1 : FVec F S100000x64 .f32) (a2 : FVec F S512x64 .f32) (a3 : FVec F S2x64 .f32) :
    FVec F S1024x200x64 .f32 :=
  addf (addf (take0 a1 a0) (take1 a2 pos)) (take2 a3 seg)

/-! ## The operations -/

/-- The entry function's operations in order, the calls unfolded: five of its own (the positions, the segment zero), the first lookup's twenty-three
    (the index selection's one among them), the second's, the first sum, the third's, the second sum. -/
abbrev ops : List (HloOp τ sig (Elt F)) :=
  [ nullary main_v0 (iotaInDim S200 32 0),
    unary main_v0 main_v1 (broadcastInDim S1x200 ![1] bcast_S200_S1x200_1 : (⟨S200, .i32⟩ : BufTy).Contents (Elt F) → (⟨S1x200, .i32⟩ : BufTy).Contents (Elt F)),
    unary main_v1 main_v2 (broadcastInDim S1024x200 ![0, 1] bcast_S1x200_S1024x200_0_1 : (⟨S1x200, .i32⟩ : BufTy).Contents (Elt F) → (⟨S1024x200, .i32⟩ : BufTy).Contents (Elt F)),
    nullary main_c (constantI S_ 32 0#32),
    unary main_c main_v3 (broadcastInDim S1024x200 ![] bcast_S_S1024x200 : (⟨S_, .i32⟩ : BufTy).Contents (Elt F) → (⟨S1024x200, .i32⟩ : BufTy).Contents (Elt F)),
    TRef.nullary main_call0.c (constantI S_ 32 0#32),
    TRef.unary main_call0.c main_call0.v0 (broadcastInDim S1024x200 ![] bcast_S_S1024x200),
    TRef.binary (.of main_arg0 : TRef sig ⟨S1024x200, .i32⟩) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg0 : TRef sig ⟨S1024x200, .i32⟩) main_call0.v2 main_call0.v3 addi,
    TRef.ternary main_call0.v1 main_call0.v3 (.of main_arg0 : TRef sig ⟨S1024x200, .i32⟩) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg1 : TRef sig ⟨S100000x64, .f32⟩) main_call0.v5 main_call0.v13 (fun x i => Host.gather gather_S100000x64_S1024x200x1_S1024x200x64_2_0_n_n_0_2_164 x i),
    TRef.unary main_call0.v12 main_call0.v14 (broadcastInDim S1024x200x64 ![0, 1] bcast_S1024x200_S1024x200x64_0_1),
    TRef.nullary main_call0.cst (constant S_ .f32 0x7FC00000#32),
    TRef.unary main_call0.cst main_call0.v15 (broadcastInDim S1024x200x64 ![] bcast_S_S1024x200x64),
    TRef.ternary main_call0.v14 main_call0.v13 main_call0.v15 main_call0.v16 select,
    TRef.nullary main_call1.c (constantI S_ 32 0#32),
    TRef.unary main_call1.c main_call1.v0 (broadcastInDim S1024x200 ![] bcast_S_S1024x200),
    TRef.binary (.of main_v2 : TRef sig ⟨S1024x200, .i32⟩) main_call1.v0 main_call1.v1 (cmpi .slt),
    TRef.nullary main_call1.c_0 (constantI S_ 32 512#32),
    TRef.unary main_call1.c_0 main_call1.v2 (broadcastInDim S1024x200 ![] bcast_S_S1024x200),
    TRef.binary (.of main_v2 : TRef sig ⟨S1024x200, .i32⟩) main_call1.v2 main_call1.v3 addi,
    TRef.ternary main_call1.v1 main_call1.v3 (.of main_v2 : TRef sig ⟨S1024x200, .i32⟩) main_call1.call0.v0 select,
    TRef.unary main_call1.call0.v0 main_call1.v5 (broadcastInDim S1024x200x1 ![0, 1] bcast_S1024x200_S1024x200x1_0_1),
    TRef.nullary main_call1.c_1 (constantI S1 32 511#32),
    TRef.nullary main_call1.c_2 (constantI S_ 32 0#32),
    TRef.unary main_call1.c_2 main_call1.v6 (broadcastInDim S1024x200x1 ![] bcast_S_S1024x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x200x1 ![0, 1, 2] bcast_S1x1x1_S1024x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x200x1_S1024x200_d2 h_S_),
    TRef.binary (.of main_arg2 : TRef sig ⟨S512x64, .f32⟩) main_call1.v5 main_call1.v13 (fun x i => Host.gather gather_S512x64_S1024x200x1_S1024x200x64_2_0_n_n_0_2_164 x i),
    TRef.unary main_call1.v12 main_call1.v14 (broadcastInDim S1024x200x64 ![0, 1] bcast_S1024x200_S1024x200x64_0_1),
    TRef.nullary main_call1.cst (constant S_ .f32 0x7FC00000#32),
    TRef.unary main_call1.cst main_call1.v15 (broadcastInDim S1024x200x64 ![] bcast_S_S1024x200x64),
    TRef.ternary main_call1.v14 main_call1.v13 main_call1.v15 main_call1.v16 select,
    binary main_v4 main_v5 main_v6 (addf : (⟨S1024x200x64, .f32⟩ : BufTy).Contents (Elt F) → (⟨S1024x200x64, .f32⟩ : BufTy).Contents (Elt F) → (⟨S1024x200x64, .f32⟩ : BufTy).Contents (Elt F)),
    TRef.nullary main_call2.c (constantI S_ 32 0#32),
    TRef.unary main_call2.c main_call2.v0 (broadcastInDim S1024x200 ![] bcast_S_S1024x200),
    TRef.binary (.of main_v3 : TRef sig ⟨S1024x200, .i32⟩) main_call2.v0 main_call2.v1 (cmpi .slt),
    TRef.nullary main_call2.c_0 (constantI S_ 32 2#32),
    TRef.unary main_call2.c_0 main_call2.v2 (broadcastInDim S1024x200 ![] bcast_S_S1024x200),
    TRef.binary (.of main_v3 : TRef sig ⟨S1024x200, .i32⟩) main_call2.v2 main_call2.v3 addi,
    TRef.ternary main_call2.v1 main_call2.v3 (.of main_v3 : TRef sig ⟨S1024x200, .i32⟩) main_call2.call0.v0 select,
    TRef.unary main_call2.call0.v0 main_call2.v5 (broadcastInDim S1024x200x1 ![0, 1] bcast_S1024x200_S1024x200x1_0_1),
    TRef.nullary main_call2.c_1 (constantI S1 32 1#32),
    TRef.nullary main_call2.c_2 (constantI S_ 32 0#32),
    TRef.unary main_call2.c_2 main_call2.v6 (broadcastInDim S1024x200x1 ![] bcast_S_S1024x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x200x1 ![0, 1, 2] bcast_S1x1x1_S1024x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x200x1_S1024x200_d2 h_S_),
    TRef.binary (.of main_arg3 : TRef sig ⟨S2x64, .f32⟩) main_call2.v5 main_call2.v13 (fun x i => Host.gather gather_S2x64_S1024x200x1_S1024x200x64_2_0_n_n_0_2_164 x i),
    TRef.unary main_call2.v12 main_call2.v14 (broadcastInDim S1024x200x64 ![0, 1] bcast_S1024x200_S1024x200x64_0_1),
    TRef.nullary main_call2.cst (constant S_ .f32 0x7FC00000#32),
    TRef.unary main_call2.cst main_call2.v15 (broadcastInDim S1024x200x64 ![] bcast_S_S1024x200x64),
    TRef.ternary main_call2.v14 main_call2.v13 main_call2.v15 main_call2.v16 select,
    binary main_v6 main_v7 main_v8 (addf : (⟨S1024x200x64, .f32⟩ : BufTy).Contents (Elt F) → (⟨S1024x200x64, .f32⟩ : BufTy).Contents (Elt F) → (⟨S1024x200x64, .f32⟩ : BufTy).Contents (Elt F)) ]

set_option maxRecDepth 4096 in
set_option maxHeartbeats 2000000 in
/-- The entry function is that straight line: the callees unfolded at their calls, sequencing reassociated. -/
theorem main_eq (c : Dev nD) : main (F := F) c = seq ops := by
  simp only [main, fn_take.body, fn_take_0.body, fn_take_2.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub ..⟩

/-! ## The fold at the result and at the arguments -/

attribute [local irreducible] Host.reduce Host.gather in
set_option maxRecDepth 8192 in
/-- What the result buffer holds after the line: each operation's result read at its own buffer, every other
    buffer passed through; the composed term is `out` of the arguments' contents, by unfolding. The reduction and the
    gather are kept folded meanwhile: the equation never looks inside them. -/
theorem out_eq (V : Valuation τ sig (Elt F)) :
    after ops V (Proc.devRef .tc main_v8)
      = out (V (Proc.devRef .tc main_arg0)) (V (Proc.devRef .tc main_arg1)) (V (Proc.devRef .tc main_arg2)) (V (Proc.devRef .tc main_arg3)) := by
  after_results_simp
  rfl

/-- No operation writes an argument. -/
theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp
theorem arg3_eq (V : Valuation τ sig (Elt F)) : after ops V (Proc.devRef .tc main_arg3) = V (Proc.devRef .tc main_arg3) := by
  after_results_simp

/-! ## The run -/

/-- On every device, for any float values, from any memory with zero counters: every weakly fair execution of the
    entry function terminates with the result at `out` of the arguments' launch contents and the arguments unchanged. -/
theorem run (m' : (ℓ : Loc nD τ sig) → Buf (Elt F) ℓ) (g' : Dev nD → PrngReg) :
    θ_run (defs (F := F)) (onTc (τ := τ) (main (F := F))) ⟨m', fun _ => 0, g'⟩ fun r => ∀ c : Dev nD,
      r.2.mem ((c.tc : Thread nD τ).loc main_v8)
          = out (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono (fun _ h c => ⟨(h c main_v8).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m' g')

end Cert.ReferenceIdeal.RefValue

end
-- ==== Proof.Spec.lean ====
/-
  What the lookup kernel computes, as ONE function of the four arrays the SparseCore call is handed, index by index,
  for any float instance. The call's operands are the token ids position-major (entry `l * 1024 + b` is the token of
  batch row `b` at position `l`), the word table feature-major (`64 × 100000`), the position table feature-major and
  flattened (entry `d * 512 + l`), and the segment table flattened (entry `d` is segment 0's feature `d`). Its result
  has shape `200 × 8 × 8 × 8 × 128`: entry `(l, d / 8, b / 128, d % 8, b % 128)` is the word table's feature `d` of the
  token at `(b, l)`, plus (the position table's feature `d` at position `l` plus segment 0's feature `d`) — the sum
  bracketed the way the kernel forms it: the position-and-segment bias first, then the looked-up feature added to it.
-/
import Idealize.ShloMosaic.PureOps.Ideal
import Idealize.ShloMosaic.Lib.ValueIdx

noncomputable section

namespace Cert.Proof.Spec

open Idealize.ShloMosaic Idealize.ShloMosaic.ValueIdx

abbrev STok : Shape := ⟨1, ![204800]⟩
abbrev SEmb : Shape := ⟨2, ![64, 100000]⟩
abbrev SPos : Shape := ⟨1, ![32768]⟩
abbrev SSeg : Shape := ⟨1, ![128]⟩
abbrev SOut : Shape := ⟨5, ![200, 8, 8, 8, 128]⟩

/-- The table row a token word names: the word's value, reduced below the table's height so that the function is
    total (a token in range is its own residue: `col_of_lt`). -/
def col (w : BitVec 32) : Fin 100000 := ⟨w.toNat % 100000, Nat.mod_lt _ (by norm_num)⟩

theorem col_of_lt {w : BitVec 32} (h : w.toNat < 100000) : col w = ⟨w.toNat, h⟩ :=
  Fin.ext (Nat.mod_eq_of_lt h)

/-- Feature `d` from its two coordinates in the result's layout: `d = dh * 8 + dl`. -/
def feat (dh dl : Fin 8) : Fin 64 := ⟨dh.val * 8 + dl.val, by omega⟩
/-- Batch row `b` from its two coordinates in the result's layout: `b = bh * 128 + bl`. -/
def brow (bh : Fin 8) (bl : Fin 128) : Fin 1024 := ⟨bh.val * 128 + bl.val, by omega⟩
/-- Where the token of batch row `b` at position `l` sits in the position-major token list. -/
def tokAt (l : Fin 200) (b : Fin 1024) : Fin 204800 := ⟨l.val * 1024 + b.val, by omega⟩
/-- Where feature `d` at position `l` sits in the flattened feature-major position table. -/
def posAt (d : Fin 64) (l : Fin 200) : Fin 32768 := ⟨d.val * 512 + l.val, by omega⟩
/-- Where segment 0's feature `d` sits in the flattened segment table. -/
def segAt (d : Fin 64) : Fin 128 := ⟨d.val, by omega⟩

variable {F : FTy → Type} [FloatOps F]

/-- One entry of the call's result, from the entry's five coordinates. -/
def scOutAt (tok : IVec STok 32) (emb : FVec F SEmb .f32) (pos : FVec F SPos .f32) (seg : FVec F SSeg .f32)
    (l : Fin 200) (dh bh dl : Fin 8) (bl : Fin 128) : F .f32 :=
  FloatOps.addf (emb (ix2 (feat dh dl) (col (tok (ix1 (tokAt l (brow bh bl)))))))
    (FloatOps.addf (pos (ix1 (posAt (feat dh dl) l))) (seg (ix1 (segAt (feat dh dl)))))

/-- The call's whole result. -/
def scOut (tok : IVec STok 32) (emb : FVec F SEmb .f32) (pos : FVec F SPos .f32) (seg : FVec F SSeg .f32) : FVec F SOut .f32 :=
  fun j => scOutAt tok emb pos seg (j 0) (j 1) (j 2) (j 3) (j 4)

theorem scOut_apply (tok : IVec STok 32) (emb : FVec F SEmb .f32) (pos : FVec F SPos .f32) (seg : FVec F SSeg .f32)
    (l : Fin 200) (dh bh dl : Fin 8) (bl : Fin 128) :
    scOut tok emb pos seg (ix5 l dh bh dl bl) = scOutAt tok emb pos seg l dh bh dl bl := rfl

end Cert.Proof.Spec

end
-- ==== Proof.HostValue.lean ====
/-
  The host operations around the call, as functions of the arrays' contents. The wrapper hands the call the token
  ids transposed and flattened (position-major), the word table transposed (feature-major), the position table
  transposed and flattened, and the segment table flattened; the call's five-axis result is then permuted by
  `[2, 4, 0, 1, 3]` and flattened to `1024 × 200 × 64`. Each function below is the composition of the layout
  operations @main applies, spelled with the same operation and the same stated shape relation, so that the
  contents @main leaves in each buffer are these terms.
-/
import proofs.«203565_g79912161509654_cont_9to1_m_411_39_alg».proof.KernelIdeal
import proofs.«203565_g79912161509654_cont_9to1_m_411_39_alg».proof.Proof.Spec

noncomputable section

namespace Cert.KernelIdeal.HostValue

open Idealize.ShloMosaic Cert.KernelIdeal Cert.KernelIdeal.Facts₀

variable {F : FTy → Type} [FloatOps F] [Cert.KernelIdeal.Facts]

/-- The token ids as the call reads them: transposed to `200 × 1024`, then flattened in row-major order. -/
def tokOf (a0 : IVec S1024x200 32) : IVec S204800 32 :=
  shapeCast S204800 (transpose S200x1024 [1, 0] a0 transposes_S1024x200_S200x1024_1_0) shapeCasts_S200x1024_S204800

/-- The word table as the call reads it: transposed to `64 × 100000`. -/
def embOf (a1 : FVec F S100000x64 .f32) : FVec F S64x100000 .f32 :=
  transpose S64x100000 [1, 0] a1 transposes_S100000x64_S64x100000_1_0

/-- The position table as the call reads it: transposed to `64 × 512`, then flattened. -/
def posOf (a2 : FVec F S512x64 .f32) : FVec F S32768 .f32 :=
  shapeCast S32768 (transpose S64x512 [1, 0] a2 transposes_S512x64_S64x512_1_0) shapeCasts_S64x512_S32768

/-- The segment table as the call reads it: flattened. -/
def segOf (a3 : FVec F S2x64 .f32) : FVec F S128 .f32 :=
  shapeCast S128 a3 shapeCasts_S2x64_S128

/-- What the wrapper makes of the call's result: permuted by `[2, 4, 0, 1, 3]`, then flattened to `1024 × 200 × 64`. -/
def tailOf (o : FVec F S200x8x8x8x128 .f32) : FVec F S1024x200x64 .f32 :=
  shapeCast S1024x200x64
    (transpose S8x128x200x8x8 [2, 4, 0, 1, 3] o transposes_S200x8x8x8x128_S8x128x200x8x8_2_4_0_1_3)
    shapeCasts_S8x128x200x8x8_S1024x200x64

/-- The whole program's result as a function of its four arguments, given what the call computes. -/
def hostOut (a0 : IVec S1024x200 32) (a1 : FVec F S100000x64 .f32) (a2 : FVec F S512x64 .f32) (a3 : FVec F S2x64 .f32) :
    FVec F S1024x200x64 .f32 :=
  tailOf (Cert.Proof.Spec.scOut (tokOf a0) (embOf a1) (posOf a2) (segOf a3))

end Cert.KernelIdeal.HostValue

end
-- ==== Proof.HostValueAt.lean ====
/-
  The host operations read at an index, and with them the whole program's result at `(b, l, d)`.
  A flattening keeps the row-major position and a transposition permutes the coordinates, so each operand of the
  call, read where the call reads it, is one entry of the corresponding argument:
  the token list at `l * 1024 + b` is the token of row `b` at position `l`; the feature-major word table at `(d, c)` is
  the word table at `(c, d)`; the flattened feature-major position table at `d * 512 + l` is the position table at
  `(l, d)`; the flattened segment table at `d` is segment `0`'s feature `d`. The result's entry `(b, l, d)` has row-major
  position `(b * 200 + l) * 64 + d`, which in `8 × 128 × 200 × 8 × 8` is `(b / 128, b % 128, l, d / 8, d % 8)`; the
  permutation `[2, 4, 0, 1, 3]` reads it from the call's result at `(l, d / 8, b / 128, d % 8, b % 128)`.
-/
import proofs.«203565_g79912161509654_cont_9to1_m_411_39_alg».proof.Proof.HostValue
import Idealize.ShloMosaic.Lib.ValueLayout

noncomputable section

namespace Cert.KernelIdeal.HostValue

open Idealize.ShloMosaic Idealize.ShloMosaic.ValueIdx Cert.KernelIdeal Cert.Proof.Spec

variable {F : FTy → Type} [FloatOps F] [Cert.KernelIdeal.Facts]

/-- The token list at `l * 1024 + b` is the token of batch row `b` at position `l`. -/
theorem tokOf_apply (a0 : IVec S1024x200 32) (l : Fin 200) (b : Fin 1024) :
    tokOf a0 (ix1 (tokAt l b)) = a0 (ix2 b l) := by
  unfold tokOf
  refine (shapeCast_apply _ _ (ix1 (tokAt l b)) (ix2 l b) ?_).trans (transpose_ix2_apply a0 _ l b)
  rw [Shape.rowMajor_val_two, Shape.rowMajor_val_one]
  rfl

/-- The feature-major word table at `(d, c)` is the word table at `(c, d)`. -/
theorem embOf_apply (a1 : FVec F S100000x64 .f32) (d : Fin 64) (c : Fin 100000) :
    embOf a1 (ix2 d c) = a1 (ix2 c d) :=
  transpose_ix2_apply a1 _ d c

/-- The flattened feature-major position table at `d * 512 + l` is the position table at `(l, d)`. -/
theorem posOf_apply (a2 : FVec F S512x64 .f32) (d : Fin 64) (l : Fin 200) :
    posOf a2 (ix1 (posAt d l)) = a2 (ix2 (⟨l.val, by omega⟩ : Fin 512) d) := by
  unfold posOf
  refine (shapeCast_apply _ _ (ix1 (posAt d l)) (ix2 d (⟨l.val, by omega⟩ : Fin 512)) ?_).trans
    (transpose_ix2_apply a2 _ d _)
  rw [Shape.rowMajor_val_two, Shape.rowMajor_val_one]
  rfl

/-- The flattened segment table at `d` is segment `0`'s feature `d`. -/
theorem segOf_apply (a3 : FVec F S2x64 .f32) (d : Fin 64) :
    segOf a3 (ix1 (segAt d)) = a3 (ix2 (0 : Fin 2) d) := by
  unfold segOf
  refine shapeCast_apply _ _ (ix1 (segAt d)) (ix2 (0 : Fin 2) d) ?_
  rw [Shape.rowMajor_val_two, Shape.rowMajor_val_one]
  show 0 * 64 + d.val = d.val
  omega

/-- The wrapper's result at `(b, l, d)` is the call's result at `(l, d / 8, b / 128, d % 8, b % 128)`. -/
theorem tailOf_apply (o : FVec F S200x8x8x8x128 .f32) (b : Fin 1024) (l : Fin 200) (d : Fin 64) :
    tailOf o (ix3 b l d)
      = o (ix5 l (⟨d.val / 8, by omega⟩ : Fin 8) (⟨b.val / 128, by omega⟩ : Fin 8)
            (⟨d.val % 8, by omega⟩ : Fin 8) (⟨b.val % 128, by omega⟩ : Fin 128)) := by
  unfold tailOf
  refine (shapeCast_apply _ _ (ix3 b l d)
    (ix5 (⟨b.val / 128, by omega⟩ : Fin 8) (⟨b.val % 128, by omega⟩ : Fin 128) l
      (⟨d.val / 8, by omega⟩ : Fin 8) (⟨d.val % 8, by omega⟩ : Fin 8)) ?_).trans ?_
  · rw [Shape.rowMajor_val_five, Shape.rowMajor_val_three]
    show ((((b.val / 128) * 128 + b.val % 128) * 200 + l.val) * 8 + d.val / 8) * 8 + d.val % 8
      = (b.val * 200 + l.val) * 64 + d.val
    omega
  · exact transpose_apply _ o _ _ _ fun c => match c with
      | ⟨0, _⟩ => rfl | ⟨1, _⟩ => rfl | ⟨2, _⟩ => rfl | ⟨3, _⟩ => rfl | ⟨4, _⟩ => rfl

/-- The program's result at `(b, l, d)`, for any float instance: the word table's feature `d` of the token at `(b, l)`
    (its word reduced below the table's height), added to the sum of the position table's feature `d` at position `l`
    and segment `0`'s feature `d`. -/
theorem hostOut_apply_addf (a0 : IVec S1024x200 32) (a1 : FVec F S100000x64 .f32) (a2 : FVec F S512x64 .f32)
    (a3 : FVec F S2x64 .f32) (b : Fin 1024) (l : Fin 200) (d : Fin 64) :
    hostOut a0 a1 a2 a3 (ix3 b l d)
      = FloatOps.addf (a1 (ix2 (col (a0 (ix2 b l))) d))
          (FloatOps.addf (a2 (ix2 (⟨l.val, by omega⟩ : Fin 512) d)) (a3 (ix2 (0 : Fin 2) d))) := by
  have hf : feat (⟨d.val / 8, by omega⟩ : Fin 8) (⟨d.val % 8, by omega⟩ : Fin 8) = d :=
    Fin.ext (show d.val / 8 * 8 + d.val % 8 = d.val by omega)
  have hb : brow (⟨b.val / 128, by omega⟩ : Fin 8) (⟨b.val % 128, by omega⟩ : Fin 128) = b :=
    Fin.ext (show b.val / 128 * 128 + b.val % 128 = b.val by omega)
  unfold hostOut
  rw [tailOf_apply, scOut_apply]
  unfold scOutAt
  rw [hf, hb, tokOf_apply, embOf_apply, posOf_apply, segOf_apply]

/-- At the ideal instance, with every token below the table's height: the sum of extended reals
    `a1[a0[b, l], d] + (a2[l, d] + a3[0, d])`. -/
theorem hostOut_apply (a0 : IVec S1024x200 32) (a1 : FVec Ideal S100000x64 .f32) (a2 : FVec Ideal S512x64 .f32)
    (a3 : FVec Ideal S2x64 .f32) (hr : ∀ i, (a0 i).toNat < 100000) (b : Fin 1024) (l : Fin 200) (d : Fin 64) :
    hostOut (F := Ideal) a0 a1 a2 a3 (ix3 b l d)
      = (a1 (ix2 (⟨(a0 (ix2 b l)).toNat, hr _⟩ : Fin 100000) d)
          + (a2 (ix2 (⟨l.val, by omega⟩ : Fin 512) d) + a3 (ix2 (0 : Fin 2) d)) : EReal) := by
  rw [hostOut_apply_addf, col_of_lt (hr _)]
  rfl

end Cert.KernelIdeal.HostValue

end
-- ==== Proof.RefValue.lean ====
/-
  The reference's value read at an index, at the ideal values, for tokens in range.

  Entry (b, l, d) of the result is  Embead[tokens[b, l], d] + PosEmbead[l, d] + SegEmbead[0, d],  added left to right.
  Each of the three summands is a lookup: the index (a token, the position l, the constant 0) is not negative, so it is
  not wrapped; it is at most the last row's number, so the lookup's mask is 1 there and the gathered row is kept; and the
  gather reads the row the index names, the clamp into the table being the identity.
-/
import proofs.«203565_g79912161509654_cont_9to1_m_411_39_alg».proof.Proof.RefRun
import Idealize.ShloMosaic.Lib.ValueIdx
import Idealize.ShloMosaic.Lib.ReduceAll

noncomputable section

namespace Cert.ReferenceIdeal.RefValue

open Cert.ReferenceIdeal Idealize.ShloMosaic Idealize.ShloMosaic.ValueIdx
open Cert.ReferenceIdeal.Facts₀

/-! ## A gather of whole rows through a three-axis index array -/

section Rows
variable {α : Type}

/-- The dimension numbers of a row lookup: table `[N, C]`, row numbers `[R, L, 1]`, result `[R, L, C]`. The table's
    row axis is collapsed and is the one a row number addresses; a whole row (one by `C`) is taken and runs along the
    result's last axis. -/
abbrev rowsDims (N C R L : Nat)
    (wf : GatherDims.WF ⟨2, ![N, C]⟩ ⟨3, ![R, L, 1]⟩ ⟨3, ![R, L, C]⟩ [2] [0] [] [0] [] 2 ![1, C]) :
    GatherDims ⟨2, ![N, C]⟩ ⟨3, ![R, L, 1]⟩ ⟨3, ![R, L, C]⟩ where
  offsetDims := [2]
  collapsedSliceDims := [0]
  operandBatchingDims := []
  startIndicesBatchingDims := []
  startIndexMap := [0]
  indexVectorDim := 2
  sliceSizes := ![1, C]
  wf := wf

/-- The gather read at (b, l, c): entry c of the row whose number is the index at (b, l, 0), read signed and
    clamped into [0, N - 1]. -/
theorem gather_rows_apply {N C R L w : Nat} (hN : 0 < N)
    (wf : GatherDims.WF ⟨2, ![N, C]⟩ ⟨3, ![R, L, 1]⟩ ⟨3, ![R, L, C]⟩ [2] [0] [] [0] [] 2 ![1, C])
    (x : (⟨2, ![N, C]⟩ : Shape).Idx → α) (idx : IVec ⟨3, ![R, L, 1]⟩ w) (b : Fin R) (l : Fin L) (c : Fin C) :
    Host.gather (rowsDims N C R L wf) x idx (ix3 b l c)
      = x (ix2 ⟨min (idx (ix3 b l (0 : Fin 1))).toInt.toNat (N - 1), by omega⟩ c) := by
  unfold Host.gather
  congr 1
  funext a
  refine Fin.ext ?_
  match a with
  | ⟨0, _⟩ =>
    -- the row axis: the clamped start; no batching and no offset coordinate there
    show (rowsDims N C R L wf).start (ix3 b l c) idx 0 + (rowsDims N C R L wf).batchCoord (ix3 b l c) 0
      + (rowsDims N C R L wf).offCoord (ix3 b l c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R L wf).startIndexMap from List.mem_singleton.mpr rfl)]
    have hsi : (rowsDims N C R L wf).siIdx (ix3 b l c) ⟨List.idxOf (0 : Fin 2) (rowsDims N C R L wf).startIndexMap,
        List.idxOf_lt_length_iff.2 (List.mem_singleton.mpr rfl)⟩ = ix3 b l (0 : Fin 1) := by
      funext q; refine Fin.ext ?_
      match q with
      | ⟨0, _⟩ => rfl
      | ⟨1, _⟩ => rfl
      | ⟨2, _⟩ => rfl
    rw [hsi]
    rfl
  | ⟨1, _⟩ =>
    -- the entry axis: start 0, no batching, the result's last coordinate as the offset
    show (rowsDims N C R L wf).start (ix3 b l c) idx 1 + (rowsDims N C R L wf).batchCoord (ix3 b l c) 1
      + (rowsDims N C R L wf).offCoord (ix3 b l c) 1 = c.val
    have hs : (rowsDims N C R L wf).start (ix3 b l c) idx 1 = 0 := by
      unfold GatherDims.start
      rw [dif_neg (show (1 : Fin 2) ∉ ([0] : List (Fin 2)) by decide)]
    have hk : (1 : Fin 2) ∈ (rowsDims N C R L wf).sKept :=
      (GatherDims.mem_sKept _ _).mpr ⟨(show (1 : Fin 2) ∉ ([0] : List (Fin 2)) by decide), List.not_mem_nil⟩
    rw [hs, GatherDims.batchCoord_eq_zero _ _ _ List.not_mem_nil]
    unfold GatherDims.offCoord
    rw [dif_pos hk]
    simp only [Nat.zero_add, Nat.add_zero]
    rfl

end Rows

/-! ## A conjunction over a list that meets only 1s -/

/-- A left fold by `and` from 1 over words that are all 1 is 1. -/
theorem foldl_andi_all {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_all f hf l

variable [Cert.ReferenceIdeal.Facts]

/-! ## The pieces of a lookup at an index -/

/-- The unit axis appended: entry (b, l, z) is entry (b, l). -/
theorem unitAxis_apply {w : Nat} (x : IVec S1024x200 w) (b : Fin 1024) (l : Fin 200) (z : Fin 1) :
    broadcastInDim S1024x200x1 ![0, 1] bcast_S1024x200_S1024x200x1_0_1 x (ix3 b l z) = x (ix2 b l) := by
  show x _ = x _
  congr 1
  funext a
  match a with
  | ⟨0, _⟩ => rfl
  | ⟨1, _⟩ => rfl

/-- The mask along a row: entry (b, l, d) is entry (b, l). -/
theorem alongRow_apply {w : Nat} (x : IVec S1024x200 w) (b : Fin 1024) (l : Fin 200) (d : Fin 64) :
    broadcastInDim S1024x200x64 ![0, 1] bcast_S1024x200_S1024x200x64_0_1 x (ix3 b l d) = x (ix2 b l) := by
  show x _ = x _
  congr 1
  funext a
  match a with
  | ⟨0, _⟩ => rfl
  | ⟨1, _⟩ => rfl

/-- An index that is not negative is not wrapped. -/
theorem wrapIdx_apply (n : BitVec 32) (idx : IVec S1024x200 32) (b : Fin 1024) (l : Fin 200) (z : Fin 1)
    (h0 : 0 ≤ (idx (ix2 b l)).toInt) : wrapIdx n idx (ix3 b l z) = idx (ix2 b l) := by
  unfold wrapIdx
  rw [unitAxis_apply]
  show Scalar.select (IntOp.cmpi .slt (idx (ix2 b l)) 0#32) (IntOp.addi (idx (ix2 b l)) n) (idx (ix2 b l)) = _
  have hc : IntOp.cmpi .slt (idx (ix2 b l)) 0#32 = 0#1 :=
    eq_zero_of_ne_one fun h => by
      have h1 := IntOp.cmpi_slt.1 h
      have h2 : (0#32 : BitVec 32).toInt = 0 := by decide
      omega
  rw [hc, select_zero]

/-- The mask is 1 everywhere when every index lies in [0, hi]. -/
theorem inRange_apply (hi : BitVec 32) (i : IVec S1024x200x1 32)
    (hi' : ∀ p, 0 ≤ (i p).toInt ∧ (i p).toInt ≤ hi.toInt) (b : Fin 1024) (l : Fin 200) (d : Fin 64) :
    inRange hi i (ix3 b l d) = 1#1 := by
  unfold inRange
  rw [alongRow_apply, Host.reduce_eq_foldl]
  refine foldl_andi_all _ (fun p => ?_) _
  show IntOp.andi (IntOp.cmpi .sge (i p) 0#32) (IntOp.cmpi .sle (i p) hi) = 1#1
  refine IntOp.andi_eq_one.2 ⟨IntOp.cmpi_sge.2 ?_, IntOp.cmpi_sle.2 (hi' p).2⟩
  have h2 : (0#32 : BitVec 32).toInt = 0 := by decide
  rw [h2]; exact (hi' p).1

/-- A lookup at (b, l, d) with every index in [0, N - 1]: entry d of the row the index at (b, l) names. -/
theorem lookup_apply {N : Nat} (hN : 0 < N)
    (wf : GatherDims.WF ⟨2, ![N, 64]⟩ S1024x200x1 S1024x200x64 [2] [0] [] [0] [] 2 ![1, 64])
    (n hi : BitVec 32) (hhi : hi.toInt = (N : Int) - 1) (t : FVec Ideal ⟨2, ![N, 64]⟩ .f32) (idx : IVec S1024x200 32)
    (hidx : ∀ p, 0 ≤ (idx p).toInt ∧ (idx p).toInt ≤ hi.toInt) (b : Fin 1024) (l : Fin 200) (d : Fin 64)
    (k : Fin N) (hk : (idx (ix2 b l)).toInt = (k.val : Int)) :
    select (inRange hi (wrapIdx n idx)) (Host.gather (rowsDims N 64 1024 200 wf) t (wrapIdx n idx)) nanFill (ix3 b l d)
      = t (ix2 k d) := by
  have hw : ∀ p, 0 ≤ (wrapIdx n idx p).toInt ∧ (wrapIdx n idx p).toInt ≤ hi.toInt := fun p => by
    obtain ⟨b', l', z', rfl⟩ : ∃ (b' : Fin 1024) (l' : Fin 200) (z' : Fin 1), p = ix3 b' l' z' :=
      ⟨p 0, p 1, p 2, eq_ix3 p⟩
    rw [wrapIdx_apply n idx b' l' z' (hidx _).1]
    exact hidx _
  rw [select_apply, inRange_apply hi _ hw, select_one, gather_rows_apply hN]
  refine congrArg (fun r => t (ix2 r d)) (Fin.ext ?_)
  show min (wrapIdx n idx (ix3 b l 0)).toInt.toNat (N - 1) = k.val
  rw [wrapIdx_apply n idx b l 0 (hidx _).1, hk]
  have := k.isLt
  omega

/-! ## The three summands -/

/-- The position index at (b, l) is l. -/
theorem pos_apply (b : Fin 1024) (l : Fin 200) : pos (ix2 b l) = BitVec.ofNat 32 l.val := rfl

/-- The segment index is 0. -/
theorem seg_apply (p : S1024x200.Idx) : seg p = 0#32 := rfl

/-- A natural number below 2^31 as a 32-bit word, read signed, is itself. -/
theorem toInt_ofNat_small (n : Nat) (hn : n < 2 ^ 31) : (BitVec.ofNat 32 n).toInt = (n : Int) := by
  rw [BitVec.toInt_eq_toNat_of_lt (by rw [BitVec.toNat_ofNat]; omega), BitVec.toNat_ofNat]
  congr 1
  omega

theorem take0_apply (a1 : FVec Ideal S100000x64 .f32) (a0 : IVec S1024x200 32) (hr : ∀ i, (a0 i).toNat < 100000)
    (b : Fin 1024) (l : Fin 200) (d : Fin 64) :
    take0 a1 a0 (ix3 b l d) = a1 (ix2 (⟨(a0 (ix2 b l)).toNat, hr _⟩ : Fin 100000) d) := by
  have hs : ∀ p, (a0 p).toInt = ((a0 p).toNat : Int) := fun p =>
    BitVec.toInt_eq_toNat_of_lt (by have := hr p; omega)
  have h9 : (99999#32 : BitVec 32).toInt = 99999 := by decide
  exact lookup_apply (N := 100000) (by decide) gather_S100000x64_S1024x200x1_S1024x200x64_2_0_n_n_0_2_164_wf
    100000#32 99999#32 (by rw [h9]; rfl) a1 a0
    (fun p => by have := hr p; rw [hs p, h9]; omega) b l d ⟨(a0 (ix2 b l)).toNat, hr _⟩ (hs _)

theorem take1_apply (a2 : FVec Ideal S512x64 .f32) (b : Fin 1024) (l : Fin 200) (d : Fin 64) :
    take1 a2 pos (ix3 b l d) = a2 (ix2 (⟨l.val, by omega⟩ : Fin 512) d) := by
  have h9 : (511#32 : BitVec 32).toInt = 511 := by decide
  have hp : ∀ p : S1024x200.Idx, (pos p).toInt = ((p 1).val : Int) := fun p => by
    obtain ⟨b', l', rfl⟩ : ∃ (b' : Fin 1024) (l' : Fin 200), p = ix2 b' l' := ⟨p 0, p 1, eq_ix2 p⟩
    rw [pos_apply]
    exact toInt_ofNat_small _ (by have := l'.isLt; omega)
  exact lookup_apply (N := 512) (by decide) gather_S512x64_S1024x200x1_S1024x200x64_2_0_n_n_0_2_164_wf
    512#32 511#32 (by rw [h9]; rfl) a2 pos
    (fun p => by have := idx2_lt1 p; rw [hp p, h9]; constructor <;> omega) b l d ⟨l.val, by omega⟩ (hp _)

theorem take2_apply (a3 : FVec Ideal S2x64 .f32) (b : Fin 1024) (l : Fin 200) (d : Fin 64) :
    take2 a3 seg (ix3 b l d) = a3 (ix2 (0 : Fin 2) d) := by
  have h9 : (1#32 : BitVec 32).toInt = 1 := by decide
  have h0 : (0#32 : BitVec 32).toInt = 0 := by decide
  exact lookup_apply (N := 2) (by decide) gather_S2x64_S1024x200x1_S1024x200x64_2_0_n_n_0_2_164_wf
    2#32 1#32 (by rw [h9]; rfl) a3 seg
    (fun p => by rw [seg_apply, h0, h9]; constructor <;> omega) b l d 0 (by rw [seg_apply, h0]; rfl)

/-! ## The result at an index -/

/-- Entry (b, l, d) of the result, for tokens below 100000: the token's row of the first table, row l of the second and
    row 0 of the third, at entry d, added left to right. -/
theorem out_apply (a0 : IVec S1024x200 32) (a1 : FVec Ideal S100000x64 .f32) (a2 : FVec Ideal S512x64 .f32)
    (a3 : FVec Ideal S2x64 .f32) (hr : ∀ i, (a0 i).toNat < 100000) (b : Fin 1024) (l : Fin 200) (d : Fin 64) :
    out a0 a1 a2 a3 (ix3 b l d)
      = (a1 (ix2 (⟨(a0 (ix2 b l)).toNat, hr _⟩ : Fin 100000) d) + a2 (ix2 (⟨l.val, by omega⟩ : Fin 512) d)
          + a3 (ix2 (0 : Fin 2) d) : EReal) := by
  show take0 a1 a0 (ix3 b l d) + take1 a2 pos (ix3 b l d) + take2 a3 seg (ix3 b l d) = _
  rw [take0_apply a1 a0 hr, take1_apply, take2_apply]

end Cert.ReferenceIdeal.RefValue

end
-- ==== Proof.LaunchDefs.lean ====
/-
  The launch set-up of the embedding-lookup program, up to the statement of one tile's body.

  The program: on the TensorCore six reshaping operations turn the four arguments into the call's operands — the
  token ids position-major, the word table feature-major, the position table feature-major and flattened, the segment
  table flattened —, one call runs on both SparseCores' sixteen tiles each, and two reshaping operations turn the call's
  result into the program's. Tile (c, s) has number w = 2 s + c and produces features 2 w and 2 w + 1: the entries
  (l, dh, bh, dl, bl) of the result with (8 dh + dl) / 2 = w.

  How the arrays travel. The four operands are read by every tile and written by none: each goes out as read shares of
  the WHOLE array at its contents after the head operations, a share per SparseCore split into a share per tile, and
  comes back the same way. The result is owned in pieces: tile (c, s) owns exactly its entries, from the launch contents
  to the specified contents, the one function "Spec.scOut" of the four operands. The SparseCore's shared scratch is its
  sequencer's: tile 0 is handed it whole, fills it with the token ids, and the subcore barrier carries a read share of it
  (at the token ids) to each of the sixteen tiles: tile 0's duty in tile j's round of the barrier hands over share j;
  each tile returns its share and the sixteen rejoin to the sequencer's buffer.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Spec

noncomputable section

namespace Cert.Proof.LaunchKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks_range pointsTo_toks pointsTo_toks_split pointsTo_toks_join)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
theorem nSC_eq : τ.nSC = 2 := rfl
theorem nSub_eq : τ.nSub = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays, and what they hold when the call begins -/

variable (m : (ℓ : Loc nD τ sig) → Buf (Elt F) ℓ) (ρ : Dev nD → PrngReg)

/-- The four arguments, -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
/-- the call's four operands (token ids, word table, position table, segment table) and its result, -/
abbrev tokLoc (d : Dev nD) : Loc nD τ sig := (SparseCore.T d).loc main_v1
abbrev embLoc (d : Dev nD) : Loc nD τ sig := (SparseCore.T d).loc main_v2
abbrev posLoc (d : Dev nD) : Loc nD τ sig := (SparseCore.T d).loc main_v4
abbrev segLoc (d : Dev nD) : Loc nD τ sig := (SparseCore.T d).loc main_v5
abbrev outLoc (d : Dev nD) : Loc nD τ sig := (SparseCore.T d).loc main_v6
/-- the program's result, -/
abbrev resLoc (d : Dev nD) : Loc nD τ sig := (SparseCore.T d).loc main_v8
/-- and SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The token ids as the call reads them: the argument transposed to position-major order and flattened. -/
def tokC (d : Dev nD) : IVec S204800 32 :=
  shapeCast S204800 (transpose S200x1024 [1, 0] (m (a0Loc d) : IVec S1024x200 32) transposes_S1024x200_S200x1024_1_0) shapeCasts_S200x1024_S204800
/-- The word table as the call reads it: transposed to feature-major order. -/
def embC (d : Dev nD) : FVec F S64x100000 .f32 :=
  transpose S64x100000 [1, 0] (m (a1Loc d) : FVec F S100000x64 .f32) transposes_S100000x64_S64x100000_1_0
/-- The position table as the call reads it: transposed to feature-major order and flattened. -/
def posC (d : Dev nD) : FVec F S32768 .f32 :=
  shapeCast S32768 (transpose S64x512 [1, 0] (m (a2Loc d) : FVec F S512x64 .f32) transposes_S512x64_S64x512_1_0) shapeCasts_S64x512_S32768
/-- The segment table as the call reads it: flattened. -/
def segC (d : Dev nD) : FVec F S128 .f32 :=
  shapeCast S128 (m (a3Loc d) : FVec F S2x64 .f32) shapeCasts_S2x64_S128

/-- A token in range at the argument is in range as the call reads it: the two are the same entries in another order. -/
theorem tokC_lt (d : Dev nD) (hr : ∀ i, ((m (a0Loc d) : IVec S1024x200 32) i).toNat < 100000) : ∀ i, (tokC m d i).toNat < 100000 :=
  fun _ => hr _

variable [FloatOps F]

/-- What the call's result holds at its end: the one function of the four operands. -/
def outC (d : Dev nD) : FVec F S200x8x8x8x128 .f32 := Cert.Proof.Spec.scOut (tokC m d) (embC m d) (posC m d) (segC m d)
/-- What the program's result holds: that, transposed to batch-major order and reshaped. -/
def resC (d : Dev nD) : FVec F S1024x200x64 .f32 :=
  shapeCast S1024x200x64 (transpose S8x128x200x8x8 [2, 4, 0, 1, 3] (outC m d) transposes_S200x8x8x8x128_S8x128x200x8x8_2_4_0_1_3)
    shapeCasts_S8x128x200x8x8_S1024x200x64

/-- The token ids as contents of the shared scratch (the same list: the two arrays have one type). -/
abbrev tokSh (d : Dev nD) (c : Fin τ.nSC) : Buf (Elt F) (shLoc d c) := tokC m d

/-! ## The read shares -/

/-- SparseCore `c`'s read share of an operand, and tile `(c, s)`'s part of it. -/
def shC (c : Fin τ.nSC) : PosShare TreeShare := shareTokN fullShare c.val
def shT (c : Fin τ.nSC) (s : Fin τ.nSub) : PosShare TreeShare := shareTokN (shC c) s.val
/-- Tile `s`'s read share of its SparseCore's shared scratch: sixteen shares that make up the whole. -/
def shSh (s : Fin τ.nSub) : PosShare TreeShare := if s.val < 15 then shareTokN fullShare s.val else shareDrop fullShare 15

omit [FloatOps F] in
/-- The sixteen shares of the shared scratch are the full share. -/
theorem pointsTo_shSh {ℓ : Loc nD τ sig} {I : Finset (Idx ℓ)} {f : Buf (Elt F) ℓ} :
    (ℓ ↦[I]{fullShare} f : sProp 𝕄) ⊣⊢ bigSep Finset.univ fun s : Fin τ.nSub => ℓ ↦[I]{shSh s} f := by
  have h16 : (bigSep Finset.univ fun s : Fin τ.nSub => (ℓ ↦[I]{shSh s} f : sProp 𝕄))
      = iprop((ℓ ↦[I]{shareDrop fullShare 15} f) ∗ bigSep (Finset.range 15) fun i => ℓ ↦[I]{shareTokN fullShare i} f) := by
    unfold shSh
    rw [show (bigSep (Finset.univ : Finset (Fin τ.nSub)) fun s => (ℓ ↦[I]{if s.val < 15 then shareTokN fullShare s.val else shareDrop fullShare 15} f : sProp 𝕄))
        = bigSep (Finset.range (15 + 1)) fun n => (ℓ ↦[I]{if n < 15 then shareTokN fullShare n else shareDrop fullShare 15} f : sProp 𝕄) from by
          show (bigSep (Finset.univ : Finset (Fin 16)) fun s => (ℓ ↦[I]{if s.val < 15 then shareTokN fullShare s.val else shareDrop fullShare 15} f : sProp 𝕄)) = _
          rw [← Nat.Iio_eq_range, ← Fin.map_valEmbedding_univ, BI.bigSep_map]; rfl,
      Finset.range_add_one, BI.bigSep_insert Finset.notMem_range_self, if_neg (lt_irrefl 15)]
    congr 1 <;> exact bigSep_congr fun n hn => by rw [if_pos (Finset.mem_range.mp hn)]
  rw [h16]
  exact pointsTo_toks_range fullShare 15

/-! ## The result's pieces -/

/-- The feature an entry of the result belongs to. -/
def featOf (j : S200x8x8x8x128.Idx) : ℕ := (j 1).val * 8 + (j 3).val
/-- Tile `(c, s)`'s entries of the result: those of features `2 w` and `2 w + 1`, `w = 2 s + c`. -/
def outSet (c : Fin τ.nSC) (s : Fin τ.nSub) : Finset S200x8x8x8x128.Idx := Finset.univ.filter fun j => featOf j / 2 = s.val * 2 + c.val
/-- SparseCore `c`'s entries: its tiles'. -/
def coreSet (c : Fin τ.nSC) : Finset S200x8x8x8x128.Idx := Finset.univ.biUnion (outSet c)

omit [FloatOps F] in
theorem mem_outSet {c : Fin τ.nSC} {s : Fin τ.nSub} {j : S200x8x8x8x128.Idx} : j ∈ outSet c s ↔ featOf j / 2 = s.val * 2 + c.val := by
  unfold outSet; rw [Finset.mem_filter]; exact ⟨fun h => h.2, fun h => ⟨Finset.mem_univ _, h⟩⟩

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of the shared scratch, filled with the token ids. -/
abbrev shPts (d : Dev nD) (c : Fin τ.nSC) (j : Fin τ.nSub) : sProp 𝕄 := shLoc d c ↦{shSh j} tokSh m d c

/-- What a duty in tile `j`'s round hands over: tile 0's, share `j` of the filled shared scratch; the others', nothing. -/
def bPay (g : GSem nD τ sig) (n : ℕ) : sProp 𝕄 :=
  match g with
  | ((d, .scVector c j), _) => if n = 0 then shPts m d c j else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore, at the
    call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What tile `s` is handed of its SparseCore's shared scratch: tile 0 the whole of it, at some contents; the others nothing. -/
def shGo (d : Dev nD) (c : Fin τ.nSC) (s : Fin τ.nSub) : sProp 𝕄 :=
  if s.val = 0 then iprop(∃ f : Buf (Elt F) (shLoc d c), shLoc d c ↦{fullShare} f) else iprop(emp)

omit [FloatOps F] in
theorem shGo_zero (d : Dev nD) (c : Fin τ.nSC) {s : Fin τ.nSub} (h : s.val = 0) :
    shGo (F := F) d c s = iprop(∃ f : Buf (Elt F) (shLoc d c), shLoc d c ↦{fullShare} f) := if_pos h
omit [FloatOps F] in
theorem shGo_pos (d : Dev nD) (c : Fin τ.nSC) {s : Fin τ.nSub} (h : s.val ≠ 0) : shGo (F := F) d c s = iprop(emp) := if_neg h

instance shGo_storable (d : Dev nD) (c : Fin τ.nSC) (s : Fin τ.nSub) : BI.Storable (upEmb : UEmb _ 𝕄) (shGo (F := F) d c s) := by
  unfold shGo; split <;> infer_instance

/-- The four operands whole at the share `q`, at what they hold when the call begins. -/
abbrev opsAt (d : Dev nD) (q : PosShare TreeShare) : sProp 𝕄 :=
  iprop((tokLoc d ↦{q} tokC m d) ∗ (embLoc d ↦{q} embC m d) ∗ (posLoc d ↦{q} posC m d) ∗ segLoc d ↦{q} segC m d)

/-- What the start hands SparseCore `c`'s sequencer and what its done hands back: its read shares of the operands, and its
    entries of the result at the launch contents, then at the specified ones. -/
abbrev stOf (d : Dev nD) (c : Fin τ.nSC) : sProp 𝕄 := iprop(opsAt m d (shC c) ∗ outLoc d ↦[coreSet c]{fullShare} m (outLoc d))
abbrev dnOf (d : Dev nD) (c : Fin τ.nSC) : sProp 𝕄 := iprop(opsAt m d (shC c) ∗ outLoc d ↦[coreSet c]{fullShare} outC m d)
/-- What the go hands tile `(c, s)`: its read shares of the operands, its entries of the result at the launch contents, and
    (tile 0) the shared scratch whole; what its taskDone hands back: the shares, its entries at the specified contents, its
    read share of the shared scratch filled with the token ids. -/
abbrev goOf (d : Dev nD) (c : Fin τ.nSC) (s : Fin τ.nSub) : sProp 𝕄 :=
  iprop(opsAt m d (shT c s) ∗ (outLoc d ↦[outSet c s]{fullShare} m (outLoc d)) ∗ shGo (F := F) d c s)
abbrev tdOf (d : Dev nD) (c : Fin τ.nSC) (s : Fin τ.nSub) : sProp 𝕄 :=
  iprop(opsAt m d (shT c s) ∗ (outLoc d ↦[outSet c s]{fullShare} outC m d) ∗ shPts m d c s)

def P : (K (F := F)).Pay (nD := nD) (Val := Elt F) (Name := ℕ) (U := UU) where
  st := fun q d c => stOf m d ((K (F := F)).core q c)
  dn := fun q d c => dnOf m d ((K (F := F)).core q c)
  go := fun q d c i => goOf m d ((K (F := F)).core q c) ((K (F := F)).sub q i)
  td := fun q d c i => tdOf m d ((K (F := F)).core q c) ((K (F := F)).sub q i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

theorem P_st (d : Dev nD) (c : Fin ((K (F := F)).nCore 0)) : (P m).st 0 d c = stOf m d ((K (F := F)).core 0 c) := rfl
theorem P_dn (d : Dev nD) (c : Fin ((K (F := F)).nCore 0)) : (P m).dn 0 d c = dnOf m d ((K (F := F)).core 0 c) := rfl
theorem P_go (d : Dev nD) (c : Fin ((K (F := F)).nCore 0)) (i : Fin ((K (F := F)).nSub 0)) :
    (P m).go 0 d c i = goOf m d ((K (F := F)).core 0 c) ((K (F := F)).sub 0 i) := rfl
theorem P_td (d : Dev nD) (c : Fin ((K (F := F)).nCore 0)) (i : Fin ((K (F := F)).nSub 0)) :
    (P m).td 0 d c i = tdOf m d ((K (F := F)).core 0 c) ((K (F := F)).sub 0 i) := rfl
theorem P_x (d : Dev nD) (c : Fin τ.nSC) (i : Fin τ.nSub) : (P m).x 0 (V d c i) = bkit m d c i := rfl
theorem P_ox (d : Dev nD) (c : Fin τ.nSC) (i : Fin τ.nSub) : (P m).ox 0 (V d c i) = oxV d c := rfl

instance P_storable : (P (F := F) m).IsStorable where
  st q d c := by unfold P; infer_instance
  dn q d c := by unfold P; infer_instance
  go q d c i := by unfold P; infer_instance
  td q d c i := by unfold P; infer_instance

/-! ## One tile's body, stated -/

abbrev cV (L : grid0.Coords) : Fin τ.nSC := (L 0).castLE hcore0
abbrev jV (L : grid0.Coords) : Fin τ.nSub := (L 1).castLE hsub0

/-- The task of the tile at grid point `L` of device `d`, from what the go hands it, its barrier kit and its scoped storage
    to what its taskDone hands back: while it owes the launch's `O` (nothing at the kernel's own index, nothing below the
    taskDone's level) and its sixteen arrivals at the barrier, of which it must have paid the arrivals by its end. -/
def TileBodySpec : Prop :=
  ∀ (d : Dev nD) (L : grid0.Coords) (O : CellTallies nD τ sig (HIx 1)) (W : Waits sig (HIx 1)), (∀ g, O g none = 0) →
    (∀ g ι, 0 < O g ι → 8 * (0 : Fin 1).val + 6 ≤ (K (F := F)).lev g ι) →
    iprop(levAts (K (F := F)).L (K (F := F)).lev ∗ bkit m d (cV L) (jV L) ∗ goOf m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L (Memref.whole main_v1_scv) (Memref.isWhole_whole _) (Memref.whole main_v2_scv) (Memref.isWhole_whole _)
            (Memref.whole main_v4_scv) (Memref.isWhole_whole _) (Memref.whole main_v5_scv) (Memref.isWhole_whole _)
            (Memref.whole main_v6_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10 cc0_scratch11 cc0_scratch12 cc0_scratch13 cc0_scoped0 cc0_scoped1 cc0_scoped2)
          fun _ => iprop(tdOf m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.LaunchKernelIdeal

end
-- ==== Proof.Final.lean ====
/-
  The two programs' results are one function of the four arguments.

  Entry (b, l, d) of the kernel program's result is  Embead[tokens[b, l], d] + (PosEmbead[l, d] + SegEmbead[0, d]),  the
  position-and-segment sum formed first; the reference's is  (Embead[tokens[b, l], d] + PosEmbead[l, d]) + SegEmbead[0, d].
  Addition of extended reals is associative, so the two agree at every index, for tokens below the word table's height.
  The contents the launch set-up names for the program's result are the host value of the launch memory's arguments.
-/
import proofs.«203565_g79912161509654_cont_9to1_m_411_39_alg».proof.Proof.HostValueAt
import proofs.«203565_g79912161509654_cont_9to1_m_411_39_alg».proof.Proof.RefValue
import proofs.«203565_g79912161509654_cont_9to1_m_411_39_alg».proof.Proof.LaunchDefs

noncomputable section

namespace Cert.Proof.Final

open Idealize.ShloMosaic Idealize.ShloMosaic.ValueIdx

/-- The kernel program's value and the reference's are equal, for tokens below 100000. -/
theorem result_eq [Cert.KernelIdeal.Facts] [Cert.ReferenceIdeal.Facts]
    (a0 : IVec Cert.KernelIdeal.S1024x200 32) (a1 : FVec Ideal Cert.KernelIdeal.S100000x64 .f32)
    (a2 : FVec Ideal Cert.KernelIdeal.S512x64 .f32) (a3 : FVec Ideal Cert.KernelIdeal.S2x64 .f32)
    (hr : ∀ i, (a0 i).toNat < 100000) :
    Cert.KernelIdeal.HostValue.hostOut (F := Ideal) a0 a1 a2 a3 = Cert.ReferenceIdeal.RefValue.out (F := Ideal) a0 a1 a2 a3 := by
  funext j
  obtain ⟨b, l, d, rfl⟩ : ∃ (b : Fin 1024) (l : Fin 200) (d : Fin 64), j = ix3 b l d := ⟨j 0, j 1, j 2, eq_ix3 j⟩
  rw [Cert.KernelIdeal.HostValue.hostOut_apply a0 a1 a2 a3 hr, Cert.ReferenceIdeal.RefValue.out_apply a0 a1 a2 a3 hr, add_assoc]

open Cert.KernelIdeal Cert.Proof.LaunchKernelIdeal in
/-- What the launch set-up names the program's result is the host value of the launch memory's four arguments. -/
theorem resC_eq {F : FTy → Type} [FloatOps F] [Cert.KernelIdeal.Facts] (m : (ℓ : Loc nD τ sig) → Buf (Elt F) ℓ) (d : Dev nD) :
    resC m d = Cert.KernelIdeal.HostValue.hostOut (F := F) (m (a0Loc d)) (m (a1Loc d)) (m (a2Loc d)) (m (a3Loc d)) := rfl

end Cert.Proof.Final

end
-- ==== Proof.LaunchDefsK.lean ====
/-
  The launch set-up of the embedding-lookup program, up to the statement of one tile's body.

  The program: on the TensorCore six reshaping operations turn the four arguments into the call's operands — the
  token ids position-major, the word table feature-major, the position table feature-major and flattened, the segment
  table flattened —, one call runs on both SparseCores' sixteen tiles each, and two reshaping operations turn the call's
  result into the program's. Tile (c, s) has number w = 2 s + c and produces features 2 w and 2 w + 1: the entries
  (l, dh, bh, dl, bl) of the result with (8 dh + dl) / 2 = w.

  How the arrays travel. The four operands are read by every tile and written by none: each goes out as read shares of
  the WHOLE array at its contents after the head operations, a share per SparseCore split into a share per tile, and
  comes back the same way. The result is owned in pieces: tile (c, s) owns exactly its entries, from the launch contents
  to the specified contents, the one function "Spec.scOut" of the four operands. The SparseCore's shared scratch is its
  sequencer's: tile 0 is handed it whole, fills it with the token ids, and the subcore barrier carries a read share of it
  (at the token ids) to each of the sixteen tiles: tile 0's duty in tile j's round of the barrier hands over share j;
  each tile returns its share and the sixteen rejoin to the sequencer's buffer.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Spec

noncomputable section

namespace Cert.Proof.LaunchKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks_range pointsTo_toks pointsTo_toks_split pointsTo_toks_join)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
theorem nSC_eq : τ.nSC = 2 := rfl
theorem nSub_eq : τ.nSub = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays, and what they hold when the call begins -/

variable (m : (ℓ : Loc nD τ sig) → Buf (Elt F) ℓ) (ρ : Dev nD → PrngReg)

/-- The four arguments, -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
/-- the call's four operands (token ids, word table, position table, segment table) and its result, -/
abbrev tokLoc (d : Dev nD) : Loc nD τ sig := (SparseCore.T d).loc main_v1
abbrev embLoc (d : Dev nD) : Loc nD τ sig := (SparseCore.T d).loc main_v2
abbrev posLoc (d : Dev nD) : Loc nD τ sig := (SparseCore.T d).loc main_v4
abbrev segLoc (d : Dev nD) : Loc nD τ sig := (SparseCore.T d).loc main_v5
abbrev outLoc (d : Dev nD) : Loc nD τ sig := (SparseCore.T d).loc main_v6
/-- the program's result, -/
abbrev resLoc (d : Dev nD) : Loc nD τ sig := (SparseCore.T d).loc main_v8
/-- and SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The token ids as the call reads them: the argument transposed to position-major order and flattened. -/
def tokC (d : Dev nD) : IVec S204800 32 :=
  shapeCast S204800 (transpose S200x1024 [1, 0] (m (a0Loc d) : IVec S1024x200 32) transposes_S1024x200_S200x1024_1_0) shapeCasts_S200x1024_S204800
/-- The word table as the call reads it: transposed to feature-major order. -/
def embC (d : Dev nD) : FVec F S64x100000 .f32 :=
  transpose S64x100000 [1, 0] (m (a1Loc d) : FVec F S100000x64 .f32) transposes_S100000x64_S64x100000_1_0
/-- The position table as the call reads it: transposed to feature-major order and flattened. -/
def posC (d : Dev nD) : FVec F S32768 .f32 :=
  shapeCast S32768 (transpose S64x512 [1, 0] (m (a2Loc d) : FVec F S512x64 .f32) transposes_S512x64_S64x512_1_0) shapeCasts_S64x512_S32768
/-- The segment table as the call reads it: flattened. -/
def segC (d : Dev nD) : FVec F S128 .f32 :=
  shapeCast S128 (m (a3Loc d) : FVec F S2x64 .f32) shapeCasts_S2x64_S128

/-- A token in range at the argument is in range as the call reads it: the two are the same entries in another order. -/
theorem tokC_lt (d : Dev nD) (hr : ∀ i, ((m (a0Loc d) : IVec S1024x200 32) i).toNat < 100000) : ∀ i, (tokC m d i).toNat < 100000 :=
  fun _ => hr _

variable [FloatOps F]

/-- What the call's result holds at its end: the one function of the four operands. -/
def outC (d : Dev nD) : FVec F S200x8x8x8x128 .f32 := Cert.Proof.Spec.scOut (tokC m d) (embC m d) (posC m d) (segC m d)
/-- What the program's result holds: that, transposed to batch-major order and reshaped. -/
def resC (d : Dev nD) : FVec F S1024x200x64 .f32 :=
  shapeCast S1024x200x64 (transpose S8x128x200x8x8 [2, 4, 0, 1, 3] (outC m d) transposes_S200x8x8x8x128_S8x128x200x8x8_2_4_0_1_3)
    shapeCasts_S8x128x200x8x8_S1024x200x64

/-- The token ids as contents of the shared scratch (the same list: the two arrays have one type). -/
abbrev tokSh (d : Dev nD) (c : Fin τ.nSC) : Buf (Elt F) (shLoc d c) := tokC m d

/-! ## The read shares -/

/-- SparseCore `c`'s read share of an operand, and tile `(c, s)`'s part of it. -/
def shC (c : Fin τ.nSC) : PosShare TreeShare := shareTokN fullShare c.val
def shT (c : Fin τ.nSC) (s : Fin τ.nSub) : PosShare TreeShare := shareTokN (shC c) s.val
/-- Tile `s`'s read share of its SparseCore's shared scratch: sixteen shares that make up the whole. -/
def shSh (s : Fin τ.nSub) : PosShare TreeShare := if s.val < 15 then shareTokN fullShare s.val else shareDrop fullShare 15

omit [FloatOps F] in
/-- The sixteen shares of the shared scratch are the full share. -/
theorem pointsTo_shSh {ℓ : Loc nD τ sig} {I : Finset (Idx ℓ)} {f : Buf (Elt F) ℓ} :
    (ℓ ↦[I]{fullShare} f : sProp 𝕄) ⊣⊢ bigSep Finset.univ fun s : Fin τ.nSub => ℓ ↦[I]{shSh s} f := by
  have h16 : (bigSep Finset.univ fun s : Fin τ.nSub => (ℓ ↦[I]{shSh s} f : sProp 𝕄))
      = iprop((ℓ ↦[I]{shareDrop fullShare 15} f) ∗ bigSep (Finset.range 15) fun i => ℓ ↦[I]{shareTokN fullShare i} f) := by
    unfold shSh
    rw [show (bigSep (Finset.univ : Finset (Fin τ.nSub)) fun s => (ℓ ↦[I]{if s.val < 15 then shareTokN fullShare s.val else shareDrop fullShare 15} f : sProp 𝕄))
        = bigSep (Finset.range (15 + 1)) fun n => (ℓ ↦[I]{if n < 15 then shareTokN fullShare n else shareDrop fullShare 15} f : sProp 𝕄) from by
          show (bigSep (Finset.univ : Finset (Fin 16)) fun s => (ℓ ↦[I]{if s.val < 15 then shareTokN fullShare s.val else shareDrop fullShare 15} f : sProp 𝕄)) = _
          rw [← Nat.Iio_eq_range, ← Fin.map_valEmbedding_univ, BI.bigSep_map]; rfl,
      Finset.range_add_one, BI.bigSep_insert Finset.notMem_range_self, if_neg (lt_irrefl 15)]
    congr 1 <;> exact bigSep_congr fun n hn => by rw [if_pos (Finset.mem_range.mp hn)]
  rw [h16]
  exact pointsTo_toks_range fullShare 15

/-! ## The result's pieces -/

/-- The feature an entry of the result belongs to. -/
def featOf (j : S200x8x8x8x128.Idx) : ℕ := (j 1).val * 8 + (j 3).val
/-- Tile `(c, s)`'s entries of the result: those of features `2 w` and `2 w + 1`, `w = 2 s + c`. -/
def outSet (c : Fin τ.nSC) (s : Fin τ.nSub) : Finset S200x8x8x8x128.Idx := Finset.univ.filter fun j => featOf j / 2 = s.val * 2 + c.val
/-- SparseCore `c`'s entries: its tiles'. -/
def coreSet (c : Fin τ.nSC) : Finset S200x8x8x8x128.Idx := Finset.univ.biUnion (outSet c)

omit [FloatOps F] in
theorem mem_outSet {c : Fin τ.nSC} {s : Fin τ.nSub} {j : S200x8x8x8x128.Idx} : j ∈ outSet c s ↔ featOf j / 2 = s.val * 2 + c.val := by
  unfold outSet; rw [Finset.mem_filter]; exact ⟨fun h => h.2, fun h => ⟨Finset.mem_univ _, h⟩⟩

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of the shared scratch, filled with the token ids. -/
abbrev shPts (d : Dev nD) (c : Fin τ.nSC) (j : Fin τ.nSub) : sProp 𝕄 := shLoc d c ↦{shSh j} tokSh m d c

/-- What a duty in tile `j`'s round hands over: tile 0's, share `j` of the filled shared scratch; the others', nothing. -/
def bPay (g : GSem nD τ sig) (n : ℕ) : sProp 𝕄 :=
  match g with
  | ((d, .scVector c j), _) => if n = 0 then shPts m d c j else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore, at the
    call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What tile `s` is handed of its SparseCore's shared scratch: tile 0 the whole of it, at some contents; the others nothing. -/
def shGo (d : Dev nD) (c : Fin τ.nSC) (s : Fin τ.nSub) : sProp 𝕄 :=
  if s.val = 0 then iprop(∃ f : Buf (Elt F) (shLoc d c), shLoc d c ↦{fullShare} f) else iprop(emp)

omit [FloatOps F] in
theorem shGo_zero (d : Dev nD) (c : Fin τ.nSC) {s : Fin τ.nSub} (h : s.val = 0) :
    shGo (F := F) d c s = iprop(∃ f : Buf (Elt F) (shLoc d c), shLoc d c ↦{fullShare} f) := if_pos h
omit [FloatOps F] in
theorem shGo_pos (d : Dev nD) (c : Fin τ.nSC) {s : Fin τ.nSub} (h : s.val ≠ 0) : shGo (F := F) d c s = iprop(emp) := if_neg h

instance shGo_storable (d : Dev nD) (c : Fin τ.nSC) (s : Fin τ.nSub) : BI.Storable (upEmb : UEmb _ 𝕄) (shGo (F := F) d c s) := by
  unfold shGo; split <;> infer_instance

/-- The four operands whole at the share `q`, at what they hold when the call begins. -/
abbrev opsAt (d : Dev nD) (q : PosShare TreeShare) : sProp 𝕄 :=
  iprop((tokLoc d ↦{q} tokC m d) ∗ (embLoc d ↦{q} embC m d) ∗ (posLoc d ↦{q} posC m d) ∗ segLoc d ↦{q} segC m d)

/-- What the start hands SparseCore `c`'s sequencer and what its done hands back: its read shares of the operands, and its
    entries of the result at the launch contents, then at the specified ones. -/
abbrev stOf (d : Dev nD) (c : Fin τ.nSC) : sProp 𝕄 := iprop(opsAt m d (shC c) ∗ outLoc d ↦[coreSet c]{fullShare} m (outLoc d))
abbrev dnOf (d : Dev nD) (c : Fin τ.nSC) : sProp 𝕄 := iprop(opsAt m d (shC c) ∗ outLoc d ↦[coreSet c]{fullShare} outC m d)
/-- What the go hands tile `(c, s)`: its read shares of the operands, its entries of the result at the launch contents, and
    (tile 0) the shared scratch whole; what its taskDone hands back: the shares, its entries at the specified contents, its
    read share of the shared scratch filled with the token ids. -/
abbrev goOf (d : Dev nD) (c : Fin τ.nSC) (s : Fin τ.nSub) : sProp 𝕄 :=
  iprop(opsAt m d (shT c s) ∗ (outLoc d ↦[outSet c s]{fullShare} m (outLoc d)) ∗ shGo (F := F) d c s)
abbrev tdOf (d : Dev nD) (c : Fin τ.nSC) (s : Fin τ.nSub) : sProp 𝕄 :=
  iprop(opsAt m d (shT c s) ∗ (outLoc d ↦[outSet c s]{fullShare} outC m d) ∗ shPts m d c s)

def P : (K (F := F)).Pay (nD := nD) (Val := Elt F) (Name := ℕ) (U := UU) where
  st := fun q d c => stOf m d ((K (F := F)).core q c)
  dn := fun q d c => dnOf m d ((K (F := F)).core q c)
  go := fun q d c i => goOf m d ((K (F := F)).core q c) ((K (F := F)).sub q i)
  td := fun q d c i => tdOf m d ((K (F := F)).core q c) ((K (F := F)).sub q i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

theorem P_st (d : Dev nD) (c : Fin ((K (F := F)).nCore 0)) : (P m).st 0 d c = stOf m d ((K (F := F)).core 0 c) := rfl
theorem P_dn (d : Dev nD) (c : Fin ((K (F := F)).nCore 0)) : (P m).dn 0 d c = dnOf m d ((K (F := F)).core 0 c) := rfl
theorem P_go (d : Dev nD) (c : Fin ((K (F := F)).nCore 0)) (i : Fin ((K (F := F)).nSub 0)) :
    (P m).go 0 d c i = goOf m d ((K (F := F)).core 0 c) ((K (F := F)).sub 0 i) := rfl
theorem P_td (d : Dev nD) (c : Fin ((K (F := F)).nCore 0)) (i : Fin ((K (F := F)).nSub 0)) :
    (P m).td 0 d c i = tdOf m d ((K (F := F)).core 0 c) ((K (F := F)).sub 0 i) := rfl
theorem P_x (d : Dev nD) (c : Fin τ.nSC) (i : Fin τ.nSub) : (P m).x 0 (V d c i) = bkit m d c i := rfl
theorem P_ox (d : Dev nD) (c : Fin τ.nSC) (i : Fin τ.nSub) : (P m).ox 0 (V d c i) = oxV d c := rfl

instance P_storable : (P (F := F) m).IsStorable where
  st q d c := by unfold P; infer_instance
  dn q d c := by unfold P; infer_instance
  go q d c i := by unfold P; infer_instance
  td q d c i := by unfold P; infer_instance

/-! ## One tile's body, stated -/

abbrev cV (L : grid0.Coords) : Fin τ.nSC := (L 0).castLE hcore0
abbrev jV (L : grid0.Coords) : Fin τ.nSub := (L 1).castLE hsub0

/-- The task of the tile at grid point `L` of device `d`, from what the go hands it, its barrier kit and its scoped storage
    to what its taskDone hands back: while it owes the launch's `O` (nothing at the kernel's own index, nothing below the
    taskDone's level) and its sixteen arrivals at the barrier, of which it must have paid the arrivals by its end. -/
def TileBodySpec : Prop :=
  ∀ (d : Dev nD) (L : grid0.Coords) (O : CellTallies nD τ sig (HIx 1)) (W : Waits sig (HIx 1)), (∀ g, O g none = 0) →
    (∀ g ι, 0 < O g ι → 8 * (0 : Fin 1).val + 6 ≤ (K (F := F)).lev g ι) →
    iprop(levAts (K (F := F)).L (K (F := F)).lev ∗ bkit m d (cV L) (jV L) ∗ goOf m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L (Memref.whole main_v1_scv) (Memref.isWhole_whole _) (Memref.whole main_v2_scv) (Memref.isWhole_whole _)
            (Memref.whole main_v4_scv) (Memref.isWhole_whole _) (Memref.whole main_v5_scv) (Memref.isWhole_whole _)
            (Memref.whole main_v6_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10 cc0_scratch11 cc0_scratch12 cc0_scratch13 cc0_scoped0 cc0_scoped1 cc0_scoped2)
          fun _ => iprop(tdOf m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.LaunchKernel

end
-- ==== Proof.Launch.lean ====
/-
  The launch of the embedding-lookup program: from a proof of one tile's body (`TileBodySpec`) to the run of the whole
  program. The tile's obligation is the body at its grid point; a SparseCore's operands split into its sixteen tiles' —
  each operand's read share into sixteen, the SparseCore's entries of the result into the tiles', the sequencer's shared
  scratch whole to tile 0 — and come back: the shares rejoin, the entries (each at the one specified function) join, the
  sixteen read shares of the filled shared scratch make it whole again. The launch element funds the barrier cells'
  rounds and allocates their invariants, and deals every tile its kit. On the TensorCore the six head operations run over
  the thirteen arrays held whole, the call takes a read share of each operand per SparseCore and the result's entries per
  SparseCore, and the two tail operations run over what comes back.
-/
import proofs.«203565_g79912161509654_cont_9to1_m_411_39_alg».proof.Proof.LaunchDefs

noncomputable section

namespace Cert.Proof.LaunchKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks_range pointsTo_toks pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_kernel (coordsV c s)
          (Memref.whole main_v1_scv) (Memref.isWhole_whole _) (Memref.whole main_v2_scv) (Memref.isWhole_whole _)
          (Memref.whole main_v4_scv) (Memref.isWhole_whole _) (Memref.whole main_v5_scv) (Memref.isWhole_whole _)
          (Memref.whole main_v6_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          cc0_scratch9 cc0_scratch10 cc0_scratch11 cc0_scratch12 cc0_scratch13 cc0_scoped0 cc0_scoped1 cc0_scoped2) ⟨⟩ c s := rfl

set_option maxRecDepth 16384 in
theorem tileObl (hbody : TileBodySpec (F := F) m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [P_ox, P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) O W hO hOlev

/-! ## The result's pieces tile it -/

omit [FloatOps F] in
theorem outSet_disjoint {c c' : Fin τ.nSC} {s s' : Fin τ.nSub} (h : (c, s) ≠ (c', s')) : Disjoint (outSet c s) (outSet c' s') := by
  rw [Finset.disjoint_left]; intro j h1 h2
  rw [mem_outSet] at h1 h2
  apply h
  have hc : c.val < 2 := c.isLt
  have hc' : c'.val < 2 := c'.isLt
  have e : s.val * 2 + c.val = s'.val * 2 + c'.val := h1.symm.trans h2
  have e1 : c.val = c'.val := by omega
  have e2 : s.val = s'.val := by omega
  exact Prod.ext (Fin.ext e1) (Fin.ext e2)

omit [FloatOps F] in
theorem coreSet_disjoint {c c' : Fin τ.nSC} (h : c ≠ c') : Disjoint (coreSet c) (coreSet c') := by
  unfold coreSet
  rw [Finset.disjoint_biUnion_left]; intro s _
  rw [Finset.disjoint_biUnion_right]; intro s' _
  exact outSet_disjoint (fun e => h (Prod.ext_iff.mp e).1)

omit [FloatOps F] in
theorem coreSet_cover : (Finset.univ : Finset (Fin τ.nSC)).biUnion coreSet = Finset.univ := by
  rw [Finset.eq_univ_iff_forall]; intro j
  have h1 : (j 1).val < 8 := (j 1).isLt
  have h3 : (j 3).val < 8 := (j 3).isLt
  have hf : featOf j < 64 := by unfold featOf; omega
  refine Finset.mem_biUnion.mpr ⟨⟨(featOf j / 2) % 2, Nat.mod_lt _ (by decide)⟩, Finset.mem_univ _, ?_⟩
  unfold coreSet
  refine Finset.mem_biUnion.mpr ⟨⟨(featOf j / 2) / 2, show _ < 16 by omega⟩, Finset.mem_univ _, ?_⟩
  rw [mem_outSet]; show featOf j / 2 = (featOf j / 2) / 2 * 2 + (featOf j / 2) % 2; omega

omit [FloatOps F] in
theorem outPts_cores (d : Dev nD) (f : Buf (Elt F) (outLoc d)) :
    (outLoc d ↦{fullShare} f : sProp 𝕄) = bigSep Finset.univ fun c : Fin τ.nSC => outLoc d ↦[coreSet c]{fullShare} f := by
  rw [← pointsTo_biUnion Finset.univ (ℓ := outLoc d) coreSet (fun c _ c' _ h => coreSet_disjoint h), coreSet_cover]; try rfl

omit [FloatOps F] in
theorem outPts_tiles (d : Dev nD) (c : Fin τ.nSC) (f : Buf (Elt F) (outLoc d)) :
    (outLoc d ↦[coreSet c]{fullShare} f : sProp 𝕄) = bigSep Finset.univ fun s : Fin τ.nSub => outLoc d ↦[outSet c s]{fullShare} f := by
  unfold coreSet
  exact pointsTo_biUnion Finset.univ (ℓ := outLoc d) (outSet c) (fun s _ s' _ h => outSet_disjoint (fun e => h (Prod.ext_iff.mp e).2))

/-! ## A SparseCore's operands split among its tiles and come back -/

omit [FloatOps F] in
/-- A SparseCore's read share of an array is what is left after sixteen tiles' parts, and those. -/
theorem op_split {ℓ : Loc nD τ sig} (f : Buf (Elt F) ℓ) (c : Fin τ.nSC) :
    (ℓ ↦{shC c} f : sProp 𝕄) ⊣⊢ iprop((ℓ ↦{shareDrop (shC c) τ.nSub} f) ∗ bigSep Finset.univ fun s : Fin τ.nSub => ℓ ↦{shT c s} f) :=
  pointsTo_toks (shC c) τ.nSub

omit [FloatOps F] in
/-- The sequencer's shared scratch, whole, is what tile 0 is handed and nothing for the others. -/
theorem shGo_intro (d : Dev nD) (c : Fin τ.nSC) :
    (iprop(∃ f : Buf (Elt F) (shLoc d c), shLoc d c ↦{fullShare} f) : sProp 𝕄) ⊢ bigSep Finset.univ fun s : Fin τ.nSub => shGo (F := F) d c s := by
  rw [SparseCore.bigSep_erase' (Finset.mem_univ (⟨0, by decide⟩ : Fin τ.nSub)), shGo_zero d c rfl,
    show (bigSep (Finset.univ.erase (⟨0, by decide⟩ : Fin τ.nSub)) fun s => shGo (F := F) d c s)
      = bigSep (Finset.univ.erase (⟨0, by decide⟩ : Fin τ.nSub)) fun _ => (iprop(emp) : sProp 𝕄) from
      bigSep_congr fun s hs => shGo_pos d c (fun h => (Finset.mem_erase.mp hs).1 (Fin.ext h)), bigSep_emp']
  iintro H
  isplitl [H]; · iexact H
  iempintro

omit [FloatOps F] in
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- What is left of a SparseCore's read shares once its tiles have theirs. -/
abbrev opsRest (d : Dev nD) (c : Fin τ.nSC) : sProp 𝕄 := opsAt m d (shareDrop (shC c) τ.nSub)

theorem go_split (d : Dev nD) (c : Fin τ.nSC) :
    iprop(stOf m d c ∗ ∃ f : Buf (Elt F) (shLoc d c), shLoc d c ↦{fullShare} f)
      ⊢ (iprop(opsRest m d c ∗ bigSep Finset.univ fun s : Fin τ.nSub => goOf m d c s) : sProp 𝕄) := by
  simp only [bigSep_sep']
  iintro ⟨⟨⟨Htok, Hemb, Hpos, Hseg⟩, Hout⟩, Hsh⟩
  ihave Htok' := (op_split (F := F) _ c).1 $$ Htok
  icases Htok' with ⟨Htr, Hts⟩
  ihave Hemb' := (op_split (F := F) _ c).1 $$ Hemb
  icases Hemb' with ⟨Her, Hes⟩
  ihave Hpos' := (op_split (F := F) _ c).1 $$ Hpos
  icases Hpos' with ⟨Hpr, Hps⟩
  ihave Hseg' := (op_split (F := F) _ c).1 $$ Hseg
  icases Hseg' with ⟨Hsr, Hss⟩
  ihave Hout' := (Entails.of_eq (outPts_tiles (F := F) d c _)) $$ Hout
  ihave Hsh' := (shGo_intro (F := F) d c) $$ Hsh
  isplitl [Htr Her Hpr Hsr]
  · isplitl [Htr]; · iexact Htr
    isplitl [Her]; · iexact Her
    isplitl [Hpr]; · iexact Hpr
    iexact Hsr
  isplitl [Hts Hes Hps Hss]
  · isplitl [Hts]; · iexact Hts
    isplitl [Hes]; · iexact Hes
    isplitl [Hps]; · iexact Hps
    iexact Hss
  isplitl [Hout']; · iexact Hout'
  iexact Hsh'

theorem td_join (d : Dev nD) (c : Fin τ.nSC) :
    iprop(opsRest m d c ∗ bigSep Finset.univ fun s : Fin τ.nSub => tdOf m d c s)
      ⊢ (iprop(dnOf m d c ∗ ∃ f : Buf (Elt F) (shLoc d c), shLoc d c ↦{fullShare} f) : sProp 𝕄) := by
  simp only [bigSep_sep']
  iintro ⟨⟨Htr, Her, Hpr, Hsr⟩, ⟨Hts, Hes, Hps, Hss⟩, Hout, Hsh⟩
  isplitl [Htr Her Hpr Hsr Hts Hes Hps Hss Hout]
  · isplitl [Htr Her Hpr Hsr Hts Hes Hps Hss]
    · isplitl [Htr Hts]
      · iapply (op_split (F := F) _ c).2; isplitl [Htr] <;> iassumption
      isplitl [Her Hes]
      · iapply (op_split (F := F) _ c).2; isplitl [Her] <;> iassumption
      isplitl [Hpr Hps]
      · iapply (op_split (F := F) _ c).2; isplitl [Hpr] <;> iassumption
      iapply (op_split (F := F) _ c).2; isplitl [Hsr] <;> iassumption
    · iapply (Entails.of_eq (outPts_tiles (F := F) d c _).symm); iexact Hout
  · iexists (tokSh m d c)
    iapply (pointsTo_shSh (F := F)).2; iexact Hsh

omit [FloatOps F] in
/-- The shared scratch is among the sequencer's own buffers: it is it, at some contents, and the rest. -/
theorem ownBufs_S (d : Dev nD) (c : Fin τ.nSC) :
    (ownBufs (S d c) : sProp 𝕄)
      = iprop((∃ f : Buf (Elt F) (shLoc d c), shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stOf m d ((K (F := F)).core 0 c) ∗ ownBufs (S d ((K (F := F)).core 0 c))) ⊢ |={Set.univ}=> iprop(
      (bigSep Finset.univ fun i : Fin ((K (F := F)).nSub 0) => goOf m d ((K (F := F)).core 0 c) ((K (F := F)).sub 0 i))
      ∗ ((bigSep Finset.univ fun i : Fin ((K (F := F)).nSub 0) => tdOf m d ((K (F := F)).core 0 c) ((K (F := F)).sub 0 i))
          -∗ iprop(dnOf m d ((K (F := F)).core 0 c) ∗ ownBufs (S d ((K (F := F)).core 0 c)))))
  rw [bigSep_tasks (F := F) (fun s => goOf m d ((K (F := F)).core 0 c) s), bigSep_tasks (F := F) (fun s => tdOf m d ((K (F := F)).core 0 c) s), ownBufs_S]
  iintro ⟨Hst, Hsh, Hrest⟩; imodintro
  ihave H := (go_split m d ((K (F := F)).core 0 c)) $$ [Hst Hsh]
  · isplitl [Hst] <;> iassumption
  icases H with ⟨HR, Hgo⟩
  isplitl [Hgo]; · iexact Hgo
  iintro Htd
  ihave H := (td_join m d ((K (F := F)).core 0 c)) $$ [HR Htd]
  · isplitl [HR] <;> iassumption
  icases H with ⟨Hdn, Hsh⟩
  isplitl [Hdn]; · iexact Hdn
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)
abbrev w4' : DevRef τ sig := Proc.devRef .tc (main_v4 : Ref sig .tc)
abbrev w5' : DevRef τ sig := Proc.devRef .tc (main_v5 : Ref sig .tc)
abbrev w6' : DevRef τ sig := Proc.devRef .tc (main_v6 : Ref sig .tc)
abbrev w7' : DevRef τ sig := Proc.devRef .tc (main_v7 : Ref sig .tc)
abbrev w8' : DevRef τ sig := Proc.devRef .tc (main_v8 : Ref sig .tc)

/-- The six operations before the call and the two after it, as @main states them. -/
abbrev opT0 : HloOp τ sig (Elt F) := StableHlo.unary main_arg0 main_v0 ((transpose S200x1024 [1, 0] · transposes_S1024x200_S200x1024_1_0) : (⟨S1024x200, .i32⟩ : BufTy).Contents (Elt F) → (⟨S200x1024, .i32⟩ : BufTy).Contents (Elt F))
abbrev opR1 : HloOp τ sig (Elt F) := StableHlo.reshape main_v0 main_v1 rfl shapeCasts_S200x1024_S204800
abbrev opT2 : HloOp τ sig (Elt F) := StableHlo.unary main_arg1 main_v2 ((transpose S64x100000 [1, 0] · transposes_S100000x64_S64x100000_1_0) : (⟨S100000x64, .f32⟩ : BufTy).Contents (Elt F) → (⟨S64x100000, .f32⟩ : BufTy).Contents (Elt F))
abbrev opT3 : HloOp τ sig (Elt F) := StableHlo.unary main_arg2 main_v3 ((transpose S64x512 [1, 0] · transposes_S512x64_S64x512_1_0) : (⟨S512x64, .f32⟩ : BufTy).Contents (Elt F) → (⟨S64x512, .f32⟩ : BufTy).Contents (Elt F))
abbrev opR4 : HloOp τ sig (Elt F) := StableHlo.reshape main_v3 main_v4 rfl shapeCasts_S64x512_S32768
abbrev opR5 : HloOp τ sig (Elt F) := StableHlo.reshape main_arg3 main_v5 rfl shapeCasts_S2x64_S128
abbrev opT7 : HloOp τ sig (Elt F) := StableHlo.unary main_v6 main_v7 ((transpose S8x128x200x8x8 [2, 4, 0, 1, 3] · transposes_S200x8x8x8x128_S8x128x200x8x8_2_4_0_1_3) : (⟨S200x8x8x8x128, .f32⟩ : BufTy).Contents (Elt F) → (⟨S8x128x200x8x8, .f32⟩ : BufTy).Contents (Elt F))
abbrev opR8 : HloOp τ sig (Elt F) := StableHlo.reshape main_v7 main_v8 rfl shapeCasts_S8x128x200x8x8_S1024x200x64

/-- The TensorCore's arrays, all unscoped: the four arguments and @main's nine values. -/
abbrev S13 : Finset (DevRef τ sig) := {a0', a1', a2', a3', w0', w1', w2', w3', w4', w5', w6', w7', w8'}

omit [FloatOps F] in
theorem held_S13 (d : Dev nD) (W : Valuation τ sig (Elt F)) :
    (held (T d) S13 W : sProp 𝕄)
      = iprop((a0Loc d ↦{fullShare} W a0') ∗ (a1Loc d ↦{fullShare} W a1') ∗ (a2Loc d ↦{fullShare} W a2') ∗ (a3Loc d ↦{fullShare} W a3')
          ∗ ((SparseCore.T d).loc main_v0 ↦{fullShare} W w0') ∗ (tokLoc d ↦{fullShare} W w1') ∗ (embLoc d ↦{fullShare} W w2')
          ∗ ((SparseCore.T d).loc main_v3 ↦{fullShare} W w3') ∗ (posLoc d ↦{fullShare} W w4') ∗ (segLoc d ↦{fullShare} W w5')
          ∗ (outLoc d ↦{fullShare} W w6') ∗ ((SparseCore.T d).loc main_v7 ↦{fullShare} W w7') ∗ resLoc d ↦{fullShare} W w8') := by
  unfold held S13
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ (a3Loc d ↦{fullShare} W main_arg3)
          ∗ ((SparseCore.T d).loc main_v0 ↦{fullShare} W main_v0) ∗ (tokLoc d ↦{fullShare} W main_v1) ∗ (embLoc d ↦{fullShare} W main_v2)
          ∗ ((SparseCore.T d).loc main_v3 ↦{fullShare} W main_v3) ∗ (posLoc d ↦{fullShare} W main_v4) ∗ (segLoc d ↦{fullShare} W main_v5)
          ∗ (outLoc d ↦{fullShare} W main_v6) ∗ ((SparseCore.T d).loc main_v7 ↦{fullShare} W main_v7) ∗ resLoc d ↦{fullShare} W main_v8) := by
  unfold unscopedBufs
  rw [show (Finset.univ.filter fun b : Ref sig .tc => ¬ b.isScoped)
      = {main_arg0, main_arg1, main_arg2, main_arg3, main_v0, main_v1, main_v2, main_v3, main_v4, main_v5, main_v6, main_v7, main_v8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuations after each of the six head operations. -/
def V0 (d : Dev nD) : Valuation τ sig (Elt F) := fun b => m (d, b)
def V1 (d : Dev nD) : Valuation τ sig (Elt F) := (opT0 (F := F)).result (V0 m d)
def V2 (d : Dev nD) : Valuation τ sig (Elt F) := (opR1 (F := F)).result (V1 m d)
def V3 (d : Dev nD) : Valuation τ sig (Elt F) := (opT2 (F := F)).result (V2 m d)
def V4 (d : Dev nD) : Valuation τ sig (Elt F) := (opT3 (F := F)).result (V3 m d)
def V5 (d : Dev nD) : Valuation τ sig (Elt F) := (opR4 (F := F)).result (V4 m d)
def V6 (d : Dev nD) : Valuation τ sig (Elt F) := (opR5 (F := F)).result (V5 m d)
/-- After the call: the result at the specified contents. Then the two tail operations. -/
def V7 (d : Dev nD) : Valuation τ sig (Elt F) := Function.update (V6 m d) w6' (outC m d)
def V8 (d : Dev nD) : Valuation τ sig (Elt F) := (opT7 (F := F)).result (V7 m d)
def V9 (d : Dev nD) : Valuation τ sig (Elt F) := (opR8 (F := F)).result (V8 m d)

theorem unscoped_held (d : Dev nD) : (unscopedBufs d (fun b => m ((SparseCore.T d).loc b)) : sProp 𝕄) = held (T d) S13 (V0 m d) := by
  rw [unscopedBufs_eq, held_S13]; rfl

/-- An operation leaves what it does not write. -/
theorem keep {op : HloOp τ sig (Elt F)} {y b : DevRef τ sig} (hw : op.writes = {y}) (h : b ≠ y) (W : Valuation τ sig (Elt F)) : op.result W b = W b :=
  op.result_of_not_mem W (by rw [hw, Finset.mem_singleton]; exact h)

theorem V6_of_ne (d : Dev nD) {b : DevRef τ sig} (h0 : b ≠ w0') (h1 : b ≠ w1') (h2 : b ≠ w2') (h3 : b ≠ w3') (h4 : b ≠ w4') (h5 : b ≠ w5') :
    V6 m d b = m (d, b) := by
  unfold V6 V5 V4 V3 V2 V1
  rw [keep (op := opR5 (F := F)) rfl h5, keep (op := opR4 (F := F)) rfl h4, keep (op := opT3 (F := F)) rfl h3, keep (op := opT2 (F := F)) rfl h2,
    keep (op := opR1 (F := F)) rfl h1, keep (op := opT0 (F := F)) rfl h0]
  rfl

theorem V6_tok (d : Dev nD) : V6 m d w1' = tokC m d := by
  unfold V6 V5 V4 V3
  rw [keep (op := opR5 (F := F)) rfl (show w1' ≠ w5' by decide), keep (op := opR4 (F := F)) rfl (show w1' ≠ w4' by decide),
    keep (op := opT3 (F := F)) rfl (show w1' ≠ w3' by decide), keep (op := opT2 (F := F)) rfl (show w1' ≠ w2' by decide)]
  unfold V2 V1
  rw [StableHlo.reshape_result', StableHlo.unary_result']
  rfl

theorem V6_emb (d : Dev nD) : V6 m d w2' = embC m d := by
  unfold V6 V5 V4
  rw [keep (op := opR5 (F := F)) rfl (show w2' ≠ w5' by decide), keep (op := opR4 (F := F)) rfl (show w2' ≠ w4' by decide),
    keep (op := opT3 (F := F)) rfl (show w2' ≠ w3' by decide)]
  unfold V3
  rw [StableHlo.unary_result']
  unfold V2 V1
  rw [keep (op := opR1 (F := F)) rfl (show a1' ≠ w1' by decide), keep (op := opT0 (F := F)) rfl (show a1' ≠ w0' by decide)]
  rfl

theorem V6_pos (d : Dev nD) : V6 m d w4' = posC m d := by
  unfold V6
  rw [keep (op := opR5 (F := F)) rfl (show w4' ≠ w5' by decide)]
  unfold V5
  rw [StableHlo.reshape_result']
  unfold V4
  rw [StableHlo.unary_result']
  unfold V3 V2 V1
  rw [keep (op := opT2 (F := F)) rfl (show a2' ≠ w2' by decide),
    keep (op := opR1 (F := F)) rfl (show a2' ≠ w1' by decide), keep (op := opT0 (F := F)) rfl (show a2' ≠ w0' by decide)]
  rfl

theorem V6_seg (d : Dev nD) : V6 m d w5' = segC m d := by
  unfold V6
  rw [StableHlo.reshape_result']
  unfold V5 V4 V3 V2 V1
  rw [keep (op := opR4 (F := F)) rfl (show a3' ≠ w4' by decide),
    keep (op := opT3 (F := F)) rfl (show a3' ≠ w3' by decide), keep (op := opT2 (F := F)) rfl (show a3' ≠ w2' by decide),
    keep (op := opR1 (F := F)) rfl (show a3' ≠ w1' by decide), keep (op := opT0 (F := F)) rfl (show a3' ≠ w0' by decide)]
  rfl

theorem V7_of_ne (d : Dev nD) {b : DevRef τ sig} (h : b ≠ w6') : V7 m d b = V6 m d b := Function.update_of_ne h _ _
theorem V7_out (d : Dev nD) : V7 m d w6' = outC m d := Function.update_self _ _ _

theorem V9_arg (d : Dev nD) {b : DevRef τ sig} (h0 : b ≠ w0') (h1 : b ≠ w1') (h2 : b ≠ w2') (h3 : b ≠ w3') (h4 : b ≠ w4') (h5 : b ≠ w5')
    (h6 : b ≠ w6') (h7 : b ≠ w7') (h8 : b ≠ w8') : V9 m d b = m (d, b) := by
  unfold V9 V8
  rw [keep (op := opR8 (F := F)) rfl h8, keep (op := opT7 (F := F)) rfl h7, V7_of_ne m d h6, V6_of_ne m d h0 h1 h2 h3 h4 h5]

theorem V9_res (d : Dev nD) : V9 m d w8' = resC m d := by
  unfold V9
  rw [StableHlo.reshape_result']
  unfold V8
  rw [StableHlo.unary_result', V7_out]
  rfl

/-- The thirteen arrays when the call begins: the arguments as launched, the operands at what the head operations made. -/
theorem held_V6 (d : Dev nD) :
    (held (T d) S13 ((opR5 (F := F)).result ((opR4 (F := F)).result ((opT3 (F := F)).result ((opT2 (F := F)).result ((opR1 (F := F)).result ((opT0 (F := F)).result (V0 m d))))))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_v0 ↦{fullShare} V6 m d w0') ∗ (tokLoc d ↦{fullShare} tokC m d) ∗ (embLoc d ↦{fullShare} embC m d)
          ∗ ((SparseCore.T d).loc main_v3 ↦{fullShare} V6 m d w3') ∗ (posLoc d ↦{fullShare} posC m d) ∗ (segLoc d ↦{fullShare} segC m d)
          ∗ (outLoc d ↦{fullShare} m (outLoc d)) ∗ ((SparseCore.T d).loc main_v7 ↦{fullShare} V6 m d w7') ∗ resLoc d ↦{fullShare} V6 m d w8') := by
  show held (SparseCore.T d) S13 (V6 m d) = _
  rw [held_S13, V6_of_ne m d (b := a0') (by decide) (by decide) (by decide) (by decide) (by decide) (by decide),
    V6_of_ne m d (b := a1') (by decide) (by decide) (by decide) (by decide) (by decide) (by decide),
    V6_of_ne m d (b := a2') (by decide) (by decide) (by decide) (by decide) (by decide) (by decide),
    V6_of_ne m d (b := a3') (by decide) (by decide) (by decide) (by decide) (by decide) (by decide),
    V6_tok, V6_emb, V6_pos, V6_seg,
    V6_of_ne m d (b := w6') (by decide) (by decide) (by decide) (by decide) (by decide) (by decide)]

/-- The same after the call, the result at the specified contents. -/
theorem held_V7 (d : Dev nD) :
    (held (T d) S13 (V7 m d) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_v0 ↦{fullShare} V6 m d w0') ∗ (tokLoc d ↦{fullShare} tokC m d) ∗ (embLoc d ↦{fullShare} embC m d)
          ∗ ((SparseCore.T d).loc main_v3 ↦{fullShare} V6 m d w3') ∗ (posLoc d ↦{fullShare} posC m d) ∗ (segLoc d ↦{fullShare} segC m d)
          ∗ (outLoc d ↦{fullShare} outC m d) ∗ ((SparseCore.T d).loc main_v7 ↦{fullShare} V6 m d w7') ∗ resLoc d ↦{fullShare} V6 m d w8') := by
  rw [held_S13, V7_of_ne m d (b := a0') (by decide), V7_of_ne m d (b := a1') (by decide), V7_of_ne m d (b := a2') (by decide), V7_of_ne m d (b := a3') (by decide),
    V7_of_ne m d (b := w0') (by decide), V7_of_ne m d (b := w1') (by decide), V7_of_ne m d (b := w2') (by decide), V7_of_ne m d (b := w3') (by decide),
    V7_of_ne m d (b := w4') (by decide), V7_of_ne m d (b := w5') (by decide), V7_out, V7_of_ne m d (b := w7') (by decide), V7_of_ne m d (b := w8') (by decide),
    V6_of_ne m d (b := a0') (by decide) (by decide) (by decide) (by decide) (by decide) (by decide),
    V6_of_ne m d (b := a1') (by decide) (by decide) (by decide) (by decide) (by decide) (by decide),
    V6_of_ne m d (b := a2') (by decide) (by decide) (by decide) (by decide) (by decide) (by decide),
    V6_of_ne m d (b := a3') (by decide) (by decide) (by decide) (by decide) (by decide) (by decide),
    V6_tok, V6_emb, V6_pos, V6_seg]

/-- At the end: the arguments as launched, the program's result at the specified contents. -/
theorem held_V9 (d : Dev nD) :
    (held (T d) S13 ((opR8 (F := F)).result ((opT7 (F := F)).result (V7 m d))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_v0 ↦{fullShare} V9 m d w0') ∗ (tokLoc d ↦{fullShare} V9 m d w1') ∗ (embLoc d ↦{fullShare} V9 m d w2')
          ∗ ((SparseCore.T d).loc main_v3 ↦{fullShare} V9 m d w3') ∗ (posLoc d ↦{fullShare} V9 m d w4') ∗ (segLoc d ↦{fullShare} V9 m d w5')
          ∗ (outLoc d ↦{fullShare} V9 m d w6') ∗ ((SparseCore.T d).loc main_v7 ↦{fullShare} V9 m d w7') ∗ resLoc d ↦{fullShare} resC m d) := by
  show held (SparseCore.T d) S13 (V9 m d) = _
  rw [held_S13,
    V9_arg m d (b := a0') (by decide) (by decide) (by decide) (by decide) (by decide) (by decide) (by decide) (by decide) (by decide),
    V9_arg m d (b := a1') (by decide) (by decide) (by decide) (by decide) (by decide) (by decide) (by decide) (by decide) (by decide),
    V9_arg m d (b := a2') (by decide) (by decide) (by decide) (by decide) (by decide) (by decide) (by decide) (by decide) (by decide),
    V9_arg m d (b := a3') (by decide) (by decide) (by decide) (by decide) (by decide) (by decide) (by decide) (by decide) (by decide),
    V9_res]

theorem hT0 : (opT0 (F := F)).bufs ⊆ S13 := show ({a0', w0'} : Finset (DevRef τ sig)) ⊆ S13 by decide
theorem hR1 : (opR1 (F := F)).bufs ⊆ S13 := show ({w0', w1'} : Finset (DevRef τ sig)) ⊆ S13 by decide
theorem hT2 : (opT2 (F := F)).bufs ⊆ S13 := show ({a1', w2'} : Finset (DevRef τ sig)) ⊆ S13 by decide
theorem hT3 : (opT3 (F := F)).bufs ⊆ S13 := show ({a2', w3'} : Finset (DevRef τ sig)) ⊆ S13 by decide
theorem hR4 : (opR4 (F := F)).bufs ⊆ S13 := show ({w3', w4'} : Finset (DevRef τ sig)) ⊆ S13 by decide
theorem hR5 : (opR5 (F := F)).bufs ⊆ S13 := show ({a3', w5'} : Finset (DevRef τ sig)) ⊆ S13 by decide
theorem hT7 : (opT7 (F := F)).bufs ⊆ S13 := show ({w6', w7'} : Finset (DevRef τ sig)) ⊆ S13 by decide
theorem hR8 : (opR8 (F := F)).bufs ⊆ S13 := show ({w7', w8'} : Finset (DevRef τ sig)) ⊆ S13 by decide

omit [FloatOps F] in
theorem bigSep_cores (Φ : Fin τ.nSC → sProp 𝕄) :
    (bigSep Finset.univ fun c : Fin ((K (F := F)).nCore 0) => Φ ((K (F := F)).core 0 c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin τ.nSC => stOf m d c :=
  bigSep_cores (F := F) (fun c => stOf m d c)
theorem dn0_eq (d : Dev nD) : (bigSep Finset.univ fun c : Fin ((K (F := F)).nCore 0) => (P m).dn 0 d c) = bigSep Finset.univ fun c : Fin τ.nSC => dnOf m d c :=
  bigSep_cores (F := F) (fun c => dnOf m d c)

omit [FloatOps F] in
/-- An array whole is what is left after the two SparseCores' read shares, and those. -/
theorem core_split {ℓ : Loc nD τ sig} (f : Buf (Elt F) ℓ) :
    (ℓ ↦{fullShare} f : sProp 𝕄) ⊣⊢ iprop((ℓ ↦{shareDrop fullShare τ.nSC} f) ∗ bigSep Finset.univ fun c : Fin τ.nSC => ℓ ↦{shC c} f) :=
  pointsTo_toks fullShare τ.nSC

/-- The operands and the result, whole, are what the TensorCore keeps and what the two SparseCores take; and back. -/
theorem cores_split (d : Dev nD) (f : Buf (Elt F) (outLoc d)) :
    iprop(opsAt m d fullShare ∗ outLoc d ↦{fullShare} f)
      ⊢ (iprop(opsAt m d (shareDrop fullShare τ.nSC) ∗ bigSep Finset.univ fun c : Fin τ.nSC => iprop(opsAt m d (shC c) ∗ outLoc d ↦[coreSet c]{fullShare} f)) : sProp 𝕄) := by
  simp only [bigSep_sep']
  iintro ⟨⟨Htok, Hemb, Hpos, Hseg⟩, Hout⟩
  ihave Htok' := (core_split (F := F) _).1 $$ Htok
  icases Htok' with ⟨Htr, Hts⟩
  ihave Hemb' := (core_split (F := F) _).1 $$ Hemb
  icases Hemb' with ⟨Her, Hes⟩
  ihave Hpos' := (core_split (F := F) _).1 $$ Hpos
  icases Hpos' with ⟨Hpr, Hps⟩
  ihave Hseg' := (core_split (F := F) _).1 $$ Hseg
  icases Hseg' with ⟨Hsr, Hss⟩
  ihave Hout' := (Entails.of_eq (outPts_cores (F := F) d _)) $$ Hout
  isplitl [Htr Her Hpr Hsr]
  · isplitl [Htr]; · iexact Htr
    isplitl [Her]; · iexact Her
    isplitl [Hpr]; · iexact Hpr
    iexact Hsr
  isplitl [Hts Hes Hps Hss]
  · isplitl [Hts]; · iexact Hts
    isplitl [Hes]; · iexact Hes
    isplitl [Hps]; · iexact Hps
    iexact Hss
  iexact Hout'

theorem cores_join (d : Dev nD) (f : Buf (Elt F) (outLoc d)) :
    iprop(opsAt m d (shareDrop fullShare τ.nSC) ∗ bigSep Finset.univ fun c : Fin τ.nSC => iprop(opsAt m d (shC c) ∗ outLoc d ↦[coreSet c]{fullShare} f))
      ⊢ (iprop(opsAt m d fullShare ∗ outLoc d ↦{fullShare} f) : sProp 𝕄) := by
  simp only [bigSep_sep']
  iintro ⟨⟨Htr, Her, Hpr, Hsr⟩, ⟨Hts, Hes, Hps, Hss⟩, Hout⟩
  isplitl [Htr Her Hpr Hsr Hts Hes Hps Hss]
  · isplitl [Htr Hts]
    · iapply (core_split (F := F) _).2; isplitl [Htr] <;> iassumption
    isplitl [Her Hes]
    · iapply (core_split (F := F) _).2; isplitl [Her] <;> iassumption
    isplitl [Hpr Hps]
    · iapply (core_split (F := F) _).2; isplitl [Hpr] <;> iassumption
    iapply (core_split (F := F) _).2; isplitl [Hsr] <;> iassumption
  · iapply (Entails.of_eq (outPts_cores (F := F) d _).symm); iexact Hout

/-- What @main leaves the claim: the program's result at the specified contents, the four arguments as launched. -/
abbrev FIN (d : Dev nD) : sProp 𝕄 :=
  iprop((resLoc d ↦{fullShare} resC m d) ∗ (a0Loc d ↦{fullShare} m (a0Loc d)) ∗ (a1Loc d ↦{fullShare} m (a1Loc d))
    ∗ (a2Loc d ↦{fullShare} m (a2Loc d)) ∗ a3Loc d ↦{fullShare} m (a3Loc d))

set_option maxHeartbeats 1600000 in
/-- @main on device `d`'s TensorCore: the six head operations over the thirteen arrays held whole, the call (from a read share
    of each operand and the result's entries per SparseCore, back to the same with the result at the specified contents),
    the two tail operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the six head operations
  iapply (wp_hlo_within 𝒱 (SparseCore.T d) none Set.univ (op := opT0) (S := S13) hT0 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S13) hR1 (V := (opT0 (F := F)).result (V0 m d))) $$ [Hb Hheld]
  · isplitl [Hb] <;> iassumption
  iintro ⟨Hb, Hheld⟩
  rw [wp_ret]; imodintro
  iapply (wp_hlo_within 𝒱 (SparseCore.T d) none Set.univ (op := opT2) (S := S13) hT2 (V := (opR1 (F := F)).result ((opT0 (F := F)).result (V0 m d)))) $$ [Hb Hheld]
  · isplitl [Hb] <;> iassumption
  iintro ⟨Hb, Hheld⟩
  rw [wp_ret]; imodintro
  iapply (wp_hlo_within 𝒱 (SparseCore.T d) none Set.univ (op := opT3) (S := S13) hT3
    (V := (opT2 (F := F)).result ((opR1 (F := F)).result ((opT0 (F := F)).result (V0 m d))))) $$ [Hb Hheld]
  · isplitl [Hb] <;> iassumption
  iintro ⟨Hb, Hheld⟩
  rw [wp_ret]; imodintro
  iapply (wp_hlo_within 𝒱 (SparseCore.T d) none Set.univ (op := opR4) (S := S13) hR4
    (V := (opT3 (F := F)).result ((opT2 (F := F)).result ((opR1 (F := F)).result ((opT0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := opR5) (S := S13) hR5
    (V := (opR4 (F := F)).result ((opT3 (F := F)).result ((opT2 (F := F)).result ((opR1 (F := F)).result ((opT0 (F := F)).result (V0 m d))))))) $$ [Hb Hheld]
  · isplitl [Hb] <;> iassumption
  iintro ⟨Hb, Hheld⟩
  rw [wp_ret]; imodintro
  -- the call: a read share of each operand and the result's entries to each SparseCore, and back
  ihave Hh := (Entails.of_eq (held_V6 (F := F) m d)) $$ Hheld
  icases Hh with ⟨Ha0, Ha1, Ha2, Ha3, Hw0, Htok, Hemb, Hw3, Hpos, Hseg, Hout, Hw7, Hw8⟩
  ihave Hsp := (cores_split m d _) $$ [Htok Hemb Hpos Hseg Hout]
  · isplitl [Htok Hemb Hpos Hseg]
    · isplitl [Htok]; · iexact Htok
      isplitl [Hemb]; · iexact Hemb
      isplitl [Hpos]; · iexact Hpos
      iexact Hseg
    · iexact Hout
  icases Hsp with ⟨Hrest, Hcores⟩
  iapply ((K (F := F)).wp_run (D (F := F)) 𝒱 (EH := EH) (P := P m) κ d 0) $$ [Hst Hcores Hb Ha0 Ha1 Ha2 Ha3 Hw0 Hw3 Hw7 Hw8 Hrest]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hj := (cores_join m d _) $$ [Hrest Hdn']
  · isplitl [Hrest] <;> iassumption
  icases Hj with ⟨⟨Htok, Hemb, Hpos, Hseg⟩, Hout⟩
  -- the two tail operations
  iapply (wp_hlo_within 𝒱 (SparseCore.T d) none Set.univ (op := opT7) (S := S13) hT7 (V := V7 m d)) $$ [Hb Ha0 Ha1 Ha2 Ha3 Hw0 Htok Hemb Hw3 Hpos Hseg Hout Hw7 Hw8]
  · isplitl [Hb]; · iexact Hb
    rw [held_V7]
    isplitl [Ha0]; · iexact Ha0
    isplitl [Ha1]; · iexact Ha1
    isplitl [Ha2]; · iexact Ha2
    isplitl [Ha3]; · iexact Ha3
    isplitl [Hw0]; · iexact Hw0
    isplitl [Htok]; · iexact Htok
    isplitl [Hemb]; · iexact Hemb
    isplitl [Hw3]; · iexact Hw3
    isplitl [Hpos]; · iexact Hpos
    isplitl [Hseg]; · iexact Hseg
    isplitl [Hout]; · iexact Hout
    isplitl [Hw7]; · iexact Hw7
    iexact Hw8
  iintro ⟨Hb, Hheld⟩
  rw [wp_ret]; imodintro
  iapply (wp_hlo_within 𝒱 (SparseCore.T d) none Set.univ (op := opR8) (S := S13) hR8 (V := (opT7 (F := F)).result (V7 m d))) $$ [Hb Hheld]
  · isplitl [Hb] <;> iassumption
  iintro ⟨Hb, Hheld⟩
  ihave Hh := (Entails.of_eq (held_V9 (F := F) m d)) $$ Hheld
  icases Hh with ⟨Ha0, Ha1, Ha2, Ha3, -, -, -, -, -, -, -, -, Hres⟩
  rw [wp_ret]; imodintro; imodintro
  isplitl [Hst]; · iexact Hst
  isplitl [Hres]; · iexact Hres
  isplitl [Ha0]; · iexact Ha0
  isplitl [Ha1]; · iexact Ha1
  isplitl [Ha2]; · iexact Ha2
  iexact Ha3

/-! ## The program's run -/

def fq (d : Dev nD) (s' : Phys nD τ sig (Elt F)) : Prop :=
  s'.mem.mem (resLoc d) = resC m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

omit [FloatOps F] in
/-- An array held whole reads its contents off the final memory. -/
theorem agree_whole {R : sProp 𝕄} {ℓ : Loc nD τ sig} {f : Buf (Elt F) ℓ} (s' : Phys nD τ sig (Elt F)) (h : R ⊢ iprop((ℓ ↦{fullShare} f) ∗ True)) :
    iprop(R ∗ SI s') ⊢ (⌜s'.mem.mem ℓ = f⌝ : sProp 𝕄) := by
  iintro ⟨HR, HSI⟩
  ihave HR' := h $$ HR
  icases HR' with ⟨Hx, -⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h0 := agree_whole (F := F) (R := FIN m d) (ℓ := resLoc d) (f := resC m d) s' (by iintro ⟨H, -⟩; isplitl [H]; · iexact H
                                                                                        ipureintro; trivial)
  have h1 := agree_whole (F := F) (R := FIN m d) (ℓ := a0Loc d) (f := m (a0Loc d)) s' (by iintro ⟨-, H, -⟩; isplitl [H]; · iexact H
                                                                                          ipureintro; trivial)
  have h2 := agree_whole (F := F) (R := FIN m d) (ℓ := a1Loc d) (f := m (a1Loc d)) s' (by iintro ⟨-, -, H, -⟩; isplitl [H]; · iexact H
                                                                                          ipureintro; trivial)
  have h3 := agree_whole (F := F) (R := FIN m d) (ℓ := a2Loc d) (f := m (a2Loc d)) s' (by iintro ⟨-, -, -, H, -⟩; isplitl [H]; · iexact H
                                                                                          ipureintro; trivial)
  have h4 := agree_whole (F := F) (R := FIN m d) (ℓ := a3Loc d) (f := m (a3Loc d)) s' (by iintro ⟨-, -, -, -, H⟩; isplitl [H]; · iexact H
                                                                                          ipureintro; trivial)
  exact fun x hx => ⟨h0 x hx, h1 x hx, h2 x hx, h3 x hx, h4 x hx⟩

/-- What the run ends in: on every device the program's result holds the two tail operations applied to the lookup's
    specified result over the head operations applied to the four arguments, and the arguments are as launched. -/
def QC : PUnit × MemSt nD τ sig (Elt F) → Prop := fun r => ∀ c : Dev nD,
  r.2.mem ((c.tc : Thread nD τ).loc main_v8) = resC m c ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_main [∀ e, Nonempty (Elt F e)] (hr : ∀ (d : Dev nD) i, ((m (a0Loc d) : IVec S1024x200 32) i).toNat < 100000)
    (hbody : TileBodySpec (F := F) m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => vecSplit m)
    m ρ main (fun _ => iprop(emp)) (FIN m) (u₀ (F := F)) (hu₀ m) (hmain m ρ) (fq m) (hfin m) (QC m) (fun _ h => h)

end Cert.Proof.LaunchKernelIdeal

end
-- ==== Proof.LaunchK.lean ====
/-
  The launch of the embedding-lookup program: from a proof of one tile's body (`TileBodySpec`) to the run of the whole
  program. The tile's obligation is the body at its grid point; a SparseCore's operands split into its sixteen tiles' —
  each operand's read share into sixteen, the SparseCore's entries of the result into the tiles', the sequencer's shared
  scratch whole to tile 0 — and come back: the shares rejoin, the entries (each at the one specified function) join, the
  sixteen read shares of the filled shared scratch make it whole again. The launch element funds the barrier cells'
  rounds and allocates their invariants, and deals every tile its kit. On the TensorCore the six head operations run over
  the thirteen arrays held whole, the call takes a read share of each operand per SparseCore and the result's entries per
  SparseCore, and the two tail operations run over what comes back.
-/
import proofs.«203565_g79912161509654_cont_9to1_m_411_39_alg».proof.Proof.LaunchDefsK

noncomputable section

namespace Cert.Proof.LaunchKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks_range pointsTo_toks pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_kernel (coordsV c s)
          (Memref.whole main_v1_scv) (Memref.isWhole_whole _) (Memref.whole main_v2_scv) (Memref.isWhole_whole _)
          (Memref.whole main_v4_scv) (Memref.isWhole_whole _) (Memref.whole main_v5_scv) (Memref.isWhole_whole _)
          (Memref.whole main_v6_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          cc0_scratch9 cc0_scratch10 cc0_scratch11 cc0_scratch12 cc0_scratch13 cc0_scoped0 cc0_scoped1 cc0_scoped2) ⟨⟩ c s := rfl

set_option maxRecDepth 16384 in
theorem tileObl (hbody : TileBodySpec (F := F) m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [P_ox, P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) O W hO hOlev

/-! ## The result's pieces tile it -/

omit [FloatOps F] in
theorem outSet_disjoint {c c' : Fin τ.nSC} {s s' : Fin τ.nSub} (h : (c, s) ≠ (c', s')) : Disjoint (outSet c s) (outSet c' s') := by
  rw [Finset.disjoint_left]; intro j h1 h2
  rw [mem_outSet] at h1 h2
  apply h
  have hc : c.val < 2 := c.isLt
  have hc' : c'.val < 2 := c'.isLt
  have e : s.val * 2 + c.val = s'.val * 2 + c'.val := h1.symm.trans h2
  have e1 : c.val = c'.val := by omega
  have e2 : s.val = s'.val := by omega
  exact Prod.ext (Fin.ext e1) (Fin.ext e2)

omit [FloatOps F] in
theorem coreSet_disjoint {c c' : Fin τ.nSC} (h : c ≠ c') : Disjoint (coreSet c) (coreSet c') := by
  unfold coreSet
  rw [Finset.disjoint_biUnion_left]; intro s _
  rw [Finset.disjoint_biUnion_right]; intro s' _
  exact outSet_disjoint (fun e => h (Prod.ext_iff.mp e).1)

omit [FloatOps F] in
theorem coreSet_cover : (Finset.univ : Finset (Fin τ.nSC)).biUnion coreSet = Finset.univ := by
  rw [Finset.eq_univ_iff_forall]; intro j
  have h1 : (j 1).val < 8 := (j 1).isLt
  have h3 : (j 3).val < 8 := (j 3).isLt
  have hf : featOf j < 64 := by unfold featOf; omega
  refine Finset.mem_biUnion.mpr ⟨⟨(featOf j / 2) % 2, Nat.mod_lt _ (by decide)⟩, Finset.mem_univ _, ?_⟩
  unfold coreSet
  refine Finset.mem_biUnion.mpr ⟨⟨(featOf j / 2) / 2, show _ < 16 by omega⟩, Finset.mem_univ _, ?_⟩
  rw [mem_outSet]; show featOf j / 2 = (featOf j / 2) / 2 * 2 + (featOf j / 2) % 2; omega

omit [FloatOps F] in
theorem outPts_cores (d : Dev nD) (f : Buf (Elt F) (outLoc d)) :
    (outLoc d ↦{fullShare} f : sProp 𝕄) = bigSep Finset.univ fun c : Fin τ.nSC => outLoc d ↦[coreSet c]{fullShare} f := by
  rw [← pointsTo_biUnion Finset.univ (ℓ := outLoc d) coreSet (fun c _ c' _ h => coreSet_disjoint h), coreSet_cover]; try rfl

omit [FloatOps F] in
theorem outPts_tiles (d : Dev nD) (c : Fin τ.nSC) (f : Buf (Elt F) (outLoc d)) :
    (outLoc d ↦[coreSet c]{fullShare} f : sProp 𝕄) = bigSep Finset.univ fun s : Fin τ.nSub => outLoc d ↦[outSet c s]{fullShare} f := by
  unfold coreSet
  exact pointsTo_biUnion Finset.univ (ℓ := outLoc d) (outSet c) (fun s _ s' _ h => outSet_disjoint (fun e => h (Prod.ext_iff.mp e).2))

/-! ## A SparseCore's operands split among its tiles and come back -/

omit [FloatOps F] in
/-- A SparseCore's read share of an array is what is left after sixteen tiles' parts, and those. -/
theorem op_split {ℓ : Loc nD τ sig} (f : Buf (Elt F) ℓ) (c : Fin τ.nSC) :
    (ℓ ↦{shC c} f : sProp 𝕄) ⊣⊢ iprop((ℓ ↦{shareDrop (shC c) τ.nSub} f) ∗ bigSep Finset.univ fun s : Fin τ.nSub => ℓ ↦{shT c s} f) :=
  pointsTo_toks (shC c) τ.nSub

omit [FloatOps F] in
/-- The sequencer's shared scratch, whole, is what tile 0 is handed and nothing for the others. -/
theorem shGo_intro (d : Dev nD) (c : Fin τ.nSC) :
    (iprop(∃ f : Buf (Elt F) (shLoc d c), shLoc d c ↦{fullShare} f) : sProp 𝕄) ⊢ bigSep Finset.univ fun s : Fin τ.nSub => shGo (F := F) d c s := by
  rw [SparseCore.bigSep_erase' (Finset.mem_univ (⟨0, by decide⟩ : Fin τ.nSub)), shGo_zero d c rfl,
    show (bigSep (Finset.univ.erase (⟨0, by decide⟩ : Fin τ.nSub)) fun s => shGo (F := F) d c s)
      = bigSep (Finset.univ.erase (⟨0, by decide⟩ : Fin τ.nSub)) fun _ => (iprop(emp) : sProp 𝕄) from
      bigSep_congr fun s hs => shGo_pos d c (fun h => (Finset.mem_erase.mp hs).1 (Fin.ext h)), bigSep_emp']
  iintro H
  isplitl [H]; · iexact H
  iempintro

omit [FloatOps F] in
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- What is left of a SparseCore's read shares once its tiles have theirs. -/
abbrev opsRest (d : Dev nD) (c : Fin τ.nSC) : sProp 𝕄 := opsAt m d (shareDrop (shC c) τ.nSub)

theorem go_split (d : Dev nD) (c : Fin τ.nSC) :
    iprop(stOf m d c ∗ ∃ f : Buf (Elt F) (shLoc d c), shLoc d c ↦{fullShare} f)
      ⊢ (iprop(opsRest m d c ∗ bigSep Finset.univ fun s : Fin τ.nSub => goOf m d c s) : sProp 𝕄) := by
  simp only [bigSep_sep']
  iintro ⟨⟨⟨Htok, Hemb, Hpos, Hseg⟩, Hout⟩, Hsh⟩
  ihave Htok' := (op_split (F := F) _ c).1 $$ Htok
  icases Htok' with ⟨Htr, Hts⟩
  ihave Hemb' := (op_split (F := F) _ c).1 $$ Hemb
  icases Hemb' with ⟨Her, Hes⟩
  ihave Hpos' := (op_split (F := F) _ c).1 $$ Hpos
  icases Hpos' with ⟨Hpr, Hps⟩
  ihave Hseg' := (op_split (F := F) _ c).1 $$ Hseg
  icases Hseg' with ⟨Hsr, Hss⟩
  ihave Hout' := (Entails.of_eq (outPts_tiles (F := F) d c _)) $$ Hout
  ihave Hsh' := (shGo_intro (F := F) d c) $$ Hsh
  isplitl [Htr Her Hpr Hsr]
  · isplitl [Htr]; · iexact Htr
    isplitl [Her]; · iexact Her
    isplitl [Hpr]; · iexact Hpr
    iexact Hsr
  isplitl [Hts Hes Hps Hss]
  · isplitl [Hts]; · iexact Hts
    isplitl [Hes]; · iexact Hes
    isplitl [Hps]; · iexact Hps
    iexact Hss
  isplitl [Hout']; · iexact Hout'
  iexact Hsh'

theorem td_join (d : Dev nD) (c : Fin τ.nSC) :
    iprop(opsRest m d c ∗ bigSep Finset.univ fun s : Fin τ.nSub => tdOf m d c s)
      ⊢ (iprop(dnOf m d c ∗ ∃ f : Buf (Elt F) (shLoc d c), shLoc d c ↦{fullShare} f) : sProp 𝕄) := by
  simp only [bigSep_sep']
  iintro ⟨⟨Htr, Her, Hpr, Hsr⟩, ⟨Hts, Hes, Hps, Hss⟩, Hout, Hsh⟩
  isplitl [Htr Her Hpr Hsr Hts Hes Hps Hss Hout]
  · isplitl [Htr Her Hpr Hsr Hts Hes Hps Hss]
    · isplitl [Htr Hts]
      · iapply (op_split (F := F) _ c).2; isplitl [Htr] <;> iassumption
      isplitl [Her Hes]
      · iapply (op_split (F := F) _ c).2; isplitl [Her] <;> iassumption
      isplitl [Hpr Hps]
      · iapply (op_split (F := F) _ c).2; isplitl [Hpr] <;> iassumption
      iapply (op_split (F := F) _ c).2; isplitl [Hsr] <;> iassumption
    · iapply (Entails.of_eq (outPts_tiles (F := F) d c _).symm); iexact Hout
  · iexists (tokSh m d c)
    iapply (pointsTo_shSh (F := F)).2; iexact Hsh

omit [FloatOps F] in
/-- The shared scratch is among the sequencer's own buffers: it is it, at some contents, and the rest. -/
theorem ownBufs_S (d : Dev nD) (c : Fin τ.nSC) :
    (ownBufs (S d c) : sProp 𝕄)
      = iprop((∃ f : Buf (Elt F) (shLoc d c), shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stOf m d ((K (F := F)).core 0 c) ∗ ownBufs (S d ((K (F := F)).core 0 c))) ⊢ |={Set.univ}=> iprop(
      (bigSep Finset.univ fun i : Fin ((K (F := F)).nSub 0) => goOf m d ((K (F := F)).core 0 c) ((K (F := F)).sub 0 i))
      ∗ ((bigSep Finset.univ fun i : Fin ((K (F := F)).nSub 0) => tdOf m d ((K (F := F)).core 0 c) ((K (F := F)).sub 0 i))
          -∗ iprop(dnOf m d ((K (F := F)).core 0 c) ∗ ownBufs (S d ((K (F := F)).core 0 c)))))
  rw [bigSep_tasks (F := F) (fun s => goOf m d ((K (F := F)).core 0 c) s), bigSep_tasks (F := F) (fun s => tdOf m d ((K (F := F)).core 0 c) s), ownBufs_S]
  iintro ⟨Hst, Hsh, Hrest⟩; imodintro
  ihave H := (go_split m d ((K (F := F)).core 0 c)) $$ [Hst Hsh]
  · isplitl [Hst] <;> iassumption
  icases H with ⟨HR, Hgo⟩
  isplitl [Hgo]; · iexact Hgo
  iintro Htd
  ihave H := (td_join m d ((K (F := F)).core 0 c)) $$ [HR Htd]
  · isplitl [HR] <;> iassumption
  icases H with ⟨Hdn, Hsh⟩
  isplitl [Hdn]; · iexact Hdn
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)
abbrev w4' : DevRef τ sig := Proc.devRef .tc (main_v4 : Ref sig .tc)
abbrev w5' : DevRef τ sig := Proc.devRef .tc (main_v5 : Ref sig .tc)
abbrev w6' : DevRef τ sig := Proc.devRef .tc (main_v6 : Ref sig .tc)
abbrev w7' : DevRef τ sig := Proc.devRef .tc (main_v7 : Ref sig .tc)
abbrev w8' : DevRef τ sig := Proc.devRef .tc (main_v8 : Ref sig .tc)

/-- The six operations before the call and the two after it, as @main states them. -/
abbrev opT0 : HloOp τ sig (Elt F) := StableHlo.unary main_arg0 main_v0 ((transpose S200x1024 [1, 0] · transposes_S1024x200_S200x1024_1_0) : (⟨S1024x200, .i32⟩ : BufTy).Contents (Elt F) → (⟨S200x1024, .i32⟩ : BufTy).Contents (Elt F))
abbrev opR1 : HloOp τ sig (Elt F) := StableHlo.reshape main_v0 main_v1 rfl shapeCasts_S200x1024_S204800
abbrev opT2 : HloOp τ sig (Elt F) := StableHlo.unary main_arg1 main_v2 ((transpose S64x100000 [1, 0] · transposes_S100000x64_S64x100000_1_0) : (⟨S100000x64, .f32⟩ : BufTy).Contents (Elt F) → (⟨S64x100000, .f32⟩ : BufTy).Contents (Elt F))
abbrev opT3 : HloOp τ sig (Elt F) := StableHlo.unary main_arg2 main_v3 ((transpose S64x512 [1, 0] · transposes_S512x64_S64x512_1_0) : (⟨S512x64, .f32⟩ : BufTy).Contents (Elt F) → (⟨S64x512, .f32⟩ : BufTy).Contents (Elt F))
abbrev opR4 : HloOp τ sig (Elt F) := StableHlo.reshape main_v3 main_v4 rfl shapeCasts_S64x512_S32768
abbrev opR5 : HloOp τ sig (Elt F) := StableHlo.reshape main_arg3 main_v5 rfl shapeCasts_S2x64_S128
abbrev opT7 : HloOp τ sig (Elt F) := StableHlo.unary main_v6 main_v7 ((transpose S8x128x200x8x8 [2, 4, 0, 1, 3] · transposes_S200x8x8x8x128_S8x128x200x8x8_2_4_0_1_3) : (⟨S200x8x8x8x128, .f32⟩ : BufTy).Contents (Elt F) → (⟨S8x128x200x8x8, .f32⟩ : BufTy).Contents (Elt F))
abbrev opR8 : HloOp τ sig (Elt F) := StableHlo.reshape main_v7 main_v8 rfl shapeCasts_S8x128x200x8x8_S1024x200x64

/-- The TensorCore's arrays, all unscoped: the four arguments and @main's nine values. -/
abbrev S13 : Finset (DevRef τ sig) := {a0', a1', a2', a3', w0', w1', w2', w3', w4', w5', w6', w7', w8'}

omit [FloatOps F] in
theorem held_S13 (d : Dev nD) (W : Valuation τ sig (Elt F)) :
    (held (T d) S13 W : sProp 𝕄)
      = iprop((a0Loc d ↦{fullShare} W a0') ∗ (a1Loc d ↦{fullShare} W a1') ∗ (a2Loc d ↦{fullShare} W a2') ∗ (a3Loc d ↦{fullShare} W a3')
          ∗ ((SparseCore.T d).loc main_v0 ↦{fullShare} W w0') ∗ (tokLoc d ↦{fullShare} W w1') ∗ (embLoc d ↦{fullShare} W w2')
          ∗ ((SparseCore.T d).loc main_v3 ↦{fullShare} W w3') ∗ (posLoc d ↦{fullShare} W w4') ∗ (segLoc d ↦{fullShare} W w5')
          ∗ (outLoc d ↦{fullShare} W w6') ∗ ((SparseCore.T d).loc main_v7 ↦{fullShare} W w7') ∗ resLoc d ↦{fullShare} W w8') := by
  unfold held S13
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ (a3Loc d ↦{fullShare} W main_arg3)
          ∗ ((SparseCore.T d).loc main_v0 ↦{fullShare} W main_v0) ∗ (tokLoc d ↦{fullShare} W main_v1) ∗ (embLoc d ↦{fullShare} W main_v2)
          ∗ ((SparseCore.T d).loc main_v3 ↦{fullShare} W main_v3) ∗ (posLoc d ↦{fullShare} W main_v4) ∗ (segLoc d ↦{fullShare} W main_v5)
          ∗ (outLoc d ↦{fullShare} W main_v6) ∗ ((SparseCore.T d).loc main_v7 ↦{fullShare} W main_v7) ∗ resLoc d ↦{fullShare} W main_v8) := by
  unfold unscopedBufs
  rw [show (Finset.univ.filter fun b : Ref sig .tc => ¬ b.isScoped)
      = {main_arg0, main_arg1, main_arg2, main_arg3, main_v0, main_v1, main_v2, main_v3, main_v4, main_v5, main_v6, main_v7, main_v8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuations after each of the six head operations. -/
def V0 (d : Dev nD) : Valuation τ sig (Elt F) := fun b => m (d, b)
def V1 (d : Dev nD) : Valuation τ sig (Elt F) := (opT0 (F := F)).result (V0 m d)
def V2 (d : Dev nD) : Valuation τ sig (Elt F) := (opR1 (F := F)).result (V1 m d)
def V3 (d : Dev nD) : Valuation τ sig (Elt F) := (opT2 (F := F)).result (V2 m d)
def V4 (d : Dev nD) : Valuation τ sig (Elt F) := (opT3 (F := F)).result (V3 m d)
def V5 (d : Dev nD) : Valuation τ sig (Elt F) := (opR4 (F := F)).result (V4 m d)
def V6 (d : Dev nD) : Valuation τ sig (Elt F) := (opR5 (F := F)).result (V5 m d)
/-- After the call: the result at the specified contents. Then the two tail operations. -/
def V7 (d : Dev nD) : Valuation τ sig (Elt F) := Function.update (V6 m d) w6' (outC m d)
def V8 (d : Dev nD) : Valuation τ sig (Elt F) := (opT7 (F := F)).result (V7 m d)
def V9 (d : Dev nD) : Valuation τ sig (Elt F) := (opR8 (F := F)).result (V8 m d)

theorem unscoped_held (d : Dev nD) : (unscopedBufs d (fun b => m ((SparseCore.T d).loc b)) : sProp 𝕄) = held (T d) S13 (V0 m d) := by
  rw [unscopedBufs_eq, held_S13]; rfl

/-- An operation leaves what it does not write. -/
theorem keep {op : HloOp τ sig (Elt F)} {y b : DevRef τ sig} (hw : op.writes = {y}) (h : b ≠ y) (W : Valuation τ sig (Elt F)) : op.result W b = W b :=
  op.result_of_not_mem W (by rw [hw, Finset.mem_singleton]; exact h)

theorem V6_of_ne (d : Dev nD) {b : DevRef τ sig} (h0 : b ≠ w0') (h1 : b ≠ w1') (h2 : b ≠ w2') (h3 : b ≠ w3') (h4 : b ≠ w4') (h5 : b ≠ w5') :
    V6 m d b = m (d, b) := by
  unfold V6 V5 V4 V3 V2 V1
  rw [keep (op := opR5 (F := F)) rfl h5, keep (op := opR4 (F := F)) rfl h4, keep (op := opT3 (F := F)) rfl h3, keep (op := opT2 (F := F)) rfl h2,
    keep (op := opR1 (F := F)) rfl h1, keep (op := opT0 (F := F)) rfl h0]
  rfl

theorem V6_tok (d : Dev nD) : V6 m d w1' = tokC m d := by
  unfold V6 V5 V4 V3
  rw [keep (op := opR5 (F := F)) rfl (show w1' ≠ w5' by decide), keep (op := opR4 (F := F)) rfl (show w1' ≠ w4' by decide),
    keep (op := opT3 (F := F)) rfl (show w1' ≠ w3' by decide), keep (op := opT2 (F := F)) rfl (show w1' ≠ w2' by decide)]
  unfold V2 V1
  rw [StableHlo.reshape_result', StableHlo.unary_result']
  rfl

theorem V6_emb (d : Dev nD) : V6 m d w2' = embC m d := by
  unfold V6 V5 V4
  rw [keep (op := opR5 (F := F)) rfl (show w2' ≠ w5' by decide), keep (op := opR4 (F := F)) rfl (show w2' ≠ w4' by decide),
    keep (op := opT3 (F := F)) rfl (show w2' ≠ w3' by decide)]
  unfold V3
  rw [StableHlo.unary_result']
  unfold V2 V1
  rw [keep (op := opR1 (F := F)) rfl (show a1' ≠ w1' by decide), keep (op := opT0 (F := F)) rfl (show a1' ≠ w0' by decide)]
  rfl

theorem V6_pos (d : Dev nD) : V6 m d w4' = posC m d := by
  unfold V6
  rw [keep (op := opR5 (F := F)) rfl (show w4' ≠ w5' by decide)]
  unfold V5
  rw [StableHlo.reshape_result']
  unfold V4
  rw [StableHlo.unary_result']
  unfold V3 V2 V1
  rw [keep (op := opT2 (F := F)) rfl (show a2' ≠ w2' by decide),
    keep (op := opR1 (F := F)) rfl (show a2' ≠ w1' by decide), keep (op := opT0 (F := F)) rfl (show a2' ≠ w0' by decide)]
  rfl

theorem V6_seg (d : Dev nD) : V6 m d w5' = segC m d := by
  unfold V6
  rw [StableHlo.reshape_result']
  unfold V5 V4 V3 V2 V1
  rw [keep (op := opR4 (F := F)) rfl (show a3' ≠ w4' by decide),
    keep (op := opT3 (F := F)) rfl (show a3' ≠ w3' by decide), keep (op := opT2 (F := F)) rfl (show a3' ≠ w2' by decide),
    keep (op := opR1 (F := F)) rfl (show a3' ≠ w1' by decide), keep (op := opT0 (F := F)) rfl (show a3' ≠ w0' by decide)]
  rfl

theorem V7_of_ne (d : Dev nD) {b : DevRef τ sig} (h : b ≠ w6') : V7 m d b = V6 m d b := Function.update_of_ne h _ _
theorem V7_out (d : Dev nD) : V7 m d w6' = outC m d := Function.update_self _ _ _

theorem V9_arg (d : Dev nD) {b : DevRef τ sig} (h0 : b ≠ w0') (h1 : b ≠ w1') (h2 : b ≠ w2') (h3 : b ≠ w3') (h4 : b ≠ w4') (h5 : b ≠ w5')
    (h6 : b ≠ w6') (h7 : b ≠ w7') (h8 : b ≠ w8') : V9 m d b = m (d, b) := by
  unfold V9 V8
  rw [keep (op := opR8 (F := F)) rfl h8, keep (op := opT7 (F := F)) rfl h7, V7_of_ne m d h6, V6_of_ne m d h0 h1 h2 h3 h4 h5]

theorem V9_res (d : Dev nD) : V9 m d w8' = resC m d := by
  unfold V9
  rw [StableHlo.reshape_result']
  unfold V8
  rw [StableHlo.unary_result', V7_out]
  rfl

/-- The thirteen arrays when the call begins: the arguments as launched, the operands at what the head operations made. -/
theorem held_V6 (d : Dev nD) :
    (held (T d) S13 ((opR5 (F := F)).result ((opR4 (F := F)).result ((opT3 (F := F)).result ((opT2 (F := F)).result ((opR1 (F := F)).result ((opT0 (F := F)).result (V0 m d))))))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_v0 ↦{fullShare} V6 m d w0') ∗ (tokLoc d ↦{fullShare} tokC m d) ∗ (embLoc d ↦{fullShare} embC m d)
          ∗ ((SparseCore.T d).loc main_v3 ↦{fullShare} V6 m d w3') ∗ (posLoc d ↦{fullShare} posC m d) ∗ (segLoc d ↦{fullShare} segC m d)
          ∗ (outLoc d ↦{fullShare} m (outLoc d)) ∗ ((SparseCore.T d).loc main_v7 ↦{fullShare} V6 m d w7') ∗ resLoc d ↦{fullShare} V6 m d w8') := by
  show held (SparseCore.T d) S13 (V6 m d) = _
  rw [held_S13, V6_of_ne m d (b := a0') (by decide) (by decide) (by decide) (by decide) (by decide) (by decide),
    V6_of_ne m d (b := a1') (by decide) (by decide) (by decide) (by decide) (by decide) (by decide),
    V6_of_ne m d (b := a2') (by decide) (by decide) (by decide) (by decide) (by decide) (by decide),
    V6_of_ne m d (b := a3') (by decide) (by decide) (by decide) (by decide) (by decide) (by decide),
    V6_tok, V6_emb, V6_pos, V6_seg,
    V6_of_ne m d (b := w6') (by decide) (by decide) (by decide) (by decide) (by decide) (by decide)]

/-- The same after the call, the result at the specified contents. -/
theorem held_V7 (d : Dev nD) :
    (held (T d) S13 (V7 m d) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_v0 ↦{fullShare} V6 m d w0') ∗ (tokLoc d ↦{fullShare} tokC m d) ∗ (embLoc d ↦{fullShare} embC m d)
          ∗ ((SparseCore.T d).loc main_v3 ↦{fullShare} V6 m d w3') ∗ (posLoc d ↦{fullShare} posC m d) ∗ (segLoc d ↦{fullShare} segC m d)
          ∗ (outLoc d ↦{fullShare} outC m d) ∗ ((SparseCore.T d).loc main_v7 ↦{fullShare} V6 m d w7') ∗ resLoc d ↦{fullShare} V6 m d w8') := by
  rw [held_S13, V7_of_ne m d (b := a0') (by decide), V7_of_ne m d (b := a1') (by decide), V7_of_ne m d (b := a2') (by decide), V7_of_ne m d (b := a3') (by decide),
    V7_of_ne m d (b := w0') (by decide), V7_of_ne m d (b := w1') (by decide), V7_of_ne m d (b := w2') (by decide), V7_of_ne m d (b := w3') (by decide),
    V7_of_ne m d (b := w4') (by decide), V7_of_ne m d (b := w5') (by decide), V7_out, V7_of_ne m d (b := w7') (by decide), V7_of_ne m d (b := w8') (by decide),
    V6_of_ne m d (b := a0') (by decide) (by decide) (by decide) (by decide) (by decide) (by decide),
    V6_of_ne m d (b := a1') (by decide) (by decide) (by decide) (by decide) (by decide) (by decide),
    V6_of_ne m d (b := a2') (by decide) (by decide) (by decide) (by decide) (by decide) (by decide),
    V6_of_ne m d (b := a3') (by decide) (by decide) (by decide) (by decide) (by decide) (by decide),
    V6_tok, V6_emb, V6_pos, V6_seg]

/-- At the end: the arguments as launched, the program's result at the specified contents. -/
theorem held_V9 (d : Dev nD) :
    (held (T d) S13 ((opR8 (F := F)).result ((opT7 (F := F)).result (V7 m d))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_v0 ↦{fullShare} V9 m d w0') ∗ (tokLoc d ↦{fullShare} V9 m d w1') ∗ (embLoc d ↦{fullShare} V9 m d w2')
          ∗ ((SparseCore.T d).loc main_v3 ↦{fullShare} V9 m d w3') ∗ (posLoc d ↦{fullShare} V9 m d w4') ∗ (segLoc d ↦{fullShare} V9 m d w5')
          ∗ (outLoc d ↦{fullShare} V9 m d w6') ∗ ((SparseCore.T d).loc main_v7 ↦{fullShare} V9 m d w7') ∗ resLoc d ↦{fullShare} resC m d) := by
  show held (SparseCore.T d) S13 (V9 m d) = _
  rw [held_S13,
    V9_arg m d (b := a0') (by decide) (by decide) (by decide) (by decide) (by decide) (by decide) (by decide) (by decide) (by decide),
    V9_arg m d (b := a1') (by decide) (by decide) (by decide) (by decide) (by decide) (by decide) (by decide) (by decide) (by decide),
    V9_arg m d (b := a2') (by decide) (by decide) (by decide) (by decide) (by decide) (by decide) (by decide) (by decide) (by decide),
    V9_arg m d (b := a3') (by decide) (by decide) (by decide) (by decide) (by decide) (by decide) (by decide) (by decide) (by decide),
    V9_res]

theorem hT0 : (opT0 (F := F)).bufs ⊆ S13 := show ({a0', w0'} : Finset (DevRef τ sig)) ⊆ S13 by decide
theorem hR1 : (opR1 (F := F)).bufs ⊆ S13 := show ({w0', w1'} : Finset (DevRef τ sig)) ⊆ S13 by decide
theorem hT2 : (opT2 (F := F)).bufs ⊆ S13 := show ({a1', w2'} : Finset (DevRef τ sig)) ⊆ S13 by decide
theorem hT3 : (opT3 (F := F)).bufs ⊆ S13 := show ({a2', w3'} : Finset (DevRef τ sig)) ⊆ S13 by decide
theorem hR4 : (opR4 (F := F)).bufs ⊆ S13 := show ({w3', w4'} : Finset (DevRef τ sig)) ⊆ S13 by decide
theorem hR5 : (opR5 (F := F)).bufs ⊆ S13 := show ({a3', w5'} : Finset (DevRef τ sig)) ⊆ S13 by decide
theorem hT7 : (opT7 (F := F)).bufs ⊆ S13 := show ({w6', w7'} : Finset (DevRef τ sig)) ⊆ S13 by decide
theorem hR8 : (opR8 (F := F)).bufs ⊆ S13 := show ({w7', w8'} : Finset (DevRef τ sig)) ⊆ S13 by decide

omit [FloatOps F] in
theorem bigSep_cores (Φ : Fin τ.nSC → sProp 𝕄) :
    (bigSep Finset.univ fun c : Fin ((K (F := F)).nCore 0) => Φ ((K (F := F)).core 0 c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin τ.nSC => stOf m d c :=
  bigSep_cores (F := F) (fun c => stOf m d c)
theorem dn0_eq (d : Dev nD) : (bigSep Finset.univ fun c : Fin ((K (F := F)).nCore 0) => (P m).dn 0 d c) = bigSep Finset.univ fun c : Fin τ.nSC => dnOf m d c :=
  bigSep_cores (F := F) (fun c => dnOf m d c)

omit [FloatOps F] in
/-- An array whole is what is left after the two SparseCores' read shares, and those. -/
theorem core_split {ℓ : Loc nD τ sig} (f : Buf (Elt F) ℓ) :
    (ℓ ↦{fullShare} f : sProp 𝕄) ⊣⊢ iprop((ℓ ↦{shareDrop fullShare τ.nSC} f) ∗ bigSep Finset.univ fun c : Fin τ.nSC => ℓ ↦{shC c} f) :=
  pointsTo_toks fullShare τ.nSC

/-- The operands and the result, whole, are what the TensorCore keeps and what the two SparseCores take; and back. -/
theorem cores_split (d : Dev nD) (f : Buf (Elt F) (outLoc d)) :
    iprop(opsAt m d fullShare ∗ outLoc d ↦{fullShare} f)
      ⊢ (iprop(opsAt m d (shareDrop fullShare τ.nSC) ∗ bigSep Finset.univ fun c : Fin τ.nSC => iprop(opsAt m d (shC c) ∗ outLoc d ↦[coreSet c]{fullShare} f)) : sProp 𝕄) := by
  simp only [bigSep_sep']
  iintro ⟨⟨Htok, Hemb, Hpos, Hseg⟩, Hout⟩
  ihave Htok' := (core_split (F := F) _).1 $$ Htok
  icases Htok' with ⟨Htr, Hts⟩
  ihave Hemb' := (core_split (F := F) _).1 $$ Hemb
  icases Hemb' with ⟨Her, Hes⟩
  ihave Hpos' := (core_split (F := F) _).1 $$ Hpos
  icases Hpos' with ⟨Hpr, Hps⟩
  ihave Hseg' := (core_split (F := F) _).1 $$ Hseg
  icases Hseg' with ⟨Hsr, Hss⟩
  ihave Hout' := (Entails.of_eq (outPts_cores (F := F) d _)) $$ Hout
  isplitl [Htr Her Hpr Hsr]
  · isplitl [Htr]; · iexact Htr
    isplitl [Her]; · iexact Her
    isplitl [Hpr]; · iexact Hpr
    iexact Hsr
  isplitl [Hts Hes Hps Hss]
  · isplitl [Hts]; · iexact Hts
    isplitl [Hes]; · iexact Hes
    isplitl [Hps]; · iexact Hps
    iexact Hss
  iexact Hout'

theorem cores_join (d : Dev nD) (f : Buf (Elt F) (outLoc d)) :
    iprop(opsAt m d (shareDrop fullShare τ.nSC) ∗ bigSep Finset.univ fun c : Fin τ.nSC => iprop(opsAt m d (shC c) ∗ outLoc d ↦[coreSet c]{fullShare} f))
      ⊢ (iprop(opsAt m d fullShare ∗ outLoc d ↦{fullShare} f) : sProp 𝕄) := by
  simp only [bigSep_sep']
  iintro ⟨⟨Htr, Her, Hpr, Hsr⟩, ⟨Hts, Hes, Hps, Hss⟩, Hout⟩
  isplitl [Htr Her Hpr Hsr Hts Hes Hps Hss]
  · isplitl [Htr Hts]
    · iapply (core_split (F := F) _).2; isplitl [Htr] <;> iassumption
    isplitl [Her Hes]
    · iapply (core_split (F := F) _).2; isplitl [Her] <;> iassumption
    isplitl [Hpr Hps]
    · iapply (core_split (F := F) _).2; isplitl [Hpr] <;> iassumption
    iapply (core_split (F := F) _).2; isplitl [Hsr] <;> iassumption
  · iapply (Entails.of_eq (outPts_cores (F := F) d _).symm); iexact Hout

/-- What @main leaves the claim: the program's result at the specified contents, the four arguments as launched. -/
abbrev FIN (d : Dev nD) : sProp 𝕄 :=
  iprop((resLoc d ↦{fullShare} resC m d) ∗ (a0Loc d ↦{fullShare} m (a0Loc d)) ∗ (a1Loc d ↦{fullShare} m (a1Loc d))
    ∗ (a2Loc d ↦{fullShare} m (a2Loc d)) ∗ a3Loc d ↦{fullShare} m (a3Loc d))

set_option maxHeartbeats 1600000 in
/-- @main on device `d`'s TensorCore: the six head operations over the thirteen arrays held whole, the call (from a read share
    of each operand and the result's entries per SparseCore, back to the same with the result at the specified contents),
    the two tail operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the six head operations
  iapply (wp_hlo_within 𝒱 (SparseCore.T d) none Set.univ (op := opT0) (S := S13) hT0 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S13) hR1 (V := (opT0 (F := F)).result (V0 m d))) $$ [Hb Hheld]
  · isplitl [Hb] <;> iassumption
  iintro ⟨Hb, Hheld⟩
  rw [wp_ret]; imodintro
  iapply (wp_hlo_within 𝒱 (SparseCore.T d) none Set.univ (op := opT2) (S := S13) hT2 (V := (opR1 (F := F)).result ((opT0 (F := F)).result (V0 m d)))) $$ [Hb Hheld]
  · isplitl [Hb] <;> iassumption
  iintro ⟨Hb, Hheld⟩
  rw [wp_ret]; imodintro
  iapply (wp_hlo_within 𝒱 (SparseCore.T d) none Set.univ (op := opT3) (S := S13) hT3
    (V := (opT2 (F := F)).result ((opR1 (F := F)).result ((opT0 (F := F)).result (V0 m d))))) $$ [Hb Hheld]
  · isplitl [Hb] <;> iassumption
  iintro ⟨Hb, Hheld⟩
  rw [wp_ret]; imodintro
  iapply (wp_hlo_within 𝒱 (SparseCore.T d) none Set.univ (op := opR4) (S := S13) hR4
    (V := (opT3 (F := F)).result ((opT2 (F := F)).result ((opR1 (F := F)).result ((opT0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := opR5) (S := S13) hR5
    (V := (opR4 (F := F)).result ((opT3 (F := F)).result ((opT2 (F := F)).result ((opR1 (F := F)).result ((opT0 (F := F)).result (V0 m d))))))) $$ [Hb Hheld]
  · isplitl [Hb] <;> iassumption
  iintro ⟨Hb, Hheld⟩
  rw [wp_ret]; imodintro
  -- the call: a read share of each operand and the result's entries to each SparseCore, and back
  ihave Hh := (Entails.of_eq (held_V6 (F := F) m d)) $$ Hheld
  icases Hh with ⟨Ha0, Ha1, Ha2, Ha3, Hw0, Htok, Hemb, Hw3, Hpos, Hseg, Hout, Hw7, Hw8⟩
  ihave Hsp := (cores_split m d _) $$ [Htok Hemb Hpos Hseg Hout]
  · isplitl [Htok Hemb Hpos Hseg]
    · isplitl [Htok]; · iexact Htok
      isplitl [Hemb]; · iexact Hemb
      isplitl [Hpos]; · iexact Hpos
      iexact Hseg
    · iexact Hout
  icases Hsp with ⟨Hrest, Hcores⟩
  iapply ((K (F := F)).wp_run (D (F := F)) 𝒱 (EH := EH) (P := P m) κ d 0) $$ [Hst Hcores Hb Ha0 Ha1 Ha2 Ha3 Hw0 Hw3 Hw7 Hw8 Hrest]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hj := (cores_join m d _) $$ [Hrest Hdn']
  · isplitl [Hrest] <;> iassumption
  icases Hj with ⟨⟨Htok, Hemb, Hpos, Hseg⟩, Hout⟩
  -- the two tail operations
  iapply (wp_hlo_within 𝒱 (SparseCore.T d) none Set.univ (op := opT7) (S := S13) hT7 (V := V7 m d)) $$ [Hb Ha0 Ha1 Ha2 Ha3 Hw0 Htok Hemb Hw3 Hpos Hseg Hout Hw7 Hw8]
  · isplitl [Hb]; · iexact Hb
    rw [held_V7]
    isplitl [Ha0]; · iexact Ha0
    isplitl [Ha1]; · iexact Ha1
    isplitl [Ha2]; · iexact Ha2
    isplitl [Ha3]; · iexact Ha3
    isplitl [Hw0]; · iexact Hw0
    isplitl [Htok]; · iexact Htok
    isplitl [Hemb]; · iexact Hemb
    isplitl [Hw3]; · iexact Hw3
    isplitl [Hpos]; · iexact Hpos
    isplitl [Hseg]; · iexact Hseg
    isplitl [Hout]; · iexact Hout
    isplitl [Hw7]; · iexact Hw7
    iexact Hw8
  iintro ⟨Hb, Hheld⟩
  rw [wp_ret]; imodintro
  iapply (wp_hlo_within 𝒱 (SparseCore.T d) none Set.univ (op := opR8) (S := S13) hR8 (V := (opT7 (F := F)).result (V7 m d))) $$ [Hb Hheld]
  · isplitl [Hb] <;> iassumption
  iintro ⟨Hb, Hheld⟩
  ihave Hh := (Entails.of_eq (held_V9 (F := F) m d)) $$ Hheld
  icases Hh with ⟨Ha0, Ha1, Ha2, Ha3, -, -, -, -, -, -, -, -, Hres⟩
  rw [wp_ret]; imodintro; imodintro
  isplitl [Hst]; · iexact Hst
  isplitl [Hres]; · iexact Hres
  isplitl [Ha0]; · iexact Ha0
  isplitl [Ha1]; · iexact Ha1
  isplitl [Ha2]; · iexact Ha2
  iexact Ha3

/-! ## The program's run -/

def fq (d : Dev nD) (s' : Phys nD τ sig (Elt F)) : Prop :=
  s'.mem.mem (resLoc d) = resC m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

omit [FloatOps F] in
/-- An array held whole reads its contents off the final memory. -/
theorem agree_whole {R : sProp 𝕄} {ℓ : Loc nD τ sig} {f : Buf (Elt F) ℓ} (s' : Phys nD τ sig (Elt F)) (h : R ⊢ iprop((ℓ ↦{fullShare} f) ∗ True)) :
    iprop(R ∗ SI s') ⊢ (⌜s'.mem.mem ℓ = f⌝ : sProp 𝕄) := by
  iintro ⟨HR, HSI⟩
  ihave HR' := h $$ HR
  icases HR' with ⟨Hx, -⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h0 := agree_whole (F := F) (R := FIN m d) (ℓ := resLoc d) (f := resC m d) s' (by iintro ⟨H, -⟩; isplitl [H]; · iexact H
                                                                                        ipureintro; trivial)
  have h1 := agree_whole (F := F) (R := FIN m d) (ℓ := a0Loc d) (f := m (a0Loc d)) s' (by iintro ⟨-, H, -⟩; isplitl [H]; · iexact H
                                                                                          ipureintro; trivial)
  have h2 := agree_whole (F := F) (R := FIN m d) (ℓ := a1Loc d) (f := m (a1Loc d)) s' (by iintro ⟨-, -, H, -⟩; isplitl [H]; · iexact H
                                                                                          ipureintro; trivial)
  have h3 := agree_whole (F := F) (R := FIN m d) (ℓ := a2Loc d) (f := m (a2Loc d)) s' (by iintro ⟨-, -, -, H, -⟩; isplitl [H]; · iexact H
                                                                                          ipureintro; trivial)
  have h4 := agree_whole (F := F) (R := FIN m d) (ℓ := a3Loc d) (f := m (a3Loc d)) s' (by iintro ⟨-, -, -, -, H⟩; isplitl [H]; · iexact H
                                                                                          ipureintro; trivial)
  exact fun x hx => ⟨h0 x hx, h1 x hx, h2 x hx, h3 x hx, h4 x hx⟩

/-- What the run ends in: on every device the program's result holds the two tail operations applied to the lookup's
    specified result over the head operations applied to the four arguments, and the arguments are as launched. -/
def QC : PUnit × MemSt nD τ sig (Elt F) → Prop := fun r => ∀ c : Dev nD,
  r.2.mem ((c.tc : Thread nD τ).loc main_v8) = resC m c ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_main [∀ e, Nonempty (Elt F e)] (hr : ∀ (d : Dev nD) i, ((m (a0Loc d) : IVec S1024x200 32) i).toNat < 100000)
    (hbody : TileBodySpec (F := F) m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => vecSplit m)
    m ρ main (fun _ => iprop(emp)) (FIN m) (u₀ (F := F)) (hu₀ m) (hmain m ρ) (fq m) (hfin m) (QC m) (fun _ h => h)

end Cert.Proof.LaunchKernel

end
-- ==== Proof.NestSpec.lean ====
/-
  What the compute nest leaves in a staging buffer. One nest fills a `4 × 1 × 8 × 1 × 128` staging buffer from 4096
  token words `tb`, one row of the feature-major word table `row` (`1 × 100000`) and a vector of biases `bias`:
  the entry `(r, 0, c, 0, x)` is the row's entry at the token `tb[r * 1024 + c * 128 + x]` (the word reduced below the
  table's height) plus `bias[l0 + r]`, the bias of the `r`-th of the four positions the nest handles.
  The nest runs `4 × 4` trips; trip `(t2, t3)` stores sixteen vectors of sixteen lanes, the `k`-th at
  `(t2, 0, 2 * t3 + k / 8, 0, 16 * (k % 8))`, which are the entries whose token position lies in
  `[1024 * t2 + 256 * t3, 1024 * t2 + 256 * t3 + 256)`. So "every entry whose token position is below `n` holds the
  nest's value" is kept by a trip, which moves `n` up by 256.
-/
import proofs.«203565_g79912161509654_cont_9to1_m_411_39_alg».proof.KernelIdeal
import proofs.«203565_g79912161509654_cont_9to1_m_411_39_alg».proof.Proof.Spec
import Idealize.ShloMosaic.Lib.Writes
import Idealize.ShloMosaic.Lib.ValueLayout

noncomputable section

namespace Cert.Proof.Nest

open Idealize.ShloMosaic Idealize.ShloMosaic.ValueIdx Cert.KernelIdeal Cert.Proof.Spec

variable {F : FTy → Type} [FloatOps F]

/-- The position among the 4096 token words that entry `(r, 0, c, 0, x)` of the staging buffer reads: `r * 1024 + c * 128 + x`. -/
def flatOf (y : S4x1x8x1x128.Idx) : Fin 4096 :=
  ⟨(y 0).val * 1024 + (y 2).val * 128 + (y 4).val, by
    have h0 : (y 0).val < 4 := (y 0).isLt
    have h2 : (y 2).val < 8 := (y 2).isLt
    have h4 : (y 4).val < 128 := (y 4).isLt
    omega⟩

/-- The staging buffer's contents after a nest: the looked-up entry of the row plus the position's bias. -/
def nestG (row : FVec F S1x100000 .f32) (tb : IVec S4096 32) (bias : FVec F S208 .f32) (l0 : Nat) (hl0 : l0 + 4 ≤ 208) :
    FVec F S4x1x8x1x128 .f32 :=
  fun y => FloatOps.addf (row (ix2 (0 : Fin 1) (col (tb (ix1 (flatOf y))))))
    (bias (ix1 (⟨l0 + (y 0).val, by have h0 : (y 0).val < 4 := (y 0).isLt; omega⟩ : Fin 208)))

/-! ## The lanes of one stored vector -/

/-- A gathered bias vector whose sixteen indices are all the word `w` reads `bias[w]` in every lane. -/
theorem bias_lane (bias bias' : FVec F S208 .f32) (hbias : bias' = bias) (w : BitVec 32)
    (h : ∀ a x, ((![broadcast S16 w] : Fin 1 → IVec S16 32) a x).toNat < S208.size a) (l : Nat) (hw : w.toNat = l)
    (i : Fin 16) (b : Fin 208) (hb : b.val = l) :
    loadIdx (F := F) (s := S208) (t := S16) (e := .f32) bias' ![broadcast S16 w] h (ix1 i) = bias (ix1 b) := by
  subst hbias
  unfold loadIdx idxAt
  refine congrArg bias' (funext fun a => ?_)
  match a with
  | ⟨0, _⟩ => exact Fin.ext (by show w.toNat = b.val; omega)

/-- Sixteen consecutive token words read from position `m`: lane `i` is the word at `m + i`. -/
theorem readAt_lane (tb : IVec S4096 32) (o : Fin 1 → Nat) (inb : ∀ a, o a + S16.size a ≤ S4096.size a) (m : Nat)
    (ho : o = ![m]) (i : Fin 16) (q : Fin 4096) (hq : q.val = m + i.val) :
    tb ((Rect.unit (s := S4096) o S16.size inb).toLoadRect.idx (ix1 i)) = tb (ix1 q) := by
  subst ho
  refine congrArg tb (funext fun a => ?_)
  match a with
  | ⟨0, _⟩ => exact Fin.ext (by show m + 1 * i.val = q.val; omega)

/-- One lane of a stored vector: the row gathered at the token words `tv` (row index `0`), plus the bias vector. -/
theorem pay_lane (row row' : FVec F S1x100000 .f32) (hrow : row' = row) (tb : IVec S4096 32) (bias : FVec F S208 .f32) (v2 tv : IVec S16 32)
    (hidx : ∀ a x, ((![v2, tv] : Fin 2 → IVec S16 32) a x).toNat < S1x100000.size a) (hz : ∀ x, (v2 x).toNat < 1)
    (v314 : FVec F S16 .f32) (m l : Nat)
    (htv : ∀ (i : Fin 16) (q : Fin 4096), q.val = m + i.val → tv (ix1 i) = tb (ix1 q))
    (hv : ∀ (i : Fin 16) (b : Fin 208), b.val = l → v314 (ix1 i) = bias (ix1 b))
    (i : Fin 16) (q : Fin 4096) (b : Fin 208) (hq : q.val = m + i.val) (hb : b.val = l) :
    addf (loadIdx (F := F) (s := S1x100000) (t := S16) (e := .f32) row' ![v2, tv] hidx : FVec F S16 .f32) v314 (ix1 i)
      = FloatOps.addf (row (ix2 (0 : Fin 1) (col (tb (ix1 q))))) (bias (ix1 b)) := by
  subst hrow
  show FloatOps.addf (loadIdx (F := F) (s := S1x100000) (t := S16) (e := .f32) row' ![v2, tv] hidx (ix1 i)) (v314 (ix1 i)) = _
  rw [hv i b hb]
  congr 1
  unfold loadIdx idxAt
  refine congrArg row' (funext fun a => ?_)
  match a with
  | ⟨0, _⟩ => exact Fin.ext (by show (v2 (ix1 i)).toNat = 0; have := hz (ix1 i); omega)
  | ⟨1, _⟩ =>
    refine Fin.ext ?_
    show (tv (ix1 i)).toNat = (tb (ix1 q)).toNat % 100000
    have h1 : (tv (ix1 i)).toNat < 100000 := hidx 1 (ix1 i)
    rw [← htv i q hq, Nat.mod_eq_of_lt h1]

/-! ## One stored vector against the nest's value -/

/-- An entry lies in the sixteen-lane rectangle at `(r, 0, c, 0, x0)` when its coordinates say so. -/
theorem mem_unit16 {o : Fin 5 → Nat} {inb : ∀ a, o a + S1x1x1x1x16.size a ≤ S4x1x8x1x128.size a} (y : S4x1x8x1x128.Idx)
    (r c x0 : Nat) (ho : o = ![r, 0, c, 0, x0]) (h0 : (y 0).val = r) (h2 : (y 2).val = c)
    (h4 : x0 ≤ (y 4).val ∧ (y 4).val < x0 + 16) : y ∈ (Rect.unit (s := S4x1x8x1x128) o S1x1x1x1x16.size inb).set := by
  subst ho
  rw [Rect.mem_set_unit]
  intro a
  match a with
  | ⟨0, _⟩ => show r ≤ (y 0).val ∧ (y 0).val < r + 1; omega
  | ⟨1, _⟩ => show 0 ≤ (y 1).val ∧ (y 1).val < 0 + 1; have : (y 1).val < 1 := (y 1).isLt; omega
  | ⟨2, _⟩ => show c ≤ (y 2).val ∧ (y 2).val < c + 1; omega
  | ⟨3, _⟩ => show 0 ≤ (y 3).val ∧ (y 3).val < 0 + 1; have : (y 3).val < 1 := (y 3).isLt; omega
  | ⟨4, _⟩ => show x0 ≤ (y 4).val ∧ (y 4).val < x0 + 16; omega

/-- A stored vector whose lanes are the looked-up entries at token positions `r * 1024 + c * 128 + x0 + i` plus
    `bias[l0 + r]` agrees with the nest's value on the rectangle at `(r, 0, c, 0, x0)`. -/
theorem piece_agree (row : FVec F S1x100000 .f32) (tb : IVec S4096 32) (bias : FVec F S208 .f32) (l0 : Nat) (hl0 : l0 + 4 ≤ 208)
    (o : Fin 5 → Nat) (inb : ∀ a, o a + S1x1x1x1x16.size a ≤ S4x1x8x1x128.size a) (r c x0 : Nat) (ho : o = ![r, 0, c, 0, x0])
    (p : FVec F S16 .f32) (hc : S16.ShapeCasts S1x1x1x1x16)
    (hp : ∀ (i : Fin 16) (q : Fin 4096) (b : Fin 208), q.val = r * 1024 + c * 128 + x0 + i.val → b.val = l0 + r →
      p (ix1 i) = FloatOps.addf (row (ix2 (0 : Fin 1) (col (tb (ix1 q))))) (bias (ix1 b)))
    (x : S1x1x1x1x16.Idx) :
    shapeCast S1x1x1x1x16 p hc x = nestG row tb bias l0 hl0 ((Rect.unit (s := S4x1x8x1x128) o S1x1x1x1x16.size inb).emb x) := by
  subst ho
  have x0lt : (x 0).val < 1 := (x 0).isLt
  have x1lt : (x 1).val < 1 := (x 1).isLt
  have x2lt : (x 2).val < 1 := (x 2).isLt
  have x3lt : (x 3).val < 1 := (x 3).isLt
  have e : shapeCast S1x1x1x1x16 p hc x = p (ix1 (x 4 : Fin 16)) :=
    shapeCast_apply p hc x (ix1 (x 4 : Fin 16)) (by
      rw [Shape.rowMajor_val_one, Shape.rowMajor_val_five]
      show (x 4).val = ((((x 0).val * 1 + (x 1).val) * 1 + (x 2).val) * 1 + (x 3).val) * 16 + (x 4).val
      omega)
  rw [e]
  unfold nestG
  refine hp (x 4 : Fin 16) _ _ ?_ ?_
  · show (r + 1 * (x 0).val) * 1024 + (c + 1 * (x 2).val) * 128 + (x0 + 1 * (x 4).val) = r * 1024 + c * 128 + x0 + (x 4).val
    omega
  · show l0 + (r + 1 * (x 0).val) = l0 + r
    omega

/-! ## A trip keeps "filled below `n`" -/

variable {sig : RefSig} {κ : Kind} {sp : Space}

/-- Writes that agree with `G` and cover the entries at token positions `[n, n + 256)` move "filled below `n`" to
    "filled below `n + 256`". -/
theorem filled_step (v : View sig κ sp S4x1x8x1x128 .f32) (G : FVec F S4x1x8x1x128 .f32) (g : v.ty.Contents (Elt F)) (n : Nat)
    (hg : ∀ y, (flatOf y).val < n → v.read (Elt F) g y = G y)
    (L : List (View.Piece (Elt F) S4x1x8x1x128 .f32))
    (hG : ∀ p ∈ L, ∀ x : p.1.shape.Idx, p.2 x = G (p.1.emb x))
    (hcov : ∀ y, n ≤ (flatOf y).val → (flatOf y).val < n + 256 → ∃ p ∈ L, y ∈ p.1.set) :
    ∀ y, (flatOf y).val < n + 256 → v.read (Elt F) (v.writes (Elt F) g L) y = G y := by
  intro y hy
  by_cases h : ∃ p ∈ L, y ∈ p.1.set
  · exact View.read_writes_apply_of_pieces v g G L hG y h
  · rw [View.read_writes_apply_of_forall_not_mem v g y L (fun p hp hm => h ⟨p, hp, hm⟩)]
    refine hg y ?_
    by_contra hn
    exact h (hcov y (by omega) hy)

/-- Trip `(t2, t3)` of a nest: its sixteen stores (the last first), each at its rectangle `o_k` in closed form and each
    vector `p_k` with lanes the looked-up entries at token positions `1024 * t2 + 256 * t3 + 16 * k + i` plus
    `bias[l0 + t2]`, move "filled below `1024 * t2 + 256 * t3`" up by 256. -/
theorem filled_step16 (v : View sig κ sp S4x1x8x1x128 .f32) (row : FVec F S1x100000 .f32) (tb : IVec S4096 32)
    (bias : FVec F S208 .f32) (l0 : Nat) (hl0 : l0 + 4 ≤ 208) (g : v.ty.Contents (Elt F)) (t2 t3 : Nat) (ht2 : t2 < 4) (ht3 : t3 < 4)
    (hg : ∀ y, (flatOf y).val < 1024 * t2 + 256 * t3 → v.read (Elt F) g y = nestG row tb bias l0 hl0 y)
    {hc : S16.ShapeCasts S1x1x1x1x16}
    {o0 : Fin 5 → Nat} {i0 : ∀ a, o0 a + S1x1x1x1x16.size a ≤ S4x1x8x1x128.size a} {p0 : FVec F S16 .f32}
    {o1 : Fin 5 → Nat} {i1 : ∀ a, o1 a + S1x1x1x1x16.size a ≤ S4x1x8x1x128.size a} {p1 : FVec F S16 .f32}
    {o2 : Fin 5 → Nat} {i2 : ∀ a, o2 a + S1x1x1x1x16.size a ≤ S4x1x8x1x128.size a} {p2 : FVec F S16 .f32}
    {o3 : Fin 5 → Nat} {i3 : ∀ a, o3 a + S1x1x1x1x16.size a ≤ S4x1x8x1x128.size a} {p3 : FVec F S16 .f32}
    {o4 : Fin 5 → Nat} {i4 : ∀ a, o4 a + S1x1x1x1x16.size a ≤ S4x1x8x1x128.size a} {p4 : FVec F S16 .f32}
    {o5 : Fin 5 → Nat} {i5 : ∀ a, o5 a + S1x1x1x1x16.size a ≤ S4x1x8x1x128.size a} {p5 : FVec F S16 .f32}
    {o6 : Fin 5 → Nat} {i6 : ∀ a, o6 a + S1x1x1x1x16.size a ≤ S4x1x8x1x128.size a} {p6 : FVec F S16 .f32}
    {o7 : Fin 5 → Nat} {i7 : ∀ a, o7 a + S1x1x1x1x16.size a ≤ S4x1x8x1x128.size a} {p7 : FVec F S16 .f32}
    {o8 : Fin 5 → Nat} {i8 : ∀ a, o8 a + S1x1x1x1x16.size a ≤ S4x1x8x1x128.size a} {p8 : FVec F S16 .f32}
    {o9 : Fin 5 → Nat} {i9 : ∀ a, o9 a + S1x1x1x1x16.size a ≤ S4x1x8x1x128.size a} {p9 : FVec F S16 .f32}
    {o10 : Fin 5 → Nat} {i10 : ∀ a, o10 a + S1x1x1x1x16.size a ≤ S4x1x8x1x128.size a} {p10 : FVec F S16 .f32}
    {o11 : Fin 5 → Nat} {i11 : ∀ a, o11 a + S1x1x1x1x16.size a ≤ S4x1x8x1x128.size a} {p11 : FVec F S16 .f32}
    {o12 : Fin 5 → Nat} {i12 : ∀ a, o12 a + S1x1x1x1x16.size a ≤ S4x1x8x1x128.size a} {p12 : FVec F S16 .f32}
    {o13 : Fin 5 → Nat} {i13 : ∀ a, o13 a + S1x1x1x1x16.size a ≤ S4x1x8x1x128.size a} {p13 : FVec F S16 .f32}
    {o14 : Fin 5 → Nat} {i14 : ∀ a, o14 a + S1x1x1x1x16.size a ≤ S4x1x8x1x128.size a} {p14 : FVec F S16 .f32}
    {o15 : Fin 5 → Nat} {i15 : ∀ a, o15 a + S1x1x1x1x16.size a ≤ S4x1x8x1x128.size a} {p15 : FVec F S16 .f32}
    (h0 : o0 = ![t2, 0, 2 * t3 + 0, 0, 0])
    (h1 : o1 = ![t2, 0, 2 * t3 + 0, 0, 16])
    (h2 : o2 = ![t2, 0, 2 * t3 + 0, 0, 32])
    (h3 : o3 = ![t2, 0, 2 * t3 + 0, 0, 48])
    (h4 : o4 = ![t2, 0, 2 * t3 + 0, 0, 64])
    (h5 : o5 = ![t2, 0, 2 * t3 + 0, 0, 80])
    (h6 : o6 = ![t2, 0, 2 * t3 + 0, 0, 96])
    (h7 : o7 = ![t2, 0, 2 * t3 + 0, 0, 112])
    (h8 : o8 = ![t2, 0, 2 * t3 + 1, 0, 0])
    (h9 : o9 = ![t2, 0, 2 * t3 + 1, 0, 16])
    (h10 : o10 = ![t2, 0, 2 * t3 + 1, 0, 32])
    (h11 : o11 = ![t2, 0, 2 * t3 + 1, 0, 48])
    (h12 : o12 = ![t2, 0, 2 * t3 + 1, 0, 64])
    (h13 : o13 = ![t2, 0, 2 * t3 + 1, 0, 80])
    (h14 : o14 = ![t2, 0, 2 * t3 + 1, 0, 96])
    (h15 : o15 = ![t2, 0, 2 * t3 + 1, 0, 112])
    (a0 : ∀ (i : Fin 16) (q : Fin 4096) (b : Fin 208), q.val = 1024 * t2 + 256 * t3 + 0 + i.val → b.val = l0 + t2 →
      p0 (ix1 i) = FloatOps.addf (row (ix2 (0 : Fin 1) (col (tb (ix1 q))))) (bias (ix1 b)))
    (a1 : ∀ (i : Fin 16) (q : Fin 4096) (b : Fin 208), q.val = 1024 * t2 + 256 * t3 + 16 + i.val → b.val = l0 + t2 →
      p1 (ix1 i) = FloatOps.addf (row (ix2 (0 : Fin 1) (col (tb (ix1 q))))) (bias (ix1 b)))
    (a2 : ∀ (i : Fin 16) (q : Fin 4096) (b : Fin 208), q.val = 1024 * t2 + 256 * t3 + 32 + i.val → b.val = l0 + t2 →
      p2 (ix1 i) = FloatOps.addf (row (ix2 (0 : Fin 1) (col (tb (ix1 q))))) (bias (ix1 b)))
    (a3 : ∀ (i : Fin 16) (q : Fin 4096) (b : Fin 208), q.val = 1024 * t2 + 256 * t3 + 48 + i.val → b.val = l0 + t2 →
      p3 (ix1 i) = FloatOps.addf (row (ix2 (0 : Fin 1) (col (tb (ix1 q))))) (bias (ix1 b)))
    (a4 : ∀ (i : Fin 16) (q : Fin 4096) (b : Fin 208), q.val = 1024 * t2 + 256 * t3 + 64 + i.val → b.val = l0 + t2 →
      p4 (ix1 i) = FloatOps.addf (row (ix2 (0 : Fin 1) (col (tb (ix1 q))))) (bias (ix1 b)))
    (a5 : ∀ (i : Fin 16) (q : Fin 4096) (b : Fin 208), q.val = 1024 * t2 + 256 * t3 + 80 + i.val → b.val = l0 + t2 →
      p5 (ix1 i) = FloatOps.addf (row (ix2 (0 : Fin 1) (col (tb (ix1 q))))) (bias (ix1 b)))
    (a6 : ∀ (i : Fin 16) (q : Fin 4096) (b : Fin 208), q.val = 1024 * t2 + 256 * t3 + 96 + i.val → b.val = l0 + t2 →
      p6 (ix1 i) = FloatOps.addf (row (ix2 (0 : Fin 1) (col (tb (ix1 q))))) (bias (ix1 b)))
    (a7 : ∀ (i : Fin 16) (q : Fin 4096) (b : Fin 208), q.val = 1024 * t2 + 256 * t3 + 112 + i.val → b.val = l0 + t2 →
      p7 (ix1 i) = FloatOps.addf (row (ix2 (0 : Fin 1) (col (tb (ix1 q))))) (bias (ix1 b)))
    (a8 : ∀ (i : Fin 16) (q : Fin 4096) (b : Fin 208), q.val = 1024 * t2 + 256 * t3 + 128 + i.val → b.val = l0 + t2 →
      p8 (ix1 i) = FloatOps.addf (row (ix2 (0 : Fin 1) (col (tb (ix1 q))))) (bias (ix1 b)))
    (a9 : ∀ (i : Fin 16) (q : Fin 4096) (b : Fin 208), q.val = 1024 * t2 + 256 * t3 + 144 + i.val → b.val = l0 + t2 →
      p9 (ix1 i) = FloatOps.addf (row (ix2 (0 : Fin 1) (col (tb (ix1 q))))) (bias (ix1 b)))
    (a10 : ∀ (i : Fin 16) (q : Fin 4096) (b : Fin 208), q.val = 1024 * t2 + 256 * t3 + 160 + i.val → b.val = l0 + t2 →
      p10 (ix1 i) = FloatOps.addf (row (ix2 (0 : Fin 1) (col (tb (ix1 q))))) (bias (ix1 b)))
    (a11 : ∀ (i : Fin 16) (q : Fin 4096) (b : Fin 208), q.val = 1024 * t2 + 256 * t3 + 176 + i.val → b.val = l0 + t2 →
      p11 (ix1 i) = FloatOps.addf (row (ix2 (0 : Fin 1) (col (tb (ix1 q))))) (bias (ix1 b)))
    (a12 : ∀ (i : Fin 16) (q : Fin 4096) (b : Fin 208), q.val = 1024 * t2 + 256 * t3 + 192 + i.val → b.val = l0 + t2 →
      p12 (ix1 i) = FloatOps.addf (row (ix2 (0 : Fin 1) (col (tb (ix1 q))))) (bias (ix1 b)))
    (a13 : ∀ (i : Fin 16) (q : Fin 4096) (b : Fin 208), q.val = 1024 * t2 + 256 * t3 + 208 + i.val → b.val = l0 + t2 →
      p13 (ix1 i) = FloatOps.addf (row (ix2 (0 : Fin 1) (col (tb (ix1 q))))) (bias (ix1 b)))
    (a14 : ∀ (i : Fin 16) (q : Fin 4096) (b : Fin 208), q.val = 1024 * t2 + 256 * t3 + 224 + i.val → b.val = l0 + t2 →
      p14 (ix1 i) = FloatOps.addf (row (ix2 (0 : Fin 1) (col (tb (ix1 q))))) (bias (ix1 b)))
    (a15 : ∀ (i : Fin 16) (q : Fin 4096) (b : Fin 208), q.val = 1024 * t2 + 256 * t3 + 240 + i.val → b.val = l0 + t2 →
      p15 (ix1 i) = FloatOps.addf (row (ix2 (0 : Fin 1) (col (tb (ix1 q))))) (bias (ix1 b))) :
    ∀ y, (flatOf y).val < 1024 * t2 + 256 * t3 + 256 →
      v.read (Elt F) (v.writes (Elt F) g
       [⟨Rect.unit (s := S4x1x8x1x128) o15 S1x1x1x1x16.size i15, shapeCast S1x1x1x1x16 p15 hc⟩,
        ⟨Rect.unit (s := S4x1x8x1x128) o14 S1x1x1x1x16.size i14, shapeCast S1x1x1x1x16 p14 hc⟩,
        ⟨Rect.unit (s := S4x1x8x1x128) o13 S1x1x1x1x16.size i13, shapeCast S1x1x1x1x16 p13 hc⟩,
        ⟨Rect.unit (s := S4x1x8x1x128) o12 S1x1x1x1x16.size i12, shapeCast S1x1x1x1x16 p12 hc⟩,
        ⟨Rect.unit (s := S4x1x8x1x128) o11 S1x1x1x1x16.size i11, shapeCast S1x1x1x1x16 p11 hc⟩,
        ⟨Rect.unit (s := S4x1x8x1x128) o10 S1x1x1x1x16.size i10, shapeCast S1x1x1x1x16 p10 hc⟩,
        ⟨Rect.unit (s := S4x1x8x1x128) o9 S1x1x1x1x16.size i9, shapeCast S1x1x1x1x16 p9 hc⟩,
        ⟨Rect.unit (s := S4x1x8x1x128) o8 S1x1x1x1x16.size i8, shapeCast S1x1x1x1x16 p8 hc⟩,
        ⟨Rect.unit (s := S4x1x8x1x128) o7 S1x1x1x1x16.size i7, shapeCast S1x1x1x1x16 p7 hc⟩,
        ⟨Rect.unit (s := S4x1x8x1x128) o6 S1x1x1x1x16.size i6, shapeCast S1x1x1x1x16 p6 hc⟩,
        ⟨Rect.unit (s := S4x1x8x1x128) o5 S1x1x1x1x16.size i5, shapeCast S1x1x1x1x16 p5 hc⟩,
        ⟨Rect.unit (s := S4x1x8x1x128) o4 S1x1x1x1x16.size i4, shapeCast S1x1x1x1x16 p4 hc⟩,
        ⟨Rect.unit (s := S4x1x8x1x128) o3 S1x1x1x1x16.size i3, shapeCast S1x1x1x1x16 p3 hc⟩,
        ⟨Rect.unit (s := S4x1x8x1x128) o2 S1x1x1x1x16.size i2, shapeCast S1x1x1x1x16 p2 hc⟩,
        ⟨Rect.unit (s := S4x1x8x1x128) o1 S1x1x1x1x16.size i1, shapeCast S1x1x1x1x16 p1 hc⟩,
        ⟨Rect.unit (s := S4x1x8x1x128) o0 S1x1x1x1x16.size i0, shapeCast S1x1x1x1x16 p0 hc⟩]) y = nestG row tb bias l0 hl0 y := by
  refine filled_step v (nestG row tb bias l0 hl0) g (1024 * t2 + 256 * t3) hg _ ?hG ?hcov
  case hG =>
    intro p hp
    simp only [List.mem_cons, List.mem_nil_iff, or_false] at hp
    rcases hp with rfl | rfl | rfl | rfl | rfl | rfl | rfl | rfl | rfl | rfl | rfl | rfl | rfl | rfl | rfl | rfl
    · exact piece_agree row tb bias l0 hl0 o15 i15 t2 (2 * t3 + 1) 112 h15 p15 hc
        (fun i q b hq hb => a15 i q b (by omega) hb)
    · exact piece_agree row tb bias l0 hl0 o14 i14 t2 (2 * t3 + 1) 96 h14 p14 hc
        (fun i q b hq hb => a14 i q b (by omega) hb)
    · exact piece_agree row tb bias l0 hl0 o13 i13 t2 (2 * t3 + 1) 80 h13 p13 hc
        (fun i q b hq hb => a13 i q b (by omega) hb)
    · exact piece_agree row tb bias l0 hl0 o12 i12 t2 (2 * t3 + 1) 64 h12 p12 hc
        (fun i q b hq hb => a12 i q b (by omega) hb)
    · exact piece_agree row tb bias l0 hl0 o11 i11 t2 (2 * t3 + 1) 48 h11 p11 hc
        (fun i q b hq hb => a11 i q b (by omega) hb)
    · exact piece_agree row tb bias l0 hl0 o10 i10 t2 (2 * t3 + 1) 32 h10 p10 hc
        (fun i q b hq hb => a10 i q b (by omega) hb)
    · exact piece_agree row tb bias l0 hl0 o9 i9 t2 (2 * t3 + 1) 16 h9 p9 hc
        (fun i q b hq hb => a9 i q b (by omega) hb)
    · exact piece_agree row tb bias l0 hl0 o8 i8 t2 (2 * t3 + 1) 0 h8 p8 hc
        (fun i q b hq hb => a8 i q b (by omega) hb)
    · exact piece_agree row tb bias l0 hl0 o7 i7 t2 (2 * t3 + 0) 112 h7 p7 hc
        (fun i q b hq hb => a7 i q b (by omega) hb)
    · exact piece_agree row tb bias l0 hl0 o6 i6 t2 (2 * t3 + 0) 96 h6 p6 hc
        (fun i q b hq hb => a6 i q b (by omega) hb)
    · exact piece_agree row tb bias l0 hl0 o5 i5 t2 (2 * t3 + 0) 80 h5 p5 hc
        (fun i q b hq hb => a5 i q b (by omega) hb)
    · exact piece_agree row tb bias l0 hl0 o4 i4 t2 (2 * t3 + 0) 64 h4 p4 hc
        (fun i q b hq hb => a4 i q b (by omega) hb)
    · exact piece_agree row tb bias l0 hl0 o3 i3 t2 (2 * t3 + 0) 48 h3 p3 hc
        (fun i q b hq hb => a3 i q b (by omega) hb)
    · exact piece_agree row tb bias l0 hl0 o2 i2 t2 (2 * t3 + 0) 32 h2 p2 hc
        (fun i q b hq hb => a2 i q b (by omega) hb)
    · exact piece_agree row tb bias l0 hl0 o1 i1 t2 (2 * t3 + 0) 16 h1 p1 hc
        (fun i q b hq hb => a1 i q b (by omega) hb)
    · exact piece_agree row tb bias l0 hl0 o0 i0 t2 (2 * t3 + 0) 0 h0 p0 hc
        (fun i q b hq hb => a0 i q b (by omega) hb)
  case hcov =>
    intro y hlo hhi
    have y0 : (y 0).val < 4 := (y 0).isLt
    have y2 : (y 2).val < 8 := (y 2).isLt
    have y4 : (y 4).val < 128 := (y 4).isLt
    have hf : (flatOf y).val = (y 0).val * 1024 + (y 2).val * 128 + (y 4).val := rfl
    have e0 : (y 0).val = t2 := by omega
    have hj : (y 2).val = 2 * t3 + 0 ∨ (y 2).val = 2 * t3 + 1 := by omega
    have hi : (0 ≤ (y 4).val ∧ (y 4).val < 0 + 16) ∨ (16 ≤ (y 4).val ∧ (y 4).val < 16 + 16) ∨ (32 ≤ (y 4).val ∧ (y 4).val < 32 + 16) ∨ (48 ≤ (y 4).val ∧ (y 4).val < 48 + 16) ∨ (64 ≤ (y 4).val ∧ (y 4).val < 64 + 16) ∨ (80 ≤ (y 4).val ∧ (y 4).val < 80 + 16) ∨ (96 ≤ (y 4).val ∧ (y 4).val < 96 + 16) ∨ (112 ≤ (y 4).val ∧ (y 4).val < 112 + 16) := by omega
    rcases hj with e2 | e2 <;> rcases hi with e4 | e4 | e4 | e4 | e4 | e4 | e4 | e4
    · exact ⟨⟨Rect.unit (s := S4x1x8x1x128) o0 S1x1x1x1x16.size i0, shapeCast S1x1x1x1x16 p0 hc⟩,
        by simp only [List.mem_cons, true_or, or_true], mem_unit16 (inb := i0) y t2 (2 * t3 + 0) 0 h0 e0 e2 e4⟩
    · exact ⟨⟨Rect.unit (s := S4x1x8x1x128) o1 S1x1x1x1x16.size i1, shapeCast S1x1x1x1x16 p1 hc⟩,
        by simp only [List.mem_cons, true_or, or_true], mem_unit16 (inb := i1) y t2 (2 * t3 + 0) 16 h1 e0 e2 e4⟩
    · exact ⟨⟨Rect.unit (s := S4x1x8x1x128) o2 S1x1x1x1x16.size i2, shapeCast S1x1x1x1x16 p2 hc⟩,
        by simp only [List.mem_cons, true_or, or_true], mem_unit16 (inb := i2) y t2 (2 * t3 + 0) 32 h2 e0 e2 e4⟩
    · exact ⟨⟨Rect.unit (s := S4x1x8x1x128) o3 S1x1x1x1x16.size i3, shapeCast S1x1x1x1x16 p3 hc⟩,
        by simp only [List.mem_cons, true_or, or_true], mem_unit16 (inb := i3) y t2 (2 * t3 + 0) 48 h3 e0 e2 e4⟩
    · exact ⟨⟨Rect.unit (s := S4x1x8x1x128) o4 S1x1x1x1x16.size i4, shapeCast S1x1x1x1x16 p4 hc⟩,
        by simp only [List.mem_cons, true_or, or_true], mem_unit16 (inb := i4) y t2 (2 * t3 + 0) 64 h4 e0 e2 e4⟩
    · exact ⟨⟨Rect.unit (s := S4x1x8x1x128) o5 S1x1x1x1x16.size i5, shapeCast S1x1x1x1x16 p5 hc⟩,
        by simp only [List.mem_cons, true_or, or_true], mem_unit16 (inb := i5) y t2 (2 * t3 + 0) 80 h5 e0 e2 e4⟩
    · exact ⟨⟨Rect.unit (s := S4x1x8x1x128) o6 S1x1x1x1x16.size i6, shapeCast S1x1x1x1x16 p6 hc⟩,
        by simp only [List.mem_cons, true_or, or_true], mem_unit16 (inb := i6) y t2 (2 * t3 + 0) 96 h6 e0 e2 e4⟩
    · exact ⟨⟨Rect.unit (s := S4x1x8x1x128) o7 S1x1x1x1x16.size i7, shapeCast S1x1x1x1x16 p7 hc⟩,
        by simp only [List.mem_cons, true_or, or_true], mem_unit16 (inb := i7) y t2 (2 * t3 + 0) 112 h7 e0 e2 e4⟩
    · exact ⟨⟨Rect.unit (s := S4x1x8x1x128) o8 S1x1x1x1x16.size i8, shapeCast S1x1x1x1x16 p8 hc⟩,
        by simp only [List.mem_cons, true_or, or_true], mem_unit16 (inb := i8) y t2 (2 * t3 + 1) 0 h8 e0 e2 e4⟩
    · exact ⟨⟨Rect.unit (s := S4x1x8x1x128) o9 S1x1x1x1x16.size i9, shapeCast S1x1x1x1x16 p9 hc⟩,
        by simp only [List.mem_cons, true_or, or_true], mem_unit16 (inb := i9) y t2 (2 * t3 + 1) 16 h9 e0 e2 e4⟩
    · exact ⟨⟨Rect.unit (s := S4x1x8x1x128) o10 S1x1x1x1x16.size i10, shapeCast S1x1x1x1x16 p10 hc⟩,
        by simp only [List.mem_cons, true_or, or_true], mem_unit16 (inb := i10) y t2 (2 * t3 + 1) 32 h10 e0 e2 e4⟩
    · exact ⟨⟨Rect.unit (s := S4x1x8x1x128) o11 S1x1x1x1x16.size i11, shapeCast S1x1x1x1x16 p11 hc⟩,
        by simp only [List.mem_cons, true_or, or_true], mem_unit16 (inb := i11) y t2 (2 * t3 + 1) 48 h11 e0 e2 e4⟩
    · exact ⟨⟨Rect.unit (s := S4x1x8x1x128) o12 S1x1x1x1x16.size i12, shapeCast S1x1x1x1x16 p12 hc⟩,
        by simp only [List.mem_cons, true_or, or_true], mem_unit16 (inb := i12) y t2 (2 * t3 + 1) 64 h12 e0 e2 e4⟩
    · exact ⟨⟨Rect.unit (s := S4x1x8x1x128) o13 S1x1x1x1x16.size i13, shapeCast S1x1x1x1x16 p13 hc⟩,
        by simp only [List.mem_cons, true_or, or_true], mem_unit16 (inb := i13) y t2 (2 * t3 + 1) 80 h13 e0 e2 e4⟩
    · exact ⟨⟨Rect.unit (s := S4x1x8x1x128) o14 S1x1x1x1x16.size i14, shapeCast S1x1x1x1x16 p14 hc⟩,
        by simp only [List.mem_cons, true_or, or_true], mem_unit16 (inb := i14) y t2 (2 * t3 + 1) 96 h14 e0 e2 e4⟩
    · exact ⟨⟨Rect.unit (s := S4x1x8x1x128) o15 S1x1x1x1x16.size i15, shapeCast S1x1x1x1x16 p15 hc⟩,
        by simp only [List.mem_cons, true_or, or_true], mem_unit16 (inb := i15) y t2 (2 * t3 + 1) 112 h15 e0 e2 e4⟩

end Cert.Proof.Nest

end
-- ==== Proof.OutOffs.lean ====
/-
  Where a tile's result chunks sit. In trip `t` of its feature loop the tile at grid point `i` (SparseCore `i 0`,
  subcore `i 1`) works on feature `4 * (i 1) + 2 * (i 0) + t`; the chunk of four positions starting at position `p`
  of that feature is the rectangle of the result array at offsets `(p, feature / 8, 0, feature % 8, 0)`. Each of the
  kernel's ten ways of computing such offsets is that closed form, decided over the 32 tiles, the two features of each and,
  inside the steady-state loop, its 23 trips.
-/
import proofs.«203565_g79912161509654_cont_9to1_m_411_39_alg».proof.KernelIdeal

namespace Cert.Proof.Body

open Cert.KernelIdeal

/-- The feature the tile at grid point `i` handles in trip `t`. -/
def featN (i : grid0.Coords) (t : Fin k0_t1_loop.trips) : Nat := 4 * (i 1).val + 2 * (i 0).val + t.val

theorem off13_eq : ∀ (i : grid0.Coords) (t : Fin k0_t1_loop.trips), k0_off13 i t = ![0, featN i t / 8, 0, featN i t % 8, 0] := by decide +kernel
theorem off23_eq : ∀ (i : grid0.Coords) (t : Fin k0_t1_loop.trips), k0_off23 i t = ![4, featN i t / 8, 0, featN i t % 8, 0] := by decide +kernel
theorem off25_eq : ∀ (i : grid0.Coords) (t : Fin k0_t1_loop.trips) (u : Fin k0_t6_loop.trips), k0_off25 i t u = ![8 * u.val, featN i t / 8, 0, featN i t % 8, 0] := by decide +kernel
theorem off35_eq : ∀ (i : grid0.Coords) (t : Fin k0_t1_loop.trips) (u : Fin k0_t6_loop.trips), k0_off35 i t u = ![8 * u.val + 8, featN i t / 8, 0, featN i t % 8, 0] := by decide +kernel
theorem off37_eq : ∀ (i : grid0.Coords) (t : Fin k0_t1_loop.trips) (u : Fin k0_t6_loop.trips), k0_off37 i t u = ![8 * u.val + 4, featN i t / 8, 0, featN i t % 8, 0] := by decide +kernel
theorem off47_eq : ∀ (i : grid0.Coords) (t : Fin k0_t1_loop.trips) (u : Fin k0_t6_loop.trips), k0_off47 i t u = ![8 * u.val + 12, featN i t / 8, 0, featN i t % 8, 0] := by decide +kernel
theorem off49_eq : ∀ (i : grid0.Coords) (t : Fin k0_t1_loop.trips), k0_off49 i t = ![184, featN i t / 8, 0, featN i t % 8, 0] := by decide +kernel
theorem off59_eq : ∀ (i : grid0.Coords) (t : Fin k0_t1_loop.trips), k0_off59 i t = ![192, featN i t / 8, 0, featN i t % 8, 0] := by decide +kernel
theorem off60_eq : ∀ (i : grid0.Coords) (t : Fin k0_t1_loop.trips), k0_off60 i t = ![188, featN i t / 8, 0, featN i t % 8, 0] := by decide +kernel
theorem off70_eq : ∀ (i : grid0.Coords) (t : Fin k0_t1_loop.trips), k0_off70 i t = ![196, featN i t / 8, 0, featN i t % 8, 0] := by decide +kernel

end Cert.Proof.Body
-- ==== Proof.OutSets.lean ====
/-
  A tile's part of the result array, by feature and by position.

  An entry of the result has five coordinates (position, d / 8, b / 128, d % 8, b % 128); its feature is
  8 * (d / 8) + d % 8. In trip t the tile at grid point i works on ONE feature, `featN i t`, and writes that feature's
  entries in fifty chunks of four consecutive positions: the chunk at position p is the rectangle of offsets
  (p, feature / 8, 0, feature % 8, 0) and sizes (4, 1, 8, 1, 128). What is still to write (positions from p on) loses the
  chunk at p and becomes what is to write from p + 4 on; what is done (positions below p) gains it. The tile's two
  features make up its whole part. Last, each rectangle the program slices out of the result, in the program's own
  spelling of its offsets, is one of these chunks.
-/
import proofs.«203565_g79912161509654_cont_9to1_m_411_39_alg».proof.Proof.LaunchDefs
import proofs.«203565_g79912161509654_cont_9to1_m_411_39_alg».proof.Proof.OutOffs

noncomputable section

namespace Cert.Proof.Body

open Cert.KernelIdeal Cert.KernelIdeal.Gen Cert.Proof.LaunchKernelIdeal Idealize.ShloMosaic

/-! ## The bounds of the coordinates -/

theorem core_lt (i : grid0.Coords) : (i 0).val < 2 := (i 0).isLt
theorem sub_lt (i : grid0.Coords) : (i 1).val < 16 := (i 1).isLt
theorem trips1_lt (t : Fin k0_t1_loop.trips) : t.val < 2 := Nat.lt_of_lt_of_le t.isLt k0_t1_abs.2.1
theorem trips6_lt (u : Fin k0_t6_loop.trips) : u.val < 23 := Nat.lt_of_lt_of_le u.isLt k0_t6_abs.2.1

/-- A tile's feature is one of the 64. -/
theorem featN_lt (i : grid0.Coords) (t : Fin k0_t1_loop.trips) : featN i t < 64 := by
  have := core_lt i; have := sub_lt i; have := trips1_lt t
  unfold featN; omega

/-! ## One feature's entries, those still to write and those done -/

/-- The entries of the result of the feature the tile works on in trip `t`. -/
def featSet (i : grid0.Coords) (t : Fin k0_t1_loop.trips) : Finset S200x8x8x8x128.Idx :=
  Finset.univ.filter fun j => featOf j = featN i t
/-- Those at positions from `p` on. -/
def remSet (i : grid0.Coords) (t : Fin k0_t1_loop.trips) (p : Nat) : Finset S200x8x8x8x128.Idx :=
  (featSet i t).filter fun j => p ≤ (j 0).val
/-- Those at positions below `p`. -/
def doneSet (i : grid0.Coords) (t : Fin k0_t1_loop.trips) (p : Nat) : Finset S200x8x8x8x128.Idx :=
  (featSet i t).filter fun j => (j 0).val < p

theorem mem_featSet {i : grid0.Coords} {t : Fin k0_t1_loop.trips} {j : S200x8x8x8x128.Idx} :
    j ∈ featSet i t ↔ featOf j = featN i t := by
  unfold featSet; rw [Finset.mem_filter]; exact ⟨fun h => h.2, fun h => ⟨Finset.mem_univ _, h⟩⟩
theorem mem_remSet {i : grid0.Coords} {t : Fin k0_t1_loop.trips} {p : Nat} {j : S200x8x8x8x128.Idx} :
    j ∈ remSet i t p ↔ featOf j = featN i t ∧ p ≤ (j 0).val := by
  unfold remSet; rw [Finset.mem_filter, mem_featSet]
theorem mem_doneSet {i : grid0.Coords} {t : Fin k0_t1_loop.trips} {p : Nat} {j : S200x8x8x8x128.Idx} :
    j ∈ doneSet i t p ↔ featOf j = featN i t ∧ (j 0).val < p := by
  unfold doneSet; rw [Finset.mem_filter, mem_featSet]

/-! ## A chunk -/

/-- The chunk at position `p` lies inside the result. -/
theorem chunk_inb (i : grid0.Coords) (t : Fin k0_t1_loop.trips) (p : Nat) (hp : p + 4 ≤ 200) :
    ∀ a, (![p, featN i t / 8, 0, featN i t % 8, 0] : Fin 5 → Nat) a + S4x1x8x1x128.size a ≤ S200x8x8x8x128.size a := by
  intro a
  have h := featN_lt i t
  match a with
  | ⟨0, _⟩ => show p + 4 ≤ 200; omega
  | ⟨1, _⟩ => show featN i t / 8 + 1 ≤ 8; omega
  | ⟨2, _⟩ => show 0 + 8 ≤ 8; omega
  | ⟨3, _⟩ => show featN i t % 8 + 1 ≤ 8; omega
  | ⟨4, _⟩ => show 0 + 128 ≤ 128; omega

/-- The chunk of four positions at `p` of the tile's feature, as a rectangle of the result. -/
abbrev chunkRect (i : grid0.Coords) (t : Fin k0_t1_loop.trips) (p : Nat) (hp : p + 4 ≤ 200) : Rect S200x8x8x8x128 :=
  Rect.unit (s := S200x8x8x8x128) ![p, featN i t / 8, 0, featN i t % 8, 0] S4x1x8x1x128.size (chunk_inb i t p hp)

/-- Its entries. -/
def chunkSet (i : grid0.Coords) (t : Fin k0_t1_loop.trips) (p : Nat) (hp : p + 4 ≤ 200) : Finset S200x8x8x8x128.Idx :=
  (chunkRect i t p hp).set

/-- An entry is in the chunk at `p` when its position is one of the four from `p` and its feature the tile's. -/
theorem mem_chunkSet {i : grid0.Coords} {t : Fin k0_t1_loop.trips} {p : Nat} {hp : p + 4 ≤ 200} {j : S200x8x8x8x128.Idx} :
    j ∈ chunkSet i t p hp ↔ p ≤ (j 0).val ∧ (j 0).val < p + 4 ∧ featOf j = featN i t := by
  unfold chunkSet
  rw [Rect.mem_set_unit]
  have hf := featN_lt i t
  have h1 : (j 1).val < 8 := (j 1).isLt
  have h2 : (j 2).val < 8 := (j 2).isLt
  have h3 : (j 3).val < 8 := (j 3).isLt
  have h4 : (j 4).val < 128 := (j 4).isLt
  unfold featOf
  constructor
  · intro h
    have a0 : p ≤ (j 0).val ∧ (j 0).val < p + 4 := h 0
    have a1 : featN i t / 8 ≤ (j 1).val ∧ (j 1).val < featN i t / 8 + 1 := h 1
    have a3 : featN i t % 8 ≤ (j 3).val ∧ (j 3).val < featN i t % 8 + 1 := h 3
    omega
  · rintro ⟨hlo, hhi, hfe⟩ a
    match a with
    | ⟨0, _⟩ => exact (show p ≤ (j 0).val ∧ (j 0).val < p + 4 from ⟨hlo, hhi⟩)
    | ⟨1, _⟩ => exact (show featN i t / 8 ≤ (j 1).val ∧ (j 1).val < featN i t / 8 + 1 from by omega)
    | ⟨2, _⟩ => exact (show 0 ≤ (j 2).val ∧ (j 2).val < 0 + 8 from by omega)
    | ⟨3, _⟩ => exact (show featN i t % 8 ≤ (j 3).val ∧ (j 3).val < featN i t % 8 + 1 from by omega)
    | ⟨4, _⟩ => exact (show 0 ≤ (j 4).val ∧ (j 4).val < 0 + 128 from by omega)

/-! ## Carving a chunk out of what is to write, joining it to what is done -/

section Carve
variable (i : grid0.Coords) (t : Fin k0_t1_loop.trips) (p : Nat) (hp : p + 4 ≤ 200)

theorem chunk_sub_rem : chunkSet i t p hp ⊆ remSet i t p := fun j h => by
  rw [mem_chunkSet] at h; rw [mem_remSet]; exact ⟨h.2.2, h.1⟩

theorem rem_sdiff_chunk : remSet i t p \ chunkSet i t p hp = remSet i t (p + 4) := by
  ext j
  rw [Finset.mem_sdiff, mem_remSet, mem_remSet, mem_chunkSet]
  omega

theorem done_disj_chunk : Disjoint (doneSet i t p) (chunkSet i t p hp) :=
  Finset.disjoint_left.2 fun j h1 h2 => by
    rw [mem_doneSet] at h1; rw [mem_chunkSet] at h2; omega

theorem done_union_chunk : doneSet i t p ∪ chunkSet i t p hp = doneSet i t (p + 4) := by
  ext j
  rw [Finset.mem_union, mem_doneSet, mem_doneSet, mem_chunkSet]
  omega

theorem rem_zero : remSet i t 0 = featSet i t := by
  ext j; rw [mem_remSet, mem_featSet]; omega

theorem rem_200 : remSet i t 200 = ∅ := by
  ext j
  have h0 : (j 0).val < 200 := (j 0).isLt
  rw [mem_remSet]
  simp only [Finset.notMem_empty, iff_false]
  omega

theorem done_zero : doneSet i t 0 = ∅ := by
  ext j
  rw [mem_doneSet]
  simp only [Finset.notMem_empty, iff_false]
  omega

theorem done_200 : doneSet i t 200 = featSet i t := by
  ext j
  have h0 : (j 0).val < 200 := (j 0).isLt
  rw [mem_doneSet, mem_featSet]; omega

end Carve

/-! ## The tile's part is its two features' entries -/

theorem cV_val (i : grid0.Coords) : (cV i).val = (i 0).val := rfl
theorem jV_val (i : grid0.Coords) : (jV i).val = (i 1).val := rfl

theorem outSet_feats (i : grid0.Coords) (t0 t1 : Fin k0_t1_loop.trips) (h0 : t0.val = 0) (h1 : t1.val = 1) :
    outSet (cV i) (jV i) = featSet i t0 ∪ featSet i t1 ∧ Disjoint (featSet i t0) (featSet i t1) := by
  constructor
  · ext j
    rw [mem_outSet, Finset.mem_union, mem_featSet, mem_featSet, cV_val, jV_val]
    unfold featN
    omega
  · refine Finset.disjoint_left.2 fun j a b => ?_
    rw [mem_featSet] at a b
    unfold featN at a b
    omega

/-! ## The program's own slices are chunks -/

/-- Unit rectangles at equal offsets are equal. -/
theorem rect_unit_congr {s : Shape} {o o' sz : Fin s.rank → Nat} (h : o = o') (inb : ∀ a, o a + sz a ≤ s.size a)
    (inb' : ∀ a, o' a + sz a ≤ s.size a) : Rect.unit (s := s) o sz inb = Rect.unit (s := s) o' sz inb' := by
  subst h; rfl

theorem slice13_set (i : grid0.Coords) (t : Fin k0_t1_loop.trips) :
    ((Memref.whole main_v6_scv : Memref sig .scVector .hbm S200x8x8x8x128 .f32).slice
        (Rect.unit (s := S200x8x8x8x128) (k0_off13 i t) S4x1x8x1x128.size (k0_off13_inb i t)) (fun _ => rfl)).view.set
      = chunkSet i t (0) (by norm_num) :=
  (View.set_slice_whole _ _).trans (congrArg (fun r : Rect S200x8x8x8x128 => r.set) (rect_unit_congr (off13_eq i t) _ _))

theorem slice23_set (i : grid0.Coords) (t : Fin k0_t1_loop.trips) :
    ((Memref.whole main_v6_scv : Memref sig .scVector .hbm S200x8x8x8x128 .f32).slice
        (Rect.unit (s := S200x8x8x8x128) (k0_off23 i t) S4x1x8x1x128.size (k0_off23_inb i t)) (fun _ => rfl)).view.set
      = chunkSet i t (4) (by norm_num) :=
  (View.set_slice_whole _ _).trans (congrArg (fun r : Rect S200x8x8x8x128 => r.set) (rect_unit_congr (off23_eq i t) _ _))

theorem slice25_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off25 i t u) S4x1x8x1x128.size (k0_off25_inb i t u)) (fun _ => rfl)).view.set
      = chunkSet i t (8 * u.val) (by have := trips6_lt u; omega) :=
  (View.set_slice_whole _ _).trans (congrArg (fun r : Rect S200x8x8x8x128 => r.set) (rect_unit_congr (off25_eq i t u) _ _))

theorem slice35_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off35 i t u) S4x1x8x1x128.size (k0_off35_inb i t u)) (fun _ => rfl)).view.set
      = chunkSet i t (8 * u.val + 8) (by have := trips6_lt u; omega) :=
  (View.set_slice_whole _ _).trans (congrArg (fun r : Rect S200x8x8x8x128 => r.set) (rect_unit_congr (off35_eq i t u) _ _))

theorem slice37_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off37 i t u) S4x1x8x1x128.size (k0_off37_inb i t u)) (fun _ => rfl)).view.set
      = chunkSet i t (8 * u.val + 4) (by have := trips6_lt u; omega) :=
  (View.set_slice_whole _ _).trans (congrArg (fun r : Rect S200x8x8x8x128 => r.set) (rect_unit_congr (off37_eq i t u) _ _))

theorem slice47_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off47 i t u) S4x1x8x1x128.size (k0_off47_inb i t u)) (fun _ => rfl)).view.set
      = chunkSet i t (8 * u.val + 12) (by have := trips6_lt u; omega) :=
  (View.set_slice_whole _ _).trans (congrArg (fun r : Rect S200x8x8x8x128 => r.set) (rect_unit_congr (off47_eq i t u) _ _))

theorem slice49_set (i : grid0.Coords) (t : Fin k0_t1_loop.trips) :
    ((Memref.whole main_v6_scv : Memref sig .scVector .hbm S200x8x8x8x128 .f32).slice
        (Rect.unit (s := S200x8x8x8x128) (k0_off49 i t) S4x1x8x1x128.size (k0_off49_inb i t)) (fun _ => rfl)).view.set
      = chunkSet i t (184) (by norm_num) :=
  (View.set_slice_whole _ _).trans (congrArg (fun r : Rect S200x8x8x8x128 => r.set) (rect_unit_congr (off49_eq i t) _ _))

theorem slice59_set (i : grid0.Coords) (t : Fin k0_t1_loop.trips) :
    ((Memref.whole main_v6_scv : Memref sig .scVector .hbm S200x8x8x8x128 .f32).slice
        (Rect.unit (s := S200x8x8x8x128) (k0_off59 i t) S4x1x8x1x128.size (k0_off59_inb i t)) (fun _ => rfl)).view.set
      = chunkSet i t (192) (by norm_num) :=
  (View.set_slice_whole _ _).trans (congrArg (fun r : Rect S200x8x8x8x128 => r.set) (rect_unit_congr (off59_eq i t) _ _))

theorem slice60_set (i : grid0.Coords) (t : Fin k0_t1_loop.trips) :
    ((Memref.whole main_v6_scv : Memref sig .scVector .hbm S200x8x8x8x128 .f32).slice
        (Rect.unit (s := S200x8x8x8x128) (k0_off60 i t) S4x1x8x1x128.size (k0_off60_inb i t)) (fun _ => rfl)).view.set
      = chunkSet i t (188) (by norm_num) :=
  (View.set_slice_whole _ _).trans (congrArg (fun r : Rect S200x8x8x8x128 => r.set) (rect_unit_congr (off60_eq i t) _ _))

theorem slice70_set (i : grid0.Coords) (t : Fin k0_t1_loop.trips) :
    ((Memref.whole main_v6_scv : Memref sig .scVector .hbm S200x8x8x8x128 .f32).slice
        (Rect.unit (s := S200x8x8x8x128) (k0_off70 i t) S4x1x8x1x128.size (k0_off70_inb i t)) (fun _ => rfl)).view.set
      = chunkSet i t (196) (by norm_num) :=
  (View.set_slice_whole _ _).trans (congrArg (fun r : Rect S200x8x8x8x128 => r.set) (rect_unit_congr (off70_eq i t) _ _))

end Cert.Proof.Body

end
-- ==== Proof.ChunkValue.lean ====
/-
  The value of one chunk. In trip t of the tile at grid point i (feature D = featN i t) the compute nest fills a staging
  buffer from: the row scratch, which holds row D of the feature-major word table; a token buffer, which holds the c-th
  run of 4096 token ids; and the bias scratch, whose entry l is the position table's feature D at position l plus segment
  0's feature D. The staging buffer's entry (r, 0, bh, 0, bl) is then the word table's feature D of the token at position
  4 c + r of batch row 128 bh + bl, plus that bias at 4 c + r: exactly what the specification asks of the result array's
  entry (4 c + r, D / 8, bh, D % 8, bl), where the chunk rectangle at position 4 c places it.
-/
import proofs.«203565_g79912161509654_cont_9to1_m_411_39_alg».proof.Proof.NestSpec
import proofs.«203565_g79912161509654_cont_9to1_m_411_39_alg».proof.Proof.OutSets
import proofs.«203565_g79912161509654_cont_9to1_m_411_39_alg».proof.Proof.Spec

noncomputable section

namespace Cert.Proof.Body

open Cert.KernelIdeal Cert.KernelIdeal.Gen Cert.Proof.LaunchKernelIdeal Idealize.ShloMosaic Idealize.ShloMosaic.ValueIdx
open Cert.Proof.Spec Cert.Proof.Nest

variable {F : FTy → Type} [FloatOps F]

/-- Where the chunk rectangle at position `p` places the staging buffer's entry `y`: the offsets added coordinate by
    coordinate (the second and fourth coordinates of `y` are 0, their extents being 1). -/
theorem chunk_emb (i : grid0.Coords) (t : Fin k0_t1_loop.trips) (p : Nat) (hp : p + 4 ≤ 200) (y : S4x1x8x1x128.Idx) :
    (chunkRect i t p hp).emb y
      = ix5 (⟨p + (y 0).val, by have h : (y 0).val < 4 := (y 0).isLt; omega⟩ : Fin 200)
          (⟨featN i t / 8, by have := featN_lt i t; omega⟩ : Fin 8) (⟨(y 2).val, (y 2).isLt⟩ : Fin 8)
          (⟨featN i t % 8, by omega⟩ : Fin 8) (⟨(y 4).val, (y 4).isLt⟩ : Fin 128) := by
  have y1 : (y 1).val < 1 := (y 1).isLt
  have y3 : (y 3).val < 1 := (y 3).isLt
  funext a
  refine Fin.ext ?_
  match a with
  | ⟨0, _⟩ => show p + 1 * (y 0).val = p + (y 0).val; omega
  | ⟨1, _⟩ => show featN i t / 8 + 1 * (y 1).val = featN i t / 8; omega
  | ⟨2, _⟩ => show 0 + 1 * (y 2).val = (y 2).val; omega
  | ⟨3, _⟩ => show featN i t % 8 + 1 * (y 3).val = featN i t % 8; omega
  | ⟨4, _⟩ => show 0 + 1 * (y 4).val = (y 4).val; omega

/-- The nest's value at `y` is the specified result at the entry the chunk rectangle at position `4 c` places `y` at. -/
theorem chunk_value (tok : IVec S204800 32) (emb : FVec F S64x100000 .f32) (pos : FVec F S32768 .f32) (seg : FVec F S128 .f32)
    (i : grid0.Coords) (t : Fin k0_t1_loop.trips) (c : Nat) (hc : c < 50)
    (row : FVec F S1x100000 .f32)
    (hrow : ∀ y : S1x100000.Idx, row y = emb (ix2 (⟨featN i t, featN_lt i t⟩ : Fin 64) (y 1)))
    (tb : IVec S4096 32)
    (htb : ∀ y : S4096.Idx, tb y
      = tok (ix1 (⟨4096 * c + (y 0).val, by have h : (y 0).val < 4096 := (y 0).isLt; omega⟩ : Fin 204800)))
    (bias : FVec F S208 .f32)
    (hbias : ∀ l : Fin 208, l.val < 200 → bias (ix1 l)
      = FloatOps.addf (pos (ix1 (⟨featN i t * 512 + l.val, by have := featN_lt i t; have := l.isLt; omega⟩ : Fin 32768)))
          (seg (ix1 (⟨featN i t, by have := featN_lt i t; omega⟩ : Fin 128))))
    (y : S4x1x8x1x128.Idx) :
    nestG row tb bias (4 * c) (by omega) y
      = scOut tok emb pos seg ((chunkRect i t (4 * c) (by omega)).emb y) := by
  have hD := featN_lt i t
  have y0 : (y 0).val < 4 := (y 0).isLt
  have y2 : (y 2).val < 8 := (y 2).isLt
  have y4 : (y 4).val < 128 := (y 4).isLt
  rw [chunk_emb, scOut_apply]
  unfold scOutAt nestG
  -- the specification's coordinates, in closed form
  have hf : feat (⟨featN i t / 8, by omega⟩ : Fin 8) (⟨featN i t % 8, by omega⟩ : Fin 8) = (⟨featN i t, hD⟩ : Fin 64) :=
    Fin.ext (show featN i t / 8 * 8 + featN i t % 8 = featN i t by omega)
  have ht : tokAt (⟨4 * c + (y 0).val, by omega⟩ : Fin 200) (brow (⟨(y 2).val, y2⟩ : Fin 8) (⟨(y 4).val, y4⟩ : Fin 128))
      = (⟨4096 * c + (flatOf y).val, by have := (flatOf y).isLt; omega⟩ : Fin 204800) :=
    Fin.ext (show (4 * c + (y 0).val) * 1024 + ((y 2).val * 128 + (y 4).val)
      = 4096 * c + ((y 0).val * 1024 + (y 2).val * 128 + (y 4).val) by omega)
  rw [hf, ht, hrow, htb, hbias _ (show 4 * c + (y 0).val < 200 by omega)]
  rfl

end Cert.Proof.Body

end
-- ==== Proof.BiasValue.lean ====
/-
  The bias scratch after its thirteen stores. The scratch has 208 entries and is written by thirteen stores of sixteen
  lanes, the k-th at offset 16 k. If lane x of the k-th stored vector is G (16 k + x), then the scratch reads G at every
  entry, whatever it held before: every entry lies under exactly the store k = l / 16, and each store agrees with G on its
  sixteen entries.
-/
import proofs.«203565_g79912161509654_cont_9to1_m_411_39_alg».proof.KernelIdeal
import Idealize.ShloMosaic.Lib.Writes
import Idealize.ShloMosaic.Lib.ValueIdx

noncomputable section

namespace Cert.Proof.Body

open Cert.KernelIdeal Cert.KernelIdeal.Facts₀ Idealize.ShloMosaic Idealize.ShloMosaic.ValueIdx

variable {F : FTy → Type} [FloatOps F]

/-- A function of the entry's number as a function of the scratch's index. -/
def ofEntry (G : Fin 208 → F .f32) : S208.Idx → F .f32 := fun y => G ⟨(y 0).val, (y 0).isLt⟩

/-- A stored vector whose lane x is `G (o + x)` agrees with `G` on the sixteen entries from `o`. -/
theorem bias_piece_agree (G : Fin 208 → F .f32) (o : Nat) (inb : ∀ a, (![o] : Fin 1 → Nat) a + S16.size a ≤ S208.size a)
    (w : S16.Idx → F .f32) (ho : o + 16 ≤ 208)
    (h : ∀ x : S16.Idx, w x = G ⟨o + (x 0).val, by have h : (x 0).val < 16 := (x 0).isLt; omega⟩)
    (x : (Rect.unit (s := S208) ![o] S16.size inb).shape.Idx) :
    w x = ofEntry G ((Rect.unit (s := S208) ![o] S16.size inb).emb x) := by
  rw [h x]
  unfold ofEntry
  refine congrArg G (Fin.ext ?_)
  show o + (x 0).val = o + 1 * (x 0).val
  omega

/-- Entry `l` lies under the store at offset `o` when `o ≤ l < o + 16`. -/
theorem mem_unit16_1 (l : Fin 208) (o : Nat) (inb : ∀ a, (![o] : Fin 1 → Nat) a + S16.size a ≤ S208.size a)
    (h : o ≤ l.val ∧ l.val < o + 16) : ix1 l ∈ (Rect.unit (s := S208) ![o] S16.size inb).set := by
  rw [Rect.mem_set_unit]
  intro a
  match a with
  | ⟨0, _⟩ => exact (show o ≤ l.val ∧ l.val < o + 16 from h)

variable [Cert.KernelIdeal.Facts]

/-- The scratch after the thirteen stores (the last first) reads `G` at every entry. -/
theorem bias_pieces {sig : RefSig} {κ : Kind} {sp : Space} (v : View sig κ sp S208 .f32) (f : v.ty.Contents (Elt F))
    (G : Fin 208 → F .f32) (w0 : S16.Idx → F .f32) (w1 : S16.Idx → F .f32) (w2 : S16.Idx → F .f32) (w3 : S16.Idx → F .f32) (w4 : S16.Idx → F .f32) (w5 : S16.Idx → F .f32) (w6 : S16.Idx → F .f32) (w7 : S16.Idx → F .f32) (w8 : S16.Idx → F .f32) (w9 : S16.Idx → F .f32) (w10 : S16.Idx → F .f32) (w11 : S16.Idx → F .f32) (w12 : S16.Idx → F .f32)
    (h0 : ∀ x : S16.Idx, w0 x = G ⟨0 + (x 0).val, by have h : (x 0).val < 16 := (x 0).isLt; omega⟩)
    (h1 : ∀ x : S16.Idx, w1 x = G ⟨16 + (x 0).val, by have h : (x 0).val < 16 := (x 0).isLt; omega⟩)
    (h2 : ∀ x : S16.Idx, w2 x = G ⟨32 + (x 0).val, by have h : (x 0).val < 16 := (x 0).isLt; omega⟩)
    (h3 : ∀ x : S16.Idx, w3 x = G ⟨48 + (x 0).val, by have h : (x 0).val < 16 := (x 0).isLt; omega⟩)
    (h4 : ∀ x : S16.Idx, w4 x = G ⟨64 + (x 0).val, by have h : (x 0).val < 16 := (x 0).isLt; omega⟩)
    (h5 : ∀ x : S16.Idx, w5 x = G ⟨80 + (x 0).val, by have h : (x 0).val < 16 := (x 0).isLt; omega⟩)
    (h6 : ∀ x : S16.Idx, w6 x = G ⟨96 + (x 0).val, by have h : (x 0).val < 16 := (x 0).isLt; omega⟩)
    (h7 : ∀ x : S16.Idx, w7 x = G ⟨112 + (x 0).val, by have h : (x 0).val < 16 := (x 0).isLt; omega⟩)
    (h8 : ∀ x : S16.Idx, w8 x = G ⟨128 + (x 0).val, by have h : (x 0).val < 16 := (x 0).isLt; omega⟩)
    (h9 : ∀ x : S16.Idx, w9 x = G ⟨144 + (x 0).val, by have h : (x 0).val < 16 := (x 0).isLt; omega⟩)
    (h10 : ∀ x : S16.Idx, w10 x = G ⟨160 + (x 0).val, by have h : (x 0).val < 16 := (x 0).isLt; omega⟩)
    (h11 : ∀ x : S16.Idx, w11 x = G ⟨176 + (x 0).val, by have h : (x 0).val < 16 := (x 0).isLt; omega⟩)
    (h12 : ∀ x : S16.Idx, w12 x = G ⟨192 + (x 0).val, by have h : (x 0).val < 16 := (x 0).isLt; omega⟩)
    (l : Fin 208) :
    v.read (Elt F) (v.writes (Elt F) f
       [⟨Rect.unit (s := S208) ![192] S16.size inb_S208_S16_192, w12⟩,
        ⟨Rect.unit (s := S208) ![176] S16.size inb_S208_S16_176, w11⟩,
        ⟨Rect.unit (s := S208) ![160] S16.size inb_S208_S16_160, w10⟩,
        ⟨Rect.unit (s := S208) ![144] S16.size inb_S208_S16_144, w9⟩,
        ⟨Rect.unit (s := S208) ![128] S16.size inb_S208_S16_128, w8⟩,
        ⟨Rect.unit (s := S208) ![112] S16.size inb_S208_S16_112, w7⟩,
        ⟨Rect.unit (s := S208) ![96] S16.size inb_S208_S16_96, w6⟩,
        ⟨Rect.unit (s := S208) ![80] S16.size inb_S208_S16_80, w5⟩,
        ⟨Rect.unit (s := S208) ![64] S16.size inb_S208_S16_64, w4⟩,
        ⟨Rect.unit (s := S208) ![48] S16.size inb_S208_S16_48, w3⟩,
        ⟨Rect.unit (s := S208) ![32] S16.size inb_S208_S16_32, w2⟩,
        ⟨Rect.unit (s := S208) ![16] S16.size inb_S208_S16_16, w1⟩,
        ⟨Rect.unit (s := S208) ![0] S16.size inb_S208_S16_0, w0⟩]) (ix1 l) = G l := by
  refine (View.read_writes_apply_of_pieces v f (ofEntry G) _ ?hG (ix1 l) ?hcov).trans rfl
  case hG =>
    intro p hp
    simp only [List.mem_cons, List.mem_nil_iff, or_false] at hp
    rcases hp with rfl | rfl | rfl | rfl | rfl | rfl | rfl | rfl | rfl | rfl | rfl | rfl | rfl
    · exact bias_piece_agree G 192 inb_S208_S16_192 w12 (by omega) h12
    · exact bias_piece_agree G 176 inb_S208_S16_176 w11 (by omega) h11
    · exact bias_piece_agree G 160 inb_S208_S16_160 w10 (by omega) h10
    · exact bias_piece_agree G 144 inb_S208_S16_144 w9 (by omega) h9
    · exact bias_piece_agree G 128 inb_S208_S16_128 w8 (by omega) h8
    · exact bias_piece_agree G 112 inb_S208_S16_112 w7 (by omega) h7
    · exact bias_piece_agree G 96 inb_S208_S16_96 w6 (by omega) h6
    · exact bias_piece_agree G 80 inb_S208_S16_80 w5 (by omega) h5
    · exact bias_piece_agree G 64 inb_S208_S16_64 w4 (by omega) h4
    · exact bias_piece_agree G 48 inb_S208_S16_48 w3 (by omega) h3
    · exact bias_piece_agree G 32 inb_S208_S16_32 w2 (by omega) h2
    · exact bias_piece_agree G 16 inb_S208_S16_16 w1 (by omega) h1
    · exact bias_piece_agree G 0 inb_S208_S16_0 w0 (by omega) h0
  case hcov =>
    have hl : l.val < 208 := l.isLt
    have hc : (0 ≤ l.val ∧ l.val < 0 + 16) ∨ (16 ≤ l.val ∧ l.val < 16 + 16) ∨ (32 ≤ l.val ∧ l.val < 32 + 16) ∨ (48 ≤ l.val ∧ l.val < 48 + 16) ∨ (64 ≤ l.val ∧ l.val < 64 + 16) ∨ (80 ≤ l.val ∧ l.val < 80 + 16) ∨ (96 ≤ l.val ∧ l.val < 96 + 16) ∨ (112 ≤ l.val ∧ l.val < 112 + 16) ∨ (128 ≤ l.val ∧ l.val < 128 + 16) ∨ (144 ≤ l.val ∧ l.val < 144 + 16) ∨ (160 ≤ l.val ∧ l.val < 160 + 16) ∨ (176 ≤ l.val ∧ l.val < 176 + 16) ∨ (192 ≤ l.val ∧ l.val < 192 + 16) := by omega
    rcases hc with e | e | e | e | e | e | e | e | e | e | e | e | e
    · exact ⟨⟨Rect.unit (s := S208) ![0] S16.size inb_S208_S16_0, w0⟩, by simp only [List.mem_cons, true_or, or_true], mem_unit16_1 l 0 inb_S208_S16_0 e⟩
    · exact ⟨⟨Rect.unit (s := S208) ![16] S16.size inb_S208_S16_16, w1⟩, by simp only [List.mem_cons, true_or, or_true], mem_unit16_1 l 16 inb_S208_S16_16 e⟩
    · exact ⟨⟨Rect.unit (s := S208) ![32] S16.size inb_S208_S16_32, w2⟩, by simp only [List.mem_cons, true_or, or_true], mem_unit16_1 l 32 inb_S208_S16_32 e⟩
    · exact ⟨⟨Rect.unit (s := S208) ![48] S16.size inb_S208_S16_48, w3⟩, by simp only [List.mem_cons, true_or, or_true], mem_unit16_1 l 48 inb_S208_S16_48 e⟩
    · exact ⟨⟨Rect.unit (s := S208) ![64] S16.size inb_S208_S16_64, w4⟩, by simp only [List.mem_cons, true_or, or_true], mem_unit16_1 l 64 inb_S208_S16_64 e⟩
    · exact ⟨⟨Rect.unit (s := S208) ![80] S16.size inb_S208_S16_80, w5⟩, by simp only [List.mem_cons, true_or, or_true], mem_unit16_1 l 80 inb_S208_S16_80 e⟩
    · exact ⟨⟨Rect.unit (s := S208) ![96] S16.size inb_S208_S16_96, w6⟩, by simp only [List.mem_cons, true_or, or_true], mem_unit16_1 l 96 inb_S208_S16_96 e⟩
    · exact ⟨⟨Rect.unit (s := S208) ![112] S16.size inb_S208_S16_112, w7⟩, by simp only [List.mem_cons, true_or, or_true], mem_unit16_1 l 112 inb_S208_S16_112 e⟩
    · exact ⟨⟨Rect.unit (s := S208) ![128] S16.size inb_S208_S16_128, w8⟩, by simp only [List.mem_cons, true_or, or_true], mem_unit16_1 l 128 inb_S208_S16_128 e⟩
    · exact ⟨⟨Rect.unit (s := S208) ![144] S16.size inb_S208_S16_144, w9⟩, by simp only [List.mem_cons, true_or, or_true], mem_unit16_1 l 144 inb_S208_S16_144 e⟩
    · exact ⟨⟨Rect.unit (s := S208) ![160] S16.size inb_S208_S16_160, w10⟩, by simp only [List.mem_cons, true_or, or_true], mem_unit16_1 l 160 inb_S208_S16_160 e⟩
    · exact ⟨⟨Rect.unit (s := S208) ![176] S16.size inb_S208_S16_176, w11⟩, by simp only [List.mem_cons, true_or, or_true], mem_unit16_1 l 176 inb_S208_S16_176 e⟩
    · exact ⟨⟨Rect.unit (s := S208) ![192] S16.size inb_S208_S16_192, w12⟩, by simp only [List.mem_cons, true_or, or_true], mem_unit16_1 l 192 inb_S208_S16_192 e⟩

end Cert.Proof.Body

end
-- ==== Proof.SliceReads.lean ====
/-
  What a copy out of a slice of an array delivers, read at an index. A unit-stride slice at offsets o reads the array
  at o plus the slice's own index, coordinate by coordinate. The three slices the tile's set-up copies out of:
  row D of the feature-major word table (D the tile's feature in the trip) is the table at (D, ·); the 208 entries of
  the flattened feature-major position table from 512 D are the table at 512 D + ·; and the c-th run of 4096 token ids
  of the shared token list is the list at 4096 c + ·, for each of the ways the program computes the run's start.
-/
import proofs.«203565_g79912161509654_cont_9to1_m_411_39_alg».proof.KernelIdeal
import proofs.«203565_g79912161509654_cont_9to1_m_411_39_alg».proof.Proof.Gen.KernelIdeal
import proofs.«203565_g79912161509654_cont_9to1_m_411_39_alg».proof.Proof.OutOffs
import proofs.«203565_g79912161509654_cont_9to1_m_411_39_alg».proof.Proof.OutSets
import Idealize.ShloMosaic.Lib.ValueIdx

noncomputable section

namespace Cert.Proof.Body

open Cert.KernelIdeal Cert.KernelIdeal.Gen Idealize.ShloMosaic Idealize.ShloMosaic.ValueIdx

variable {F : FTy → Type}

/-! ## The word table's row and the position table's run -/

/-- Row `featN i t` of the feature-major word table. -/
theorem row_read (i : grid0.Coords) (t : Fin k0_t1_loop.trips)
    (embV : (Memref.whole main_v2_scv : Memref sig .scVector .hbm S64x100000 .f32).view.ty.Contents (Elt F)) (y : S1x100000.Idx) :
    ((Memref.whole main_v2_scv : Memref sig .scVector .hbm S64x100000 .f32).slice
        (Rect.unit (s := S64x100000) (k0_off1 i t) S1x100000.size (k0_off1_inb i t)) (fun _ => rfl)).view.read (Elt F) embV y
      = embV (ix2 (⟨featN i t, featN_lt i t⟩ : Fin 64) (y 1)) := by
  show embV ((Rect.unit (s := S64x100000) (k0_off1 i t) S1x100000.size (k0_off1_inb i t)).emb y) = _
  have h0 : (y 0).val < 1 := (y 0).isLt
  refine congrArg embV (funext fun a => Fin.ext ?_)
  match a with
  | ⟨0, _⟩ =>
    show k0_off1 i t 0 + 1 * (y 0).val = featN i t
    rw [k0_off1_eq i t]
    show 4 * (i 1).val + 2 * (i 0).val + t.val + 1 * (y 0).val = featN i t
    unfold featN; omega
  | ⟨1, _⟩ =>
    show k0_off1 i t 1 + 1 * (y 1).val = (y 1).val
    rw [k0_off1_eq i t]
    show 0 + 1 * (y 1).val = (y 1).val
    omega

/-- The 208 entries of the flattened feature-major position table from `512 * featN i t`. -/
theorem pos_read (i : grid0.Coords) (t : Fin k0_t1_loop.trips)
    (posV : (Memref.whole main_v4_scv : Memref sig .scVector .hbm S32768 .f32).view.ty.Contents (Elt F)) (y : S208.Idx) :
    ((Memref.whole main_v4_scv : Memref sig .scVector .hbm S32768 .f32).slice
        (Rect.unit (s := S32768) (k0_off2 i t) S208.size (k0_off2_inb i t)) (fun _ => rfl)).view.read (Elt F) posV y
      = posV (ix1 (⟨featN i t * 512 + (y 0).val,
          by have := featN_lt i t; have h : (y 0).val < 208 := (y 0).isLt; omega⟩ : Fin 32768)) := by
  show posV ((Rect.unit (s := S32768) (k0_off2 i t) S208.size (k0_off2_inb i t)).emb y) = _
  refine congrArg posV (funext fun a => Fin.ext ?_)
  match a with
  | ⟨0, _⟩ =>
    show k0_off2 i t 0 + 1 * (y 0).val = featN i t * 512 + (y 0).val
    rw [k0_off2_eq i t]
    show 2048 * (i 1).val + 1024 * (i 0).val + 512 * t.val + 1 * (y 0).val = featN i t * 512 + (y 0).val
    unfold featN; omega

/-! ## A run of the token list -/

/-- The `c`-th run of 4096 token ids of the shared token list (the position reduced below the list's length, so that
    the function is total; for `c < 50` it is the position itself: `tokChunk_at`). -/
def tokChunk (shV : IVec S204800 32) (c : Nat) : IVec S4096 32 :=
  fun y => shV (ix1 (⟨(4096 * c + (y 0).val) % 204800, Nat.mod_lt _ (by norm_num)⟩ : Fin 204800))

theorem tokChunk_at (shV : IVec S204800 32) (c : Nat) (hc : c < 50) (y : S4096.Idx) :
    tokChunk shV c y
      = shV (ix1 (⟨4096 * c + (y 0).val, by have h : (y 0).val < 4096 := (y 0).isLt; omega⟩ : Fin 204800)) := by
  have h : (y 0).val < 4096 := (y 0).isLt
  unfold tokChunk
  refine congrArg shV (congrArg ix1 (Fin.ext ?_))
  show (4096 * c + (y 0).val) % 204800 = 4096 * c + (y 0).val
  exact Nat.mod_eq_of_lt (by omega)

/-- A slice of 4096 entries of the shared token list at offset `4096 c` reads the `c`-th run. -/
theorem tok_read (o : Fin 1 → Nat) (h : ∀ a, o a + S4096.size a ≤ S204800.size a)
    (pf : ∀ a, (Rect.unit (s := S204800) o S4096.size h).stride a = 1) (c : Nat) (ho : o = ![4096 * c])
    (shV : (Memref.whole cc0_scratch8 : Memref sig .scVector .shared S204800 .i32).view.ty.Contents (Elt F)) :
    ((Memref.whole cc0_scratch8 : Memref sig .scVector .shared S204800 .i32).slice
        (Rect.unit (s := S204800) o S4096.size h) pf).view.read (Elt F) shV = tokChunk shV c := by
  subst ho
  funext y
  have hy : (y 0).val < 4096 := (y 0).isLt
  have hb : 4096 * c + 4096 ≤ 204800 := h 0
  show shV ((Rect.unit (s := S204800) ![4096 * c] S4096.size h).emb y) = tokChunk shV c y
  unfold tokChunk
  refine congrArg shV (funext fun a => Fin.ext ?_)
  match a with
  | ⟨0, _⟩ =>
    show 4096 * c + 1 * (y 0).val = (4096 * c + (y 0).val) % 204800
    rw [Nat.mod_eq_of_lt (by omega)]
    omega

/-- The same for a literal offset `N = 4096 c`. -/
theorem tok_read_lit (N c : Nat) (inb : ∀ a, (![N] : Fin 1 → Nat) a + S4096.size a ≤ S204800.size a) (hN : N = 4096 * c)
    (shV : (Memref.whole cc0_scratch8 : Memref sig .scVector .shared S204800 .i32).view.ty.Contents (Elt F)) :
    ((Memref.whole cc0_scratch8 : Memref sig .scVector .shared S204800 .i32).slice
        (Rect.unit (s := S204800) ![N] S4096.size inb) (fun _ => rfl)).view.read (Elt F) shV = tokChunk shV c :=
  tok_read ![N] inb (fun _ => rfl) c (by rw [hN]) shV

/-- The steady-state loop's three starts: runs `2 u + 2`, `2 u + 3 + r` (`r` = 0, 1) and `2 u + 5` in trip `u`. -/
theorem tok_read_24 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off24 u) S4096.size (k0_off24_inb u)) (fun _ => rfl)).view.read (Elt F) shV
      = tokChunk shV (2 * u.val + 2) :=
  tok_read _ _ (fun _ => rfl) _ ((k0_off24_eq u).trans (congrArg (fun n : Nat => ![n]) (by omega))) shV

theorem tok_read_36 (u : Fin k0_t6_loop.trips) (r : Fin 2)
    (shV : (Memref.whole cc0_scratch8 : Memref sig .scVector .shared S204800 .i32).view.ty.Contents (Elt F)) :
    ((Memref.whole cc0_scratch8 : Memref sig .scVector .shared S204800 .i32).slice
        (Rect.unit (s := S204800) (k0_off36 u (BitVec.ofNat 32 (1 + r.val))) S4096.size (k0_off36_inb u r)) (fun _ => rfl)).view.read (Elt F) shV
      = tokChunk shV (2 * u.val + 3 + r.val) :=
  tok_read _ _ (fun _ => rfl) _ ((k0_off36_eq u r).trans (congrArg (fun n : Nat => ![n]) (by omega))) shV

/-- The program's two spellings of it: the literals `1#32` and `2#32`. -/
theorem tok_read_36_1 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off36 u 1#32) S4096.size (k0_off36_inb u 0)) (fun _ => rfl)).view.read (Elt F) shV
      = tokChunk shV (2 * u.val + 3) :=
  tok_read_36 u 0 shV

theorem tok_read_36_2 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off36 u 2#32) S4096.size (k0_off36_inb u 1)) (fun _ => rfl)).view.read (Elt F) shV
      = tokChunk shV (2 * u.val + 4) :=
  tok_read_36 u 1 shV

theorem tok_read_48 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off48 u) S4096.size (k0_off48_inb u)) (fun _ => rfl)).view.read (Elt F) shV
      = tokChunk shV (2 * u.val + 5) :=
  tok_read _ _ (fun _ => rfl) _ ((k0_off48_eq u).trans (congrArg (fun n : Nat => ![n]) (by omega))) shV

end Cert.Proof.Body

end
-- ==== Proof.TripDefs.lean ====
/-
  The pure vocabulary of one feature's trip: what a staging buffer holds once the compute nest has filled it for a chunk
  (`stageOut`), a result chunk's element set by its bounds (`chunkF`), and the small facts relating them to the nest's
  result, to the rectangles the program slices, and to the chunk numbers the steady-state loop computes.
-/
import proofs.«203565_g79912161509654_cont_9to1_m_411_39_alg».proof.KernelIdeal
import proofs.«203565_g79912161509654_cont_9to1_m_411_39_alg».proof.Proof.Gen.KernelIdeal
import proofs.«203565_g79912161509654_cont_9to1_m_411_39_alg».proof.Proof.Spec
import proofs.«203565_g79912161509654_cont_9to1_m_411_39_alg».proof.Proof.NestSpec
import proofs.«203565_g79912161509654_cont_9to1_m_411_39_alg».proof.Proof.OutSets
import proofs.«203565_g79912161509654_cont_9to1_m_411_39_alg».proof.Proof.SliceReads

noncomputable section

namespace Cert.Proof.Body

open Cert.KernelIdeal Cert.KernelIdeal.Gen Cert.Proof.LaunchKernelIdeal
open Idealize.ShloMosaic

variable {F : FTy → Type} [FloatOps F]

/-- What the compute nest leaves in a staging buffer for chunk `c`: entry `(r, 0, bh, 0, bl)` is the looked-up feature of
    the token at flat position `r * 1024 + bh * 128 + bl` of the chunk plus the bias of position `4 * c + r`. -/
def stageOut (rowV : FVec F S1x100000 .f32) (shV : IVec S204800 32) (biasV : FVec F S208 .f32) (c : Nat) : FVec F S4x1x8x1x128 .f32 :=
  fun y => FloatOps.addf (rowV (ValueIdx.ix2 (0 : Fin 1) (Cert.Proof.Spec.col (tokChunk shV c (ValueIdx.ix1 (Cert.Proof.Nest.flatOf y))))))
    (biasV (ValueIdx.ix1 (⟨(4 * c + (y 0).val) % 208, Nat.mod_lt _ (by norm_num)⟩ : Fin 208)))

/-- A chunk's element set, by its bounds: positions `p … p + 3` of feature `featN i t`. -/
def chunkF (i : grid0.Coords) (t : Fin k0_t1_loop.trips) (p : Nat) : Finset S200x8x8x8x128.Idx :=
  Finset.univ.filter fun j => p ≤ (j 0).val ∧ (j 0).val < p + 4 ∧ featOf j = featN i t

theorem c0_word : ∀ u : Fin k0_t6_loop.trips, (Scalar.addi 2#32 (Scalar.muli (Scf.iv 0#32 1#32 u) 2#32)).toNat = 2 * u.val + 2 := by decide +kernel

/-- For a chunk of the list the nest's result is the staging contents `stageOut`. -/
theorem nestG_stage (rowV : FVec F S1x100000 .f32) (shV : IVec S204800 32) (biasV : FVec F S208 .f32) (c l0 : Nat) (h : l0 + 4 ≤ 208) (hl : l0 = 4 * c) :
    Cert.Proof.Nest.nestG rowV (tokChunk shV c) biasV l0 h = stageOut rowV shV biasV c := by
  subst hl
  funext y
  unfold Cert.Proof.Nest.nestG stageOut
  have hy : (y 0).val < 4 := (y 0).isLt
  congr 2
  apply congrArg
  apply Fin.ext
  show 4 * c + (y 0).val = (4 * c + (y 0).val) % 208
  rw [Nat.mod_eq_of_lt (by omega)]

theorem chunkF_eq (i : grid0.Coords) (t : Fin k0_t1_loop.trips) (p : Nat) (hp : p + 4 ≤ 200) : chunkF i t p = chunkSet i t p hp := by
  ext j
  rw [mem_chunkSet]
  simp [chunkF]

theorem tokChunk_lt (shV : IVec S204800 32) (hsh : ∀ i, (shV i).toNat < 100000) (c : Nat) : ∀ y, (tokChunk shV c y).toNat < 100000 := fun _ => hsh _

theorem c1_word : ∀ u : Fin k0_t6_loop.trips, (Scalar.addi (Scalar.addi 2#32 (Scalar.muli (Scf.iv 0#32 1#32 u) 2#32)) 1#32).toNat = 2 * u.val + 3 := by decide +kernel

/-- A copy that reads its source as it is moves what the source's view reads. -/
theorem readAs_same {Val : EltTy → Type} {s : Shape} {e : EltTy} (w : s.Idx → Val e) : (ReadAs.same : ReadAs Val s e s e).apply w = w := rfl

end Cert.Proof.Body

end
-- ==== Proof.OutPieces.lean ====
/-
  What a copy-out of a staging buffer leaves in its chunk of the result array. The chunk is a slice of the result; the
  copy writes the staging buffer's contents once through the slice's whole rectangle. If the staging buffer's entry y is
  the value G at the entry the chunk rectangle places y at, then after the copy the result array reads G at every entry
  of the chunk: each entry of the chunk is the placement of exactly one y, the write leaves the staging buffer's entry y
  there, and the slice places y where the chunk rectangle does.
-/
import proofs.«203565_g79912161509654_cont_9to1_m_411_39_alg».proof.KernelIdeal
import proofs.«203565_g79912161509654_cont_9to1_m_411_39_alg».proof.Proof.Gen.KernelIdeal
import proofs.«203565_g79912161509654_cont_9to1_m_411_39_alg».proof.Proof.OutSets
import Idealize.ShloMosaic.Lib.Writes

noncomputable section

namespace Cert.Proof.Body

open Cert.KernelIdeal Cert.KernelIdeal.Gen Idealize.ShloMosaic

variable {F : FTy → Type}

/-- The copy-out through a slice of the result at offsets `o`, when `o` is the chunk at position `p` of the tile's
    feature: the result reads `Gout` on the slice's entries. -/
theorem out_piece (i : grid0.Coords) (t : Fin k0_t1_loop.trips) (p : Nat) (hp : p + 4 ≤ 200) (o : Fin 5 → Nat)
    (inb : ∀ a, o a + S4x1x8x1x128.size a ≤ S200x8x8x8x128.size a) (ho : o = ![p, featN i t / 8, 0, featN i t % 8, 0])
    (g Gout : (Memref.whole main_v6_scv : Memref sig .scVector .hbm S200x8x8x8x128 .f32).view.ty.Contents (Elt F)) (w : S4x1x8x1x128.Idx → Elt F .f32)
    (hw : ∀ y, w y = Gout ((chunkRect i t p hp).emb y)) :
    ∀ j ∈ ((Memref.whole main_v6_scv : Memref sig .scVector .hbm S200x8x8x8x128 .f32).slice (Rect.unit (s := S200x8x8x8x128) o S4x1x8x1x128.size inb) (fun _ => rfl)).view.set,
      (((Memref.whole main_v6_scv : Memref sig .scVector .hbm S200x8x8x8x128 .f32).slice (Rect.unit (s := S200x8x8x8x128) o S4x1x8x1x128.size inb) (fun _ => rfl)).view.writes (Elt F) g
        [⟨Rect.whole (Rect.unit (s := S200x8x8x8x128) o S4x1x8x1x128.size inb).shape, w⟩]) j = Gout j := by
  subst ho
  intro j hj
  obtain ⟨y, -, rfl⟩ := Finset.mem_map.1 hj
  have h1 := View.read_writes_cons_emb
    ((Memref.whole main_v6_scv : Memref sig .scVector .hbm S200x8x8x8x128 .f32).slice (Rect.unit (s := S200x8x8x8x128) ![p, featN i t / 8, 0, featN i t % 8, 0] S4x1x8x1x128.size inb) (fun _ => rfl)).view
    g (Rect.whole (Rect.unit (s := S200x8x8x8x128) ![p, featN i t / 8, 0, featN i t % 8, 0] S4x1x8x1x128.size inb).shape) w [] y
  have e : (Rect.whole (Rect.unit (s := S200x8x8x8x128) ![p, featN i t / 8, 0, featN i t % 8, 0] S4x1x8x1x128.size inb).shape).emb y = y :=
    Rect.emb_whole_apply (Rect.unit (s := S200x8x8x8x128) ![p, featN i t / 8, 0, featN i t % 8, 0] S4x1x8x1x128.size inb).shape y
  rw [e] at h1
  -- the written contents as one unknown array: only how the slice reads it matters from here on
  revert h1
  generalize ((Memref.whole main_v6_scv : Memref sig .scVector .hbm S200x8x8x8x128 .f32).slice (Rect.unit (s := S200x8x8x8x128) ![p, featN i t / 8, 0, featN i t % 8, 0] S4x1x8x1x128.size inb) (fun _ => rfl)).view.writes (Elt F) g
    [⟨Rect.whole (Rect.unit (s := S200x8x8x8x128) ![p, featN i t / 8, 0, featN i t % 8, 0] S4x1x8x1x128.size inb).shape, w⟩] = G'
  intro h1
  exact h1.trans (hw y)

/-! ## The program's six starts of a copy-out -/

theorem out_piece13 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (0) (by norm_num)).emb y)) :
    ∀ j ∈ ((Memref.whole main_v6_scv : Memref sig .scVector .hbm S200x8x8x8x128 .f32).slice (Rect.unit (s := S200x8x8x8x128) (k0_off13 i t) S4x1x8x1x128.size (k0_off13_inb i t)) (fun _ => rfl)).view.set,
      (((Memref.whole main_v6_scv : Memref sig .scVector .hbm S200x8x8x8x128 .f32).slice (Rect.unit (s := S200x8x8x8x128) (k0_off13 i t) S4x1x8x1x128.size (k0_off13_inb i t)) (fun _ => rfl)).view.writes (Elt F) g
        [⟨Rect.whole (Rect.unit (s := S200x8x8x8x128) (k0_off13 i t) S4x1x8x1x128.size (k0_off13_inb i t)).shape, w⟩]) j = Gout j :=
  out_piece i t (0) _ (k0_off13 i t) (k0_off13_inb i t) (off13_eq i t) g Gout w hw

theorem out_piece23 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (4) (by norm_num)).emb y)) :
    ∀ j ∈ ((Memref.whole main_v6_scv : Memref sig .scVector .hbm S200x8x8x8x128 .f32).slice (Rect.unit (s := S200x8x8x8x128) (k0_off23 i t) S4x1x8x1x128.size (k0_off23_inb i t)) (fun _ => rfl)).view.set,
      (((Memref.whole main_v6_scv : Memref sig .scVector .hbm S200x8x8x8x128 .f32).slice (Rect.unit (s := S200x8x8x8x128) (k0_off23 i t) S4x1x8x1x128.size (k0_off23_inb i t)) (fun _ => rfl)).view.writes (Elt F) g
        [⟨Rect.whole (Rect.unit (s := S200x8x8x8x128) (k0_off23 i t) S4x1x8x1x128.size (k0_off23_inb i t)).shape, w⟩]) j = Gout j :=
  out_piece i t (4) _ (k0_off23 i t) (k0_off23_inb i t) (off23_eq i t) g Gout w hw

theorem out_piece35 (i : grid0.Coords) (t : Fin k0_t1_loop.trips) (u : Fin k0_t6_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (8 * u.val + 8) (by have := trips6_lt u; omega)).emb y)) :
    ∀ j ∈ ((Memref.whole main_v6_scv : Memref sig .scVector .hbm S200x8x8x8x128 .f32).slice (Rect.unit (s := S200x8x8x8x128) (k0_off35 i t u) S4x1x8x1x128.size (k0_off35_inb i t u)) (fun _ => rfl)).view.set,
      (((Memref.whole main_v6_scv : Memref sig .scVector .hbm S200x8x8x8x128 .f32).slice (Rect.unit (s := S200x8x8x8x128) (k0_off35 i t u) S4x1x8x1x128.size (k0_off35_inb i t u)) (fun _ => rfl)).view.writes (Elt F) g
        [⟨Rect.whole (Rect.unit (s := S200x8x8x8x128) (k0_off35 i t u) S4x1x8x1x128.size (k0_off35_inb i t u)).shape, w⟩]) j = Gout j :=
  out_piece i t (8 * u.val + 8) _ (k0_off35 i t u) (k0_off35_inb i t u) (off35_eq i t u) g Gout w hw

theorem out_piece47 (i : grid0.Coords) (t : Fin k0_t1_loop.trips) (u : Fin k0_t6_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (8 * u.val + 12) (by have := trips6_lt u; omega)).emb y)) :
    ∀ j ∈ ((Memref.whole main_v6_scv : Memref sig .scVector .hbm S200x8x8x8x128 .f32).slice (Rect.unit (s := S200x8x8x8x128) (k0_off47 i t u) S4x1x8x1x128.size (k0_off47_inb i t u)) (fun _ => rfl)).view.set,
      (((Memref.whole main_v6_scv : Memref sig .scVector .hbm S200x8x8x8x128 .f32).slice (Rect.unit (s := S200x8x8x8x128) (k0_off47 i t u) S4x1x8x1x128.size (k0_off47_inb i t u)) (fun _ => rfl)).view.writes (Elt F) g
        [⟨Rect.whole (Rect.unit (s := S200x8x8x8x128) (k0_off47 i t u) S4x1x8x1x128.size (k0_off47_inb i t u)).shape, w⟩]) j = Gout j :=
  out_piece i t (8 * u.val + 12) _ (k0_off47 i t u) (k0_off47_inb i t u) (off47_eq i t u) g Gout w hw

theorem out_piece59 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (192) (by norm_num)).emb y)) :
    ∀ j ∈ ((Memref.whole main_v6_scv : Memref sig .scVector .hbm S200x8x8x8x128 .f32).slice (Rect.unit (s := S200x8x8x8x128) (k0_off59 i t) S4x1x8x1x128.size (k0_off59_inb i t)) (fun _ => rfl)).view.set,
      (((Memref.whole main_v6_scv : Memref sig .scVector .hbm S200x8x8x8x128 .f32).slice (Rect.unit (s := S200x8x8x8x128) (k0_off59 i t) S4x1x8x1x128.size (k0_off59_inb i t)) (fun _ => rfl)).view.writes (Elt F) g
        [⟨Rect.whole (Rect.unit (s := S200x8x8x8x128) (k0_off59 i t) S4x1x8x1x128.size (k0_off59_inb i t)).shape, w⟩]) j = Gout j :=
  out_piece i t (192) _ (k0_off59 i t) (k0_off59_inb i t) (off59_eq i t) g Gout w hw

theorem out_piece70 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (196) (by norm_num)).emb y)) :
    ∀ j ∈ ((Memref.whole main_v6_scv : Memref sig .scVector .hbm S200x8x8x8x128 .f32).slice (Rect.unit (s := S200x8x8x8x128) (k0_off70 i t) S4x1x8x1x128.size (k0_off70_inb i t)) (fun _ => rfl)).view.set,
      (((Memref.whole main_v6_scv : Memref sig .scVector .hbm S200x8x8x8x128 .f32).slice (Rect.unit (s := S200x8x8x8x128) (k0_off70 i t) S4x1x8x1x128.size (k0_off70_inb i t)) (fun _ => rfl)).view.writes (Elt F) g
        [⟨Rect.whole (Rect.unit (s := S200x8x8x8x128) (k0_off70 i t) S4x1x8x1x128.size (k0_off70_inb i t)).shape, w⟩]) j = Gout j :=
  out_piece i t (196) _ (k0_off70 i t) (k0_off70_inb i t) (off70_eq i t) g Gout w hw

end Cert.Proof.Body

end
-- ==== Proof.Nest0.lean ====
/-
  The compute nest of the lookup kernel, first instance, run once: from any contents of the staging buffer to the
  nest's value (NestSpec). The two counted loops go by invariant: before outer trip `t2` the staging buffer is filled
  below token position `1024 * t2`, before inner trip `t3` of it below `1024 * t2 + 256 * t3`; an inner trip gathers the
  row at sixteen vectors of token words, adds the outer trip's bias vector and stores the sixteen sums at the trip's
  sixteen rectangles, which is what moves the bound up by 256.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.NestSpec

noncomputable section

namespace Cert.Proof.Nest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

abbrev UH : Type := URounds (GSem nD τ sig) ℕ
abbrev UB : Type := URounds (GSem nD τ sig) ℕ
abbrev UU : Type := UH × (UB × Counters)

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

open Idealize.ShloMosaic.ValueIdx

variable (d : Dev nD) (L : grid0.Coords)
abbrev thr (d : Dev nD) (L : grid0.Coords) : Thread nD τ := V d ((L 0).castLE hcore0) ((L 1).castLE hsub0)

/-- The two index vectors of a row gather are in range: the row index is `0`, the column a token below the table's height. -/
theorem chk2_ok (v2 v : IVec S16 32) (h2 : ∀ x, (v2 x).toNat < 1) (h : ∀ x, (v x).toNat < 100000) :
    ∀ a x, ((![v2, v] : Fin 2 → IVec S16 32) a x).toNat < S1x100000.size a := by
  intro a x
  match a with
  | ⟨0, _⟩ => exact h2 x
  | ⟨1, _⟩ => exact h x

/-- A gather of the biases at sixteen copies of one word below 208 is in range. -/
theorem chkBias_ok (w : BitVec 32) (hw : w.toNat < 208) :
    ∀ a x, ((![broadcast S16 w] : Fin 1 → IVec S16 32) a x).toNat < S208.size a := by
  intro a x
  match a with
  | ⟨0, _⟩ => exact hw
theorem n0_ld0 (k0_t2 : Fin k0_t2_loop.trips) (k0_t3 : Fin k0_t3_loop.trips) :
    k0_off4 k0_t2 k0_t3 0#32 = ![1024 * k0_t2.val + 256 * k0_t3.val + 0] := k0_off4_eq k0_t2 k0_t3 0
theorem n0_ld1 (k0_t2 : Fin k0_t2_loop.trips) (k0_t3 : Fin k0_t3_loop.trips) :
    k0_off4 k0_t2 k0_t3 16#32 = ![1024 * k0_t2.val + 256 * k0_t3.val + 16] := k0_off4_eq k0_t2 k0_t3 1
theorem n0_ld2 (k0_t2 : Fin k0_t2_loop.trips) (k0_t3 : Fin k0_t3_loop.trips) :
    k0_off4 k0_t2 k0_t3 32#32 = ![1024 * k0_t2.val + 256 * k0_t3.val + 32] := k0_off4_eq k0_t2 k0_t3 2
theorem n0_ld3 (k0_t2 : Fin k0_t2_loop.trips) (k0_t3 : Fin k0_t3_loop.trips) :
    k0_off4 k0_t2 k0_t3 48#32 = ![1024 * k0_t2.val + 256 * k0_t3.val + 48] := k0_off4_eq k0_t2 k0_t3 3
theorem n0_ld4 (k0_t2 : Fin k0_t2_loop.trips) (k0_t3 : Fin k0_t3_loop.trips) :
    k0_off4 k0_t2 k0_t3 64#32 = ![1024 * k0_t2.val + 256 * k0_t3.val + 64] := k0_off4_eq k0_t2 k0_t3 4
theorem n0_ld5 (k0_t2 : Fin k0_t2_loop.trips) (k0_t3 : Fin k0_t3_loop.trips) :
    k0_off4 k0_t2 k0_t3 80#32 = ![1024 * k0_t2.val + 256 * k0_t3.val + 80] := k0_off4_eq k0_t2 k0_t3 5
theorem n0_ld6 (k0_t2 : Fin k0_t2_loop.trips) (k0_t3 : Fin k0_t3_loop.trips) :
    k0_off4 k0_t2 k0_t3 96#32 = ![1024 * k0_t2.val + 256 * k0_t3.val + 96] := k0_off4_eq k0_t2 k0_t3 6
theorem n0_ld7 (k0_t2 : Fin k0_t2_loop.trips) (k0_t3 : Fin k0_t3_loop.trips) :
    k0_off4 k0_t2 k0_t3 112#32 = ![1024 * k0_t2.val + 256 * k0_t3.val + 112] := k0_off4_eq k0_t2 k0_t3 7
theorem n0_ld8 (k0_t2 : Fin k0_t2_loop.trips) (k0_t3 : Fin k0_t3_loop.trips) :
    k0_off4 k0_t2 k0_t3 128#32 = ![1024 * k0_t2.val + 256 * k0_t3.val + 128] := k0_off4_eq k0_t2 k0_t3 8
theorem n0_ld9 (k0_t2 : Fin k0_t2_loop.trips) (k0_t3 : Fin k0_t3_loop.trips) :
    k0_off4 k0_t2 k0_t3 144#32 = ![1024 * k0_t2.val + 256 * k0_t3.val + 144] := k0_off4_eq k0_t2 k0_t3 9
theorem n0_ld10 (k0_t2 : Fin k0_t2_loop.trips) (k0_t3 : Fin k0_t3_loop.trips) :
    k0_off4 k0_t2 k0_t3 160#32 = ![1024 * k0_t2.val + 256 * k0_t3.val + 160] := k0_off4_eq k0_t2 k0_t3 10
theorem n0_ld11 (k0_t2 : Fin k0_t2_loop.trips) (k0_t3 : Fin k0_t3_loop.trips) :
    k0_off4 k0_t2 k0_t3 176#32 = ![1024 * k0_t2.val + 256 * k0_t3.val + 176] := k0_off4_eq k0_t2 k0_t3 11
theorem n0_ld12 (k0_t2 : Fin k0_t2_loop.trips) (k0_t3 : Fin k0_t3_loop.trips) :
    k0_off4 k0_t2 k0_t3 192#32 = ![1024 * k0_t2.val + 256 * k0_t3.val + 192] := k0_off4_eq k0_t2 k0_t3 12
theorem n0_ld13 (k0_t2 : Fin k0_t2_loop.trips) (k0_t3 : Fin k0_t3_loop.trips) :
    k0_off4 k0_t2 k0_t3 208#32 = ![1024 * k0_t2.val + 256 * k0_t3.val + 208] := k0_off4_eq k0_t2 k0_t3 13
theorem n0_ld14 (k0_t2 : Fin k0_t2_loop.trips) (k0_t3 : Fin k0_t3_loop.trips) :
    k0_off4 k0_t2 k0_t3 224#32 = ![1024 * k0_t2.val + 256 * k0_t3.val + 224] := k0_off4_eq k0_t2 k0_t3 14
theorem n0_ld15 (k0_t2 : Fin k0_t2_loop.trips) (k0_t3 : Fin k0_t3_loop.trips) :
    k0_off4 k0_t2 k0_t3 240#32 = ![1024 * k0_t2.val + 256 * k0_t3.val + 240] := k0_off4_eq k0_t2 k0_t3 15
theorem n0_st0 (k0_t2 : Fin k0_t2_loop.trips) (k0_t3 : Fin k0_t3_loop.trips) :
    k0_off5 k0_t2 k0_t3 0#32 = ![k0_t2.val, 0, 2 * k0_t3.val + 0, 0, 0] := k0_off5_eq k0_t2 k0_t3 0
theorem n0_st1 (k0_t2 : Fin k0_t2_loop.trips) (k0_t3 : Fin k0_t3_loop.trips) :
    k0_off6 k0_t2 k0_t3 1#32 = ![k0_t2.val, 0, 2 * k0_t3.val + 0, 0, 16] := k0_off6_eq k0_t2 k0_t3 0
theorem n0_st2 (k0_t2 : Fin k0_t2_loop.trips) (k0_t3 : Fin k0_t3_loop.trips) :
    k0_off7 k0_t2 k0_t3 2#32 = ![k0_t2.val, 0, 2 * k0_t3.val + 0, 0, 32] := k0_off7_eq k0_t2 k0_t3 0
theorem n0_st3 (k0_t2 : Fin k0_t2_loop.trips) (k0_t3 : Fin k0_t3_loop.trips) :
    k0_off8 k0_t2 k0_t3 3#32 = ![k0_t2.val, 0, 2 * k0_t3.val + 0, 0, 48] := k0_off8_eq k0_t2 k0_t3 0
theorem n0_st4 (k0_t2 : Fin k0_t2_loop.trips) (k0_t3 : Fin k0_t3_loop.trips) :
    k0_off9 k0_t2 k0_t3 4#32 = ![k0_t2.val, 0, 2 * k0_t3.val + 0, 0, 64] := k0_off9_eq k0_t2 k0_t3 0
theorem n0_st5 (k0_t2 : Fin k0_t2_loop.trips) (k0_t3 : Fin k0_t3_loop.trips) :
    k0_off10 k0_t2 k0_t3 5#32 = ![k0_t2.val, 0, 2 * k0_t3.val + 0, 0, 80] := k0_off10_eq k0_t2 k0_t3 0
theorem n0_st6 (k0_t2 : Fin k0_t2_loop.trips) (k0_t3 : Fin k0_t3_loop.trips) :
    k0_off11 k0_t2 k0_t3 6#32 = ![k0_t2.val, 0, 2 * k0_t3.val + 0, 0, 96] := k0_off11_eq k0_t2 k0_t3 0
theorem n0_st7 (k0_t2 : Fin k0_t2_loop.trips) (k0_t3 : Fin k0_t3_loop.trips) :
    k0_off12 k0_t2 k0_t3 7#32 = ![k0_t2.val, 0, 2 * k0_t3.val + 0, 0, 112] := k0_off12_eq k0_t2 k0_t3 0
theorem n0_st8 (k0_t2 : Fin k0_t2_loop.trips) (k0_t3 : Fin k0_t3_loop.trips) :
    k0_off5 k0_t2 k0_t3 8#32 = ![k0_t2.val, 0, 2 * k0_t3.val + 1, 0, 0] := k0_off5_eq k0_t2 k0_t3 1
theorem n0_st9 (k0_t2 : Fin k0_t2_loop.trips) (k0_t3 : Fin k0_t3_loop.trips) :
    k0_off6 k0_t2 k0_t3 9#32 = ![k0_t2.val, 0, 2 * k0_t3.val + 1, 0, 16] := k0_off6_eq k0_t2 k0_t3 1
theorem n0_st10 (k0_t2 : Fin k0_t2_loop.trips) (k0_t3 : Fin k0_t3_loop.trips) :
    k0_off7 k0_t2 k0_t3 10#32 = ![k0_t2.val, 0, 2 * k0_t3.val + 1, 0, 32] := k0_off7_eq k0_t2 k0_t3 1
theorem n0_st11 (k0_t2 : Fin k0_t2_loop.trips) (k0_t3 : Fin k0_t3_loop.trips) :
    k0_off8 k0_t2 k0_t3 11#32 = ![k0_t2.val, 0, 2 * k0_t3.val + 1, 0, 48] := k0_off8_eq k0_t2 k0_t3 1
theorem n0_st12 (k0_t2 : Fin k0_t2_loop.trips) (k0_t3 : Fin k0_t3_loop.trips) :
    k0_off9 k0_t2 k0_t3 12#32 = ![k0_t2.val, 0, 2 * k0_t3.val + 1, 0, 64] := k0_off9_eq k0_t2 k0_t3 1
theorem n0_st13 (k0_t2 : Fin k0_t2_loop.trips) (k0_t3 : Fin k0_t3_loop.trips) :
    k0_off10 k0_t2 k0_t3 13#32 = ![k0_t2.val, 0, 2 * k0_t3.val + 1, 0, 80] := k0_off10_eq k0_t2 k0_t3 1
theorem n0_st14 (k0_t2 : Fin k0_t2_loop.trips) (k0_t3 : Fin k0_t3_loop.trips) :
    k0_off11 k0_t2 k0_t3 14#32 = ![k0_t2.val, 0, 2 * k0_t3.val + 1, 0, 96] := k0_off11_eq k0_t2 k0_t3 1
theorem n0_st15 (k0_t2 : Fin k0_t2_loop.trips) (k0_t3 : Fin k0_t3_loop.trips) :
    k0_off12 k0_t2 k0_t3 15#32 = ![k0_t2.val, 0, 2 * k0_t3.val + 1, 0, 112] := k0_off12_eq k0_t2 k0_t3 1

/-- Before inner trip `k` of outer trip `t2`: the token words and the row as they were, and the staging buffer filled below
    token position `1024 * t2 + 256 * k`. -/
def n0_I3 (tb : Buf (Elt F) ((a8).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a8).view.loc (thr d L) ↦{fullShare} tb) ∗ (((a7).access (.whole S1x100000)).loc (thr d L) ↦{fullShare} row)
    ∗ ∃ g : Buf (Elt F) ((a10).view.loc (thr d L)), ((a10).view.loc (thr d L) ↦{fullShare} g)
      ∗ ⌜∀ y, (flatOf y).val < 1024 * t2 + 256 * k → (a10).view.read (Elt F) g y = nestG row tb bias l0 hl0 y⌝)

set_option maxHeartbeats 4000000 in
/-- One inner trip: sixteen gathers of the row at sixteen vectors of token words, each plus the bias vector, stored at the
    trip's sixteen rectangles. -/
theorem n0_t3_step (v2 : IVec S16 32) (hz : ∀ x, (v2 x).toNat < 1) (k0_t1 : Fin k0_t1_loop.trips) (v10 : BitVec 32) (k0_t2 : Fin k0_t2_loop.trips)
    (v311 : BitVec 32) (v314 : Vec F S16 .f32)
    (tb : Buf (Elt F) ((a8).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t2.val → v314 (ix1 i) = bias (ix1 b))
    (k0_t3 : Fin k0_t3_loop.trips) (acc : Unit) :
    n0_I3 d L tb row bias l0 hl0 k0_t2.val k0_t3.val acc
      ⊢ wp frame (wpE (defs₀ (F := F)) 𝒱₀ (thr d L) none) Set.univ
          (k0_t3_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t2 v311 v314 k0_t3 acc) (n0_I3 d L tb row bias l0 hl0 k0_t2.val (k0_t3.val + 1)) := by
  have ht2 : k0_t2.val < 4 := Nat.lt_of_lt_of_le k0_t2.isLt k0_t2_abs.2.1
  have ht3 : k0_t3.val < 4 := Nat.lt_of_lt_of_le k0_t3.isLt k0_t3_abs.2.1
  unfold n0_I3 k0_t3_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t2.val + 256 * (k0_t3.val + 1) = 1024 * k0_t2.val + 256 * k0_t3.val + 256 by omega]
  refine filled_step16 (a10).view row tb bias l0 hl0 g k0_t2.val k0_t3.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n0_st0 k0_t2 k0_t3
  case ph1 => exact n0_st1 k0_t2 k0_t3
  case ph2 => exact n0_st2 k0_t2 k0_t3
  case ph3 => exact n0_st3 k0_t2 k0_t3
  case ph4 => exact n0_st4 k0_t2 k0_t3
  case ph5 => exact n0_st5 k0_t2 k0_t3
  case ph6 => exact n0_st6 k0_t2 k0_t3
  case ph7 => exact n0_st7 k0_t2 k0_t3
  case ph8 => exact n0_st8 k0_t2 k0_t3
  case ph9 => exact n0_st9 k0_t2 k0_t3
  case ph10 => exact n0_st10 k0_t2 k0_t3
  case ph11 => exact n0_st11 k0_t2 k0_t3
  case ph12 => exact n0_st12 k0_t2 k0_t3
  case ph13 => exact n0_st13 k0_t2 k0_t3
  case ph14 => exact n0_st14 k0_t2 k0_t3
  case ph15 => exact n0_st15 k0_t2 k0_t3
  case pa0 =>
    intro i q b hq hb
    refine pay_lane row _ (Memref.read_access_whole (Elt F) cc0_scratch0 row) tb bias v2 _ _ hz v314 (1024 * k0_t2.val + 256 * k0_t3.val + 0) (l0 + k0_t2.val) ?_ hv i q b hq hb
    exact fun i q hq => readAt_lane tb _ _ _ (n0_ld0 k0_t2 k0_t3) i q hq
  case pa1 =>
    intro i q b hq hb
    refine pay_lane row _ (Memref.read_access_whole (Elt F) cc0_scratch0 row) tb bias v2 _ _ hz v314 (1024 * k0_t2.val + 256 * k0_t3.val + 16) (l0 + k0_t2.val) ?_ hv i q b hq hb
    exact fun i q hq => readAt_lane tb _ _ _ (n0_ld1 k0_t2 k0_t3) i q hq
  case pa2 =>
    intro i q b hq hb
    refine pay_lane row _ (Memref.read_access_whole (Elt F) cc0_scratch0 row) tb bias v2 _ _ hz v314 (1024 * k0_t2.val + 256 * k0_t3.val + 32) (l0 + k0_t2.val) ?_ hv i q b hq hb
    exact fun i q hq => readAt_lane tb _ _ _ (n0_ld2 k0_t2 k0_t3) i q hq
  case pa3 =>
    intro i q b hq hb
    refine pay_lane row _ (Memref.read_access_whole (Elt F) cc0_scratch0 row) tb bias v2 _ _ hz v314 (1024 * k0_t2.val + 256 * k0_t3.val + 48) (l0 + k0_t2.val) ?_ hv i q b hq hb
    exact fun i q hq => readAt_lane tb _ _ _ (n0_ld3 k0_t2 k0_t3) i q hq
  case pa4 =>
    intro i q b hq hb
    refine pay_lane row _ (Memref.read_access_whole (Elt F) cc0_scratch0 row) tb bias v2 _ _ hz v314 (1024 * k0_t2.val + 256 * k0_t3.val + 64) (l0 + k0_t2.val) ?_ hv i q b hq hb
    exact fun i q hq => readAt_lane tb _ _ _ (n0_ld4 k0_t2 k0_t3) i q hq
  case pa5 =>
    intro i q b hq hb
    refine pay_lane row _ (Memref.read_access_whole (Elt F) cc0_scratch0 row) tb bias v2 _ _ hz v314 (1024 * k0_t2.val + 256 * k0_t3.val + 80) (l0 + k0_t2.val) ?_ hv i q b hq hb
    exact fun i q hq => readAt_lane tb _ _ _ (n0_ld5 k0_t2 k0_t3) i q hq
  case pa6 =>
    intro i q b hq hb
    refine pay_lane row _ (Memref.read_access_whole (Elt F) cc0_scratch0 row) tb bias v2 _ _ hz v314 (1024 * k0_t2.val + 256 * k0_t3.val + 96) (l0 + k0_t2.val) ?_ hv i q b hq hb
    exact fun i q hq => readAt_lane tb _ _ _ (n0_ld6 k0_t2 k0_t3) i q hq
  case pa7 =>
    intro i q b hq hb
    refine pay_lane row _ (Memref.read_access_whole (Elt F) cc0_scratch0 row) tb bias v2 _ _ hz v314 (1024 * k0_t2.val + 256 * k0_t3.val + 112) (l0 + k0_t2.val) ?_ hv i q b hq hb
    exact fun i q hq => readAt_lane tb _ _ _ (n0_ld7 k0_t2 k0_t3) i q hq
  case pa8 =>
    intro i q b hq hb
    refine pay_lane row _ (Memref.read_access_whole (Elt F) cc0_scratch0 row) tb bias v2 _ _ hz v314 (1024 * k0_t2.val + 256 * k0_t3.val + 128) (l0 + k0_t2.val) ?_ hv i q b hq hb
    exact fun i q hq => readAt_lane tb _ _ _ (n0_ld8 k0_t2 k0_t3) i q hq
  case pa9 =>
    intro i q b hq hb
    refine pay_lane row _ (Memref.read_access_whole (Elt F) cc0_scratch0 row) tb bias v2 _ _ hz v314 (1024 * k0_t2.val + 256 * k0_t3.val + 144) (l0 + k0_t2.val) ?_ hv i q b hq hb
    exact fun i q hq => readAt_lane tb _ _ _ (n0_ld9 k0_t2 k0_t3) i q hq
  case pa10 =>
    intro i q b hq hb
    refine pay_lane row _ (Memref.read_access_whole (Elt F) cc0_scratch0 row) tb bias v2 _ _ hz v314 (1024 * k0_t2.val + 256 * k0_t3.val + 160) (l0 + k0_t2.val) ?_ hv i q b hq hb
    exact fun i q hq => readAt_lane tb _ _ _ (n0_ld10 k0_t2 k0_t3) i q hq
  case pa11 =>
    intro i q b hq hb
    refine pay_lane row _ (Memref.read_access_whole (Elt F) cc0_scratch0 row) tb bias v2 _ _ hz v314 (1024 * k0_t2.val + 256 * k0_t3.val + 176) (l0 + k0_t2.val) ?_ hv i q b hq hb
    exact fun i q hq => readAt_lane tb _ _ _ (n0_ld11 k0_t2 k0_t3) i q hq
  case pa12 =>
    intro i q b hq hb
    refine pay_lane row _ (Memref.read_access_whole (Elt F) cc0_scratch0 row) tb bias v2 _ _ hz v314 (1024 * k0_t2.val + 256 * k0_t3.val + 192) (l0 + k0_t2.val) ?_ hv i q b hq hb
    exact fun i q hq => readAt_lane tb _ _ _ (n0_ld12 k0_t2 k0_t3) i q hq
  case pa13 =>
    intro i q b hq hb
    refine pay_lane row _ (Memref.read_access_whole (Elt F) cc0_scratch0 row) tb bias v2 _ _ hz v314 (1024 * k0_t2.val + 256 * k0_t3.val + 208) (l0 + k0_t2.val) ?_ hv i q b hq hb
    exact fun i q hq => readAt_lane tb _ _ _ (n0_ld13 k0_t2 k0_t3) i q hq
  case pa14 =>
    intro i q b hq hb
    refine pay_lane row _ (Memref.read_access_whole (Elt F) cc0_scratch0 row) tb bias v2 _ _ hz v314 (1024 * k0_t2.val + 256 * k0_t3.val + 224) (l0 + k0_t2.val) ?_ hv i q b hq hb
    exact fun i q hq => readAt_lane tb _ _ _ (n0_ld14 k0_t2 k0_t3) i q hq
  case pa15 =>
    intro i q b hq hb
    refine pay_lane row _ (Memref.read_access_whole (Elt F) cc0_scratch0 row) tb bias v2 _ _ hz v314 (1024 * k0_t2.val + 256 * k0_t3.val + 240) (l0 + k0_t2.val) ?_ hv i q b hq hb
    exact fun i q hq => readAt_lane tb _ _ _ (n0_ld15 k0_t2 k0_t3) i q hq

theorem n0_t3_trips : k0_t3_loop.trips = 4 := by decide +kernel
theorem n0_t2_trips : k0_t2_loop.trips = 4 := by decide +kernel

/-- The bias vector's index word in outer trip `t2` is `0 + t2`. -/
theorem n0_w_eq : ∀ k0_t2 : Fin k0_t2_loop.trips, (Scalar.addi 0#32 (Scalar.addi 0#32 (Scalar.muli (Scf.iv 0#32 1#32 k0_t2) 1#32))).toNat = 0 + k0_t2.val := by decide +kernel

/-- Before outer trip `k`: the token words, the row and the biases as they were, and the staging buffer filled below token
    position `1024 * k`. -/
def n0_I2 (tb : Buf (Elt F) ((a8).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a8).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a10).view.loc (thr d L)), ((a10).view.loc (thr d L) ↦{fullShare} g)
      ∗ ⌜∀ y, (flatOf y).val < 1024 * k → (a10).view.read (Elt F) g y = nestG row tb bias l0 hl0 y⌝)

set_option maxHeartbeats 4000000 in
/-- One outer trip: the bias vector gathered at the trip's position, then the four inner trips. -/
theorem n0_t2_step (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (k0_t2 : Fin k0_t2_loop.trips) (acc : Unit) :
    n0_I2 d L tb row bias 0 (by norm_num) k0_t2.val acc
      ⊢ wp frame (wpE (defs₀ (F := F)) 𝒱₀ (thr d L) none) Set.univ
          (k0_t2_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t2 acc) (n0_I2 d L tb row bias 0 (by norm_num) (k0_t2.val + 1)) := by
  have ht2 : k0_t2.val < 4 := Nat.lt_of_lt_of_le k0_t2.isLt k0_t2_abs.2.1
  unfold n0_I2 k0_t2_body
  iintro ⟨H8, H7, H13, %g, H10, %hg⟩
  sl_exec (disch := exact chkBias_ok _ (lt_of_eq_of_lt (n0_w_eq k0_t2) (by omega)))
  iapply (SparseCore.wp_vectorLoadIdx 𝒱₀ (thr d L) none Set.univ (base := a13) (S := Finset.univ) (q := fullShare) (Finset.subset_univ _)) $$ H13; iintro H13
  sl_for (n0_I3 d L tb row bias 0 (by norm_num) k0_t2.val) $$ [H8 H7 H10]
  case region =>
    intro k acc'
    refine n0_t3_step d L v2 hz k0_t1 v10 k0_t2 _ _ tb htb row bias 0 (by norm_num) ?hv k acc'
    exact fun i b hb => bias_lane bias _ (Memref.read_access_whole (Elt F) cc0_scratch6 bias) _ _ (0 + k0_t2.val) (n0_w_eq k0_t2) i b hb
  · unfold n0_I3
    isplitl [H8]; · iexact H8
    isplitl [H7]; · iexact H7
    iexists g
    isplitl [H10]; · iexact H10
    ipureintro
    intro y hy
    exact hg y (by omega)
  iintro %_ HI
  unfold n0_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t3_loop.lb k0_t3_loop.ub k0_t3_loop.st = 4 := n0_t3_trips
  omega

set_option maxHeartbeats 4000000 in
/-- The whole nest: from any contents of the staging buffer to the nest's value, the token words, the row and the biases kept. -/
theorem nest0 (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} f)) : sProp 𝕄)
      ⊢ wp frame (wpE (defs₀ (F := F)) 𝒱₀ (thr d L) none) Set.univ
          (Scf.Loop.for k0_t2_loop k0_t2_ok ⟨⟩ (k0_t2_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} nestG row tb bias 0 (by norm_num)))) := by
  iintro ⟨H8, H7, H13, H10⟩
  sl_for (n0_I2 d L tb row bias 0 (by norm_num)) $$ [H8 H7 H13 H10]
  case region =>
    intro k acc
    exact n0_t2_step d L v2 hz k0_t1 v10 tb htb row bias k acc
  isplitl [H8 H7 H13 H10]
  · unfold n0_I2
    isplitl [H8]; · iexact H8
    isplitl [H7]; · iexact H7
    isplitl [H13]; · iexact H13
    iexists f
    isplitl [H10]; · iexact H10
    ipureintro
    intro y hy
    omega
  iintro %_ HI
  unfold n0_I2
  icases HI with ⟨H8, H7, H13, %g, H10, %hg⟩
  have e : g = nestG row tb bias 0 (by norm_num) :=
    funext fun y => hg y (by
      have h4 : Scf.trips k0_t2_loop.lb k0_t2_loop.ub k0_t2_loop.st = 4 := n0_t2_trips
      have := (flatOf y).isLt
      omega)
  subst e
  isplitl [H8]; · iexact H8
  isplitl [H7]; · iexact H7
  isplitl [H13]; · iexact H13
  iexact H10

end Cert.Proof.Nest
end
-- ==== Proof.Nest1.lean ====
/-
  The compute nest of the lookup kernel, instance 1: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.NestSpec
import proofs.«203565_g79912161509654_cont_9to1_m_411_39_alg».proof.Proof.Nest0

noncomputable section

namespace Cert.Proof.Nest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

open Idealize.ShloMosaic.ValueIdx

variable (d : Dev nD) (L : grid0.Coords)

theorem n1_ld0 (k0_t4 : Fin k0_t4_loop.trips) (k0_t5 : Fin k0_t5_loop.trips) :
    k0_off14 k0_t4 k0_t5 0#32 = ![1024 * k0_t4.val + 256 * k0_t5.val + 0] := k0_off14_eq k0_t4 k0_t5 0
theorem n1_ld1 (k0_t4 : Fin k0_t4_loop.trips) (k0_t5 : Fin k0_t5_loop.trips) :
    k0_off14 k0_t4 k0_t5 16#32 = ![1024 * k0_t4.val + 256 * k0_t5.val + 16] := k0_off14_eq k0_t4 k0_t5 1
theorem n1_ld2 (k0_t4 : Fin k0_t4_loop.trips) (k0_t5 : Fin k0_t5_loop.trips) :
    k0_off14 k0_t4 k0_t5 32#32 = ![1024 * k0_t4.val + 256 * k0_t5.val + 32] := k0_off14_eq k0_t4 k0_t5 2
theorem n1_ld3 (k0_t4 : Fin k0_t4_loop.trips) (k0_t5 : Fin k0_t5_loop.trips) :
    k0_off14 k0_t4 k0_t5 48#32 = ![1024 * k0_t4.val + 256 * k0_t5.val + 48] := k0_off14_eq k0_t4 k0_t5 3
theorem n1_ld4 (k0_t4 : Fin k0_t4_loop.trips) (k0_t5 : Fin k0_t5_loop.trips) :
    k0_off14 k0_t4 k0_t5 64#32 = ![1024 * k0_t4.val + 256 * k0_t5.val + 64] := k0_off14_eq k0_t4 k0_t5 4
theorem n1_ld5 (k0_t4 : Fin k0_t4_loop.trips) (k0_t5 : Fin k0_t5_loop.trips) :
    k0_off14 k0_t4 k0_t5 80#32 = ![1024 * k0_t4.val + 256 * k0_t5.val + 80] := k0_off14_eq k0_t4 k0_t5 5
theorem n1_ld6 (k0_t4 : Fin k0_t4_loop.trips) (k0_t5 : Fin k0_t5_loop.trips) :
    k0_off14 k0_t4 k0_t5 96#32 = ![1024 * k0_t4.val + 256 * k0_t5.val + 96] := k0_off14_eq k0_t4 k0_t5 6
theorem n1_ld7 (k0_t4 : Fin k0_t4_loop.trips) (k0_t5 : Fin k0_t5_loop.trips) :
    k0_off14 k0_t4 k0_t5 112#32 = ![1024 * k0_t4.val + 256 * k0_t5.val + 112] := k0_off14_eq k0_t4 k0_t5 7
theorem n1_ld8 (k0_t4 : Fin k0_t4_loop.trips) (k0_t5 : Fin k0_t5_loop.trips) :
    k0_off14 k0_t4 k0_t5 128#32 = ![1024 * k0_t4.val + 256 * k0_t5.val + 128] := k0_off14_eq k0_t4 k0_t5 8
theorem n1_ld9 (k0_t4 : Fin k0_t4_loop.trips) (k0_t5 : Fin k0_t5_loop.trips) :
    k0_off14 k0_t4 k0_t5 144#32 = ![1024 * k0_t4.val + 256 * k0_t5.val + 144] := k0_off14_eq k0_t4 k0_t5 9
theorem n1_ld10 (k0_t4 : Fin k0_t4_loop.trips) (k0_t5 : Fin k0_t5_loop.trips) :
    k0_off14 k0_t4 k0_t5 160#32 = ![1024 * k0_t4.val + 256 * k0_t5.val + 160] := k0_off14_eq k0_t4 k0_t5 10
theorem n1_ld11 (k0_t4 : Fin k0_t4_loop.trips) (k0_t5 : Fin k0_t5_loop.trips) :
    k0_off14 k0_t4 k0_t5 176#32 = ![1024 * k0_t4.val + 256 * k0_t5.val + 176] := k0_off14_eq k0_t4 k0_t5 11
theorem n1_ld12 (k0_t4 : Fin k0_t4_loop.trips) (k0_t5 : Fin k0_t5_loop.trips) :
    k0_off14 k0_t4 k0_t5 192#32 = ![1024 * k0_t4.val + 256 * k0_t5.val + 192] := k0_off14_eq k0_t4 k0_t5 12
theorem n1_ld13 (k0_t4 : Fin k0_t4_loop.trips) (k0_t5 : Fin k0_t5_loop.trips) :
    k0_off14 k0_t4 k0_t5 208#32 = ![1024 * k0_t4.val + 256 * k0_t5.val + 208] := k0_off14_eq k0_t4 k0_t5 13
theorem n1_ld14 (k0_t4 : Fin k0_t4_loop.trips) (k0_t5 : Fin k0_t5_loop.trips) :
    k0_off14 k0_t4 k0_t5 224#32 = ![1024 * k0_t4.val + 256 * k0_t5.val + 224] := k0_off14_eq k0_t4 k0_t5 14
theorem n1_ld15 (k0_t4 : Fin k0_t4_loop.trips) (k0_t5 : Fin k0_t5_loop.trips) :
    k0_off14 k0_t4 k0_t5 240#32 = ![1024 * k0_t4.val + 256 * k0_t5.val + 240] := k0_off14_eq k0_t4 k0_t5 15
theorem n1_st0 (k0_t4 : Fin k0_t4_loop.trips) (k0_t5 : Fin k0_t5_loop.trips) :
    k0_off15 k0_t4 k0_t5 0#32 = ![k0_t4.val, 0, 2 * k0_t5.val + 0, 0, 0] := k0_off15_eq k0_t4 k0_t5 0
theorem n1_st1 (k0_t4 : Fin k0_t4_loop.trips) (k0_t5 : Fin k0_t5_loop.trips) :
    k0_off16 k0_t4 k0_t5 1#32 = ![k0_t4.val, 0, 2 * k0_t5.val + 0, 0, 16] := k0_off16_eq k0_t4 k0_t5 0
theorem n1_st2 (k0_t4 : Fin k0_t4_loop.trips) (k0_t5 : Fin k0_t5_loop.trips) :
    k0_off17 k0_t4 k0_t5 2#32 = ![k0_t4.val, 0, 2 * k0_t5.val + 0, 0, 32] := k0_off17_eq k0_t4 k0_t5 0
theorem n1_st3 (k0_t4 : Fin k0_t4_loop.trips) (k0_t5 : Fin k0_t5_loop.trips) :
    k0_off18 k0_t4 k0_t5 3#32 = ![k0_t4.val, 0, 2 * k0_t5.val + 0, 0, 48] := k0_off18_eq k0_t4 k0_t5 0
theorem n1_st4 (k0_t4 : Fin k0_t4_loop.trips) (k0_t5 : Fin k0_t5_loop.trips) :
    k0_off19 k0_t4 k0_t5 4#32 = ![k0_t4.val, 0, 2 * k0_t5.val + 0, 0, 64] := k0_off19_eq k0_t4 k0_t5 0
theorem n1_st5 (k0_t4 : Fin k0_t4_loop.trips) (k0_t5 : Fin k0_t5_loop.trips) :
    k0_off20 k0_t4 k0_t5 5#32 = ![k0_t4.val, 0, 2 * k0_t5.val + 0, 0, 80] := k0_off20_eq k0_t4 k0_t5 0
theorem n1_st6 (k0_t4 : Fin k0_t4_loop.trips) (k0_t5 : Fin k0_t5_loop.trips) :
    k0_off21 k0_t4 k0_t5 6#32 = ![k0_t4.val, 0, 2 * k0_t5.val + 0, 0, 96] := k0_off21_eq k0_t4 k0_t5 0
theorem n1_st7 (k0_t4 : Fin k0_t4_loop.trips) (k0_t5 : Fin k0_t5_loop.trips) :
    k0_off22 k0_t4 k0_t5 7#32 = ![k0_t4.val, 0, 2 * k0_t5.val + 0, 0, 112] := k0_off22_eq k0_t4 k0_t5 0
theorem n1_st8 (k0_t4 : Fin k0_t4_loop.trips) (k0_t5 : Fin k0_t5_loop.trips) :
    k0_off15 k0_t4 k0_t5 8#32 = ![k0_t4.val, 0, 2 * k0_t5.val + 1, 0, 0] := k0_off15_eq k0_t4 k0_t5 1
theorem n1_st9 (k0_t4 : Fin k0_t4_loop.trips) (k0_t5 : Fin k0_t5_loop.trips) :
    k0_off16 k0_t4 k0_t5 9#32 = ![k0_t4.val, 0, 2 * k0_t5.val + 1, 0, 16] := k0_off16_eq k0_t4 k0_t5 1
theorem n1_st10 (k0_t4 : Fin k0_t4_loop.trips) (k0_t5 : Fin k0_t5_loop.trips) :
    k0_off17 k0_t4 k0_t5 10#32 = ![k0_t4.val, 0, 2 * k0_t5.val + 1, 0, 32] := k0_off17_eq k0_t4 k0_t5 1
theorem n1_st11 (k0_t4 : Fin k0_t4_loop.trips) (k0_t5 : Fin k0_t5_loop.trips) :
    k0_off18 k0_t4 k0_t5 11#32 = ![k0_t4.val, 0, 2 * k0_t5.val + 1, 0, 48] := k0_off18_eq k0_t4 k0_t5 1
theorem n1_st12 (k0_t4 : Fin k0_t4_loop.trips) (k0_t5 : Fin k0_t5_loop.trips) :
    k0_off19 k0_t4 k0_t5 12#32 = ![k0_t4.val, 0, 2 * k0_t5.val + 1, 0, 64] := k0_off19_eq k0_t4 k0_t5 1
theorem n1_st13 (k0_t4 : Fin k0_t4_loop.trips) (k0_t5 : Fin k0_t5_loop.trips) :
    k0_off20 k0_t4 k0_t5 13#32 = ![k0_t4.val, 0, 2 * k0_t5.val + 1, 0, 80] := k0_off20_eq k0_t4 k0_t5 1
theorem n1_st14 (k0_t4 : Fin k0_t4_loop.trips) (k0_t5 : Fin k0_t5_loop.trips) :
    k0_off21 k0_t4 k0_t5 14#32 = ![k0_t4.val, 0, 2 * k0_t5.val + 1, 0, 96] := k0_off21_eq k0_t4 k0_t5 1
theorem n1_st15 (k0_t4 : Fin k0_t4_loop.trips) (k0_t5 : Fin k0_t5_loop.trips) :
    k0_off22 k0_t4 k0_t5 15#32 = ![k0_t4.val, 0, 2 * k0_t5.val + 1, 0, 112] := k0_off22_eq k0_t4 k0_t5 1

/-- Before inner trip `k` of outer trip `t2`: the token words and the row as they were, and the staging buffer filled below
    token position `1024 * t2 + 256 * k`. -/
def n1_I3 (tb : Buf (Elt F) ((a9).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a9).view.loc (thr d L) ↦{fullShare} tb) ∗ (((a7).access (.whole S1x100000)).loc (thr d L) ↦{fullShare} row)
    ∗ ∃ g : Buf (Elt F) ((a11).view.loc (thr d L)), ((a11).view.loc (thr d L) ↦{fullShare} g)
      ∗ ⌜∀ y, (flatOf y).val < 1024 * t2 + 256 * k → (a11).view.read (Elt F) g y = nestG row tb bias l0 hl0 y⌝)

set_option maxHeartbeats 4000000 in
/-- One inner trip: sixteen gathers of the row at sixteen vectors of token words, each plus the bias vector, stored at the
    trip's sixteen rectangles. -/
theorem n1_t3_step (v2 : IVec S16 32) (hz : ∀ x, (v2 x).toNat < 1) (k0_t1 : Fin k0_t1_loop.trips) (v10 : BitVec 32) (k0_t4 : Fin k0_t4_loop.trips)
    (wIdx : BitVec 32) (v314 : Vec F S16 .f32)
    (tb : Buf (Elt F) ((a9).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t4.val → v314 (ix1 i) = bias (ix1 b))
    (k0_t5 : Fin k0_t5_loop.trips) (acc : Unit) :
    n1_I3 d L tb row bias l0 hl0 k0_t4.val k0_t5.val acc
      ⊢ wp frame (wpE (defs₀ (F := F)) 𝒱₀ (thr d L) none) Set.univ
          (k0_t5_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t4 wIdx v314 k0_t5 acc) (n1_I3 d L tb row bias l0 hl0 k0_t4.val (k0_t5.val + 1)) := by
  have ht2 : k0_t4.val < 4 := Nat.lt_of_lt_of_le k0_t4.isLt k0_t4_abs.2.1
  have ht3 : k0_t5.val < 4 := Nat.lt_of_lt_of_le k0_t5.isLt k0_t5_abs.2.1
  unfold n1_I3 k0_t5_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t4.val + 256 * (k0_t5.val + 1) = 1024 * k0_t4.val + 256 * k0_t5.val + 256 by omega]
  refine filled_step16 (a11).view row tb bias l0 hl0 g k0_t4.val k0_t5.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n1_st0 k0_t4 k0_t5
  case ph1 => exact n1_st1 k0_t4 k0_t5
  case ph2 => exact n1_st2 k0_t4 k0_t5
  case ph3 => exact n1_st3 k0_t4 k0_t5
  case ph4 => exact n1_st4 k0_t4 k0_t5
  case ph5 => exact n1_st5 k0_t4 k0_t5
  case ph6 => exact n1_st6 k0_t4 k0_t5
  case ph7 => exact n1_st7 k0_t4 k0_t5
  case ph8 => exact n1_st8 k0_t4 k0_t5
  case ph9 => exact n1_st9 k0_t4 k0_t5
  case ph10 => exact n1_st10 k0_t4 k0_t5
  case ph11 => exact n1_st11 k0_t4 k0_t5
  case ph12 => exact n1_st12 k0_t4 k0_t5
  case ph13 => exact n1_st13 k0_t4 k0_t5
  case ph14 => exact n1_st14 k0_t4 k0_t5
  case ph15 => exact n1_st15 k0_t4 k0_t5
  case pa0 =>
    intro i q b hq hb
    refine pay_lane row _ (Memref.read_access_whole (Elt F) cc0_scratch0 row) tb bias v2 _ _ hz v314 (1024 * k0_t4.val + 256 * k0_t5.val + 0) (l0 + k0_t4.val) ?_ hv i q b hq hb
    exact fun i q hq => readAt_lane tb _ _ _ (n1_ld0 k0_t4 k0_t5) i q hq
  case pa1 =>
    intro i q b hq hb
    refine pay_lane row _ (Memref.read_access_whole (Elt F) cc0_scratch0 row) tb bias v2 _ _ hz v314 (1024 * k0_t4.val + 256 * k0_t5.val + 16) (l0 + k0_t4.val) ?_ hv i q b hq hb
    exact fun i q hq => readAt_lane tb _ _ _ (n1_ld1 k0_t4 k0_t5) i q hq
  case pa2 =>
    intro i q b hq hb
    refine pay_lane row _ (Memref.read_access_whole (Elt F) cc0_scratch0 row) tb bias v2 _ _ hz v314 (1024 * k0_t4.val + 256 * k0_t5.val + 32) (l0 + k0_t4.val) ?_ hv i q b hq hb
    exact fun i q hq => readAt_lane tb _ _ _ (n1_ld2 k0_t4 k0_t5) i q hq
  case pa3 =>
    intro i q b hq hb
    refine pay_lane row _ (Memref.read_access_whole (Elt F) cc0_scratch0 row) tb bias v2 _ _ hz v314 (1024 * k0_t4.val + 256 * k0_t5.val + 48) (l0 + k0_t4.val) ?_ hv i q b hq hb
    exact fun i q hq => readAt_lane tb _ _ _ (n1_ld3 k0_t4 k0_t5) i q hq
  case pa4 =>
    intro i q b hq hb
    refine pay_lane row _ (Memref.read_access_whole (Elt F) cc0_scratch0 row) tb bias v2 _ _ hz v314 (1024 * k0_t4.val + 256 * k0_t5.val + 64) (l0 + k0_t4.val) ?_ hv i q b hq hb
    exact fun i q hq => readAt_lane tb _ _ _ (n1_ld4 k0_t4 k0_t5) i q hq
  case pa5 =>
    intro i q b hq hb
    refine pay_lane row _ (Memref.read_access_whole (Elt F) cc0_scratch0 row) tb bias v2 _ _ hz v314 (1024 * k0_t4.val + 256 * k0_t5.val + 80) (l0 + k0_t4.val) ?_ hv i q b hq hb
    exact fun i q hq => readAt_lane tb _ _ _ (n1_ld5 k0_t4 k0_t5) i q hq
  case pa6 =>
    intro i q b hq hb
    refine pay_lane row _ (Memref.read_access_whole (Elt F) cc0_scratch0 row) tb bias v2 _ _ hz v314 (1024 * k0_t4.val + 256 * k0_t5.val + 96) (l0 + k0_t4.val) ?_ hv i q b hq hb
    exact fun i q hq => readAt_lane tb _ _ _ (n1_ld6 k0_t4 k0_t5) i q hq
  case pa7 =>
    intro i q b hq hb
    refine pay_lane row _ (Memref.read_access_whole (Elt F) cc0_scratch0 row) tb bias v2 _ _ hz v314 (1024 * k0_t4.val + 256 * k0_t5.val + 112) (l0 + k0_t4.val) ?_ hv i q b hq hb
    exact fun i q hq => readAt_lane tb _ _ _ (n1_ld7 k0_t4 k0_t5) i q hq
  case pa8 =>
    intro i q b hq hb
    refine pay_lane row _ (Memref.read_access_whole (Elt F) cc0_scratch0 row) tb bias v2 _ _ hz v314 (1024 * k0_t4.val + 256 * k0_t5.val + 128) (l0 + k0_t4.val) ?_ hv i q b hq hb
    exact fun i q hq => readAt_lane tb _ _ _ (n1_ld8 k0_t4 k0_t5) i q hq
  case pa9 =>
    intro i q b hq hb
    refine pay_lane row _ (Memref.read_access_whole (Elt F) cc0_scratch0 row) tb bias v2 _ _ hz v314 (1024 * k0_t4.val + 256 * k0_t5.val + 144) (l0 + k0_t4.val) ?_ hv i q b hq hb
    exact fun i q hq => readAt_lane tb _ _ _ (n1_ld9 k0_t4 k0_t5) i q hq
  case pa10 =>
    intro i q b hq hb
    refine pay_lane row _ (Memref.read_access_whole (Elt F) cc0_scratch0 row) tb bias v2 _ _ hz v314 (1024 * k0_t4.val + 256 * k0_t5.val + 160) (l0 + k0_t4.val) ?_ hv i q b hq hb
    exact fun i q hq => readAt_lane tb _ _ _ (n1_ld10 k0_t4 k0_t5) i q hq
  case pa11 =>
    intro i q b hq hb
    refine pay_lane row _ (Memref.read_access_whole (Elt F) cc0_scratch0 row) tb bias v2 _ _ hz v314 (1024 * k0_t4.val + 256 * k0_t5.val + 176) (l0 + k0_t4.val) ?_ hv i q b hq hb
    exact fun i q hq => readAt_lane tb _ _ _ (n1_ld11 k0_t4 k0_t5) i q hq
  case pa12 =>
    intro i q b hq hb
    refine pay_lane row _ (Memref.read_access_whole (Elt F) cc0_scratch0 row) tb bias v2 _ _ hz v314 (1024 * k0_t4.val + 256 * k0_t5.val + 192) (l0 + k0_t4.val) ?_ hv i q b hq hb
    exact fun i q hq => readAt_lane tb _ _ _ (n1_ld12 k0_t4 k0_t5) i q hq
  case pa13 =>
    intro i q b hq hb
    refine pay_lane row _ (Memref.read_access_whole (Elt F) cc0_scratch0 row) tb bias v2 _ _ hz v314 (1024 * k0_t4.val + 256 * k0_t5.val + 208) (l0 + k0_t4.val) ?_ hv i q b hq hb
    exact fun i q hq => readAt_lane tb _ _ _ (n1_ld13 k0_t4 k0_t5) i q hq
  case pa14 =>
    intro i q b hq hb
    refine pay_lane row _ (Memref.read_access_whole (Elt F) cc0_scratch0 row) tb bias v2 _ _ hz v314 (1024 * k0_t4.val + 256 * k0_t5.val + 224) (l0 + k0_t4.val) ?_ hv i q b hq hb
    exact fun i q hq => readAt_lane tb _ _ _ (n1_ld14 k0_t4 k0_t5) i q hq
  case pa15 =>
    intro i q b hq hb
    refine pay_lane row _ (Memref.read_access_whole (Elt F) cc0_scratch0 row) tb bias v2 _ _ hz v314 (1024 * k0_t4.val + 256 * k0_t5.val + 240) (l0 + k0_t4.val) ?_ hv i q b hq hb
    exact fun i q hq => readAt_lane tb _ _ _ (n1_ld15 k0_t4 k0_t5) i q hq

theorem n1_t3_trips : k0_t5_loop.trips = 4 := by decide +kernel
theorem n1_t2_trips : k0_t4_loop.trips = 4 := by decide +kernel

/-- The bias vector's index word in outer trip `t2` is `4 + t2`. -/
theorem n1_w_eq : ∀ k0_t4 : Fin k0_t4_loop.trips, (Scalar.addi 4#32 (Scalar.addi 0#32 (Scalar.muli (Scf.iv 0#32 1#32 k0_t4) 1#32))).toNat = 4 + k0_t4.val := by decide +kernel

/-- Before outer trip `k`: the token words, the row and the biases as they were, and the staging buffer filled below token
    position `1024 * k`. -/
def n1_I2 (tb : Buf (Elt F) ((a9).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a9).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a11).view.loc (thr d L)), ((a11).view.loc (thr d L) ↦{fullShare} g)
      ∗ ⌜∀ y, (flatOf y).val < 1024 * k → (a11).view.read (Elt F) g y = nestG row tb bias l0 hl0 y⌝)

set_option maxHeartbeats 4000000 in
/-- One outer trip: the bias vector gathered at the trip's position, then the four inner trips. -/
theorem n1_t2_step (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (k0_t4 : Fin k0_t4_loop.trips) (acc : Unit) :
    n1_I2 d L tb row bias 4 (by norm_num) k0_t4.val acc
      ⊢ wp frame (wpE (defs₀ (F := F)) 𝒱₀ (thr d L) none) Set.univ
          (k0_t4_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t4 acc) (n1_I2 d L tb row bias 4 (by norm_num) (k0_t4.val + 1)) := by
  have ht2 : k0_t4.val < 4 := Nat.lt_of_lt_of_le k0_t4.isLt k0_t4_abs.2.1
  unfold n1_I2 k0_t4_body
  iintro ⟨H8, H7, H13, %g, H10, %hg⟩
  sl_exec (disch := exact chkBias_ok _ (lt_of_eq_of_lt (n1_w_eq k0_t4) (by omega)))
  iapply (SparseCore.wp_vectorLoadIdx 𝒱₀ (thr d L) none Set.univ (base := a13) (S := Finset.univ) (q := fullShare) (Finset.subset_univ _)) $$ H13; iintro H13
  sl_for (n1_I3 d L tb row bias 4 (by norm_num) k0_t4.val) $$ [H8 H7 H10]
  case region =>
    intro k acc'
    refine n1_t3_step d L v2 hz k0_t1 v10 k0_t4 _ _ tb htb row bias 4 (by norm_num) ?hv k acc'
    exact fun i b hb => bias_lane bias _ (Memref.read_access_whole (Elt F) cc0_scratch6 bias) _ _ (4 + k0_t4.val) (n1_w_eq k0_t4) i b hb
  · unfold n1_I3
    isplitl [H8]; · iexact H8
    isplitl [H7]; · iexact H7
    iexists g
    isplitl [H10]; · iexact H10
    ipureintro
    intro y hy
    exact hg y (by omega)
  iintro %_ HI
  unfold n1_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t5_loop.lb k0_t5_loop.ub k0_t5_loop.st = 4 := n1_t3_trips
  omega

set_option maxHeartbeats 4000000 in
/-- The whole nest: from any contents of the staging buffer to the nest's value, the token words, the row and the biases kept. -/
theorem nest1 (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} f)) : sProp 𝕄)
      ⊢ wp frame (wpE (defs₀ (F := F)) 𝒱₀ (thr d L) none) Set.univ
          (Scf.Loop.for k0_t4_loop k0_t4_ok ⟨⟩ (k0_t4_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10))
          (fun _ => iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} nestG row tb bias 4 (by norm_num)))) := by
  iintro ⟨H8, H7, H13, H10⟩
  sl_for (n1_I2 d L tb row bias 4 (by norm_num)) $$ [H8 H7 H13 H10]
  case region =>
    intro k acc
    exact n1_t2_step d L v2 hz k0_t1 v10 tb htb row bias k acc
  isplitl [H8 H7 H13 H10]
  · unfold n1_I2
    isplitl [H8]; · iexact H8
    isplitl [H7]; · iexact H7
    isplitl [H13]; · iexact H13
    iexists f
    isplitl [H10]; · iexact H10
    ipureintro
    intro y hy
    omega
  iintro %_ HI
  unfold n1_I2
  icases HI with ⟨H8, H7, H13, %g, H10, %hg⟩
  have e : g = nestG row tb bias 4 (by norm_num) :=
    funext fun y => hg y (by
      have h4 : Scf.trips k0_t4_loop.lb k0_t4_loop.ub k0_t4_loop.st = 4 := n1_t2_trips
      have := (flatOf y).isLt
      omega)
  subst e
  isplitl [H8]; · iexact H8
  isplitl [H7]; · iexact H7
  isplitl [H13]; · iexact H13
  iexact H10

end Cert.Proof.Nest
end
-- ==== Proof.Nest2.lean ====
/-
  The compute nest of the lookup kernel, instance 2: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.NestSpec
import proofs.«203565_g79912161509654_cont_9to1_m_411_39_alg».proof.Proof.Nest0

noncomputable section

namespace Cert.Proof.Nest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

open Idealize.ShloMosaic.ValueIdx

variable (d : Dev nD) (L : grid0.Coords)

theorem n2_ld0 (k0_t7 : Fin k0_t7_loop.trips) (k0_t8 : Fin k0_t8_loop.trips) :
    k0_off26 k0_t7 k0_t8 0#32 = ![1024 * k0_t7.val + 256 * k0_t8.val + 0] := k0_off26_eq k0_t7 k0_t8 0
theorem n2_ld1 (k0_t7 : Fin k0_t7_loop.trips) (k0_t8 : Fin k0_t8_loop.trips) :
    k0_off26 k0_t7 k0_t8 16#32 = ![1024 * k0_t7.val + 256 * k0_t8.val + 16] := k0_off26_eq k0_t7 k0_t8 1
theorem n2_ld2 (k0_t7 : Fin k0_t7_loop.trips) (k0_t8 : Fin k0_t8_loop.trips) :
    k0_off26 k0_t7 k0_t8 32#32 = ![1024 * k0_t7.val + 256 * k0_t8.val + 32] := k0_off26_eq k0_t7 k0_t8 2
theorem n2_ld3 (k0_t7 : Fin k0_t7_loop.trips) (k0_t8 : Fin k0_t8_loop.trips) :
    k0_off26 k0_t7 k0_t8 48#32 = ![1024 * k0_t7.val + 256 * k0_t8.val + 48] := k0_off26_eq k0_t7 k0_t8 3
theorem n2_ld4 (k0_t7 : Fin k0_t7_loop.trips) (k0_t8 : Fin k0_t8_loop.trips) :
    k0_off26 k0_t7 k0_t8 64#32 = ![1024 * k0_t7.val + 256 * k0_t8.val + 64] := k0_off26_eq k0_t7 k0_t8 4
theorem n2_ld5 (k0_t7 : Fin k0_t7_loop.trips) (k0_t8 : Fin k0_t8_loop.trips) :
    k0_off26 k0_t7 k0_t8 80#32 = ![1024 * k0_t7.val + 256 * k0_t8.val + 80] := k0_off26_eq k0_t7 k0_t8 5
theorem n2_ld6 (k0_t7 : Fin k0_t7_loop.trips) (k0_t8 : Fin k0_t8_loop.trips) :
    k0_off26 k0_t7 k0_t8 96#32 = ![1024 * k0_t7.val + 256 * k0_t8.val + 96] := k0_off26_eq k0_t7 k0_t8 6
theorem n2_ld7 (k0_t7 : Fin k0_t7_loop.trips) (k0_t8 : Fin k0_t8_loop.trips) :
    k0_off26 k0_t7 k0_t8 112#32 = ![1024 * k0_t7.val + 256 * k0_t8.val + 112] := k0_off26_eq k0_t7 k0_t8 7
theorem n2_ld8 (k0_t7 : Fin k0_t7_loop.trips) (k0_t8 : Fin k0_t8_loop.trips) :
    k0_off26 k0_t7 k0_t8 128#32 = ![1024 * k0_t7.val + 256 * k0_t8.val + 128] := k0_off26_eq k0_t7 k0_t8 8
theorem n2_ld9 (k0_t7 : Fin k0_t7_loop.trips) (k0_t8 : Fin k0_t8_loop.trips) :
    k0_off26 k0_t7 k0_t8 144#32 = ![1024 * k0_t7.val + 256 * k0_t8.val + 144] := k0_off26_eq k0_t7 k0_t8 9
theorem n2_ld10 (k0_t7 : Fin k0_t7_loop.trips) (k0_t8 : Fin k0_t8_loop.trips) :
    k0_off26 k0_t7 k0_t8 160#32 = ![1024 * k0_t7.val + 256 * k0_t8.val + 160] := k0_off26_eq k0_t7 k0_t8 10
theorem n2_ld11 (k0_t7 : Fin k0_t7_loop.trips) (k0_t8 : Fin k0_t8_loop.trips) :
    k0_off26 k0_t7 k0_t8 176#32 = ![1024 * k0_t7.val + 256 * k0_t8.val + 176] := k0_off26_eq k0_t7 k0_t8 11
theorem n2_ld12 (k0_t7 : Fin k0_t7_loop.trips) (k0_t8 : Fin k0_t8_loop.trips) :
    k0_off26 k0_t7 k0_t8 192#32 = ![1024 * k0_t7.val + 256 * k0_t8.val + 192] := k0_off26_eq k0_t7 k0_t8 12
theorem n2_ld13 (k0_t7 : Fin k0_t7_loop.trips) (k0_t8 : Fin k0_t8_loop.trips) :
    k0_off26 k0_t7 k0_t8 208#32 = ![1024 * k0_t7.val + 256 * k0_t8.val + 208] := k0_off26_eq k0_t7 k0_t8 13
theorem n2_ld14 (k0_t7 : Fin k0_t7_loop.trips) (k0_t8 : Fin k0_t8_loop.trips) :
    k0_off26 k0_t7 k0_t8 224#32 = ![1024 * k0_t7.val + 256 * k0_t8.val + 224] := k0_off26_eq k0_t7 k0_t8 14
theorem n2_ld15 (k0_t7 : Fin k0_t7_loop.trips) (k0_t8 : Fin k0_t8_loop.trips) :
    k0_off26 k0_t7 k0_t8 240#32 = ![1024 * k0_t7.val + 256 * k0_t8.val + 240] := k0_off26_eq k0_t7 k0_t8 15
theorem n2_st0 (k0_t7 : Fin k0_t7_loop.trips) (k0_t8 : Fin k0_t8_loop.trips) :
    k0_off27 k0_t7 k0_t8 0#32 = ![k0_t7.val, 0, 2 * k0_t8.val + 0, 0, 0] := k0_off27_eq k0_t7 k0_t8 0
theorem n2_st1 (k0_t7 : Fin k0_t7_loop.trips) (k0_t8 : Fin k0_t8_loop.trips) :
    k0_off28 k0_t7 k0_t8 1#32 = ![k0_t7.val, 0, 2 * k0_t8.val + 0, 0, 16] := k0_off28_eq k0_t7 k0_t8 0
theorem n2_st2 (k0_t7 : Fin k0_t7_loop.trips) (k0_t8 : Fin k0_t8_loop.trips) :
    k0_off29 k0_t7 k0_t8 2#32 = ![k0_t7.val, 0, 2 * k0_t8.val + 0, 0, 32] := k0_off29_eq k0_t7 k0_t8 0
theorem n2_st3 (k0_t7 : Fin k0_t7_loop.trips) (k0_t8 : Fin k0_t8_loop.trips) :
    k0_off30 k0_t7 k0_t8 3#32 = ![k0_t7.val, 0, 2 * k0_t8.val + 0, 0, 48] := k0_off30_eq k0_t7 k0_t8 0
theorem n2_st4 (k0_t7 : Fin k0_t7_loop.trips) (k0_t8 : Fin k0_t8_loop.trips) :
    k0_off31 k0_t7 k0_t8 4#32 = ![k0_t7.val, 0, 2 * k0_t8.val + 0, 0, 64] := k0_off31_eq k0_t7 k0_t8 0
theorem n2_st5 (k0_t7 : Fin k0_t7_loop.trips) (k0_t8 : Fin k0_t8_loop.trips) :
    k0_off32 k0_t7 k0_t8 5#32 = ![k0_t7.val, 0, 2 * k0_t8.val + 0, 0, 80] := k0_off32_eq k0_t7 k0_t8 0
theorem n2_st6 (k0_t7 : Fin k0_t7_loop.trips) (k0_t8 : Fin k0_t8_loop.trips) :
    k0_off33 k0_t7 k0_t8 6#32 = ![k0_t7.val, 0, 2 * k0_t8.val + 0, 0, 96] := k0_off33_eq k0_t7 k0_t8 0
theorem n2_st7 (k0_t7 : Fin k0_t7_loop.trips) (k0_t8 : Fin k0_t8_loop.trips) :
    k0_off34 k0_t7 k0_t8 7#32 = ![k0_t7.val, 0, 2 * k0_t8.val + 0, 0, 112] := k0_off34_eq k0_t7 k0_t8 0
theorem n2_st8 (k0_t7 : Fin k0_t7_loop.trips) (k0_t8 : Fin k0_t8_loop.trips) :
    k0_off27 k0_t7 k0_t8 8#32 = ![k0_t7.val, 0, 2 * k0_t8.val + 1, 0, 0] := k0_off27_eq k0_t7 k0_t8 1
theorem n2_st9 (k0_t7 : Fin k0_t7_loop.trips) (k0_t8 : Fin k0_t8_loop.trips) :
    k0_off28 k0_t7 k0_t8 9#32 = ![k0_t7.val, 0, 2 * k0_t8.val + 1, 0, 16] := k0_off28_eq k0_t7 k0_t8 1
theorem n2_st10 (k0_t7 : Fin k0_t7_loop.trips) (k0_t8 : Fin k0_t8_loop.trips) :
    k0_off29 k0_t7 k0_t8 10#32 = ![k0_t7.val, 0, 2 * k0_t8.val + 1, 0, 32] := k0_off29_eq k0_t7 k0_t8 1
theorem n2_st11 (k0_t7 : Fin k0_t7_loop.trips) (k0_t8 : Fin k0_t8_loop.trips) :
    k0_off30 k0_t7 k0_t8 11#32 = ![k0_t7.val, 0, 2 * k0_t8.val + 1, 0, 48] := k0_off30_eq k0_t7 k0_t8 1
theorem n2_st12 (k0_t7 : Fin k0_t7_loop.trips) (k0_t8 : Fin k0_t8_loop.trips) :
    k0_off31 k0_t7 k0_t8 12#32 = ![k0_t7.val, 0, 2 * k0_t8.val + 1, 0, 64] := k0_off31_eq k0_t7 k0_t8 1
theorem n2_st13 (k0_t7 : Fin k0_t7_loop.trips) (k0_t8 : Fin k0_t8_loop.trips) :
    k0_off32 k0_t7 k0_t8 13#32 = ![k0_t7.val, 0, 2 * k0_t8.val + 1, 0, 80] := k0_off32_eq k0_t7 k0_t8 1
theorem n2_st14 (k0_t7 : Fin k0_t7_loop.trips) (k0_t8 : Fin k0_t8_loop.trips) :
    k0_off33 k0_t7 k0_t8 14#32 = ![k0_t7.val, 0, 2 * k0_t8.val + 1, 0, 96] := k0_off33_eq k0_t7 k0_t8 1
theorem n2_st15 (k0_t7 : Fin k0_t7_loop.trips) (k0_t8 : Fin k0_t8_loop.trips) :
    k0_off34 k0_t7 k0_t8 15#32 = ![k0_t7.val, 0, 2 * k0_t8.val + 1, 0, 112] := k0_off34_eq k0_t7 k0_t8 1

/-- Before inner trip `k` of outer trip `t2`: the token words and the row as they were, and the staging buffer filled below
    token position `1024 * t2 + 256 * k`. -/
def n2_I3 (tb : Buf (Elt F) ((a8).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a8).view.loc (thr d L) ↦{fullShare} tb) ∗ (((a7).access (.whole S1x100000)).loc (thr d L) ↦{fullShare} row)
    ∗ ∃ g : Buf (Elt F) ((a10).view.loc (thr d L)), ((a10).view.loc (thr d L) ↦{fullShare} g)
      ∗ ⌜∀ y, (flatOf y).val < 1024 * t2 + 256 * k → (a10).view.read (Elt F) g y = nestG row tb bias l0 hl0 y⌝)

set_option maxHeartbeats 4000000 in
/-- One inner trip: sixteen gathers of the row at sixteen vectors of token words, each plus the bias vector, stored at the
    trip's sixteen rectangles. -/
theorem n2_t3_step (v2 : IVec S16 32) (hz : ∀ x, (v2 x).toNat < 1) (k0_t1 : Fin k0_t1_loop.trips) (v10 : BitVec 32) (k0_t6 : Fin k0_t6_loop.trips) (v311 : BitVec 32) (k0_t7 : Fin k0_t7_loop.trips)
    (wIdx : BitVec 32) (v314 : Vec F S16 .f32)
    (tb : Buf (Elt F) ((a8).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t7.val → v314 (ix1 i) = bias (ix1 b))
    (k0_t8 : Fin k0_t8_loop.trips) (acc : Unit) :
    n2_I3 d L tb row bias l0 hl0 k0_t7.val k0_t8.val acc
      ⊢ wp frame (wpE (defs₀ (F := F)) 𝒱₀ (thr d L) none) Set.univ
          (k0_t8_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v311 k0_t7 wIdx v314 k0_t8 acc) (n2_I3 d L tb row bias l0 hl0 k0_t7.val (k0_t8.val + 1)) := by
  have ht2 : k0_t7.val < 4 := Nat.lt_of_lt_of_le k0_t7.isLt k0_t7_abs.2.1
  have ht3 : k0_t8.val < 4 := Nat.lt_of_lt_of_le k0_t8.isLt k0_t8_abs.2.1
  unfold n2_I3 k0_t8_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t7.val + 256 * (k0_t8.val + 1) = 1024 * k0_t7.val + 256 * k0_t8.val + 256 by omega]
  refine filled_step16 (a10).view row tb bias l0 hl0 g k0_t7.val k0_t8.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n2_st0 k0_t7 k0_t8
  case ph1 => exact n2_st1 k0_t7 k0_t8
  case ph2 => exact n2_st2 k0_t7 k0_t8
  case ph3 => exact n2_st3 k0_t7 k0_t8
  case ph4 => exact n2_st4 k0_t7 k0_t8
  case ph5 => exact n2_st5 k0_t7 k0_t8
  case ph6 => exact n2_st6 k0_t7 k0_t8
  case ph7 => exact n2_st7 k0_t7 k0_t8
  case ph8 => exact n2_st8 k0_t7 k0_t8
  case ph9 => exact n2_st9 k0_t7 k0_t8
  case ph10 => exact n2_st10 k0_t7 k0_t8
  case ph11 => exact n2_st11 k0_t7 k0_t8
  case ph12 => exact n2_st12 k0_t7 k0_t8
  case ph13 => exact n2_st13 k0_t7 k0_t8
  case ph14 => exact n2_st14 k0_t7 k0_t8
  case ph15 => exact n2_st15 k0_t7 k0_t8
  case pa0 =>
    intro i q b hq hb
    refine pay_lane row _ (Memref.read_access_whole (Elt F) cc0_scratch0 row) tb bias v2 _ _ hz v314 (1024 * k0_t7.val + 256 * k0_t8.val + 0) (l0 + k0_t7.val) ?_ hv i q b hq hb
    exact fun i q hq => readAt_lane tb _ _ _ (n2_ld0 k0_t7 k0_t8) i q hq
  case pa1 =>
    intro i q b hq hb
    refine pay_lane row _ (Memref.read_access_whole (Elt F) cc0_scratch0 row) tb bias v2 _ _ hz v314 (1024 * k0_t7.val + 256 * k0_t8.val + 16) (l0 + k0_t7.val) ?_ hv i q b hq hb
    exact fun i q hq => readAt_lane tb _ _ _ (n2_ld1 k0_t7 k0_t8) i q hq
  case pa2 =>
    intro i q b hq hb
    refine pay_lane row _ (Memref.read_access_whole (Elt F) cc0_scratch0 row) tb bias v2 _ _ hz v314 (1024 * k0_t7.val + 256 * k0_t8.val + 32) (l0 + k0_t7.val) ?_ hv i q b hq hb
    exact fun i q hq => readAt_lane tb _ _ _ (n2_ld2 k0_t7 k0_t8) i q hq
  case pa3 =>
    intro i q b hq hb
    refine pay_lane row _ (Memref.read_access_whole (Elt F) cc0_scratch0 row) tb bias v2 _ _ hz v314 (1024 * k0_t7.val + 256 * k0_t8.val + 48) (l0 + k0_t7.val) ?_ hv i q b hq hb
    exact fun i q hq => readAt_lane tb _ _ _ (n2_ld3 k0_t7 k0_t8) i q hq
  case pa4 =>
    intro i q b hq hb
    refine pay_lane row _ (Memref.read_access_whole (Elt F) cc0_scratch0 row) tb bias v2 _ _ hz v314 (1024 * k0_t7.val + 256 * k0_t8.val + 64) (l0 + k0_t7.val) ?_ hv i q b hq hb
    exact fun i q hq => readAt_lane tb _ _ _ (n2_ld4 k0_t7 k0_t8) i q hq
  case pa5 =>
    intro i q b hq hb
    refine pay_lane row _ (Memref.read_access_whole (Elt F) cc0_scratch0 row) tb bias v2 _ _ hz v314 (1024 * k0_t7.val + 256 * k0_t8.val + 80) (l0 + k0_t7.val) ?_ hv i q b hq hb
    exact fun i q hq => readAt_lane tb _ _ _ (n2_ld5 k0_t7 k0_t8) i q hq
  case pa6 =>
    intro i q b hq hb
    refine pay_lane row _ (Memref.read_access_whole (Elt F) cc0_scratch0 row) tb bias v2 _ _ hz v314 (1024 * k0_t7.val + 256 * k0_t8.val + 96) (l0 + k0_t7.val) ?_ hv i q b hq hb
    exact fun i q hq => readAt_lane tb _ _ _ (n2_ld6 k0_t7 k0_t8) i q hq
  case pa7 =>
    intro i q b hq hb
    refine pay_lane row _ (Memref.read_access_whole (Elt F) cc0_scratch0 row) tb bias v2 _ _ hz v314 (1024 * k0_t7.val + 256 * k0_t8.val + 112) (l0 + k0_t7.val) ?_ hv i q b hq hb
    exact fun i q hq => readAt_lane tb _ _ _ (n2_ld7 k0_t7 k0_t8) i q hq
  case pa8 =>
    intro i q b hq hb
    refine pay_lane row _ (Memref.read_access_whole (Elt F) cc0_scratch0 row) tb bias v2 _ _ hz v314 (1024 * k0_t7.val + 256 * k0_t8.val + 128) (l0 + k0_t7.val) ?_ hv i q b hq hb
    exact fun i q hq => readAt_lane tb _ _ _ (n2_ld8 k0_t7 k0_t8) i q hq
  case pa9 =>
    intro i q b hq hb
    refine pay_lane row _ (Memref.read_access_whole (Elt F) cc0_scratch0 row) tb bias v2 _ _ hz v314 (1024 * k0_t7.val + 256 * k0_t8.val + 144) (l0 + k0_t7.val) ?_ hv i q b hq hb
    exact fun i q hq => readAt_lane tb _ _ _ (n2_ld9 k0_t7 k0_t8) i q hq
  case pa10 =>
    intro i q b hq hb
    refine pay_lane row _ (Memref.read_access_whole (Elt F) cc0_scratch0 row) tb bias v2 _ _ hz v314 (1024 * k0_t7.val + 256 * k0_t8.val + 160) (l0 + k0_t7.val) ?_ hv i q b hq hb
    exact fun i q hq => readAt_lane tb _ _ _ (n2_ld10 k0_t7 k0_t8) i q hq
  case pa11 =>
    intro i q b hq hb
    refine pay_lane row _ (Memref.read_access_whole (Elt F) cc0_scratch0 row) tb bias v2 _ _ hz v314 (1024 * k0_t7.val + 256 * k0_t8.val + 176) (l0 + k0_t7.val) ?_ hv i q b hq hb
    exact fun i q hq => readAt_lane tb _ _ _ (n2_ld11 k0_t7 k0_t8) i q hq
  case pa12 =>
    intro i q b hq hb
    refine pay_lane row _ (Memref.read_access_whole (Elt F) cc0_scratch0 row) tb bias v2 _ _ hz v314 (1024 * k0_t7.val + 256 * k0_t8.val + 192) (l0 + k0_t7.val) ?_ hv i q b hq hb
    exact fun i q hq => readAt_lane tb _ _ _ (n2_ld12 k0_t7 k0_t8) i q hq
  case pa13 =>
    intro i q b hq hb
    refine pay_lane row _ (Memref.read_access_whole (Elt F) cc0_scratch0 row) tb bias v2 _ _ hz v314 (1024 * k0_t7.val + 256 * k0_t8.val + 208) (l0 + k0_t7.val) ?_ hv i q b hq hb
    exact fun i q hq => readAt_lane tb _ _ _ (n2_ld13 k0_t7 k0_t8) i q hq
  case pa14 =>
    intro i q b hq hb
    refine pay_lane row _ (Memref.read_access_whole (Elt F) cc0_scratch0 row) tb bias v2 _ _ hz v314 (1024 * k0_t7.val + 256 * k0_t8.val + 224) (l0 + k0_t7.val) ?_ hv i q b hq hb
    exact fun i q hq => readAt_lane tb _ _ _ (n2_ld14 k0_t7 k0_t8) i q hq
  case pa15 =>
    intro i q b hq hb
    refine pay_lane row _ (Memref.read_access_whole (Elt F) cc0_scratch0 row) tb bias v2 _ _ hz v314 (1024 * k0_t7.val + 256 * k0_t8.val + 240) (l0 + k0_t7.val) ?_ hv i q b hq hb
    exact fun i q hq => readAt_lane tb _ _ _ (n2_ld15 k0_t7 k0_t8) i q hq

theorem n2_t3_trips : k0_t8_loop.trips = 4 := by decide +kernel
theorem n2_t2_trips : k0_t7_loop.trips = 4 := by decide +kernel

/-- The bias vector's index word in outer trip `t2` of chunk `c`: four times the chunk word plus `t2`. -/
theorem n2_w_eq (k0_t6 : Fin k0_t6_loop.trips) (v311 : BitVec 32) (hw : v311.toNat = 2 * k0_t6.val + 2) (hl0 : 8 * k0_t6.val + 8 + 4 ≤ 208)
    (k0_t7 : Fin k0_t7_loop.trips) :
    (Scalar.addi (Scalar.muli v311 4#32) (Scalar.addi 0#32 (Scalar.muli (Scf.iv 0#32 1#32 k0_t7) 1#32))).toNat = 8 * k0_t6.val + 8 + k0_t7.val := by
  have ht : k0_t7.val < 4 := Nat.lt_of_lt_of_le k0_t7.isLt k0_t7_abs.2.1
  have hw' : Affine.IsInt v311 ((2 * k0_t6.val + 2 : Nat) : Int) :=
    Affine.relit (Affine.word v311) (by rw [BitVec.toInt_eq_toNat_of_lt (by omega), hw])
  have h0 : Affine.IsInt 0#32 0 := Affine.ofNat _ (by omega)
  have h1 : Affine.IsInt 1#32 1 := Affine.ofNat _ (by omega)
  have h4 : Affine.IsInt 4#32 4 := Affine.ofNat _ (by omega)
  have hiv : Affine.IsInt _ (k0_t7.val : Int) := Affine.iv h0 h1 k0_t7.val (by omega)
  have hm : Affine.IsInt _ (k0_t7.val : Int) := Affine.muli hiv h1 (by omega)
  have ha : Affine.IsInt _ (k0_t7.val : Int) := Affine.addi h0 hm (by omega)
  have hc : Affine.IsInt _ (4 * ((2 * k0_t6.val + 2 : Nat) : Int)) := Affine.muli hw' h4 (by omega)
  have hs : Affine.IsInt _ (4 * ((2 * k0_t6.val + 2 : Nat) : Int) + k0_t7.val) := Affine.addi hc ha (by omega)
  exact Affine.nat_eq hs _ (by push_cast; omega)

/-- Before outer trip `k`: the token words, the row and the biases as they were, and the staging buffer filled below token
    position `1024 * k`. -/
def n2_I2 (tb : Buf (Elt F) ((a8).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a8).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a10).view.loc (thr d L)), ((a10).view.loc (thr d L) ↦{fullShare} g)
      ∗ ⌜∀ y, (flatOf y).val < 1024 * k → (a10).view.read (Elt F) g y = nestG row tb bias l0 hl0 y⌝)

set_option maxHeartbeats 4000000 in
/-- One outer trip: the bias vector gathered at the trip's position, then the four inner trips. -/
theorem n2_t2_step (v2 : IVec S16 32) (hz : ∀ x, (v2 x).toNat < 1) (k0_t1 : Fin k0_t1_loop.trips) (v10 : BitVec 32) (k0_t6 : Fin k0_t6_loop.trips) (v311 : BitVec 32) (hw : v311.toNat = 2 * k0_t6.val + 2) (hl0 : 8 * k0_t6.val + 8 + 4 ≤ 208)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (k0_t7 : Fin k0_t7_loop.trips) (acc : Unit) :
    n2_I2 d L tb row bias (8 * k0_t6.val + 8) hl0 k0_t7.val acc
      ⊢ wp frame (wpE (defs₀ (F := F)) 𝒱₀ (thr d L) none) Set.univ
          (k0_t7_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v311 k0_t7 acc) (n2_I2 d L tb row bias (8 * k0_t6.val + 8) hl0 (k0_t7.val + 1)) := by
  have ht2 : k0_t7.val < 4 := Nat.lt_of_lt_of_le k0_t7.isLt k0_t7_abs.2.1
  unfold n2_I2 k0_t7_body
  iintro ⟨H8, H7, H13, %g, H10, %hg⟩
  sl_exec (disch := exact chkBias_ok _ (lt_of_eq_of_lt (n2_w_eq k0_t6 v311 hw hl0 k0_t7) (by omega)))
  iapply (SparseCore.wp_vectorLoadIdx 𝒱₀ (thr d L) none Set.univ (base := a13) (S := Finset.univ) (q := fullShare) (Finset.subset_univ _)) $$ H13; iintro H13
  sl_for (n2_I3 d L tb row bias (8 * k0_t6.val + 8) hl0 k0_t7.val) $$ [H8 H7 H10]
  case region =>
    intro k acc'
    refine n2_t3_step d L v2 hz k0_t1 v10 k0_t6 v311 k0_t7 _ _ tb htb row bias (8 * k0_t6.val + 8) hl0 ?hv k acc'
    exact fun i b hb => bias_lane bias _ (Memref.read_access_whole (Elt F) cc0_scratch6 bias) _ _ ((8 * k0_t6.val + 8) + k0_t7.val) (n2_w_eq k0_t6 v311 hw hl0 k0_t7) i b hb
  · unfold n2_I3
    isplitl [H8]; · iexact H8
    isplitl [H7]; · iexact H7
    iexists g
    isplitl [H10]; · iexact H10
    ipureintro
    intro y hy
    exact hg y (by omega)
  iintro %_ HI
  unfold n2_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t8_loop.lb k0_t8_loop.ub k0_t8_loop.st = 4 := n2_t3_trips
  omega

set_option maxHeartbeats 4000000 in
/-- The whole nest: from any contents of the staging buffer to the nest's value, the token words, the row and the biases kept. -/
theorem nest2 (v2 : IVec S16 32) (hz : ∀ x, (v2 x).toNat < 1) (k0_t1 : Fin k0_t1_loop.trips) (v10 : BitVec 32) (k0_t6 : Fin k0_t6_loop.trips) (v311 : BitVec 32) (hw : v311.toNat = 2 * k0_t6.val + 2) (hl0 : 8 * k0_t6.val + 8 + 4 ≤ 208)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} f)) : sProp 𝕄)
      ⊢ wp frame (wpE (defs₀ (F := F)) 𝒱₀ (thr d L) none) Set.univ
          (Scf.Loop.for k0_t7_loop k0_t7_ok ⟨⟩ (k0_t7_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v311))
          (fun _ => iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} nestG row tb bias (8 * k0_t6.val + 8) hl0))) := by
  iintro ⟨H8, H7, H13, H10⟩
  sl_for (n2_I2 d L tb row bias (8 * k0_t6.val + 8) hl0) $$ [H8 H7 H13 H10]
  case region =>
    intro k acc
    exact n2_t2_step d L v2 hz k0_t1 v10 k0_t6 v311 hw hl0 tb htb row bias k acc
  isplitl [H8 H7 H13 H10]
  · unfold n2_I2
    isplitl [H8]; · iexact H8
    isplitl [H7]; · iexact H7
    isplitl [H13]; · iexact H13
    iexists f
    isplitl [H10]; · iexact H10
    ipureintro
    intro y hy
    omega
  iintro %_ HI
  unfold n2_I2
  icases HI with ⟨H8, H7, H13, %g, H10, %hg⟩
  have e : g = nestG row tb bias (8 * k0_t6.val + 8) hl0 :=
    funext fun y => hg y (by
      have h4 : Scf.trips k0_t7_loop.lb k0_t7_loop.ub k0_t7_loop.st = 4 := n2_t2_trips
      have := (flatOf y).isLt
      omega)
  subst e
  isplitl [H8]; · iexact H8
  isplitl [H7]; · iexact H7
  isplitl [H13]; · iexact H13
  iexact H10

end Cert.Proof.Nest
end
-- ==== Proof.Nest3.lean ====
/-
  The compute nest of the lookup kernel, instance 3: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.NestSpec
import proofs.«203565_g79912161509654_cont_9to1_m_411_39_alg».proof.Proof.Nest0

noncomputable section

namespace Cert.Proof.Nest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

open Idealize.ShloMosaic.ValueIdx

variable (d : Dev nD) (L : grid0.Coords)

theorem n3_ld0 (k0_t9 : Fin k0_t9_loop.trips) (k0_t10 : Fin k0_t10_loop.trips) :
    k0_off38 k0_t9 k0_t10 0#32 = ![1024 * k0_t9.val + 256 * k0_t10.val + 0] := k0_off38_eq k0_t9 k0_t10 0
theorem n3_ld1 (k0_t9 : Fin k0_t9_loop.trips) (k0_t10 : Fin k0_t10_loop.trips) :
    k0_off38 k0_t9 k0_t10 16#32 = ![1024 * k0_t9.val + 256 * k0_t10.val + 16] := k0_off38_eq k0_t9 k0_t10 1
theorem n3_ld2 (k0_t9 : Fin k0_t9_loop.trips) (k0_t10 : Fin k0_t10_loop.trips) :
    k0_off38 k0_t9 k0_t10 32#32 = ![1024 * k0_t9.val + 256 * k0_t10.val + 32] := k0_off38_eq k0_t9 k0_t10 2
theorem n3_ld3 (k0_t9 : Fin k0_t9_loop.trips) (k0_t10 : Fin k0_t10_loop.trips) :
    k0_off38 k0_t9 k0_t10 48#32 = ![1024 * k0_t9.val + 256 * k0_t10.val + 48] := k0_off38_eq k0_t9 k0_t10 3
theorem n3_ld4 (k0_t9 : Fin k0_t9_loop.trips) (k0_t10 : Fin k0_t10_loop.trips) :
    k0_off38 k0_t9 k0_t10 64#32 = ![1024 * k0_t9.val + 256 * k0_t10.val + 64] := k0_off38_eq k0_t9 k0_t10 4
theorem n3_ld5 (k0_t9 : Fin k0_t9_loop.trips) (k0_t10 : Fin k0_t10_loop.trips) :
    k0_off38 k0_t9 k0_t10 80#32 = ![1024 * k0_t9.val + 256 * k0_t10.val + 80] := k0_off38_eq k0_t9 k0_t10 5
theorem n3_ld6 (k0_t9 : Fin k0_t9_loop.trips) (k0_t10 : Fin k0_t10_loop.trips) :
    k0_off38 k0_t9 k0_t10 96#32 = ![1024 * k0_t9.val + 256 * k0_t10.val + 96] := k0_off38_eq k0_t9 k0_t10 6
theorem n3_ld7 (k0_t9 : Fin k0_t9_loop.trips) (k0_t10 : Fin k0_t10_loop.trips) :
    k0_off38 k0_t9 k0_t10 112#32 = ![1024 * k0_t9.val + 256 * k0_t10.val + 112] := k0_off38_eq k0_t9 k0_t10 7
theorem n3_ld8 (k0_t9 : Fin k0_t9_loop.trips) (k0_t10 : Fin k0_t10_loop.trips) :
    k0_off38 k0_t9 k0_t10 128#32 = ![1024 * k0_t9.val + 256 * k0_t10.val + 128] := k0_off38_eq k0_t9 k0_t10 8
theorem n3_ld9 (k0_t9 : Fin k0_t9_loop.trips) (k0_t10 : Fin k0_t10_loop.trips) :
    k0_off38 k0_t9 k0_t10 144#32 = ![1024 * k0_t9.val + 256 * k0_t10.val + 144] := k0_off38_eq k0_t9 k0_t10 9
theorem n3_ld10 (k0_t9 : Fin k0_t9_loop.trips) (k0_t10 : Fin k0_t10_loop.trips) :
    k0_off38 k0_t9 k0_t10 160#32 = ![1024 * k0_t9.val + 256 * k0_t10.val + 160] := k0_off38_eq k0_t9 k0_t10 10
theorem n3_ld11 (k0_t9 : Fin k0_t9_loop.trips) (k0_t10 : Fin k0_t10_loop.trips) :
    k0_off38 k0_t9 k0_t10 176#32 = ![1024 * k0_t9.val + 256 * k0_t10.val + 176] := k0_off38_eq k0_t9 k0_t10 11
theorem n3_ld12 (k0_t9 : Fin k0_t9_loop.trips) (k0_t10 : Fin k0_t10_loop.trips) :
    k0_off38 k0_t9 k0_t10 192#32 = ![1024 * k0_t9.val + 256 * k0_t10.val + 192] := k0_off38_eq k0_t9 k0_t10 12
theorem n3_ld13 (k0_t9 : Fin k0_t9_loop.trips) (k0_t10 : Fin k0_t10_loop.trips) :
    k0_off38 k0_t9 k0_t10 208#32 = ![1024 * k0_t9.val + 256 * k0_t10.val + 208] := k0_off38_eq k0_t9 k0_t10 13
theorem n3_ld14 (k0_t9 : Fin k0_t9_loop.trips) (k0_t10 : Fin k0_t10_loop.trips) :
    k0_off38 k0_t9 k0_t10 224#32 = ![1024 * k0_t9.val + 256 * k0_t10.val + 224] := k0_off38_eq k0_t9 k0_t10 14
theorem n3_ld15 (k0_t9 : Fin k0_t9_loop.trips) (k0_t10 : Fin k0_t10_loop.trips) :
    k0_off38 k0_t9 k0_t10 240#32 = ![1024 * k0_t9.val + 256 * k0_t10.val + 240] := k0_off38_eq k0_t9 k0_t10 15
theorem n3_st0 (k0_t9 : Fin k0_t9_loop.trips) (k0_t10 : Fin k0_t10_loop.trips) :
    k0_off39 k0_t9 k0_t10 0#32 = ![k0_t9.val, 0, 2 * k0_t10.val + 0, 0, 0] := k0_off39_eq k0_t9 k0_t10 0
theorem n3_st1 (k0_t9 : Fin k0_t9_loop.trips) (k0_t10 : Fin k0_t10_loop.trips) :
    k0_off40 k0_t9 k0_t10 1#32 = ![k0_t9.val, 0, 2 * k0_t10.val + 0, 0, 16] := k0_off40_eq k0_t9 k0_t10 0
theorem n3_st2 (k0_t9 : Fin k0_t9_loop.trips) (k0_t10 : Fin k0_t10_loop.trips) :
    k0_off41 k0_t9 k0_t10 2#32 = ![k0_t9.val, 0, 2 * k0_t10.val + 0, 0, 32] := k0_off41_eq k0_t9 k0_t10 0
theorem n3_st3 (k0_t9 : Fin k0_t9_loop.trips) (k0_t10 : Fin k0_t10_loop.trips) :
    k0_off42 k0_t9 k0_t10 3#32 = ![k0_t9.val, 0, 2 * k0_t10.val + 0, 0, 48] := k0_off42_eq k0_t9 k0_t10 0
theorem n3_st4 (k0_t9 : Fin k0_t9_loop.trips) (k0_t10 : Fin k0_t10_loop.trips) :
    k0_off43 k0_t9 k0_t10 4#32 = ![k0_t9.val, 0, 2 * k0_t10.val + 0, 0, 64] := k0_off43_eq k0_t9 k0_t10 0
theorem n3_st5 (k0_t9 : Fin k0_t9_loop.trips) (k0_t10 : Fin k0_t10_loop.trips) :
    k0_off44 k0_t9 k0_t10 5#32 = ![k0_t9.val, 0, 2 * k0_t10.val + 0, 0, 80] := k0_off44_eq k0_t9 k0_t10 0
theorem n3_st6 (k0_t9 : Fin k0_t9_loop.trips) (k0_t10 : Fin k0_t10_loop.trips) :
    k0_off45 k0_t9 k0_t10 6#32 = ![k0_t9.val, 0, 2 * k0_t10.val + 0, 0, 96] := k0_off45_eq k0_t9 k0_t10 0
theorem n3_st7 (k0_t9 : Fin k0_t9_loop.trips) (k0_t10 : Fin k0_t10_loop.trips) :
    k0_off46 k0_t9 k0_t10 7#32 = ![k0_t9.val, 0, 2 * k0_t10.val + 0, 0, 112] := k0_off46_eq k0_t9 k0_t10 0
theorem n3_st8 (k0_t9 : Fin k0_t9_loop.trips) (k0_t10 : Fin k0_t10_loop.trips) :
    k0_off39 k0_t9 k0_t10 8#32 = ![k0_t9.val, 0, 2 * k0_t10.val + 1, 0, 0] := k0_off39_eq k0_t9 k0_t10 1
theorem n3_st9 (k0_t9 : Fin k0_t9_loop.trips) (k0_t10 : Fin k0_t10_loop.trips) :
    k0_off40 k0_t9 k0_t10 9#32 = ![k0_t9.val, 0, 2 * k0_t10.val + 1, 0, 16] := k0_off40_eq k0_t9 k0_t10 1
theorem n3_st10 (k0_t9 : Fin k0_t9_loop.trips) (k0_t10 : Fin k0_t10_loop.trips) :
    k0_off41 k0_t9 k0_t10 10#32 = ![k0_t9.val, 0, 2 * k0_t10.val + 1, 0, 32] := k0_off41_eq k0_t9 k0_t10 1
theorem n3_st11 (k0_t9 : Fin k0_t9_loop.trips) (k0_t10 : Fin k0_t10_loop.trips) :
    k0_off42 k0_t9 k0_t10 11#32 = ![k0_t9.val, 0, 2 * k0_t10.val + 1, 0, 48] := k0_off42_eq k0_t9 k0_t10 1
theorem n3_st12 (k0_t9 : Fin k0_t9_loop.trips) (k0_t10 : Fin k0_t10_loop.trips) :
    k0_off43 k0_t9 k0_t10 12#32 = ![k0_t9.val, 0, 2 * k0_t10.val + 1, 0, 64] := k0_off43_eq k0_t9 k0_t10 1
theorem n3_st13 (k0_t9 : Fin k0_t9_loop.trips) (k0_t10 : Fin k0_t10_loop.trips) :
    k0_off44 k0_t9 k0_t10 13#32 = ![k0_t9.val, 0, 2 * k0_t10.val + 1, 0, 80] := k0_off44_eq k0_t9 k0_t10 1
theorem n3_st14 (k0_t9 : Fin k0_t9_loop.trips) (k0_t10 : Fin k0_t10_loop.trips) :
    k0_off45 k0_t9 k0_t10 14#32 = ![k0_t9.val, 0, 2 * k0_t10.val + 1, 0, 96] := k0_off45_eq k0_t9 k0_t10 1
theorem n3_st15 (k0_t9 : Fin k0_t9_loop.trips) (k0_t10 : Fin k0_t10_loop.trips) :
    k0_off46 k0_t9 k0_t10 15#32 = ![k0_t9.val, 0, 2 * k0_t10.val + 1, 0, 112] := k0_off46_eq k0_t9 k0_t10 1

/-- Before inner trip `k` of outer trip `t2`: the token words and the row as they were, and the staging buffer filled below
    token position `1024 * t2 + 256 * k`. -/
def n3_I3 (tb : Buf (Elt F) ((a9).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a9).view.loc (thr d L) ↦{fullShare} tb) ∗ (((a7).access (.whole S1x100000)).loc (thr d L) ↦{fullShare} row)
    ∗ ∃ g : Buf (Elt F) ((a11).view.loc (thr d L)), ((a11).view.loc (thr d L) ↦{fullShare} g)
      ∗ ⌜∀ y, (flatOf y).val < 1024 * t2 + 256 * k → (a11).view.read (Elt F) g y = nestG row tb bias l0 hl0 y⌝)

set_option maxHeartbeats 4000000 in
/-- One inner trip: sixteen gathers of the row at sixteen vectors of token words, each plus the bias vector, stored at the
    trip's sixteen rectangles. -/
theorem n3_t3_step (v2 : IVec S16 32) (hz : ∀ x, (v2 x).toNat < 1) (k0_t1 : Fin k0_t1_loop.trips) (v10 : BitVec 32) (k0_t6 : Fin k0_t6_loop.trips) (v381 : BitVec 32) (k0_t9 : Fin k0_t9_loop.trips)
    (wIdx : BitVec 32) (v314 : Vec F S16 .f32)
    (tb : Buf (Elt F) ((a9).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t9.val → v314 (ix1 i) = bias (ix1 b))
    (k0_t10 : Fin k0_t10_loop.trips) (acc : Unit) :
    n3_I3 d L tb row bias l0 hl0 k0_t9.val k0_t10.val acc
      ⊢ wp frame (wpE (defs₀ (F := F)) 𝒱₀ (thr d L) none) Set.univ
          (k0_t10_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v381 k0_t9 wIdx v314 k0_t10 acc) (n3_I3 d L tb row bias l0 hl0 k0_t9.val (k0_t10.val + 1)) := by
  have ht2 : k0_t9.val < 4 := Nat.lt_of_lt_of_le k0_t9.isLt k0_t9_abs.2.1
  have ht3 : k0_t10.val < 4 := Nat.lt_of_lt_of_le k0_t10.isLt k0_t10_abs.2.1
  unfold n3_I3 k0_t10_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t9.val + 256 * (k0_t10.val + 1) = 1024 * k0_t9.val + 256 * k0_t10.val + 256 by omega]
  refine filled_step16 (a11).view row tb bias l0 hl0 g k0_t9.val k0_t10.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n3_st0 k0_t9 k0_t10
  case ph1 => exact n3_st1 k0_t9 k0_t10
  case ph2 => exact n3_st2 k0_t9 k0_t10
  case ph3 => exact n3_st3 k0_t9 k0_t10
  case ph4 => exact n3_st4 k0_t9 k0_t10
  case ph5 => exact n3_st5 k0_t9 k0_t10
  case ph6 => exact n3_st6 k0_t9 k0_t10
  case ph7 => exact n3_st7 k0_t9 k0_t10
  case ph8 => exact n3_st8 k0_t9 k0_t10
  case ph9 => exact n3_st9 k0_t9 k0_t10
  case ph10 => exact n3_st10 k0_t9 k0_t10
  case ph11 => exact n3_st11 k0_t9 k0_t10
  case ph12 => exact n3_st12 k0_t9 k0_t10
  case ph13 => exact n3_st13 k0_t9 k0_t10
  case ph14 => exact n3_st14 k0_t9 k0_t10
  case ph15 => exact n3_st15 k0_t9 k0_t10
  case pa0 =>
    intro i q b hq hb
    refine pay_lane row _ (Memref.read_access_whole (Elt F) cc0_scratch0 row) tb bias v2 _ _ hz v314 (1024 * k0_t9.val + 256 * k0_t10.val + 0) (l0 + k0_t9.val) ?_ hv i q b hq hb
    exact fun i q hq => readAt_lane tb _ _ _ (n3_ld0 k0_t9 k0_t10) i q hq
  case pa1 =>
    intro i q b hq hb
    refine pay_lane row _ (Memref.read_access_whole (Elt F) cc0_scratch0 row) tb bias v2 _ _ hz v314 (1024 * k0_t9.val + 256 * k0_t10.val + 16) (l0 + k0_t9.val) ?_ hv i q b hq hb
    exact fun i q hq => readAt_lane tb _ _ _ (n3_ld1 k0_t9 k0_t10) i q hq
  case pa2 =>
    intro i q b hq hb
    refine pay_lane row _ (Memref.read_access_whole (Elt F) cc0_scratch0 row) tb bias v2 _ _ hz v314 (1024 * k0_t9.val + 256 * k0_t10.val + 32) (l0 + k0_t9.val) ?_ hv i q b hq hb
    exact fun i q hq => readAt_lane tb _ _ _ (n3_ld2 k0_t9 k0_t10) i q hq
  case pa3 =>
    intro i q b hq hb
    refine pay_lane row _ (Memref.read_access_whole (Elt F) cc0_scratch0 row) tb bias v2 _ _ hz v314 (1024 * k0_t9.val + 256 * k0_t10.val + 48) (l0 + k0_t9.val) ?_ hv i q b hq hb
    exact fun i q hq => readAt_lane tb _ _ _ (n3_ld3 k0_t9 k0_t10) i q hq
  case pa4 =>
    intro i q b hq hb
    refine pay_lane row _ (Memref.read_access_whole (Elt F) cc0_scratch0 row) tb bias v2 _ _ hz v314 (1024 * k0_t9.val + 256 * k0_t10.val + 64) (l0 + k0_t9.val) ?_ hv i q b hq hb
    exact fun i q hq => readAt_lane tb _ _ _ (n3_ld4 k0_t9 k0_t10) i q hq
  case pa5 =>
    intro i q b hq hb
    refine pay_lane row _ (Memref.read_access_whole (Elt F) cc0_scratch0 row) tb bias v2 _ _ hz v314 (1024 * k0_t9.val + 256 * k0_t10.val + 80) (l0 + k0_t9.val) ?_ hv i q b hq hb
    exact fun i q hq => readAt_lane tb _ _ _ (n3_ld5 k0_t9 k0_t10) i q hq
  case pa6 =>
    intro i q b hq hb
    refine pay_lane row _ (Memref.read_access_whole (Elt F) cc0_scratch0 row) tb bias v2 _ _ hz v314 (1024 * k0_t9.val + 256 * k0_t10.val + 96) (l0 + k0_t9.val) ?_ hv i q b hq hb
    exact fun i q hq => readAt_lane tb _ _ _ (n3_ld6 k0_t9 k0_t10) i q hq
  case pa7 =>
    intro i q b hq hb
    refine pay_lane row _ (Memref.read_access_whole (Elt F) cc0_scratch0 row) tb bias v2 _ _ hz v314 (1024 * k0_t9.val + 256 * k0_t10.val + 112) (l0 + k0_t9.val) ?_ hv i q b hq hb
    exact fun i q hq => readAt_lane tb _ _ _ (n3_ld7 k0_t9 k0_t10) i q hq
  case pa8 =>
    intro i q b hq hb
    refine pay_lane row _ (Memref.read_access_whole (Elt F) cc0_scratch0 row) tb bias v2 _ _ hz v314 (1024 * k0_t9.val + 256 * k0_t10.val + 128) (l0 + k0_t9.val) ?_ hv i q b hq hb
    exact fun i q hq => readAt_lane tb _ _ _ (n3_ld8 k0_t9 k0_t10) i q hq
  case pa9 =>
    intro i q b hq hb
    refine pay_lane row _ (Memref.read_access_whole (Elt F) cc0_scratch0 row) tb bias v2 _ _ hz v314 (1024 * k0_t9.val + 256 * k0_t10.val + 144) (l0 + k0_t9.val) ?_ hv i q b hq hb
    exact fun i q hq => readAt_lane tb _ _ _ (n3_ld9 k0_t9 k0_t10) i q hq
  case pa10 =>
    intro i q b hq hb
    refine pay_lane row _ (Memref.read_access_whole (Elt F) cc0_scratch0 row) tb bias v2 _ _ hz v314 (1024 * k0_t9.val + 256 * k0_t10.val + 160) (l0 + k0_t9.val) ?_ hv i q b hq hb
    exact fun i q hq => readAt_lane tb _ _ _ (n3_ld10 k0_t9 k0_t10) i q hq
  case pa11 =>
    intro i q b hq hb
    refine pay_lane row _ (Memref.read_access_whole (Elt F) cc0_scratch0 row) tb bias v2 _ _ hz v314 (1024 * k0_t9.val + 256 * k0_t10.val + 176) (l0 + k0_t9.val) ?_ hv i q b hq hb
    exact fun i q hq => readAt_lane tb _ _ _ (n3_ld11 k0_t9 k0_t10) i q hq
  case pa12 =>
    intro i q b hq hb
    refine pay_lane row _ (Memref.read_access_whole (Elt F) cc0_scratch0 row) tb bias v2 _ _ hz v314 (1024 * k0_t9.val + 256 * k0_t10.val + 192) (l0 + k0_t9.val) ?_ hv i q b hq hb
    exact fun i q hq => readAt_lane tb _ _ _ (n3_ld12 k0_t9 k0_t10) i q hq
  case pa13 =>
    intro i q b hq hb
    refine pay_lane row _ (Memref.read_access_whole (Elt F) cc0_scratch0 row) tb bias v2 _ _ hz v314 (1024 * k0_t9.val + 256 * k0_t10.val + 208) (l0 + k0_t9.val) ?_ hv i q b hq hb
    exact fun i q hq => readAt_lane tb _ _ _ (n3_ld13 k0_t9 k0_t10) i q hq
  case pa14 =>
    intro i q b hq hb
    refine pay_lane row _ (Memref.read_access_whole (Elt F) cc0_scratch0 row) tb bias v2 _ _ hz v314 (1024 * k0_t9.val + 256 * k0_t10.val + 224) (l0 + k0_t9.val) ?_ hv i q b hq hb
    exact fun i q hq => readAt_lane tb _ _ _ (n3_ld14 k0_t9 k0_t10) i q hq
  case pa15 =>
    intro i q b hq hb
    refine pay_lane row _ (Memref.read_access_whole (Elt F) cc0_scratch0 row) tb bias v2 _ _ hz v314 (1024 * k0_t9.val + 256 * k0_t10.val + 240) (l0 + k0_t9.val) ?_ hv i q b hq hb
    exact fun i q hq => readAt_lane tb _ _ _ (n3_ld15 k0_t9 k0_t10) i q hq

theorem n3_t3_trips : k0_t10_loop.trips = 4 := by decide +kernel
theorem n3_t2_trips : k0_t9_loop.trips = 4 := by decide +kernel

/-- The bias vector's index word in outer trip `t2` of chunk `c`: four times the chunk word plus `t2`. -/
theorem n3_w_eq (k0_t6 : Fin k0_t6_loop.trips) (v381 : BitVec 32) (hw : v381.toNat = 2 * k0_t6.val + 3) (hl0 : 8 * k0_t6.val + 12 + 4 ≤ 208)
    (k0_t9 : Fin k0_t9_loop.trips) :
    (Scalar.addi (Scalar.muli v381 4#32) (Scalar.addi 0#32 (Scalar.muli (Scf.iv 0#32 1#32 k0_t9) 1#32))).toNat = 8 * k0_t6.val + 12 + k0_t9.val := by
  have ht : k0_t9.val < 4 := Nat.lt_of_lt_of_le k0_t9.isLt k0_t9_abs.2.1
  have hw' : Affine.IsInt v381 ((2 * k0_t6.val + 3 : Nat) : Int) :=
    Affine.relit (Affine.word v381) (by rw [BitVec.toInt_eq_toNat_of_lt (by omega), hw])
  have h0 : Affine.IsInt 0#32 0 := Affine.ofNat _ (by omega)
  have h1 : Affine.IsInt 1#32 1 := Affine.ofNat _ (by omega)
  have h4 : Affine.IsInt 4#32 4 := Affine.ofNat _ (by omega)
  have hiv : Affine.IsInt _ (k0_t9.val : Int) := Affine.iv h0 h1 k0_t9.val (by omega)
  have hm : Affine.IsInt _ (k0_t9.val : Int) := Affine.muli hiv h1 (by omega)
  have ha : Affine.IsInt _ (k0_t9.val : Int) := Affine.addi h0 hm (by omega)
  have hc : Affine.IsInt _ (4 * ((2 * k0_t6.val + 3 : Nat) : Int)) := Affine.muli hw' h4 (by omega)
  have hs : Affine.IsInt _ (4 * ((2 * k0_t6.val + 3 : Nat) : Int) + k0_t9.val) := Affine.addi hc ha (by omega)
  exact Affine.nat_eq hs _ (by push_cast; omega)

/-- Before outer trip `k`: the token words, the row and the biases as they were, and the staging buffer filled below token
    position `1024 * k`. -/
def n3_I2 (tb : Buf (Elt F) ((a9).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a9).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a11).view.loc (thr d L)), ((a11).view.loc (thr d L) ↦{fullShare} g)
      ∗ ⌜∀ y, (flatOf y).val < 1024 * k → (a11).view.read (Elt F) g y = nestG row tb bias l0 hl0 y⌝)

set_option maxHeartbeats 4000000 in
/-- One outer trip: the bias vector gathered at the trip's position, then the four inner trips. -/
theorem n3_t2_step (v2 : IVec S16 32) (hz : ∀ x, (v2 x).toNat < 1) (k0_t1 : Fin k0_t1_loop.trips) (v10 : BitVec 32) (k0_t6 : Fin k0_t6_loop.trips) (v381 : BitVec 32) (hw : v381.toNat = 2 * k0_t6.val + 3) (hl0 : 8 * k0_t6.val + 12 + 4 ≤ 208)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (k0_t9 : Fin k0_t9_loop.trips) (acc : Unit) :
    n3_I2 d L tb row bias (8 * k0_t6.val + 12) hl0 k0_t9.val acc
      ⊢ wp frame (wpE (defs₀ (F := F)) 𝒱₀ (thr d L) none) Set.univ
          (k0_t9_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v381 k0_t9 acc) (n3_I2 d L tb row bias (8 * k0_t6.val + 12) hl0 (k0_t9.val + 1)) := by
  have ht2 : k0_t9.val < 4 := Nat.lt_of_lt_of_le k0_t9.isLt k0_t9_abs.2.1
  unfold n3_I2 k0_t9_body
  iintro ⟨H8, H7, H13, %g, H10, %hg⟩
  sl_exec (disch := exact chkBias_ok _ (lt_of_eq_of_lt (n3_w_eq k0_t6 v381 hw hl0 k0_t9) (by omega)))
  iapply (SparseCore.wp_vectorLoadIdx 𝒱₀ (thr d L) none Set.univ (base := a13) (S := Finset.univ) (q := fullShare) (Finset.subset_univ _)) $$ H13; iintro H13
  sl_for (n3_I3 d L tb row bias (8 * k0_t6.val + 12) hl0 k0_t9.val) $$ [H8 H7 H10]
  case region =>
    intro k acc'
    refine n3_t3_step d L v2 hz k0_t1 v10 k0_t6 v381 k0_t9 _ _ tb htb row bias (8 * k0_t6.val + 12) hl0 ?hv k acc'
    exact fun i b hb => bias_lane bias _ (Memref.read_access_whole (Elt F) cc0_scratch6 bias) _ _ ((8 * k0_t6.val + 12) + k0_t9.val) (n3_w_eq k0_t6 v381 hw hl0 k0_t9) i b hb
  · unfold n3_I3
    isplitl [H8]; · iexact H8
    isplitl [H7]; · iexact H7
    iexists g
    isplitl [H10]; · iexact H10
    ipureintro
    intro y hy
    exact hg y (by omega)
  iintro %_ HI
  unfold n3_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t10_loop.lb k0_t10_loop.ub k0_t10_loop.st = 4 := n3_t3_trips
  omega

set_option maxHeartbeats 4000000 in
/-- The whole nest: from any contents of the staging buffer to the nest's value, the token words, the row and the biases kept. -/
theorem nest3 (v2 : IVec S16 32) (hz : ∀ x, (v2 x).toNat < 1) (k0_t1 : Fin k0_t1_loop.trips) (v10 : BitVec 32) (k0_t6 : Fin k0_t6_loop.trips) (v381 : BitVec 32) (hw : v381.toNat = 2 * k0_t6.val + 3) (hl0 : 8 * k0_t6.val + 12 + 4 ≤ 208)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} f)) : sProp 𝕄)
      ⊢ wp frame (wpE (defs₀ (F := F)) 𝒱₀ (thr d L) none) Set.univ
          (Scf.Loop.for k0_t9_loop k0_t9_ok ⟨⟩ (k0_t9_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v381))
          (fun _ => iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} nestG row tb bias (8 * k0_t6.val + 12) hl0))) := by
  iintro ⟨H8, H7, H13, H10⟩
  sl_for (n3_I2 d L tb row bias (8 * k0_t6.val + 12) hl0) $$ [H8 H7 H13 H10]
  case region =>
    intro k acc
    exact n3_t2_step d L v2 hz k0_t1 v10 k0_t6 v381 hw hl0 tb htb row bias k acc
  isplitl [H8 H7 H13 H10]
  · unfold n3_I2
    isplitl [H8]; · iexact H8
    isplitl [H7]; · iexact H7
    isplitl [H13]; · iexact H13
    iexists f
    isplitl [H10]; · iexact H10
    ipureintro
    intro y hy
    omega
  iintro %_ HI
  unfold n3_I2
  icases HI with ⟨H8, H7, H13, %g, H10, %hg⟩
  have e : g = nestG row tb bias (8 * k0_t6.val + 12) hl0 :=
    funext fun y => hg y (by
      have h4 : Scf.trips k0_t9_loop.lb k0_t9_loop.ub k0_t9_loop.st = 4 := n3_t2_trips
      have := (flatOf y).isLt
      omega)
  subst e
  isplitl [H8]; · iexact H8
  isplitl [H7]; · iexact H7
  isplitl [H13]; · iexact H13
  iexact H10

end Cert.Proof.Nest
end
-- ==== Proof.Nest4.lean ====
/-
  The compute nest of the lookup kernel, instance 4: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.NestSpec
import proofs.«203565_g79912161509654_cont_9to1_m_411_39_alg».proof.Proof.Nest0

noncomputable section

namespace Cert.Proof.Nest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

open Idealize.ShloMosaic.ValueIdx

variable (d : Dev nD) (L : grid0.Coords)

theorem n4_ld0 (k0_t11 : Fin k0_t11_loop.trips) (k0_t12 : Fin k0_t12_loop.trips) :
    k0_off50 k0_t11 k0_t12 0#32 = ![1024 * k0_t11.val + 256 * k0_t12.val + 0] := k0_off50_eq k0_t11 k0_t12 0
theorem n4_ld1 (k0_t11 : Fin k0_t11_loop.trips) (k0_t12 : Fin k0_t12_loop.trips) :
    k0_off50 k0_t11 k0_t12 16#32 = ![1024 * k0_t11.val + 256 * k0_t12.val + 16] := k0_off50_eq k0_t11 k0_t12 1
theorem n4_ld2 (k0_t11 : Fin k0_t11_loop.trips) (k0_t12 : Fin k0_t12_loop.trips) :
    k0_off50 k0_t11 k0_t12 32#32 = ![1024 * k0_t11.val + 256 * k0_t12.val + 32] := k0_off50_eq k0_t11 k0_t12 2
theorem n4_ld3 (k0_t11 : Fin k0_t11_loop.trips) (k0_t12 : Fin k0_t12_loop.trips) :
    k0_off50 k0_t11 k0_t12 48#32 = ![1024 * k0_t11.val + 256 * k0_t12.val + 48] := k0_off50_eq k0_t11 k0_t12 3
theorem n4_ld4 (k0_t11 : Fin k0_t11_loop.trips) (k0_t12 : Fin k0_t12_loop.trips) :
    k0_off50 k0_t11 k0_t12 64#32 = ![1024 * k0_t11.val + 256 * k0_t12.val + 64] := k0_off50_eq k0_t11 k0_t12 4
theorem n4_ld5 (k0_t11 : Fin k0_t11_loop.trips) (k0_t12 : Fin k0_t12_loop.trips) :
    k0_off50 k0_t11 k0_t12 80#32 = ![1024 * k0_t11.val + 256 * k0_t12.val + 80] := k0_off50_eq k0_t11 k0_t12 5
theorem n4_ld6 (k0_t11 : Fin k0_t11_loop.trips) (k0_t12 : Fin k0_t12_loop.trips) :
    k0_off50 k0_t11 k0_t12 96#32 = ![1024 * k0_t11.val + 256 * k0_t12.val + 96] := k0_off50_eq k0_t11 k0_t12 6
theorem n4_ld7 (k0_t11 : Fin k0_t11_loop.trips) (k0_t12 : Fin k0_t12_loop.trips) :
    k0_off50 k0_t11 k0_t12 112#32 = ![1024 * k0_t11.val + 256 * k0_t12.val + 112] := k0_off50_eq k0_t11 k0_t12 7
theorem n4_ld8 (k0_t11 : Fin k0_t11_loop.trips) (k0_t12 : Fin k0_t12_loop.trips) :
    k0_off50 k0_t11 k0_t12 128#32 = ![1024 * k0_t11.val + 256 * k0_t12.val + 128] := k0_off50_eq k0_t11 k0_t12 8
theorem n4_ld9 (k0_t11 : Fin k0_t11_loop.trips) (k0_t12 : Fin k0_t12_loop.trips) :
    k0_off50 k0_t11 k0_t12 144#32 = ![1024 * k0_t11.val + 256 * k0_t12.val + 144] := k0_off50_eq k0_t11 k0_t12 9
theorem n4_ld10 (k0_t11 : Fin k0_t11_loop.trips) (k0_t12 : Fin k0_t12_loop.trips) :
    k0_off50 k0_t11 k0_t12 160#32 = ![1024 * k0_t11.val + 256 * k0_t12.val + 160] := k0_off50_eq k0_t11 k0_t12 10
theorem n4_ld11 (k0_t11 : Fin k0_t11_loop.trips) (k0_t12 : Fin k0_t12_loop.trips) :
    k0_off50 k0_t11 k0_t12 176#32 = ![1024 * k0_t11.val + 256 * k0_t12.val + 176] := k0_off50_eq k0_t11 k0_t12 11
theorem n4_ld12 (k0_t11 : Fin k0_t11_loop.trips) (k0_t12 : Fin k0_t12_loop.trips) :
    k0_off50 k0_t11 k0_t12 192#32 = ![1024 * k0_t11.val + 256 * k0_t12.val + 192] := k0_off50_eq k0_t11 k0_t12 12
theorem n4_ld13 (k0_t11 : Fin k0_t11_loop.trips) (k0_t12 : Fin k0_t12_loop.trips) :
    k0_off50 k0_t11 k0_t12 208#32 = ![1024 * k0_t11.val + 256 * k0_t12.val + 208] := k0_off50_eq k0_t11 k0_t12 13
theorem n4_ld14 (k0_t11 : Fin k0_t11_loop.trips) (k0_t12 : Fin k0_t12_loop.trips) :
    k0_off50 k0_t11 k0_t12 224#32 = ![1024 * k0_t11.val + 256 * k0_t12.val + 224] := k0_off50_eq k0_t11 k0_t12 14
theorem n4_ld15 (k0_t11 : Fin k0_t11_loop.trips) (k0_t12 : Fin k0_t12_loop.trips) :
    k0_off50 k0_t11 k0_t12 240#32 = ![1024 * k0_t11.val + 256 * k0_t12.val + 240] := k0_off50_eq k0_t11 k0_t12 15
theorem n4_st0 (k0_t11 : Fin k0_t11_loop.trips) (k0_t12 : Fin k0_t12_loop.trips) :
    k0_off51 k0_t11 k0_t12 0#32 = ![k0_t11.val, 0, 2 * k0_t12.val + 0, 0, 0] := k0_off51_eq k0_t11 k0_t12 0
theorem n4_st1 (k0_t11 : Fin k0_t11_loop.trips) (k0_t12 : Fin k0_t12_loop.trips) :
    k0_off52 k0_t11 k0_t12 1#32 = ![k0_t11.val, 0, 2 * k0_t12.val + 0, 0, 16] := k0_off52_eq k0_t11 k0_t12 0
theorem n4_st2 (k0_t11 : Fin k0_t11_loop.trips) (k0_t12 : Fin k0_t12_loop.trips) :
    k0_off53 k0_t11 k0_t12 2#32 = ![k0_t11.val, 0, 2 * k0_t12.val + 0, 0, 32] := k0_off53_eq k0_t11 k0_t12 0
theorem n4_st3 (k0_t11 : Fin k0_t11_loop.trips) (k0_t12 : Fin k0_t12_loop.trips) :
    k0_off54 k0_t11 k0_t12 3#32 = ![k0_t11.val, 0, 2 * k0_t12.val + 0, 0, 48] := k0_off54_eq k0_t11 k0_t12 0
theorem n4_st4 (k0_t11 : Fin k0_t11_loop.trips) (k0_t12 : Fin k0_t12_loop.trips) :
    k0_off55 k0_t11 k0_t12 4#32 = ![k0_t11.val, 0, 2 * k0_t12.val + 0, 0, 64] := k0_off55_eq k0_t11 k0_t12 0
theorem n4_st5 (k0_t11 : Fin k0_t11_loop.trips) (k0_t12 : Fin k0_t12_loop.trips) :
    k0_off56 k0_t11 k0_t12 5#32 = ![k0_t11.val, 0, 2 * k0_t12.val + 0, 0, 80] := k0_off56_eq k0_t11 k0_t12 0
theorem n4_st6 (k0_t11 : Fin k0_t11_loop.trips) (k0_t12 : Fin k0_t12_loop.trips) :
    k0_off57 k0_t11 k0_t12 6#32 = ![k0_t11.val, 0, 2 * k0_t12.val + 0, 0, 96] := k0_off57_eq k0_t11 k0_t12 0
theorem n4_st7 (k0_t11 : Fin k0_t11_loop.trips) (k0_t12 : Fin k0_t12_loop.trips) :
    k0_off58 k0_t11 k0_t12 7#32 = ![k0_t11.val, 0, 2 * k0_t12.val + 0, 0, 112] := k0_off58_eq k0_t11 k0_t12 0
theorem n4_st8 (k0_t11 : Fin k0_t11_loop.trips) (k0_t12 : Fin k0_t12_loop.trips) :
    k0_off51 k0_t11 k0_t12 8#32 = ![k0_t11.val, 0, 2 * k0_t12.val + 1, 0, 0] := k0_off51_eq k0_t11 k0_t12 1
theorem n4_st9 (k0_t11 : Fin k0_t11_loop.trips) (k0_t12 : Fin k0_t12_loop.trips) :
    k0_off52 k0_t11 k0_t12 9#32 = ![k0_t11.val, 0, 2 * k0_t12.val + 1, 0, 16] := k0_off52_eq k0_t11 k0_t12 1
theorem n4_st10 (k0_t11 : Fin k0_t11_loop.trips) (k0_t12 : Fin k0_t12_loop.trips) :
    k0_off53 k0_t11 k0_t12 10#32 = ![k0_t11.val, 0, 2 * k0_t12.val + 1, 0, 32] := k0_off53_eq k0_t11 k0_t12 1
theorem n4_st11 (k0_t11 : Fin k0_t11_loop.trips) (k0_t12 : Fin k0_t12_loop.trips) :
    k0_off54 k0_t11 k0_t12 11#32 = ![k0_t11.val, 0, 2 * k0_t12.val + 1, 0, 48] := k0_off54_eq k0_t11 k0_t12 1
theorem n4_st12 (k0_t11 : Fin k0_t11_loop.trips) (k0_t12 : Fin k0_t12_loop.trips) :
    k0_off55 k0_t11 k0_t12 12#32 = ![k0_t11.val, 0, 2 * k0_t12.val + 1, 0, 64] := k0_off55_eq k0_t11 k0_t12 1
theorem n4_st13 (k0_t11 : Fin k0_t11_loop.trips) (k0_t12 : Fin k0_t12_loop.trips) :
    k0_off56 k0_t11 k0_t12 13#32 = ![k0_t11.val, 0, 2 * k0_t12.val + 1, 0, 80] := k0_off56_eq k0_t11 k0_t12 1
theorem n4_st14 (k0_t11 : Fin k0_t11_loop.trips) (k0_t12 : Fin k0_t12_loop.trips) :
    k0_off57 k0_t11 k0_t12 14#32 = ![k0_t11.val, 0, 2 * k0_t12.val + 1, 0, 96] := k0_off57_eq k0_t11 k0_t12 1
theorem n4_st15 (k0_t11 : Fin k0_t11_loop.trips) (k0_t12 : Fin k0_t12_loop.trips) :
    k0_off58 k0_t11 k0_t12 15#32 = ![k0_t11.val, 0, 2 * k0_t12.val + 1, 0, 112] := k0_off58_eq k0_t11 k0_t12 1

/-- Before inner trip `k` of outer trip `t2`: the token words and the row as they were, and the staging buffer filled below
    token position `1024 * t2 + 256 * k`. -/
def n4_I3 (tb : Buf (Elt F) ((a8).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a8).view.loc (thr d L) ↦{fullShare} tb) ∗ (((a7).access (.whole S1x100000)).loc (thr d L) ↦{fullShare} row)
    ∗ ∃ g : Buf (Elt F) ((a10).view.loc (thr d L)), ((a10).view.loc (thr d L) ↦{fullShare} g)
      ∗ ⌜∀ y, (flatOf y).val < 1024 * t2 + 256 * k → (a10).view.read (Elt F) g y = nestG row tb bias l0 hl0 y⌝)

set_option maxHeartbeats 4000000 in
/-- One inner trip: sixteen gathers of the row at sixteen vectors of token words, each plus the bias vector, stored at the
    trip's sixteen rectangles. -/
theorem n4_t3_step (v2 : IVec S16 32) (hz : ∀ x, (v2 x).toNat < 1) (k0_t1 : Fin k0_t1_loop.trips) (v10 : BitVec 32) (k0_t11 : Fin k0_t11_loop.trips)
    (wIdx : BitVec 32) (v314 : Vec F S16 .f32)
    (tb : Buf (Elt F) ((a8).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t11.val → v314 (ix1 i) = bias (ix1 b))
    (k0_t12 : Fin k0_t12_loop.trips) (acc : Unit) :
    n4_I3 d L tb row bias l0 hl0 k0_t11.val k0_t12.val acc
      ⊢ wp frame (wpE (defs₀ (F := F)) 𝒱₀ (thr d L) none) Set.univ
          (k0_t12_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t11 wIdx v314 k0_t12 acc) (n4_I3 d L tb row bias l0 hl0 k0_t11.val (k0_t12.val + 1)) := by
  have ht2 : k0_t11.val < 4 := Nat.lt_of_lt_of_le k0_t11.isLt k0_t11_abs.2.1
  have ht3 : k0_t12.val < 4 := Nat.lt_of_lt_of_le k0_t12.isLt k0_t12_abs.2.1
  unfold n4_I3 k0_t12_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t11.val + 256 * (k0_t12.val + 1) = 1024 * k0_t11.val + 256 * k0_t12.val + 256 by omega]
  refine filled_step16 (a10).view row tb bias l0 hl0 g k0_t11.val k0_t12.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n4_st0 k0_t11 k0_t12
  case ph1 => exact n4_st1 k0_t11 k0_t12
  case ph2 => exact n4_st2 k0_t11 k0_t12
  case ph3 => exact n4_st3 k0_t11 k0_t12
  case ph4 => exact n4_st4 k0_t11 k0_t12
  case ph5 => exact n4_st5 k0_t11 k0_t12
  case ph6 => exact n4_st6 k0_t11 k0_t12
  case ph7 => exact n4_st7 k0_t11 k0_t12
  case ph8 => exact n4_st8 k0_t11 k0_t12
  case ph9 => exact n4_st9 k0_t11 k0_t12
  case ph10 => exact n4_st10 k0_t11 k0_t12
  case ph11 => exact n4_st11 k0_t11 k0_t12
  case ph12 => exact n4_st12 k0_t11 k0_t12
  case ph13 => exact n4_st13 k0_t11 k0_t12
  case ph14 => exact n4_st14 k0_t11 k0_t12
  case ph15 => exact n4_st15 k0_t11 k0_t12
  case pa0 =>
    intro i q b hq hb
    refine pay_lane row _ (Memref.read_access_whole (Elt F) cc0_scratch0 row) tb bias v2 _ _ hz v314 (1024 * k0_t11.val + 256 * k0_t12.val + 0) (l0 + k0_t11.val) ?_ hv i q b hq hb
    exact fun i q hq => readAt_lane tb _ _ _ (n4_ld0 k0_t11 k0_t12) i q hq
  case pa1 =>
    intro i q b hq hb
    refine pay_lane row _ (Memref.read_access_whole (Elt F) cc0_scratch0 row) tb bias v2 _ _ hz v314 (1024 * k0_t11.val + 256 * k0_t12.val + 16) (l0 + k0_t11.val) ?_ hv i q b hq hb
    exact fun i q hq => readAt_lane tb _ _ _ (n4_ld1 k0_t11 k0_t12) i q hq
  case pa2 =>
    intro i q b hq hb
    refine pay_lane row _ (Memref.read_access_whole (Elt F) cc0_scratch0 row) tb bias v2 _ _ hz v314 (1024 * k0_t11.val + 256 * k0_t12.val + 32) (l0 + k0_t11.val) ?_ hv i q b hq hb
    exact fun i q hq => readAt_lane tb _ _ _ (n4_ld2 k0_t11 k0_t12) i q hq
  case pa3 =>
    intro i q b hq hb
    refine pay_lane row _ (Memref.read_access_whole (Elt F) cc0_scratch0 row) tb bias v2 _ _ hz v314 (1024 * k0_t11.val + 256 * k0_t12.val + 48) (l0 + k0_t11.val) ?_ hv i q b hq hb
    exact fun i q hq => readAt_lane tb _ _ _ (n4_ld3 k0_t11 k0_t12) i q hq
  case pa4 =>
    intro i q b hq hb
    refine pay_lane row _ (Memref.read_access_whole (Elt F) cc0_scratch0 row) tb bias v2 _ _ hz v314 (1024 * k0_t11.val + 256 * k0_t12.val + 64) (l0 + k0_t11.val) ?_ hv i q b hq hb
    exact fun i q hq => readAt_lane tb _ _ _ (n4_ld4 k0_t11 k0_t12) i q hq
  case pa5 =>
    intro i q b hq hb
    refine pay_lane row _ (Memref.read_access_whole (Elt F) cc0_scratch0 row) tb bias v2 _ _ hz v314 (1024 * k0_t11.val + 256 * k0_t12.val + 80) (l0 + k0_t11.val) ?_ hv i q b hq hb
    exact fun i q hq => readAt_lane tb _ _ _ (n4_ld5 k0_t11 k0_t12) i q hq
  case pa6 =>
    intro i q b hq hb
    refine pay_lane row _ (Memref.read_access_whole (Elt F) cc0_scratch0 row) tb bias v2 _ _ hz v314 (1024 * k0_t11.val + 256 * k0_t12.val + 96) (l0 + k0_t11.val) ?_ hv i q b hq hb
    exact fun i q hq => readAt_lane tb _ _ _ (n4_ld6 k0_t11 k0_t12) i q hq
  case pa7 =>
    intro i q b hq hb
    refine pay_lane row _ (Memref.read_access_whole (Elt F) cc0_scratch0 row) tb bias v2 _ _ hz v314 (1024 * k0_t11.val + 256 * k0_t12.val + 112) (l0 + k0_t11.val) ?_ hv i q b hq hb
    exact fun i q hq => readAt_lane tb _ _ _ (n4_ld7 k0_t11 k0_t12) i q hq
  case pa8 =>
    intro i q b hq hb
    refine pay_lane row _ (Memref.read_access_whole (Elt F) cc0_scratch0 row) tb bias v2 _ _ hz v314 (1024 * k0_t11.val + 256 * k0_t12.val + 128) (l0 + k0_t11.val) ?_ hv i q b hq hb
    exact fun i q hq => readAt_lane tb _ _ _ (n4_ld8 k0_t11 k0_t12) i q hq
  case pa9 =>
    intro i q b hq hb
    refine pay_lane row _ (Memref.read_access_whole (Elt F) cc0_scratch0 row) tb bias v2 _ _ hz v314 (1024 * k0_t11.val + 256 * k0_t12.val + 144) (l0 + k0_t11.val) ?_ hv i q b hq hb
    exact fun i q hq => readAt_lane tb _ _ _ (n4_ld9 k0_t11 k0_t12) i q hq
  case pa10 =>
    intro i q b hq hb
    refine pay_lane row _ (Memref.read_access_whole (Elt F) cc0_scratch0 row) tb bias v2 _ _ hz v314 (1024 * k0_t11.val + 256 * k0_t12.val + 160) (l0 + k0_t11.val) ?_ hv i q b hq hb
    exact fun i q hq => readAt_lane tb _ _ _ (n4_ld10 k0_t11 k0_t12) i q hq
  case pa11 =>
    intro i q b hq hb
    refine pay_lane row _ (Memref.read_access_whole (Elt F) cc0_scratch0 row) tb bias v2 _ _ hz v314 (1024 * k0_t11.val + 256 * k0_t12.val + 176) (l0 + k0_t11.val) ?_ hv i q b hq hb
    exact fun i q hq => readAt_lane tb _ _ _ (n4_ld11 k0_t11 k0_t12) i q hq
  case pa12 =>
    intro i q b hq hb
    refine pay_lane row _ (Memref.read_access_whole (Elt F) cc0_scratch0 row) tb bias v2 _ _ hz v314 (1024 * k0_t11.val + 256 * k0_t12.val + 192) (l0 + k0_t11.val) ?_ hv i q b hq hb
    exact fun i q hq => readAt_lane tb _ _ _ (n4_ld12 k0_t11 k0_t12) i q hq
  case pa13 =>
    intro i q b hq hb
    refine pay_lane row _ (Memref.read_access_whole (Elt F) cc0_scratch0 row) tb bias v2 _ _ hz v314 (1024 * k0_t11.val + 256 * k0_t12.val + 208) (l0 + k0_t11.val) ?_ hv i q b hq hb
    exact fun i q hq => readAt_lane tb _ _ _ (n4_ld13 k0_t11 k0_t12) i q hq
  case pa14 =>
    intro i q b hq hb
    refine pay_lane row _ (Memref.read_access_whole (Elt F) cc0_scratch0 row) tb bias v2 _ _ hz v314 (1024 * k0_t11.val + 256 * k0_t12.val + 224) (l0 + k0_t11.val) ?_ hv i q b hq hb
    exact fun i q hq => readAt_lane tb _ _ _ (n4_ld14 k0_t11 k0_t12) i q hq
  case pa15 =>
    intro i q b hq hb
    refine pay_lane row _ (Memref.read_access_whole (Elt F) cc0_scratch0 row) tb bias v2 _ _ hz v314 (1024 * k0_t11.val + 256 * k0_t12.val + 240) (l0 + k0_t11.val) ?_ hv i q b hq hb
    exact fun i q hq => readAt_lane tb _ _ _ (n4_ld15 k0_t11 k0_t12) i q hq

theorem n4_t3_trips : k0_t12_loop.trips = 4 := by decide +kernel
theorem n4_t2_trips : k0_t11_loop.trips = 4 := by decide +kernel

/-- The bias vector's index word in outer trip `t2` is `192 + t2`. -/
theorem n4_w_eq : ∀ k0_t11 : Fin k0_t11_loop.trips, (Scalar.addi 192#32 (Scalar.addi 0#32 (Scalar.muli (Scf.iv 0#32 1#32 k0_t11) 1#32))).toNat = 192 + k0_t11.val := by decide +kernel

/-- Before outer trip `k`: the token words, the row and the biases as they were, and the staging buffer filled below token
    position `1024 * k`. -/
def n4_I2 (tb : Buf (Elt F) ((a8).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a8).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a10).view.loc (thr d L)), ((a10).view.loc (thr d L) ↦{fullShare} g)
      ∗ ⌜∀ y, (flatOf y).val < 1024 * k → (a10).view.read (Elt F) g y = nestG row tb bias l0 hl0 y⌝)

set_option maxHeartbeats 4000000 in
/-- One outer trip: the bias vector gathered at the trip's position, then the four inner trips. -/
theorem n4_t2_step (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (k0_t11 : Fin k0_t11_loop.trips) (acc : Unit) :
    n4_I2 d L tb row bias 192 (by norm_num) k0_t11.val acc
      ⊢ wp frame (wpE (defs₀ (F := F)) 𝒱₀ (thr d L) none) Set.univ
          (k0_t11_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t11 acc) (n4_I2 d L tb row bias 192 (by norm_num) (k0_t11.val + 1)) := by
  have ht2 : k0_t11.val < 4 := Nat.lt_of_lt_of_le k0_t11.isLt k0_t11_abs.2.1
  unfold n4_I2 k0_t11_body
  iintro ⟨H8, H7, H13, %g, H10, %hg⟩
  sl_exec (disch := exact chkBias_ok _ (lt_of_eq_of_lt (n4_w_eq k0_t11) (by omega)))
  iapply (SparseCore.wp_vectorLoadIdx 𝒱₀ (thr d L) none Set.univ (base := a13) (S := Finset.univ) (q := fullShare) (Finset.subset_univ _)) $$ H13; iintro H13
  sl_for (n4_I3 d L tb row bias 192 (by norm_num) k0_t11.val) $$ [H8 H7 H10]
  case region =>
    intro k acc'
    refine n4_t3_step d L v2 hz k0_t1 v10 k0_t11 _ _ tb htb row bias 192 (by norm_num) ?hv k acc'
    exact fun i b hb => bias_lane bias _ (Memref.read_access_whole (Elt F) cc0_scratch6 bias) _ _ (192 + k0_t11.val) (n4_w_eq k0_t11) i b hb
  · unfold n4_I3
    isplitl [H8]; · iexact H8
    isplitl [H7]; · iexact H7
    iexists g
    isplitl [H10]; · iexact H10
    ipureintro
    intro y hy
    exact hg y (by omega)
  iintro %_ HI
  unfold n4_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t12_loop.lb k0_t12_loop.ub k0_t12_loop.st = 4 := n4_t3_trips
  omega

set_option maxHeartbeats 4000000 in
/-- The whole nest: from any contents of the staging buffer to the nest's value, the token words, the row and the biases kept. -/
theorem nest4 (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} f)) : sProp 𝕄)
      ⊢ wp frame (wpE (defs₀ (F := F)) 𝒱₀ (thr d L) none) Set.univ
          (Scf.Loop.for k0_t11_loop k0_t11_ok ⟨⟩ (k0_t11_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} nestG row tb bias 192 (by norm_num)))) := by
  iintro ⟨H8, H7, H13, H10⟩
  sl_for (n4_I2 d L tb row bias 192 (by norm_num)) $$ [H8 H7 H13 H10]
  case region =>
    intro k acc
    exact n4_t2_step d L v2 hz k0_t1 v10 tb htb row bias k acc
  isplitl [H8 H7 H13 H10]
  · unfold n4_I2
    isplitl [H8]; · iexact H8
    isplitl [H7]; · iexact H7
    isplitl [H13]; · iexact H13
    iexists f
    isplitl [H10]; · iexact H10
    ipureintro
    intro y hy
    omega
  iintro %_ HI
  unfold n4_I2
  icases HI with ⟨H8, H7, H13, %g, H10, %hg⟩
  have e : g = nestG row tb bias 192 (by norm_num) :=
    funext fun y => hg y (by
      have h4 : Scf.trips k0_t11_loop.lb k0_t11_loop.ub k0_t11_loop.st = 4 := n4_t2_trips
      have := (flatOf y).isLt
      omega)
  subst e
  isplitl [H8]; · iexact H8
  isplitl [H7]; · iexact H7
  isplitl [H13]; · iexact H13
  iexact H10

end Cert.Proof.Nest
end
-- ==== Proof.Nest5.lean ====
/-
  The compute nest of the lookup kernel, instance 5: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.NestSpec
import proofs.«203565_g79912161509654_cont_9to1_m_411_39_alg».proof.Proof.Nest0

noncomputable section

namespace Cert.Proof.Nest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

open Idealize.ShloMosaic.ValueIdx

variable (d : Dev nD) (L : grid0.Coords)

theorem n5_ld0 (k0_t13 : Fin k0_t13_loop.trips) (k0_t14 : Fin k0_t14_loop.trips) :
    k0_off61 k0_t13 k0_t14 0#32 = ![1024 * k0_t13.val + 256 * k0_t14.val + 0] := k0_off61_eq k0_t13 k0_t14 0
theorem n5_ld1 (k0_t13 : Fin k0_t13_loop.trips) (k0_t14 : Fin k0_t14_loop.trips) :
    k0_off61 k0_t13 k0_t14 16#32 = ![1024 * k0_t13.val + 256 * k0_t14.val + 16] := k0_off61_eq k0_t13 k0_t14 1
theorem n5_ld2 (k0_t13 : Fin k0_t13_loop.trips) (k0_t14 : Fin k0_t14_loop.trips) :
    k0_off61 k0_t13 k0_t14 32#32 = ![1024 * k0_t13.val + 256 * k0_t14.val + 32] := k0_off61_eq k0_t13 k0_t14 2
theorem n5_ld3 (k0_t13 : Fin k0_t13_loop.trips) (k0_t14 : Fin k0_t14_loop.trips) :
    k0_off61 k0_t13 k0_t14 48#32 = ![1024 * k0_t13.val + 256 * k0_t14.val + 48] := k0_off61_eq k0_t13 k0_t14 3
theorem n5_ld4 (k0_t13 : Fin k0_t13_loop.trips) (k0_t14 : Fin k0_t14_loop.trips) :
    k0_off61 k0_t13 k0_t14 64#32 = ![1024 * k0_t13.val + 256 * k0_t14.val + 64] := k0_off61_eq k0_t13 k0_t14 4
theorem n5_ld5 (k0_t13 : Fin k0_t13_loop.trips) (k0_t14 : Fin k0_t14_loop.trips) :
    k0_off61 k0_t13 k0_t14 80#32 = ![1024 * k0_t13.val + 256 * k0_t14.val + 80] := k0_off61_eq k0_t13 k0_t14 5
theorem n5_ld6 (k0_t13 : Fin k0_t13_loop.trips) (k0_t14 : Fin k0_t14_loop.trips) :
    k0_off61 k0_t13 k0_t14 96#32 = ![1024 * k0_t13.val + 256 * k0_t14.val + 96] := k0_off61_eq k0_t13 k0_t14 6
theorem n5_ld7 (k0_t13 : Fin k0_t13_loop.trips) (k0_t14 : Fin k0_t14_loop.trips) :
    k0_off61 k0_t13 k0_t14 112#32 = ![1024 * k0_t13.val + 256 * k0_t14.val + 112] := k0_off61_eq k0_t13 k0_t14 7
theorem n5_ld8 (k0_t13 : Fin k0_t13_loop.trips) (k0_t14 : Fin k0_t14_loop.trips) :
    k0_off61 k0_t13 k0_t14 128#32 = ![1024 * k0_t13.val + 256 * k0_t14.val + 128] := k0_off61_eq k0_t13 k0_t14 8
theorem n5_ld9 (k0_t13 : Fin k0_t13_loop.trips) (k0_t14 : Fin k0_t14_loop.trips) :
    k0_off61 k0_t13 k0_t14 144#32 = ![1024 * k0_t13.val + 256 * k0_t14.val + 144] := k0_off61_eq k0_t13 k0_t14 9
theorem n5_ld10 (k0_t13 : Fin k0_t13_loop.trips) (k0_t14 : Fin k0_t14_loop.trips) :
    k0_off61 k0_t13 k0_t14 160#32 = ![1024 * k0_t13.val + 256 * k0_t14.val + 160] := k0_off61_eq k0_t13 k0_t14 10
theorem n5_ld11 (k0_t13 : Fin k0_t13_loop.trips) (k0_t14 : Fin k0_t14_loop.trips) :
    k0_off61 k0_t13 k0_t14 176#32 = ![1024 * k0_t13.val + 256 * k0_t14.val + 176] := k0_off61_eq k0_t13 k0_t14 11
theorem n5_ld12 (k0_t13 : Fin k0_t13_loop.trips) (k0_t14 : Fin k0_t14_loop.trips) :
    k0_off61 k0_t13 k0_t14 192#32 = ![1024 * k0_t13.val + 256 * k0_t14.val + 192] := k0_off61_eq k0_t13 k0_t14 12
theorem n5_ld13 (k0_t13 : Fin k0_t13_loop.trips) (k0_t14 : Fin k0_t14_loop.trips) :
    k0_off61 k0_t13 k0_t14 208#32 = ![1024 * k0_t13.val + 256 * k0_t14.val + 208] := k0_off61_eq k0_t13 k0_t14 13
theorem n5_ld14 (k0_t13 : Fin k0_t13_loop.trips) (k0_t14 : Fin k0_t14_loop.trips) :
    k0_off61 k0_t13 k0_t14 224#32 = ![1024 * k0_t13.val + 256 * k0_t14.val + 224] := k0_off61_eq k0_t13 k0_t14 14
theorem n5_ld15 (k0_t13 : Fin k0_t13_loop.trips) (k0_t14 : Fin k0_t14_loop.trips) :
    k0_off61 k0_t13 k0_t14 240#32 = ![1024 * k0_t13.val + 256 * k0_t14.val + 240] := k0_off61_eq k0_t13 k0_t14 15
theorem n5_st0 (k0_t13 : Fin k0_t13_loop.trips) (k0_t14 : Fin k0_t14_loop.trips) :
    k0_off62 k0_t13 k0_t14 0#32 = ![k0_t13.val, 0, 2 * k0_t14.val + 0, 0, 0] := k0_off62_eq k0_t13 k0_t14 0
theorem n5_st1 (k0_t13 : Fin k0_t13_loop.trips) (k0_t14 : Fin k0_t14_loop.trips) :
    k0_off63 k0_t13 k0_t14 1#32 = ![k0_t13.val, 0, 2 * k0_t14.val + 0, 0, 16] := k0_off63_eq k0_t13 k0_t14 0
theorem n5_st2 (k0_t13 : Fin k0_t13_loop.trips) (k0_t14 : Fin k0_t14_loop.trips) :
    k0_off64 k0_t13 k0_t14 2#32 = ![k0_t13.val, 0, 2 * k0_t14.val + 0, 0, 32] := k0_off64_eq k0_t13 k0_t14 0
theorem n5_st3 (k0_t13 : Fin k0_t13_loop.trips) (k0_t14 : Fin k0_t14_loop.trips) :
    k0_off65 k0_t13 k0_t14 3#32 = ![k0_t13.val, 0, 2 * k0_t14.val + 0, 0, 48] := k0_off65_eq k0_t13 k0_t14 0
theorem n5_st4 (k0_t13 : Fin k0_t13_loop.trips) (k0_t14 : Fin k0_t14_loop.trips) :
    k0_off66 k0_t13 k0_t14 4#32 = ![k0_t13.val, 0, 2 * k0_t14.val + 0, 0, 64] := k0_off66_eq k0_t13 k0_t14 0
theorem n5_st5 (k0_t13 : Fin k0_t13_loop.trips) (k0_t14 : Fin k0_t14_loop.trips) :
    k0_off67 k0_t13 k0_t14 5#32 = ![k0_t13.val, 0, 2 * k0_t14.val + 0, 0, 80] := k0_off67_eq k0_t13 k0_t14 0
theorem n5_st6 (k0_t13 : Fin k0_t13_loop.trips) (k0_t14 : Fin k0_t14_loop.trips) :
    k0_off68 k0_t13 k0_t14 6#32 = ![k0_t13.val, 0, 2 * k0_t14.val + 0, 0, 96] := k0_off68_eq k0_t13 k0_t14 0
theorem n5_st7 (k0_t13 : Fin k0_t13_loop.trips) (k0_t14 : Fin k0_t14_loop.trips) :
    k0_off69 k0_t13 k0_t14 7#32 = ![k0_t13.val, 0, 2 * k0_t14.val + 0, 0, 112] := k0_off69_eq k0_t13 k0_t14 0
theorem n5_st8 (k0_t13 : Fin k0_t13_loop.trips) (k0_t14 : Fin k0_t14_loop.trips) :
    k0_off62 k0_t13 k0_t14 8#32 = ![k0_t13.val, 0, 2 * k0_t14.val + 1, 0, 0] := k0_off62_eq k0_t13 k0_t14 1
theorem n5_st9 (k0_t13 : Fin k0_t13_loop.trips) (k0_t14 : Fin k0_t14_loop.trips) :
    k0_off63 k0_t13 k0_t14 9#32 = ![k0_t13.val, 0, 2 * k0_t14.val + 1, 0, 16] := k0_off63_eq k0_t13 k0_t14 1
theorem n5_st10 (k0_t13 : Fin k0_t13_loop.trips) (k0_t14 : Fin k0_t14_loop.trips) :
    k0_off64 k0_t13 k0_t14 10#32 = ![k0_t13.val, 0, 2 * k0_t14.val + 1, 0, 32] := k0_off64_eq k0_t13 k0_t14 1
theorem n5_st11 (k0_t13 : Fin k0_t13_loop.trips) (k0_t14 : Fin k0_t14_loop.trips) :
    k0_off65 k0_t13 k0_t14 11#32 = ![k0_t13.val, 0, 2 * k0_t14.val + 1, 0, 48] := k0_off65_eq k0_t13 k0_t14 1
theorem n5_st12 (k0_t13 : Fin k0_t13_loop.trips) (k0_t14 : Fin k0_t14_loop.trips) :
    k0_off66 k0_t13 k0_t14 12#32 = ![k0_t13.val, 0, 2 * k0_t14.val + 1, 0, 64] := k0_off66_eq k0_t13 k0_t14 1
theorem n5_st13 (k0_t13 : Fin k0_t13_loop.trips) (k0_t14 : Fin k0_t14_loop.trips) :
    k0_off67 k0_t13 k0_t14 13#32 = ![k0_t13.val, 0, 2 * k0_t14.val + 1, 0, 80] := k0_off67_eq k0_t13 k0_t14 1
theorem n5_st14 (k0_t13 : Fin k0_t13_loop.trips) (k0_t14 : Fin k0_t14_loop.trips) :
    k0_off68 k0_t13 k0_t14 14#32 = ![k0_t13.val, 0, 2 * k0_t14.val + 1, 0, 96] := k0_off68_eq k0_t13 k0_t14 1
theorem n5_st15 (k0_t13 : Fin k0_t13_loop.trips) (k0_t14 : Fin k0_t14_loop.trips) :
    k0_off69 k0_t13 k0_t14 15#32 = ![k0_t13.val, 0, 2 * k0_t14.val + 1, 0, 112] := k0_off69_eq k0_t13 k0_t14 1

/-- Before inner trip `k` of outer trip `t2`: the token words and the row as they were, and the staging buffer filled below
    token position `1024 * t2 + 256 * k`. -/
def n5_I3 (tb : Buf (Elt F) ((a9).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a9).view.loc (thr d L) ↦{fullShare} tb) ∗ (((a7).access (.whole S1x100000)).loc (thr d L) ↦{fullShare} row)
    ∗ ∃ g : Buf (Elt F) ((a11).view.loc (thr d L)), ((a11).view.loc (thr d L) ↦{fullShare} g)
      ∗ ⌜∀ y, (flatOf y).val < 1024 * t2 + 256 * k → (a11).view.read (Elt F) g y = nestG row tb bias l0 hl0 y⌝)

set_option maxHeartbeats 4000000 in
/-- One inner trip: sixteen gathers of the row at sixteen vectors of token words, each plus the bias vector, stored at the
    trip's sixteen rectangles. -/
theorem n5_t3_step (v2 : IVec S16 32) (hz : ∀ x, (v2 x).toNat < 1) (k0_t1 : Fin k0_t1_loop.trips) (v10 : BitVec 32) (k0_t13 : Fin k0_t13_loop.trips)
    (wIdx : BitVec 32) (v314 : Vec F S16 .f32)
    (tb : Buf (Elt F) ((a9).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t13.val → v314 (ix1 i) = bias (ix1 b))
    (k0_t14 : Fin k0_t14_loop.trips) (acc : Unit) :
    n5_I3 d L tb row bias l0 hl0 k0_t13.val k0_t14.val acc
      ⊢ wp frame (wpE (defs₀ (F := F)) 𝒱₀ (thr d L) none) Set.univ
          (k0_t14_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 0#32 1#32 k0_t13 wIdx v314 k0_t14 acc) (n5_I3 d L tb row bias l0 hl0 k0_t13.val (k0_t14.val + 1)) := by
  have ht2 : k0_t13.val < 4 := Nat.lt_of_lt_of_le k0_t13.isLt k0_t13_abs.2.1
  have ht3 : k0_t14.val < 4 := Nat.lt_of_lt_of_le k0_t14.isLt k0_t14_abs.2.1
  unfold n5_I3 k0_t14_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t13.val + 256 * (k0_t14.val + 1) = 1024 * k0_t13.val + 256 * k0_t14.val + 256 by omega]
  refine filled_step16 (a11).view row tb bias l0 hl0 g k0_t13.val k0_t14.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n5_st0 k0_t13 k0_t14
  case ph1 => exact n5_st1 k0_t13 k0_t14
  case ph2 => exact n5_st2 k0_t13 k0_t14
  case ph3 => exact n5_st3 k0_t13 k0_t14
  case ph4 => exact n5_st4 k0_t13 k0_t14
  case ph5 => exact n5_st5 k0_t13 k0_t14
  case ph6 => exact n5_st6 k0_t13 k0_t14
  case ph7 => exact n5_st7 k0_t13 k0_t14
  case ph8 => exact n5_st8 k0_t13 k0_t14
  case ph9 => exact n5_st9 k0_t13 k0_t14
  case ph10 => exact n5_st10 k0_t13 k0_t14
  case ph11 => exact n5_st11 k0_t13 k0_t14
  case ph12 => exact n5_st12 k0_t13 k0_t14
  case ph13 => exact n5_st13 k0_t13 k0_t14
  case ph14 => exact n5_st14 k0_t13 k0_t14
  case ph15 => exact n5_st15 k0_t13 k0_t14
  case pa0 =>
    intro i q b hq hb
    refine pay_lane row _ (Memref.read_access_whole (Elt F) cc0_scratch0 row) tb bias v2 _ _ hz v314 (1024 * k0_t13.val + 256 * k0_t14.val + 0) (l0 + k0_t13.val) ?_ hv i q b hq hb
    exact fun i q hq => readAt_lane tb _ _ _ (n5_ld0 k0_t13 k0_t14) i q hq
  case pa1 =>
    intro i q b hq hb
    refine pay_lane row _ (Memref.read_access_whole (Elt F) cc0_scratch0 row) tb bias v2 _ _ hz v314 (1024 * k0_t13.val + 256 * k0_t14.val + 16) (l0 + k0_t13.val) ?_ hv i q b hq hb
    exact fun i q hq => readAt_lane tb _ _ _ (n5_ld1 k0_t13 k0_t14) i q hq
  case pa2 =>
    intro i q b hq hb
    refine pay_lane row _ (Memref.read_access_whole (Elt F) cc0_scratch0 row) tb bias v2 _ _ hz v314 (1024 * k0_t13.val + 256 * k0_t14.val + 32) (l0 + k0_t13.val) ?_ hv i q b hq hb
    exact fun i q hq => readAt_lane tb _ _ _ (n5_ld2 k0_t13 k0_t14) i q hq
  case pa3 =>
    intro i q b hq hb
    refine pay_lane row _ (Memref.read_access_whole (Elt F) cc0_scratch0 row) tb bias v2 _ _ hz v314 (1024 * k0_t13.val + 256 * k0_t14.val + 48) (l0 + k0_t13.val) ?_ hv i q b hq hb
    exact fun i q hq => readAt_lane tb _ _ _ (n5_ld3 k0_t13 k0_t14) i q hq
  case pa4 =>
    intro i q b hq hb
    refine pay_lane row _ (Memref.read_access_whole (Elt F) cc0_scratch0 row) tb bias v2 _ _ hz v314 (1024 * k0_t13.val + 256 * k0_t14.val + 64) (l0 + k0_t13.val) ?_ hv i q b hq hb
    exact fun i q hq => readAt_lane tb _ _ _ (n5_ld4 k0_t13 k0_t14) i q hq
  case pa5 =>
    intro i q b hq hb
    refine pay_lane row _ (Memref.read_access_whole (Elt F) cc0_scratch0 row) tb bias v2 _ _ hz v314 (1024 * k0_t13.val + 256 * k0_t14.val + 80) (l0 + k0_t13.val) ?_ hv i q b hq hb
    exact fun i q hq => readAt_lane tb _ _ _ (n5_ld5 k0_t13 k0_t14) i q hq
  case pa6 =>
    intro i q b hq hb
    refine pay_lane row _ (Memref.read_access_whole (Elt F) cc0_scratch0 row) tb bias v2 _ _ hz v314 (1024 * k0_t13.val + 256 * k0_t14.val + 96) (l0 + k0_t13.val) ?_ hv i q b hq hb
    exact fun i q hq => readAt_lane tb _ _ _ (n5_ld6 k0_t13 k0_t14) i q hq
  case pa7 =>
    intro i q b hq hb
    refine pay_lane row _ (Memref.read_access_whole (Elt F) cc0_scratch0 row) tb bias v2 _ _ hz v314 (1024 * k0_t13.val + 256 * k0_t14.val + 112) (l0 + k0_t13.val) ?_ hv i q b hq hb
    exact fun i q hq => readAt_lane tb _ _ _ (n5_ld7 k0_t13 k0_t14) i q hq
  case pa8 =>
    intro i q b hq hb
    refine pay_lane row _ (Memref.read_access_whole (Elt F) cc0_scratch0 row) tb bias v2 _ _ hz v314 (1024 * k0_t13.val + 256 * k0_t14.val + 128) (l0 + k0_t13.val) ?_ hv i q b hq hb
    exact fun i q hq => readAt_lane tb _ _ _ (n5_ld8 k0_t13 k0_t14) i q hq
  case pa9 =>
    intro i q b hq hb
    refine pay_lane row _ (Memref.read_access_whole (Elt F) cc0_scratch0 row) tb bias v2 _ _ hz v314 (1024 * k0_t13.val + 256 * k0_t14.val + 144) (l0 + k0_t13.val) ?_ hv i q b hq hb
    exact fun i q hq => readAt_lane tb _ _ _ (n5_ld9 k0_t13 k0_t14) i q hq
  case pa10 =>
    intro i q b hq hb
    refine pay_lane row _ (Memref.read_access_whole (Elt F) cc0_scratch0 row) tb bias v2 _ _ hz v314 (1024 * k0_t13.val + 256 * k0_t14.val + 160) (l0 + k0_t13.val) ?_ hv i q b hq hb
    exact fun i q hq => readAt_lane tb _ _ _ (n5_ld10 k0_t13 k0_t14) i q hq
  case pa11 =>
    intro i q b hq hb
    refine pay_lane row _ (Memref.read_access_whole (Elt F) cc0_scratch0 row) tb bias v2 _ _ hz v314 (1024 * k0_t13.val + 256 * k0_t14.val + 176) (l0 + k0_t13.val) ?_ hv i q b hq hb
    exact fun i q hq => readAt_lane tb _ _ _ (n5_ld11 k0_t13 k0_t14) i q hq
  case pa12 =>
    intro i q b hq hb
    refine pay_lane row _ (Memref.read_access_whole (Elt F) cc0_scratch0 row) tb bias v2 _ _ hz v314 (1024 * k0_t13.val + 256 * k0_t14.val + 192) (l0 + k0_t13.val) ?_ hv i q b hq hb
    exact fun i q hq => readAt_lane tb _ _ _ (n5_ld12 k0_t13 k0_t14) i q hq
  case pa13 =>
    intro i q b hq hb
    refine pay_lane row _ (Memref.read_access_whole (Elt F) cc0_scratch0 row) tb bias v2 _ _ hz v314 (1024 * k0_t13.val + 256 * k0_t14.val + 208) (l0 + k0_t13.val) ?_ hv i q b hq hb
    exact fun i q hq => readAt_lane tb _ _ _ (n5_ld13 k0_t13 k0_t14) i q hq
  case pa14 =>
    intro i q b hq hb
    refine pay_lane row _ (Memref.read_access_whole (Elt F) cc0_scratch0 row) tb bias v2 _ _ hz v314 (1024 * k0_t13.val + 256 * k0_t14.val + 224) (l0 + k0_t13.val) ?_ hv i q b hq hb
    exact fun i q hq => readAt_lane tb _ _ _ (n5_ld14 k0_t13 k0_t14) i q hq
  case pa15 =>
    intro i q b hq hb
    refine pay_lane row _ (Memref.read_access_whole (Elt F) cc0_scratch0 row) tb bias v2 _ _ hz v314 (1024 * k0_t13.val + 256 * k0_t14.val + 240) (l0 + k0_t13.val) ?_ hv i q b hq hb
    exact fun i q hq => readAt_lane tb _ _ _ (n5_ld15 k0_t13 k0_t14) i q hq

theorem n5_t3_trips : k0_t14_loop.trips = 4 := by decide +kernel
theorem n5_t2_trips : k0_t13_loop.trips = 4 := by decide +kernel

/-- The bias vector's index word in outer trip `t2` is `196 + t2`. -/
theorem n5_w_eq : ∀ k0_t13 : Fin k0_t13_loop.trips, (Scalar.addi 196#32 (Scalar.addi 0#32 (Scalar.muli (Scf.iv 0#32 1#32 k0_t13) 1#32))).toNat = 196 + k0_t13.val := by decide +kernel

/-- Before outer trip `k`: the token words, the row and the biases as they were, and the staging buffer filled below token
    position `1024 * k`. -/
def n5_I2 (tb : Buf (Elt F) ((a9).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a9).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a11).view.loc (thr d L)), ((a11).view.loc (thr d L) ↦{fullShare} g)
      ∗ ⌜∀ y, (flatOf y).val < 1024 * k → (a11).view.read (Elt F) g y = nestG row tb bias l0 hl0 y⌝)

set_option maxHeartbeats 4000000 in
/-- One outer trip: the bias vector gathered at the trip's position, then the four inner trips. -/
theorem n5_t2_step (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (k0_t13 : Fin k0_t13_loop.trips) (acc : Unit) :
    n5_I2 d L tb row bias 196 (by norm_num) k0_t13.val acc
      ⊢ wp frame (wpE (defs₀ (F := F)) 𝒱₀ (thr d L) none) Set.univ
          (k0_t13_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 0#32 1#32 k0_t13 acc) (n5_I2 d L tb row bias 196 (by norm_num) (k0_t13.val + 1)) := by
  have ht2 : k0_t13.val < 4 := Nat.lt_of_lt_of_le k0_t13.isLt k0_t13_abs.2.1
  unfold n5_I2 k0_t13_body
  iintro ⟨H8, H7, H13, %g, H10, %hg⟩
  sl_exec (disch := exact chkBias_ok _ (lt_of_eq_of_lt (n5_w_eq k0_t13) (by omega)))
  iapply (SparseCore.wp_vectorLoadIdx 𝒱₀ (thr d L) none Set.univ (base := a13) (S := Finset.univ) (q := fullShare) (Finset.subset_univ _)) $$ H13; iintro H13
  sl_for (n5_I3 d L tb row bias 196 (by norm_num) k0_t13.val) $$ [H8 H7 H10]
  case region =>
    intro k acc'
    refine n5_t3_step d L v2 hz k0_t1 v10 k0_t13 _ _ tb htb row bias 196 (by norm_num) ?hv k acc'
    exact fun i b hb => bias_lane bias _ (Memref.read_access_whole (Elt F) cc0_scratch6 bias) _ _ (196 + k0_t13.val) (n5_w_eq k0_t13) i b hb
  · unfold n5_I3
    isplitl [H8]; · iexact H8
    isplitl [H7]; · iexact H7
    iexists g
    isplitl [H10]; · iexact H10
    ipureintro
    intro y hy
    exact hg y (by omega)
  iintro %_ HI
  unfold n5_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t14_loop.lb k0_t14_loop.ub k0_t14_loop.st = 4 := n5_t3_trips
  omega

set_option maxHeartbeats 4000000 in
/-- The whole nest: from any contents of the staging buffer to the nest's value, the token words, the row and the biases kept. -/
theorem nest5 (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} f)) : sProp 𝕄)
      ⊢ wp frame (wpE (defs₀ (F := F)) 𝒱₀ (thr d L) none) Set.univ
          (Scf.Loop.for k0_t13_loop k0_t13_ok ⟨⟩ (k0_t13_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 0#32 1#32))
          (fun _ => iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} nestG row tb bias 196 (by norm_num)))) := by
  iintro ⟨H8, H7, H13, H10⟩
  sl_for (n5_I2 d L tb row bias 196 (by norm_num)) $$ [H8 H7 H13 H10]
  case region =>
    intro k acc
    exact n5_t2_step d L v2 hz k0_t1 v10 tb htb row bias k acc
  isplitl [H8 H7 H13 H10]
  · unfold n5_I2
    isplitl [H8]; · iexact H8
    isplitl [H7]; · iexact H7
    isplitl [H13]; · iexact H13
    iexists f
    isplitl [H10]; · iexact H10
    ipureintro
    intro y hy
    omega
  iintro %_ HI
  unfold n5_I2
  icases HI with ⟨H8, H7, H13, %g, H10, %hg⟩
  have e : g = nestG row tb bias 196 (by norm_num) :=
    funext fun y => hg y (by
      have h4 : Scf.trips k0_t13_loop.lb k0_t13_loop.ub k0_t13_loop.st = 4 := n5_t2_trips
      have := (flatOf y).isLt
      omega)
  subst e
  isplitl [H8]; · iexact H8
  isplitl [H7]; · iexact H7
  isplitl [H13]; · iexact H13
  iexact H10

end Cert.Proof.Nest
end
-- ==== Proof.TripLoop.lean ====
/-
  The steady-state loop of one feature's trip. Before trip `u` (chunks `2u + 2` and `2u + 3`) both token buffers' next
  chunks are in flight, the two previous chunks' sums are on their way out to the result array, the result's positions below
  `8u` of this feature are written and those from `8u + 8` on are still to write (`inv6`). A trip waits for the even
  chunk's tokens and for its staging buffer's previous copy-out, forms the chunk's sums, starts their copy-out and the
  fetch of the tokens two chunks ahead, then does the same for the odd chunk (`t6_region`).
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.LaunchDefs
import proofs.«203565_g79912161509654_cont_9to1_m_411_39_alg».proof.Proof.NestSpec
import proofs.«203565_g79912161509654_cont_9to1_m_411_39_alg».proof.Proof.OutSets
import proofs.«203565_g79912161509654_cont_9to1_m_411_39_alg».proof.Proof.ChunkValue
import proofs.«203565_g79912161509654_cont_9to1_m_411_39_alg».proof.Proof.BiasValue
import proofs.«203565_g79912161509654_cont_9to1_m_411_39_alg».proof.Proof.SliceReads
import proofs.«203565_g79912161509654_cont_9to1_m_411_39_alg».proof.Proof.TripDefs
import proofs.«203565_g79912161509654_cont_9to1_m_411_39_alg».proof.Proof.OutPieces
import proofs.«203565_g79912161509654_cont_9to1_m_411_39_alg».proof.Proof.Nest0
import proofs.«203565_g79912161509654_cont_9to1_m_411_39_alg».proof.Proof.Nest1
import proofs.«203565_g79912161509654_cont_9to1_m_411_39_alg».proof.Proof.Nest2
import proofs.«203565_g79912161509654_cont_9to1_m_411_39_alg».proof.Proof.Nest3
import proofs.«203565_g79912161509654_cont_9to1_m_411_39_alg».proof.Proof.Nest4
import proofs.«203565_g79912161509654_cont_9to1_m_411_39_alg».proof.Proof.Nest5

noncomputable section

namespace Cert.Proof.Body

open Cert.KernelIdeal Cert.KernelIdeal.Gen Cert.Proof.LaunchKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN pointsTo_toks pointsTo_toks_split pointsTo_toks_join Flight_mono)

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

variable (d : Dev nD) (L : grid0.Coords)
abbrev thr (d : Dev nD) (L : grid0.Coords) : Thread nD τ := V d (cV L) (jV L)

/-- A specification of a program's first part, used in the middle of a run: what the part needs is given up, and the rest
    of the program is run from what the part leaves. -/
theorem wp_seq_spec {α β : Type} {c : Thread nD τ} {p : Prog (TpuEff nD τ sig (Elt F) Λ₀ c.2) α} {k : α → Prog (TpuEff nD τ sig (Elt F) Λ₀ c.2) β}
    {Q : β → sProp 𝕄} {R : sProp 𝕄} {post : α → sProp 𝕄}
    (h : R ⊢ wp frame (wpE (defs₀ (F := F)) 𝒱₀ c none) Set.univ p post) :
    R ⊢ iprop((∀ a, post a -∗ wp frame (wpE (defs₀ (F := F)) 𝒱₀ c none) Set.univ (k a) Q)
        -∗ wp frame (wpE (defs₀ (F := F)) 𝒱₀ c none) Set.univ (p >>= k) Q) := by
  rw [wp_bind]
  exact h.trans (wp_wand _ _ _)

theorem nest0' (d : Dev nD) (L : grid0.Coords) (v2 : IVec S16 32) (hz : ∀ x, (v2 x).toNat < 1) (k0_t1 : Fin k0_t1_loop.trips) (v10 : BitVec 32)
    (tb : Buf (Elt F) ((a8).view.loc (thr d L)))
    (row : Buf (Elt F) (((a7).access (.whole S1x100000)).loc (thr d L))) (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t2_loop k0_t2_ok ⟨⟩ (k0_t2_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} Cert.Proof.Nest.nestG row tb bias 0 (by norm_num)))) := by
  iintro ⟨H8, H7, H13, H10, %htb⟩
  iapply (Cert.Proof.Nest.nest0 d L v2 hz k0_t1 v10 tb htb row bias f)
  isplitl [H8]; · iexact H8
  isplitl [H7]; · iexact H7
  isplitl [H13]; · iexact H13
  iexact H10

theorem nest1' (d : Dev nD) (L : grid0.Coords) (v2 : IVec S16 32) (hz : ∀ x, (v2 x).toNat < 1) (k0_t1 : Fin k0_t1_loop.trips) (v10 : BitVec 32)
    (tb : Buf (Elt F) ((a9).view.loc (thr d L)))
    (row : Buf (Elt F) (((a7).access (.whole S1x100000)).loc (thr d L))) (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t4_loop k0_t4_ok ⟨⟩ (k0_t4_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10))
          (fun _ => iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} Cert.Proof.Nest.nestG row tb bias 4 (by norm_num)))) := by
  iintro ⟨H8, H7, H13, H10, %htb⟩
  iapply (Cert.Proof.Nest.nest1 d L v2 hz k0_t1 v10 tb htb row bias f)
  isplitl [H8]; · iexact H8
  isplitl [H7]; · iexact H7
  isplitl [H13]; · iexact H13
  iexact H10

theorem nest2' (d : Dev nD) (L : grid0.Coords) (v2 : IVec S16 32) (hz : ∀ x, (v2 x).toNat < 1) (k0_t1 : Fin k0_t1_loop.trips) (v10 : BitVec 32)
    (k0_t6 : Fin k0_t6_loop.trips) (v311 : BitVec 32) (hv : v311.toNat = 2 * k0_t6.val + 2) (hl0 : 8 * k0_t6.val + 8 + 4 ≤ 208)
    (tb : Buf (Elt F) ((a8).view.loc (thr d L)))
    (row : Buf (Elt F) (((a7).access (.whole S1x100000)).loc (thr d L))) (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t7_loop k0_t7_ok ⟨⟩ (k0_t7_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10 k0_t6 v311))
          (fun _ => iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} Cert.Proof.Nest.nestG row tb bias (8 * k0_t6.val + 8) hl0))) := by
  iintro ⟨H8, H7, H13, H10, %htb⟩
  iapply (Cert.Proof.Nest.nest2 d L v2 hz k0_t1 v10 k0_t6 v311 hv hl0 tb htb row bias f)
  isplitl [H8]; · iexact H8
  isplitl [H7]; · iexact H7
  isplitl [H13]; · iexact H13
  iexact H10

theorem nest3' (d : Dev nD) (L : grid0.Coords) (v2 : IVec S16 32) (hz : ∀ x, (v2 x).toNat < 1) (k0_t1 : Fin k0_t1_loop.trips) (v10 : BitVec 32)
    (k0_t6 : Fin k0_t6_loop.trips) (v381 : BitVec 32) (hv : v381.toNat = 2 * k0_t6.val + 3) (hl0 : 8 * k0_t6.val + 12 + 4 ≤ 208)
    (tb : Buf (Elt F) ((a9).view.loc (thr d L)))
    (row : Buf (Elt F) (((a7).access (.whole S1x100000)).loc (thr d L))) (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t9_loop k0_t9_ok ⟨⟩ (k0_t9_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10 k0_t6 v381))
          (fun _ => iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} Cert.Proof.Nest.nestG row tb bias (8 * k0_t6.val + 12) hl0))) := by
  iintro ⟨H8, H7, H13, H10, %htb⟩
  iapply (Cert.Proof.Nest.nest3 d L v2 hz k0_t1 v10 k0_t6 v381 hv hl0 tb htb row bias f)
  isplitl [H8]; · iexact H8
  isplitl [H7]; · iexact H7
  isplitl [H13]; · iexact H13
  iexact H10

theorem nest4' (d : Dev nD) (L : grid0.Coords) (v2 : IVec S16 32) (hz : ∀ x, (v2 x).toNat < 1) (k0_t1 : Fin k0_t1_loop.trips) (v10 : BitVec 32)
    (tb : Buf (Elt F) ((a8).view.loc (thr d L)))
    (row : Buf (Elt F) (((a7).access (.whole S1x100000)).loc (thr d L))) (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t11_loop k0_t11_ok ⟨⟩ (k0_t11_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} Cert.Proof.Nest.nestG row tb bias 192 (by norm_num)))) := by
  iintro ⟨H8, H7, H13, H10, %htb⟩
  iapply (Cert.Proof.Nest.nest4 d L v2 hz k0_t1 v10 tb htb row bias f)
  isplitl [H8]; · iexact H8
  isplitl [H7]; · iexact H7
  isplitl [H13]; · iexact H13
  iexact H10

theorem nest5' (d : Dev nD) (L : grid0.Coords) (v2 : IVec S16 32) (hz : ∀ x, (v2 x).toNat < 1) (k0_t1 : Fin k0_t1_loop.trips) (v10 : BitVec 32)
    (tb : Buf (Elt F) ((a9).view.loc (thr d L)))
    (row : Buf (Elt F) (((a7).access (.whole S1x100000)).loc (thr d L))) (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t13_loop k0_t13_ok ⟨⟩ (k0_t13_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10 0#32 1#32))
          (fun _ => iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} Cert.Proof.Nest.nestG row tb bias 196 (by norm_num)))) := by
  iintro ⟨H8, H7, H13, H10, %htb⟩
  iapply (Cert.Proof.Nest.nest5 d L v2 hz k0_t1 v10 tb htb row bias f)
  isplitl [H8]; · iexact H8
  isplitl [H7]; · iexact H7
  isplitl [H13]; · iexact H13
  iexact H10

section Inv6
variable (d : Dev nD) (L : grid0.Coords) (t : Fin k0_t1_loop.trips) (O : CellTallies nD τ sig (HIx 1)) (W : Waits sig (HIx 1)) (q3 q4 q15 : PosShare TreeShare)
    (embV : Buf (Elt F) ((a3).view.loc (thr d L))) (posV : Buf (Elt F) ((a4).view.loc (thr d L))) (shV : Buf (Elt F) ((a15).view.loc (thr d L)))
    (rowV : Buf (Elt F) (((a7).access (.whole S1x100000)).loc (thr d L))) (biasV : Buf (Elt F) (((a13).access (.whole S208)).loc (thr d L)))
    (f14 : Buf (Elt F) (((a14).access (.whole S64)).loc (thr d L)))
    (Gout g : Buf (Elt F) ((a6).view.loc (thr d L)))

/-- Before trip `u` of the steady-state loop (chunks `2u + 2` and `2u + 3`): both token buffers' next chunks in flight,
    the two previous chunks' results on their way out, the result's positions below `8u` of this feature written, those
    from `8u + 8` on still to write. -/
def inv6 (u : Nat) (_ : PUnit) : sProp 𝕄 :=
  iprop(Transfers.MayWaits (thr d L) (default : HIx 1) O
    ∗ (∃ W', ⌜∀ p ∈ W', p ∈ W ∨ p.2 = none⌝ ∗ owes (thr d L) O W')
    ∗ semVal (thr d L, SemLoc.dma cc0_scratch13.sem) 0 ∗ semVal (thr d L, SemLoc.dma cc0_scoped2.sem) 0
    ∗ ((a3).view.loc (thr d L) ↦{q3} embV) ∗ ((a4).view.loc (thr d L) ↦{q4} posV)
    ∗ (∃ f, (a12).view.loc (thr d L) ↦{fullShare} f) ∗ (((a14).access (.whole S64)).loc (thr d L) ↦{fullShare} f14)
    ∗ (((a7).access (.whole S1x100000)).loc (thr d L) ↦{fullShare} rowV) ∗ (((a13).access (.whole S208)).loc (thr d L) ↦{fullShare} biasV)
    ∗ ((a15).view.loc (thr d L) ↦{shareDrop q15 2} shV)
    ∗ (∃ A, Transfers.Flight countersEmb (thr d L) (SemLoc.dma cc0_scratch9.sem) (default : HIx 1) 131072
          iprop(((a8).view.loc (thr d L) ↦{fullShare} tokChunk shV (2 * u + 2)) ∗ ((a15).view.loc (thr d L) ↦[A]{shareTokN q15 0} shV))
        ∗ ((a15).view.loc (thr d L) ↦[Finset.univ \ A]{shareTokN q15 0} shV))
    ∗ (∃ B, Transfers.Flight countersEmb (thr d L) (SemLoc.dma cc0_scratch10.sem) (default : HIx 1) 131072
          iprop(((a9).view.loc (thr d L) ↦{fullShare} tokChunk shV (2 * u + 3)) ∗ ((a15).view.loc (thr d L) ↦[B]{shareTokN q15 1} shV))
        ∗ ((a15).view.loc (thr d L) ↦[Finset.univ \ B]{shareTokN q15 1} shV))
    ∗ Transfers.Flight countersEmb (thr d L) (SemLoc.dma cc0_scratch11.sem) (default : HIx 1) 131072
          iprop(((a6).view.loc (thr d L) ↦[chunkF L t (8 * u)]{fullShare} Gout)
            ∗ ((a10).view.loc (thr d L) ↦[(a10).view.set]{fullShare} stageOut rowV shV biasV (2 * u)))
    ∗ ((a10).view.loc (thr d L) ↦[Finset.univ \ (a10).view.set]{fullShare} stageOut rowV shV biasV (2 * u))
    ∗ Transfers.Flight countersEmb (thr d L) (SemLoc.dma cc0_scratch12.sem) (default : HIx 1) 131072
          iprop(((a6).view.loc (thr d L) ↦[chunkF L t (8 * u + 4)]{fullShare} Gout)
            ∗ ((a11).view.loc (thr d L) ↦[(a11).view.set]{fullShare} stageOut rowV shV biasV (2 * u + 1)))
    ∗ ((a11).view.loc (thr d L) ↦[Finset.univ \ (a11).view.set]{fullShare} stageOut rowV shV biasV (2 * u + 1))
    ∗ ((a6).view.loc (thr d L) ↦[remSet L t (8 * u + 8)]{fullShare} g)
    ∗ ((a6).view.loc (thr d L) ↦[doneSet L t (8 * u)]{fullShare} Gout))

end Inv6

section Helpers
variable (d : Dev nD) (L : grid0.Coords) (t : Fin k0_t1_loop.trips)

/-- Chunk `p` out of what is still to write. -/
theorem carveChunk (p : Nat) (hp : p + 4 ≤ 200) (g : Buf (Elt F) ((a6).view.loc (thr d L))) :
    ((a6).view.loc (thr d L) ↦[remSet L t p]{fullShare} g : sProp 𝕄)
      ⊢ iprop(((a6).view.loc (thr d L) ↦[chunkSet L t p hp]{fullShare} g) ∗ ((a6).view.loc (thr d L) ↦[remSet L t (p + 4)]{fullShare} g)) := by
  rw [← rem_sdiff_chunk L t p hp]; exact (pointsTo_split_subset (chunk_sub_rem L t p hp)).1

theorem remCast {n n' : Nat} (h : n = n') (g : Buf (Elt F) ((a6).view.loc (thr d L))) :
    ((a6).view.loc (thr d L) ↦[remSet L t n]{fullShare} g : sProp 𝕄) ⊢ ((a6).view.loc (thr d L) ↦[remSet L t n']{fullShare} g) := by
  subst h; exact .rfl

theorem doneCast {n n' : Nat} (h : n = n') (g : Buf (Elt F) ((a6).view.loc (thr d L))) :
    ((a6).view.loc (thr d L) ↦[doneSet L t n]{fullShare} g : sProp 𝕄) ⊢ ((a6).view.loc (thr d L) ↦[doneSet L t n']{fullShare} g) := by
  subst h; exact .rfl

/-- A written chunk joins what is done. -/
theorem joinDone (p : Nat) (hp : p + 4 ≤ 200) (G : Buf (Elt F) ((a6).view.loc (thr d L))) :
    iprop(((a6).view.loc (thr d L) ↦[doneSet L t p]{fullShare} G) ∗ ((a6).view.loc (thr d L) ↦[chunkF L t p]{fullShare} G))
      ⊢ ((a6).view.loc (thr d L) ↦[doneSet L t (p + 4)]{fullShare} G : sProp 𝕄) := by
  rw [chunkF_eq L t p hp, ← done_union_chunk L t p hp]; exact (pointsTo_union (done_disj_chunk L t p hp)).2

theorem toSlice35 (u : Fin k0_t6_loop.trips) (hp : 8 * u.val + 8 + 4 ≤ 200) (g : Buf (Elt F) ((a6).view.loc (thr d L))) :
    ((a6).view.loc (thr d L) ↦[chunkSet L t (8 * u.val + 8) hp]{fullShare} g : sProp 𝕄)
      ⊢ (((a6).slice (Rect.unit (s := S200x8x8x8x128) (k0_off35 L t u) S4x1x8x1x128.size (k0_off35_inb L t u)) (fun _ => rfl)).view.loc (thr d L) ↦[((a6).slice (Rect.unit (s := S200x8x8x8x128) (k0_off35 L t u) S4x1x8x1x128.size (k0_off35_inb L t u)) (fun _ => rfl)).view.set]{fullShare} g) := by
  rw [slice35_set]

theorem toSlice47 (u : Fin k0_t6_loop.trips) (hp : 8 * u.val + 12 + 4 ≤ 200) (g : Buf (Elt F) ((a6).view.loc (thr d L))) :
    ((a6).view.loc (thr d L) ↦[chunkSet L t (8 * u.val + 12) hp]{fullShare} g : sProp 𝕄)
      ⊢ (((a6).slice (Rect.unit (s := S200x8x8x8x128) (k0_off47 L t u) S4x1x8x1x128.size (k0_off47_inb L t u)) (fun _ => rfl)).view.loc (thr d L) ↦[((a6).slice (Rect.unit (s := S200x8x8x8x128) (k0_off47 L t u) S4x1x8x1x128.size (k0_off47_inb L t u)) (fun _ => rfl)).view.set]{fullShare} g) := by
  rw [slice47_set]

end Helpers

section OutPieces
variable (d : Dev nD) (L : grid0.Coords) (t : Fin k0_t1_loop.trips)
theorem outPiece13 (hp : 0 + 4 ≤ 200) (g Gout : Buf (Elt F) ((a6).view.loc (thr d L))) (w : S4x1x8x1x128.Idx → (Elt F) .f32)
    (hw : ∀ y, w y = Gout ((chunkRect L t (0) hp).emb y)) :
    (((a6).slice (Rect.unit (s := S200x8x8x8x128) (k0_off13 L t) S4x1x8x1x128.size (k0_off13_inb L t)) (fun _ => rfl)).view.loc (thr d L) ↦[((a6).slice (Rect.unit (s := S200x8x8x8x128) (k0_off13 L t) S4x1x8x1x128.size (k0_off13_inb L t)) (fun _ => rfl)).view.set]{fullShare} ((a6).slice (Rect.unit (s := S200x8x8x8x128) (k0_off13 L t) S4x1x8x1x128.size (k0_off13_inb L t)) (fun _ => rfl)).view.writes (Elt F) g [⟨Rect.whole (Rect.unit (s := S200x8x8x8x128) (k0_off13 L t) S4x1x8x1x128.size (k0_off13_inb L t)).shape, w⟩] : sProp 𝕄)
      = ((a6).view.loc (thr d L) ↦[chunkF L t (0)]{fullShare} Gout) := by
  rw [pointsTo_congr (out_piece13 L t g Gout w hw), slice13_set, ← chunkF_eq L t (0) hp]

theorem outPiece23 (hp : 4 + 4 ≤ 200) (g Gout : Buf (Elt F) ((a6).view.loc (thr d L))) (w : S4x1x8x1x128.Idx → (Elt F) .f32)
    (hw : ∀ y, w y = Gout ((chunkRect L t (4) hp).emb y)) :
    (((a6).slice (Rect.unit (s := S200x8x8x8x128) (k0_off23 L t) S4x1x8x1x128.size (k0_off23_inb L t)) (fun _ => rfl)).view.loc (thr d L) ↦[((a6).slice (Rect.unit (s := S200x8x8x8x128) (k0_off23 L t) S4x1x8x1x128.size (k0_off23_inb L t)) (fun _ => rfl)).view.set]{fullShare} ((a6).slice (Rect.unit (s := S200x8x8x8x128) (k0_off23 L t) S4x1x8x1x128.size (k0_off23_inb L t)) (fun _ => rfl)).view.writes (Elt F) g [⟨Rect.whole (Rect.unit (s := S200x8x8x8x128) (k0_off23 L t) S4x1x8x1x128.size (k0_off23_inb L t)).shape, w⟩] : sProp 𝕄)
      = ((a6).view.loc (thr d L) ↦[chunkF L t (4)]{fullShare} Gout) := by
  rw [pointsTo_congr (out_piece23 L t g Gout w hw), slice23_set, ← chunkF_eq L t (4) hp]

theorem outPiece35 (u : Fin k0_t6_loop.trips) (hp : 8 * u.val + 8 + 4 ≤ 200) (g Gout : Buf (Elt F) ((a6).view.loc (thr d L))) (w : S4x1x8x1x128.Idx → (Elt F) .f32)
    (hw : ∀ y, w y = Gout ((chunkRect L t (8 * u.val + 8) hp).emb y)) :
    (((a6).slice (Rect.unit (s := S200x8x8x8x128) (k0_off35 L t u) S4x1x8x1x128.size (k0_off35_inb L t u)) (fun _ => rfl)).view.loc (thr d L) ↦[((a6).slice (Rect.unit (s := S200x8x8x8x128) (k0_off35 L t u) S4x1x8x1x128.size (k0_off35_inb L t u)) (fun _ => rfl)).view.set]{fullShare} ((a6).slice (Rect.unit (s := S200x8x8x8x128) (k0_off35 L t u) S4x1x8x1x128.size (k0_off35_inb L t u)) (fun _ => rfl)).view.writes (Elt F) g [⟨Rect.whole (Rect.unit (s := S200x8x8x8x128) (k0_off35 L t u) S4x1x8x1x128.size (k0_off35_inb L t u)).shape, w⟩] : sProp 𝕄)
      = ((a6).view.loc (thr d L) ↦[chunkF L t (8 * u.val + 8)]{fullShare} Gout) := by
  rw [pointsTo_congr (out_piece35 L t u g Gout w hw), slice35_set, ← chunkF_eq L t (8 * u.val + 8) hp]

theorem outPiece47 (u : Fin k0_t6_loop.trips) (hp : 8 * u.val + 12 + 4 ≤ 200) (g Gout : Buf (Elt F) ((a6).view.loc (thr d L))) (w : S4x1x8x1x128.Idx → (Elt F) .f32)
    (hw : ∀ y, w y = Gout ((chunkRect L t (8 * u.val + 12) hp).emb y)) :
    (((a6).slice (Rect.unit (s := S200x8x8x8x128) (k0_off47 L t u) S4x1x8x1x128.size (k0_off47_inb L t u)) (fun _ => rfl)).view.loc (thr d L) ↦[((a6).slice (Rect.unit (s := S200x8x8x8x128) (k0_off47 L t u) S4x1x8x1x128.size (k0_off47_inb L t u)) (fun _ => rfl)).view.set]{fullShare} ((a6).slice (Rect.unit (s := S200x8x8x8x128) (k0_off47 L t u) S4x1x8x1x128.size (k0_off47_inb L t u)) (fun _ => rfl)).view.writes (Elt F) g [⟨Rect.whole (Rect.unit (s := S200x8x8x8x128) (k0_off47 L t u) S4x1x8x1x128.size (k0_off47_inb L t u)).shape, w⟩] : sProp 𝕄)
      = ((a6).view.loc (thr d L) ↦[chunkF L t (8 * u.val + 12)]{fullShare} Gout) := by
  rw [pointsTo_congr (out_piece47 L t u g Gout w hw), slice47_set, ← chunkF_eq L t (8 * u.val + 12) hp]

theorem outPiece59 (hp : 192 + 4 ≤ 200) (g Gout : Buf (Elt F) ((a6).view.loc (thr d L))) (w : S4x1x8x1x128.Idx → (Elt F) .f32)
    (hw : ∀ y, w y = Gout ((chunkRect L t (192) hp).emb y)) :
    (((a6).slice (Rect.unit (s := S200x8x8x8x128) (k0_off59 L t) S4x1x8x1x128.size (k0_off59_inb L t)) (fun _ => rfl)).view.loc (thr d L) ↦[((a6).slice (Rect.unit (s := S200x8x8x8x128) (k0_off59 L t) S4x1x8x1x128.size (k0_off59_inb L t)) (fun _ => rfl)).view.set]{fullShare} ((a6).slice (Rect.unit (s := S200x8x8x8x128) (k0_off59 L t) S4x1x8x1x128.size (k0_off59_inb L t)) (fun _ => rfl)).view.writes (Elt F) g [⟨Rect.whole (Rect.unit (s := S200x8x8x8x128) (k0_off59 L t) S4x1x8x1x128.size (k0_off59_inb L t)).shape, w⟩] : sProp 𝕄)
      = ((a6).view.loc (thr d L) ↦[chunkF L t (192)]{fullShare} Gout) := by
  rw [pointsTo_congr (out_piece59 L t g Gout w hw), slice59_set, ← chunkF_eq L t (192) hp]

theorem outPiece70 (hp : 196 + 4 ≤ 200) (g Gout : Buf (Elt F) ((a6).view.loc (thr d L))) (w : S4x1x8x1x128.Idx → (Elt F) .f32)
    (hw : ∀ y, w y = Gout ((chunkRect L t (196) hp).emb y)) :
    (((a6).slice (Rect.unit (s := S200x8x8x8x128) (k0_off70 L t) S4x1x8x1x128.size (k0_off70_inb L t)) (fun _ => rfl)).view.loc (thr d L) ↦[((a6).slice (Rect.unit (s := S200x8x8x8x128) (k0_off70 L t) S4x1x8x1x128.size (k0_off70_inb L t)) (fun _ => rfl)).view.set]{fullShare} ((a6).slice (Rect.unit (s := S200x8x8x8x128) (k0_off70 L t) S4x1x8x1x128.size (k0_off70_inb L t)) (fun _ => rfl)).view.writes (Elt F) g [⟨Rect.whole (Rect.unit (s := S200x8x8x8x128) (k0_off70 L t) S4x1x8x1x128.size (k0_off70_inb L t)).shape, w⟩] : sProp 𝕄)
      = ((a6).view.loc (thr d L) ↦[chunkF L t (196)]{fullShare} Gout) := by
  rw [pointsTo_congr (out_piece70 L t g Gout w hw), slice70_set, ← chunkF_eq L t (196) hp]

end OutPieces

set_option maxHeartbeats 16000000 in
theorem t6_region (d : Dev nD) (L : grid0.Coords) (t : Fin k0_t1_loop.trips) (O : CellTallies nD τ sig (HIx 1)) (W : Waits sig (HIx 1)) (q3 q4 q15 : PosShare TreeShare)
    (embV : Buf (Elt F) ((a3).view.loc (thr d L))) (posV : Buf (Elt F) ((a4).view.loc (thr d L))) (shV : Buf (Elt F) ((a15).view.loc (thr d L)))
    (hsh : ∀ i, (shV i).toNat < 100000)
    (rowV : Buf (Elt F) (((a7).access (.whole S1x100000)).loc (thr d L))) (biasV : Buf (Elt F) (((a13).access (.whole S208)).loc (thr d L)))
    (f14 : Buf (Elt F) (((a14).access (.whole S64)).loc (thr d L)))
    (Gout g : Buf (Elt F) ((a6).view.loc (thr d L)))
    (hG : ∀ (c p : Nat) (hp : p + 4 ≤ 200), p = 4 * c → ∀ y, stageOut rowV shV biasV c y = Gout ((chunkRect L t p hp).emb y))
    (v2 : IVec S16 32) (hz : ∀ x, (v2 x).toNat < 1) (v10 : BitVec 32) (u : Fin k0_t6_loop.trips) :
    inv6 d L t O W q3 q4 q15 embV posV shV rowV biasV f14 Gout g u.val ⟨⟩
      ⊢ wp frame (wpE (defs₀ (F := F)) 𝒱₀ (thr d L) none) Set.univ
          (k0_t6_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 t v10 u ())
          (inv6 d L t O W q3 q4 q15 embV posV shV rowV biasV f14 Gout g (u.val + 1)) := by
  have hu : u.val < 23 := trips6_lt u
  have h208a : 8 * u.val + 8 + 4 ≤ 208 := by omega
  have h208b : 8 * u.val + 12 + 4 ≤ 208 := by omega
  have h200a : 8 * u.val + 8 + 4 ≤ 200 := by omega
  have h200b : 8 * u.val + 12 + 4 ≤ 200 := by omega
  unfold k0_t6_body inv6
  rw [show 2 * (u.val + 1) + 2 = 2 * u.val + 4 from by omega, show 2 * (u.val + 1) + 3 = 2 * u.val + 5 from by omega,
    show 8 * (u.val + 1) + 8 = 8 * u.val + 16 from by omega, show 8 * (u.val + 1) + 4 = 8 * u.val + 12 from by omega,
    show 2 * (u.val + 1) + 1 = 2 * u.val + 3 from by omega, show 8 * (u.val + 1) = 8 * u.val + 8 from by omega,
    show 2 * (u.val + 1) = 2 * u.val + 2 from by omega]
  iintro ⟨#Hmw, ⟨%W', %hW', HO⟩, S20, Sr2, H3, H4, ⟨%f12, H12⟩, H14, H7, H13, H15r, ⟨%A, S16, H15a⟩, ⟨%B, S17, H15b⟩, S18, H10, S19, H11, Hout, Hdone⟩
  sl_exec
  -- the even chunk's sums
  iapply (wp_seq_spec (nest2' d L v2 hz t v10 u _ (c0_word u) h208a _ _ _ _)) $$ [S16_dst H7 H13 H10]
  · isplitl [S16_dst]; · iexact S16_dst
    isplitl [H7]; · iexact H7
    isplitl [H13]; · iexact H13
    isplitl [H10]; · iexact H10
    ipureintro; exact tokChunk_lt shV hsh _
  iintro %_ ⟨H8, H7, H13, H10⟩
  rw [nestG_stage rowV shV biasV (2 * u.val + 2) (8 * u.val + 8) h208a (by omega)]
  -- its destination out of what is still to write
  ihave Hc := (carveChunk d L t (8 * u.val + 8) h200a g) $$ Hout
  icases Hc with ⟨Hc0, Hout⟩
  ihave Hout := (remCast d L t (show 8 * u.val + 8 + 4 = 8 * u.val + 12 from by omega) g) $$ Hout
  ihave Hc0 := (toSlice35 d L t u h200a g) $$ Hc0
  sl_exec
  -- the odd chunk's sums
  iapply (wp_seq_spec (nest3' d L v2 hz t v10 u _ (c1_word u) h208b _ _ _ _)) $$ [S17_dst H7 H13 H11]
  · isplitl [S17_dst]; · iexact S17_dst
    isplitl [H7]; · iexact H7
    isplitl [H13]; · iexact H13
    isplitl [H11]; · iexact H11
    ipureintro; exact tokChunk_lt shV hsh _
  iintro %_ ⟨H9, H7, H13, H11⟩
  rw [nestG_stage rowV shV biasV (2 * u.val + 3) (8 * u.val + 12) h208b (by omega)]
  ihave Hc := (carveChunk d L t (8 * u.val + 12) h200b g) $$ Hout
  icases Hc with ⟨Hc1, Hout⟩
  ihave Hout := (remCast d L t (show 8 * u.val + 12 + 4 = 8 * u.val + 16 from by omega) g) $$ Hout
  ihave Hc1 := (toSlice47 d L t u h200b g) $$ Hc1
  sl_exec
  sl_step
  isplitr; · iexact Hmw
  isplitl [HO]
  · iexists _; isplitr; swap; · iexact HO
    ipureintro; intro p hp
    simp only [Finset.mem_insert] at hp
    rcases hp with rfl | rfl | rfl | rfl | hp
    · exact .inr rfl
    · exact .inr rfl
    · exact .inr rfl
    · exact .inr rfl
    · exact hW' p hp
  isplitl [S20]; · iexact S20
  isplitl [Sr2]; · iexact Sr2
  isplitl [H3]; · iexact H3
  isplitl [H4]; · iexact H4
  isplitl [H12]; · iexists _; iexact H12
  isplitl [H14]; · iexact H14
  isplitl [H7]; · iexact H7
  isplitl [H13]; · iexact H13
  isplitl [H15r]; · iexact H15r
  isplitl [S16 H15a]
  · iexists ((a15).slice (Rect.unit (s := S204800) (k0_off36 u 2#32) S4096.size (k0_off36_inb u 1)) (fun _ => rfl)).view.set
    isplitl [S16]
    · iapply (Flight_mono (EC := countersEmb) (c := thr d L) (sep_mono (Entails.of_eq (congrArg (fun f => ((a8).view.loc (thr d L) ↦{fullShare} f : sProp 𝕄)) ((View.write_whole_univ _ _ _).trans (tok_read_36_2 u shV)))) .rfl)) $$ S16
    · iexact H15a
  isplitl [S17 H15b]
  · iexists ((a15).slice (Rect.unit (s := S204800) (k0_off48 u) S4096.size (k0_off48_inb u)) (fun _ => rfl)).view.set
    isplitl [S17]
    · iapply (Flight_mono (EC := countersEmb) (c := thr d L) (sep_mono (Entails.of_eq (congrArg (fun f => ((a9).view.loc (thr d L) ↦{fullShare} f : sProp 𝕄)) ((View.write_whole_univ _ _ _).trans (tok_read_48 u shV)))) .rfl)) $$ S17
    · iexact H15b
  isplitl [S18]
  · iapply (Flight_mono (EC := countersEmb) (c := thr d L) (sep_mono (Entails.of_eq (outPiece35 d L t u h200a g Gout (t6_region.sl.dma0 d L shV rowV biasV u) (fun y => hG (2 * u.val + 2) (8 * u.val + 8) h200a (by omega) y))) .rfl)) $$ S18
  isplitl [H10]; · iexact H10
  isplitl [S19]
  · iapply (Flight_mono (EC := countersEmb) (c := thr d L) (sep_mono (Entails.of_eq (outPiece47 d L t u h200b g Gout (t6_region.sl.dma0_2 d L shV rowV biasV u) (fun y => hG (2 * u.val + 3) (8 * u.val + 12) h200b (by omega) y))) .rfl)) $$ S19
  isplitl [H11]; · iexact H11
  isplitl [Hout]; · iexact Hout
  ihave Hd := (joinDone d L t (8 * u.val) (by omega) Gout) $$ [Hdone S18_dst]
  · isplitl [Hdone] <;> iassumption
  ihave Hd := (joinDone d L t (8 * u.val + 4) (by omega) Gout) $$ [Hd S19_dst]
  · isplitl [Hd] <;> iassumption
  iapply (doneCast d L t (show 8 * u.val + 4 + 4 = 8 * u.val + 8 from by omega) Gout) $$ Hd

end Cert.Proof.Body
end
-- ==== Proof.StageValue.lean ====
/-
  The staging buffer against the specification. Once the compute nest has filled a staging buffer for chunk `c` of a
  feature's trip, every entry of it is the specified result at the entry of the result array where the chunk's
  rectangle at position `4 * c` places it: the nest's value for the chunk's run of token words is the staging contents,
  and the chunk's value is the specification's.
-/
import proofs.«203565_g79912161509654_cont_9to1_m_411_39_alg».proof.Proof.TripDefs
import proofs.«203565_g79912161509654_cont_9to1_m_411_39_alg».proof.Proof.ChunkValue
import proofs.«203565_g79912161509654_cont_9to1_m_411_39_alg».proof.Proof.SliceReads

noncomputable section

namespace Cert.Proof.Body

open Cert.KernelIdeal Cert.KernelIdeal.Gen Cert.Proof.LaunchKernelIdeal Idealize.ShloMosaic Idealize.ShloMosaic.ValueIdx
open Cert.Proof.Spec Cert.Proof.Nest

variable {F : FTy → Type} [FloatOps F]

/-- The staging contents for chunk `c` are the specified result on the chunk's rectangle at position `p = 4 * c`. -/
theorem stage_value (i : grid0.Coords) (t : Fin k0_t1_loop.trips) (shV : IVec S204800 32) (embV : FVec F S64x100000 .f32)
    (posV : FVec F S32768 .f32) (segV : FVec F S128 .f32)
    (rowV : FVec F S1x100000 .f32)
    (hrow : ∀ y : S1x100000.Idx, rowV y = embV (ix2 (⟨featN i t, featN_lt i t⟩ : Fin 64) (y 1)))
    (biasV : FVec F S208 .f32)
    (hbias : ∀ l : Fin 208, l.val < 200 → biasV (ix1 l)
      = FloatOps.addf (posV (ix1 (⟨featN i t * 512 + l.val, by have := featN_lt i t; have := l.isLt; omega⟩ : Fin 32768)))
          (segV (ix1 (⟨featN i t, by have := featN_lt i t; omega⟩ : Fin 128)))) :
    ∀ (c p : Nat) (hp : p + 4 ≤ 200), p = 4 * c → ∀ y : S4x1x8x1x128.Idx,
      stageOut rowV shV biasV c y = scOut shV embV posV segV ((chunkRect i t p hp).emb y) := by
  intro c p hp hpc y
  subst hpc
  have hc : c < 50 := by omega
  rw [← nestG_stage rowV shV biasV c (4 * c) (by omega) rfl]
  exact chunk_value shV embV posV segV i t c hc rowV hrow (tokChunk shV c) (tokChunk_at shV c hc) biasV hbias y

end Cert.Proof.Body

end
-- ==== Proof.BiasReads.lean ====
/-
  What the bias of a trip is made of, read lane by lane. The tile's feature D in trip t is the word the kernel computes
  from its grid coordinates and the trip; the segment scratch gathered at that word in every lane is segment 0's feature
  D; and sixteen lanes from N of the position scratch, right after the copy of the position table's run from 512 D landed
  in it, are the table's entries 512 D + N + lane.
-/
import proofs.«203565_g79912161509654_cont_9to1_m_411_39_alg».proof.KernelIdeal
import proofs.«203565_g79912161509654_cont_9to1_m_411_39_alg».proof.Proof.Gen.KernelIdeal
import proofs.«203565_g79912161509654_cont_9to1_m_411_39_alg».proof.Proof.OutOffs
import proofs.«203565_g79912161509654_cont_9to1_m_411_39_alg».proof.Proof.OutSets
import proofs.«203565_g79912161509654_cont_9to1_m_411_39_alg».proof.Proof.SliceReads
import Idealize.ShloMosaic.Lib.ValueIdx

noncomputable section

namespace Cert.Proof.Body

open Cert.KernelIdeal Cert.KernelIdeal.Gen Idealize.ShloMosaic Idealize.ShloMosaic.ValueIdx

variable {F : FTy → Type}

/-! ## The feature as the kernel computes it -/

/-- The word the kernel computes for the tile's feature: `((2 * subcore + core) * 2) + (0 + trip * 1)` in 32-bit words. -/
abbrev v10W (i : grid0.Coords) (t : Fin k0_t1_loop.trips) : BitVec 32 :=
  Scalar.addi (Scalar.muli (Scalar.addi (Scalar.muli (BitVec.ofNat 32 (i 1).val) 2#32) (BitVec.ofNat 32 (i 0).val)) 2#32)
    (Scalar.addi 0#32 (Scalar.muli (Scf.iv 0#32 1#32 t) 1#32))

/-- It is the feature, on each of the 32 tiles and both trips. -/
theorem v10W_val : ∀ (i : grid0.Coords) (t : Fin k0_t1_loop.trips), (v10W i t).toNat = featN i t := by decide +kernel

/-- The gather's index is inside the segment scratch. -/
theorem chk1_ok (i : grid0.Coords) (t : Fin k0_t1_loop.trips) : k0_chk1 (broadcast S16 (v10W i t)) := by
  intro a x
  match a with
  | ⟨0, _⟩ =>
    show (v10W i t).toNat < 64
    rw [v10W_val]; exact featN_lt i t

/-! ## The segment scratch gathered at the feature -/

/-- Every lane of the gather reads segment 0's feature `featN i t`. -/
theorem seg_at (i : grid0.Coords) (t : Fin k0_t1_loop.trips) (f14 : S64.Idx → Elt F .f32) (segV : FVec F S128 .f32)
    (hseg : ∀ x : Fin 64, f14 (ix1 x) = segV (ix1 (⟨x.val, by omega⟩ : Fin 128)))
    (h : ∀ a x, ((![broadcast S16 (v10W i t)] : Fin 1 → IVec S16 32) a x).toNat < S64.size a) (x : S16.Idx) :
    loadIdx (F := F) (s := S64) (t := S16) (e := .f32)
        (View.read (Elt F) ((Memref.whole cc0_scratch7 : Memref sig .scVector .vmem S64 .f32).access (Rect.whole cc0_scratch7.ty.shape)) f14)
        ![broadcast S16 (v10W i t)] h x
      = segV (ix1 (⟨featN i t, by have := featN_lt i t; omega⟩ : Fin 128)) := by
  have hk : idxAt (s := S64) (t := S16) ![broadcast S16 (v10W i t)] h x = ix1 (⟨featN i t, featN_lt i t⟩ : Fin 64) := by
    funext a
    match a with
    | ⟨0, _⟩ => exact Fin.ext (v10W_val i t)
  have e : (Rect.whole S64).emb (idxAt (s := S64) (t := S16) ![broadcast S16 (v10W i t)] h x)
      = idxAt (s := S64) (t := S16) ![broadcast S16 (v10W i t)] h x := Rect.emb_whole_apply S64 _
  show f14 ((Rect.whole S64).emb (idxAt (s := S64) (t := S16) ![broadcast S16 (v10W i t)] h x)) = _
  rw [e, hk, hseg]

/-! ## The position scratch after the copy -/

/-- Sixteen lanes from `N` of the position scratch, whole-written with the position table's run from `512 * featN i t`. -/
theorem pos_at (i : grid0.Coords) (t : Fin k0_t1_loop.trips)
    (posV : (Memref.whole main_v4_scv : Memref sig .scVector .hbm S32768 .f32).view.ty.Contents (Elt F)) (f12 : (Memref.whole cc0_scratch5 : Memref sig .scVector .vmem S208 .f32).view.ty.Contents (Elt F)) (N : Nat)
    (inb : ∀ a, (![N] : Fin 1 → Nat) a + S16.size a ≤ S208.size a) (x : S16.Idx) :
    View.readAt (Elt F) (Memref.whole cc0_scratch5 : Memref sig .scVector .vmem S208 .f32).view (Rect.unit (s := S208) ![N] S16.size inb).toLoadRect
        (View.write (Elt F) (Memref.whole cc0_scratch5 : Memref sig .scVector .vmem S208 .f32).view f12
          (ReadAs.same.apply (View.read (Elt F) ((Memref.whole main_v4_scv : Memref sig .scVector .hbm S32768 .f32).slice
            (Rect.unit (s := S32768) (k0_off2 i t) S208.size (k0_off2_inb i t)) (fun _ => rfl)).view posV)) Finset.univ) x
      = posV (ix1 (⟨featN i t * 512 + N + (x 0).val, by
          have := featN_lt i t; have h0 : N + 16 ≤ 208 := inb 0; have hx : (x 0).val < 16 := (x 0).isLt; omega⟩ : Fin 32768)) := by
  have h0 : N + 16 ≤ 208 := inb 0
  have hx : (x 0).val < 16 := (x 0).isLt
  rw [View.readAt_apply]
  change View.read (Elt F) (View.whole cc0_scratch5) (View.write (Elt F) (View.whole cc0_scratch5) f12
      (ReadAs.same.apply (View.read (Elt F) ((Memref.whole main_v4_scv : Memref sig .scVector .hbm S32768 .f32).slice
        (Rect.unit (s := S32768) (k0_off2 i t) S208.size (k0_off2_inb i t)) (fun _ => rfl)).view posV)) Finset.univ)
      ((Rect.unit (s := S208) ![N] S16.size inb).toLoadRect.idx x) = _
  rw [View.write_whole_univ, View.read_whole]
  show View.read (Elt F) ((Memref.whole main_v4_scv : Memref sig .scVector .hbm S32768 .f32).slice
      (Rect.unit (s := S32768) (k0_off2 i t) S208.size (k0_off2_inb i t)) (fun _ => rfl)).view posV
        ((Rect.unit (s := S208) ![N] S16.size inb).toLoadRect.idx x) = _
  rw [pos_read]
  refine congrArg posV (congrArg ix1 (Fin.ext ?_))
  show featN i t * 512 + (N + 1 * (x 0).val) = featN i t * 512 + N + (x 0).val
  omega

end Cert.Proof.Body

end
-- ==== Proof.BiasPays.lean ====
/-
  The thirteen vectors stored into the bias scratch: each is the sum, lane by lane, of its second operand (sixteen
  lanes of the position scratch) and its first (the gathered segment value), in that order.
-/
import proofs.«203565_g79912161509654_cont_9to1_m_411_39_alg».proof.Proof.Gen.KernelIdeal.Skeleton

noncomputable section

namespace Cert.Proof.Body

open Cert.KernelIdeal Cert.KernelIdeal.Gen Idealize.ShloMosaic

variable {F : FTy → Type} [FloatOps F]

theorem pay94_apply (a b : Vec F S16 .f32) (x : S16.Idx) : k0_pay94 a b x = FloatOps.addf (b x) (a x) := rfl
theorem pay95_apply (a b : Vec F S16 .f32) (x : S16.Idx) : k0_pay95 a b x = FloatOps.addf (b x) (a x) := rfl
theorem pay96_apply (a b : Vec F S16 .f32) (x : S16.Idx) : k0_pay96 a b x = FloatOps.addf (b x) (a x) := rfl
theorem pay97_apply (a b : Vec F S16 .f32) (x : S16.Idx) : k0_pay97 a b x = FloatOps.addf (b x) (a x) := rfl
theorem pay98_apply (a b : Vec F S16 .f32) (x : S16.Idx) : k0_pay98 a b x = FloatOps.addf (b x) (a x) := rfl
theorem pay99_apply (a b : Vec F S16 .f32) (x : S16.Idx) : k0_pay99 a b x = FloatOps.addf (b x) (a x) := rfl
theorem pay100_apply (a b : Vec F S16 .f32) (x : S16.Idx) : k0_pay100 a b x = FloatOps.addf (b x) (a x) := rfl
theorem pay101_apply (a b : Vec F S16 .f32) (x : S16.Idx) : k0_pay101 a b x = FloatOps.addf (b x) (a x) := rfl
theorem pay102_apply (a b : Vec F S16 .f32) (x : S16.Idx) : k0_pay102 a b x = FloatOps.addf (b x) (a x) := rfl
theorem pay103_apply (a b : Vec F S16 .f32) (x : S16.Idx) : k0_pay103 a b x = FloatOps.addf (b x) (a x) := rfl
theorem pay104_apply (a b : Vec F S16 .f32) (x : S16.Idx) : k0_pay104 a b x = FloatOps.addf (b x) (a x) := rfl
theorem pay105_apply (a b : Vec F S16 .f32) (x : S16.Idx) : k0_pay105 a b x = FloatOps.addf (b x) (a x) := rfl
theorem pay106_apply (a b : Vec F S16 .f32) (x : S16.Idx) : k0_pay106 a b x = FloatOps.addf (b x) (a x) := rfl

end Cert.Proof.Body

end
-- ==== Proof.BiasFn.lean ====
/-
  The bias scratch of a trip as one function. After its thirteen stores the bias scratch holds, at entry l, the position
  table's feature D at position l (entry 512 D + l of the flattened feature-major table) plus segment 0's feature D, D the
  tile's feature in the trip: each stored vector is, lane by lane, sixteen lanes of the position scratch (the table's run
  from 512 D) plus the segment scratch gathered at D, and the thirteen stores cover the 208 entries.
-/
import proofs.«203565_g79912161509654_cont_9to1_m_411_39_alg».proof.Proof.BiasReads
import proofs.«203565_g79912161509654_cont_9to1_m_411_39_alg».proof.Proof.BiasPays
import proofs.«203565_g79912161509654_cont_9to1_m_411_39_alg».proof.Proof.BiasValue
import Idealize.ShloMosaic.Lib.Writes

noncomputable section

namespace Cert.Proof.Body

open Cert.KernelIdeal Cert.KernelIdeal.Gen Idealize.ShloMosaic Idealize.ShloMosaic.ValueIdx

variable {F : FTy → Type} [FloatOps F]

/-- The bias of the tile's feature in trip `t`: entry `l` is the position table's entry `512 * featN i t + l` plus segment
    0's feature `featN i t`. -/
def biasFn (i : grid0.Coords) (t : Fin k0_t1_loop.trips) (posV : FVec F S32768 .f32) (segV : FVec F S128 .f32) : FVec F S208 .f32 :=
  fun y => FloatOps.addf
    (posV (ix1 (⟨featN i t * 512 + (y 0).val, by have := featN_lt i t; have h : (y 0).val < 208 := (y 0).isLt; omega⟩ : Fin 32768)))
    (segV (ix1 (⟨featN i t, by have := featN_lt i t; omega⟩ : Fin 128)))

/-- The segment scratch gathered at the feature's word, sixteen lanes. -/
abbrev segLane (i : grid0.Coords) (t : Fin k0_t1_loop.trips) (f14 : S64.Idx → Elt F .f32)
    (h : ∀ a x, ((![broadcast S16 (v10W i t)] : Fin 1 → IVec S16 32) a x).toNat < S64.size a) : Vec F S16 .f32 :=
  loadIdx (F := F) (s := S64) (t := S16) (e := .f32)
    (View.read (Elt F) ((Memref.whole cc0_scratch7 : Memref sig .scVector .vmem S64 .f32).access (Rect.whole cc0_scratch7.ty.shape)) f14) ![broadcast S16 (v10W i t)] h

/-- Sixteen lanes from `N` of the position scratch right after the copy of the position table's run landed in it. -/
abbrev posWin (i : grid0.Coords) (t : Fin k0_t1_loop.trips) (posV : FVec F S32768 .f32)
    (f12 : (Memref.whole cc0_scratch5 : Memref sig .scVector .vmem S208 .f32).view.ty.Contents (Elt F)) (N : Nat) (inb : ∀ a, (![N] : Fin 1 → Nat) a + S16.size a ≤ S208.size a) :
    Vec F S16 .f32 :=
  View.readAt (Elt F) (Memref.whole cc0_scratch5 : Memref sig .scVector .vmem S208 .f32).view (Rect.unit (s := S208) ![N] S16.size inb).toLoadRect
    (View.write (Elt F) (Memref.whole cc0_scratch5 : Memref sig .scVector .vmem S208 .f32).view f12
      (ReadAs.same.apply (View.read (Elt F) ((Memref.whole main_v4_scv : Memref sig .scVector .hbm S32768 .f32).slice
        (Rect.unit (s := S32768) (k0_off2 i t) S208.size (k0_off2_inb i t)) (fun _ => rfl)).view posV)) Finset.univ)

/-- One lane of one stored vector is the bias at its entry. -/
theorem bias_lane_eq (i : grid0.Coords) (t : Fin k0_t1_loop.trips) (posV : FVec F S32768 .f32) (segV : FVec F S128 .f32)
    (f12 : (Memref.whole cc0_scratch5 : Memref sig .scVector .vmem S208 .f32).view.ty.Contents (Elt F)) (f14 : S64.Idx → Elt F .f32)
    (hseg : ∀ x : Fin 64, f14 (ix1 x) = segV (ix1 (⟨x.val, by omega⟩ : Fin 128)))
    (h : ∀ a x, ((![broadcast S16 (v10W i t)] : Fin 1 → IVec S16 32) a x).toNat < S64.size a)
    (N : Nat) (inb : ∀ a, (![N] : Fin 1 → Nat) a + S16.size a ≤ S208.size a) (x : S16.Idx) :
    FloatOps.addf (posWin i t posV f12 N inb x) (segLane i t f14 h x)
      = biasFn i t posV segV (ix1 (⟨N + (x 0).val, by
          have h0 : N + 16 ≤ 208 := inb 0; have hx : (x 0).val < 16 := (x 0).isLt; omega⟩ : Fin 208)) := by
  have e1 := pos_at (F := F) i t posV f12 N inb x
  have e2 := seg_at (F := F) i t f14 segV hseg h x
  refine (congrArg₂ (fun a b => FloatOps.addf a b) e1 e2).trans ?_
  unfold biasFn
  refine congrArg (fun a => FloatOps.addf a _) (congrArg posV (congrArg ix1 (Fin.ext ?_)))
  show featN i t * 512 + N + (x 0).val = featN i t * 512 + (N + (x 0).val)
  omega

/-- The bias scratch after the thirteen stores (the last first) is `biasFn`. -/
theorem bias_fn_eq (i : grid0.Coords) (t : Fin k0_t1_loop.trips) (posV : FVec F S32768 .f32) (segV : FVec F S128 .f32)
    (f12 : (Memref.whole cc0_scratch5 : Memref sig .scVector .vmem S208 .f32).view.ty.Contents (Elt F)) (f14 : S64.Idx → Elt F .f32)
    (hseg : ∀ x : Fin 64, f14 (ix1 x) = segV (ix1 (⟨x.val, by omega⟩ : Fin 128)))
    (h : ∀ a x, ((![broadcast S16 (v10W i t)] : Fin 1 → IVec S16 32) a x).toNat < S64.size a)
    (f0 : (Memref.whole cc0_scratch6 : Memref sig .scVector .vmem S208 .f32).view.ty.Contents (Elt F)) :
    (Memref.whole cc0_scratch6 : Memref sig .scVector .vmem S208 .f32).view.writes (Elt F) f0
      [⟨Rect.unit (s := S208) ![192] S16.size inb_S208_S16_192, k0_pay106 (segLane i t f14 h) (posWin i t posV f12 192 inb_S208_S16_192)⟩,
       ⟨Rect.unit (s := S208) ![176] S16.size inb_S208_S16_176, k0_pay105 (segLane i t f14 h) (posWin i t posV f12 176 inb_S208_S16_176)⟩,
       ⟨Rect.unit (s := S208) ![160] S16.size inb_S208_S16_160, k0_pay104 (segLane i t f14 h) (posWin i t posV f12 160 inb_S208_S16_160)⟩,
       ⟨Rect.unit (s := S208) ![144] S16.size inb_S208_S16_144, k0_pay103 (segLane i t f14 h) (posWin i t posV f12 144 inb_S208_S16_144)⟩,
       ⟨Rect.unit (s := S208) ![128] S16.size inb_S208_S16_128, k0_pay102 (segLane i t f14 h) (posWin i t posV f12 128 inb_S208_S16_128)⟩,
       ⟨Rect.unit (s := S208) ![112] S16.size inb_S208_S16_112, k0_pay101 (segLane i t f14 h) (posWin i t posV f12 112 inb_S208_S16_112)⟩,
       ⟨Rect.unit (s := S208) ![96] S16.size inb_S208_S16_96, k0_pay100 (segLane i t f14 h) (posWin i t posV f12 96 inb_S208_S16_96)⟩,
       ⟨Rect.unit (s := S208) ![80] S16.size inb_S208_S16_80, k0_pay99 (segLane i t f14 h) (posWin i t posV f12 80 inb_S208_S16_80)⟩,
       ⟨Rect.unit (s := S208) ![64] S16.size inb_S208_S16_64, k0_pay98 (segLane i t f14 h) (posWin i t posV f12 64 inb_S208_S16_64)⟩,
       ⟨Rect.unit (s := S208) ![48] S16.size inb_S208_S16_48, k0_pay97 (segLane i t f14 h) (posWin i t posV f12 48 inb_S208_S16_48)⟩,
       ⟨Rect.unit (s := S208) ![32] S16.size inb_S208_S16_32, k0_pay96 (segLane i t f14 h) (posWin i t posV f12 32 inb_S208_S16_32)⟩,
       ⟨Rect.unit (s := S208) ![16] S16.size inb_S208_S16_16, k0_pay95 (segLane i t f14 h) (posWin i t posV f12 16 inb_S208_S16_16)⟩,
       ⟨Rect.unit (s := S208) ![0] S16.size inb_S208_S16_0, k0_pay94 (segLane i t f14 h) (posWin i t posV f12 0 inb_S208_S16_0)⟩]
      = biasFn i t posV segV := by
  have hread : ∀ (X : (Memref.whole cc0_scratch6 : Memref sig .scVector .vmem S208 .f32).view.ty.Contents (Elt F)) (j : S208.Idx),
      View.read (Elt F) (Memref.whole cc0_scratch6 : Memref sig .scVector .vmem S208 .f32).view X j = X j := fun _ _ => rfl
  funext y
  obtain ⟨l, rfl⟩ : ∃ l : Fin 208, y = ix1 l := ⟨y 0, eq_ix1 y⟩
  exact (hread _ _).symm.trans
    (bias_pieces (F := F) (Memref.whole cc0_scratch6 : Memref sig .scVector .vmem S208 .f32).view f0 (fun l => biasFn i t posV segV (ix1 l))
      (k0_pay94 (segLane i t f14 h) (posWin i t posV f12 0 inb_S208_S16_0))
      (k0_pay95 (segLane i t f14 h) (posWin i t posV f12 16 inb_S208_S16_16))
      (k0_pay96 (segLane i t f14 h) (posWin i t posV f12 32 inb_S208_S16_32))
      (k0_pay97 (segLane i t f14 h) (posWin i t posV f12 48 inb_S208_S16_48))
      (k0_pay98 (segLane i t f14 h) (posWin i t posV f12 64 inb_S208_S16_64))
      (k0_pay99 (segLane i t f14 h) (posWin i t posV f12 80 inb_S208_S16_80))
      (k0_pay100 (segLane i t f14 h) (posWin i t posV f12 96 inb_S208_S16_96))
      (k0_pay101 (segLane i t f14 h) (posWin i t posV f12 112 inb_S208_S16_112))
      (k0_pay102 (segLane i t f14 h) (posWin i t posV f12 128 inb_S208_S16_128))
      (k0_pay103 (segLane i t f14 h) (posWin i t posV f12 144 inb_S208_S16_144))
      (k0_pay104 (segLane i t f14 h) (posWin i t posV f12 160 inb_S208_S16_160))
      (k0_pay105 (segLane i t f14 h) (posWin i t posV f12 176 inb_S208_S16_176))
      (k0_pay106 (segLane i t f14 h) (posWin i t posV f12 192 inb_S208_S16_192))
      (fun x => (pay94_apply _ _ x).trans (bias_lane_eq i t posV segV f12 f14 hseg h 0 inb_S208_S16_0 x))
      (fun x => (pay95_apply _ _ x).trans (bias_lane_eq i t posV segV f12 f14 hseg h 16 inb_S208_S16_16 x))
      (fun x => (pay96_apply _ _ x).trans (bias_lane_eq i t posV segV f12 f14 hseg h 32 inb_S208_S16_32 x))
      (fun x => (pay97_apply _ _ x).trans (bias_lane_eq i t posV segV f12 f14 hseg h 48 inb_S208_S16_48 x))
      (fun x => (pay98_apply _ _ x).trans (bias_lane_eq i t posV segV f12 f14 hseg h 64 inb_S208_S16_64 x))
      (fun x => (pay99_apply _ _ x).trans (bias_lane_eq i t posV segV f12 f14 hseg h 80 inb_S208_S16_80 x))
      (fun x => (pay100_apply _ _ x).trans (bias_lane_eq i t posV segV f12 f14 hseg h 96 inb_S208_S16_96 x))
      (fun x => (pay101_apply _ _ x).trans (bias_lane_eq i t posV segV f12 f14 hseg h 112 inb_S208_S16_112 x))
      (fun x => (pay102_apply _ _ x).trans (bias_lane_eq i t posV segV f12 f14 hseg h 128 inb_S208_S16_128 x))
      (fun x => (pay103_apply _ _ x).trans (bias_lane_eq i t posV segV f12 f14 hseg h 144 inb_S208_S16_144 x))
      (fun x => (pay104_apply _ _ x).trans (bias_lane_eq i t posV segV f12 f14 hseg h 160 inb_S208_S16_160 x))
      (fun x => (pay105_apply _ _ x).trans (bias_lane_eq i t posV segV f12 f14 hseg h 176 inb_S208_S16_176 x))
      (fun x => (pay106_apply _ _ x).trans (bias_lane_eq i t posV segV f12 f14 hseg h 192 inb_S208_S16_192 x))
      l)

end Cert.Proof.Body

end
-- ==== Proof.Trip.lean ====
/-
  One feature of a tile's work. In trip `t` of its feature loop the tile handles feature `featN L t`: it fetches that
  feature's row of the word table, the position table's entries of the feature, and — chunk by chunk, two buffers
  alternating — the token list from its SparseCore's shared scratch; it forms the bias (position entry plus segment
  entry) once, and for each of the fifty chunks of four positions it looks up the feature of every token of the chunk,
  adds the bias of the position, and copies the 4 × 1024 sums out to the result array's chunk. The copies are in flight
  while the next chunk is computed: two token fetches and two copy-outs at any time in the steady state. `trip_spec`
  says that from the tile's resources between features the trip ends with the same resources and the feature's part of
  the result array at the specified sums (`Spec.scOut`): a run to the first two chunks, the steady-state loop by its
  invariant (TripLoop), and the last two chunks, every copy's delivery read as the function it is.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.LaunchDefs
import proofs.«203565_g79912161509654_cont_9to1_m_411_39_alg».proof.Proof.NestSpec
import proofs.«203565_g79912161509654_cont_9to1_m_411_39_alg».proof.Proof.OutSets
import proofs.«203565_g79912161509654_cont_9to1_m_411_39_alg».proof.Proof.ChunkValue
import proofs.«203565_g79912161509654_cont_9to1_m_411_39_alg».proof.Proof.BiasValue
import proofs.«203565_g79912161509654_cont_9to1_m_411_39_alg».proof.Proof.SliceReads
import proofs.«203565_g79912161509654_cont_9to1_m_411_39_alg».proof.Proof.TripDefs
import proofs.«203565_g79912161509654_cont_9to1_m_411_39_alg».proof.Proof.TripLoop
import proofs.«203565_g79912161509654_cont_9to1_m_411_39_alg».proof.Proof.StageValue
import proofs.«203565_g79912161509654_cont_9to1_m_411_39_alg».proof.Proof.BiasReads
import proofs.«203565_g79912161509654_cont_9to1_m_411_39_alg».proof.Proof.BiasPays
import proofs.«203565_g79912161509654_cont_9to1_m_411_39_alg».proof.Proof.BiasFn
import proofs.«203565_g79912161509654_cont_9to1_m_411_39_alg».proof.Proof.OutPieces
import proofs.«203565_g79912161509654_cont_9to1_m_411_39_alg».proof.Proof.Nest0
import proofs.«203565_g79912161509654_cont_9to1_m_411_39_alg».proof.Proof.Nest1
import proofs.«203565_g79912161509654_cont_9to1_m_411_39_alg».proof.Proof.Nest2
import proofs.«203565_g79912161509654_cont_9to1_m_411_39_alg».proof.Proof.Nest3
import proofs.«203565_g79912161509654_cont_9to1_m_411_39_alg».proof.Proof.Nest4
import proofs.«203565_g79912161509654_cont_9to1_m_411_39_alg».proof.Proof.Nest5

noncomputable section

namespace Cert.Proof.Body

open Cert.KernelIdeal Cert.KernelIdeal.Gen Cert.Proof.LaunchKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN pointsTo_toks pointsTo_toks_split pointsTo_toks_join Flight_mono)

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

/-- The tile's number as the kernel computes it: twice the subcore's plus the SparseCore's. -/
abbrev widW (L : grid0.Coords) : BitVec 32 := Scalar.addi (Scalar.muli (BitVec.ofNat 32 (L 1).val) 2#32) (BitVec.ofNat 32 (L 0).val)

/-- What a tile holds between two features, beside its part of the result: leave to wait, what it owes, its six DMA
    semaphores at rest, read shares of the word table, the position table and the shared token list, its seven work
    buffers at any contents and the segment scratch at the segment table's first row. -/
def tripFrame (d : Dev nD) (L : grid0.Coords) (O : CellTallies nD τ sig (HIx 1)) (W : Waits sig (HIx 1)) (q3 q4 q15 : PosShare TreeShare)
    (embV : Buf (Elt F) ((a3).view.loc (thr d L))) (posV : Buf (Elt F) ((a4).view.loc (thr d L))) (shV : Buf (Elt F) ((a15).view.loc (thr d L)))
    (f14 : Buf (Elt F) (((a14).access (.whole S64)).loc (thr d L))) : sProp 𝕄 :=
  iprop(Transfers.MayWaits (thr d L) (default : HIx 1) O
    ∗ (∃ W', ⌜∀ p ∈ W', p ∈ W ∨ p.2 = none⌝ ∗ owes (thr d L) O W')
    ∗ semVal (thr d L, SemLoc.dma cc0_scratch13.sem) 0 ∗ semVal (thr d L, SemLoc.dma cc0_scratch9.sem) 0 ∗ semVal (thr d L, SemLoc.dma cc0_scratch10.sem) 0
    ∗ semVal (thr d L, SemLoc.dma cc0_scratch11.sem) 0 ∗ semVal (thr d L, SemLoc.dma cc0_scratch12.sem) 0 ∗ semVal (thr d L, SemLoc.dma cc0_scoped2.sem) 0
    ∗ ((a3).view.loc (thr d L) ↦{q3} embV) ∗ ((a4).view.loc (thr d L) ↦{q4} posV) ∗ ((a15).view.loc (thr d L) ↦{q15} shV)
    ∗ (∃ f, (a7).view.loc (thr d L) ↦{fullShare} f) ∗ (∃ f, (a8).view.loc (thr d L) ↦{fullShare} f) ∗ (∃ f, (a9).view.loc (thr d L) ↦{fullShare} f)
    ∗ (∃ f, (a10).view.loc (thr d L) ↦{fullShare} f) ∗ (∃ f, (a11).view.loc (thr d L) ↦{fullShare} f)
    ∗ (∃ f, (a12).view.loc (thr d L) ↦{fullShare} f) ∗ (∃ f, (a13).view.loc (thr d L) ↦{fullShare} f)
    ∗ (((a14).access (.whole S64)).loc (thr d L) ↦{fullShare} f14))

theorem pay1_zero : ∀ x, ((k0_pay1 : IVec S16 32) x).toNat < 1 := fun _ => Nat.zero_lt_one

/-- A wait recorded at the index of no call keeps the recorded waits within what the launch allows. -/
theorem waits_ok {W W1 : Waits sig (HIx 1)} (s : SemLoc sig) (h : ∀ p ∈ W1, p ∈ W ∨ p.2 = none) :
    ∀ p ∈ insert (s, (default : HIx 1)) W1, p ∈ W ∨ p.2 = none := by
  intro p hp
  rcases Finset.mem_insert.mp hp with rfl | hp
  · exact .inr rfl
  · exact h p hp

/-- The row scratch once the word table's row of feature `featN L t` has landed in it. -/
def rowFn (L : grid0.Coords) (t : Fin k0_t1_loop.trips) (embV : FVec F S64x100000 .f32) : FVec F S1x100000 .f32 :=
  fun y => embV (ValueIdx.ix2 (⟨featN L t, featN_lt L t⟩ : Fin 64) (y 1))

/-- A share as two read tokens and the rest. -/
theorem toks2 {ℓ : Loc nD τ sig} {S : Finset (Idx ℓ)} {f : Buf (Elt F) ℓ} (q : PosShare TreeShare) :
    (ℓ ↦[S]{q} f : sProp 𝕄) ⊣⊢ iprop((ℓ ↦[S]{shareDrop q 2} f) ∗ (ℓ ↦[S]{shareTokN q 0} f) ∗ (ℓ ↦[S]{shareTokN q 1} f)) := by
  have h : (ℓ ↦[S]{q} f : sProp 𝕄) ⊣⊢ iprop((ℓ ↦[S]{shareDrop q 2} f) ∗ BI.bigSep Finset.univ (fun i : Fin 2 => ℓ ↦[S]{shareTok q 2 i} f)) := pointsTo_toks q 2
  rw [show (Finset.univ : Finset (Fin 2)) = {0, 1} from by decide, SparseCore.bigSep_insert' (by decide), bigSep_singleton] at h
  exact h

section TripHelpers
variable (d : Dev nD) (L : grid0.Coords) (t : Fin k0_t1_loop.trips)
theorem toSlice13 (hp : 0 + 4 ≤ 200) (g : Buf (Elt F) ((a6).view.loc (thr d L))) :
    ((a6).view.loc (thr d L) ↦[chunkSet L t 0 hp]{fullShare} g : sProp 𝕄) ⊢ (((a6).slice (Rect.unit (s := S200x8x8x8x128) (k0_off13 L t) S4x1x8x1x128.size (k0_off13_inb L t)) (fun _ => rfl)).view.loc (thr d L) ↦[((a6).slice (Rect.unit (s := S200x8x8x8x128) (k0_off13 L t) S4x1x8x1x128.size (k0_off13_inb L t)) (fun _ => rfl)).view.set]{fullShare} g) := by
  rw [slice13_set]
theorem toSlice23 (hp : 4 + 4 ≤ 200) (g : Buf (Elt F) ((a6).view.loc (thr d L))) :
    ((a6).view.loc (thr d L) ↦[chunkSet L t 4 hp]{fullShare} g : sProp 𝕄) ⊢ (((a6).slice (Rect.unit (s := S200x8x8x8x128) (k0_off23 L t) S4x1x8x1x128.size (k0_off23_inb L t)) (fun _ => rfl)).view.loc (thr d L) ↦[((a6).slice (Rect.unit (s := S200x8x8x8x128) (k0_off23 L t) S4x1x8x1x128.size (k0_off23_inb L t)) (fun _ => rfl)).view.set]{fullShare} g) := by
  rw [slice23_set]
theorem toSlice59 (hp : 192 + 4 ≤ 200) (g : Buf (Elt F) ((a6).view.loc (thr d L))) :
    ((a6).view.loc (thr d L) ↦[chunkSet L t 192 hp]{fullShare} g : sProp 𝕄) ⊢ (((a6).slice (Rect.unit (s := S200x8x8x8x128) (k0_off59 L t) S4x1x8x1x128.size (k0_off59_inb L t)) (fun _ => rfl)).view.loc (thr d L) ↦[((a6).slice (Rect.unit (s := S200x8x8x8x128) (k0_off59 L t) S4x1x8x1x128.size (k0_off59_inb L t)) (fun _ => rfl)).view.set]{fullShare} g) := by
  rw [slice59_set]
theorem toSlice70 (hp : 196 + 4 ≤ 200) (g : Buf (Elt F) ((a6).view.loc (thr d L))) :
    ((a6).view.loc (thr d L) ↦[chunkSet L t 196 hp]{fullShare} g : sProp 𝕄) ⊢ (((a6).slice (Rect.unit (s := S200x8x8x8x128) (k0_off70 L t) S4x1x8x1x128.size (k0_off70_inb L t)) (fun _ => rfl)).view.loc (thr d L) ↦[((a6).slice (Rect.unit (s := S200x8x8x8x128) (k0_off70 L t) S4x1x8x1x128.size (k0_off70_inb L t)) (fun _ => rfl)).view.set]{fullShare} g) := by
  rw [slice70_set]
end TripHelpers

/-- Nothing is written yet. -/
theorem doneEmpty (d : Dev nD) (L : grid0.Coords) (t : Fin k0_t1_loop.trips) (G : Buf (Elt F) ((a6).view.loc (thr d L))) :
    ⊢ ((a6).view.loc (thr d L) ↦[doneSet L t 0]{fullShare} G : sProp 𝕄) := by
  rw [done_zero L t, pointsTo_empty]
  exact .rfl

set_option maxHeartbeats 64000000 in
theorem trip_spec (d : Dev nD) (L : grid0.Coords) (O : CellTallies nD τ sig (HIx 1)) (W : Waits sig (HIx 1)) (t : Fin k0_t1_loop.trips) (q3 q4 q15 : PosShare TreeShare)
    (embV : Buf (Elt F) ((a3).view.loc (thr d L))) (posV : Buf (Elt F) ((a4).view.loc (thr d L))) (shV : Buf (Elt F) ((a15).view.loc (thr d L)))
    (hsh : ∀ i, (shV i).toNat < 100000)
    (f14 : Buf (Elt F) (((a14).access (.whole S64)).loc (thr d L))) (segV : FVec F S128 .f32)
    (hseg : ∀ x : Fin 64, f14 (ValueIdx.ix1 x) = segV (ValueIdx.ix1 (⟨x.val, by omega⟩ : Fin 128))) :
    iprop(tripFrame d L O W q3 q4 q15 embV posV shV f14 ∗ (∃ g, (a6).view.loc (thr d L) ↦[featSet L t]{fullShare} g))
      ⊢ wp frame (wpE (defs₀ (F := F)) 𝒱₀ (thr d L) none) Set.univ
          (k0_t1_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 (widW L) t ())
          (fun _ => iprop(tripFrame d L O W q3 q4 q15 embV posV shV f14
            ∗ ((a6).view.loc (thr d L) ↦[featSet L t]{fullShare} Cert.Proof.Spec.scOut shV embV posV segV))) := by
  have ht : t.val < 2 := trips1_lt t
  have b0 : 0 + 4 ≤ 200 := by norm_num
  have b4 : 4 + 4 ≤ 200 := by norm_num
  have b192 : 192 + 4 ≤ 200 := by norm_num
  have b196 : 196 + 4 ≤ 200 := by norm_num
  have hG : ∀ (c p : Nat) (hp : p + 4 ≤ 200), p = 4 * c → ∀ y, stageOut (rowFn L t embV) shV (biasFn L t posV segV) c y = Cert.Proof.Spec.scOut shV embV posV segV ((chunkRect L t p hp).emb y) :=
    stage_value L t shV embV posV segV (rowFn L t embV) (fun _ => rfl) (biasFn L t posV segV) (fun _ _ => rfl)
  unfold tripFrame k0_t1_body
  iintro ⟨⟨#Hmw, ⟨%W', %hW', HO⟩, S20, S16, S17, S18, S19, Sr2, H3, H4, H15, ⟨%f7, H7⟩, ⟨%f8, H8⟩, ⟨%f9, H9⟩, ⟨%f10, H10⟩, ⟨%f11, H11⟩, ⟨%f12, H12⟩, ⟨%f13, H13⟩, H14⟩, ⟨%g, Hout⟩⟩
  -- the shared list's share: a read token per token buffer, and the rest
  ihave Hs := (toks2 (F := F) q15).1 $$ H15
  icases Hs with ⟨H15r, H15a, H15b⟩
  ihave Hout := (Entails.of_eq (congrArg (fun S => ((a6).view.loc (thr d L) ↦[S]{fullShare} g : sProp 𝕄)) (rem_zero L t).symm)) $$ Hout
  sl_exec (disch := exact chk1_ok L t)
  iapply (SparseCore.wp_vectorLoadIdx 𝒱₀ (thr d L) none Set.univ (base := a14) (S := Finset.univ) (q := fullShare) (Finset.subset_univ _)) $$ H14; iintro H14
  sl_exec
  -- the row, bias and first token buffers as the functions they hold
  have e7 : View.write (Elt F) (a7).view f7 (trip_spec.sl.dma0 d L t embV) Finset.univ = rowFn L t embV :=
    (View.write_whole_univ _ _ _).trans (funext (row_read L t embV))
  have e8 : View.write (Elt F) (a8).view f8 (trip_spec.sl.dma0_1 d L shV) Finset.univ = tokChunk shV 0 :=
    (View.write_whole_univ _ _ _).trans (tok_read_lit 0 0 _ rfl shV)
  have e13 : (a13).view.writes (Elt F) (a13).view.junk (trip_spec.sl.H13_13 d L t posV f14 f12) = biasFn L t posV segV :=
    bias_fn_eq L t posV segV f12 f14 hseg (chk1_ok L t) _
  rw [e7, e8, e13]
  -- chunk 0's sums
  iapply (wp_seq_spec (nest0' d L k0_pay1 pay1_zero t _ _ _ _ _)) $$ [H8 H7 H13 H10]
  · isplitl [H8]; · iexact H8
    isplitl [H7]; · iexact H7
    isplitl [H13]; · iexact H13
    isplitl [H10]; · iexact H10
    ipureintro; exact tokChunk_lt shV hsh _
  iintro %_ ⟨H8, H7, H13, H10⟩
  rw [nestG_stage (rowFn L t embV) shV (biasFn L t posV segV) 0 0 (by norm_num) rfl]
  ihave Hc := (carveChunk d L t 0 b0 g) $$ Hout
  icases Hc with ⟨Hc0, Hout⟩
  ihave Hc := (carveChunk d L t 4 b4 g) $$ Hout
  icases Hc with ⟨Hc1, Hout⟩
  ihave Hc0 := (toSlice13 d L t b0 g) $$ Hc0
  ihave Hc1 := (toSlice23 d L t b4 g) $$ Hc1
  sl_exec
  have e9 : View.write (Elt F) (a9).view f9 (trip_spec.sl.dma0_2 d L shV) Finset.univ = tokChunk shV 1 :=
    (View.write_whole_univ _ _ _).trans (tok_read_lit 4096 1 _ rfl shV)
  rw [e9]
  iapply (wp_seq_spec (nest1' d L k0_pay1 pay1_zero t _ _ _ _ _)) $$ [H9 H7 H13 H11]
  · isplitl [H9]; · iexact H9
    isplitl [H7]; · iexact H7
    isplitl [H13]; · iexact H13
    isplitl [H11]; · iexact H11
    ipureintro; exact tokChunk_lt shV hsh _
  iintro %_ ⟨H9, H7, H13, H11⟩
  rw [nestG_stage (rowFn L t embV) shV (biasFn L t posV segV) 1 4 (by norm_num) rfl]
  sl_exec
  -- at the loop: the four copies in flight, in the invariant's terms
  ihave S16 := (Flight_mono (EC := countersEmb) (c := thr d L) (sep_mono (Entails.of_eq (congrArg (fun f => ((a8).view.loc (thr d L) ↦{fullShare} f : sProp 𝕄)) ((View.write_whole_univ _ _ _).trans (tok_read_lit 8192 2 _ rfl shV)))) .rfl)) $$ S16
  ihave S17 := (Flight_mono (EC := countersEmb) (c := thr d L) (sep_mono (Entails.of_eq (congrArg (fun f => ((a9).view.loc (thr d L) ↦{fullShare} f : sProp 𝕄)) ((View.write_whole_univ _ _ _).trans (tok_read_lit 12288 3 _ rfl shV)))) .rfl)) $$ S17
  ihave S18 := (Flight_mono (EC := countersEmb) (c := thr d L) (sep_mono (Entails.of_eq (outPiece13 d L t b0 g (Cert.Proof.Spec.scOut shV embV posV segV) (trip_spec.sl.dma0_4 d L t embV posV shV segV) (fun y => hG 0 0 b0 rfl y))) .rfl)) $$ S18
  ihave S19 := (Flight_mono (EC := countersEmb) (c := thr d L) (sep_mono (Entails.of_eq (outPiece23 d L t b4 g (Cert.Proof.Spec.scOut shV embV posV segV) (trip_spec.sl.dma0_6 d L t embV posV shV segV) (fun y => hG 1 4 b4 rfl y))) .rfl)) $$ S19
  ihave Hdone := (doneEmpty d L t (Cert.Proof.Spec.scOut shV embV posV segV))
  have h23 : Scf.trips k0_t6_loop.lb k0_t6_loop.ub k0_t6_loop.st = 23 := by decide
  sl_for (inv6 d L t O W q3 q4 q15 embV posV shV (rowFn L t embV) (biasFn L t posV segV) f14 (Cert.Proof.Spec.scOut shV embV posV segV) g) $$ [HO S20 Sr2 H3 H4 H12 H14 H7 H13 H15r S16 H15a S17 H15b S18 H10 S19 H11 Hout Hdone]
  case region =>
    intro u _
    exact t6_region d L t O W q3 q4 q15 embV posV shV hsh (rowFn L t embV) (biasFn L t posV segV) f14 (Cert.Proof.Spec.scOut shV embV posV segV) g hG k0_pay1 pay1_zero _ u
  · unfold inv6
    isplitr; · iexact Hmw
    isplitl [HO]
    · iexists _; isplitr; swap; · iexact HO
      ipureintro; intro p hp
      simp only [Finset.mem_insert] at hp
      rcases hp with rfl | rfl | rfl | rfl | hp
      · exact .inr rfl
      · exact .inr rfl
      · exact .inr rfl
      · exact .inr rfl
      · exact hW' p hp
    isplitl [S20]; · iexact S20
    isplitl [Sr2]; · iexact Sr2
    isplitl [H3]; · iexact H3
    isplitl [H4]; · iexact H4
    isplitl [H12]; · iexists _; iexact H12
    isplitl [H14]; · iexact H14
    isplitl [H7]; · iexact H7
    isplitl [H13]; · iexact H13
    isplitl [H15r]; · iexact H15r
    isplitl [S16 H15a]
    · iexists _
      isplitl [S16]; · iexact S16
      iexact H15a
    isplitl [S17 H15b]
    · iexists _
      isplitl [S17]; · iexact S17
      iexact H15b
    isplitl [S18]; · iexact S18
    isplitl [H10]; · iexact H10
    isplitl [S19]; · iexact S19
    isplitl [H11]; · iexact H11
    isplitl [Hout]; · iexact Hout
    iexact Hdone
  iintro %_ HI
  rw [h23]
  unfold inv6
  icases HI with ⟨-, ⟨%W2, %hW2, HO⟩, S20, Sr2, H3, H4, ⟨%f12', H12⟩, H14, H7, H13, H15r, ⟨%A, S16, H15a⟩, ⟨%B, S17, H15b⟩, S18, H10, S19, H11, Hout, Hdone2⟩
  sl_exec
  ihave Hd := (joinDone d L t (8 * 23) (by norm_num) (Cert.Proof.Spec.scOut shV embV posV segV)) $$ [Hdone2 S18_dst]
  · isplitl [Hdone2] <;> iassumption
  -- chunk 48's sums
  iapply (wp_seq_spec (nest4' d L k0_pay1 pay1_zero t _ _ _ _ _)) $$ [S16_dst H7 H13 H10]
  · isplitl [S16_dst]; · iexact S16_dst
    isplitl [H7]; · iexact H7
    isplitl [H13]; · iexact H13
    isplitl [H10]; · iexact H10
    ipureintro; exact tokChunk_lt shV hsh _
  iintro %_ ⟨H8, H7, H13, H10⟩
  rw [nestG_stage (rowFn L t embV) shV (biasFn L t posV segV) (2 * 23 + 2) 192 (by norm_num) (by norm_num)]
  ihave Hout := (remCast d L t (show 8 * 23 + 8 = 192 from rfl) g) $$ Hout
  ihave Hc := (carveChunk d L t 192 b192 g) $$ Hout
  icases Hc with ⟨Hc2, Hout⟩
  ihave Hc2 := (toSlice59 d L t b192 g) $$ Hc2
  sl_exec
  ihave Hd := (joinDone d L t (8 * 23 + 4) (by norm_num) (Cert.Proof.Spec.scOut shV embV posV segV)) $$ [Hd S19_dst]
  · isplitl [Hd] <;> iassumption
  -- chunk 49's sums
  iapply (wp_seq_spec (nest5' d L k0_pay1 pay1_zero t _ _ _ _ _)) $$ [S17_dst H7 H13 H11]
  · isplitl [S17_dst]; · iexact S17_dst
    isplitl [H7]; · iexact H7
    isplitl [H13]; · iexact H13
    isplitl [H11]; · iexact H11
    ipureintro; exact tokChunk_lt shV hsh _
  iintro %_ ⟨H9, H7, H13, H11⟩
  rw [nestG_stage (rowFn L t embV) shV (biasFn L t posV segV) (2 * 23 + 3) 196 (by norm_num) (by norm_num)]
  ihave Hout := (remCast d L t (show 192 + 4 = 196 from rfl) g) $$ Hout
  ihave Hc := (carveChunk d L t 196 b196 g) $$ Hout
  icases Hc with ⟨Hc3, Hout⟩
  ihave Hc3 := (toSlice70 d L t b196 g) $$ Hc3
  sl_exec
  -- the last two chunks at the specified values, joined to what is done: the feature's whole part
  ihave Hc2 := (Entails.of_eq (outPiece59 d L t b192 g (Cert.Proof.Spec.scOut shV embV posV segV) (trip_spec.sl.dma0_8 d L t embV posV shV segV) (fun y => hG (2 * 23 + 2) 192 b192 (by norm_num) y))) $$ Hc2
  ihave Hc3 := (Entails.of_eq (outPiece70 d L t b196 g (Cert.Proof.Spec.scOut shV embV posV segV) (trip_spec.sl.dma0_9 d L t embV posV shV segV) (fun y => hG (2 * 23 + 3) 196 b196 (by norm_num) y))) $$ Hc3
  ihave Hd := (doneCast d L t (show 8 * 23 + 4 + 4 = 192 from rfl) (Cert.Proof.Spec.scOut shV embV posV segV)) $$ Hd
  ihave Hd := (joinDone d L t 192 b192 (Cert.Proof.Spec.scOut shV embV posV segV)) $$ [Hd Hc2]
  · isplitl [Hd] <;> iassumption
  ihave Hd := (doneCast d L t (show 192 + 4 = 196 from rfl) (Cert.Proof.Spec.scOut shV embV posV segV)) $$ Hd
  ihave Hd := (joinDone d L t 196 b196 (Cert.Proof.Spec.scOut shV embV posV segV)) $$ [Hd Hc3]
  · isplitl [Hd] <;> iassumption
  ihave Hd := (doneCast d L t (show 196 + 4 = 200 from rfl) (Cert.Proof.Spec.scOut shV embV posV segV)) $$ Hd
  ihave Hd := (Entails.of_eq (congrArg (fun S => ((a6).view.loc (thr d L) ↦[S]{fullShare} (Cert.Proof.Spec.scOut shV embV posV segV) : sProp 𝕄)) (done_200 L t))) $$ Hd
  ihave H15 := (toks2 (F := F) q15).2 $$ [H15r H15a H15b]
  · isplitl [H15r]; · iexact H15r
    isplitl [H15a]; · iexact H15a
    iexact H15b
  sl_step
  isplitr [Hd]; swap; · iexact Hd
  isplitr; · iexact Hmw
  isplitl [HO]
  · iexists _; isplitr; swap; · iexact HO
    ipureintro
    exact waits_ok _ (waits_ok _ (waits_ok _ (waits_ok _ (waits_ok _ (waits_ok _ hW2)))))
  isplitl [S20]; · iexact S20
  isplitl [S16]; · iexact S16
  isplitl [S17]; · iexact S17
  isplitl [S18]; · iexact S18
  isplitl [S19]; · iexact S19
  isplitl [Sr2]; · iexact Sr2
  isplitl [H3]; · iexact H3
  isplitl [H4]; · iexact H4
  isplitl [H15]; · iexact H15
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexact H14

end Cert.Proof.Body
end
-- ==== Proof.Body.lean ====
/-
  One tile's task, from what the launch hands it to what it hands back.

  Tile 0 of a SparseCore copies the token ids into the SparseCore's shared scratch; every tile copies the segment
  table's first row into its segment scratch; the tiles meet at the subcore barrier, where tile 0 hands each tile a read
  share of the filled shared scratch; then the tile runs its two features, each filling that feature's entries of the
  result with the specified sums; at the end it returns its read shares, its entries of the result, its share of the shared
  scratch, and its scoped storage.
-/
import proofs.«203565_g79912161509654_cont_9to1_m_411_39_alg».proof.Proof.Trip

noncomputable section

namespace Cert.Proof.Body

open Cert.KernelIdeal Cert.KernelIdeal.Gen Cert.Proof.LaunchKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.KernelIdeal.main_v1_scv : Memref Cert.KernelIdeal.sig Kind.scVector Space.hbm Cert.KernelIdeal.S204800 EltTy.i32)
local notation "a3" => (Memref.whole Cert.KernelIdeal.main_v2_scv : Memref Cert.KernelIdeal.sig Kind.scVector Space.hbm Cert.KernelIdeal.S64x100000 EltTy.f32)
local notation "a4" => (Memref.whole Cert.KernelIdeal.main_v4_scv : Memref Cert.KernelIdeal.sig Kind.scVector Space.hbm Cert.KernelIdeal.S32768 EltTy.f32)
local notation "a5" => (Memref.whole Cert.KernelIdeal.main_v5_scv : Memref Cert.KernelIdeal.sig Kind.scVector Space.hbm Cert.KernelIdeal.S128 EltTy.f32)
local notation "a6" => (Memref.whole Cert.KernelIdeal.main_v6_scv : Memref Cert.KernelIdeal.sig Kind.scVector Space.hbm Cert.KernelIdeal.S200x8x8x8x128 EltTy.f32)
local notation "a7" => (Memref.whole Cert.KernelIdeal.cc0_scratch0 : Memref Cert.KernelIdeal.sig Kind.scVector Space.vmem Cert.KernelIdeal.S1x100000 EltTy.f32)
local notation "a8" => (Memref.whole Cert.KernelIdeal.cc0_scratch1 : Memref Cert.KernelIdeal.sig Kind.scVector Space.vmem Cert.KernelIdeal.S4096 EltTy.i32)
local notation "a9" => (Memref.whole Cert.KernelIdeal.cc0_scratch2 : Memref Cert.KernelIdeal.sig Kind.scVector Space.vmem Cert.KernelIdeal.S4096 EltTy.i32)
local notation "a10" => (Memref.whole Cert.KernelIdeal.cc0_scratch3 : Memref Cert.KernelIdeal.sig Kind.scVector Space.vmem Cert.KernelIdeal.S4x1x8x1x128 EltTy.f32)
local notation "a11" => (Memref.whole Cert.KernelIdeal.cc0_scratch4 : Memref Cert.KernelIdeal.sig Kind.scVector Space.vmem Cert.KernelIdeal.S4x1x8x1x128 EltTy.f32)
local notation "a12" => (Memref.whole Cert.KernelIdeal.cc0_scratch5 : Memref Cert.KernelIdeal.sig Kind.scVector Space.vmem Cert.KernelIdeal.S208 EltTy.f32)
local notation "a13" => (Memref.whole Cert.KernelIdeal.cc0_scratch6 : Memref Cert.KernelIdeal.sig Kind.scVector Space.vmem Cert.KernelIdeal.S208 EltTy.f32)
local notation "a14" => (Memref.whole Cert.KernelIdeal.cc0_scratch7 : Memref Cert.KernelIdeal.sig Kind.scVector Space.vmem Cert.KernelIdeal.S64 EltTy.f32)
local notation "a15" => (Memref.whole Cert.KernelIdeal.cc0_scratch8 : Memref Cert.KernelIdeal.sig Kind.scVector Space.shared Cert.KernelIdeal.S204800 EltTy.i32)
local notation "hW" => Memref.isWhole_whole _

variable (m : (ℓ : Loc nD τ sig) → Buf (Elt F) ℓ)

/-! ## The feature loop runs twice; tile 0 is the tile whose subcore number is 0 -/

theorem trips_eq : k0_t1_loop.trips = 2 := by decide

theorem head_cond : ∀ s : Fin 16, (Scalar.cmpi .ne (Scalar.extui (Scalar.cmpi .eq (BitVec.ofNat 32 s.val) 0#32)) 0#32 = 1#1) ↔ s.val = 0 := by decide

/-! ## The tile's own semaphores and buffers -/

omit [FloatOps F] in
/-- A tile's own semaphores: its eight DMA semaphores. -/
theorem ownSems0_V8 (d : Dev nD) (L : grid0.Coords) :
    (ownSems0 (thr d L) : sProp 𝕄)
      = iprop(semVal (thr d L, SemLoc.dma cc0_scratch9.sem) 0 ∗ semVal (thr d L, SemLoc.dma cc0_scratch10.sem) 0 ∗ semVal (thr d L, SemLoc.dma cc0_scratch11.sem) 0
          ∗ semVal (thr d L, SemLoc.dma cc0_scratch12.sem) 0 ∗ semVal (thr d L, SemLoc.dma cc0_scratch13.sem) 0 ∗ semVal (thr d L, SemLoc.dma cc0_scoped0.sem) 0
          ∗ semVal (thr d L, SemLoc.dma cc0_scoped1.sem) 0 ∗ semVal (thr d L, SemLoc.dma cc0_scoped2.sem) 0) := by
  rw [SparseCore.Cfg.ownSems0_eq]
  show bigSep (Finset.univ.filter fun sm : SemLoc sig => (sm.isScoped Kind.scVector : Prop)) (fun sm => (semVal (thr d L, sm) 0 : sProp 𝕄)) = _
  rw [show (Finset.univ.filter fun sm : SemLoc sig => (sm.isScoped Kind.scVector : Prop))
      = {SemLoc.dma cc0_scratch9.sem, SemLoc.dma cc0_scratch10.sem, SemLoc.dma cc0_scratch11.sem, SemLoc.dma cc0_scratch12.sem, SemLoc.dma cc0_scratch13.sem,
          SemLoc.dma cc0_scoped0.sem, SemLoc.dma cc0_scoped1.sem, SemLoc.dma cc0_scoped2.sem} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tile's eight scratch buffers, by number. -/
abbrev scrRef : Fin 8 → Ref sig .scVector :=
  ![cc0_scratch0, cc0_scratch1, cc0_scratch2, cc0_scratch3, cc0_scratch4, cc0_scratch5, cc0_scratch6, cc0_scratch7]

omit [FloatOps F] in
/-- Two of a tile's scratch buffers of different numbers are different buffers. -/
theorem bref_ne : ∀ (c : Fin τ.nSC) (s : Fin τ.nSub) (i j : Fin 8), i ≠ j →
    (Proc.devRef (Proc.scVector c s) (scrRef i) : DevRef τ sig) ≠ Proc.devRef (Proc.scVector c s) (scrRef j) := by decide +kernel

omit [FloatOps F] in
/-- A tile's own buffers: its eight scratch buffers, each whole at some contents, and the rest. -/
theorem ownBufs_V8 (d : Dev nD) (L : grid0.Coords) :
    (ownBufs (thr d L) : sProp 𝕄)
      = iprop((∃ f, (a7).view.loc (thr d L) ↦{fullShare} f)
          ∗ (∃ f, (a8).view.loc (thr d L) ↦{fullShare} f)
          ∗ (∃ f, (a9).view.loc (thr d L) ↦{fullShare} f)
          ∗ (∃ f, (a10).view.loc (thr d L) ↦{fullShare} f)
          ∗ (∃ f, (a11).view.loc (thr d L) ↦{fullShare} f)
          ∗ (∃ f, (a12).view.loc (thr d L) ↦{fullShare} f)
          ∗ (∃ f, (a13).view.loc (thr d L) ↦{fullShare} f)
          ∗ (∃ f, (a14).view.loc (thr d L) ↦{fullShare} f)
          ∗ bigSep (((((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)).erase (Proc.devRef (Proc.scVector (cV L) (jV L)) (cc0_scratch5 : Ref sig .scVector) : DevRef τ sig)).erase (Proc.devRef (Proc.scVector (cV L) (jV L)) (cc0_scratch6 : Ref sig .scVector) : DevRef τ sig)).erase (Proc.devRef (Proc.scVector (cV L) (jV L)) (cc0_scratch7 : Ref sig .scVector) : DevRef τ sig))
              fun b => iprop(∃ f, ((d, b) : Loc nD τ sig) ↦{fullShare} f)) := by
  unfold SparseCore.Cfg.ownBufs
  rw [SparseCore.bigSep_erase' (show (Proc.devRef (Proc.scVector (cV L) (jV L)) (cc0_scratch0 : Ref sig .scVector) : DevRef τ sig) ∈ (ownRefs (τ := τ) (sig := sig) (Proc.scVector (cV L) (jV L))) from (SparseCore.Cfg.mem_ownRefs_of_owner (p := Proc.scVector (cV L) (jV L)) (b := (Proc.devRef (Proc.scVector (cV L) (jV L)) (cc0_scratch0 : Ref sig .scVector) : DevRef τ sig)) rfl)),
    SparseCore.bigSep_erase' (show (Proc.devRef (Proc.scVector (cV L) (jV L)) (cc0_scratch1 : Ref sig .scVector) : DevRef τ sig) ∈ ((ownRefs (τ := τ) (sig := sig) (Proc.scVector (cV L) (jV L))).erase (Proc.devRef (Proc.scVector (cV L) (jV L)) (cc0_scratch0 : Ref sig .scVector) : DevRef τ sig)) from (Finset.mem_erase.mpr ⟨bref_ne (cV L) (jV L) 1 0 (by decide), (SparseCore.Cfg.mem_ownRefs_of_owner (p := Proc.scVector (cV L) (jV L)) (b := (Proc.devRef (Proc.scVector (cV L) (jV L)) (cc0_scratch1 : Ref sig .scVector) : DevRef τ sig)) rfl)⟩)),
    SparseCore.bigSep_erase' (show (Proc.devRef (Proc.scVector (cV L) (jV L)) (cc0_scratch2 : Ref sig .scVector) : DevRef τ sig) ∈ (((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)) from (Finset.mem_erase.mpr ⟨bref_ne (cV L) (jV L) 2 1 (by decide), (Finset.mem_erase.mpr ⟨bref_ne (cV L) (jV L) 2 0 (by decide), (SparseCore.Cfg.mem_ownRefs_of_owner (p := Proc.scVector (cV L) (jV L)) (b := (Proc.devRef (Proc.scVector (cV L) (jV L)) (cc0_scratch2 : Ref sig .scVector) : DevRef τ sig)) rfl)⟩)⟩)),
    SparseCore.bigSep_erase' (show (Proc.devRef (Proc.scVector (cV L) (jV L)) (cc0_scratch3 : Ref sig .scVector) : DevRef τ sig) ∈ ((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)) from (Finset.mem_erase.mpr ⟨bref_ne (cV L) (jV L) 3 2 (by decide), (Finset.mem_erase.mpr ⟨bref_ne (cV L) (jV L) 3 1 (by decide), (Finset.mem_erase.mpr ⟨bref_ne (cV L) (jV L) 3 0 (by decide), (SparseCore.Cfg.mem_ownRefs_of_owner (p := Proc.scVector (cV L) (jV L)) (b := (Proc.devRef (Proc.scVector (cV L) (jV L)) (cc0_scratch3 : Ref sig .scVector) : DevRef τ sig)) rfl)⟩)⟩)⟩)),
    SparseCore.bigSep_erase' (show (Proc.devRef (Proc.scVector (cV L) (jV L)) (cc0_scratch4 : Ref sig .scVector) : DevRef τ sig) ∈ (((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)) from (Finset.mem_erase.mpr ⟨bref_ne (cV L) (jV L) 4 3 (by decide), (Finset.mem_erase.mpr ⟨bref_ne (cV L) (jV L) 4 2 (by decide), (Finset.mem_erase.mpr ⟨bref_ne (cV L) (jV L) 4 1 (by decide), (Finset.mem_erase.mpr ⟨bref_ne (cV L) (jV L) 4 0 (by decide), (SparseCore.Cfg.mem_ownRefs_of_owner (p := Proc.scVector (cV L) (jV L)) (b := (Proc.devRef (Proc.scVector (cV L) (jV L)) (cc0_scratch4 : Ref sig .scVector) : DevRef τ sig)) rfl)⟩)⟩)⟩)⟩)),
    SparseCore.bigSep_erase' (show (Proc.devRef (Proc.scVector (cV L) (jV L)) (cc0_scratch5 : Ref sig .scVector) : DevRef τ sig) ∈ ((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)) from (Finset.mem_erase.mpr ⟨bref_ne (cV L) (jV L) 5 4 (by decide), (Finset.mem_erase.mpr ⟨bref_ne (cV L) (jV L) 5 3 (by decide), (Finset.mem_erase.mpr ⟨bref_ne (cV L) (jV L) 5 2 (by decide), (Finset.mem_erase.mpr ⟨bref_ne (cV L) (jV L) 5 1 (by decide), (Finset.mem_erase.mpr ⟨bref_ne (cV L) (jV L) 5 0 (by decide), (SparseCore.Cfg.mem_ownRefs_of_owner (p := Proc.scVector (cV L) (jV L)) (b := (Proc.devRef (Proc.scVector (cV L) (jV L)) (cc0_scratch5 : Ref sig .scVector) : DevRef τ sig)) rfl)⟩)⟩)⟩)⟩)⟩)),
    SparseCore.bigSep_erase' (show (Proc.devRef (Proc.scVector (cV L) (jV L)) (cc0_scratch6 : Ref sig .scVector) : DevRef τ sig) ∈ (((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)).erase (Proc.devRef (Proc.scVector (cV L) (jV L)) (cc0_scratch5 : Ref sig .scVector) : DevRef τ sig)) from (Finset.mem_erase.mpr ⟨bref_ne (cV L) (jV L) 6 5 (by decide), (Finset.mem_erase.mpr ⟨bref_ne (cV L) (jV L) 6 4 (by decide), (Finset.mem_erase.mpr ⟨bref_ne (cV L) (jV L) 6 3 (by decide), (Finset.mem_erase.mpr ⟨bref_ne (cV L) (jV L) 6 2 (by decide), (Finset.mem_erase.mpr ⟨bref_ne (cV L) (jV L) 6 1 (by decide), (Finset.mem_erase.mpr ⟨bref_ne (cV L) (jV L) 6 0 (by decide), (SparseCore.Cfg.mem_ownRefs_of_owner (p := Proc.scVector (cV L) (jV L)) (b := (Proc.devRef (Proc.scVector (cV L) (jV L)) (cc0_scratch6 : Ref sig .scVector) : DevRef τ sig)) rfl)⟩)⟩)⟩)⟩)⟩)⟩)),
    SparseCore.bigSep_erase' (show (Proc.devRef (Proc.scVector (cV L) (jV L)) (cc0_scratch7 : Ref sig .scVector) : DevRef τ sig) ∈ ((((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)).erase (Proc.devRef (Proc.scVector (cV L) (jV L)) (cc0_scratch5 : Ref sig .scVector) : DevRef τ sig)).erase (Proc.devRef (Proc.scVector (cV L) (jV L)) (cc0_scratch6 : Ref sig .scVector) : DevRef τ sig)) from (Finset.mem_erase.mpr ⟨bref_ne (cV L) (jV L) 7 6 (by decide), (Finset.mem_erase.mpr ⟨bref_ne (cV L) (jV L) 7 5 (by decide), (Finset.mem_erase.mpr ⟨bref_ne (cV L) (jV L) 7 4 (by decide), (Finset.mem_erase.mpr ⟨bref_ne (cV L) (jV L) 7 3 (by decide), (Finset.mem_erase.mpr ⟨bref_ne (cV L) (jV L) 7 2 (by decide), (Finset.mem_erase.mpr ⟨bref_ne (cV L) (jV L) 7 1 (by decide), (Finset.mem_erase.mpr ⟨bref_ne (cV L) (jV L) 7 0 (by decide), (SparseCore.Cfg.mem_ownRefs_of_owner (p := Proc.scVector (cV L) (jV L)) (b := (Proc.devRef (Proc.scVector (cV L) (jV L)) (cc0_scratch7 : Ref sig .scVector) : DevRef τ sig)) rfl)⟩)⟩)⟩)⟩)⟩)⟩)⟩))]

/-! ## The arrays as the tile addresses them are the device's arrays -/

omit [FloatOps F] in
theorem pts_a2 (d : Dev nD) (L : grid0.Coords) (q : PosShare TreeShare) (f : Buf (Elt F) (tokLoc d)) :
    ((a2).view.loc (thr d L) ↦{q} f : sProp 𝕄) = (tokLoc d ↦{q} f) := rfl
omit [FloatOps F] in
theorem pts_a3 (d : Dev nD) (L : grid0.Coords) (q : PosShare TreeShare) (f : Buf (Elt F) (embLoc d)) :
    ((a3).view.loc (thr d L) ↦{q} f : sProp 𝕄) = (embLoc d ↦{q} f) := rfl
omit [FloatOps F] in
theorem pts_a4 (d : Dev nD) (L : grid0.Coords) (q : PosShare TreeShare) (f : Buf (Elt F) (posLoc d)) :
    ((a4).view.loc (thr d L) ↦{q} f : sProp 𝕄) = (posLoc d ↦{q} f) := rfl
omit [FloatOps F] in
theorem pts_a5 (d : Dev nD) (L : grid0.Coords) (q : PosShare TreeShare) (f : Buf (Elt F) (segLoc d)) :
    ((a5).view.loc (thr d L) ↦{q} f : sProp 𝕄) = (segLoc d ↦{q} f) := rfl
omit [FloatOps F] in
theorem pts_a6 (d : Dev nD) (L : grid0.Coords) (I : Finset S200x8x8x8x128.Idx) (f : Buf (Elt F) (outLoc d)) :
    ((a6).view.loc (thr d L) ↦[I]{fullShare} f : sProp 𝕄) = (outLoc d ↦[I]{fullShare} f) := rfl
omit [FloatOps F] in
theorem pts_a15 (d : Dev nD) (L : grid0.Coords) (q : PosShare TreeShare) (f : Buf (Elt F) (shLoc d (cV L))) :
    ((a15).view.loc (thr d L) ↦{q} f : sProp 𝕄) = (shLoc d (cV L) ↦{q} f) := rfl

omit [FloatOps F] in
theorem pts_a14 (d : Dev nD) (L : grid0.Coords) (f : Buf (Elt F) ((a14).view.loc (thr d L))) :
    ((((a14).access (.whole S64)).loc (thr d L)) ↦{fullShare} f : sProp 𝕄) = ((a14).view.loc (thr d L) ↦{fullShare} f) := rfl

/-! ## What crosses the barrier -/

/-- Before the barrier, tile 0 hands every tile's round that tile's read share of the filled shared scratch: the whole of
    it, split into the sixteen shares. -/
theorem pays_intro_zero (d : Dev nD) (c : Fin τ.nSC) {s : Fin τ.nSub} (h : s.val = 0) :
    (shLoc d c ↦{fullShare} tokSh m d c : sProp 𝕄)
      ⊢ bigSep Finset.univ fun j : Fin (grid0.bound 1) => (bRd (F := F) m).payload (bcell d c (j.castLE hsub0)) 0 s.val := by
  have e : (bigSep Finset.univ fun j : Fin (grid0.bound 1) => (bRd (F := F) m).payload (bcell d c (j.castLE hsub0)) 0 s.val)
      = bigSep Finset.univ fun j : Fin τ.nSub => shPts m d c j :=
    bigSep_congr fun j _ => by
      show bPay m (bcell d c (j.castLE hsub0)) s.val = _
      unfold bPay; dsimp only; rw [if_pos h]; rfl
  rw [e]; exact (pointsTo_shSh (F := F)).1

/-- The other tiles hand over nothing. -/
theorem pays_intro_pos (d : Dev nD) (c : Fin τ.nSC) {s : Fin τ.nSub} (h : s.val ≠ 0) :
    (iprop(emp) : sProp 𝕄) ⊢ bigSep Finset.univ fun j : Fin (grid0.bound 1) => (bRd (F := F) m).payload (bcell d c (j.castLE hsub0)) 0 s.val := by
  rw [show (bigSep Finset.univ fun j : Fin (grid0.bound 1) => (bRd (F := F) m).payload (bcell d c (j.castLE hsub0)) 0 s.val)
      = bigSep Finset.univ fun _ : Fin (grid0.bound 1) => (iprop(emp) : sProp 𝕄) from
      bigSep_congr fun j _ => by
        show bPay m (bcell d c (j.castLE hsub0)) s.val = _
        unfold bPay; dsimp only; rw [if_neg h], bigSep_emp']

/-- After the barrier, what a tile's own round collected holds its read share of the filled shared scratch. -/
theorem pays_elim (d : Dev nD) (c : Fin τ.nSC) (s : Fin τ.nSub) :
    (bigSep ((bRd (F := F) m).duties (bcell d c s) 0 \ ∅) fun n => (bRd (F := F) m).payload (bcell d c s) 0 n) ⊢ (shPts m d c s : sProp 𝕄) := by
  rw [Finset.sdiff_empty, bRd_duties₀]
  refine (bigSep_elim (Φ := fun n => (bRd (F := F) m).payload (bcell d c s) 0 n) (i := (0 : ℕ))
    (Finset.mem_image.mpr ⟨(⟨0, by decide⟩ : Fin τ.nSub), Finset.mem_univ _, rfl⟩)).trans ?_
  show bPay m (bcell d c s) 0 ⊢ _
  unfold bPay; dsimp only; rw [if_pos rfl]

/-! ## What the segment scratch holds after the copy -/

/-- The first 64 entries of the segment table, read through the slice the program copies them by. -/
theorem seg_read (g : FVec F S128 .f32) (x : Fin 64) :
    ReadAs.same.apply (View.read (Elt F) ((a5).slice (Rect.unit (s := S128) ![0] S64.size inb_S128_S64_0) (fun _ => rfl)).view g) (ValueIdx.ix1 x)
      = g (ValueIdx.ix1 (⟨x.val, by omega⟩ : Fin 128)) := by
  rw [ReadAs.apply_same, View.read_apply, cast_eq]
  refine congrArg g (funext fun a => ?_)
  match a with
  | ⟨0, _⟩ => exact Fin.ext (by simp [ValueIdx.ix1])

/-! ## The feature loop -/

/-- The loop's two trips. -/
abbrev t0 : Fin k0_t1_loop.trips := ⟨0, by rw [trips_eq]; decide⟩
abbrev t1 : Fin k0_t1_loop.trips := ⟨1, by rw [trips_eq]; decide⟩

/-- A feature's entries of the result, not yet written (any contents) and written (the specified contents). -/
abbrev featTodo (d : Dev nD) (L : grid0.Coords) (t : Fin k0_t1_loop.trips) : sProp 𝕄 :=
  iprop(∃ g, (a6).view.loc (thr d L) ↦[featSet L t]{fullShare} g)
abbrev featDone (d : Dev nD) (L : grid0.Coords) (t : Fin k0_t1_loop.trips) : sProp 𝕄 :=
  iprop((a6).view.loc (thr d L) ↦[featSet L t]{fullShare} outC m d)

/-- Before trip `k` of the feature loop: what the tile holds between features, the features below `k` written, the others
    still to write. -/
def loopInv (d : Dev nD) (L : grid0.Coords) (O : CellTallies nD τ sig (HIx 1)) (W : Waits sig (HIx 1)) (q3 q4 q15 : PosShare TreeShare)
    (f14 : Buf (Elt F) (((a14).access (.whole S64)).loc (thr d L))) : ℕ → Unit → sProp 𝕄
  | 0, _ => iprop(tripFrame d L O W q3 q4 q15 (embC m d) (posC m d) (tokC m d) f14 ∗ featTodo d L t0 ∗ featTodo d L t1)
  | 1, _ => iprop(tripFrame d L O W q3 q4 q15 (embC m d) (posC m d) (tokC m d) f14 ∗ featDone m d L t0 ∗ featTodo d L t1)
  | _ + 2, _ => iprop(tripFrame d L O W q3 q4 q15 (embC m d) (posC m d) (tokC m d) f14 ∗ featDone m d L t0 ∗ featDone m d L t1)

set_option maxHeartbeats 1000000 in
/-- A trip of the feature loop takes the invariant to the next trip's. -/
theorem loop_step (hr : ∀ (d : Dev nD) i, ((m (a0Loc d) : IVec S1024x200 32) i).toNat < 100000)
    (d : Dev nD) (L : grid0.Coords) (O : CellTallies nD τ sig (HIx 1)) (W : Waits sig (HIx 1)) (q3 q4 q15 : PosShare TreeShare)
    (f14 : Buf (Elt F) (((a14).access (.whole S64)).loc (thr d L)))
    (hseg : ∀ x : Fin 64, f14 (ValueIdx.ix1 x) = segC m d (ValueIdx.ix1 (⟨x.val, by omega⟩ : Fin 128)))
    (k : Fin k0_t1_loop.trips) (acc : Unit) :
    loopInv m d L O W q3 q4 q15 f14 k.val acc
      ⊢ wp frame (wpE (defs₀ (F := F)) 𝒱₀ (thr d L) none) Set.univ
          (k0_t1_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 (widW L) k acc)
          (loopInv m d L O W q3 q4 q15 f14 (k.val + 1)) := by
  obtain ⟨kv, hk⟩ := k
  have hk2 : kv < 2 := by rw [trips_eq] at hk; exact hk
  match kv, hk, hk2 with
  | 0, hk, _ =>
    show iprop(tripFrame d L O W q3 q4 q15 (embC m d) (posC m d) (tokC m d) f14 ∗ featTodo d L t0 ∗ featTodo d L t1)
      ⊢ wp frame (wpE (defs₀ (F := F)) 𝒱₀ (thr d L) none) Set.univ _ (fun _ => iprop(tripFrame d L O W q3 q4 q15 (embC m d) (posC m d) (tokC m d) f14 ∗ featDone m d L t0 ∗ featTodo d L t1))
    iintro ⟨Hfr, Hf0, Hf1⟩
    iapply (wp_wand_r frame (wpE (defs₀ (F := F)) 𝒱₀ (thr d L) none) Set.univ)
    isplitl [Hfr Hf0]
    · iapply (trip_spec d L O W t0 q3 q4 q15 (embC m d) (posC m d) (tokC m d) (tokC_lt m d (hr d)) f14 (segC m d) hseg)
      isplitl [Hfr] <;> iassumption
    iintro %a ⟨Hfr, Hf0⟩
    isplitl [Hfr]; · iexact Hfr
    isplitl [Hf0]; · iexact Hf0
    iexact Hf1
  | 1, hk, _ =>
    show iprop(tripFrame d L O W q3 q4 q15 (embC m d) (posC m d) (tokC m d) f14 ∗ featDone m d L t0 ∗ featTodo d L t1)
      ⊢ wp frame (wpE (defs₀ (F := F)) 𝒱₀ (thr d L) none) Set.univ _ (fun _ => iprop(tripFrame d L O W q3 q4 q15 (embC m d) (posC m d) (tokC m d) f14 ∗ featDone m d L t0 ∗ featDone m d L t1))
    iintro ⟨Hfr, Hf0, Hf1⟩
    iapply (wp_wand_r frame (wpE (defs₀ (F := F)) 𝒱₀ (thr d L) none) Set.univ)
    isplitl [Hfr Hf1]
    · iapply (trip_spec d L O W t1 q3 q4 q15 (embC m d) (posC m d) (tokC m d) (tokC_lt m d (hr d)) f14 (segC m d) hseg)
      isplitl [Hfr] <;> iassumption
    iintro %a ⟨Hfr, Hf1⟩
    isplitl [Hfr]; · iexact Hfr
    isplitl [Hf0]; · iexact Hf0
    iexact Hf1
  | kv + 2, _, h => exact absurd h (by omega)

/-- After the last trip both features are written. -/
theorem loopInv_end (d : Dev nD) (L : grid0.Coords) (O : CellTallies nD τ sig (HIx 1)) (W : Waits sig (HIx 1)) (q3 q4 q15 : PosShare TreeShare)
    (f14 : Buf (Elt F) (((a14).access (.whole S64)).loc (thr d L))) (acc : Unit) :
    loopInv m d L O W q3 q4 q15 f14 k0_t1_loop.trips acc
      = iprop(tripFrame d L O W q3 q4 q15 (embC m d) (posC m d) (tokC m d) f14 ∗ featDone m d L t0 ∗ featDone m d L t1) :=
  (congrArg (fun n => loopInv m d L O W q3 q4 q15 f14 n acc) trips_eq).trans rfl

/-! ## The task -/

set_option maxHeartbeats 4000000 in
/-- The task of tile 0 of a SparseCore. -/
theorem tile_body_zero (hr : ∀ (d : Dev nD) i, ((m (a0Loc d) : IVec S1024x200 32) i).toNat < 100000)
    (d : Dev nD) (L : grid0.Coords) (h0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goOf m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2)
          fun _ => iprop(tdOf m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : (Scalar.cmpi .ne (Scalar.extui (Scalar.cmpi .eq (BitVec.ofNat 32 (L 1).val) 0#32)) 0#32 = 1#1) := (head_cond (L 1)).mpr h0
  have hfe := outSet_feats L t0 t1 rfl rfl
  simp only [cc0_emb_kernel_eq_skeleton]; unfold cc0_emb_kernel_skel
  rw [(K (F := F)).scopedBufs_V facts d (cV L) (jV L), SparseCore.Cfg.scopedSems0_V (Val := Elt F) d (cV L) (jV L), ownSems0_V8, ownBufs_V8]
  unfold bkit goOf tdOf opsAt shPts
  iintro ⟨#Hlv, ⟨⟨%κ, #Hinv⟩, Htoks, #Hrch, Hat, Hcred⟩, ⟨⟨Htok, Hemb, Hpos, Hseg⟩, Hout, HshGo⟩,
    ⟨⟨%f7, H7⟩, ⟨%f8, H8⟩, ⟨%f9, H9⟩, ⟨%f10, H10⟩, ⟨%f11, H11⟩, ⟨%f12, H12⟩, ⟨%f13, H13⟩, ⟨%f14, H14⟩, Hbufs⟩,
    ⟨Hs9, Hs10, Hs11, Hs12, Hs13, HsA, HsB, HsC⟩, HO⟩
  -- the waits' evidence: at index none, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hsh0 := (Entails.of_eq (shGo_zero (F := F) d (cV L) (show (jV L).val = 0 from h0))) $$ HshGo
  icases Hsh0 with ⟨%fsh, Hsh⟩
  ihave Htok' := (Entails.of_eq (pts_a2 (F := F) d L _ _).symm) $$ Htok
  ihave Hemb' := (Entails.of_eq (pts_a3 (F := F) d L _ _).symm) $$ Hemb
  ihave Hpos' := (Entails.of_eq (pts_a4 (F := F) d L _ _).symm) $$ Hpos
  ihave Hseg' := (Entails.of_eq (pts_a5 (F := F) d L _ _).symm) $$ Hseg
  ihave Hsh' := (Entails.of_eq (pts_a15 (F := F) d L _ _).symm) $$ Hsh
  -- the token ids into the shared scratch, the segment table's first row into the segment scratch, each waited for
  sl_exec
  -- what the two copies left
  have e15 : View.write (Elt F) (a15).view fsh (tile_body_zero.sl.dma0 m d) Finset.univ = tokSh m d (cV L) :=
    (View.write_whole_univ _ _ _).trans rfl
  have e14 : View.write (Elt F) (a14).view f14 (tile_body_zero.sl.dma0_1 m d) Finset.univ = tile_body_zero.sl.dma0_1 m d :=
    View.write_whole_univ _ _ _
  have hseg : ∀ x : Fin 64, (tile_body_zero.sl.dma0_1 m d) (ValueIdx.ix1 x) = segC m d (ValueIdx.ix1 (⟨x.val, by omega⟩ : Fin 128)) := fun x => by
    unfold tile_body_zero.sl.dma0_1
    exact seg_read (segC m d) x
  ihave Hsh2 := (Entails.of_eq (congrArg (fun f => ((a15).view.loc (thr d L) ↦{fullShare} f : sProp 𝕄)) e15)) $$ Hsh'
  ihave H14' := (Entails.of_eq (congrArg (fun f => ((a14).view.loc (thr d L) ↦{fullShare} f : sProp 𝕄)) e14)) $$ H14
  -- the barrier: tile 0 hands every tile its read share of the filled scratch, and receives its own
  ihave Hpays := (pays_intro_zero (F := F) m d (cV L) (s := jV L) h0) $$ [Hsh2]
  · iapply (Entails.of_eq (pts_a15 (F := F) d L _ _)); iexact Hsh2
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hn := (pays_elim (F := F) m d (cV L) (jV L)) $$ Hgot
  ihave Hn' := (Entails.of_eq (pts_a15 (F := F) d L _ _).symm) $$ Hn
  -- the tile's entries of the result, by feature
  ihave Hout2 := (Entails.of_eq (congrArg (fun I => (outLoc d ↦[I]{fullShare} m (outLoc d) : sProp 𝕄)) hfe.1)) $$ Hout
  ihave Hout3 := (pointsTo_union hfe.2).1 $$ Hout2
  icases Hout3 with ⟨Hf0, Hf1⟩
  -- the two features
  sl_for (loopInv m d L O (insert (SemLoc.reg sc_bar0, (some 0 : HIx 1)) (insert (SemLoc.dma cc0_scoped1.sem, (default : HIx 1)) (insert (SemLoc.dma cc0_scoped0.sem, (default : HIx 1)) W))) (shT (cV L) (jV L)) (shT (cV L) (jV L)) (shSh (jV L)) (tile_body_zero.sl.dma0_1 m d))
    $$ [HO Hs13 Hs9 Hs10 Hs11 Hs12 HsC Hemb' Hpos' Hn' H7 H8 H9 H10 H11 H12 H13 H14' Hf0 Hf1]
  case region =>
    intro k acc
    exact loop_step m hr d L O _ _ _ _ _ hseg k acc
  · show _ ⊢ iprop(tripFrame d L O (insert (SemLoc.reg sc_bar0, (some 0 : HIx 1)) (insert (SemLoc.dma cc0_scoped1.sem, (default : HIx 1)) (insert (SemLoc.dma cc0_scoped0.sem, (default : HIx 1)) W))) (shT (cV L) (jV L)) (shT (cV L) (jV L)) (shSh (jV L)) (embC m d) (posC m d) (tokC m d) (tile_body_zero.sl.dma0_1 m d)
        ∗ featTodo d L t0 ∗ featTodo d L t1)
    unfold tripFrame
    iintro ⟨⟨⟨⟨⟨⟨⟨⟨⟨⟨⟨⟨⟨⟨⟨⟨⟨⟨⟨⟨⟨⟨⟨⟨#Hlv, #Hinv⟩, #Hrch⟩, H7⟩, H8⟩, H9⟩, H10⟩, H11⟩, H12⟩, H13⟩, Hs9⟩, Hs10⟩, Hs11⟩, Hs12⟩, Hs13⟩, HsC⟩, #Hmw1⟩, #Hmw2⟩, Hemb'⟩, Hpos'⟩, H14'⟩, HO⟩, Hn'⟩, Hf0⟩, Hf1⟩
    isplitl [HO Hs13 Hs9 Hs10 Hs11 Hs12 HsC Hemb' Hpos' Hn' H7 H8 H9 H10 H11 H12 H13 H14']
    · isplitr; · iexact Hmw2
      isplitl [HO]
      · iexists _; isplitr
        swap; · iexact HO
        ipureintro; exact fun p hp => .inl hp
      isplitl [Hs13]; · iexact Hs13
      isplitl [Hs9]; · iexact Hs9
      isplitl [Hs10]; · iexact Hs10
      isplitl [Hs11]; · iexact Hs11
      isplitl [Hs12]; · iexact Hs12
      isplitl [HsC]; · iexact HsC
      isplitl [Hemb']; · iexact Hemb'
      isplitl [Hpos']; · iexact Hpos'
      isplitl [Hn']; · iexact Hn'
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iapply (Entails.of_eq (pts_a14 (F := F) d L _)); iexact H14'
    isplitl [Hf0]
    · iexists _; iapply (Entails.of_eq (pts_a6 (F := F) d L _ _)); iexact Hf0
    iexists _; iapply (Entails.of_eq (pts_a6 (F := F) d L _ _)); iexact Hf1
  -- after the loop: both features written
  iintro %acc HI
  ihave HI2 := (Entails.of_eq (loopInv_end m d L O _ _ _ _ _ acc)) $$ HI
  icases HI2 with ⟨Hfr, Hf0, Hf1⟩
  unfold tripFrame
  icases Hfr with ⟨-, ⟨%W', %hW', HO⟩, Hs13, Hs9, Hs10, Hs11, Hs12, HsC, Hemb', Hpos', Hn', ⟨%g7, H7⟩, ⟨%g8, H8⟩, ⟨%g9, H9⟩, ⟨%g10, H10⟩,
    ⟨%g11, H11⟩, ⟨%g12, H12⟩, ⟨%g13, H13⟩, H14⟩
  sl_exec
  sl_step
  -- what the tile hands back
  isplitl [Htok' Hemb' Hpos' Hseg' Hf0 Hf1 Hn']
  · isplitl [Htok' Hemb' Hpos' Hseg']
    · isplitl [Htok']; · iapply (Entails.of_eq (pts_a2 (F := F) d L _ _)); iexact Htok'
      isplitl [Hemb']; · iapply (Entails.of_eq (pts_a3 (F := F) d L _ _)); iexact Hemb'
      isplitl [Hpos']; · iapply (Entails.of_eq (pts_a4 (F := F) d L _ _)); iexact Hpos'
      iapply (Entails.of_eq (pts_a5 (F := F) d L _ _)); iexact Hseg'
    isplitl [Hf0 Hf1]
    · iapply (Entails.of_eq (congrArg (fun I => (outLoc d ↦[I]{fullShare} outC m d : sProp 𝕄)) hfe.1).symm)
      iapply (pointsTo_union hfe.2).2
      isplitl [Hf0]
      · iapply (Entails.of_eq (pts_a6 (F := F) d L _ _)); iexact Hf0
      iapply (Entails.of_eq (pts_a6 (F := F) d L _ _)); iexact Hf1
    iapply (Entails.of_eq (pts_a15 (F := F) d L _ _)); iexact Hn'
  isplitl [H7 H8 H9 H10 H11 H12 H13 H14 Hbufs]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iapply (Entails.of_eq (pts_a14 (F := F) d L _).symm); iexact H14
    iexact Hbufs
  isplitl [Hs9 Hs10 Hs11 Hs12 Hs13 HsA HsB HsC]
  · isplitl [Hs9]; · iexact Hs9
    isplitl [Hs10]; · iexact Hs10
    isplitl [Hs11]; · iexact Hs11
    isplitl [Hs12]; · iexact Hs12
    isplitl [Hs13]; · iexact Hs13
    isplitl [HsA]; · iexact HsA
    isplitl [HsB]; · iexact HsB
    iexact HsC
  iexists W'; isplitr
  swap; · iexact HO
  ipureintro; intro p hp
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

set_option maxHeartbeats 4000000 in
/-- The task of the other tiles. -/
theorem tile_body_pos (hr : ∀ (d : Dev nD) i, ((m (a0Loc d) : IVec S1024x200 32) i).toNat < 100000)
    (d : Dev nD) (L : grid0.Coords) (h0 : (L 1).val ≠ 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goOf m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2)
          fun _ => iprop(tdOf m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : ¬ (Scalar.cmpi .ne (Scalar.extui (Scalar.cmpi .eq (BitVec.ofNat 32 (L 1).val) 0#32)) 0#32 = 1#1) := fun h => h0 ((head_cond (L 1)).mp h)
  have hfe := outSet_feats L t0 t1 rfl rfl
  simp only [cc0_emb_kernel_eq_skeleton]; unfold cc0_emb_kernel_skel
  rw [(K (F := F)).scopedBufs_V facts d (cV L) (jV L), SparseCore.Cfg.scopedSems0_V (Val := Elt F) d (cV L) (jV L), ownSems0_V8, ownBufs_V8]
  unfold bkit goOf tdOf opsAt shPts
  iintro ⟨#Hlv, ⟨⟨%κ, #Hinv⟩, Htoks, #Hrch, Hat, Hcred⟩, ⟨⟨Htok, Hemb, Hpos, Hseg⟩, Hout, -⟩,
    ⟨⟨%f7, H7⟩, ⟨%f8, H8⟩, ⟨%f9, H9⟩, ⟨%f10, H10⟩, ⟨%f11, H11⟩, ⟨%f12, H12⟩, ⟨%f13, H13⟩, ⟨%f14, H14⟩, Hbufs⟩,
    ⟨Hs9, Hs10, Hs11, Hs12, Hs13, HsA, HsB, HsC⟩, HO⟩
  -- the waits' evidence: at index none, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Htok' := (Entails.of_eq (pts_a2 (F := F) d L _ _).symm) $$ Htok
  ihave Hemb' := (Entails.of_eq (pts_a3 (F := F) d L _ _).symm) $$ Hemb
  ihave Hpos' := (Entails.of_eq (pts_a4 (F := F) d L _ _).symm) $$ Hpos
  ihave Hseg' := (Entails.of_eq (pts_a5 (F := F) d L _ _).symm) $$ Hseg
  -- the segment table's first row into the segment scratch, and the wait
  sl_exec
  -- what the copy left
  have e14 : View.write (Elt F) (a14).view f14 (tile_body_pos.sl.dma0 m d) Finset.univ = tile_body_pos.sl.dma0 m d :=
    View.write_whole_univ _ _ _
  have hseg : ∀ x : Fin 64, (tile_body_pos.sl.dma0 m d) (ValueIdx.ix1 x) = segC m d (ValueIdx.ix1 (⟨x.val, by omega⟩ : Fin 128)) := fun x => by
    unfold tile_body_pos.sl.dma0
    exact seg_read (segC m d) x
  ihave H14' := (Entails.of_eq (congrArg (fun f => ((a14).view.loc (thr d L) ↦{fullShare} f : sProp 𝕄)) e14)) $$ H14
  -- the barrier: the tile hands over nothing, and receives its read share of the filled scratch from tile 0
  ihave Hpays := (pays_intro_pos (F := F) m d (cV L) (s := jV L) h0) $$ []
  · iempintro
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hn := (pays_elim (F := F) m d (cV L) (jV L)) $$ Hgot
  ihave Hn' := (Entails.of_eq (pts_a15 (F := F) d L _ _).symm) $$ Hn
  -- the tile's entries of the result, by feature
  ihave Hout2 := (Entails.of_eq (congrArg (fun I => (outLoc d ↦[I]{fullShare} m (outLoc d) : sProp 𝕄)) hfe.1)) $$ Hout
  ihave Hout3 := (pointsTo_union hfe.2).1 $$ Hout2
  icases Hout3 with ⟨Hf0, Hf1⟩
  -- the two features
  sl_for (loopInv m d L O (insert (SemLoc.reg sc_bar0, (some 0 : HIx 1)) (insert (SemLoc.dma cc0_scoped1.sem, (default : HIx 1)) W)) (shT (cV L) (jV L)) (shT (cV L) (jV L)) (shSh (jV L)) (tile_body_pos.sl.dma0 m d))
    $$ [HO Hs13 Hs9 Hs10 Hs11 Hs12 HsC Hemb' Hpos' Hn' H7 H8 H9 H10 H11 H12 H13 H14' Hf0 Hf1]
  case region =>
    intro k acc
    exact loop_step m hr d L O _ _ _ _ _ hseg k acc
  · show _ ⊢ iprop(tripFrame d L O (insert (SemLoc.reg sc_bar0, (some 0 : HIx 1)) (insert (SemLoc.dma cc0_scoped1.sem, (default : HIx 1)) W)) (shT (cV L) (jV L)) (shT (cV L) (jV L)) (shSh (jV L)) (embC m d) (posC m d) (tokC m d) (tile_body_pos.sl.dma0 m d)
        ∗ featTodo d L t0 ∗ featTodo d L t1)
    unfold tripFrame
    iintro ⟨⟨⟨⟨⟨⟨⟨⟨⟨⟨⟨⟨⟨⟨⟨⟨⟨⟨⟨⟨⟨⟨⟨⟨#Hlv, #Hinv⟩, #Hrch⟩, H7⟩, H8⟩, H9⟩, H10⟩, H11⟩, H12⟩, H13⟩, Hs9⟩, Hs10⟩, Hs11⟩, Hs12⟩, Hs13⟩, HsC⟩, #Hmw1⟩, #Hmw2⟩, Hemb'⟩, Hpos'⟩, H14'⟩, HO⟩, Hn'⟩, Hf0⟩, Hf1⟩
    isplitl [HO Hs13 Hs9 Hs10 Hs11 Hs12 HsC Hemb' Hpos' Hn' H7 H8 H9 H10 H11 H12 H13 H14']
    · isplitr; · iexact Hmw2
      isplitl [HO]
      · iexists _; isplitr
        swap; · iexact HO
        ipureintro; exact fun p hp => .inl hp
      isplitl [Hs13]; · iexact Hs13
      isplitl [Hs9]; · iexact Hs9
      isplitl [Hs10]; · iexact Hs10
      isplitl [Hs11]; · iexact Hs11
      isplitl [Hs12]; · iexact Hs12
      isplitl [HsC]; · iexact HsC
      isplitl [Hemb']; · iexact Hemb'
      isplitl [Hpos']; · iexact Hpos'
      isplitl [Hn']; · iexact Hn'
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iapply (Entails.of_eq (pts_a14 (F := F) d L _)); iexact H14'
    isplitl [Hf0]
    · iexists _; iapply (Entails.of_eq (pts_a6 (F := F) d L _ _)); iexact Hf0
    iexists _; iapply (Entails.of_eq (pts_a6 (F := F) d L _ _)); iexact Hf1
  -- after the loop: both features written
  iintro %acc HI
  ihave HI2 := (Entails.of_eq (loopInv_end m d L O _ _ _ _ _ acc)) $$ HI
  icases HI2 with ⟨Hfr, Hf0, Hf1⟩
  unfold tripFrame
  icases Hfr with ⟨-, ⟨%W', %hW', HO⟩, Hs13, Hs9, Hs10, Hs11, Hs12, HsC, Hemb', Hpos', Hn', ⟨%g7, H7⟩, ⟨%g8, H8⟩, ⟨%g9, H9⟩, ⟨%g10, H10⟩,
    ⟨%g11, H11⟩, ⟨%g12, H12⟩, ⟨%g13, H13⟩, H14⟩
  sl_exec
  sl_step
  -- what the tile hands back
  isplitl [Htok' Hemb' Hpos' Hseg' Hf0 Hf1 Hn']
  · isplitl [Htok' Hemb' Hpos' Hseg']
    · isplitl [Htok']; · iapply (Entails.of_eq (pts_a2 (F := F) d L _ _)); iexact Htok'
      isplitl [Hemb']; · iapply (Entails.of_eq (pts_a3 (F := F) d L _ _)); iexact Hemb'
      isplitl [Hpos']; · iapply (Entails.of_eq (pts_a4 (F := F) d L _ _)); iexact Hpos'
      iapply (Entails.of_eq (pts_a5 (F := F) d L _ _)); iexact Hseg'
    isplitl [Hf0 Hf1]
    · iapply (Entails.of_eq (congrArg (fun I => (outLoc d ↦[I]{fullShare} outC m d : sProp 𝕄)) hfe.1).symm)
      iapply (pointsTo_union hfe.2).2
      isplitl [Hf0]
      · iapply (Entails.of_eq (pts_a6 (F := F) d L _ _)); iexact Hf0
      iapply (Entails.of_eq (pts_a6 (F := F) d L _ _)); iexact Hf1
    iapply (Entails.of_eq (pts_a15 (F := F) d L _ _)); iexact Hn'
  isplitl [H7 H8 H9 H10 H11 H12 H13 H14 Hbufs]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iapply (Entails.of_eq (pts_a14 (F := F) d L _).symm); iexact H14
    iexact Hbufs
  isplitl [Hs9 Hs10 Hs11 Hs12 Hs13 HsA HsB HsC]
  · isplitl [Hs9]; · iexact Hs9
    isplitl [Hs10]; · iexact Hs10
    isplitl [Hs11]; · iexact Hs11
    isplitl [Hs12]; · iexact Hs12
    isplitl [Hs13]; · iexact Hs13
    isplitl [HsA]; · iexact HsA
    isplitl [HsB]; · iexact HsB
    iexact HsC
  iexists W'; isplitr
  swap; · iexact HO
  ipureintro; intro p hp
  rcases hW' p hp with h | h
  · rcases Finset.mem_insert.mp h with h | h; · exact .inr (.inr (h ▸ rfl))
    rcases Finset.mem_insert.mp h with h | h; · exact .inr (.inl (h ▸ rfl))
    exact .inl h
  · exact .inr (.inl h)

/-- One tile's task, whichever tile it is. -/
theorem tile_body (hr : ∀ (d : Dev nD) i, ((m (a0Loc d) : IVec S1024x200 32) i).toNat < 100000) : TileBodySpec (F := F) m := by
  intro d L O W hO hOlev
  by_cases h0 : (L 1).val = 0
  · exact tile_body_zero m hr d L h0 O W hO hOlev
  · exact tile_body_pos m hr d L h0 O W hO hOlev

end Cert.Proof.Body

end
-- ==== Proof.NestSpecK.lean ====
/-
  What the compute nest leaves in a staging buffer. One nest fills a `4 × 1 × 8 × 1 × 128` staging buffer from 4096
  token words `tb`, one row of the feature-major word table `row` (`1 × 100000`) and a vector of biases `bias`:
  the entry `(r, 0, c, 0, x)` is the row's entry at the token `tb[r * 1024 + c * 128 + x]` (the word reduced below the
  table's height) plus `bias[l0 + r]`, the bias of the `r`-th of the four positions the nest handles.
  The nest runs `4 × 4` trips; trip `(t2, t3)` stores sixteen vectors of sixteen lanes, the `k`-th at
  `(t2, 0, 2 * t3 + k / 8, 0, 16 * (k % 8))`, which are the entries whose token position lies in
  `[1024 * t2 + 256 * t3, 1024 * t2 + 256 * t3 + 256)`. So "every entry whose token position is below `n` holds the
  nest's value" is kept by a trip, which moves `n` up by 256.
-/
import proofs.«203565_g79912161509654_cont_9to1_m_411_39_alg».proof.Kernel
import proofs.«203565_g79912161509654_cont_9to1_m_411_39_alg».proof.Proof.Spec
import Idealize.ShloMosaic.Lib.Writes
import Idealize.ShloMosaic.Lib.ValueLayout

noncomputable section

namespace Cert.Proof.NestK

open Idealize.ShloMosaic Idealize.ShloMosaic.ValueIdx Cert.Kernel Cert.Proof.Spec

variable {F : FTy → Type} [FloatOps F]

/-- The position among the 4096 token words that entry `(r, 0, c, 0, x)` of the staging buffer reads: `r * 1024 + c * 128 + x`. -/
def flatOf (y : S4x1x8x1x128.Idx) : Fin 4096 :=
  ⟨(y 0).val * 1024 + (y 2).val * 128 + (y 4).val, by
    have h0 : (y 0).val < 4 := (y 0).isLt
    have h2 : (y 2).val < 8 := (y 2).isLt
    have h4 : (y 4).val < 128 := (y 4).isLt
    omega⟩

/-- The staging buffer's contents after a nest: the looked-up entry of the row plus the position's bias. -/
def nestG (row : FVec F S1x100000 .f32) (tb : IVec S4096 32) (bias : FVec F S208 .f32) (l0 : Nat) (hl0 : l0 + 4 ≤ 208) :
    FVec F S4x1x8x1x128 .f32 :=
  fun y => FloatOps.addf (row (ix2 (0 : Fin 1) (col (tb (ix1 (flatOf y))))))
    (bias (ix1 (⟨l0 + (y 0).val, by have h0 : (y 0).val < 4 := (y 0).isLt; omega⟩ : Fin 208)))

/-! ## The lanes of one stored vector -/

/-- A gathered bias vector whose sixteen indices are all the word `w` reads `bias[w]` in every lane. -/
theorem bias_lane (bias bias' : FVec F S208 .f32) (hbias : bias' = bias) (w : BitVec 32)
    (h : ∀ a x, ((![broadcast S16 w] : Fin 1 → IVec S16 32) a x).toNat < S208.size a) (l : Nat) (hw : w.toNat = l)
    (i : Fin 16) (b : Fin 208) (hb : b.val = l) :
    loadIdx (F := F) (s := S208) (t := S16) (e := .f32) bias' ![broadcast S16 w] h (ix1 i) = bias (ix1 b) := by
  subst hbias
  unfold loadIdx idxAt
  refine congrArg bias' (funext fun a => ?_)
  match a with
  | ⟨0, _⟩ => exact Fin.ext (by show w.toNat = b.val; omega)

/-- Sixteen consecutive token words read from position `m`: lane `i` is the word at `m + i`. -/
theorem readAt_lane (tb : IVec S4096 32) (o : Fin 1 → Nat) (inb : ∀ a, o a + S16.size a ≤ S4096.size a) (m : Nat)
    (ho : o = ![m]) (i : Fin 16) (q : Fin 4096) (hq : q.val = m + i.val) :
    tb ((Rect.unit (s := S4096) o S16.size inb).toLoadRect.idx (ix1 i)) = tb (ix1 q) := by
  subst ho
  refine congrArg tb (funext fun a => ?_)
  match a with
  | ⟨0, _⟩ => exact Fin.ext (by show m + 1 * i.val = q.val; omega)

/-- One lane of a stored vector: the row gathered at the token words `tv` (row index `0`), plus the bias vector. -/
theorem pay_lane (row row' : FVec F S1x100000 .f32) (hrow : row' = row) (tb : IVec S4096 32) (bias : FVec F S208 .f32) (v2 tv : IVec S16 32)
    (hidx : ∀ a x, ((![v2, tv] : Fin 2 → IVec S16 32) a x).toNat < S1x100000.size a) (hz : ∀ x, (v2 x).toNat < 1)
    (v314 : FVec F S16 .f32) (m l : Nat)
    (htv : ∀ (i : Fin 16) (q : Fin 4096), q.val = m + i.val → tv (ix1 i) = tb (ix1 q))
    (hv : ∀ (i : Fin 16) (b : Fin 208), b.val = l → v314 (ix1 i) = bias (ix1 b))
    (i : Fin 16) (q : Fin 4096) (b : Fin 208) (hq : q.val = m + i.val) (hb : b.val = l) :
    addf (loadIdx (F := F) (s := S1x100000) (t := S16) (e := .f32) row' ![v2, tv] hidx : FVec F S16 .f32) v314 (ix1 i)
      = FloatOps.addf (row (ix2 (0 : Fin 1) (col (tb (ix1 q))))) (bias (ix1 b)) := by
  subst hrow
  show FloatOps.addf (loadIdx (F := F) (s := S1x100000) (t := S16) (e := .f32) row' ![v2, tv] hidx (ix1 i)) (v314 (ix1 i)) = _
  rw [hv i b hb]
  congr 1
  unfold loadIdx idxAt
  refine congrArg row' (funext fun a => ?_)
  match a with
  | ⟨0, _⟩ => exact Fin.ext (by show (v2 (ix1 i)).toNat = 0; have := hz (ix1 i); omega)
  | ⟨1, _⟩ =>
    refine Fin.ext ?_
    show (tv (ix1 i)).toNat = (tb (ix1 q)).toNat % 100000
    have h1 : (tv (ix1 i)).toNat < 100000 := hidx 1 (ix1 i)
    rw [← htv i q hq, Nat.mod_eq_of_lt h1]

/-! ## One stored vector against the nest's value -/

/-- An entry lies in the sixteen-lane rectangle at `(r, 0, c, 0, x0)` when its coordinates say so. -/
theorem mem_unit16 {o : Fin 5 → Nat} {inb : ∀ a, o a + S1x1x1x1x16.size a ≤ S4x1x8x1x128.size a} (y : S4x1x8x1x128.Idx)
    (r c x0 : Nat) (ho : o = ![r, 0, c, 0, x0]) (h0 : (y 0).val = r) (h2 : (y 2).val = c)
    (h4 : x0 ≤ (y 4).val ∧ (y 4).val < x0 + 16) : y ∈ (Rect.unit (s := S4x1x8x1x128) o S1x1x1x1x16.size inb).set := by
  subst ho
  rw [Rect.mem_set_unit]
  intro a
  match a with
  | ⟨0, _⟩ => show r ≤ (y 0).val ∧ (y 0).val < r + 1; omega
  | ⟨1, _⟩ => show 0 ≤ (y 1).val ∧ (y 1).val < 0 + 1; have : (y 1).val < 1 := (y 1).isLt; omega
  | ⟨2, _⟩ => show c ≤ (y 2).val ∧ (y 2).val < c + 1; omega
  | ⟨3, _⟩ => show 0 ≤ (y 3).val ∧ (y 3).val < 0 + 1; have : (y 3).val < 1 := (y 3).isLt; omega
  | ⟨4, _⟩ => show x0 ≤ (y 4).val ∧ (y 4).val < x0 + 16; omega

/-- A stored vector whose lanes are the looked-up entries at token positions `r * 1024 + c * 128 + x0 + i` plus
    `bias[l0 + r]` agrees with the nest's value on the rectangle at `(r, 0, c, 0, x0)`. -/
theorem piece_agree (row : FVec F S1x100000 .f32) (tb : IVec S4096 32) (bias : FVec F S208 .f32) (l0 : Nat) (hl0 : l0 + 4 ≤ 208)
    (o : Fin 5 → Nat) (inb : ∀ a, o a + S1x1x1x1x16.size a ≤ S4x1x8x1x128.size a) (r c x0 : Nat) (ho : o = ![r, 0, c, 0, x0])
    (p : FVec F S16 .f32) (hc : S16.ShapeCasts S1x1x1x1x16)
    (hp : ∀ (i : Fin 16) (q : Fin 4096) (b : Fin 208), q.val = r * 1024 + c * 128 + x0 + i.val → b.val = l0 + r →
      p (ix1 i) = FloatOps.addf (row (ix2 (0 : Fin 1) (col (tb (ix1 q))))) (bias (ix1 b)))
    (x : S1x1x1x1x16.Idx) :
    shapeCast S1x1x1x1x16 p hc x = nestG row tb bias l0 hl0 ((Rect.unit (s := S4x1x8x1x128) o S1x1x1x1x16.size inb).emb x) := by
  subst ho
  have x0lt : (x 0).val < 1 := (x 0).isLt
  have x1lt : (x 1).val < 1 := (x 1).isLt
  have x2lt : (x 2).val < 1 := (x 2).isLt
  have x3lt : (x 3).val < 1 := (x 3).isLt
  have e : shapeCast S1x1x1x1x16 p hc x = p (ix1 (x 4 : Fin 16)) :=
    shapeCast_apply p hc x (ix1 (x 4 : Fin 16)) (by
      rw [Shape.rowMajor_val_one, Shape.rowMajor_val_five]
      show (x 4).val = ((((x 0).val * 1 + (x 1).val) * 1 + (x 2).val) * 1 + (x 3).val) * 16 + (x 4).val
      omega)
  rw [e]
  unfold nestG
  refine hp (x 4 : Fin 16) _ _ ?_ ?_
  · show (r + 1 * (x 0).val) * 1024 + (c + 1 * (x 2).val) * 128 + (x0 + 1 * (x 4).val) = r * 1024 + c * 128 + x0 + (x 4).val
    omega
  · show l0 + (r + 1 * (x 0).val) = l0 + r
    omega

/-! ## A trip keeps "filled below `n`" -/

variable {sig : RefSig} {κ : Kind} {sp : Space}

/-- Writes that agree with `G` and cover the entries at token positions `[n, n + 256)` move "filled below `n`" to
    "filled below `n + 256`". -/
theorem filled_step (v : View sig κ sp S4x1x8x1x128 .f32) (G : FVec F S4x1x8x1x128 .f32) (g : v.ty.Contents (Elt F)) (n : Nat)
    (hg : ∀ y, (flatOf y).val < n → v.read (Elt F) g y = G y)
    (L : List (View.Piece (Elt F) S4x1x8x1x128 .f32))
    (hG : ∀ p ∈ L, ∀ x : p.1.shape.Idx, p.2 x = G (p.1.emb x))
    (hcov : ∀ y, n ≤ (flatOf y).val → (flatOf y).val < n + 256 → ∃ p ∈ L, y ∈ p.1.set) :
    ∀ y, (flatOf y).val < n + 256 → v.read (Elt F) (v.writes (Elt F) g L) y = G y := by
  intro y hy
  by_cases h : ∃ p ∈ L, y ∈ p.1.set
  · exact View.read_writes_apply_of_pieces v g G L hG y h
  · rw [View.read_writes_apply_of_forall_not_mem v g y L (fun p hp hm => h ⟨p, hp, hm⟩)]
    refine hg y ?_
    by_contra hn
    exact h (hcov y (by omega) hy)

/-- Trip `(t2, t3)` of a nest: its sixteen stores (the last first), each at its rectangle `o_k` in closed form and each
    vector `p_k` with lanes the looked-up entries at token positions `1024 * t2 + 256 * t3 + 16 * k + i` plus
    `bias[l0 + t2]`, move "filled below `1024 * t2 + 256 * t3`" up by 256. -/
theorem filled_step16 (v : View sig κ sp S4x1x8x1x128 .f32) (row : FVec F S1x100000 .f32) (tb : IVec S4096 32)
    (bias : FVec F S208 .f32) (l0 : Nat) (hl0 : l0 + 4 ≤ 208) (g : v.ty.Contents (Elt F)) (t2 t3 : Nat) (ht2 : t2 < 4) (ht3 : t3 < 4)
    (hg : ∀ y, (flatOf y).val < 1024 * t2 + 256 * t3 → v.read (Elt F) g y = nestG row tb bias l0 hl0 y)
    {hc : S16.ShapeCasts S1x1x1x1x16}
    {o0 : Fin 5 → Nat} {i0 : ∀ a, o0 a + S1x1x1x1x16.size a ≤ S4x1x8x1x128.size a} {p0 : FVec F S16 .f32}
    {o1 : Fin 5 → Nat} {i1 : ∀ a, o1 a + S1x1x1x1x16.size a ≤ S4x1x8x1x128.size a} {p1 : FVec F S16 .f32}
    {o2 : Fin 5 → Nat} {i2 : ∀ a, o2 a + S1x1x1x1x16.size a ≤ S4x1x8x1x128.size a} {p2 : FVec F S16 .f32}
    {o3 : Fin 5 → Nat} {i3 : ∀ a, o3 a + S1x1x1x1x16.size a ≤ S4x1x8x1x128.size a} {p3 : FVec F S16 .f32}
    {o4 : Fin 5 → Nat} {i4 : ∀ a, o4 a + S1x1x1x1x16.size a ≤ S4x1x8x1x128.size a} {p4 : FVec F S16 .f32}
    {o5 : Fin 5 → Nat} {i5 : ∀ a, o5 a + S1x1x1x1x16.size a ≤ S4x1x8x1x128.size a} {p5 : FVec F S16 .f32}
    {o6 : Fin 5 → Nat} {i6 : ∀ a, o6 a + S1x1x1x1x16.size a ≤ S4x1x8x1x128.size a} {p6 : FVec F S16 .f32}
    {o7 : Fin 5 → Nat} {i7 : ∀ a, o7 a + S1x1x1x1x16.size a ≤ S4x1x8x1x128.size a} {p7 : FVec F S16 .f32}
    {o8 : Fin 5 → Nat} {i8 : ∀ a, o8 a + S1x1x1x1x16.size a ≤ S4x1x8x1x128.size a} {p8 : FVec F S16 .f32}
    {o9 : Fin 5 → Nat} {i9 : ∀ a, o9 a + S1x1x1x1x16.size a ≤ S4x1x8x1x128.size a} {p9 : FVec F S16 .f32}
    {o10 : Fin 5 → Nat} {i10 : ∀ a, o10 a + S1x1x1x1x16.size a ≤ S4x1x8x1x128.size a} {p10 : FVec F S16 .f32}
    {o11 : Fin 5 → Nat} {i11 : ∀ a, o11 a + S1x1x1x1x16.size a ≤ S4x1x8x1x128.size a} {p11 : FVec F S16 .f32}
    {o12 : Fin 5 → Nat} {i12 : ∀ a, o12 a + S1x1x1x1x16.size a ≤ S4x1x8x1x128.size a} {p12 : FVec F S16 .f32}
    {o13 : Fin 5 → Nat} {i13 : ∀ a, o13 a + S1x1x1x1x16.size a ≤ S4x1x8x1x128.size a} {p13 : FVec F S16 .f32}
    {o14 : Fin 5 → Nat} {i14 : ∀ a, o14 a + S1x1x1x1x16.size a ≤ S4x1x8x1x128.size a} {p14 : FVec F S16 .f32}
    {o15 : Fin 5 → Nat} {i15 : ∀ a, o15 a + S1x1x1x1x16.size a ≤ S4x1x8x1x128.size a} {p15 : FVec F S16 .f32}
    (h0 : o0 = ![t2, 0, 2 * t3 + 0, 0, 0])
    (h1 : o1 = ![t2, 0, 2 * t3 + 0, 0, 16])
    (h2 : o2 = ![t2, 0, 2 * t3 + 0, 0, 32])
    (h3 : o3 = ![t2, 0, 2 * t3 + 0, 0, 48])
    (h4 : o4 = ![t2, 0, 2 * t3 + 0, 0, 64])
    (h5 : o5 = ![t2, 0, 2 * t3 + 0, 0, 80])
    (h6 : o6 = ![t2, 0, 2 * t3 + 0, 0, 96])
    (h7 : o7 = ![t2, 0, 2 * t3 + 0, 0, 112])
    (h8 : o8 = ![t2, 0, 2 * t3 + 1, 0, 0])
    (h9 : o9 = ![t2, 0, 2 * t3 + 1, 0, 16])
    (h10 : o10 = ![t2, 0, 2 * t3 + 1, 0, 32])
    (h11 : o11 = ![t2, 0, 2 * t3 + 1, 0, 48])
    (h12 : o12 = ![t2, 0, 2 * t3 + 1, 0, 64])
    (h13 : o13 = ![t2, 0, 2 * t3 + 1, 0, 80])
    (h14 : o14 = ![t2, 0, 2 * t3 + 1, 0, 96])
    (h15 : o15 = ![t2, 0, 2 * t3 + 1, 0, 112])
    (a0 : ∀ (i : Fin 16) (q : Fin 4096) (b : Fin 208), q.val = 1024 * t2 + 256 * t3 + 0 + i.val → b.val = l0 + t2 →
      p0 (ix1 i) = FloatOps.addf (row (ix2 (0 : Fin 1) (col (tb (ix1 q))))) (bias (ix1 b)))
    (a1 : ∀ (i : Fin 16) (q : Fin 4096) (b : Fin 208), q.val = 1024 * t2 + 256 * t3 + 16 + i.val → b.val = l0 + t2 →
      p1 (ix1 i) = FloatOps.addf (row (ix2 (0 : Fin 1) (col (tb (ix1 q))))) (bias (ix1 b)))
    (a2 : ∀ (i : Fin 16) (q : Fin 4096) (b : Fin 208), q.val = 1024 * t2 + 256 * t3 + 32 + i.val → b.val = l0 + t2 →
      p2 (ix1 i) = FloatOps.addf (row (ix2 (0 : Fin 1) (col (tb (ix1 q))))) (bias (ix1 b)))
    (a3 : ∀ (i : Fin 16) (q : Fin 4096) (b : Fin 208), q.val = 1024 * t2 + 256 * t3 + 48 + i.val → b.val = l0 + t2 →
      p3 (ix1 i) = FloatOps.addf (row (ix2 (0 : Fin 1) (col (tb (ix1 q))))) (bias (ix1 b)))
    (a4 : ∀ (i : Fin 16) (q : Fin 4096) (b : Fin 208), q.val = 1024 * t2 + 256 * t3 + 64 + i.val → b.val = l0 + t2 →
      p4 (ix1 i) = FloatOps.addf (row (ix2 (0 : Fin 1) (col (tb (ix1 q))))) (bias (ix1 b)))
    (a5 : ∀ (i : Fin 16) (q : Fin 4096) (b : Fin 208), q.val = 1024 * t2 + 256 * t3 + 80 + i.val → b.val = l0 + t2 →
      p5 (ix1 i) = FloatOps.addf (row (ix2 (0 : Fin 1) (col (tb (ix1 q))))) (bias (ix1 b)))
    (a6 : ∀ (i : Fin 16) (q : Fin 4096) (b : Fin 208), q.val = 1024 * t2 + 256 * t3 + 96 + i.val → b.val = l0 + t2 →
      p6 (ix1 i) = FloatOps.addf (row (ix2 (0 : Fin 1) (col (tb (ix1 q))))) (bias (ix1 b)))
    (a7 : ∀ (i : Fin 16) (q : Fin 4096) (b : Fin 208), q.val = 1024 * t2 + 256 * t3 + 112 + i.val → b.val = l0 + t2 →
      p7 (ix1 i) = FloatOps.addf (row (ix2 (0 : Fin 1) (col (tb (ix1 q))))) (bias (ix1 b)))
    (a8 : ∀ (i : Fin 16) (q : Fin 4096) (b : Fin 208), q.val = 1024 * t2 + 256 * t3 + 128 + i.val → b.val = l0 + t2 →
      p8 (ix1 i) = FloatOps.addf (row (ix2 (0 : Fin 1) (col (tb (ix1 q))))) (bias (ix1 b)))
    (a9 : ∀ (i : Fin 16) (q : Fin 4096) (b : Fin 208), q.val = 1024 * t2 + 256 * t3 + 144 + i.val → b.val = l0 + t2 →
      p9 (ix1 i) = FloatOps.addf (row (ix2 (0 : Fin 1) (col (tb (ix1 q))))) (bias (ix1 b)))
    (a10 : ∀ (i : Fin 16) (q : Fin 4096) (b : Fin 208), q.val = 1024 * t2 + 256 * t3 + 160 + i.val → b.val = l0 + t2 →
      p10 (ix1 i) = FloatOps.addf (row (ix2 (0 : Fin 1) (col (tb (ix1 q))))) (bias (ix1 b)))
    (a11 : ∀ (i : Fin 16) (q : Fin 4096) (b : Fin 208), q.val = 1024 * t2 + 256 * t3 + 176 + i.val → b.val = l0 + t2 →
      p11 (ix1 i) = FloatOps.addf (row (ix2 (0 : Fin 1) (col (tb (ix1 q))))) (bias (ix1 b)))
    (a12 : ∀ (i : Fin 16) (q : Fin 4096) (b : Fin 208), q.val = 1024 * t2 + 256 * t3 + 192 + i.val → b.val = l0 + t2 →
      p12 (ix1 i) = FloatOps.addf (row (ix2 (0 : Fin 1) (col (tb (ix1 q))))) (bias (ix1 b)))
    (a13 : ∀ (i : Fin 16) (q : Fin 4096) (b : Fin 208), q.val = 1024 * t2 + 256 * t3 + 208 + i.val → b.val = l0 + t2 →
      p13 (ix1 i) = FloatOps.addf (row (ix2 (0 : Fin 1) (col (tb (ix1 q))))) (bias (ix1 b)))
    (a14 : ∀ (i : Fin 16) (q : Fin 4096) (b : Fin 208), q.val = 1024 * t2 + 256 * t3 + 224 + i.val → b.val = l0 + t2 →
      p14 (ix1 i) = FloatOps.addf (row (ix2 (0 : Fin 1) (col (tb (ix1 q))))) (bias (ix1 b)))
    (a15 : ∀ (i : Fin 16) (q : Fin 4096) (b : Fin 208), q.val = 1024 * t2 + 256 * t3 + 240 + i.val → b.val = l0 + t2 →
      p15 (ix1 i) = FloatOps.addf (row (ix2 (0 : Fin 1) (col (tb (ix1 q))))) (bias (ix1 b))) :
    ∀ y, (flatOf y).val < 1024 * t2 + 256 * t3 + 256 →
      v.read (Elt F) (v.writes (Elt F) g
       [⟨Rect.unit (s := S4x1x8x1x128) o15 S1x1x1x1x16.size i15, shapeCast S1x1x1x1x16 p15 hc⟩,
        ⟨Rect.unit (s := S4x1x8x1x128) o14 S1x1x1x1x16.size i14, shapeCast S1x1x1x1x16 p14 hc⟩,
        ⟨Rect.unit (s := S4x1x8x1x128) o13 S1x1x1x1x16.size i13, shapeCast S1x1x1x1x16 p13 hc⟩,
        ⟨Rect.unit (s := S4x1x8x1x128) o12 S1x1x1x1x16.size i12, shapeCast S1x1x1x1x16 p12 hc⟩,
        ⟨Rect.unit (s := S4x1x8x1x128) o11 S1x1x1x1x16.size i11, shapeCast S1x1x1x1x16 p11 hc⟩,
        ⟨Rect.unit (s := S4x1x8x1x128) o10 S1x1x1x1x16.size i10, shapeCast S1x1x1x1x16 p10 hc⟩,
        ⟨Rect.unit (s := S4x1x8x1x128) o9 S1x1x1x1x16.size i9, shapeCast S1x1x1x1x16 p9 hc⟩,
        ⟨Rect.unit (s := S4x1x8x1x128) o8 S1x1x1x1x16.size i8, shapeCast S1x1x1x1x16 p8 hc⟩,
        ⟨Rect.unit (s := S4x1x8x1x128) o7 S1x1x1x1x16.size i7, shapeCast S1x1x1x1x16 p7 hc⟩,
        ⟨Rect.unit (s := S4x1x8x1x128) o6 S1x1x1x1x16.size i6, shapeCast S1x1x1x1x16 p6 hc⟩,
        ⟨Rect.unit (s := S4x1x8x1x128) o5 S1x1x1x1x16.size i5, shapeCast S1x1x1x1x16 p5 hc⟩,
        ⟨Rect.unit (s := S4x1x8x1x128) o4 S1x1x1x1x16.size i4, shapeCast S1x1x1x1x16 p4 hc⟩,
        ⟨Rect.unit (s := S4x1x8x1x128) o3 S1x1x1x1x16.size i3, shapeCast S1x1x1x1x16 p3 hc⟩,
        ⟨Rect.unit (s := S4x1x8x1x128) o2 S1x1x1x1x16.size i2, shapeCast S1x1x1x1x16 p2 hc⟩,
        ⟨Rect.unit (s := S4x1x8x1x128) o1 S1x1x1x1x16.size i1, shapeCast S1x1x1x1x16 p1 hc⟩,
        ⟨Rect.unit (s := S4x1x8x1x128) o0 S1x1x1x1x16.size i0, shapeCast S1x1x1x1x16 p0 hc⟩]) y = nestG row tb bias l0 hl0 y := by
  refine filled_step v (nestG row tb bias l0 hl0) g (1024 * t2 + 256 * t3) hg _ ?hG ?hcov
  case hG =>
    intro p hp
    simp only [List.mem_cons, List.mem_nil_iff, or_false] at hp
    rcases hp with rfl | rfl | rfl | rfl | rfl | rfl | rfl | rfl | rfl | rfl | rfl | rfl | rfl | rfl | rfl | rfl
    · exact piece_agree row tb bias l0 hl0 o15 i15 t2 (2 * t3 + 1) 112 h15 p15 hc
        (fun i q b hq hb => a15 i q b (by omega) hb)
    · exact piece_agree row tb bias l0 hl0 o14 i14 t2 (2 * t3 + 1) 96 h14 p14 hc
        (fun i q b hq hb => a14 i q b (by omega) hb)
    · exact piece_agree row tb bias l0 hl0 o13 i13 t2 (2 * t3 + 1) 80 h13 p13 hc
        (fun i q b hq hb => a13 i q b (by omega) hb)
    · exact piece_agree row tb bias l0 hl0 o12 i12 t2 (2 * t3 + 1) 64 h12 p12 hc
        (fun i q b hq hb => a12 i q b (by omega) hb)
    · exact piece_agree row tb bias l0 hl0 o11 i11 t2 (2 * t3 + 1) 48 h11 p11 hc
        (fun i q b hq hb => a11 i q b (by omega) hb)
    · exact piece_agree row tb bias l0 hl0 o10 i10 t2 (2 * t3 + 1) 32 h10 p10 hc
        (fun i q b hq hb => a10 i q b (by omega) hb)
    · exact piece_agree row tb bias l0 hl0 o9 i9 t2 (2 * t3 + 1) 16 h9 p9 hc
        (fun i q b hq hb => a9 i q b (by omega) hb)
    · exact piece_agree row tb bias l0 hl0 o8 i8 t2 (2 * t3 + 1) 0 h8 p8 hc
        (fun i q b hq hb => a8 i q b (by omega) hb)
    · exact piece_agree row tb bias l0 hl0 o7 i7 t2 (2 * t3 + 0) 112 h7 p7 hc
        (fun i q b hq hb => a7 i q b (by omega) hb)
    · exact piece_agree row tb bias l0 hl0 o6 i6 t2 (2 * t3 + 0) 96 h6 p6 hc
        (fun i q b hq hb => a6 i q b (by omega) hb)
    · exact piece_agree row tb bias l0 hl0 o5 i5 t2 (2 * t3 + 0) 80 h5 p5 hc
        (fun i q b hq hb => a5 i q b (by omega) hb)
    · exact piece_agree row tb bias l0 hl0 o4 i4 t2 (2 * t3 + 0) 64 h4 p4 hc
        (fun i q b hq hb => a4 i q b (by omega) hb)
    · exact piece_agree row tb bias l0 hl0 o3 i3 t2 (2 * t3 + 0) 48 h3 p3 hc
        (fun i q b hq hb => a3 i q b (by omega) hb)
    · exact piece_agree row tb bias l0 hl0 o2 i2 t2 (2 * t3 + 0) 32 h2 p2 hc
        (fun i q b hq hb => a2 i q b (by omega) hb)
    · exact piece_agree row tb bias l0 hl0 o1 i1 t2 (2 * t3 + 0) 16 h1 p1 hc
        (fun i q b hq hb => a1 i q b (by omega) hb)
    · exact piece_agree row tb bias l0 hl0 o0 i0 t2 (2 * t3 + 0) 0 h0 p0 hc
        (fun i q b hq hb => a0 i q b (by omega) hb)
  case hcov =>
    intro y hlo hhi
    have y0 : (y 0).val < 4 := (y 0).isLt
    have y2 : (y 2).val < 8 := (y 2).isLt
    have y4 : (y 4).val < 128 := (y 4).isLt
    have hf : (flatOf y).val = (y 0).val * 1024 + (y 2).val * 128 + (y 4).val := rfl
    have e0 : (y 0).val = t2 := by omega
    have hj : (y 2).val = 2 * t3 + 0 ∨ (y 2).val = 2 * t3 + 1 := by omega
    have hi : (0 ≤ (y 4).val ∧ (y 4).val < 0 + 16) ∨ (16 ≤ (y 4).val ∧ (y 4).val < 16 + 16) ∨ (32 ≤ (y 4).val ∧ (y 4).val < 32 + 16) ∨ (48 ≤ (y 4).val ∧ (y 4).val < 48 + 16) ∨ (64 ≤ (y 4).val ∧ (y 4).val < 64 + 16) ∨ (80 ≤ (y 4).val ∧ (y 4).val < 80 + 16) ∨ (96 ≤ (y 4).val ∧ (y 4).val < 96 + 16) ∨ (112 ≤ (y 4).val ∧ (y 4).val < 112 + 16) := by omega
    rcases hj with e2 | e2 <;> rcases hi with e4 | e4 | e4 | e4 | e4 | e4 | e4 | e4
    · exact ⟨⟨Rect.unit (s := S4x1x8x1x128) o0 S1x1x1x1x16.size i0, shapeCast S1x1x1x1x16 p0 hc⟩,
        by simp only [List.mem_cons, true_or, or_true], mem_unit16 (inb := i0) y t2 (2 * t3 + 0) 0 h0 e0 e2 e4⟩
    · exact ⟨⟨Rect.unit (s := S4x1x8x1x128) o1 S1x1x1x1x16.size i1, shapeCast S1x1x1x1x16 p1 hc⟩,
        by simp only [List.mem_cons, true_or, or_true], mem_unit16 (inb := i1) y t2 (2 * t3 + 0) 16 h1 e0 e2 e4⟩
    · exact ⟨⟨Rect.unit (s := S4x1x8x1x128) o2 S1x1x1x1x16.size i2, shapeCast S1x1x1x1x16 p2 hc⟩,
        by simp only [List.mem_cons, true_or, or_true], mem_unit16 (inb := i2) y t2 (2 * t3 + 0) 32 h2 e0 e2 e4⟩
    · exact ⟨⟨Rect.unit (s := S4x1x8x1x128) o3 S1x1x1x1x16.size i3, shapeCast S1x1x1x1x16 p3 hc⟩,
        by simp only [List.mem_cons, true_or, or_true], mem_unit16 (inb := i3) y t2 (2 * t3 + 0) 48 h3 e0 e2 e4⟩
    · exact ⟨⟨Rect.unit (s := S4x1x8x1x128) o4 S1x1x1x1x16.size i4, shapeCast S1x1x1x1x16 p4 hc⟩,
        by simp only [List.mem_cons, true_or, or_true], mem_unit16 (inb := i4) y t2 (2 * t3 + 0) 64 h4 e0 e2 e4⟩
    · exact ⟨⟨Rect.unit (s := S4x1x8x1x128) o5 S1x1x1x1x16.size i5, shapeCast S1x1x1x1x16 p5 hc⟩,
        by simp only [List.mem_cons, true_or, or_true], mem_unit16 (inb := i5) y t2 (2 * t3 + 0) 80 h5 e0 e2 e4⟩
    · exact ⟨⟨Rect.unit (s := S4x1x8x1x128) o6 S1x1x1x1x16.size i6, shapeCast S1x1x1x1x16 p6 hc⟩,
        by simp only [List.mem_cons, true_or, or_true], mem_unit16 (inb := i6) y t2 (2 * t3 + 0) 96 h6 e0 e2 e4⟩
    · exact ⟨⟨Rect.unit (s := S4x1x8x1x128) o7 S1x1x1x1x16.size i7, shapeCast S1x1x1x1x16 p7 hc⟩,
        by simp only [List.mem_cons, true_or, or_true], mem_unit16 (inb := i7) y t2 (2 * t3 + 0) 112 h7 e0 e2 e4⟩
    · exact ⟨⟨Rect.unit (s := S4x1x8x1x128) o8 S1x1x1x1x16.size i8, shapeCast S1x1x1x1x16 p8 hc⟩,
        by simp only [List.mem_cons, true_or, or_true], mem_unit16 (inb := i8) y t2 (2 * t3 + 1) 0 h8 e0 e2 e4⟩
    · exact ⟨⟨Rect.unit (s := S4x1x8x1x128) o9 S1x1x1x1x16.size i9, shapeCast S1x1x1x1x16 p9 hc⟩,
        by simp only [List.mem_cons, true_or, or_true], mem_unit16 (inb := i9) y t2 (2 * t3 + 1) 16 h9 e0 e2 e4⟩
    · exact ⟨⟨Rect.unit (s := S4x1x8x1x128) o10 S1x1x1x1x16.size i10, shapeCast S1x1x1x1x16 p10 hc⟩,
        by simp only [List.mem_cons, true_or, or_true], mem_unit16 (inb := i10) y t2 (2 * t3 + 1) 32 h10 e0 e2 e4⟩
    · exact ⟨⟨Rect.unit (s := S4x1x8x1x128) o11 S1x1x1x1x16.size i11, shapeCast S1x1x1x1x16 p11 hc⟩,
        by simp only [List.mem_cons, true_or, or_true], mem_unit16 (inb := i11) y t2 (2 * t3 + 1) 48 h11 e0 e2 e4⟩
    · exact ⟨⟨Rect.unit (s := S4x1x8x1x128) o12 S1x1x1x1x16.size i12, shapeCast S1x1x1x1x16 p12 hc⟩,
        by simp only [List.mem_cons, true_or, or_true], mem_unit16 (inb := i12) y t2 (2 * t3 + 1) 64 h12 e0 e2 e4⟩
    · exact ⟨⟨Rect.unit (s := S4x1x8x1x128) o13 S1x1x1x1x16.size i13, shapeCast S1x1x1x1x16 p13 hc⟩,
        by simp only [List.mem_cons, true_or, or_true], mem_unit16 (inb := i13) y t2 (2 * t3 + 1) 80 h13 e0 e2 e4⟩
    · exact ⟨⟨Rect.unit (s := S4x1x8x1x128) o14 S1x1x1x1x16.size i14, shapeCast S1x1x1x1x16 p14 hc⟩,
        by simp only [List.mem_cons, true_or, or_true], mem_unit16 (inb := i14) y t2 (2 * t3 + 1) 96 h14 e0 e2 e4⟩
    · exact ⟨⟨Rect.unit (s := S4x1x8x1x128) o15 S1x1x1x1x16.size i15, shapeCast S1x1x1x1x16 p15 hc⟩,
        by simp only [List.mem_cons, true_or, or_true], mem_unit16 (inb := i15) y t2 (2 * t3 + 1) 112 h15 e0 e2 e4⟩

end Cert.Proof.NestK

end
-- ==== Proof.OutOffsK.lean ====
/-
  Where a tile's result chunks sit. In trip `t` of its feature loop the tile at grid point `i` (SparseCore `i 0`,
  subcore `i 1`) works on feature `4 * (i 1) + 2 * (i 0) + t`; the chunk of four positions starting at position `p`
  of that feature is the rectangle of the result array at offsets `(p, feature / 8, 0, feature % 8, 0)`. Each of the
  kernel's ten ways of computing such offsets is that closed form, decided over the 32 tiles, the two features of each and,
  inside the steady-state loop, its 23 trips.
-/
import proofs.«203565_g79912161509654_cont_9to1_m_411_39_alg».proof.Kernel

namespace Cert.Proof.BodyK

open Cert.Kernel

/-- The feature the tile at grid point `i` handles in trip `t`. -/
def featN (i : grid0.Coords) (t : Fin k0_t1_loop.trips) : Nat := 4 * (i 1).val + 2 * (i 0).val + t.val

theorem off13_eq : ∀ (i : grid0.Coords) (t : Fin k0_t1_loop.trips), k0_off13 i t = ![0, featN i t / 8, 0, featN i t % 8, 0] := by decide +kernel
theorem off23_eq : ∀ (i : grid0.Coords) (t : Fin k0_t1_loop.trips), k0_off23 i t = ![4, featN i t / 8, 0, featN i t % 8, 0] := by decide +kernel
theorem off25_eq : ∀ (i : grid0.Coords) (t : Fin k0_t1_loop.trips) (u : Fin k0_t6_loop.trips), k0_off25 i t u = ![8 * u.val, featN i t / 8, 0, featN i t % 8, 0] := by decide +kernel
theorem off35_eq : ∀ (i : grid0.Coords) (t : Fin k0_t1_loop.trips) (u : Fin k0_t6_loop.trips), k0_off35 i t u = ![8 * u.val + 8, featN i t / 8, 0, featN i t % 8, 0] := by decide +kernel
theorem off37_eq : ∀ (i : grid0.Coords) (t : Fin k0_t1_loop.trips) (u : Fin k0_t6_loop.trips), k0_off37 i t u = ![8 * u.val + 4, featN i t / 8, 0, featN i t % 8, 0] := by decide +kernel
theorem off47_eq : ∀ (i : grid0.Coords) (t : Fin k0_t1_loop.trips) (u : Fin k0_t6_loop.trips), k0_off47 i t u = ![8 * u.val + 12, featN i t / 8, 0, featN i t % 8, 0] := by decide +kernel
theorem off49_eq : ∀ (i : grid0.Coords) (t : Fin k0_t1_loop.trips), k0_off49 i t = ![184, featN i t / 8, 0, featN i t % 8, 0] := by decide +kernel
theorem off59_eq : ∀ (i : grid0.Coords) (t : Fin k0_t1_loop.trips), k0_off59 i t = ![192, featN i t / 8, 0, featN i t % 8, 0] := by decide +kernel
theorem off60_eq : ∀ (i : grid0.Coords) (t : Fin k0_t1_loop.trips), k0_off60 i t = ![188, featN i t / 8, 0, featN i t % 8, 0] := by decide +kernel
theorem off70_eq : ∀ (i : grid0.Coords) (t : Fin k0_t1_loop.trips), k0_off70 i t = ![196, featN i t / 8, 0, featN i t % 8, 0] := by decide +kernel

end Cert.Proof.BodyK
-- ==== Proof.OutSetsK.lean ====
/-
  A tile's part of the result array, by feature and by position.

  An entry of the result has five coordinates (position, d / 8, b / 128, d % 8, b % 128); its feature is
  8 * (d / 8) + d % 8. In trip t the tile at grid point i works on ONE feature, `featN i t`, and writes that feature's
  entries in fifty chunks of four consecutive positions: the chunk at position p is the rectangle of offsets
  (p, feature / 8, 0, feature % 8, 0) and sizes (4, 1, 8, 1, 128). What is still to write (positions from p on) loses the
  chunk at p and becomes what is to write from p + 4 on; what is done (positions below p) gains it. The tile's two
  features make up its whole part. Last, each rectangle the program slices out of the result, in the program's own
  spelling of its offsets, is one of these chunks.
-/
import proofs.«203565_g79912161509654_cont_9to1_m_411_39_alg».proof.Proof.LaunchDefsK
import proofs.«203565_g79912161509654_cont_9to1_m_411_39_alg».proof.Proof.OutOffsK

noncomputable section

namespace Cert.Proof.BodyK

open Cert.Kernel Cert.Kernel.Gen Cert.Proof.LaunchKernel Idealize.ShloMosaic

/-! ## The bounds of the coordinates -/

theorem core_lt (i : grid0.Coords) : (i 0).val < 2 := (i 0).isLt
theorem sub_lt (i : grid0.Coords) : (i 1).val < 16 := (i 1).isLt
theorem trips1_lt (t : Fin k0_t1_loop.trips) : t.val < 2 := Nat.lt_of_lt_of_le t.isLt k0_t1_abs.2.1
theorem trips6_lt (u : Fin k0_t6_loop.trips) : u.val < 23 := Nat.lt_of_lt_of_le u.isLt k0_t6_abs.2.1

/-- A tile's feature is one of the 64. -/
theorem featN_lt (i : grid0.Coords) (t : Fin k0_t1_loop.trips) : featN i t < 64 := by
  have := core_lt i; have := sub_lt i; have := trips1_lt t
  unfold featN; omega

/-! ## One feature's entries, those still to write and those done -/

/-- The entries of the result of the feature the tile works on in trip `t`. -/
def featSet (i : grid0.Coords) (t : Fin k0_t1_loop.trips) : Finset S200x8x8x8x128.Idx :=
  Finset.univ.filter fun j => featOf j = featN i t
/-- Those at positions from `p` on. -/
def remSet (i : grid0.Coords) (t : Fin k0_t1_loop.trips) (p : Nat) : Finset S200x8x8x8x128.Idx :=
  (featSet i t).filter fun j => p ≤ (j 0).val
/-- Those at positions below `p`. -/
def doneSet (i : grid0.Coords) (t : Fin k0_t1_loop.trips) (p : Nat) : Finset S200x8x8x8x128.Idx :=
  (featSet i t).filter fun j => (j 0).val < p

theorem mem_featSet {i : grid0.Coords} {t : Fin k0_t1_loop.trips} {j : S200x8x8x8x128.Idx} :
    j ∈ featSet i t ↔ featOf j = featN i t := by
  unfold featSet; rw [Finset.mem_filter]; exact ⟨fun h => h.2, fun h => ⟨Finset.mem_univ _, h⟩⟩
theorem mem_remSet {i : grid0.Coords} {t : Fin k0_t1_loop.trips} {p : Nat} {j : S200x8x8x8x128.Idx} :
    j ∈ remSet i t p ↔ featOf j = featN i t ∧ p ≤ (j 0).val := by
  unfold remSet; rw [Finset.mem_filter, mem_featSet]
theorem mem_doneSet {i : grid0.Coords} {t : Fin k0_t1_loop.trips} {p : Nat} {j : S200x8x8x8x128.Idx} :
    j ∈ doneSet i t p ↔ featOf j = featN i t ∧ (j 0).val < p := by
  unfold doneSet; rw [Finset.mem_filter, mem_featSet]

/-! ## A chunk -/

/-- The chunk at position `p` lies inside the result. -/
theorem chunk_inb (i : grid0.Coords) (t : Fin k0_t1_loop.trips) (p : Nat) (hp : p + 4 ≤ 200) :
    ∀ a, (![p, featN i t / 8, 0, featN i t % 8, 0] : Fin 5 → Nat) a + S4x1x8x1x128.size a ≤ S200x8x8x8x128.size a := by
  intro a
  have h := featN_lt i t
  match a with
  | ⟨0, _⟩ => show p + 4 ≤ 200; omega
  | ⟨1, _⟩ => show featN i t / 8 + 1 ≤ 8; omega
  | ⟨2, _⟩ => show 0 + 8 ≤ 8; omega
  | ⟨3, _⟩ => show featN i t % 8 + 1 ≤ 8; omega
  | ⟨4, _⟩ => show 0 + 128 ≤ 128; omega

/-- The chunk of four positions at `p` of the tile's feature, as a rectangle of the result. -/
abbrev chunkRect (i : grid0.Coords) (t : Fin k0_t1_loop.trips) (p : Nat) (hp : p + 4 ≤ 200) : Rect S200x8x8x8x128 :=
  Rect.unit (s := S200x8x8x8x128) ![p, featN i t / 8, 0, featN i t % 8, 0] S4x1x8x1x128.size (chunk_inb i t p hp)

/-- Its entries. -/
def chunkSet (i : grid0.Coords) (t : Fin k0_t1_loop.trips) (p : Nat) (hp : p + 4 ≤ 200) : Finset S200x8x8x8x128.Idx :=
  (chunkRect i t p hp).set

/-- An entry is in the chunk at `p` when its position is one of the four from `p` and its feature the tile's. -/
theorem mem_chunkSet {i : grid0.Coords} {t : Fin k0_t1_loop.trips} {p : Nat} {hp : p + 4 ≤ 200} {j : S200x8x8x8x128.Idx} :
    j ∈ chunkSet i t p hp ↔ p ≤ (j 0).val ∧ (j 0).val < p + 4 ∧ featOf j = featN i t := by
  unfold chunkSet
  rw [Rect.mem_set_unit]
  have hf := featN_lt i t
  have h1 : (j 1).val < 8 := (j 1).isLt
  have h2 : (j 2).val < 8 := (j 2).isLt
  have h3 : (j 3).val < 8 := (j 3).isLt
  have h4 : (j 4).val < 128 := (j 4).isLt
  unfold featOf
  constructor
  · intro h
    have a0 : p ≤ (j 0).val ∧ (j 0).val < p + 4 := h 0
    have a1 : featN i t / 8 ≤ (j 1).val ∧ (j 1).val < featN i t / 8 + 1 := h 1
    have a3 : featN i t % 8 ≤ (j 3).val ∧ (j 3).val < featN i t % 8 + 1 := h 3
    omega
  · rintro ⟨hlo, hhi, hfe⟩ a
    match a with
    | ⟨0, _⟩ => exact (show p ≤ (j 0).val ∧ (j 0).val < p + 4 from ⟨hlo, hhi⟩)
    | ⟨1, _⟩ => exact (show featN i t / 8 ≤ (j 1).val ∧ (j 1).val < featN i t / 8 + 1 from by omega)
    | ⟨2, _⟩ => exact (show 0 ≤ (j 2).val ∧ (j 2).val < 0 + 8 from by omega)
    | ⟨3, _⟩ => exact (show featN i t % 8 ≤ (j 3).val ∧ (j 3).val < featN i t % 8 + 1 from by omega)
    | ⟨4, _⟩ => exact (show 0 ≤ (j 4).val ∧ (j 4).val < 0 + 128 from by omega)

/-! ## Carving a chunk out of what is to write, joining it to what is done -/

section Carve
variable (i : grid0.Coords) (t : Fin k0_t1_loop.trips) (p : Nat) (hp : p + 4 ≤ 200)

theorem chunk_sub_rem : chunkSet i t p hp ⊆ remSet i t p := fun j h => by
  rw [mem_chunkSet] at h; rw [mem_remSet]; exact ⟨h.2.2, h.1⟩

theorem rem_sdiff_chunk : remSet i t p \ chunkSet i t p hp = remSet i t (p + 4) := by
  ext j
  rw [Finset.mem_sdiff, mem_remSet, mem_remSet, mem_chunkSet]
  omega

theorem done_disj_chunk : Disjoint (doneSet i t p) (chunkSet i t p hp) :=
  Finset.disjoint_left.2 fun j h1 h2 => by
    rw [mem_doneSet] at h1; rw [mem_chunkSet] at h2; omega

theorem done_union_chunk : doneSet i t p ∪ chunkSet i t p hp = doneSet i t (p + 4) := by
  ext j
  rw [Finset.mem_union, mem_doneSet, mem_doneSet, mem_chunkSet]
  omega

theorem rem_zero : remSet i t 0 = featSet i t := by
  ext j; rw [mem_remSet, mem_featSet]; omega

theorem rem_200 : remSet i t 200 = ∅ := by
  ext j
  have h0 : (j 0).val < 200 := (j 0).isLt
  rw [mem_remSet]
  simp only [Finset.notMem_empty, iff_false]
  omega

theorem done_zero : doneSet i t 0 = ∅ := by
  ext j
  rw [mem_doneSet]
  simp only [Finset.notMem_empty, iff_false]
  omega

theorem done_200 : doneSet i t 200 = featSet i t := by
  ext j
  have h0 : (j 0).val < 200 := (j 0).isLt
  rw [mem_doneSet, mem_featSet]; omega

end Carve

/-! ## The tile's part is its two features' entries -/

theorem cV_val (i : grid0.Coords) : (cV i).val = (i 0).val := rfl
theorem jV_val (i : grid0.Coords) : (jV i).val = (i 1).val := rfl

theorem outSet_feats (i : grid0.Coords) (t0 t1 : Fin k0_t1_loop.trips) (h0 : t0.val = 0) (h1 : t1.val = 1) :
    outSet (cV i) (jV i) = featSet i t0 ∪ featSet i t1 ∧ Disjoint (featSet i t0) (featSet i t1) := by
  constructor
  · ext j
    rw [mem_outSet, Finset.mem_union, mem_featSet, mem_featSet, cV_val, jV_val]
    unfold featN
    omega
  · refine Finset.disjoint_left.2 fun j a b => ?_
    rw [mem_featSet] at a b
    unfold featN at a b
    omega

/-! ## The program's own slices are chunks -/

/-- Unit rectangles at equal offsets are equal. -/
theorem rect_unit_congr {s : Shape} {o o' sz : Fin s.rank → Nat} (h : o = o') (inb : ∀ a, o a + sz a ≤ s.size a)
    (inb' : ∀ a, o' a + sz a ≤ s.size a) : Rect.unit (s := s) o sz inb = Rect.unit (s := s) o' sz inb' := by
  subst h; rfl

theorem slice13_set (i : grid0.Coords) (t : Fin k0_t1_loop.trips) :
    ((Memref.whole main_v6_scv : Memref sig .scVector .hbm S200x8x8x8x128 .f32).slice
        (Rect.unit (s := S200x8x8x8x128) (k0_off13 i t) S4x1x8x1x128.size (k0_off13_inb i t)) (fun _ => rfl)).view.set
      = chunkSet i t (0) (by norm_num) :=
  (View.set_slice_whole _ _).trans (congrArg (fun r : Rect S200x8x8x8x128 => r.set) (rect_unit_congr (off13_eq i t) _ _))

theorem slice23_set (i : grid0.Coords) (t : Fin k0_t1_loop.trips) :
    ((Memref.whole main_v6_scv : Memref sig .scVector .hbm S200x8x8x8x128 .f32).slice
        (Rect.unit (s := S200x8x8x8x128) (k0_off23 i t) S4x1x8x1x128.size (k0_off23_inb i t)) (fun _ => rfl)).view.set
      = chunkSet i t (4) (by norm_num) :=
  (View.set_slice_whole _ _).trans (congrArg (fun r : Rect S200x8x8x8x128 => r.set) (rect_unit_congr (off23_eq i t) _ _))

theorem slice25_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off25 i t u) S4x1x8x1x128.size (k0_off25_inb i t u)) (fun _ => rfl)).view.set
      = chunkSet i t (8 * u.val) (by have := trips6_lt u; omega) :=
  (View.set_slice_whole _ _).trans (congrArg (fun r : Rect S200x8x8x8x128 => r.set) (rect_unit_congr (off25_eq i t u) _ _))

theorem slice35_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off35 i t u) S4x1x8x1x128.size (k0_off35_inb i t u)) (fun _ => rfl)).view.set
      = chunkSet i t (8 * u.val + 8) (by have := trips6_lt u; omega) :=
  (View.set_slice_whole _ _).trans (congrArg (fun r : Rect S200x8x8x8x128 => r.set) (rect_unit_congr (off35_eq i t u) _ _))

theorem slice37_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off37 i t u) S4x1x8x1x128.size (k0_off37_inb i t u)) (fun _ => rfl)).view.set
      = chunkSet i t (8 * u.val + 4) (by have := trips6_lt u; omega) :=
  (View.set_slice_whole _ _).trans (congrArg (fun r : Rect S200x8x8x8x128 => r.set) (rect_unit_congr (off37_eq i t u) _ _))

theorem slice47_set (i : grid0.Coords) (t : Fin k0_t1_loop.trips) (u : Fin k0_t6_loop.trips) :
    ((Memref.whole main_v6_scv : Memref sig .scVector .hbm S200x8x8x8x128 .f32).slice
        (Rect.unit (s := S200x8x8x8x128) (k0_off47 i t u) S4x1x8x1x128.size (k0_off47_inb i t u)) (fun _ => rfl)).view.set
      = chunkSet i t (8 * u.val + 12) (by have := trips6_lt u; omega) :=
  (View.set_slice_whole _ _).trans (congrArg (fun r : Rect S200x8x8x8x128 => r.set) (rect_unit_congr (off47_eq i t u) _ _))

theorem slice49_set (i : grid0.Coords) (t : Fin k0_t1_loop.trips) :
    ((Memref.whole main_v6_scv : Memref sig .scVector .hbm S200x8x8x8x128 .f32).slice
        (Rect.unit (s := S200x8x8x8x128) (k0_off49 i t) S4x1x8x1x128.size (k0_off49_inb i t)) (fun _ => rfl)).view.set
      = chunkSet i t (184) (by norm_num) :=
  (View.set_slice_whole _ _).trans (congrArg (fun r : Rect S200x8x8x8x128 => r.set) (rect_unit_congr (off49_eq i t) _ _))

theorem slice59_set (i : grid0.Coords) (t : Fin k0_t1_loop.trips) :
    ((Memref.whole main_v6_scv : Memref sig .scVector .hbm S200x8x8x8x128 .f32).slice
        (Rect.unit (s := S200x8x8x8x128) (k0_off59 i t) S4x1x8x1x128.size (k0_off59_inb i t)) (fun _ => rfl)).view.set
      = chunkSet i t (192) (by norm_num) :=
  (View.set_slice_whole _ _).trans (congrArg (fun r : Rect S200x8x8x8x128 => r.set) (rect_unit_congr (off59_eq i t) _ _))

theorem slice60_set (i : grid0.Coords) (t : Fin k0_t1_loop.trips) :
    ((Memref.whole main_v6_scv : Memref sig .scVector .hbm S200x8x8x8x128 .f32).slice
        (Rect.unit (s := S200x8x8x8x128) (k0_off60 i t) S4x1x8x1x128.size (k0_off60_inb i t)) (fun _ => rfl)).view.set
      = chunkSet i t (188) (by norm_num) :=
  (View.set_slice_whole _ _).trans (congrArg (fun r : Rect S200x8x8x8x128 => r.set) (rect_unit_congr (off60_eq i t) _ _))

theorem slice70_set (i : grid0.Coords) (t : Fin k0_t1_loop.trips) :
    ((Memref.whole main_v6_scv : Memref sig .scVector .hbm S200x8x8x8x128 .f32).slice
        (Rect.unit (s := S200x8x8x8x128) (k0_off70 i t) S4x1x8x1x128.size (k0_off70_inb i t)) (fun _ => rfl)).view.set
      = chunkSet i t (196) (by norm_num) :=
  (View.set_slice_whole _ _).trans (congrArg (fun r : Rect S200x8x8x8x128 => r.set) (rect_unit_congr (off70_eq i t) _ _))

end Cert.Proof.BodyK

end
-- ==== Proof.ChunkValueK.lean ====
/-
  The value of one chunk. In trip t of the tile at grid point i (feature D = featN i t) the compute nest fills a staging
  buffer from: the row scratch, which holds row D of the feature-major word table; a token buffer, which holds the c-th
  run of 4096 token ids; and the bias scratch, whose entry l is the position table's feature D at position l plus segment
  0's feature D. The staging buffer's entry (r, 0, bh, 0, bl) is then the word table's feature D of the token at position
  4 c + r of batch row 128 bh + bl, plus that bias at 4 c + r: exactly what the specification asks of the result array's
  entry (4 c + r, D / 8, bh, D % 8, bl), where the chunk rectangle at position 4 c places it.
-/
import proofs.«203565_g79912161509654_cont_9to1_m_411_39_alg».proof.Proof.NestSpecK
import proofs.«203565_g79912161509654_cont_9to1_m_411_39_alg».proof.Proof.OutSetsK
import proofs.«203565_g79912161509654_cont_9to1_m_411_39_alg».proof.Proof.Spec

noncomputable section

namespace Cert.Proof.BodyK

open Cert.Kernel Cert.Kernel.Gen Cert.Proof.LaunchKernel Idealize.ShloMosaic Idealize.ShloMosaic.ValueIdx
open Cert.Proof.Spec Cert.Proof.NestK

variable {F : FTy → Type} [FloatOps F]

/-- Where the chunk rectangle at position `p` places the staging buffer's entry `y`: the offsets added coordinate by
    coordinate (the second and fourth coordinates of `y` are 0, their extents being 1). -/
theorem chunk_emb (i : grid0.Coords) (t : Fin k0_t1_loop.trips) (p : Nat) (hp : p + 4 ≤ 200) (y : S4x1x8x1x128.Idx) :
    (chunkRect i t p hp).emb y
      = ix5 (⟨p + (y 0).val, by have h : (y 0).val < 4 := (y 0).isLt; omega⟩ : Fin 200)
          (⟨featN i t / 8, by have := featN_lt i t; omega⟩ : Fin 8) (⟨(y 2).val, (y 2).isLt⟩ : Fin 8)
          (⟨featN i t % 8, by omega⟩ : Fin 8) (⟨(y 4).val, (y 4).isLt⟩ : Fin 128) := by
  have y1 : (y 1).val < 1 := (y 1).isLt
  have y3 : (y 3).val < 1 := (y 3).isLt
  funext a
  refine Fin.ext ?_
  match a with
  | ⟨0, _⟩ => show p + 1 * (y 0).val = p + (y 0).val; omega
  | ⟨1, _⟩ => show featN i t / 8 + 1 * (y 1).val = featN i t / 8; omega
  | ⟨2, _⟩ => show 0 + 1 * (y 2).val = (y 2).val; omega
  | ⟨3, _⟩ => show featN i t % 8 + 1 * (y 3).val = featN i t % 8; omega
  | ⟨4, _⟩ => show 0 + 1 * (y 4).val = (y 4).val; omega

/-- The nest's value at `y` is the specified result at the entry the chunk rectangle at position `4 c` places `y` at. -/
theorem chunk_value (tok : IVec S204800 32) (emb : FVec F S64x100000 .f32) (pos : FVec F S32768 .f32) (seg : FVec F S128 .f32)
    (i : grid0.Coords) (t : Fin k0_t1_loop.trips) (c : Nat) (hc : c < 50)
    (row : FVec F S1x100000 .f32)
    (hrow : ∀ y : S1x100000.Idx, row y = emb (ix2 (⟨featN i t, featN_lt i t⟩ : Fin 64) (y 1)))
    (tb : IVec S4096 32)
    (htb : ∀ y : S4096.Idx, tb y
      = tok (ix1 (⟨4096 * c + (y 0).val, by have h : (y 0).val < 4096 := (y 0).isLt; omega⟩ : Fin 204800)))
    (bias : FVec F S208 .f32)
    (hbias : ∀ l : Fin 208, l.val < 200 → bias (ix1 l)
      = FloatOps.addf (pos (ix1 (⟨featN i t * 512 + l.val, by have := featN_lt i t; have := l.isLt; omega⟩ : Fin 32768)))
          (seg (ix1 (⟨featN i t, by have := featN_lt i t; omega⟩ : Fin 128))))
    (y : S4x1x8x1x128.Idx) :
    nestG row tb bias (4 * c) (by omega) y
      = scOut tok emb pos seg ((chunkRect i t (4 * c) (by omega)).emb y) := by
  have hD := featN_lt i t
  have y0 : (y 0).val < 4 := (y 0).isLt
  have y2 : (y 2).val < 8 := (y 2).isLt
  have y4 : (y 4).val < 128 := (y 4).isLt
  rw [chunk_emb, scOut_apply]
  unfold scOutAt nestG
  -- the specification's coordinates, in closed form
  have hf : feat (⟨featN i t / 8, by omega⟩ : Fin 8) (⟨featN i t % 8, by omega⟩ : Fin 8) = (⟨featN i t, hD⟩ : Fin 64) :=
    Fin.ext (show featN i t / 8 * 8 + featN i t % 8 = featN i t by omega)
  have ht : tokAt (⟨4 * c + (y 0).val, by omega⟩ : Fin 200) (brow (⟨(y 2).val, y2⟩ : Fin 8) (⟨(y 4).val, y4⟩ : Fin 128))
      = (⟨4096 * c + (flatOf y).val, by have := (flatOf y).isLt; omega⟩ : Fin 204800) :=
    Fin.ext (show (4 * c + (y 0).val) * 1024 + ((y 2).val * 128 + (y 4).val)
      = 4096 * c + ((y 0).val * 1024 + (y 2).val * 128 + (y 4).val) by omega)
  rw [hf, ht, hrow, htb, hbias _ (show 4 * c + (y 0).val < 200 by omega)]
  rfl

end Cert.Proof.BodyK

end
-- ==== Proof.BiasValueK.lean ====
/-
  The bias scratch after its thirteen stores. The scratch has 208 entries and is written by thirteen stores of sixteen
  lanes, the k-th at offset 16 k. If lane x of the k-th stored vector is G (16 k + x), then the scratch reads G at every
  entry, whatever it held before: every entry lies under exactly the store k = l / 16, and each store agrees with G on its
  sixteen entries.
-/
import proofs.«203565_g79912161509654_cont_9to1_m_411_39_alg».proof.Kernel
import Idealize.ShloMosaic.Lib.Writes
import Idealize.ShloMosaic.Lib.ValueIdx

noncomputable section

namespace Cert.Proof.BodyK

open Cert.Kernel Cert.Kernel.Facts₀ Idealize.ShloMosaic Idealize.ShloMosaic.ValueIdx

variable {F : FTy → Type} [FloatOps F]

/-- A function of the entry's number as a function of the scratch's index. -/
def ofEntry (G : Fin 208 → F .f32) : S208.Idx → F .f32 := fun y => G ⟨(y 0).val, (y 0).isLt⟩

/-- A stored vector whose lane x is `G (o + x)` agrees with `G` on the sixteen entries from `o`. -/
theorem bias_piece_agree (G : Fin 208 → F .f32) (o : Nat) (inb : ∀ a, (![o] : Fin 1 → Nat) a + S16.size a ≤ S208.size a)
    (w : S16.Idx → F .f32) (ho : o + 16 ≤ 208)
    (h : ∀ x : S16.Idx, w x = G ⟨o + (x 0).val, by have h : (x 0).val < 16 := (x 0).isLt; omega⟩)
    (x : (Rect.unit (s := S208) ![o] S16.size inb).shape.Idx) :
    w x = ofEntry G ((Rect.unit (s := S208) ![o] S16.size inb).emb x) := by
  rw [h x]
  unfold ofEntry
  refine congrArg G (Fin.ext ?_)
  show o + (x 0).val = o + 1 * (x 0).val
  omega

/-- Entry `l` lies under the store at offset `o` when `o ≤ l < o + 16`. -/
theorem mem_unit16_1 (l : Fin 208) (o : Nat) (inb : ∀ a, (![o] : Fin 1 → Nat) a + S16.size a ≤ S208.size a)
    (h : o ≤ l.val ∧ l.val < o + 16) : ix1 l ∈ (Rect.unit (s := S208) ![o] S16.size inb).set := by
  rw [Rect.mem_set_unit]
  intro a
  match a with
  | ⟨0, _⟩ => exact (show o ≤ l.val ∧ l.val < o + 16 from h)

variable [Cert.Kernel.Facts]

/-- The scratch after the thirteen stores (the last first) reads `G` at every entry. -/
theorem bias_pieces {sig : RefSig} {κ : Kind} {sp : Space} (v : View sig κ sp S208 .f32) (f : v.ty.Contents (Elt F))
    (G : Fin 208 → F .f32) (w0 : S16.Idx → F .f32) (w1 : S16.Idx → F .f32) (w2 : S16.Idx → F .f32) (w3 : S16.Idx → F .f32) (w4 : S16.Idx → F .f32) (w5 : S16.Idx → F .f32) (w6 : S16.Idx → F .f32) (w7 : S16.Idx → F .f32) (w8 : S16.Idx → F .f32) (w9 : S16.Idx → F .f32) (w10 : S16.Idx → F .f32) (w11 : S16.Idx → F .f32) (w12 : S16.Idx → F .f32)
    (h0 : ∀ x : S16.Idx, w0 x = G ⟨0 + (x 0).val, by have h : (x 0).val < 16 := (x 0).isLt; omega⟩)
    (h1 : ∀ x : S16.Idx, w1 x = G ⟨16 + (x 0).val, by have h : (x 0).val < 16 := (x 0).isLt; omega⟩)
    (h2 : ∀ x : S16.Idx, w2 x = G ⟨32 + (x 0).val, by have h : (x 0).val < 16 := (x 0).isLt; omega⟩)
    (h3 : ∀ x : S16.Idx, w3 x = G ⟨48 + (x 0).val, by have h : (x 0).val < 16 := (x 0).isLt; omega⟩)
    (h4 : ∀ x : S16.Idx, w4 x = G ⟨64 + (x 0).val, by have h : (x 0).val < 16 := (x 0).isLt; omega⟩)
    (h5 : ∀ x : S16.Idx, w5 x = G ⟨80 + (x 0).val, by have h : (x 0).val < 16 := (x 0).isLt; omega⟩)
    (h6 : ∀ x : S16.Idx, w6 x = G ⟨96 + (x 0).val, by have h : (x 0).val < 16 := (x 0).isLt; omega⟩)
    (h7 : ∀ x : S16.Idx, w7 x = G ⟨112 + (x 0).val, by have h : (x 0).val < 16 := (x 0).isLt; omega⟩)
    (h8 : ∀ x : S16.Idx, w8 x = G ⟨128 + (x 0).val, by have h : (x 0).val < 16 := (x 0).isLt; omega⟩)
    (h9 : ∀ x : S16.Idx, w9 x = G ⟨144 + (x 0).val, by have h : (x 0).val < 16 := (x 0).isLt; omega⟩)
    (h10 : ∀ x : S16.Idx, w10 x = G ⟨160 + (x 0).val, by have h : (x 0).val < 16 := (x 0).isLt; omega⟩)
    (h11 : ∀ x : S16.Idx, w11 x = G ⟨176 + (x 0).val, by have h : (x 0).val < 16 := (x 0).isLt; omega⟩)
    (h12 : ∀ x : S16.Idx, w12 x = G ⟨192 + (x 0).val, by have h : (x 0).val < 16 := (x 0).isLt; omega⟩)
    (l : Fin 208) :
    v.read (Elt F) (v.writes (Elt F) f
       [⟨Rect.unit (s := S208) ![192] S16.size inb_S208_S16_192, w12⟩,
        ⟨Rect.unit (s := S208) ![176] S16.size inb_S208_S16_176, w11⟩,
        ⟨Rect.unit (s := S208) ![160] S16.size inb_S208_S16_160, w10⟩,
        ⟨Rect.unit (s := S208) ![144] S16.size inb_S208_S16_144, w9⟩,
        ⟨Rect.unit (s := S208) ![128] S16.size inb_S208_S16_128, w8⟩,
        ⟨Rect.unit (s := S208) ![112] S16.size inb_S208_S16_112, w7⟩,
        ⟨Rect.unit (s := S208) ![96] S16.size inb_S208_S16_96, w6⟩,
        ⟨Rect.unit (s := S208) ![80] S16.size inb_S208_S16_80, w5⟩,
        ⟨Rect.unit (s := S208) ![64] S16.size inb_S208_S16_64, w4⟩,
        ⟨Rect.unit (s := S208) ![48] S16.size inb_S208_S16_48, w3⟩,
        ⟨Rect.unit (s := S208) ![32] S16.size inb_S208_S16_32, w2⟩,
        ⟨Rect.unit (s := S208) ![16] S16.size inb_S208_S16_16, w1⟩,
        ⟨Rect.unit (s := S208) ![0] S16.size inb_S208_S16_0, w0⟩]) (ix1 l) = G l := by
  refine (View.read_writes_apply_of_pieces v f (ofEntry G) _ ?hG (ix1 l) ?hcov).trans rfl
  case hG =>
    intro p hp
    simp only [List.mem_cons, List.mem_nil_iff, or_false] at hp
    rcases hp with rfl | rfl | rfl | rfl | rfl | rfl | rfl | rfl | rfl | rfl | rfl | rfl | rfl
    · exact bias_piece_agree G 192 inb_S208_S16_192 w12 (by omega) h12
    · exact bias_piece_agree G 176 inb_S208_S16_176 w11 (by omega) h11
    · exact bias_piece_agree G 160 inb_S208_S16_160 w10 (by omega) h10
    · exact bias_piece_agree G 144 inb_S208_S16_144 w9 (by omega) h9
    · exact bias_piece_agree G 128 inb_S208_S16_128 w8 (by omega) h8
    · exact bias_piece_agree G 112 inb_S208_S16_112 w7 (by omega) h7
    · exact bias_piece_agree G 96 inb_S208_S16_96 w6 (by omega) h6
    · exact bias_piece_agree G 80 inb_S208_S16_80 w5 (by omega) h5
    · exact bias_piece_agree G 64 inb_S208_S16_64 w4 (by omega) h4
    · exact bias_piece_agree G 48 inb_S208_S16_48 w3 (by omega) h3
    · exact bias_piece_agree G 32 inb_S208_S16_32 w2 (by omega) h2
    · exact bias_piece_agree G 16 inb_S208_S16_16 w1 (by omega) h1
    · exact bias_piece_agree G 0 inb_S208_S16_0 w0 (by omega) h0
  case hcov =>
    have hl : l.val < 208 := l.isLt
    have hc : (0 ≤ l.val ∧ l.val < 0 + 16) ∨ (16 ≤ l.val ∧ l.val < 16 + 16) ∨ (32 ≤ l.val ∧ l.val < 32 + 16) ∨ (48 ≤ l.val ∧ l.val < 48 + 16) ∨ (64 ≤ l.val ∧ l.val < 64 + 16) ∨ (80 ≤ l.val ∧ l.val < 80 + 16) ∨ (96 ≤ l.val ∧ l.val < 96 + 16) ∨ (112 ≤ l.val ∧ l.val < 112 + 16) ∨ (128 ≤ l.val ∧ l.val < 128 + 16) ∨ (144 ≤ l.val ∧ l.val < 144 + 16) ∨ (160 ≤ l.val ∧ l.val < 160 + 16) ∨ (176 ≤ l.val ∧ l.val < 176 + 16) ∨ (192 ≤ l.val ∧ l.val < 192 + 16) := by omega
    rcases hc with e | e | e | e | e | e | e | e | e | e | e | e | e
    · exact ⟨⟨Rect.unit (s := S208) ![0] S16.size inb_S208_S16_0, w0⟩, by simp only [List.mem_cons, true_or, or_true], mem_unit16_1 l 0 inb_S208_S16_0 e⟩
    · exact ⟨⟨Rect.unit (s := S208) ![16] S16.size inb_S208_S16_16, w1⟩, by simp only [List.mem_cons, true_or, or_true], mem_unit16_1 l 16 inb_S208_S16_16 e⟩
    · exact ⟨⟨Rect.unit (s := S208) ![32] S16.size inb_S208_S16_32, w2⟩, by simp only [List.mem_cons, true_or, or_true], mem_unit16_1 l 32 inb_S208_S16_32 e⟩
    · exact ⟨⟨Rect.unit (s := S208) ![48] S16.size inb_S208_S16_48, w3⟩, by simp only [List.mem_cons, true_or, or_true], mem_unit16_1 l 48 inb_S208_S16_48 e⟩
    · exact ⟨⟨Rect.unit (s := S208) ![64] S16.size inb_S208_S16_64, w4⟩, by simp only [List.mem_cons, true_or, or_true], mem_unit16_1 l 64 inb_S208_S16_64 e⟩
    · exact ⟨⟨Rect.unit (s := S208) ![80] S16.size inb_S208_S16_80, w5⟩, by simp only [List.mem_cons, true_or, or_true], mem_unit16_1 l 80 inb_S208_S16_80 e⟩
    · exact ⟨⟨Rect.unit (s := S208) ![96] S16.size inb_S208_S16_96, w6⟩, by simp only [List.mem_cons, true_or, or_true], mem_unit16_1 l 96 inb_S208_S16_96 e⟩
    · exact ⟨⟨Rect.unit (s := S208) ![112] S16.size inb_S208_S16_112, w7⟩, by simp only [List.mem_cons, true_or, or_true], mem_unit16_1 l 112 inb_S208_S16_112 e⟩
    · exact ⟨⟨Rect.unit (s := S208) ![128] S16.size inb_S208_S16_128, w8⟩, by simp only [List.mem_cons, true_or, or_true], mem_unit16_1 l 128 inb_S208_S16_128 e⟩
    · exact ⟨⟨Rect.unit (s := S208) ![144] S16.size inb_S208_S16_144, w9⟩, by simp only [List.mem_cons, true_or, or_true], mem_unit16_1 l 144 inb_S208_S16_144 e⟩
    · exact ⟨⟨Rect.unit (s := S208) ![160] S16.size inb_S208_S16_160, w10⟩, by simp only [List.mem_cons, true_or, or_true], mem_unit16_1 l 160 inb_S208_S16_160 e⟩
    · exact ⟨⟨Rect.unit (s := S208) ![176] S16.size inb_S208_S16_176, w11⟩, by simp only [List.mem_cons, true_or, or_true], mem_unit16_1 l 176 inb_S208_S16_176 e⟩
    · exact ⟨⟨Rect.unit (s := S208) ![192] S16.size inb_S208_S16_192, w12⟩, by simp only [List.mem_cons, true_or, or_true], mem_unit16_1 l 192 inb_S208_S16_192 e⟩

end Cert.Proof.BodyK

end
-- ==== Proof.SliceReadsK.lean ====
/-
  What a copy out of a slice of an array delivers, read at an index. A unit-stride slice at offsets o reads the array
  at o plus the slice's own index, coordinate by coordinate. The three slices the tile's set-up copies out of:
  row D of the feature-major word table (D the tile's feature in the trip) is the table at (D, ·); the 208 entries of
  the flattened feature-major position table from 512 D are the table at 512 D + ·; and the c-th run of 4096 token ids
  of the shared token list is the list at 4096 c + ·, for each of the ways the program computes the run's start.
-/
import proofs.«203565_g79912161509654_cont_9to1_m_411_39_alg».proof.Kernel
import proofs.«203565_g79912161509654_cont_9to1_m_411_39_alg».proof.Proof.Gen.Kernel
import proofs.«203565_g79912161509654_cont_9to1_m_411_39_alg».proof.Proof.OutOffsK
import proofs.«203565_g79912161509654_cont_9to1_m_411_39_alg».proof.Proof.OutSetsK
import Idealize.ShloMosaic.Lib.ValueIdx

noncomputable section

namespace Cert.Proof.BodyK

open Cert.Kernel Cert.Kernel.Gen Idealize.ShloMosaic Idealize.ShloMosaic.ValueIdx

variable {F : FTy → Type}

/-! ## The word table's row and the position table's run -/

/-- Row `featN i t` of the feature-major word table. -/
theorem row_read (i : grid0.Coords) (t : Fin k0_t1_loop.trips)
    (embV : (Memref.whole main_v2_scv : Memref sig .scVector .hbm S64x100000 .f32).view.ty.Contents (Elt F)) (y : S1x100000.Idx) :
    ((Memref.whole main_v2_scv : Memref sig .scVector .hbm S64x100000 .f32).slice
        (Rect.unit (s := S64x100000) (k0_off1 i t) S1x100000.size (k0_off1_inb i t)) (fun _ => rfl)).view.read (Elt F) embV y
      = embV (ix2 (⟨featN i t, featN_lt i t⟩ : Fin 64) (y 1)) := by
  show embV ((Rect.unit (s := S64x100000) (k0_off1 i t) S1x100000.size (k0_off1_inb i t)).emb y) = _
  have h0 : (y 0).val < 1 := (y 0).isLt
  refine congrArg embV (funext fun a => Fin.ext ?_)
  match a with
  | ⟨0, _⟩ =>
    show k0_off1 i t 0 + 1 * (y 0).val = featN i t
    rw [k0_off1_eq i t]
    show 4 * (i 1).val + 2 * (i 0).val + t.val + 1 * (y 0).val = featN i t
    unfold featN; omega
  | ⟨1, _⟩ =>
    show k0_off1 i t 1 + 1 * (y 1).val = (y 1).val
    rw [k0_off1_eq i t]
    show 0 + 1 * (y 1).val = (y 1).val
    omega

/-- The 208 entries of the flattened feature-major position table from `512 * featN i t`. -/
theorem pos_read (i : grid0.Coords) (t : Fin k0_t1_loop.trips)
    (posV : (Memref.whole main_v4_scv : Memref sig .scVector .hbm S32768 .f32).view.ty.Contents (Elt F)) (y : S208.Idx) :
    ((Memref.whole main_v4_scv : Memref sig .scVector .hbm S32768 .f32).slice
        (Rect.unit (s := S32768) (k0_off2 i t) S208.size (k0_off2_inb i t)) (fun _ => rfl)).view.read (Elt F) posV y
      = posV (ix1 (⟨featN i t * 512 + (y 0).val,
          by have := featN_lt i t; have h : (y 0).val < 208 := (y 0).isLt; omega⟩ : Fin 32768)) := by
  show posV ((Rect.unit (s := S32768) (k0_off2 i t) S208.size (k0_off2_inb i t)).emb y) = _
  refine congrArg posV (funext fun a => Fin.ext ?_)
  match a with
  | ⟨0, _⟩ =>
    show k0_off2 i t 0 + 1 * (y 0).val = featN i t * 512 + (y 0).val
    rw [k0_off2_eq i t]
    show 2048 * (i 1).val + 1024 * (i 0).val + 512 * t.val + 1 * (y 0).val = featN i t * 512 + (y 0).val
    unfold featN; omega

/-! ## A run of the token list -/

/-- The `c`-th run of 4096 token ids of the shared token list (the position reduced below the list's length, so that
    the function is total; for `c < 50` it is the position itself: `tokChunk_at`). -/
def tokChunk (shV : IVec S204800 32) (c : Nat) : IVec S4096 32 :=
  fun y => shV (ix1 (⟨(4096 * c + (y 0).val) % 204800, Nat.mod_lt _ (by norm_num)⟩ : Fin 204800))

theorem tokChunk_at (shV : IVec S204800 32) (c : Nat) (hc : c < 50) (y : S4096.Idx) :
    tokChunk shV c y
      = shV (ix1 (⟨4096 * c + (y 0).val, by have h : (y 0).val < 4096 := (y 0).isLt; omega⟩ : Fin 204800)) := by
  have h : (y 0).val < 4096 := (y 0).isLt
  unfold tokChunk
  refine congrArg shV (congrArg ix1 (Fin.ext ?_))
  show (4096 * c + (y 0).val) % 204800 = 4096 * c + (y 0).val
  exact Nat.mod_eq_of_lt (by omega)

/-- A slice of 4096 entries of the shared token list at offset `4096 c` reads the `c`-th run. -/
theorem tok_read (o : Fin 1 → Nat) (h : ∀ a, o a + S4096.size a ≤ S204800.size a)
    (pf : ∀ a, (Rect.unit (s := S204800) o S4096.size h).stride a = 1) (c : Nat) (ho : o = ![4096 * c])
    (shV : (Memref.whole cc0_scratch8 : Memref sig .scVector .shared S204800 .i32).view.ty.Contents (Elt F)) :
    ((Memref.whole cc0_scratch8 : Memref sig .scVector .shared S204800 .i32).slice
        (Rect.unit (s := S204800) o S4096.size h) pf).view.read (Elt F) shV = tokChunk shV c := by
  subst ho
  funext y
  have hy : (y 0).val < 4096 := (y 0).isLt
  have hb : 4096 * c + 4096 ≤ 204800 := h 0
  show shV ((Rect.unit (s := S204800) ![4096 * c] S4096.size h).emb y) = tokChunk shV c y
  unfold tokChunk
  refine congrArg shV (funext fun a => Fin.ext ?_)
  match a with
  | ⟨0, _⟩ =>
    show 4096 * c + 1 * (y 0).val = (4096 * c + (y 0).val) % 204800
    rw [Nat.mod_eq_of_lt (by omega)]
    omega

/-- The same for a literal offset `N = 4096 c`. -/
theorem tok_read_lit (N c : Nat) (inb : ∀ a, (![N] : Fin 1 → Nat) a + S4096.size a ≤ S204800.size a) (hN : N = 4096 * c)
    (shV : (Memref.whole cc0_scratch8 : Memref sig .scVector .shared S204800 .i32).view.ty.Contents (Elt F)) :
    ((Memref.whole cc0_scratch8 : Memref sig .scVector .shared S204800 .i32).slice
        (Rect.unit (s := S204800) ![N] S4096.size inb) (fun _ => rfl)).view.read (Elt F) shV = tokChunk shV c :=
  tok_read ![N] inb (fun _ => rfl) c (by rw [hN]) shV

/-- The steady-state loop's three starts: runs `2 u + 2`, `2 u + 3 + r` (`r` = 0, 1) and `2 u + 5` in trip `u`. -/
theorem tok_read_24 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off24 u) S4096.size (k0_off24_inb u)) (fun _ => rfl)).view.read (Elt F) shV
      = tokChunk shV (2 * u.val + 2) :=
  tok_read _ _ (fun _ => rfl) _ ((k0_off24_eq u).trans (congrArg (fun n : Nat => ![n]) (by omega))) shV

theorem tok_read_36 (u : Fin k0_t6_loop.trips) (r : Fin 2)
    (shV : (Memref.whole cc0_scratch8 : Memref sig .scVector .shared S204800 .i32).view.ty.Contents (Elt F)) :
    ((Memref.whole cc0_scratch8 : Memref sig .scVector .shared S204800 .i32).slice
        (Rect.unit (s := S204800) (k0_off36 u (BitVec.ofNat 32 (1 + r.val))) S4096.size (k0_off36_inb u r)) (fun _ => rfl)).view.read (Elt F) shV
      = tokChunk shV (2 * u.val + 3 + r.val) :=
  tok_read _ _ (fun _ => rfl) _ ((k0_off36_eq u r).trans (congrArg (fun n : Nat => ![n]) (by omega))) shV

/-- The program's two spellings of it: the literals `1#32` and `2#32`. -/
theorem tok_read_36_1 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off36 u 1#32) S4096.size (k0_off36_inb u 0)) (fun _ => rfl)).view.read (Elt F) shV
      = tokChunk shV (2 * u.val + 3) :=
  tok_read_36 u 0 shV

theorem tok_read_36_2 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off36 u 2#32) S4096.size (k0_off36_inb u 1)) (fun _ => rfl)).view.read (Elt F) shV
      = tokChunk shV (2 * u.val + 4) :=
  tok_read_36 u 1 shV

theorem tok_read_48 (u : Fin k0_t6_loop.trips)
    (shV : (Memref.whole cc0_scratch8 : Memref sig .scVector .shared S204800 .i32).view.ty.Contents (Elt F)) :
    ((Memref.whole cc0_scratch8 : Memref sig .scVector .shared S204800 .i32).slice
        (Rect.unit (s := S204800) (k0_off48 u) S4096.size (k0_off48_inb u)) (fun _ => rfl)).view.read (Elt F) shV
      = tokChunk shV (2 * u.val + 5) :=
  tok_read _ _ (fun _ => rfl) _ ((k0_off48_eq u).trans (congrArg (fun n : Nat => ![n]) (by omega))) shV

end Cert.Proof.BodyK

end
-- ==== Proof.TripDefsK.lean ====
/-
  The pure vocabulary of one feature's trip: what a staging buffer holds once the compute nest has filled it for a chunk
  (`stageOut`), a result chunk's element set by its bounds (`chunkF`), and the small facts relating them to the nest's
  result, to the rectangles the program slices, and to the chunk numbers the steady-state loop computes.
-/
import proofs.«203565_g79912161509654_cont_9to1_m_411_39_alg».proof.Kernel
import proofs.«203565_g79912161509654_cont_9to1_m_411_39_alg».proof.Proof.Gen.Kernel
import proofs.«203565_g79912161509654_cont_9to1_m_411_39_alg».proof.Proof.Spec
import proofs.«203565_g79912161509654_cont_9to1_m_411_39_alg».proof.Proof.NestSpecK
import proofs.«203565_g79912161509654_cont_9to1_m_411_39_alg».proof.Proof.OutSetsK
import proofs.«203565_g79912161509654_cont_9to1_m_411_39_alg».proof.Proof.SliceReadsK

noncomputable section

namespace Cert.Proof.BodyK

open Cert.Kernel Cert.Kernel.Gen Cert.Proof.LaunchKernel
open Idealize.ShloMosaic

variable {F : FTy → Type} [FloatOps F]

/-- What the compute nest leaves in a staging buffer for chunk `c`: entry `(r, 0, bh, 0, bl)` is the looked-up feature of
    the token at flat position `r * 1024 + bh * 128 + bl` of the chunk plus the bias of position `4 * c + r`. -/
def stageOut (rowV : FVec F S1x100000 .f32) (shV : IVec S204800 32) (biasV : FVec F S208 .f32) (c : Nat) : FVec F S4x1x8x1x128 .f32 :=
  fun y => FloatOps.addf (rowV (ValueIdx.ix2 (0 : Fin 1) (Cert.Proof.Spec.col (tokChunk shV c (ValueIdx.ix1 (Cert.Proof.NestK.flatOf y))))))
    (biasV (ValueIdx.ix1 (⟨(4 * c + (y 0).val) % 208, Nat.mod_lt _ (by norm_num)⟩ : Fin 208)))

/-- A chunk's element set, by its bounds: positions `p … p + 3` of feature `featN i t`. -/
def chunkF (i : grid0.Coords) (t : Fin k0_t1_loop.trips) (p : Nat) : Finset S200x8x8x8x128.Idx :=
  Finset.univ.filter fun j => p ≤ (j 0).val ∧ (j 0).val < p + 4 ∧ featOf j = featN i t

theorem c0_word : ∀ u : Fin k0_t6_loop.trips, (Scalar.addi 2#32 (Scalar.muli (Scf.iv 0#32 1#32 u) 2#32)).toNat = 2 * u.val + 2 := by decide +kernel

/-- For a chunk of the list the nest's result is the staging contents `stageOut`. -/
theorem nestG_stage (rowV : FVec F S1x100000 .f32) (shV : IVec S204800 32) (biasV : FVec F S208 .f32) (c l0 : Nat) (h : l0 + 4 ≤ 208) (hl : l0 = 4 * c) :
    Cert.Proof.NestK.nestG rowV (tokChunk shV c) biasV l0 h = stageOut rowV shV biasV c := by
  subst hl
  funext y
  unfold Cert.Proof.NestK.nestG stageOut
  have hy : (y 0).val < 4 := (y 0).isLt
  congr 2
  apply congrArg
  apply Fin.ext
  show 4 * c + (y 0).val = (4 * c + (y 0).val) % 208
  rw [Nat.mod_eq_of_lt (by omega)]

theorem chunkF_eq (i : grid0.Coords) (t : Fin k0_t1_loop.trips) (p : Nat) (hp : p + 4 ≤ 200) : chunkF i t p = chunkSet i t p hp := by
  ext j
  rw [mem_chunkSet]
  simp [chunkF]

theorem tokChunk_lt (shV : IVec S204800 32) (hsh : ∀ i, (shV i).toNat < 100000) (c : Nat) : ∀ y, (tokChunk shV c y).toNat < 100000 := fun _ => hsh _

theorem c1_word : ∀ u : Fin k0_t6_loop.trips, (Scalar.addi (Scalar.addi 2#32 (Scalar.muli (Scf.iv 0#32 1#32 u) 2#32)) 1#32).toNat = 2 * u.val + 3 := by decide +kernel

/-- A copy that reads its source as it is moves what the source's view reads. -/
theorem readAs_same {Val : EltTy → Type} {s : Shape} {e : EltTy} (w : s.Idx → Val e) : (ReadAs.same : ReadAs Val s e s e).apply w = w := rfl

end Cert.Proof.BodyK

end
-- ==== Proof.OutPiecesK.lean ====
/-
  What a copy-out of a staging buffer leaves in its chunk of the result array. The chunk is a slice of the result; the
  copy writes the staging buffer's contents once through the slice's whole rectangle. If the staging buffer's entry y is
  the value G at the entry the chunk rectangle places y at, then after the copy the result array reads G at every entry
  of the chunk: each entry of the chunk is the placement of exactly one y, the write leaves the staging buffer's entry y
  there, and the slice places y where the chunk rectangle does.
-/
import proofs.«203565_g79912161509654_cont_9to1_m_411_39_alg».proof.Kernel
import proofs.«203565_g79912161509654_cont_9to1_m_411_39_alg».proof.Proof.Gen.Kernel
import proofs.«203565_g79912161509654_cont_9to1_m_411_39_alg».proof.Proof.OutSetsK
import Idealize.ShloMosaic.Lib.Writes

noncomputable section

namespace Cert.Proof.BodyK

open Cert.Kernel Cert.Kernel.Gen Idealize.ShloMosaic

variable {F : FTy → Type}

/-- The copy-out through a slice of the result at offsets `o`, when `o` is the chunk at position `p` of the tile's
    feature: the result reads `Gout` on the slice's entries. -/
theorem out_piece (i : grid0.Coords) (t : Fin k0_t1_loop.trips) (p : Nat) (hp : p + 4 ≤ 200) (o : Fin 5 → Nat)
    (inb : ∀ a, o a + S4x1x8x1x128.size a ≤ S200x8x8x8x128.size a) (ho : o = ![p, featN i t / 8, 0, featN i t % 8, 0])
    (g Gout : (Memref.whole main_v6_scv : Memref sig .scVector .hbm S200x8x8x8x128 .f32).view.ty.Contents (Elt F)) (w : S4x1x8x1x128.Idx → Elt F .f32)
    (hw : ∀ y, w y = Gout ((chunkRect i t p hp).emb y)) :
    ∀ j ∈ ((Memref.whole main_v6_scv : Memref sig .scVector .hbm S200x8x8x8x128 .f32).slice (Rect.unit (s := S200x8x8x8x128) o S4x1x8x1x128.size inb) (fun _ => rfl)).view.set,
      (((Memref.whole main_v6_scv : Memref sig .scVector .hbm S200x8x8x8x128 .f32).slice (Rect.unit (s := S200x8x8x8x128) o S4x1x8x1x128.size inb) (fun _ => rfl)).view.writes (Elt F) g
        [⟨Rect.whole (Rect.unit (s := S200x8x8x8x128) o S4x1x8x1x128.size inb).shape, w⟩]) j = Gout j := by
  subst ho
  intro j hj
  obtain ⟨y, -, rfl⟩ := Finset.mem_map.1 hj
  have h1 := View.read_writes_cons_emb
    ((Memref.whole main_v6_scv : Memref sig .scVector .hbm S200x8x8x8x128 .f32).slice (Rect.unit (s := S200x8x8x8x128) ![p, featN i t / 8, 0, featN i t % 8, 0] S4x1x8x1x128.size inb) (fun _ => rfl)).view
    g (Rect.whole (Rect.unit (s := S200x8x8x8x128) ![p, featN i t / 8, 0, featN i t % 8, 0] S4x1x8x1x128.size inb).shape) w [] y
  have e : (Rect.whole (Rect.unit (s := S200x8x8x8x128) ![p, featN i t / 8, 0, featN i t % 8, 0] S4x1x8x1x128.size inb).shape).emb y = y :=
    Rect.emb_whole_apply (Rect.unit (s := S200x8x8x8x128) ![p, featN i t / 8, 0, featN i t % 8, 0] S4x1x8x1x128.size inb).shape y
  rw [e] at h1
  -- the written contents as one unknown array: only how the slice reads it matters from here on
  revert h1
  generalize ((Memref.whole main_v6_scv : Memref sig .scVector .hbm S200x8x8x8x128 .f32).slice (Rect.unit (s := S200x8x8x8x128) ![p, featN i t / 8, 0, featN i t % 8, 0] S4x1x8x1x128.size inb) (fun _ => rfl)).view.writes (Elt F) g
    [⟨Rect.whole (Rect.unit (s := S200x8x8x8x128) ![p, featN i t / 8, 0, featN i t % 8, 0] S4x1x8x1x128.size inb).shape, w⟩] = G'
  intro h1
  exact h1.trans (hw y)

/-! ## The program's six starts of a copy-out -/

theorem out_piece13 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (0) (by norm_num)).emb y)) :
    ∀ j ∈ ((Memref.whole main_v6_scv : Memref sig .scVector .hbm S200x8x8x8x128 .f32).slice (Rect.unit (s := S200x8x8x8x128) (k0_off13 i t) S4x1x8x1x128.size (k0_off13_inb i t)) (fun _ => rfl)).view.set,
      (((Memref.whole main_v6_scv : Memref sig .scVector .hbm S200x8x8x8x128 .f32).slice (Rect.unit (s := S200x8x8x8x128) (k0_off13 i t) S4x1x8x1x128.size (k0_off13_inb i t)) (fun _ => rfl)).view.writes (Elt F) g
        [⟨Rect.whole (Rect.unit (s := S200x8x8x8x128) (k0_off13 i t) S4x1x8x1x128.size (k0_off13_inb i t)).shape, w⟩]) j = Gout j :=
  out_piece i t (0) _ (k0_off13 i t) (k0_off13_inb i t) (off13_eq i t) g Gout w hw

theorem out_piece23 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (4) (by norm_num)).emb y)) :
    ∀ j ∈ ((Memref.whole main_v6_scv : Memref sig .scVector .hbm S200x8x8x8x128 .f32).slice (Rect.unit (s := S200x8x8x8x128) (k0_off23 i t) S4x1x8x1x128.size (k0_off23_inb i t)) (fun _ => rfl)).view.set,
      (((Memref.whole main_v6_scv : Memref sig .scVector .hbm S200x8x8x8x128 .f32).slice (Rect.unit (s := S200x8x8x8x128) (k0_off23 i t) S4x1x8x1x128.size (k0_off23_inb i t)) (fun _ => rfl)).view.writes (Elt F) g
        [⟨Rect.whole (Rect.unit (s := S200x8x8x8x128) (k0_off23 i t) S4x1x8x1x128.size (k0_off23_inb i t)).shape, w⟩]) j = Gout j :=
  out_piece i t (4) _ (k0_off23 i t) (k0_off23_inb i t) (off23_eq i t) g Gout w hw

theorem out_piece35 (i : grid0.Coords) (t : Fin k0_t1_loop.trips) (u : Fin k0_t6_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (8 * u.val + 8) (by have := trips6_lt u; omega)).emb y)) :
    ∀ j ∈ ((Memref.whole main_v6_scv : Memref sig .scVector .hbm S200x8x8x8x128 .f32).slice (Rect.unit (s := S200x8x8x8x128) (k0_off35 i t u) S4x1x8x1x128.size (k0_off35_inb i t u)) (fun _ => rfl)).view.set,
      (((Memref.whole main_v6_scv : Memref sig .scVector .hbm S200x8x8x8x128 .f32).slice (Rect.unit (s := S200x8x8x8x128) (k0_off35 i t u) S4x1x8x1x128.size (k0_off35_inb i t u)) (fun _ => rfl)).view.writes (Elt F) g
        [⟨Rect.whole (Rect.unit (s := S200x8x8x8x128) (k0_off35 i t u) S4x1x8x1x128.size (k0_off35_inb i t u)).shape, w⟩]) j = Gout j :=
  out_piece i t (8 * u.val + 8) _ (k0_off35 i t u) (k0_off35_inb i t u) (off35_eq i t u) g Gout w hw

theorem out_piece47 (i : grid0.Coords) (t : Fin k0_t1_loop.trips) (u : Fin k0_t6_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (8 * u.val + 12) (by have := trips6_lt u; omega)).emb y)) :
    ∀ j ∈ ((Memref.whole main_v6_scv : Memref sig .scVector .hbm S200x8x8x8x128 .f32).slice (Rect.unit (s := S200x8x8x8x128) (k0_off47 i t u) S4x1x8x1x128.size (k0_off47_inb i t u)) (fun _ => rfl)).view.set,
      (((Memref.whole main_v6_scv : Memref sig .scVector .hbm S200x8x8x8x128 .f32).slice (Rect.unit (s := S200x8x8x8x128) (k0_off47 i t u) S4x1x8x1x128.size (k0_off47_inb i t u)) (fun _ => rfl)).view.writes (Elt F) g
        [⟨Rect.whole (Rect.unit (s := S200x8x8x8x128) (k0_off47 i t u) S4x1x8x1x128.size (k0_off47_inb i t u)).shape, w⟩]) j = Gout j :=
  out_piece i t (8 * u.val + 12) _ (k0_off47 i t u) (k0_off47_inb i t u) (off47_eq i t u) g Gout w hw

theorem out_piece59 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (192) (by norm_num)).emb y)) :
    ∀ j ∈ ((Memref.whole main_v6_scv : Memref sig .scVector .hbm S200x8x8x8x128 .f32).slice (Rect.unit (s := S200x8x8x8x128) (k0_off59 i t) S4x1x8x1x128.size (k0_off59_inb i t)) (fun _ => rfl)).view.set,
      (((Memref.whole main_v6_scv : Memref sig .scVector .hbm S200x8x8x8x128 .f32).slice (Rect.unit (s := S200x8x8x8x128) (k0_off59 i t) S4x1x8x1x128.size (k0_off59_inb i t)) (fun _ => rfl)).view.writes (Elt F) g
        [⟨Rect.whole (Rect.unit (s := S200x8x8x8x128) (k0_off59 i t) S4x1x8x1x128.size (k0_off59_inb i t)).shape, w⟩]) j = Gout j :=
  out_piece i t (192) _ (k0_off59 i t) (k0_off59_inb i t) (off59_eq i t) g Gout w hw

theorem out_piece70 (i : grid0.Coords) (t : Fin k0_t1_loop.trips)
    (g Gout : (Memref.whole main_v6_scv : Memref sig .scVector .hbm S200x8x8x8x128 .f32).view.ty.Contents (Elt F)) (w : S4x1x8x1x128.Idx → Elt F .f32)
    (hw : ∀ y, w y = Gout ((chunkRect i t (196) (by norm_num)).emb y)) :
    ∀ j ∈ ((Memref.whole main_v6_scv : Memref sig .scVector .hbm S200x8x8x8x128 .f32).slice (Rect.unit (s := S200x8x8x8x128) (k0_off70 i t) S4x1x8x1x128.size (k0_off70_inb i t)) (fun _ => rfl)).view.set,
      (((Memref.whole main_v6_scv : Memref sig .scVector .hbm S200x8x8x8x128 .f32).slice (Rect.unit (s := S200x8x8x8x128) (k0_off70 i t) S4x1x8x1x128.size (k0_off70_inb i t)) (fun _ => rfl)).view.writes (Elt F) g
        [⟨Rect.whole (Rect.unit (s := S200x8x8x8x128) (k0_off70 i t) S4x1x8x1x128.size (k0_off70_inb i t)).shape, w⟩]) j = Gout j :=
  out_piece i t (196) _ (k0_off70 i t) (k0_off70_inb i t) (off70_eq i t) g Gout w hw

end Cert.Proof.BodyK

end
-- ==== Proof.Nest0K.lean ====
/-
  The compute nest of the lookup kernel, first instance, run once: from any contents of the staging buffer to the
  nest's value (NestSpec). The two counted loops go by invariant: before outer trip `t2` the staging buffer is filled
  below token position `1024 * t2`, before inner trip `t3` of it below `1024 * t2 + 256 * t3`; an inner trip gathers the
  row at sixteen vectors of token words, adds the outer trip's bias vector and stores the sixteen sums at the trip's
  sixteen rectangles, which is what moves the bound up by 256.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.NestSpecK

noncomputable section

namespace Cert.Proof.NestK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

abbrev UH : Type := URounds (GSem nD τ sig) ℕ
abbrev UB : Type := URounds (GSem nD τ sig) ℕ
abbrev UU : Type := UH × (UB × Counters)

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

open Idealize.ShloMosaic.ValueIdx

variable (d : Dev nD) (L : grid0.Coords)
abbrev thr (d : Dev nD) (L : grid0.Coords) : Thread nD τ := V d ((L 0).castLE hcore0) ((L 1).castLE hsub0)

/-- The two index vectors of a row gather are in range: the row index is `0`, the column a token below the table's height. -/
theorem chk2_ok (v2 v : IVec S16 32) (h2 : ∀ x, (v2 x).toNat < 1) (h : ∀ x, (v x).toNat < 100000) :
    ∀ a x, ((![v2, v] : Fin 2 → IVec S16 32) a x).toNat < S1x100000.size a := by
  intro a x
  match a with
  | ⟨0, _⟩ => exact h2 x
  | ⟨1, _⟩ => exact h x

/-- A gather of the biases at sixteen copies of one word below 208 is in range. -/
theorem chkBias_ok (w : BitVec 32) (hw : w.toNat < 208) :
    ∀ a x, ((![broadcast S16 w] : Fin 1 → IVec S16 32) a x).toNat < S208.size a := by
  intro a x
  match a with
  | ⟨0, _⟩ => exact hw
theorem n0_ld0 (k0_t2 : Fin k0_t2_loop.trips) (k0_t3 : Fin k0_t3_loop.trips) :
    k0_off4 k0_t2 k0_t3 0#32 = ![1024 * k0_t2.val + 256 * k0_t3.val + 0] := k0_off4_eq k0_t2 k0_t3 0
theorem n0_ld1 (k0_t2 : Fin k0_t2_loop.trips) (k0_t3 : Fin k0_t3_loop.trips) :
    k0_off4 k0_t2 k0_t3 16#32 = ![1024 * k0_t2.val + 256 * k0_t3.val + 16] := k0_off4_eq k0_t2 k0_t3 1
theorem n0_ld2 (k0_t2 : Fin k0_t2_loop.trips) (k0_t3 : Fin k0_t3_loop.trips) :
    k0_off4 k0_t2 k0_t3 32#32 = ![1024 * k0_t2.val + 256 * k0_t3.val + 32] := k0_off4_eq k0_t2 k0_t3 2
theorem n0_ld3 (k0_t2 : Fin k0_t2_loop.trips) (k0_t3 : Fin k0_t3_loop.trips) :
    k0_off4 k0_t2 k0_t3 48#32 = ![1024 * k0_t2.val + 256 * k0_t3.val + 48] := k0_off4_eq k0_t2 k0_t3 3
theorem n0_ld4 (k0_t2 : Fin k0_t2_loop.trips) (k0_t3 : Fin k0_t3_loop.trips) :
    k0_off4 k0_t2 k0_t3 64#32 = ![1024 * k0_t2.val + 256 * k0_t3.val + 64] := k0_off4_eq k0_t2 k0_t3 4
theorem n0_ld5 (k0_t2 : Fin k0_t2_loop.trips) (k0_t3 : Fin k0_t3_loop.trips) :
    k0_off4 k0_t2 k0_t3 80#32 = ![1024 * k0_t2.val + 256 * k0_t3.val + 80] := k0_off4_eq k0_t2 k0_t3 5
theorem n0_ld6 (k0_t2 : Fin k0_t2_loop.trips) (k0_t3 : Fin k0_t3_loop.trips) :
    k0_off4 k0_t2 k0_t3 96#32 = ![1024 * k0_t2.val + 256 * k0_t3.val + 96] := k0_off4_eq k0_t2 k0_t3 6
theorem n0_ld7 (k0_t2 : Fin k0_t2_loop.trips) (k0_t3 : Fin k0_t3_loop.trips) :
    k0_off4 k0_t2 k0_t3 112#32 = ![1024 * k0_t2.val + 256 * k0_t3.val + 112] := k0_off4_eq k0_t2 k0_t3 7
theorem n0_ld8 (k0_t2 : Fin k0_t2_loop.trips) (k0_t3 : Fin k0_t3_loop.trips) :
    k0_off4 k0_t2 k0_t3 128#32 = ![1024 * k0_t2.val + 256 * k0_t3.val + 128] := k0_off4_eq k0_t2 k0_t3 8
theorem n0_ld9 (k0_t2 : Fin k0_t2_loop.trips) (k0_t3 : Fin k0_t3_loop.trips) :
    k0_off4 k0_t2 k0_t3 144#32 = ![1024 * k0_t2.val + 256 * k0_t3.val + 144] := k0_off4_eq k0_t2 k0_t3 9
theorem n0_ld10 (k0_t2 : Fin k0_t2_loop.trips) (k0_t3 : Fin k0_t3_loop.trips) :
    k0_off4 k0_t2 k0_t3 160#32 = ![1024 * k0_t2.val + 256 * k0_t3.val + 160] := k0_off4_eq k0_t2 k0_t3 10
theorem n0_ld11 (k0_t2 : Fin k0_t2_loop.trips) (k0_t3 : Fin k0_t3_loop.trips) :
    k0_off4 k0_t2 k0_t3 176#32 = ![1024 * k0_t2.val + 256 * k0_t3.val + 176] := k0_off4_eq k0_t2 k0_t3 11
theorem n0_ld12 (k0_t2 : Fin k0_t2_loop.trips) (k0_t3 : Fin k0_t3_loop.trips) :
    k0_off4 k0_t2 k0_t3 192#32 = ![1024 * k0_t2.val + 256 * k0_t3.val + 192] := k0_off4_eq k0_t2 k0_t3 12
theorem n0_ld13 (k0_t2 : Fin k0_t2_loop.trips) (k0_t3 : Fin k0_t3_loop.trips) :
    k0_off4 k0_t2 k0_t3 208#32 = ![1024 * k0_t2.val + 256 * k0_t3.val + 208] := k0_off4_eq k0_t2 k0_t3 13
theorem n0_ld14 (k0_t2 : Fin k0_t2_loop.trips) (k0_t3 : Fin k0_t3_loop.trips) :
    k0_off4 k0_t2 k0_t3 224#32 = ![1024 * k0_t2.val + 256 * k0_t3.val + 224] := k0_off4_eq k0_t2 k0_t3 14
theorem n0_ld15 (k0_t2 : Fin k0_t2_loop.trips) (k0_t3 : Fin k0_t3_loop.trips) :
    k0_off4 k0_t2 k0_t3 240#32 = ![1024 * k0_t2.val + 256 * k0_t3.val + 240] := k0_off4_eq k0_t2 k0_t3 15
theorem n0_st0 (k0_t2 : Fin k0_t2_loop.trips) (k0_t3 : Fin k0_t3_loop.trips) :
    k0_off5 k0_t2 k0_t3 0#32 = ![k0_t2.val, 0, 2 * k0_t3.val + 0, 0, 0] := k0_off5_eq k0_t2 k0_t3 0
theorem n0_st1 (k0_t2 : Fin k0_t2_loop.trips) (k0_t3 : Fin k0_t3_loop.trips) :
    k0_off6 k0_t2 k0_t3 1#32 = ![k0_t2.val, 0, 2 * k0_t3.val + 0, 0, 16] := k0_off6_eq k0_t2 k0_t3 0
theorem n0_st2 (k0_t2 : Fin k0_t2_loop.trips) (k0_t3 : Fin k0_t3_loop.trips) :
    k0_off7 k0_t2 k0_t3 2#32 = ![k0_t2.val, 0, 2 * k0_t3.val + 0, 0, 32] := k0_off7_eq k0_t2 k0_t3 0
theorem n0_st3 (k0_t2 : Fin k0_t2_loop.trips) (k0_t3 : Fin k0_t3_loop.trips) :
    k0_off8 k0_t2 k0_t3 3#32 = ![k0_t2.val, 0, 2 * k0_t3.val + 0, 0, 48] := k0_off8_eq k0_t2 k0_t3 0
theorem n0_st4 (k0_t2 : Fin k0_t2_loop.trips) (k0_t3 : Fin k0_t3_loop.trips) :
    k0_off9 k0_t2 k0_t3 4#32 = ![k0_t2.val, 0, 2 * k0_t3.val + 0, 0, 64] := k0_off9_eq k0_t2 k0_t3 0
theorem n0_st5 (k0_t2 : Fin k0_t2_loop.trips) (k0_t3 : Fin k0_t3_loop.trips) :
    k0_off10 k0_t2 k0_t3 5#32 = ![k0_t2.val, 0, 2 * k0_t3.val + 0, 0, 80] := k0_off10_eq k0_t2 k0_t3 0
theorem n0_st6 (k0_t2 : Fin k0_t2_loop.trips) (k0_t3 : Fin k0_t3_loop.trips) :
    k0_off11 k0_t2 k0_t3 6#32 = ![k0_t2.val, 0, 2 * k0_t3.val + 0, 0, 96] := k0_off11_eq k0_t2 k0_t3 0
theorem n0_st7 (k0_t2 : Fin k0_t2_loop.trips) (k0_t3 : Fin k0_t3_loop.trips) :
    k0_off12 k0_t2 k0_t3 7#32 = ![k0_t2.val, 0, 2 * k0_t3.val + 0, 0, 112] := k0_off12_eq k0_t2 k0_t3 0
theorem n0_st8 (k0_t2 : Fin k0_t2_loop.trips) (k0_t3 : Fin k0_t3_loop.trips) :
    k0_off5 k0_t2 k0_t3 8#32 = ![k0_t2.val, 0, 2 * k0_t3.val + 1, 0, 0] := k0_off5_eq k0_t2 k0_t3 1
theorem n0_st9 (k0_t2 : Fin k0_t2_loop.trips) (k0_t3 : Fin k0_t3_loop.trips) :
    k0_off6 k0_t2 k0_t3 9#32 = ![k0_t2.val, 0, 2 * k0_t3.val + 1, 0, 16] := k0_off6_eq k0_t2 k0_t3 1
theorem n0_st10 (k0_t2 : Fin k0_t2_loop.trips) (k0_t3 : Fin k0_t3_loop.trips) :
    k0_off7 k0_t2 k0_t3 10#32 = ![k0_t2.val, 0, 2 * k0_t3.val + 1, 0, 32] := k0_off7_eq k0_t2 k0_t3 1
theorem n0_st11 (k0_t2 : Fin k0_t2_loop.trips) (k0_t3 : Fin k0_t3_loop.trips) :
    k0_off8 k0_t2 k0_t3 11#32 = ![k0_t2.val, 0, 2 * k0_t3.val + 1, 0, 48] := k0_off8_eq k0_t2 k0_t3 1
theorem n0_st12 (k0_t2 : Fin k0_t2_loop.trips) (k0_t3 : Fin k0_t3_loop.trips) :
    k0_off9 k0_t2 k0_t3 12#32 = ![k0_t2.val, 0, 2 * k0_t3.val + 1, 0, 64] := k0_off9_eq k0_t2 k0_t3 1
theorem n0_st13 (k0_t2 : Fin k0_t2_loop.trips) (k0_t3 : Fin k0_t3_loop.trips) :
    k0_off10 k0_t2 k0_t3 13#32 = ![k0_t2.val, 0, 2 * k0_t3.val + 1, 0, 80] := k0_off10_eq k0_t2 k0_t3 1
theorem n0_st14 (k0_t2 : Fin k0_t2_loop.trips) (k0_t3 : Fin k0_t3_loop.trips) :
    k0_off11 k0_t2 k0_t3 14#32 = ![k0_t2.val, 0, 2 * k0_t3.val + 1, 0, 96] := k0_off11_eq k0_t2 k0_t3 1
theorem n0_st15 (k0_t2 : Fin k0_t2_loop.trips) (k0_t3 : Fin k0_t3_loop.trips) :
    k0_off12 k0_t2 k0_t3 15#32 = ![k0_t2.val, 0, 2 * k0_t3.val + 1, 0, 112] := k0_off12_eq k0_t2 k0_t3 1

/-- Before inner trip `k` of outer trip `t2`: the token words and the row as they were, and the staging buffer filled below
    token position `1024 * t2 + 256 * k`. -/
def n0_I3 (tb : Buf (Elt F) ((a8).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a8).view.loc (thr d L) ↦{fullShare} tb) ∗ (((a7).access (.whole S1x100000)).loc (thr d L) ↦{fullShare} row)
    ∗ ∃ g : Buf (Elt F) ((a10).view.loc (thr d L)), ((a10).view.loc (thr d L) ↦{fullShare} g)
      ∗ ⌜∀ y, (flatOf y).val < 1024 * t2 + 256 * k → (a10).view.read (Elt F) g y = nestG row tb bias l0 hl0 y⌝)

set_option maxHeartbeats 4000000 in
/-- One inner trip: sixteen gathers of the row at sixteen vectors of token words, each plus the bias vector, stored at the
    trip's sixteen rectangles. -/
theorem n0_t3_step (v2 : IVec S16 32) (hz : ∀ x, (v2 x).toNat < 1) (k0_t1 : Fin k0_t1_loop.trips) (v10 : BitVec 32) (k0_t2 : Fin k0_t2_loop.trips)
    (v311 : BitVec 32) (v314 : Vec F S16 .f32)
    (tb : Buf (Elt F) ((a8).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t2.val → v314 (ix1 i) = bias (ix1 b))
    (k0_t3 : Fin k0_t3_loop.trips) (acc : Unit) :
    n0_I3 d L tb row bias l0 hl0 k0_t2.val k0_t3.val acc
      ⊢ wp frame (wpE (defs₀ (F := F)) 𝒱₀ (thr d L) none) Set.univ
          (k0_t3_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t2 v311 v314 k0_t3 acc) (n0_I3 d L tb row bias l0 hl0 k0_t2.val (k0_t3.val + 1)) := by
  have ht2 : k0_t2.val < 4 := Nat.lt_of_lt_of_le k0_t2.isLt k0_t2_abs.2.1
  have ht3 : k0_t3.val < 4 := Nat.lt_of_lt_of_le k0_t3.isLt k0_t3_abs.2.1
  unfold n0_I3 k0_t3_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t2.val + 256 * (k0_t3.val + 1) = 1024 * k0_t2.val + 256 * k0_t3.val + 256 by omega]
  refine filled_step16 (a10).view row tb bias l0 hl0 g k0_t2.val k0_t3.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n0_st0 k0_t2 k0_t3
  case ph1 => exact n0_st1 k0_t2 k0_t3
  case ph2 => exact n0_st2 k0_t2 k0_t3
  case ph3 => exact n0_st3 k0_t2 k0_t3
  case ph4 => exact n0_st4 k0_t2 k0_t3
  case ph5 => exact n0_st5 k0_t2 k0_t3
  case ph6 => exact n0_st6 k0_t2 k0_t3
  case ph7 => exact n0_st7 k0_t2 k0_t3
  case ph8 => exact n0_st8 k0_t2 k0_t3
  case ph9 => exact n0_st9 k0_t2 k0_t3
  case ph10 => exact n0_st10 k0_t2 k0_t3
  case ph11 => exact n0_st11 k0_t2 k0_t3
  case ph12 => exact n0_st12 k0_t2 k0_t3
  case ph13 => exact n0_st13 k0_t2 k0_t3
  case ph14 => exact n0_st14 k0_t2 k0_t3
  case ph15 => exact n0_st15 k0_t2 k0_t3
  case pa0 =>
    intro i q b hq hb
    refine pay_lane row _ (Memref.read_access_whole (Elt F) cc0_scratch0 row) tb bias v2 _ _ hz v314 (1024 * k0_t2.val + 256 * k0_t3.val + 0) (l0 + k0_t2.val) ?_ hv i q b hq hb
    exact fun i q hq => readAt_lane tb _ _ _ (n0_ld0 k0_t2 k0_t3) i q hq
  case pa1 =>
    intro i q b hq hb
    refine pay_lane row _ (Memref.read_access_whole (Elt F) cc0_scratch0 row) tb bias v2 _ _ hz v314 (1024 * k0_t2.val + 256 * k0_t3.val + 16) (l0 + k0_t2.val) ?_ hv i q b hq hb
    exact fun i q hq => readAt_lane tb _ _ _ (n0_ld1 k0_t2 k0_t3) i q hq
  case pa2 =>
    intro i q b hq hb
    refine pay_lane row _ (Memref.read_access_whole (Elt F) cc0_scratch0 row) tb bias v2 _ _ hz v314 (1024 * k0_t2.val + 256 * k0_t3.val + 32) (l0 + k0_t2.val) ?_ hv i q b hq hb
    exact fun i q hq => readAt_lane tb _ _ _ (n0_ld2 k0_t2 k0_t3) i q hq
  case pa3 =>
    intro i q b hq hb
    refine pay_lane row _ (Memref.read_access_whole (Elt F) cc0_scratch0 row) tb bias v2 _ _ hz v314 (1024 * k0_t2.val + 256 * k0_t3.val + 48) (l0 + k0_t2.val) ?_ hv i q b hq hb
    exact fun i q hq => readAt_lane tb _ _ _ (n0_ld3 k0_t2 k0_t3) i q hq
  case pa4 =>
    intro i q b hq hb
    refine pay_lane row _ (Memref.read_access_whole (Elt F) cc0_scratch0 row) tb bias v2 _ _ hz v314 (1024 * k0_t2.val + 256 * k0_t3.val + 64) (l0 + k0_t2.val) ?_ hv i q b hq hb
    exact fun i q hq => readAt_lane tb _ _ _ (n0_ld4 k0_t2 k0_t3) i q hq
  case pa5 =>
    intro i q b hq hb
    refine pay_lane row _ (Memref.read_access_whole (Elt F) cc0_scratch0 row) tb bias v2 _ _ hz v314 (1024 * k0_t2.val + 256 * k0_t3.val + 80) (l0 + k0_t2.val) ?_ hv i q b hq hb
    exact fun i q hq => readAt_lane tb _ _ _ (n0_ld5 k0_t2 k0_t3) i q hq
  case pa6 =>
    intro i q b hq hb
    refine pay_lane row _ (Memref.read_access_whole (Elt F) cc0_scratch0 row) tb bias v2 _ _ hz v314 (1024 * k0_t2.val + 256 * k0_t3.val + 96) (l0 + k0_t2.val) ?_ hv i q b hq hb
    exact fun i q hq => readAt_lane tb _ _ _ (n0_ld6 k0_t2 k0_t3) i q hq
  case pa7 =>
    intro i q b hq hb
    refine pay_lane row _ (Memref.read_access_whole (Elt F) cc0_scratch0 row) tb bias v2 _ _ hz v314 (1024 * k0_t2.val + 256 * k0_t3.val + 112) (l0 + k0_t2.val) ?_ hv i q b hq hb
    exact fun i q hq => readAt_lane tb _ _ _ (n0_ld7 k0_t2 k0_t3) i q hq
  case pa8 =>
    intro i q b hq hb
    refine pay_lane row _ (Memref.read_access_whole (Elt F) cc0_scratch0 row) tb bias v2 _ _ hz v314 (1024 * k0_t2.val + 256 * k0_t3.val + 128) (l0 + k0_t2.val) ?_ hv i q b hq hb
    exact fun i q hq => readAt_lane tb _ _ _ (n0_ld8 k0_t2 k0_t3) i q hq
  case pa9 =>
    intro i q b hq hb
    refine pay_lane row _ (Memref.read_access_whole (Elt F) cc0_scratch0 row) tb bias v2 _ _ hz v314 (1024 * k0_t2.val + 256 * k0_t3.val + 144) (l0 + k0_t2.val) ?_ hv i q b hq hb
    exact fun i q hq => readAt_lane tb _ _ _ (n0_ld9 k0_t2 k0_t3) i q hq
  case pa10 =>
    intro i q b hq hb
    refine pay_lane row _ (Memref.read_access_whole (Elt F) cc0_scratch0 row) tb bias v2 _ _ hz v314 (1024 * k0_t2.val + 256 * k0_t3.val + 160) (l0 + k0_t2.val) ?_ hv i q b hq hb
    exact fun i q hq => readAt_lane tb _ _ _ (n0_ld10 k0_t2 k0_t3) i q hq
  case pa11 =>
    intro i q b hq hb
    refine pay_lane row _ (Memref.read_access_whole (Elt F) cc0_scratch0 row) tb bias v2 _ _ hz v314 (1024 * k0_t2.val + 256 * k0_t3.val + 176) (l0 + k0_t2.val) ?_ hv i q b hq hb
    exact fun i q hq => readAt_lane tb _ _ _ (n0_ld11 k0_t2 k0_t3) i q hq
  case pa12 =>
    intro i q b hq hb
    refine pay_lane row _ (Memref.read_access_whole (Elt F) cc0_scratch0 row) tb bias v2 _ _ hz v314 (1024 * k0_t2.val + 256 * k0_t3.val + 192) (l0 + k0_t2.val) ?_ hv i q b hq hb
    exact fun i q hq => readAt_lane tb _ _ _ (n0_ld12 k0_t2 k0_t3) i q hq
  case pa13 =>
    intro i q b hq hb
    refine pay_lane row _ (Memref.read_access_whole (Elt F) cc0_scratch0 row) tb bias v2 _ _ hz v314 (1024 * k0_t2.val + 256 * k0_t3.val + 208) (l0 + k0_t2.val) ?_ hv i q b hq hb
    exact fun i q hq => readAt_lane tb _ _ _ (n0_ld13 k0_t2 k0_t3) i q hq
  case pa14 =>
    intro i q b hq hb
    refine pay_lane row _ (Memref.read_access_whole (Elt F) cc0_scratch0 row) tb bias v2 _ _ hz v314 (1024 * k0_t2.val + 256 * k0_t3.val + 224) (l0 + k0_t2.val) ?_ hv i q b hq hb
    exact fun i q hq => readAt_lane tb _ _ _ (n0_ld14 k0_t2 k0_t3) i q hq
  case pa15 =>
    intro i q b hq hb
    refine pay_lane row _ (Memref.read_access_whole (Elt F) cc0_scratch0 row) tb bias v2 _ _ hz v314 (1024 * k0_t2.val + 256 * k0_t3.val + 240) (l0 + k0_t2.val) ?_ hv i q b hq hb
    exact fun i q hq => readAt_lane tb _ _ _ (n0_ld15 k0_t2 k0_t3) i q hq

theorem n0_t3_trips : k0_t3_loop.trips = 4 := by decide +kernel
theorem n0_t2_trips : k0_t2_loop.trips = 4 := by decide +kernel

/-- The bias vector's index word in outer trip `t2` is `0 + t2`. -/
theorem n0_w_eq : ∀ k0_t2 : Fin k0_t2_loop.trips, (Scalar.addi 0#32 (Scalar.addi 0#32 (Scalar.muli (Scf.iv 0#32 1#32 k0_t2) 1#32))).toNat = 0 + k0_t2.val := by decide +kernel

/-- Before outer trip `k`: the token words, the row and the biases as they were, and the staging buffer filled below token
    position `1024 * k`. -/
def n0_I2 (tb : Buf (Elt F) ((a8).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a8).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a10).view.loc (thr d L)), ((a10).view.loc (thr d L) ↦{fullShare} g)
      ∗ ⌜∀ y, (flatOf y).val < 1024 * k → (a10).view.read (Elt F) g y = nestG row tb bias l0 hl0 y⌝)

set_option maxHeartbeats 4000000 in
/-- One outer trip: the bias vector gathered at the trip's position, then the four inner trips. -/
theorem n0_t2_step (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (k0_t2 : Fin k0_t2_loop.trips) (acc : Unit) :
    n0_I2 d L tb row bias 0 (by norm_num) k0_t2.val acc
      ⊢ wp frame (wpE (defs₀ (F := F)) 𝒱₀ (thr d L) none) Set.univ
          (k0_t2_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t2 acc) (n0_I2 d L tb row bias 0 (by norm_num) (k0_t2.val + 1)) := by
  have ht2 : k0_t2.val < 4 := Nat.lt_of_lt_of_le k0_t2.isLt k0_t2_abs.2.1
  unfold n0_I2 k0_t2_body
  iintro ⟨H8, H7, H13, %g, H10, %hg⟩
  sl_exec (disch := exact chkBias_ok _ (lt_of_eq_of_lt (n0_w_eq k0_t2) (by omega)))
  iapply (SparseCore.wp_vectorLoadIdx 𝒱₀ (thr d L) none Set.univ (base := a13) (S := Finset.univ) (q := fullShare) (Finset.subset_univ _)) $$ H13; iintro H13
  sl_for (n0_I3 d L tb row bias 0 (by norm_num) k0_t2.val) $$ [H8 H7 H10]
  case region =>
    intro k acc'
    refine n0_t3_step d L v2 hz k0_t1 v10 k0_t2 _ _ tb htb row bias 0 (by norm_num) ?hv k acc'
    exact fun i b hb => bias_lane bias _ (Memref.read_access_whole (Elt F) cc0_scratch6 bias) _ _ (0 + k0_t2.val) (n0_w_eq k0_t2) i b hb
  · unfold n0_I3
    isplitl [H8]; · iexact H8
    isplitl [H7]; · iexact H7
    iexists g
    isplitl [H10]; · iexact H10
    ipureintro
    intro y hy
    exact hg y (by omega)
  iintro %_ HI
  unfold n0_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t3_loop.lb k0_t3_loop.ub k0_t3_loop.st = 4 := n0_t3_trips
  omega

set_option maxHeartbeats 4000000 in
/-- The whole nest: from any contents of the staging buffer to the nest's value, the token words, the row and the biases kept. -/
theorem nest0 (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} f)) : sProp 𝕄)
      ⊢ wp frame (wpE (defs₀ (F := F)) 𝒱₀ (thr d L) none) Set.univ
          (Scf.Loop.for k0_t2_loop k0_t2_ok ⟨⟩ (k0_t2_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} nestG row tb bias 0 (by norm_num)))) := by
  iintro ⟨H8, H7, H13, H10⟩
  sl_for (n0_I2 d L tb row bias 0 (by norm_num)) $$ [H8 H7 H13 H10]
  case region =>
    intro k acc
    exact n0_t2_step d L v2 hz k0_t1 v10 tb htb row bias k acc
  isplitl [H8 H7 H13 H10]
  · unfold n0_I2
    isplitl [H8]; · iexact H8
    isplitl [H7]; · iexact H7
    isplitl [H13]; · iexact H13
    iexists f
    isplitl [H10]; · iexact H10
    ipureintro
    intro y hy
    omega
  iintro %_ HI
  unfold n0_I2
  icases HI with ⟨H8, H7, H13, %g, H10, %hg⟩
  have e : g = nestG row tb bias 0 (by norm_num) :=
    funext fun y => hg y (by
      have h4 : Scf.trips k0_t2_loop.lb k0_t2_loop.ub k0_t2_loop.st = 4 := n0_t2_trips
      have := (flatOf y).isLt
      omega)
  subst e
  isplitl [H8]; · iexact H8
  isplitl [H7]; · iexact H7
  isplitl [H13]; · iexact H13
  iexact H10

end Cert.Proof.NestK
end
-- ==== Proof.Nest1K.lean ====
/-
  The compute nest of the lookup kernel, instance 1: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.NestSpecK
import proofs.«203565_g79912161509654_cont_9to1_m_411_39_alg».proof.Proof.Nest0K

noncomputable section

namespace Cert.Proof.NestK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

open Idealize.ShloMosaic.ValueIdx

variable (d : Dev nD) (L : grid0.Coords)

theorem n1_ld0 (k0_t4 : Fin k0_t4_loop.trips) (k0_t5 : Fin k0_t5_loop.trips) :
    k0_off14 k0_t4 k0_t5 0#32 = ![1024 * k0_t4.val + 256 * k0_t5.val + 0] := k0_off14_eq k0_t4 k0_t5 0
theorem n1_ld1 (k0_t4 : Fin k0_t4_loop.trips) (k0_t5 : Fin k0_t5_loop.trips) :
    k0_off14 k0_t4 k0_t5 16#32 = ![1024 * k0_t4.val + 256 * k0_t5.val + 16] := k0_off14_eq k0_t4 k0_t5 1
theorem n1_ld2 (k0_t4 : Fin k0_t4_loop.trips) (k0_t5 : Fin k0_t5_loop.trips) :
    k0_off14 k0_t4 k0_t5 32#32 = ![1024 * k0_t4.val + 256 * k0_t5.val + 32] := k0_off14_eq k0_t4 k0_t5 2
theorem n1_ld3 (k0_t4 : Fin k0_t4_loop.trips) (k0_t5 : Fin k0_t5_loop.trips) :
    k0_off14 k0_t4 k0_t5 48#32 = ![1024 * k0_t4.val + 256 * k0_t5.val + 48] := k0_off14_eq k0_t4 k0_t5 3
theorem n1_ld4 (k0_t4 : Fin k0_t4_loop.trips) (k0_t5 : Fin k0_t5_loop.trips) :
    k0_off14 k0_t4 k0_t5 64#32 = ![1024 * k0_t4.val + 256 * k0_t5.val + 64] := k0_off14_eq k0_t4 k0_t5 4
theorem n1_ld5 (k0_t4 : Fin k0_t4_loop.trips) (k0_t5 : Fin k0_t5_loop.trips) :
    k0_off14 k0_t4 k0_t5 80#32 = ![1024 * k0_t4.val + 256 * k0_t5.val + 80] := k0_off14_eq k0_t4 k0_t5 5
theorem n1_ld6 (k0_t4 : Fin k0_t4_loop.trips) (k0_t5 : Fin k0_t5_loop.trips) :
    k0_off14 k0_t4 k0_t5 96#32 = ![1024 * k0_t4.val + 256 * k0_t5.val + 96] := k0_off14_eq k0_t4 k0_t5 6
theorem n1_ld7 (k0_t4 : Fin k0_t4_loop.trips) (k0_t5 : Fin k0_t5_loop.trips) :
    k0_off14 k0_t4 k0_t5 112#32 = ![1024 * k0_t4.val + 256 * k0_t5.val + 112] := k0_off14_eq k0_t4 k0_t5 7
theorem n1_ld8 (k0_t4 : Fin k0_t4_loop.trips) (k0_t5 : Fin k0_t5_loop.trips) :
    k0_off14 k0_t4 k0_t5 128#32 = ![1024 * k0_t4.val + 256 * k0_t5.val + 128] := k0_off14_eq k0_t4 k0_t5 8
theorem n1_ld9 (k0_t4 : Fin k0_t4_loop.trips) (k0_t5 : Fin k0_t5_loop.trips) :
    k0_off14 k0_t4 k0_t5 144#32 = ![1024 * k0_t4.val + 256 * k0_t5.val + 144] := k0_off14_eq k0_t4 k0_t5 9
theorem n1_ld10 (k0_t4 : Fin k0_t4_loop.trips) (k0_t5 : Fin k0_t5_loop.trips) :
    k0_off14 k0_t4 k0_t5 160#32 = ![1024 * k0_t4.val + 256 * k0_t5.val + 160] := k0_off14_eq k0_t4 k0_t5 10
theorem n1_ld11 (k0_t4 : Fin k0_t4_loop.trips) (k0_t5 : Fin k0_t5_loop.trips) :
    k0_off14 k0_t4 k0_t5 176#32 = ![1024 * k0_t4.val + 256 * k0_t5.val + 176] := k0_off14_eq k0_t4 k0_t5 11
theorem n1_ld12 (k0_t4 : Fin k0_t4_loop.trips) (k0_t5 : Fin k0_t5_loop.trips) :
    k0_off14 k0_t4 k0_t5 192#32 = ![1024 * k0_t4.val + 256 * k0_t5.val + 192] := k0_off14_eq k0_t4 k0_t5 12
theorem n1_ld13 (k0_t4 : Fin k0_t4_loop.trips) (k0_t5 : Fin k0_t5_loop.trips) :
    k0_off14 k0_t4 k0_t5 208#32 = ![1024 * k0_t4.val + 256 * k0_t5.val + 208] := k0_off14_eq k0_t4 k0_t5 13
theorem n1_ld14 (k0_t4 : Fin k0_t4_loop.trips) (k0_t5 : Fin k0_t5_loop.trips) :
    k0_off14 k0_t4 k0_t5 224#32 = ![1024 * k0_t4.val + 256 * k0_t5.val + 224] := k0_off14_eq k0_t4 k0_t5 14
theorem n1_ld15 (k0_t4 : Fin k0_t4_loop.trips) (k0_t5 : Fin k0_t5_loop.trips) :
    k0_off14 k0_t4 k0_t5 240#32 = ![1024 * k0_t4.val + 256 * k0_t5.val + 240] := k0_off14_eq k0_t4 k0_t5 15
theorem n1_st0 (k0_t4 : Fin k0_t4_loop.trips) (k0_t5 : Fin k0_t5_loop.trips) :
    k0_off15 k0_t4 k0_t5 0#32 = ![k0_t4.val, 0, 2 * k0_t5.val + 0, 0, 0] := k0_off15_eq k0_t4 k0_t5 0
theorem n1_st1 (k0_t4 : Fin k0_t4_loop.trips) (k0_t5 : Fin k0_t5_loop.trips) :
    k0_off16 k0_t4 k0_t5 1#32 = ![k0_t4.val, 0, 2 * k0_t5.val + 0, 0, 16] := k0_off16_eq k0_t4 k0_t5 0
theorem n1_st2 (k0_t4 : Fin k0_t4_loop.trips) (k0_t5 : Fin k0_t5_loop.trips) :
    k0_off17 k0_t4 k0_t5 2#32 = ![k0_t4.val, 0, 2 * k0_t5.val + 0, 0, 32] := k0_off17_eq k0_t4 k0_t5 0
theorem n1_st3 (k0_t4 : Fin k0_t4_loop.trips) (k0_t5 : Fin k0_t5_loop.trips) :
    k0_off18 k0_t4 k0_t5 3#32 = ![k0_t4.val, 0, 2 * k0_t5.val + 0, 0, 48] := k0_off18_eq k0_t4 k0_t5 0
theorem n1_st4 (k0_t4 : Fin k0_t4_loop.trips) (k0_t5 : Fin k0_t5_loop.trips) :
    k0_off19 k0_t4 k0_t5 4#32 = ![k0_t4.val, 0, 2 * k0_t5.val + 0, 0, 64] := k0_off19_eq k0_t4 k0_t5 0
theorem n1_st5 (k0_t4 : Fin k0_t4_loop.trips) (k0_t5 : Fin k0_t5_loop.trips) :
    k0_off20 k0_t4 k0_t5 5#32 = ![k0_t4.val, 0, 2 * k0_t5.val + 0, 0, 80] := k0_off20_eq k0_t4 k0_t5 0
theorem n1_st6 (k0_t4 : Fin k0_t4_loop.trips) (k0_t5 : Fin k0_t5_loop.trips) :
    k0_off21 k0_t4 k0_t5 6#32 = ![k0_t4.val, 0, 2 * k0_t5.val + 0, 0, 96] := k0_off21_eq k0_t4 k0_t5 0
theorem n1_st7 (k0_t4 : Fin k0_t4_loop.trips) (k0_t5 : Fin k0_t5_loop.trips) :
    k0_off22 k0_t4 k0_t5 7#32 = ![k0_t4.val, 0, 2 * k0_t5.val + 0, 0, 112] := k0_off22_eq k0_t4 k0_t5 0
theorem n1_st8 (k0_t4 : Fin k0_t4_loop.trips) (k0_t5 : Fin k0_t5_loop.trips) :
    k0_off15 k0_t4 k0_t5 8#32 = ![k0_t4.val, 0, 2 * k0_t5.val + 1, 0, 0] := k0_off15_eq k0_t4 k0_t5 1
theorem n1_st9 (k0_t4 : Fin k0_t4_loop.trips) (k0_t5 : Fin k0_t5_loop.trips) :
    k0_off16 k0_t4 k0_t5 9#32 = ![k0_t4.val, 0, 2 * k0_t5.val + 1, 0, 16] := k0_off16_eq k0_t4 k0_t5 1
theorem n1_st10 (k0_t4 : Fin k0_t4_loop.trips) (k0_t5 : Fin k0_t5_loop.trips) :
    k0_off17 k0_t4 k0_t5 10#32 = ![k0_t4.val, 0, 2 * k0_t5.val + 1, 0, 32] := k0_off17_eq k0_t4 k0_t5 1
theorem n1_st11 (k0_t4 : Fin k0_t4_loop.trips) (k0_t5 : Fin k0_t5_loop.trips) :
    k0_off18 k0_t4 k0_t5 11#32 = ![k0_t4.val, 0, 2 * k0_t5.val + 1, 0, 48] := k0_off18_eq k0_t4 k0_t5 1
theorem n1_st12 (k0_t4 : Fin k0_t4_loop.trips) (k0_t5 : Fin k0_t5_loop.trips) :
    k0_off19 k0_t4 k0_t5 12#32 = ![k0_t4.val, 0, 2 * k0_t5.val + 1, 0, 64] := k0_off19_eq k0_t4 k0_t5 1
theorem n1_st13 (k0_t4 : Fin k0_t4_loop.trips) (k0_t5 : Fin k0_t5_loop.trips) :
    k0_off20 k0_t4 k0_t5 13#32 = ![k0_t4.val, 0, 2 * k0_t5.val + 1, 0, 80] := k0_off20_eq k0_t4 k0_t5 1
theorem n1_st14 (k0_t4 : Fin k0_t4_loop.trips) (k0_t5 : Fin k0_t5_loop.trips) :
    k0_off21 k0_t4 k0_t5 14#32 = ![k0_t4.val, 0, 2 * k0_t5.val + 1, 0, 96] := k0_off21_eq k0_t4 k0_t5 1
theorem n1_st15 (k0_t4 : Fin k0_t4_loop.trips) (k0_t5 : Fin k0_t5_loop.trips) :
    k0_off22 k0_t4 k0_t5 15#32 = ![k0_t4.val, 0, 2 * k0_t5.val + 1, 0, 112] := k0_off22_eq k0_t4 k0_t5 1

/-- Before inner trip `k` of outer trip `t2`: the token words and the row as they were, and the staging buffer filled below
    token position `1024 * t2 + 256 * k`. -/
def n1_I3 (tb : Buf (Elt F) ((a9).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a9).view.loc (thr d L) ↦{fullShare} tb) ∗ (((a7).access (.whole S1x100000)).loc (thr d L) ↦{fullShare} row)
    ∗ ∃ g : Buf (Elt F) ((a11).view.loc (thr d L)), ((a11).view.loc (thr d L) ↦{fullShare} g)
      ∗ ⌜∀ y, (flatOf y).val < 1024 * t2 + 256 * k → (a11).view.read (Elt F) g y = nestG row tb bias l0 hl0 y⌝)

set_option maxHeartbeats 4000000 in
/-- One inner trip: sixteen gathers of the row at sixteen vectors of token words, each plus the bias vector, stored at the
    trip's sixteen rectangles. -/
theorem n1_t3_step (v2 : IVec S16 32) (hz : ∀ x, (v2 x).toNat < 1) (k0_t1 : Fin k0_t1_loop.trips) (v10 : BitVec 32) (k0_t4 : Fin k0_t4_loop.trips)
    (wIdx : BitVec 32) (v314 : Vec F S16 .f32)
    (tb : Buf (Elt F) ((a9).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t4.val → v314 (ix1 i) = bias (ix1 b))
    (k0_t5 : Fin k0_t5_loop.trips) (acc : Unit) :
    n1_I3 d L tb row bias l0 hl0 k0_t4.val k0_t5.val acc
      ⊢ wp frame (wpE (defs₀ (F := F)) 𝒱₀ (thr d L) none) Set.univ
          (k0_t5_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t4 wIdx v314 k0_t5 acc) (n1_I3 d L tb row bias l0 hl0 k0_t4.val (k0_t5.val + 1)) := by
  have ht2 : k0_t4.val < 4 := Nat.lt_of_lt_of_le k0_t4.isLt k0_t4_abs.2.1
  have ht3 : k0_t5.val < 4 := Nat.lt_of_lt_of_le k0_t5.isLt k0_t5_abs.2.1
  unfold n1_I3 k0_t5_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t4.val + 256 * (k0_t5.val + 1) = 1024 * k0_t4.val + 256 * k0_t5.val + 256 by omega]
  refine filled_step16 (a11).view row tb bias l0 hl0 g k0_t4.val k0_t5.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n1_st0 k0_t4 k0_t5
  case ph1 => exact n1_st1 k0_t4 k0_t5
  case ph2 => exact n1_st2 k0_t4 k0_t5
  case ph3 => exact n1_st3 k0_t4 k0_t5
  case ph4 => exact n1_st4 k0_t4 k0_t5
  case ph5 => exact n1_st5 k0_t4 k0_t5
  case ph6 => exact n1_st6 k0_t4 k0_t5
  case ph7 => exact n1_st7 k0_t4 k0_t5
  case ph8 => exact n1_st8 k0_t4 k0_t5
  case ph9 => exact n1_st9 k0_t4 k0_t5
  case ph10 => exact n1_st10 k0_t4 k0_t5
  case ph11 => exact n1_st11 k0_t4 k0_t5
  case ph12 => exact n1_st12 k0_t4 k0_t5
  case ph13 => exact n1_st13 k0_t4 k0_t5
  case ph14 => exact n1_st14 k0_t4 k0_t5
  case ph15 => exact n1_st15 k0_t4 k0_t5
  case pa0 =>
    intro i q b hq hb
    refine pay_lane row _ (Memref.read_access_whole (Elt F) cc0_scratch0 row) tb bias v2 _ _ hz v314 (1024 * k0_t4.val + 256 * k0_t5.val + 0) (l0 + k0_t4.val) ?_ hv i q b hq hb
    exact fun i q hq => readAt_lane tb _ _ _ (n1_ld0 k0_t4 k0_t5) i q hq
  case pa1 =>
    intro i q b hq hb
    refine pay_lane row _ (Memref.read_access_whole (Elt F) cc0_scratch0 row) tb bias v2 _ _ hz v314 (1024 * k0_t4.val + 256 * k0_t5.val + 16) (l0 + k0_t4.val) ?_ hv i q b hq hb
    exact fun i q hq => readAt_lane tb _ _ _ (n1_ld1 k0_t4 k0_t5) i q hq
  case pa2 =>
    intro i q b hq hb
    refine pay_lane row _ (Memref.read_access_whole (Elt F) cc0_scratch0 row) tb bias v2 _ _ hz v314 (1024 * k0_t4.val + 256 * k0_t5.val + 32) (l0 + k0_t4.val) ?_ hv i q b hq hb
    exact fun i q hq => readAt_lane tb _ _ _ (n1_ld2 k0_t4 k0_t5) i q hq
  case pa3 =>
    intro i q b hq hb
    refine pay_lane row _ (Memref.read_access_whole (Elt F) cc0_scratch0 row) tb bias v2 _ _ hz v314 (1024 * k0_t4.val + 256 * k0_t5.val + 48) (l0 + k0_t4.val) ?_ hv i q b hq hb
    exact fun i q hq => readAt_lane tb _ _ _ (n1_ld3 k0_t4 k0_t5) i q hq
  case pa4 =>
    intro i q b hq hb
    refine pay_lane row _ (Memref.read_access_whole (Elt F) cc0_scratch0 row) tb bias v2 _ _ hz v314 (1024 * k0_t4.val + 256 * k0_t5.val + 64) (l0 + k0_t4.val) ?_ hv i q b hq hb
    exact fun i q hq => readAt_lane tb _ _ _ (n1_ld4 k0_t4 k0_t5) i q hq
  case pa5 =>
    intro i q b hq hb
    refine pay_lane row _ (Memref.read_access_whole (Elt F) cc0_scratch0 row) tb bias v2 _ _ hz v314 (1024 * k0_t4.val + 256 * k0_t5.val + 80) (l0 + k0_t4.val) ?_ hv i q b hq hb
    exact fun i q hq => readAt_lane tb _ _ _ (n1_ld5 k0_t4 k0_t5) i q hq
  case pa6 =>
    intro i q b hq hb
    refine pay_lane row _ (Memref.read_access_whole (Elt F) cc0_scratch0 row) tb bias v2 _ _ hz v314 (1024 * k0_t4.val + 256 * k0_t5.val + 96) (l0 + k0_t4.val) ?_ hv i q b hq hb
    exact fun i q hq => readAt_lane tb _ _ _ (n1_ld6 k0_t4 k0_t5) i q hq
  case pa7 =>
    intro i q b hq hb
    refine pay_lane row _ (Memref.read_access_whole (Elt F) cc0_scratch0 row) tb bias v2 _ _ hz v314 (1024 * k0_t4.val + 256 * k0_t5.val + 112) (l0 + k0_t4.val) ?_ hv i q b hq hb
    exact fun i q hq => readAt_lane tb _ _ _ (n1_ld7 k0_t4 k0_t5) i q hq
  case pa8 =>
    intro i q b hq hb
    refine pay_lane row _ (Memref.read_access_whole (Elt F) cc0_scratch0 row) tb bias v2 _ _ hz v314 (1024 * k0_t4.val + 256 * k0_t5.val + 128) (l0 + k0_t4.val) ?_ hv i q b hq hb
    exact fun i q hq => readAt_lane tb _ _ _ (n1_ld8 k0_t4 k0_t5) i q hq
  case pa9 =>
    intro i q b hq hb
    refine pay_lane row _ (Memref.read_access_whole (Elt F) cc0_scratch0 row) tb bias v2 _ _ hz v314 (1024 * k0_t4.val + 256 * k0_t5.val + 144) (l0 + k0_t4.val) ?_ hv i q b hq hb
    exact fun i q hq => readAt_lane tb _ _ _ (n1_ld9 k0_t4 k0_t5) i q hq
  case pa10 =>
    intro i q b hq hb
    refine pay_lane row _ (Memref.read_access_whole (Elt F) cc0_scratch0 row) tb bias v2 _ _ hz v314 (1024 * k0_t4.val + 256 * k0_t5.val + 160) (l0 + k0_t4.val) ?_ hv i q b hq hb
    exact fun i q hq => readAt_lane tb _ _ _ (n1_ld10 k0_t4 k0_t5) i q hq
  case pa11 =>
    intro i q b hq hb
    refine pay_lane row _ (Memref.read_access_whole (Elt F) cc0_scratch0 row) tb bias v2 _ _ hz v314 (1024 * k0_t4.val + 256 * k0_t5.val + 176) (l0 + k0_t4.val) ?_ hv i q b hq hb
    exact fun i q hq => readAt_lane tb _ _ _ (n1_ld11 k0_t4 k0_t5) i q hq
  case pa12 =>
    intro i q b hq hb
    refine pay_lane row _ (Memref.read_access_whole (Elt F) cc0_scratch0 row) tb bias v2 _ _ hz v314 (1024 * k0_t4.val + 256 * k0_t5.val + 192) (l0 + k0_t4.val) ?_ hv i q b hq hb
    exact fun i q hq => readAt_lane tb _ _ _ (n1_ld12 k0_t4 k0_t5) i q hq
  case pa13 =>
    intro i q b hq hb
    refine pay_lane row _ (Memref.read_access_whole (Elt F) cc0_scratch0 row) tb bias v2 _ _ hz v314 (1024 * k0_t4.val + 256 * k0_t5.val + 208) (l0 + k0_t4.val) ?_ hv i q b hq hb
    exact fun i q hq => readAt_lane tb _ _ _ (n1_ld13 k0_t4 k0_t5) i q hq
  case pa14 =>
    intro i q b hq hb
    refine pay_lane row _ (Memref.read_access_whole (Elt F) cc0_scratch0 row) tb bias v2 _ _ hz v314 (1024 * k0_t4.val + 256 * k0_t5.val + 224) (l0 + k0_t4.val) ?_ hv i q b hq hb
    exact fun i q hq => readAt_lane tb _ _ _ (n1_ld14 k0_t4 k0_t5) i q hq
  case pa15 =>
    intro i q b hq hb
    refine pay_lane row _ (Memref.read_access_whole (Elt F) cc0_scratch0 row) tb bias v2 _ _ hz v314 (1024 * k0_t4.val + 256 * k0_t5.val + 240) (l0 + k0_t4.val) ?_ hv i q b hq hb
    exact fun i q hq => readAt_lane tb _ _ _ (n1_ld15 k0_t4 k0_t5) i q hq

theorem n1_t3_trips : k0_t5_loop.trips = 4 := by decide +kernel
theorem n1_t2_trips : k0_t4_loop.trips = 4 := by decide +kernel

/-- The bias vector's index word in outer trip `t2` is `4 + t2`. -/
theorem n1_w_eq : ∀ k0_t4 : Fin k0_t4_loop.trips, (Scalar.addi 4#32 (Scalar.addi 0#32 (Scalar.muli (Scf.iv 0#32 1#32 k0_t4) 1#32))).toNat = 4 + k0_t4.val := by decide +kernel

/-- Before outer trip `k`: the token words, the row and the biases as they were, and the staging buffer filled below token
    position `1024 * k`. -/
def n1_I2 (tb : Buf (Elt F) ((a9).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a9).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a11).view.loc (thr d L)), ((a11).view.loc (thr d L) ↦{fullShare} g)
      ∗ ⌜∀ y, (flatOf y).val < 1024 * k → (a11).view.read (Elt F) g y = nestG row tb bias l0 hl0 y⌝)

set_option maxHeartbeats 4000000 in
/-- One outer trip: the bias vector gathered at the trip's position, then the four inner trips. -/
theorem n1_t2_step (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (k0_t4 : Fin k0_t4_loop.trips) (acc : Unit) :
    n1_I2 d L tb row bias 4 (by norm_num) k0_t4.val acc
      ⊢ wp frame (wpE (defs₀ (F := F)) 𝒱₀ (thr d L) none) Set.univ
          (k0_t4_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t4 acc) (n1_I2 d L tb row bias 4 (by norm_num) (k0_t4.val + 1)) := by
  have ht2 : k0_t4.val < 4 := Nat.lt_of_lt_of_le k0_t4.isLt k0_t4_abs.2.1
  unfold n1_I2 k0_t4_body
  iintro ⟨H8, H7, H13, %g, H10, %hg⟩
  sl_exec (disch := exact chkBias_ok _ (lt_of_eq_of_lt (n1_w_eq k0_t4) (by omega)))
  iapply (SparseCore.wp_vectorLoadIdx 𝒱₀ (thr d L) none Set.univ (base := a13) (S := Finset.univ) (q := fullShare) (Finset.subset_univ _)) $$ H13; iintro H13
  sl_for (n1_I3 d L tb row bias 4 (by norm_num) k0_t4.val) $$ [H8 H7 H10]
  case region =>
    intro k acc'
    refine n1_t3_step d L v2 hz k0_t1 v10 k0_t4 _ _ tb htb row bias 4 (by norm_num) ?hv k acc'
    exact fun i b hb => bias_lane bias _ (Memref.read_access_whole (Elt F) cc0_scratch6 bias) _ _ (4 + k0_t4.val) (n1_w_eq k0_t4) i b hb
  · unfold n1_I3
    isplitl [H8]; · iexact H8
    isplitl [H7]; · iexact H7
    iexists g
    isplitl [H10]; · iexact H10
    ipureintro
    intro y hy
    exact hg y (by omega)
  iintro %_ HI
  unfold n1_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t5_loop.lb k0_t5_loop.ub k0_t5_loop.st = 4 := n1_t3_trips
  omega

set_option maxHeartbeats 4000000 in
/-- The whole nest: from any contents of the staging buffer to the nest's value, the token words, the row and the biases kept. -/
theorem nest1 (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} f)) : sProp 𝕄)
      ⊢ wp frame (wpE (defs₀ (F := F)) 𝒱₀ (thr d L) none) Set.univ
          (Scf.Loop.for k0_t4_loop k0_t4_ok ⟨⟩ (k0_t4_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10))
          (fun _ => iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} nestG row tb bias 4 (by norm_num)))) := by
  iintro ⟨H8, H7, H13, H10⟩
  sl_for (n1_I2 d L tb row bias 4 (by norm_num)) $$ [H8 H7 H13 H10]
  case region =>
    intro k acc
    exact n1_t2_step d L v2 hz k0_t1 v10 tb htb row bias k acc
  isplitl [H8 H7 H13 H10]
  · unfold n1_I2
    isplitl [H8]; · iexact H8
    isplitl [H7]; · iexact H7
    isplitl [H13]; · iexact H13
    iexists f
    isplitl [H10]; · iexact H10
    ipureintro
    intro y hy
    omega
  iintro %_ HI
  unfold n1_I2
  icases HI with ⟨H8, H7, H13, %g, H10, %hg⟩
  have e : g = nestG row tb bias 4 (by norm_num) :=
    funext fun y => hg y (by
      have h4 : Scf.trips k0_t4_loop.lb k0_t4_loop.ub k0_t4_loop.st = 4 := n1_t2_trips
      have := (flatOf y).isLt
      omega)
  subst e
  isplitl [H8]; · iexact H8
  isplitl [H7]; · iexact H7
  isplitl [H13]; · iexact H13
  iexact H10

end Cert.Proof.NestK
end
-- ==== Proof.Nest2K.lean ====
/-
  The compute nest of the lookup kernel, instance 2: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.NestSpecK
import proofs.«203565_g79912161509654_cont_9to1_m_411_39_alg».proof.Proof.Nest0K

noncomputable section

namespace Cert.Proof.NestK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

open Idealize.ShloMosaic.ValueIdx

variable (d : Dev nD) (L : grid0.Coords)

theorem n2_ld0 (k0_t7 : Fin k0_t7_loop.trips) (k0_t8 : Fin k0_t8_loop.trips) :
    k0_off26 k0_t7 k0_t8 0#32 = ![1024 * k0_t7.val + 256 * k0_t8.val + 0] := k0_off26_eq k0_t7 k0_t8 0
theorem n2_ld1 (k0_t7 : Fin k0_t7_loop.trips) (k0_t8 : Fin k0_t8_loop.trips) :
    k0_off26 k0_t7 k0_t8 16#32 = ![1024 * k0_t7.val + 256 * k0_t8.val + 16] := k0_off26_eq k0_t7 k0_t8 1
theorem n2_ld2 (k0_t7 : Fin k0_t7_loop.trips) (k0_t8 : Fin k0_t8_loop.trips) :
    k0_off26 k0_t7 k0_t8 32#32 = ![1024 * k0_t7.val + 256 * k0_t8.val + 32] := k0_off26_eq k0_t7 k0_t8 2
theorem n2_ld3 (k0_t7 : Fin k0_t7_loop.trips) (k0_t8 : Fin k0_t8_loop.trips) :
    k0_off26 k0_t7 k0_t8 48#32 = ![1024 * k0_t7.val + 256 * k0_t8.val + 48] := k0_off26_eq k0_t7 k0_t8 3
theorem n2_ld4 (k0_t7 : Fin k0_t7_loop.trips) (k0_t8 : Fin k0_t8_loop.trips) :
    k0_off26 k0_t7 k0_t8 64#32 = ![1024 * k0_t7.val + 256 * k0_t8.val + 64] := k0_off26_eq k0_t7 k0_t8 4
theorem n2_ld5 (k0_t7 : Fin k0_t7_loop.trips) (k0_t8 : Fin k0_t8_loop.trips) :
    k0_off26 k0_t7 k0_t8 80#32 = ![1024 * k0_t7.val + 256 * k0_t8.val + 80] := k0_off26_eq k0_t7 k0_t8 5
theorem n2_ld6 (k0_t7 : Fin k0_t7_loop.trips) (k0_t8 : Fin k0_t8_loop.trips) :
    k0_off26 k0_t7 k0_t8 96#32 = ![1024 * k0_t7.val + 256 * k0_t8.val + 96] := k0_off26_eq k0_t7 k0_t8 6
theorem n2_ld7 (k0_t7 : Fin k0_t7_loop.trips) (k0_t8 : Fin k0_t8_loop.trips) :
    k0_off26 k0_t7 k0_t8 112#32 = ![1024 * k0_t7.val + 256 * k0_t8.val + 112] := k0_off26_eq k0_t7 k0_t8 7
theorem n2_ld8 (k0_t7 : Fin k0_t7_loop.trips) (k0_t8 : Fin k0_t8_loop.trips) :
    k0_off26 k0_t7 k0_t8 128#32 = ![1024 * k0_t7.val + 256 * k0_t8.val + 128] := k0_off26_eq k0_t7 k0_t8 8
theorem n2_ld9 (k0_t7 : Fin k0_t7_loop.trips) (k0_t8 : Fin k0_t8_loop.trips) :
    k0_off26 k0_t7 k0_t8 144#32 = ![1024 * k0_t7.val + 256 * k0_t8.val + 144] := k0_off26_eq k0_t7 k0_t8 9
theorem n2_ld10 (k0_t7 : Fin k0_t7_loop.trips) (k0_t8 : Fin k0_t8_loop.trips) :
    k0_off26 k0_t7 k0_t8 160#32 = ![1024 * k0_t7.val + 256 * k0_t8.val + 160] := k0_off26_eq k0_t7 k0_t8 10
theorem n2_ld11 (k0_t7 : Fin k0_t7_loop.trips) (k0_t8 : Fin k0_t8_loop.trips) :
    k0_off26 k0_t7 k0_t8 176#32 = ![1024 * k0_t7.val + 256 * k0_t8.val + 176] := k0_off26_eq k0_t7 k0_t8 11
theorem n2_ld12 (k0_t7 : Fin k0_t7_loop.trips) (k0_t8 : Fin k0_t8_loop.trips) :
    k0_off26 k0_t7 k0_t8 192#32 = ![1024 * k0_t7.val + 256 * k0_t8.val + 192] := k0_off26_eq k0_t7 k0_t8 12
theorem n2_ld13 (k0_t7 : Fin k0_t7_loop.trips) (k0_t8 : Fin k0_t8_loop.trips) :
    k0_off26 k0_t7 k0_t8 208#32 = ![1024 * k0_t7.val + 256 * k0_t8.val + 208] := k0_off26_eq k0_t7 k0_t8 13
theorem n2_ld14 (k0_t7 : Fin k0_t7_loop.trips) (k0_t8 : Fin k0_t8_loop.trips) :
    k0_off26 k0_t7 k0_t8 224#32 = ![1024 * k0_t7.val + 256 * k0_t8.val + 224] := k0_off26_eq k0_t7 k0_t8 14
theorem n2_ld15 (k0_t7 : Fin k0_t7_loop.trips) (k0_t8 : Fin k0_t8_loop.trips) :
    k0_off26 k0_t7 k0_t8 240#32 = ![1024 * k0_t7.val + 256 * k0_t8.val + 240] := k0_off26_eq k0_t7 k0_t8 15
theorem n2_st0 (k0_t7 : Fin k0_t7_loop.trips) (k0_t8 : Fin k0_t8_loop.trips) :
    k0_off27 k0_t7 k0_t8 0#32 = ![k0_t7.val, 0, 2 * k0_t8.val + 0, 0, 0] := k0_off27_eq k0_t7 k0_t8 0
theorem n2_st1 (k0_t7 : Fin k0_t7_loop.trips) (k0_t8 : Fin k0_t8_loop.trips) :
    k0_off28 k0_t7 k0_t8 1#32 = ![k0_t7.val, 0, 2 * k0_t8.val + 0, 0, 16] := k0_off28_eq k0_t7 k0_t8 0
theorem n2_st2 (k0_t7 : Fin k0_t7_loop.trips) (k0_t8 : Fin k0_t8_loop.trips) :
    k0_off29 k0_t7 k0_t8 2#32 = ![k0_t7.val, 0, 2 * k0_t8.val + 0, 0, 32] := k0_off29_eq k0_t7 k0_t8 0
theorem n2_st3 (k0_t7 : Fin k0_t7_loop.trips) (k0_t8 : Fin k0_t8_loop.trips) :
    k0_off30 k0_t7 k0_t8 3#32 = ![k0_t7.val, 0, 2 * k0_t8.val + 0, 0, 48] := k0_off30_eq k0_t7 k0_t8 0
theorem n2_st4 (k0_t7 : Fin k0_t7_loop.trips) (k0_t8 : Fin k0_t8_loop.trips) :
    k0_off31 k0_t7 k0_t8 4#32 = ![k0_t7.val, 0, 2 * k0_t8.val + 0, 0, 64] := k0_off31_eq k0_t7 k0_t8 0
theorem n2_st5 (k0_t7 : Fin k0_t7_loop.trips) (k0_t8 : Fin k0_t8_loop.trips) :
    k0_off32 k0_t7 k0_t8 5#32 = ![k0_t7.val, 0, 2 * k0_t8.val + 0, 0, 80] := k0_off32_eq k0_t7 k0_t8 0
theorem n2_st6 (k0_t7 : Fin k0_t7_loop.trips) (k0_t8 : Fin k0_t8_loop.trips) :
    k0_off33 k0_t7 k0_t8 6#32 = ![k0_t7.val, 0, 2 * k0_t8.val + 0, 0, 96] := k0_off33_eq k0_t7 k0_t8 0
theorem n2_st7 (k0_t7 : Fin k0_t7_loop.trips) (k0_t8 : Fin k0_t8_loop.trips) :
    k0_off34 k0_t7 k0_t8 7#32 = ![k0_t7.val, 0, 2 * k0_t8.val + 0, 0, 112] := k0_off34_eq k0_t7 k0_t8 0
theorem n2_st8 (k0_t7 : Fin k0_t7_loop.trips) (k0_t8 : Fin k0_t8_loop.trips) :
    k0_off27 k0_t7 k0_t8 8#32 = ![k0_t7.val, 0, 2 * k0_t8.val + 1, 0, 0] := k0_off27_eq k0_t7 k0_t8 1
theorem n2_st9 (k0_t7 : Fin k0_t7_loop.trips) (k0_t8 : Fin k0_t8_loop.trips) :
    k0_off28 k0_t7 k0_t8 9#32 = ![k0_t7.val, 0, 2 * k0_t8.val + 1, 0, 16] := k0_off28_eq k0_t7 k0_t8 1
theorem n2_st10 (k0_t7 : Fin k0_t7_loop.trips) (k0_t8 : Fin k0_t8_loop.trips) :
    k0_off29 k0_t7 k0_t8 10#32 = ![k0_t7.val, 0, 2 * k0_t8.val + 1, 0, 32] := k0_off29_eq k0_t7 k0_t8 1
theorem n2_st11 (k0_t7 : Fin k0_t7_loop.trips) (k0_t8 : Fin k0_t8_loop.trips) :
    k0_off30 k0_t7 k0_t8 11#32 = ![k0_t7.val, 0, 2 * k0_t8.val + 1, 0, 48] := k0_off30_eq k0_t7 k0_t8 1
theorem n2_st12 (k0_t7 : Fin k0_t7_loop.trips) (k0_t8 : Fin k0_t8_loop.trips) :
    k0_off31 k0_t7 k0_t8 12#32 = ![k0_t7.val, 0, 2 * k0_t8.val + 1, 0, 64] := k0_off31_eq k0_t7 k0_t8 1
theorem n2_st13 (k0_t7 : Fin k0_t7_loop.trips) (k0_t8 : Fin k0_t8_loop.trips) :
    k0_off32 k0_t7 k0_t8 13#32 = ![k0_t7.val, 0, 2 * k0_t8.val + 1, 0, 80] := k0_off32_eq k0_t7 k0_t8 1
theorem n2_st14 (k0_t7 : Fin k0_t7_loop.trips) (k0_t8 : Fin k0_t8_loop.trips) :
    k0_off33 k0_t7 k0_t8 14#32 = ![k0_t7.val, 0, 2 * k0_t8.val + 1, 0, 96] := k0_off33_eq k0_t7 k0_t8 1
theorem n2_st15 (k0_t7 : Fin k0_t7_loop.trips) (k0_t8 : Fin k0_t8_loop.trips) :
    k0_off34 k0_t7 k0_t8 15#32 = ![k0_t7.val, 0, 2 * k0_t8.val + 1, 0, 112] := k0_off34_eq k0_t7 k0_t8 1

/-- Before inner trip `k` of outer trip `t2`: the token words and the row as they were, and the staging buffer filled below
    token position `1024 * t2 + 256 * k`. -/
def n2_I3 (tb : Buf (Elt F) ((a8).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a8).view.loc (thr d L) ↦{fullShare} tb) ∗ (((a7).access (.whole S1x100000)).loc (thr d L) ↦{fullShare} row)
    ∗ ∃ g : Buf (Elt F) ((a10).view.loc (thr d L)), ((a10).view.loc (thr d L) ↦{fullShare} g)
      ∗ ⌜∀ y, (flatOf y).val < 1024 * t2 + 256 * k → (a10).view.read (Elt F) g y = nestG row tb bias l0 hl0 y⌝)

set_option maxHeartbeats 4000000 in
/-- One inner trip: sixteen gathers of the row at sixteen vectors of token words, each plus the bias vector, stored at the
    trip's sixteen rectangles. -/
theorem n2_t3_step (v2 : IVec S16 32) (hz : ∀ x, (v2 x).toNat < 1) (k0_t1 : Fin k0_t1_loop.trips) (v10 : BitVec 32) (k0_t6 : Fin k0_t6_loop.trips) (v311 : BitVec 32) (k0_t7 : Fin k0_t7_loop.trips)
    (wIdx : BitVec 32) (v314 : Vec F S16 .f32)
    (tb : Buf (Elt F) ((a8).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t7.val → v314 (ix1 i) = bias (ix1 b))
    (k0_t8 : Fin k0_t8_loop.trips) (acc : Unit) :
    n2_I3 d L tb row bias l0 hl0 k0_t7.val k0_t8.val acc
      ⊢ wp frame (wpE (defs₀ (F := F)) 𝒱₀ (thr d L) none) Set.univ
          (k0_t8_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v311 k0_t7 wIdx v314 k0_t8 acc) (n2_I3 d L tb row bias l0 hl0 k0_t7.val (k0_t8.val + 1)) := by
  have ht2 : k0_t7.val < 4 := Nat.lt_of_lt_of_le k0_t7.isLt k0_t7_abs.2.1
  have ht3 : k0_t8.val < 4 := Nat.lt_of_lt_of_le k0_t8.isLt k0_t8_abs.2.1
  unfold n2_I3 k0_t8_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t7.val + 256 * (k0_t8.val + 1) = 1024 * k0_t7.val + 256 * k0_t8.val + 256 by omega]
  refine filled_step16 (a10).view row tb bias l0 hl0 g k0_t7.val k0_t8.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n2_st0 k0_t7 k0_t8
  case ph1 => exact n2_st1 k0_t7 k0_t8
  case ph2 => exact n2_st2 k0_t7 k0_t8
  case ph3 => exact n2_st3 k0_t7 k0_t8
  case ph4 => exact n2_st4 k0_t7 k0_t8
  case ph5 => exact n2_st5 k0_t7 k0_t8
  case ph6 => exact n2_st6 k0_t7 k0_t8
  case ph7 => exact n2_st7 k0_t7 k0_t8
  case ph8 => exact n2_st8 k0_t7 k0_t8
  case ph9 => exact n2_st9 k0_t7 k0_t8
  case ph10 => exact n2_st10 k0_t7 k0_t8
  case ph11 => exact n2_st11 k0_t7 k0_t8
  case ph12 => exact n2_st12 k0_t7 k0_t8
  case ph13 => exact n2_st13 k0_t7 k0_t8
  case ph14 => exact n2_st14 k0_t7 k0_t8
  case ph15 => exact n2_st15 k0_t7 k0_t8
  case pa0 =>
    intro i q b hq hb
    refine pay_lane row _ (Memref.read_access_whole (Elt F) cc0_scratch0 row) tb bias v2 _ _ hz v314 (1024 * k0_t7.val + 256 * k0_t8.val + 0) (l0 + k0_t7.val) ?_ hv i q b hq hb
    exact fun i q hq => readAt_lane tb _ _ _ (n2_ld0 k0_t7 k0_t8) i q hq
  case pa1 =>
    intro i q b hq hb
    refine pay_lane row _ (Memref.read_access_whole (Elt F) cc0_scratch0 row) tb bias v2 _ _ hz v314 (1024 * k0_t7.val + 256 * k0_t8.val + 16) (l0 + k0_t7.val) ?_ hv i q b hq hb
    exact fun i q hq => readAt_lane tb _ _ _ (n2_ld1 k0_t7 k0_t8) i q hq
  case pa2 =>
    intro i q b hq hb
    refine pay_lane row _ (Memref.read_access_whole (Elt F) cc0_scratch0 row) tb bias v2 _ _ hz v314 (1024 * k0_t7.val + 256 * k0_t8.val + 32) (l0 + k0_t7.val) ?_ hv i q b hq hb
    exact fun i q hq => readAt_lane tb _ _ _ (n2_ld2 k0_t7 k0_t8) i q hq
  case pa3 =>
    intro i q b hq hb
    refine pay_lane row _ (Memref.read_access_whole (Elt F) cc0_scratch0 row) tb bias v2 _ _ hz v314 (1024 * k0_t7.val + 256 * k0_t8.val + 48) (l0 + k0_t7.val) ?_ hv i q b hq hb
    exact fun i q hq => readAt_lane tb _ _ _ (n2_ld3 k0_t7 k0_t8) i q hq
  case pa4 =>
    intro i q b hq hb
    refine pay_lane row _ (Memref.read_access_whole (Elt F) cc0_scratch0 row) tb bias v2 _ _ hz v314 (1024 * k0_t7.val + 256 * k0_t8.val + 64) (l0 + k0_t7.val) ?_ hv i q b hq hb
    exact fun i q hq => readAt_lane tb _ _ _ (n2_ld4 k0_t7 k0_t8) i q hq
  case pa5 =>
    intro i q b hq hb
    refine pay_lane row _ (Memref.read_access_whole (Elt F) cc0_scratch0 row) tb bias v2 _ _ hz v314 (1024 * k0_t7.val + 256 * k0_t8.val + 80) (l0 + k0_t7.val) ?_ hv i q b hq hb
    exact fun i q hq => readAt_lane tb _ _ _ (n2_ld5 k0_t7 k0_t8) i q hq
  case pa6 =>
    intro i q b hq hb
    refine pay_lane row _ (Memref.read_access_whole (Elt F) cc0_scratch0 row) tb bias v2 _ _ hz v314 (1024 * k0_t7.val + 256 * k0_t8.val + 96) (l0 + k0_t7.val) ?_ hv i q b hq hb
    exact fun i q hq => readAt_lane tb _ _ _ (n2_ld6 k0_t7 k0_t8) i q hq
  case pa7 =>
    intro i q b hq hb
    refine pay_lane row _ (Memref.read_access_whole (Elt F) cc0_scratch0 row) tb bias v2 _ _ hz v314 (1024 * k0_t7.val + 256 * k0_t8.val + 112) (l0 + k0_t7.val) ?_ hv i q b hq hb
    exact fun i q hq => readAt_lane tb _ _ _ (n2_ld7 k0_t7 k0_t8) i q hq
  case pa8 =>
    intro i q b hq hb
    refine pay_lane row _ (Memref.read_access_whole (Elt F) cc0_scratch0 row) tb bias v2 _ _ hz v314 (1024 * k0_t7.val + 256 * k0_t8.val + 128) (l0 + k0_t7.val) ?_ hv i q b hq hb
    exact fun i q hq => readAt_lane tb _ _ _ (n2_ld8 k0_t7 k0_t8) i q hq
  case pa9 =>
    intro i q b hq hb
    refine pay_lane row _ (Memref.read_access_whole (Elt F) cc0_scratch0 row) tb bias v2 _ _ hz v314 (1024 * k0_t7.val + 256 * k0_t8.val + 144) (l0 + k0_t7.val) ?_ hv i q b hq hb
    exact fun i q hq => readAt_lane tb _ _ _ (n2_ld9 k0_t7 k0_t8) i q hq
  case pa10 =>
    intro i q b hq hb
    refine pay_lane row _ (Memref.read_access_whole (Elt F) cc0_scratch0 row) tb bias v2 _ _ hz v314 (1024 * k0_t7.val + 256 * k0_t8.val + 160) (l0 + k0_t7.val) ?_ hv i q b hq hb
    exact fun i q hq => readAt_lane tb _ _ _ (n2_ld10 k0_t7 k0_t8) i q hq
  case pa11 =>
    intro i q b hq hb
    refine pay_lane row _ (Memref.read_access_whole (Elt F) cc0_scratch0 row) tb bias v2 _ _ hz v314 (1024 * k0_t7.val + 256 * k0_t8.val + 176) (l0 + k0_t7.val) ?_ hv i q b hq hb
    exact fun i q hq => readAt_lane tb _ _ _ (n2_ld11 k0_t7 k0_t8) i q hq
  case pa12 =>
    intro i q b hq hb
    refine pay_lane row _ (Memref.read_access_whole (Elt F) cc0_scratch0 row) tb bias v2 _ _ hz v314 (1024 * k0_t7.val + 256 * k0_t8.val + 192) (l0 + k0_t7.val) ?_ hv i q b hq hb
    exact fun i q hq => readAt_lane tb _ _ _ (n2_ld12 k0_t7 k0_t8) i q hq
  case pa13 =>
    intro i q b hq hb
    refine pay_lane row _ (Memref.read_access_whole (Elt F) cc0_scratch0 row) tb bias v2 _ _ hz v314 (1024 * k0_t7.val + 256 * k0_t8.val + 208) (l0 + k0_t7.val) ?_ hv i q b hq hb
    exact fun i q hq => readAt_lane tb _ _ _ (n2_ld13 k0_t7 k0_t8) i q hq
  case pa14 =>
    intro i q b hq hb
    refine pay_lane row _ (Memref.read_access_whole (Elt F) cc0_scratch0 row) tb bias v2 _ _ hz v314 (1024 * k0_t7.val + 256 * k0_t8.val + 224) (l0 + k0_t7.val) ?_ hv i q b hq hb
    exact fun i q hq => readAt_lane tb _ _ _ (n2_ld14 k0_t7 k0_t8) i q hq
  case pa15 =>
    intro i q b hq hb
    refine pay_lane row _ (Memref.read_access_whole (Elt F) cc0_scratch0 row) tb bias v2 _ _ hz v314 (1024 * k0_t7.val + 256 * k0_t8.val + 240) (l0 + k0_t7.val) ?_ hv i q b hq hb
    exact fun i q hq => readAt_lane tb _ _ _ (n2_ld15 k0_t7 k0_t8) i q hq

theorem n2_t3_trips : k0_t8_loop.trips = 4 := by decide +kernel
theorem n2_t2_trips : k0_t7_loop.trips = 4 := by decide +kernel

/-- The bias vector's index word in outer trip `t2` of chunk `c`: four times the chunk word plus `t2`. -/
theorem n2_w_eq (k0_t6 : Fin k0_t6_loop.trips) (v311 : BitVec 32) (hw : v311.toNat = 2 * k0_t6.val + 2) (hl0 : 8 * k0_t6.val + 8 + 4 ≤ 208)
    (k0_t7 : Fin k0_t7_loop.trips) :
    (Scalar.addi (Scalar.muli v311 4#32) (Scalar.addi 0#32 (Scalar.muli (Scf.iv 0#32 1#32 k0_t7) 1#32))).toNat = 8 * k0_t6.val + 8 + k0_t7.val := by
  have ht : k0_t7.val < 4 := Nat.lt_of_lt_of_le k0_t7.isLt k0_t7_abs.2.1
  have hw' : Affine.IsInt v311 ((2 * k0_t6.val + 2 : Nat) : Int) :=
    Affine.relit (Affine.word v311) (by rw [BitVec.toInt_eq_toNat_of_lt (by omega), hw])
  have h0 : Affine.IsInt 0#32 0 := Affine.ofNat _ (by omega)
  have h1 : Affine.IsInt 1#32 1 := Affine.ofNat _ (by omega)
  have h4 : Affine.IsInt 4#32 4 := Affine.ofNat _ (by omega)
  have hiv : Affine.IsInt _ (k0_t7.val : Int) := Affine.iv h0 h1 k0_t7.val (by omega)
  have hm : Affine.IsInt _ (k0_t7.val : Int) := Affine.muli hiv h1 (by omega)
  have ha : Affine.IsInt _ (k0_t7.val : Int) := Affine.addi h0 hm (by omega)
  have hc : Affine.IsInt _ (4 * ((2 * k0_t6.val + 2 : Nat) : Int)) := Affine.muli hw' h4 (by omega)
  have hs : Affine.IsInt _ (4 * ((2 * k0_t6.val + 2 : Nat) : Int) + k0_t7.val) := Affine.addi hc ha (by omega)
  exact Affine.nat_eq hs _ (by push_cast; omega)

/-- Before outer trip `k`: the token words, the row and the biases as they were, and the staging buffer filled below token
    position `1024 * k`. -/
def n2_I2 (tb : Buf (Elt F) ((a8).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a8).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a10).view.loc (thr d L)), ((a10).view.loc (thr d L) ↦{fullShare} g)
      ∗ ⌜∀ y, (flatOf y).val < 1024 * k → (a10).view.read (Elt F) g y = nestG row tb bias l0 hl0 y⌝)

set_option maxHeartbeats 4000000 in
/-- One outer trip: the bias vector gathered at the trip's position, then the four inner trips. -/
theorem n2_t2_step (v2 : IVec S16 32) (hz : ∀ x, (v2 x).toNat < 1) (k0_t1 : Fin k0_t1_loop.trips) (v10 : BitVec 32) (k0_t6 : Fin k0_t6_loop.trips) (v311 : BitVec 32) (hw : v311.toNat = 2 * k0_t6.val + 2) (hl0 : 8 * k0_t6.val + 8 + 4 ≤ 208)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (k0_t7 : Fin k0_t7_loop.trips) (acc : Unit) :
    n2_I2 d L tb row bias (8 * k0_t6.val + 8) hl0 k0_t7.val acc
      ⊢ wp frame (wpE (defs₀ (F := F)) 𝒱₀ (thr d L) none) Set.univ
          (k0_t7_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v311 k0_t7 acc) (n2_I2 d L tb row bias (8 * k0_t6.val + 8) hl0 (k0_t7.val + 1)) := by
  have ht2 : k0_t7.val < 4 := Nat.lt_of_lt_of_le k0_t7.isLt k0_t7_abs.2.1
  unfold n2_I2 k0_t7_body
  iintro ⟨H8, H7, H13, %g, H10, %hg⟩
  sl_exec (disch := exact chkBias_ok _ (lt_of_eq_of_lt (n2_w_eq k0_t6 v311 hw hl0 k0_t7) (by omega)))
  iapply (SparseCore.wp_vectorLoadIdx 𝒱₀ (thr d L) none Set.univ (base := a13) (S := Finset.univ) (q := fullShare) (Finset.subset_univ _)) $$ H13; iintro H13
  sl_for (n2_I3 d L tb row bias (8 * k0_t6.val + 8) hl0 k0_t7.val) $$ [H8 H7 H10]
  case region =>
    intro k acc'
    refine n2_t3_step d L v2 hz k0_t1 v10 k0_t6 v311 k0_t7 _ _ tb htb row bias (8 * k0_t6.val + 8) hl0 ?hv k acc'
    exact fun i b hb => bias_lane bias _ (Memref.read_access_whole (Elt F) cc0_scratch6 bias) _ _ ((8 * k0_t6.val + 8) + k0_t7.val) (n2_w_eq k0_t6 v311 hw hl0 k0_t7) i b hb
  · unfold n2_I3
    isplitl [H8]; · iexact H8
    isplitl [H7]; · iexact H7
    iexists g
    isplitl [H10]; · iexact H10
    ipureintro
    intro y hy
    exact hg y (by omega)
  iintro %_ HI
  unfold n2_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t8_loop.lb k0_t8_loop.ub k0_t8_loop.st = 4 := n2_t3_trips
  omega

set_option maxHeartbeats 4000000 in
/-- The whole nest: from any contents of the staging buffer to the nest's value, the token words, the row and the biases kept. -/
theorem nest2 (v2 : IVec S16 32) (hz : ∀ x, (v2 x).toNat < 1) (k0_t1 : Fin k0_t1_loop.trips) (v10 : BitVec 32) (k0_t6 : Fin k0_t6_loop.trips) (v311 : BitVec 32) (hw : v311.toNat = 2 * k0_t6.val + 2) (hl0 : 8 * k0_t6.val + 8 + 4 ≤ 208)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} f)) : sProp 𝕄)
      ⊢ wp frame (wpE (defs₀ (F := F)) 𝒱₀ (thr d L) none) Set.univ
          (Scf.Loop.for k0_t7_loop k0_t7_ok ⟨⟩ (k0_t7_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v311))
          (fun _ => iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} nestG row tb bias (8 * k0_t6.val + 8) hl0))) := by
  iintro ⟨H8, H7, H13, H10⟩
  sl_for (n2_I2 d L tb row bias (8 * k0_t6.val + 8) hl0) $$ [H8 H7 H13 H10]
  case region =>
    intro k acc
    exact n2_t2_step d L v2 hz k0_t1 v10 k0_t6 v311 hw hl0 tb htb row bias k acc
  isplitl [H8 H7 H13 H10]
  · unfold n2_I2
    isplitl [H8]; · iexact H8
    isplitl [H7]; · iexact H7
    isplitl [H13]; · iexact H13
    iexists f
    isplitl [H10]; · iexact H10
    ipureintro
    intro y hy
    omega
  iintro %_ HI
  unfold n2_I2
  icases HI with ⟨H8, H7, H13, %g, H10, %hg⟩
  have e : g = nestG row tb bias (8 * k0_t6.val + 8) hl0 :=
    funext fun y => hg y (by
      have h4 : Scf.trips k0_t7_loop.lb k0_t7_loop.ub k0_t7_loop.st = 4 := n2_t2_trips
      have := (flatOf y).isLt
      omega)
  subst e
  isplitl [H8]; · iexact H8
  isplitl [H7]; · iexact H7
  isplitl [H13]; · iexact H13
  iexact H10

end Cert.Proof.NestK
end
-- ==== Proof.Nest3K.lean ====
/-
  The compute nest of the lookup kernel, instance 3: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.NestSpecK
import proofs.«203565_g79912161509654_cont_9to1_m_411_39_alg».proof.Proof.Nest0K

noncomputable section

namespace Cert.Proof.NestK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

open Idealize.ShloMosaic.ValueIdx

variable (d : Dev nD) (L : grid0.Coords)

theorem n3_ld0 (k0_t9 : Fin k0_t9_loop.trips) (k0_t10 : Fin k0_t10_loop.trips) :
    k0_off38 k0_t9 k0_t10 0#32 = ![1024 * k0_t9.val + 256 * k0_t10.val + 0] := k0_off38_eq k0_t9 k0_t10 0
theorem n3_ld1 (k0_t9 : Fin k0_t9_loop.trips) (k0_t10 : Fin k0_t10_loop.trips) :
    k0_off38 k0_t9 k0_t10 16#32 = ![1024 * k0_t9.val + 256 * k0_t10.val + 16] := k0_off38_eq k0_t9 k0_t10 1
theorem n3_ld2 (k0_t9 : Fin k0_t9_loop.trips) (k0_t10 : Fin k0_t10_loop.trips) :
    k0_off38 k0_t9 k0_t10 32#32 = ![1024 * k0_t9.val + 256 * k0_t10.val + 32] := k0_off38_eq k0_t9 k0_t10 2
theorem n3_ld3 (k0_t9 : Fin k0_t9_loop.trips) (k0_t10 : Fin k0_t10_loop.trips) :
    k0_off38 k0_t9 k0_t10 48#32 = ![1024 * k0_t9.val + 256 * k0_t10.val + 48] := k0_off38_eq k0_t9 k0_t10 3
theorem n3_ld4 (k0_t9 : Fin k0_t9_loop.trips) (k0_t10 : Fin k0_t10_loop.trips) :
    k0_off38 k0_t9 k0_t10 64#32 = ![1024 * k0_t9.val + 256 * k0_t10.val + 64] := k0_off38_eq k0_t9 k0_t10 4
theorem n3_ld5 (k0_t9 : Fin k0_t9_loop.trips) (k0_t10 : Fin k0_t10_loop.trips) :
    k0_off38 k0_t9 k0_t10 80#32 = ![1024 * k0_t9.val + 256 * k0_t10.val + 80] := k0_off38_eq k0_t9 k0_t10 5
theorem n3_ld6 (k0_t9 : Fin k0_t9_loop.trips) (k0_t10 : Fin k0_t10_loop.trips) :
    k0_off38 k0_t9 k0_t10 96#32 = ![1024 * k0_t9.val + 256 * k0_t10.val + 96] := k0_off38_eq k0_t9 k0_t10 6
theorem n3_ld7 (k0_t9 : Fin k0_t9_loop.trips) (k0_t10 : Fin k0_t10_loop.trips) :
    k0_off38 k0_t9 k0_t10 112#32 = ![1024 * k0_t9.val + 256 * k0_t10.val + 112] := k0_off38_eq k0_t9 k0_t10 7
theorem n3_ld8 (k0_t9 : Fin k0_t9_loop.trips) (k0_t10 : Fin k0_t10_loop.trips) :
    k0_off38 k0_t9 k0_t10 128#32 = ![1024 * k0_t9.val + 256 * k0_t10.val + 128] := k0_off38_eq k0_t9 k0_t10 8
theorem n3_ld9 (k0_t9 : Fin k0_t9_loop.trips) (k0_t10 : Fin k0_t10_loop.trips) :
    k0_off38 k0_t9 k0_t10 144#32 = ![1024 * k0_t9.val + 256 * k0_t10.val + 144] := k0_off38_eq k0_t9 k0_t10 9
theorem n3_ld10 (k0_t9 : Fin k0_t9_loop.trips) (k0_t10 : Fin k0_t10_loop.trips) :
    k0_off38 k0_t9 k0_t10 160#32 = ![1024 * k0_t9.val + 256 * k0_t10.val + 160] := k0_off38_eq k0_t9 k0_t10 10
theorem n3_ld11 (k0_t9 : Fin k0_t9_loop.trips) (k0_t10 : Fin k0_t10_loop.trips) :
    k0_off38 k0_t9 k0_t10 176#32 = ![1024 * k0_t9.val + 256 * k0_t10.val + 176] := k0_off38_eq k0_t9 k0_t10 11
theorem n3_ld12 (k0_t9 : Fin k0_t9_loop.trips) (k0_t10 : Fin k0_t10_loop.trips) :
    k0_off38 k0_t9 k0_t10 192#32 = ![1024 * k0_t9.val + 256 * k0_t10.val + 192] := k0_off38_eq k0_t9 k0_t10 12
theorem n3_ld13 (k0_t9 : Fin k0_t9_loop.trips) (k0_t10 : Fin k0_t10_loop.trips) :
    k0_off38 k0_t9 k0_t10 208#32 = ![1024 * k0_t9.val + 256 * k0_t10.val + 208] := k0_off38_eq k0_t9 k0_t10 13
theorem n3_ld14 (k0_t9 : Fin k0_t9_loop.trips) (k0_t10 : Fin k0_t10_loop.trips) :
    k0_off38 k0_t9 k0_t10 224#32 = ![1024 * k0_t9.val + 256 * k0_t10.val + 224] := k0_off38_eq k0_t9 k0_t10 14
theorem n3_ld15 (k0_t9 : Fin k0_t9_loop.trips) (k0_t10 : Fin k0_t10_loop.trips) :
    k0_off38 k0_t9 k0_t10 240#32 = ![1024 * k0_t9.val + 256 * k0_t10.val + 240] := k0_off38_eq k0_t9 k0_t10 15
theorem n3_st0 (k0_t9 : Fin k0_t9_loop.trips) (k0_t10 : Fin k0_t10_loop.trips) :
    k0_off39 k0_t9 k0_t10 0#32 = ![k0_t9.val, 0, 2 * k0_t10.val + 0, 0, 0] := k0_off39_eq k0_t9 k0_t10 0
theorem n3_st1 (k0_t9 : Fin k0_t9_loop.trips) (k0_t10 : Fin k0_t10_loop.trips) :
    k0_off40 k0_t9 k0_t10 1#32 = ![k0_t9.val, 0, 2 * k0_t10.val + 0, 0, 16] := k0_off40_eq k0_t9 k0_t10 0
theorem n3_st2 (k0_t9 : Fin k0_t9_loop.trips) (k0_t10 : Fin k0_t10_loop.trips) :
    k0_off41 k0_t9 k0_t10 2#32 = ![k0_t9.val, 0, 2 * k0_t10.val + 0, 0, 32] := k0_off41_eq k0_t9 k0_t10 0
theorem n3_st3 (k0_t9 : Fin k0_t9_loop.trips) (k0_t10 : Fin k0_t10_loop.trips) :
    k0_off42 k0_t9 k0_t10 3#32 = ![k0_t9.val, 0, 2 * k0_t10.val + 0, 0, 48] := k0_off42_eq k0_t9 k0_t10 0
theorem n3_st4 (k0_t9 : Fin k0_t9_loop.trips) (k0_t10 : Fin k0_t10_loop.trips) :
    k0_off43 k0_t9 k0_t10 4#32 = ![k0_t9.val, 0, 2 * k0_t10.val + 0, 0, 64] := k0_off43_eq k0_t9 k0_t10 0
theorem n3_st5 (k0_t9 : Fin k0_t9_loop.trips) (k0_t10 : Fin k0_t10_loop.trips) :
    k0_off44 k0_t9 k0_t10 5#32 = ![k0_t9.val, 0, 2 * k0_t10.val + 0, 0, 80] := k0_off44_eq k0_t9 k0_t10 0
theorem n3_st6 (k0_t9 : Fin k0_t9_loop.trips) (k0_t10 : Fin k0_t10_loop.trips) :
    k0_off45 k0_t9 k0_t10 6#32 = ![k0_t9.val, 0, 2 * k0_t10.val + 0, 0, 96] := k0_off45_eq k0_t9 k0_t10 0
theorem n3_st7 (k0_t9 : Fin k0_t9_loop.trips) (k0_t10 : Fin k0_t10_loop.trips) :
    k0_off46 k0_t9 k0_t10 7#32 = ![k0_t9.val, 0, 2 * k0_t10.val + 0, 0, 112] := k0_off46_eq k0_t9 k0_t10 0
theorem n3_st8 (k0_t9 : Fin k0_t9_loop.trips) (k0_t10 : Fin k0_t10_loop.trips) :
    k0_off39 k0_t9 k0_t10 8#32 = ![k0_t9.val, 0, 2 * k0_t10.val + 1, 0, 0] := k0_off39_eq k0_t9 k0_t10 1
theorem n3_st9 (k0_t9 : Fin k0_t9_loop.trips) (k0_t10 : Fin k0_t10_loop.trips) :
    k0_off40 k0_t9 k0_t10 9#32 = ![k0_t9.val, 0, 2 * k0_t10.val + 1, 0, 16] := k0_off40_eq k0_t9 k0_t10 1
theorem n3_st10 (k0_t9 : Fin k0_t9_loop.trips) (k0_t10 : Fin k0_t10_loop.trips) :
    k0_off41 k0_t9 k0_t10 10#32 = ![k0_t9.val, 0, 2 * k0_t10.val + 1, 0, 32] := k0_off41_eq k0_t9 k0_t10 1
theorem n3_st11 (k0_t9 : Fin k0_t9_loop.trips) (k0_t10 : Fin k0_t10_loop.trips) :
    k0_off42 k0_t9 k0_t10 11#32 = ![k0_t9.val, 0, 2 * k0_t10.val + 1, 0, 48] := k0_off42_eq k0_t9 k0_t10 1
theorem n3_st12 (k0_t9 : Fin k0_t9_loop.trips) (k0_t10 : Fin k0_t10_loop.trips) :
    k0_off43 k0_t9 k0_t10 12#32 = ![k0_t9.val, 0, 2 * k0_t10.val + 1, 0, 64] := k0_off43_eq k0_t9 k0_t10 1
theorem n3_st13 (k0_t9 : Fin k0_t9_loop.trips) (k0_t10 : Fin k0_t10_loop.trips) :
    k0_off44 k0_t9 k0_t10 13#32 = ![k0_t9.val, 0, 2 * k0_t10.val + 1, 0, 80] := k0_off44_eq k0_t9 k0_t10 1
theorem n3_st14 (k0_t9 : Fin k0_t9_loop.trips) (k0_t10 : Fin k0_t10_loop.trips) :
    k0_off45 k0_t9 k0_t10 14#32 = ![k0_t9.val, 0, 2 * k0_t10.val + 1, 0, 96] := k0_off45_eq k0_t9 k0_t10 1
theorem n3_st15 (k0_t9 : Fin k0_t9_loop.trips) (k0_t10 : Fin k0_t10_loop.trips) :
    k0_off46 k0_t9 k0_t10 15#32 = ![k0_t9.val, 0, 2 * k0_t10.val + 1, 0, 112] := k0_off46_eq k0_t9 k0_t10 1

/-- Before inner trip `k` of outer trip `t2`: the token words and the row as they were, and the staging buffer filled below
    token position `1024 * t2 + 256 * k`. -/
def n3_I3 (tb : Buf (Elt F) ((a9).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a9).view.loc (thr d L) ↦{fullShare} tb) ∗ (((a7).access (.whole S1x100000)).loc (thr d L) ↦{fullShare} row)
    ∗ ∃ g : Buf (Elt F) ((a11).view.loc (thr d L)), ((a11).view.loc (thr d L) ↦{fullShare} g)
      ∗ ⌜∀ y, (flatOf y).val < 1024 * t2 + 256 * k → (a11).view.read (Elt F) g y = nestG row tb bias l0 hl0 y⌝)

set_option maxHeartbeats 4000000 in
/-- One inner trip: sixteen gathers of the row at sixteen vectors of token words, each plus the bias vector, stored at the
    trip's sixteen rectangles. -/
theorem n3_t3_step (v2 : IVec S16 32) (hz : ∀ x, (v2 x).toNat < 1) (k0_t1 : Fin k0_t1_loop.trips) (v10 : BitVec 32) (k0_t6 : Fin k0_t6_loop.trips) (v381 : BitVec 32) (k0_t9 : Fin k0_t9_loop.trips)
    (wIdx : BitVec 32) (v314 : Vec F S16 .f32)
    (tb : Buf (Elt F) ((a9).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t9.val → v314 (ix1 i) = bias (ix1 b))
    (k0_t10 : Fin k0_t10_loop.trips) (acc : Unit) :
    n3_I3 d L tb row bias l0 hl0 k0_t9.val k0_t10.val acc
      ⊢ wp frame (wpE (defs₀ (F := F)) 𝒱₀ (thr d L) none) Set.univ
          (k0_t10_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v381 k0_t9 wIdx v314 k0_t10 acc) (n3_I3 d L tb row bias l0 hl0 k0_t9.val (k0_t10.val + 1)) := by
  have ht2 : k0_t9.val < 4 := Nat.lt_of_lt_of_le k0_t9.isLt k0_t9_abs.2.1
  have ht3 : k0_t10.val < 4 := Nat.lt_of_lt_of_le k0_t10.isLt k0_t10_abs.2.1
  unfold n3_I3 k0_t10_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t9.val + 256 * (k0_t10.val + 1) = 1024 * k0_t9.val + 256 * k0_t10.val + 256 by omega]
  refine filled_step16 (a11).view row tb bias l0 hl0 g k0_t9.val k0_t10.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n3_st0 k0_t9 k0_t10
  case ph1 => exact n3_st1 k0_t9 k0_t10
  case ph2 => exact n3_st2 k0_t9 k0_t10
  case ph3 => exact n3_st3 k0_t9 k0_t10
  case ph4 => exact n3_st4 k0_t9 k0_t10
  case ph5 => exact n3_st5 k0_t9 k0_t10
  case ph6 => exact n3_st6 k0_t9 k0_t10
  case ph7 => exact n3_st7 k0_t9 k0_t10
  case ph8 => exact n3_st8 k0_t9 k0_t10
  case ph9 => exact n3_st9 k0_t9 k0_t10
  case ph10 => exact n3_st10 k0_t9 k0_t10
  case ph11 => exact n3_st11 k0_t9 k0_t10
  case ph12 => exact n3_st12 k0_t9 k0_t10
  case ph13 => exact n3_st13 k0_t9 k0_t10
  case ph14 => exact n3_st14 k0_t9 k0_t10
  case ph15 => exact n3_st15 k0_t9 k0_t10
  case pa0 =>
    intro i q b hq hb
    refine pay_lane row _ (Memref.read_access_whole (Elt F) cc0_scratch0 row) tb bias v2 _ _ hz v314 (1024 * k0_t9.val + 256 * k0_t10.val + 0) (l0 + k0_t9.val) ?_ hv i q b hq hb
    exact fun i q hq => readAt_lane tb _ _ _ (n3_ld0 k0_t9 k0_t10) i q hq
  case pa1 =>
    intro i q b hq hb
    refine pay_lane row _ (Memref.read_access_whole (Elt F) cc0_scratch0 row) tb bias v2 _ _ hz v314 (1024 * k0_t9.val + 256 * k0_t10.val + 16) (l0 + k0_t9.val) ?_ hv i q b hq hb
    exact fun i q hq => readAt_lane tb _ _ _ (n3_ld1 k0_t9 k0_t10) i q hq
  case pa2 =>
    intro i q b hq hb
    refine pay_lane row _ (Memref.read_access_whole (Elt F) cc0_scratch0 row) tb bias v2 _ _ hz v314 (1024 * k0_t9.val + 256 * k0_t10.val + 32) (l0 + k0_t9.val) ?_ hv i q b hq hb
    exact fun i q hq => readAt_lane tb _ _ _ (n3_ld2 k0_t9 k0_t10) i q hq
  case pa3 =>
    intro i q b hq hb
    refine pay_lane row _ (Memref.read_access_whole (Elt F) cc0_scratch0 row) tb bias v2 _ _ hz v314 (1024 * k0_t9.val + 256 * k0_t10.val + 48) (l0 + k0_t9.val) ?_ hv i q b hq hb
    exact fun i q hq => readAt_lane tb _ _ _ (n3_ld3 k0_t9 k0_t10) i q hq
  case pa4 =>
    intro i q b hq hb
    refine pay_lane row _ (Memref.read_access_whole (Elt F) cc0_scratch0 row) tb bias v2 _ _ hz v314 (1024 * k0_t9.val + 256 * k0_t10.val + 64) (l0 + k0_t9.val) ?_ hv i q b hq hb
    exact fun i q hq => readAt_lane tb _ _ _ (n3_ld4 k0_t9 k0_t10) i q hq
  case pa5 =>
    intro i q b hq hb
    refine pay_lane row _ (Memref.read_access_whole (Elt F) cc0_scratch0 row) tb bias v2 _ _ hz v314 (1024 * k0_t9.val + 256 * k0_t10.val + 80) (l0 + k0_t9.val) ?_ hv i q b hq hb
    exact fun i q hq => readAt_lane tb _ _ _ (n3_ld5 k0_t9 k0_t10) i q hq
  case pa6 =>
    intro i q b hq hb
    refine pay_lane row _ (Memref.read_access_whole (Elt F) cc0_scratch0 row) tb bias v2 _ _ hz v314 (1024 * k0_t9.val + 256 * k0_t10.val + 96) (l0 + k0_t9.val) ?_ hv i q b hq hb
    exact fun i q hq => readAt_lane tb _ _ _ (n3_ld6 k0_t9 k0_t10) i q hq
  case pa7 =>
    intro i q b hq hb
    refine pay_lane row _ (Memref.read_access_whole (Elt F) cc0_scratch0 row) tb bias v2 _ _ hz v314 (1024 * k0_t9.val + 256 * k0_t10.val + 112) (l0 + k0_t9.val) ?_ hv i q b hq hb
    exact fun i q hq => readAt_lane tb _ _ _ (n3_ld7 k0_t9 k0_t10) i q hq
  case pa8 =>
    intro i q b hq hb
    refine pay_lane row _ (Memref.read_access_whole (Elt F) cc0_scratch0 row) tb bias v2 _ _ hz v314 (1024 * k0_t9.val + 256 * k0_t10.val + 128) (l0 + k0_t9.val) ?_ hv i q b hq hb
    exact fun i q hq => readAt_lane tb _ _ _ (n3_ld8 k0_t9 k0_t10) i q hq
  case pa9 =>
    intro i q b hq hb
    refine pay_lane row _ (Memref.read_access_whole (Elt F) cc0_scratch0 row) tb bias v2 _ _ hz v314 (1024 * k0_t9.val + 256 * k0_t10.val + 144) (l0 + k0_t9.val) ?_ hv i q b hq hb
    exact fun i q hq => readAt_lane tb _ _ _ (n3_ld9 k0_t9 k0_t10) i q hq
  case pa10 =>
    intro i q b hq hb
    refine pay_lane row _ (Memref.read_access_whole (Elt F) cc0_scratch0 row) tb bias v2 _ _ hz v314 (1024 * k0_t9.val + 256 * k0_t10.val + 160) (l0 + k0_t9.val) ?_ hv i q b hq hb
    exact fun i q hq => readAt_lane tb _ _ _ (n3_ld10 k0_t9 k0_t10) i q hq
  case pa11 =>
    intro i q b hq hb
    refine pay_lane row _ (Memref.read_access_whole (Elt F) cc0_scratch0 row) tb bias v2 _ _ hz v314 (1024 * k0_t9.val + 256 * k0_t10.val + 176) (l0 + k0_t9.val) ?_ hv i q b hq hb
    exact fun i q hq => readAt_lane tb _ _ _ (n3_ld11 k0_t9 k0_t10) i q hq
  case pa12 =>
    intro i q b hq hb
    refine pay_lane row _ (Memref.read_access_whole (Elt F) cc0_scratch0 row) tb bias v2 _ _ hz v314 (1024 * k0_t9.val + 256 * k0_t10.val + 192) (l0 + k0_t9.val) ?_ hv i q b hq hb
    exact fun i q hq => readAt_lane tb _ _ _ (n3_ld12 k0_t9 k0_t10) i q hq
  case pa13 =>
    intro i q b hq hb
    refine pay_lane row _ (Memref.read_access_whole (Elt F) cc0_scratch0 row) tb bias v2 _ _ hz v314 (1024 * k0_t9.val + 256 * k0_t10.val + 208) (l0 + k0_t9.val) ?_ hv i q b hq hb
    exact fun i q hq => readAt_lane tb _ _ _ (n3_ld13 k0_t9 k0_t10) i q hq
  case pa14 =>
    intro i q b hq hb
    refine pay_lane row _ (Memref.read_access_whole (Elt F) cc0_scratch0 row) tb bias v2 _ _ hz v314 (1024 * k0_t9.val + 256 * k0_t10.val + 224) (l0 + k0_t9.val) ?_ hv i q b hq hb
    exact fun i q hq => readAt_lane tb _ _ _ (n3_ld14 k0_t9 k0_t10) i q hq
  case pa15 =>
    intro i q b hq hb
    refine pay_lane row _ (Memref.read_access_whole (Elt F) cc0_scratch0 row) tb bias v2 _ _ hz v314 (1024 * k0_t9.val + 256 * k0_t10.val + 240) (l0 + k0_t9.val) ?_ hv i q b hq hb
    exact fun i q hq => readAt_lane tb _ _ _ (n3_ld15 k0_t9 k0_t10) i q hq

theorem n3_t3_trips : k0_t10_loop.trips = 4 := by decide +kernel
theorem n3_t2_trips : k0_t9_loop.trips = 4 := by decide +kernel

/-- The bias vector's index word in outer trip `t2` of chunk `c`: four times the chunk word plus `t2`. -/
theorem n3_w_eq (k0_t6 : Fin k0_t6_loop.trips) (v381 : BitVec 32) (hw : v381.toNat = 2 * k0_t6.val + 3) (hl0 : 8 * k0_t6.val + 12 + 4 ≤ 208)
    (k0_t9 : Fin k0_t9_loop.trips) :
    (Scalar.addi (Scalar.muli v381 4#32) (Scalar.addi 0#32 (Scalar.muli (Scf.iv 0#32 1#32 k0_t9) 1#32))).toNat = 8 * k0_t6.val + 12 + k0_t9.val := by
  have ht : k0_t9.val < 4 := Nat.lt_of_lt_of_le k0_t9.isLt k0_t9_abs.2.1
  have hw' : Affine.IsInt v381 ((2 * k0_t6.val + 3 : Nat) : Int) :=
    Affine.relit (Affine.word v381) (by rw [BitVec.toInt_eq_toNat_of_lt (by omega), hw])
  have h0 : Affine.IsInt 0#32 0 := Affine.ofNat _ (by omega)
  have h1 : Affine.IsInt 1#32 1 := Affine.ofNat _ (by omega)
  have h4 : Affine.IsInt 4#32 4 := Affine.ofNat _ (by omega)
  have hiv : Affine.IsInt _ (k0_t9.val : Int) := Affine.iv h0 h1 k0_t9.val (by omega)
  have hm : Affine.IsInt _ (k0_t9.val : Int) := Affine.muli hiv h1 (by omega)
  have ha : Affine.IsInt _ (k0_t9.val : Int) := Affine.addi h0 hm (by omega)
  have hc : Affine.IsInt _ (4 * ((2 * k0_t6.val + 3 : Nat) : Int)) := Affine.muli hw' h4 (by omega)
  have hs : Affine.IsInt _ (4 * ((2 * k0_t6.val + 3 : Nat) : Int) + k0_t9.val) := Affine.addi hc ha (by omega)
  exact Affine.nat_eq hs _ (by push_cast; omega)

/-- Before outer trip `k`: the token words, the row and the biases as they were, and the staging buffer filled below token
    position `1024 * k`. -/
def n3_I2 (tb : Buf (Elt F) ((a9).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a9).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a11).view.loc (thr d L)), ((a11).view.loc (thr d L) ↦{fullShare} g)
      ∗ ⌜∀ y, (flatOf y).val < 1024 * k → (a11).view.read (Elt F) g y = nestG row tb bias l0 hl0 y⌝)

set_option maxHeartbeats 4000000 in
/-- One outer trip: the bias vector gathered at the trip's position, then the four inner trips. -/
theorem n3_t2_step (v2 : IVec S16 32) (hz : ∀ x, (v2 x).toNat < 1) (k0_t1 : Fin k0_t1_loop.trips) (v10 : BitVec 32) (k0_t6 : Fin k0_t6_loop.trips) (v381 : BitVec 32) (hw : v381.toNat = 2 * k0_t6.val + 3) (hl0 : 8 * k0_t6.val + 12 + 4 ≤ 208)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (k0_t9 : Fin k0_t9_loop.trips) (acc : Unit) :
    n3_I2 d L tb row bias (8 * k0_t6.val + 12) hl0 k0_t9.val acc
      ⊢ wp frame (wpE (defs₀ (F := F)) 𝒱₀ (thr d L) none) Set.univ
          (k0_t9_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v381 k0_t9 acc) (n3_I2 d L tb row bias (8 * k0_t6.val + 12) hl0 (k0_t9.val + 1)) := by
  have ht2 : k0_t9.val < 4 := Nat.lt_of_lt_of_le k0_t9.isLt k0_t9_abs.2.1
  unfold n3_I2 k0_t9_body
  iintro ⟨H8, H7, H13, %g, H10, %hg⟩
  sl_exec (disch := exact chkBias_ok _ (lt_of_eq_of_lt (n3_w_eq k0_t6 v381 hw hl0 k0_t9) (by omega)))
  iapply (SparseCore.wp_vectorLoadIdx 𝒱₀ (thr d L) none Set.univ (base := a13) (S := Finset.univ) (q := fullShare) (Finset.subset_univ _)) $$ H13; iintro H13
  sl_for (n3_I3 d L tb row bias (8 * k0_t6.val + 12) hl0 k0_t9.val) $$ [H8 H7 H10]
  case region =>
    intro k acc'
    refine n3_t3_step d L v2 hz k0_t1 v10 k0_t6 v381 k0_t9 _ _ tb htb row bias (8 * k0_t6.val + 12) hl0 ?hv k acc'
    exact fun i b hb => bias_lane bias _ (Memref.read_access_whole (Elt F) cc0_scratch6 bias) _ _ ((8 * k0_t6.val + 12) + k0_t9.val) (n3_w_eq k0_t6 v381 hw hl0 k0_t9) i b hb
  · unfold n3_I3
    isplitl [H8]; · iexact H8
    isplitl [H7]; · iexact H7
    iexists g
    isplitl [H10]; · iexact H10
    ipureintro
    intro y hy
    exact hg y (by omega)
  iintro %_ HI
  unfold n3_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t10_loop.lb k0_t10_loop.ub k0_t10_loop.st = 4 := n3_t3_trips
  omega

set_option maxHeartbeats 4000000 in
/-- The whole nest: from any contents of the staging buffer to the nest's value, the token words, the row and the biases kept. -/
theorem nest3 (v2 : IVec S16 32) (hz : ∀ x, (v2 x).toNat < 1) (k0_t1 : Fin k0_t1_loop.trips) (v10 : BitVec 32) (k0_t6 : Fin k0_t6_loop.trips) (v381 : BitVec 32) (hw : v381.toNat = 2 * k0_t6.val + 3) (hl0 : 8 * k0_t6.val + 12 + 4 ≤ 208)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} f)) : sProp 𝕄)
      ⊢ wp frame (wpE (defs₀ (F := F)) 𝒱₀ (thr d L) none) Set.univ
          (Scf.Loop.for k0_t9_loop k0_t9_ok ⟨⟩ (k0_t9_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t6 v381))
          (fun _ => iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} nestG row tb bias (8 * k0_t6.val + 12) hl0))) := by
  iintro ⟨H8, H7, H13, H10⟩
  sl_for (n3_I2 d L tb row bias (8 * k0_t6.val + 12) hl0) $$ [H8 H7 H13 H10]
  case region =>
    intro k acc
    exact n3_t2_step d L v2 hz k0_t1 v10 k0_t6 v381 hw hl0 tb htb row bias k acc
  isplitl [H8 H7 H13 H10]
  · unfold n3_I2
    isplitl [H8]; · iexact H8
    isplitl [H7]; · iexact H7
    isplitl [H13]; · iexact H13
    iexists f
    isplitl [H10]; · iexact H10
    ipureintro
    intro y hy
    omega
  iintro %_ HI
  unfold n3_I2
  icases HI with ⟨H8, H7, H13, %g, H10, %hg⟩
  have e : g = nestG row tb bias (8 * k0_t6.val + 12) hl0 :=
    funext fun y => hg y (by
      have h4 : Scf.trips k0_t9_loop.lb k0_t9_loop.ub k0_t9_loop.st = 4 := n3_t2_trips
      have := (flatOf y).isLt
      omega)
  subst e
  isplitl [H8]; · iexact H8
  isplitl [H7]; · iexact H7
  isplitl [H13]; · iexact H13
  iexact H10

end Cert.Proof.NestK
end
-- ==== Proof.Nest4K.lean ====
/-
  The compute nest of the lookup kernel, instance 4: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.NestSpecK
import proofs.«203565_g79912161509654_cont_9to1_m_411_39_alg».proof.Proof.Nest0K

noncomputable section

namespace Cert.Proof.NestK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

open Idealize.ShloMosaic.ValueIdx

variable (d : Dev nD) (L : grid0.Coords)

theorem n4_ld0 (k0_t11 : Fin k0_t11_loop.trips) (k0_t12 : Fin k0_t12_loop.trips) :
    k0_off50 k0_t11 k0_t12 0#32 = ![1024 * k0_t11.val + 256 * k0_t12.val + 0] := k0_off50_eq k0_t11 k0_t12 0
theorem n4_ld1 (k0_t11 : Fin k0_t11_loop.trips) (k0_t12 : Fin k0_t12_loop.trips) :
    k0_off50 k0_t11 k0_t12 16#32 = ![1024 * k0_t11.val + 256 * k0_t12.val + 16] := k0_off50_eq k0_t11 k0_t12 1
theorem n4_ld2 (k0_t11 : Fin k0_t11_loop.trips) (k0_t12 : Fin k0_t12_loop.trips) :
    k0_off50 k0_t11 k0_t12 32#32 = ![1024 * k0_t11.val + 256 * k0_t12.val + 32] := k0_off50_eq k0_t11 k0_t12 2
theorem n4_ld3 (k0_t11 : Fin k0_t11_loop.trips) (k0_t12 : Fin k0_t12_loop.trips) :
    k0_off50 k0_t11 k0_t12 48#32 = ![1024 * k0_t11.val + 256 * k0_t12.val + 48] := k0_off50_eq k0_t11 k0_t12 3
theorem n4_ld4 (k0_t11 : Fin k0_t11_loop.trips) (k0_t12 : Fin k0_t12_loop.trips) :
    k0_off50 k0_t11 k0_t12 64#32 = ![1024 * k0_t11.val + 256 * k0_t12.val + 64] := k0_off50_eq k0_t11 k0_t12 4
theorem n4_ld5 (k0_t11 : Fin k0_t11_loop.trips) (k0_t12 : Fin k0_t12_loop.trips) :
    k0_off50 k0_t11 k0_t12 80#32 = ![1024 * k0_t11.val + 256 * k0_t12.val + 80] := k0_off50_eq k0_t11 k0_t12 5
theorem n4_ld6 (k0_t11 : Fin k0_t11_loop.trips) (k0_t12 : Fin k0_t12_loop.trips) :
    k0_off50 k0_t11 k0_t12 96#32 = ![1024 * k0_t11.val + 256 * k0_t12.val + 96] := k0_off50_eq k0_t11 k0_t12 6
theorem n4_ld7 (k0_t11 : Fin k0_t11_loop.trips) (k0_t12 : Fin k0_t12_loop.trips) :
    k0_off50 k0_t11 k0_t12 112#32 = ![1024 * k0_t11.val + 256 * k0_t12.val + 112] := k0_off50_eq k0_t11 k0_t12 7
theorem n4_ld8 (k0_t11 : Fin k0_t11_loop.trips) (k0_t12 : Fin k0_t12_loop.trips) :
    k0_off50 k0_t11 k0_t12 128#32 = ![1024 * k0_t11.val + 256 * k0_t12.val + 128] := k0_off50_eq k0_t11 k0_t12 8
theorem n4_ld9 (k0_t11 : Fin k0_t11_loop.trips) (k0_t12 : Fin k0_t12_loop.trips) :
    k0_off50 k0_t11 k0_t12 144#32 = ![1024 * k0_t11.val + 256 * k0_t12.val + 144] := k0_off50_eq k0_t11 k0_t12 9
theorem n4_ld10 (k0_t11 : Fin k0_t11_loop.trips) (k0_t12 : Fin k0_t12_loop.trips) :
    k0_off50 k0_t11 k0_t12 160#32 = ![1024 * k0_t11.val + 256 * k0_t12.val + 160] := k0_off50_eq k0_t11 k0_t12 10
theorem n4_ld11 (k0_t11 : Fin k0_t11_loop.trips) (k0_t12 : Fin k0_t12_loop.trips) :
    k0_off50 k0_t11 k0_t12 176#32 = ![1024 * k0_t11.val + 256 * k0_t12.val + 176] := k0_off50_eq k0_t11 k0_t12 11
theorem n4_ld12 (k0_t11 : Fin k0_t11_loop.trips) (k0_t12 : Fin k0_t12_loop.trips) :
    k0_off50 k0_t11 k0_t12 192#32 = ![1024 * k0_t11.val + 256 * k0_t12.val + 192] := k0_off50_eq k0_t11 k0_t12 12
theorem n4_ld13 (k0_t11 : Fin k0_t11_loop.trips) (k0_t12 : Fin k0_t12_loop.trips) :
    k0_off50 k0_t11 k0_t12 208#32 = ![1024 * k0_t11.val + 256 * k0_t12.val + 208] := k0_off50_eq k0_t11 k0_t12 13
theorem n4_ld14 (k0_t11 : Fin k0_t11_loop.trips) (k0_t12 : Fin k0_t12_loop.trips) :
    k0_off50 k0_t11 k0_t12 224#32 = ![1024 * k0_t11.val + 256 * k0_t12.val + 224] := k0_off50_eq k0_t11 k0_t12 14
theorem n4_ld15 (k0_t11 : Fin k0_t11_loop.trips) (k0_t12 : Fin k0_t12_loop.trips) :
    k0_off50 k0_t11 k0_t12 240#32 = ![1024 * k0_t11.val + 256 * k0_t12.val + 240] := k0_off50_eq k0_t11 k0_t12 15
theorem n4_st0 (k0_t11 : Fin k0_t11_loop.trips) (k0_t12 : Fin k0_t12_loop.trips) :
    k0_off51 k0_t11 k0_t12 0#32 = ![k0_t11.val, 0, 2 * k0_t12.val + 0, 0, 0] := k0_off51_eq k0_t11 k0_t12 0
theorem n4_st1 (k0_t11 : Fin k0_t11_loop.trips) (k0_t12 : Fin k0_t12_loop.trips) :
    k0_off52 k0_t11 k0_t12 1#32 = ![k0_t11.val, 0, 2 * k0_t12.val + 0, 0, 16] := k0_off52_eq k0_t11 k0_t12 0
theorem n4_st2 (k0_t11 : Fin k0_t11_loop.trips) (k0_t12 : Fin k0_t12_loop.trips) :
    k0_off53 k0_t11 k0_t12 2#32 = ![k0_t11.val, 0, 2 * k0_t12.val + 0, 0, 32] := k0_off53_eq k0_t11 k0_t12 0
theorem n4_st3 (k0_t11 : Fin k0_t11_loop.trips) (k0_t12 : Fin k0_t12_loop.trips) :
    k0_off54 k0_t11 k0_t12 3#32 = ![k0_t11.val, 0, 2 * k0_t12.val + 0, 0, 48] := k0_off54_eq k0_t11 k0_t12 0
theorem n4_st4 (k0_t11 : Fin k0_t11_loop.trips) (k0_t12 : Fin k0_t12_loop.trips) :
    k0_off55 k0_t11 k0_t12 4#32 = ![k0_t11.val, 0, 2 * k0_t12.val + 0, 0, 64] := k0_off55_eq k0_t11 k0_t12 0
theorem n4_st5 (k0_t11 : Fin k0_t11_loop.trips) (k0_t12 : Fin k0_t12_loop.trips) :
    k0_off56 k0_t11 k0_t12 5#32 = ![k0_t11.val, 0, 2 * k0_t12.val + 0, 0, 80] := k0_off56_eq k0_t11 k0_t12 0
theorem n4_st6 (k0_t11 : Fin k0_t11_loop.trips) (k0_t12 : Fin k0_t12_loop.trips) :
    k0_off57 k0_t11 k0_t12 6#32 = ![k0_t11.val, 0, 2 * k0_t12.val + 0, 0, 96] := k0_off57_eq k0_t11 k0_t12 0
theorem n4_st7 (k0_t11 : Fin k0_t11_loop.trips) (k0_t12 : Fin k0_t12_loop.trips) :
    k0_off58 k0_t11 k0_t12 7#32 = ![k0_t11.val, 0, 2 * k0_t12.val + 0, 0, 112] := k0_off58_eq k0_t11 k0_t12 0
theorem n4_st8 (k0_t11 : Fin k0_t11_loop.trips) (k0_t12 : Fin k0_t12_loop.trips) :
    k0_off51 k0_t11 k0_t12 8#32 = ![k0_t11.val, 0, 2 * k0_t12.val + 1, 0, 0] := k0_off51_eq k0_t11 k0_t12 1
theorem n4_st9 (k0_t11 : Fin k0_t11_loop.trips) (k0_t12 : Fin k0_t12_loop.trips) :
    k0_off52 k0_t11 k0_t12 9#32 = ![k0_t11.val, 0, 2 * k0_t12.val + 1, 0, 16] := k0_off52_eq k0_t11 k0_t12 1
theorem n4_st10 (k0_t11 : Fin k0_t11_loop.trips) (k0_t12 : Fin k0_t12_loop.trips) :
    k0_off53 k0_t11 k0_t12 10#32 = ![k0_t11.val, 0, 2 * k0_t12.val + 1, 0, 32] := k0_off53_eq k0_t11 k0_t12 1
theorem n4_st11 (k0_t11 : Fin k0_t11_loop.trips) (k0_t12 : Fin k0_t12_loop.trips) :
    k0_off54 k0_t11 k0_t12 11#32 = ![k0_t11.val, 0, 2 * k0_t12.val + 1, 0, 48] := k0_off54_eq k0_t11 k0_t12 1
theorem n4_st12 (k0_t11 : Fin k0_t11_loop.trips) (k0_t12 : Fin k0_t12_loop.trips) :
    k0_off55 k0_t11 k0_t12 12#32 = ![k0_t11.val, 0, 2 * k0_t12.val + 1, 0, 64] := k0_off55_eq k0_t11 k0_t12 1
theorem n4_st13 (k0_t11 : Fin k0_t11_loop.trips) (k0_t12 : Fin k0_t12_loop.trips) :
    k0_off56 k0_t11 k0_t12 13#32 = ![k0_t11.val, 0, 2 * k0_t12.val + 1, 0, 80] := k0_off56_eq k0_t11 k0_t12 1
theorem n4_st14 (k0_t11 : Fin k0_t11_loop.trips) (k0_t12 : Fin k0_t12_loop.trips) :
    k0_off57 k0_t11 k0_t12 14#32 = ![k0_t11.val, 0, 2 * k0_t12.val + 1, 0, 96] := k0_off57_eq k0_t11 k0_t12 1
theorem n4_st15 (k0_t11 : Fin k0_t11_loop.trips) (k0_t12 : Fin k0_t12_loop.trips) :
    k0_off58 k0_t11 k0_t12 15#32 = ![k0_t11.val, 0, 2 * k0_t12.val + 1, 0, 112] := k0_off58_eq k0_t11 k0_t12 1

/-- Before inner trip `k` of outer trip `t2`: the token words and the row as they were, and the staging buffer filled below
    token position `1024 * t2 + 256 * k`. -/
def n4_I3 (tb : Buf (Elt F) ((a8).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a8).view.loc (thr d L) ↦{fullShare} tb) ∗ (((a7).access (.whole S1x100000)).loc (thr d L) ↦{fullShare} row)
    ∗ ∃ g : Buf (Elt F) ((a10).view.loc (thr d L)), ((a10).view.loc (thr d L) ↦{fullShare} g)
      ∗ ⌜∀ y, (flatOf y).val < 1024 * t2 + 256 * k → (a10).view.read (Elt F) g y = nestG row tb bias l0 hl0 y⌝)

set_option maxHeartbeats 4000000 in
/-- One inner trip: sixteen gathers of the row at sixteen vectors of token words, each plus the bias vector, stored at the
    trip's sixteen rectangles. -/
theorem n4_t3_step (v2 : IVec S16 32) (hz : ∀ x, (v2 x).toNat < 1) (k0_t1 : Fin k0_t1_loop.trips) (v10 : BitVec 32) (k0_t11 : Fin k0_t11_loop.trips)
    (wIdx : BitVec 32) (v314 : Vec F S16 .f32)
    (tb : Buf (Elt F) ((a8).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t11.val → v314 (ix1 i) = bias (ix1 b))
    (k0_t12 : Fin k0_t12_loop.trips) (acc : Unit) :
    n4_I3 d L tb row bias l0 hl0 k0_t11.val k0_t12.val acc
      ⊢ wp frame (wpE (defs₀ (F := F)) 𝒱₀ (thr d L) none) Set.univ
          (k0_t12_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t11 wIdx v314 k0_t12 acc) (n4_I3 d L tb row bias l0 hl0 k0_t11.val (k0_t12.val + 1)) := by
  have ht2 : k0_t11.val < 4 := Nat.lt_of_lt_of_le k0_t11.isLt k0_t11_abs.2.1
  have ht3 : k0_t12.val < 4 := Nat.lt_of_lt_of_le k0_t12.isLt k0_t12_abs.2.1
  unfold n4_I3 k0_t12_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t11.val + 256 * (k0_t12.val + 1) = 1024 * k0_t11.val + 256 * k0_t12.val + 256 by omega]
  refine filled_step16 (a10).view row tb bias l0 hl0 g k0_t11.val k0_t12.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n4_st0 k0_t11 k0_t12
  case ph1 => exact n4_st1 k0_t11 k0_t12
  case ph2 => exact n4_st2 k0_t11 k0_t12
  case ph3 => exact n4_st3 k0_t11 k0_t12
  case ph4 => exact n4_st4 k0_t11 k0_t12
  case ph5 => exact n4_st5 k0_t11 k0_t12
  case ph6 => exact n4_st6 k0_t11 k0_t12
  case ph7 => exact n4_st7 k0_t11 k0_t12
  case ph8 => exact n4_st8 k0_t11 k0_t12
  case ph9 => exact n4_st9 k0_t11 k0_t12
  case ph10 => exact n4_st10 k0_t11 k0_t12
  case ph11 => exact n4_st11 k0_t11 k0_t12
  case ph12 => exact n4_st12 k0_t11 k0_t12
  case ph13 => exact n4_st13 k0_t11 k0_t12
  case ph14 => exact n4_st14 k0_t11 k0_t12
  case ph15 => exact n4_st15 k0_t11 k0_t12
  case pa0 =>
    intro i q b hq hb
    refine pay_lane row _ (Memref.read_access_whole (Elt F) cc0_scratch0 row) tb bias v2 _ _ hz v314 (1024 * k0_t11.val + 256 * k0_t12.val + 0) (l0 + k0_t11.val) ?_ hv i q b hq hb
    exact fun i q hq => readAt_lane tb _ _ _ (n4_ld0 k0_t11 k0_t12) i q hq
  case pa1 =>
    intro i q b hq hb
    refine pay_lane row _ (Memref.read_access_whole (Elt F) cc0_scratch0 row) tb bias v2 _ _ hz v314 (1024 * k0_t11.val + 256 * k0_t12.val + 16) (l0 + k0_t11.val) ?_ hv i q b hq hb
    exact fun i q hq => readAt_lane tb _ _ _ (n4_ld1 k0_t11 k0_t12) i q hq
  case pa2 =>
    intro i q b hq hb
    refine pay_lane row _ (Memref.read_access_whole (Elt F) cc0_scratch0 row) tb bias v2 _ _ hz v314 (1024 * k0_t11.val + 256 * k0_t12.val + 32) (l0 + k0_t11.val) ?_ hv i q b hq hb
    exact fun i q hq => readAt_lane tb _ _ _ (n4_ld2 k0_t11 k0_t12) i q hq
  case pa3 =>
    intro i q b hq hb
    refine pay_lane row _ (Memref.read_access_whole (Elt F) cc0_scratch0 row) tb bias v2 _ _ hz v314 (1024 * k0_t11.val + 256 * k0_t12.val + 48) (l0 + k0_t11.val) ?_ hv i q b hq hb
    exact fun i q hq => readAt_lane tb _ _ _ (n4_ld3 k0_t11 k0_t12) i q hq
  case pa4 =>
    intro i q b hq hb
    refine pay_lane row _ (Memref.read_access_whole (Elt F) cc0_scratch0 row) tb bias v2 _ _ hz v314 (1024 * k0_t11.val + 256 * k0_t12.val + 64) (l0 + k0_t11.val) ?_ hv i q b hq hb
    exact fun i q hq => readAt_lane tb _ _ _ (n4_ld4 k0_t11 k0_t12) i q hq
  case pa5 =>
    intro i q b hq hb
    refine pay_lane row _ (Memref.read_access_whole (Elt F) cc0_scratch0 row) tb bias v2 _ _ hz v314 (1024 * k0_t11.val + 256 * k0_t12.val + 80) (l0 + k0_t11.val) ?_ hv i q b hq hb
    exact fun i q hq => readAt_lane tb _ _ _ (n4_ld5 k0_t11 k0_t12) i q hq
  case pa6 =>
    intro i q b hq hb
    refine pay_lane row _ (Memref.read_access_whole (Elt F) cc0_scratch0 row) tb bias v2 _ _ hz v314 (1024 * k0_t11.val + 256 * k0_t12.val + 96) (l0 + k0_t11.val) ?_ hv i q b hq hb
    exact fun i q hq => readAt_lane tb _ _ _ (n4_ld6 k0_t11 k0_t12) i q hq
  case pa7 =>
    intro i q b hq hb
    refine pay_lane row _ (Memref.read_access_whole (Elt F) cc0_scratch0 row) tb bias v2 _ _ hz v314 (1024 * k0_t11.val + 256 * k0_t12.val + 112) (l0 + k0_t11.val) ?_ hv i q b hq hb
    exact fun i q hq => readAt_lane tb _ _ _ (n4_ld7 k0_t11 k0_t12) i q hq
  case pa8 =>
    intro i q b hq hb
    refine pay_lane row _ (Memref.read_access_whole (Elt F) cc0_scratch0 row) tb bias v2 _ _ hz v314 (1024 * k0_t11.val + 256 * k0_t12.val + 128) (l0 + k0_t11.val) ?_ hv i q b hq hb
    exact fun i q hq => readAt_lane tb _ _ _ (n4_ld8 k0_t11 k0_t12) i q hq
  case pa9 =>
    intro i q b hq hb
    refine pay_lane row _ (Memref.read_access_whole (Elt F) cc0_scratch0 row) tb bias v2 _ _ hz v314 (1024 * k0_t11.val + 256 * k0_t12.val + 144) (l0 + k0_t11.val) ?_ hv i q b hq hb
    exact fun i q hq => readAt_lane tb _ _ _ (n4_ld9 k0_t11 k0_t12) i q hq
  case pa10 =>
    intro i q b hq hb
    refine pay_lane row _ (Memref.read_access_whole (Elt F) cc0_scratch0 row) tb bias v2 _ _ hz v314 (1024 * k0_t11.val + 256 * k0_t12.val + 160) (l0 + k0_t11.val) ?_ hv i q b hq hb
    exact fun i q hq => readAt_lane tb _ _ _ (n4_ld10 k0_t11 k0_t12) i q hq
  case pa11 =>
    intro i q b hq hb
    refine pay_lane row _ (Memref.read_access_whole (Elt F) cc0_scratch0 row) tb bias v2 _ _ hz v314 (1024 * k0_t11.val + 256 * k0_t12.val + 176) (l0 + k0_t11.val) ?_ hv i q b hq hb
    exact fun i q hq => readAt_lane tb _ _ _ (n4_ld11 k0_t11 k0_t12) i q hq
  case pa12 =>
    intro i q b hq hb
    refine pay_lane row _ (Memref.read_access_whole (Elt F) cc0_scratch0 row) tb bias v2 _ _ hz v314 (1024 * k0_t11.val + 256 * k0_t12.val + 192) (l0 + k0_t11.val) ?_ hv i q b hq hb
    exact fun i q hq => readAt_lane tb _ _ _ (n4_ld12 k0_t11 k0_t12) i q hq
  case pa13 =>
    intro i q b hq hb
    refine pay_lane row _ (Memref.read_access_whole (Elt F) cc0_scratch0 row) tb bias v2 _ _ hz v314 (1024 * k0_t11.val + 256 * k0_t12.val + 208) (l0 + k0_t11.val) ?_ hv i q b hq hb
    exact fun i q hq => readAt_lane tb _ _ _ (n4_ld13 k0_t11 k0_t12) i q hq
  case pa14 =>
    intro i q b hq hb
    refine pay_lane row _ (Memref.read_access_whole (Elt F) cc0_scratch0 row) tb bias v2 _ _ hz v314 (1024 * k0_t11.val + 256 * k0_t12.val + 224) (l0 + k0_t11.val) ?_ hv i q b hq hb
    exact fun i q hq => readAt_lane tb _ _ _ (n4_ld14 k0_t11 k0_t12) i q hq
  case pa15 =>
    intro i q b hq hb
    refine pay_lane row _ (Memref.read_access_whole (Elt F) cc0_scratch0 row) tb bias v2 _ _ hz v314 (1024 * k0_t11.val + 256 * k0_t12.val + 240) (l0 + k0_t11.val) ?_ hv i q b hq hb
    exact fun i q hq => readAt_lane tb _ _ _ (n4_ld15 k0_t11 k0_t12) i q hq

theorem n4_t3_trips : k0_t12_loop.trips = 4 := by decide +kernel
theorem n4_t2_trips : k0_t11_loop.trips = 4 := by decide +kernel

/-- The bias vector's index word in outer trip `t2` is `192 + t2`. -/
theorem n4_w_eq : ∀ k0_t11 : Fin k0_t11_loop.trips, (Scalar.addi 192#32 (Scalar.addi 0#32 (Scalar.muli (Scf.iv 0#32 1#32 k0_t11) 1#32))).toNat = 192 + k0_t11.val := by decide +kernel

/-- Before outer trip `k`: the token words, the row and the biases as they were, and the staging buffer filled below token
    position `1024 * k`. -/
def n4_I2 (tb : Buf (Elt F) ((a8).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a8).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a10).view.loc (thr d L)), ((a10).view.loc (thr d L) ↦{fullShare} g)
      ∗ ⌜∀ y, (flatOf y).val < 1024 * k → (a10).view.read (Elt F) g y = nestG row tb bias l0 hl0 y⌝)

set_option maxHeartbeats 4000000 in
/-- One outer trip: the bias vector gathered at the trip's position, then the four inner trips. -/
theorem n4_t2_step (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (k0_t11 : Fin k0_t11_loop.trips) (acc : Unit) :
    n4_I2 d L tb row bias 192 (by norm_num) k0_t11.val acc
      ⊢ wp frame (wpE (defs₀ (F := F)) 𝒱₀ (thr d L) none) Set.univ
          (k0_t11_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 k0_t11 acc) (n4_I2 d L tb row bias 192 (by norm_num) (k0_t11.val + 1)) := by
  have ht2 : k0_t11.val < 4 := Nat.lt_of_lt_of_le k0_t11.isLt k0_t11_abs.2.1
  unfold n4_I2 k0_t11_body
  iintro ⟨H8, H7, H13, %g, H10, %hg⟩
  sl_exec (disch := exact chkBias_ok _ (lt_of_eq_of_lt (n4_w_eq k0_t11) (by omega)))
  iapply (SparseCore.wp_vectorLoadIdx 𝒱₀ (thr d L) none Set.univ (base := a13) (S := Finset.univ) (q := fullShare) (Finset.subset_univ _)) $$ H13; iintro H13
  sl_for (n4_I3 d L tb row bias 192 (by norm_num) k0_t11.val) $$ [H8 H7 H10]
  case region =>
    intro k acc'
    refine n4_t3_step d L v2 hz k0_t1 v10 k0_t11 _ _ tb htb row bias 192 (by norm_num) ?hv k acc'
    exact fun i b hb => bias_lane bias _ (Memref.read_access_whole (Elt F) cc0_scratch6 bias) _ _ (192 + k0_t11.val) (n4_w_eq k0_t11) i b hb
  · unfold n4_I3
    isplitl [H8]; · iexact H8
    isplitl [H7]; · iexact H7
    iexists g
    isplitl [H10]; · iexact H10
    ipureintro
    intro y hy
    exact hg y (by omega)
  iintro %_ HI
  unfold n4_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t12_loop.lb k0_t12_loop.ub k0_t12_loop.st = 4 := n4_t3_trips
  omega

set_option maxHeartbeats 4000000 in
/-- The whole nest: from any contents of the staging buffer to the nest's value, the token words, the row and the biases kept. -/
theorem nest4 (v2 : IVec S16 32) (hz : ∀ x, (v2 x).toNat < 1) (k0_t1 : Fin k0_t1_loop.trips) (v10 : BitVec 32)
    (tb : Buf (Elt F) ((a8).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} f)) : sProp 𝕄)
      ⊢ wp frame (wpE (defs₀ (F := F)) 𝒱₀ (thr d L) none) Set.univ
          (Scf.Loop.for k0_t11_loop k0_t11_ok ⟨⟩ (k0_t11_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row)
        ∗ (((a13).access (.whole S208)).loc (thr d L) ↦{fullShare} bias) ∗ ((a10).view.loc (thr d L) ↦{fullShare} nestG row tb bias 192 (by norm_num)))) := by
  iintro ⟨H8, H7, H13, H10⟩
  sl_for (n4_I2 d L tb row bias 192 (by norm_num)) $$ [H8 H7 H13 H10]
  case region =>
    intro k acc
    exact n4_t2_step d L v2 hz k0_t1 v10 tb htb row bias k acc
  isplitl [H8 H7 H13 H10]
  · unfold n4_I2
    isplitl [H8]; · iexact H8
    isplitl [H7]; · iexact H7
    isplitl [H13]; · iexact H13
    iexists f
    isplitl [H10]; · iexact H10
    ipureintro
    intro y hy
    omega
  iintro %_ HI
  unfold n4_I2
  icases HI with ⟨H8, H7, H13, %g, H10, %hg⟩
  have e : g = nestG row tb bias 192 (by norm_num) :=
    funext fun y => hg y (by
      have h4 : Scf.trips k0_t11_loop.lb k0_t11_loop.ub k0_t11_loop.st = 4 := n4_t2_trips
      have := (flatOf y).isLt
      omega)
  subst e
  isplitl [H8]; · iexact H8
  isplitl [H7]; · iexact H7
  isplitl [H13]; · iexact H13
  iexact H10

end Cert.Proof.NestK
end
-- ==== Proof.Nest5K.lean ====
/-
  The compute nest of the lookup kernel, instance 5: the same two loops as the first instance (Nest0), over this
  instance's token and staging buffers and its own bias positions; the invariants and the trip are the first instance's.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.NestSpecK
import proofs.«203565_g79912161509654_cont_9to1_m_411_39_alg».proof.Proof.Nest0K

noncomputable section

namespace Cert.Proof.NestK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

open Idealize.ShloMosaic.ValueIdx

variable (d : Dev nD) (L : grid0.Coords)

theorem n5_ld0 (k0_t13 : Fin k0_t13_loop.trips) (k0_t14 : Fin k0_t14_loop.trips) :
    k0_off61 k0_t13 k0_t14 0#32 = ![1024 * k0_t13.val + 256 * k0_t14.val + 0] := k0_off61_eq k0_t13 k0_t14 0
theorem n5_ld1 (k0_t13 : Fin k0_t13_loop.trips) (k0_t14 : Fin k0_t14_loop.trips) :
    k0_off61 k0_t13 k0_t14 16#32 = ![1024 * k0_t13.val + 256 * k0_t14.val + 16] := k0_off61_eq k0_t13 k0_t14 1
theorem n5_ld2 (k0_t13 : Fin k0_t13_loop.trips) (k0_t14 : Fin k0_t14_loop.trips) :
    k0_off61 k0_t13 k0_t14 32#32 = ![1024 * k0_t13.val + 256 * k0_t14.val + 32] := k0_off61_eq k0_t13 k0_t14 2
theorem n5_ld3 (k0_t13 : Fin k0_t13_loop.trips) (k0_t14 : Fin k0_t14_loop.trips) :
    k0_off61 k0_t13 k0_t14 48#32 = ![1024 * k0_t13.val + 256 * k0_t14.val + 48] := k0_off61_eq k0_t13 k0_t14 3
theorem n5_ld4 (k0_t13 : Fin k0_t13_loop.trips) (k0_t14 : Fin k0_t14_loop.trips) :
    k0_off61 k0_t13 k0_t14 64#32 = ![1024 * k0_t13.val + 256 * k0_t14.val + 64] := k0_off61_eq k0_t13 k0_t14 4
theorem n5_ld5 (k0_t13 : Fin k0_t13_loop.trips) (k0_t14 : Fin k0_t14_loop.trips) :
    k0_off61 k0_t13 k0_t14 80#32 = ![1024 * k0_t13.val + 256 * k0_t14.val + 80] := k0_off61_eq k0_t13 k0_t14 5
theorem n5_ld6 (k0_t13 : Fin k0_t13_loop.trips) (k0_t14 : Fin k0_t14_loop.trips) :
    k0_off61 k0_t13 k0_t14 96#32 = ![1024 * k0_t13.val + 256 * k0_t14.val + 96] := k0_off61_eq k0_t13 k0_t14 6
theorem n5_ld7 (k0_t13 : Fin k0_t13_loop.trips) (k0_t14 : Fin k0_t14_loop.trips) :
    k0_off61 k0_t13 k0_t14 112#32 = ![1024 * k0_t13.val + 256 * k0_t14.val + 112] := k0_off61_eq k0_t13 k0_t14 7
theorem n5_ld8 (k0_t13 : Fin k0_t13_loop.trips) (k0_t14 : Fin k0_t14_loop.trips) :
    k0_off61 k0_t13 k0_t14 128#32 = ![1024 * k0_t13.val + 256 * k0_t14.val + 128] := k0_off61_eq k0_t13 k0_t14 8
theorem n5_ld9 (k0_t13 : Fin k0_t13_loop.trips) (k0_t14 : Fin k0_t14_loop.trips) :
    k0_off61 k0_t13 k0_t14 144#32 = ![1024 * k0_t13.val + 256 * k0_t14.val + 144] := k0_off61_eq k0_t13 k0_t14 9
theorem n5_ld10 (k0_t13 : Fin k0_t13_loop.trips) (k0_t14 : Fin k0_t14_loop.trips) :
    k0_off61 k0_t13 k0_t14 160#32 = ![1024 * k0_t13.val + 256 * k0_t14.val + 160] := k0_off61_eq k0_t13 k0_t14 10
theorem n5_ld11 (k0_t13 : Fin k0_t13_loop.trips) (k0_t14 : Fin k0_t14_loop.trips) :
    k0_off61 k0_t13 k0_t14 176#32 = ![1024 * k0_t13.val + 256 * k0_t14.val + 176] := k0_off61_eq k0_t13 k0_t14 11
theorem n5_ld12 (k0_t13 : Fin k0_t13_loop.trips) (k0_t14 : Fin k0_t14_loop.trips) :
    k0_off61 k0_t13 k0_t14 192#32 = ![1024 * k0_t13.val + 256 * k0_t14.val + 192] := k0_off61_eq k0_t13 k0_t14 12
theorem n5_ld13 (k0_t13 : Fin k0_t13_loop.trips) (k0_t14 : Fin k0_t14_loop.trips) :
    k0_off61 k0_t13 k0_t14 208#32 = ![1024 * k0_t13.val + 256 * k0_t14.val + 208] := k0_off61_eq k0_t13 k0_t14 13
theorem n5_ld14 (k0_t13 : Fin k0_t13_loop.trips) (k0_t14 : Fin k0_t14_loop.trips) :
    k0_off61 k0_t13 k0_t14 224#32 = ![1024 * k0_t13.val + 256 * k0_t14.val + 224] := k0_off61_eq k0_t13 k0_t14 14
theorem n5_ld15 (k0_t13 : Fin k0_t13_loop.trips) (k0_t14 : Fin k0_t14_loop.trips) :
    k0_off61 k0_t13 k0_t14 240#32 = ![1024 * k0_t13.val + 256 * k0_t14.val + 240] := k0_off61_eq k0_t13 k0_t14 15
theorem n5_st0 (k0_t13 : Fin k0_t13_loop.trips) (k0_t14 : Fin k0_t14_loop.trips) :
    k0_off62 k0_t13 k0_t14 0#32 = ![k0_t13.val, 0, 2 * k0_t14.val + 0, 0, 0] := k0_off62_eq k0_t13 k0_t14 0
theorem n5_st1 (k0_t13 : Fin k0_t13_loop.trips) (k0_t14 : Fin k0_t14_loop.trips) :
    k0_off63 k0_t13 k0_t14 1#32 = ![k0_t13.val, 0, 2 * k0_t14.val + 0, 0, 16] := k0_off63_eq k0_t13 k0_t14 0
theorem n5_st2 (k0_t13 : Fin k0_t13_loop.trips) (k0_t14 : Fin k0_t14_loop.trips) :
    k0_off64 k0_t13 k0_t14 2#32 = ![k0_t13.val, 0, 2 * k0_t14.val + 0, 0, 32] := k0_off64_eq k0_t13 k0_t14 0
theorem n5_st3 (k0_t13 : Fin k0_t13_loop.trips) (k0_t14 : Fin k0_t14_loop.trips) :
    k0_off65 k0_t13 k0_t14 3#32 = ![k0_t13.val, 0, 2 * k0_t14.val + 0, 0, 48] := k0_off65_eq k0_t13 k0_t14 0
theorem n5_st4 (k0_t13 : Fin k0_t13_loop.trips) (k0_t14 : Fin k0_t14_loop.trips) :
    k0_off66 k0_t13 k0_t14 4#32 = ![k0_t13.val, 0, 2 * k0_t14.val + 0, 0, 64] := k0_off66_eq k0_t13 k0_t14 0
theorem n5_st5 (k0_t13 : Fin k0_t13_loop.trips) (k0_t14 : Fin k0_t14_loop.trips) :
    k0_off67 k0_t13 k0_t14 5#32 = ![k0_t13.val, 0, 2 * k0_t14.val + 0, 0, 80] := k0_off67_eq k0_t13 k0_t14 0
theorem n5_st6 (k0_t13 : Fin k0_t13_loop.trips) (k0_t14 : Fin k0_t14_loop.trips) :
    k0_off68 k0_t13 k0_t14 6#32 = ![k0_t13.val, 0, 2 * k0_t14.val + 0, 0, 96] := k0_off68_eq k0_t13 k0_t14 0
theorem n5_st7 (k0_t13 : Fin k0_t13_loop.trips) (k0_t14 : Fin k0_t14_loop.trips) :
    k0_off69 k0_t13 k0_t14 7#32 = ![k0_t13.val, 0, 2 * k0_t14.val + 0, 0, 112] := k0_off69_eq k0_t13 k0_t14 0
theorem n5_st8 (k0_t13 : Fin k0_t13_loop.trips) (k0_t14 : Fin k0_t14_loop.trips) :
    k0_off62 k0_t13 k0_t14 8#32 = ![k0_t13.val, 0, 2 * k0_t14.val + 1, 0, 0] := k0_off62_eq k0_t13 k0_t14 1
theorem n5_st9 (k0_t13 : Fin k0_t13_loop.trips) (k0_t14 : Fin k0_t14_loop.trips) :
    k0_off63 k0_t13 k0_t14 9#32 = ![k0_t13.val, 0, 2 * k0_t14.val + 1, 0, 16] := k0_off63_eq k0_t13 k0_t14 1
theorem n5_st10 (k0_t13 : Fin k0_t13_loop.trips) (k0_t14 : Fin k0_t14_loop.trips) :
    k0_off64 k0_t13 k0_t14 10#32 = ![k0_t13.val, 0, 2 * k0_t14.val + 1, 0, 32] := k0_off64_eq k0_t13 k0_t14 1
theorem n5_st11 (k0_t13 : Fin k0_t13_loop.trips) (k0_t14 : Fin k0_t14_loop.trips) :
    k0_off65 k0_t13 k0_t14 11#32 = ![k0_t13.val, 0, 2 * k0_t14.val + 1, 0, 48] := k0_off65_eq k0_t13 k0_t14 1
theorem n5_st12 (k0_t13 : Fin k0_t13_loop.trips) (k0_t14 : Fin k0_t14_loop.trips) :
    k0_off66 k0_t13 k0_t14 12#32 = ![k0_t13.val, 0, 2 * k0_t14.val + 1, 0, 64] := k0_off66_eq k0_t13 k0_t14 1
theorem n5_st13 (k0_t13 : Fin k0_t13_loop.trips) (k0_t14 : Fin k0_t14_loop.trips) :
    k0_off67 k0_t13 k0_t14 13#32 = ![k0_t13.val, 0, 2 * k0_t14.val + 1, 0, 80] := k0_off67_eq k0_t13 k0_t14 1
theorem n5_st14 (k0_t13 : Fin k0_t13_loop.trips) (k0_t14 : Fin k0_t14_loop.trips) :
    k0_off68 k0_t13 k0_t14 14#32 = ![k0_t13.val, 0, 2 * k0_t14.val + 1, 0, 96] := k0_off68_eq k0_t13 k0_t14 1
theorem n5_st15 (k0_t13 : Fin k0_t13_loop.trips) (k0_t14 : Fin k0_t14_loop.trips) :
    k0_off69 k0_t13 k0_t14 15#32 = ![k0_t13.val, 0, 2 * k0_t14.val + 1, 0, 112] := k0_off69_eq k0_t13 k0_t14 1

/-- Before inner trip `k` of outer trip `t2`: the token words and the row as they were, and the staging buffer filled below
    token position `1024 * t2 + 256 * k`. -/
def n5_I3 (tb : Buf (Elt F) ((a9).view.loc (thr d L))) (row : Buf (Elt F) (((a7).access (.whole S1x100000)).loc (thr d L)))
    (bias : FVec F S208 .f32) (l0 : Nat) (hl0 : l0 + 4 ≤ 208) (t2 : Nat) (k : Nat) (_ : Unit) : sProp 𝕄 :=
  iprop(((a9).view.loc (thr d L) ↦{fullShare} tb) ∗ (((a7).access (.whole S1x100000)).loc (thr d L) ↦{fullShare} row)
    ∗ ∃ g : Buf (Elt F) ((a11).view.loc (thr d L)), ((a11).view.loc (thr d L) ↦{fullShare} g)
      ∗ ⌜∀ y, (flatOf y).val < 1024 * t2 + 256 * k → (a11).view.read (Elt F) g y = nestG row tb bias l0 hl0 y⌝)

set_option maxHeartbeats 4000000 in
/-- One inner trip: sixteen gathers of the row at sixteen vectors of token words, each plus the bias vector, stored at the
    trip's sixteen rectangles. -/
theorem n5_t3_step (v2 : IVec S16 32) (hz : ∀ x, (v2 x).toNat < 1) (k0_t1 : Fin k0_t1_loop.trips) (v10 : BitVec 32) (k0_t13 : Fin k0_t13_loop.trips)
    (wIdx : BitVec 32) (v314 : Vec F S16 .f32)
    (tb : Buf (Elt F) ((a9).view.loc (thr d L))) (htb : ∀ y, (tb y).toNat < 100000)
    (row : Buf (Elt F) (((a7).access (.whole S1x100000)).loc (thr d L))) (bias : FVec F S208 .f32) (l0 : Nat) (hl0 : l0 + 4 ≤ 208)
    (hv : ∀ (i : Fin 16) (b : Fin 208), b.val = l0 + k0_t13.val → v314 (ix1 i) = bias (ix1 b))
    (k0_t14 : Fin k0_t14_loop.trips) (acc : Unit) :
    n5_I3 d L tb row bias l0 hl0 k0_t13.val k0_t14.val acc
      ⊢ wp frame (wpE (defs₀ (F := F)) 𝒱₀ (thr d L) none) Set.univ
          (k0_t14_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 0#32 1#32 k0_t13 wIdx v314 k0_t14 acc) (n5_I3 d L tb row bias l0 hl0 k0_t13.val (k0_t14.val + 1)) := by
  have ht2 : k0_t13.val < 4 := Nat.lt_of_lt_of_le k0_t13.isLt k0_t13_abs.2.1
  have ht3 : k0_t14.val < 4 := Nat.lt_of_lt_of_le k0_t14.isLt k0_t14_abs.2.1
  unfold n5_I3 k0_t14_body
  iintro ⟨H8, H7, %g, H10, %hg⟩
  sl_exec (disch := exact chk2_ok _ _ hz (fun x => htb _))
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  iapply (SparseCore.wp_vectorLoadIdx 𝒱₀ (thr d L) none Set.univ (base := a7) (S := Finset.univ) (q := fullShare) (Finset.subset_univ _)) $$ H7; iintro H7
  sl_exec
  sl_step
  isplitl [H8]; · iexact H8
  isplitl [H7]; · iexact H7
  iexists _
  isplitl [H10]; · iexact H10
  ipureintro
  rw [show 1024 * k0_t13.val + 256 * (k0_t14.val + 1) = 1024 * k0_t13.val + 256 * k0_t14.val + 256 by omega]
  refine filled_step16 (a11).view row tb bias l0 hl0 g k0_t13.val k0_t14.val ht2 ht3 hg
    ?ph0 ?ph1 ?ph2 ?ph3 ?ph4 ?ph5 ?ph6 ?ph7 ?ph8 ?ph9 ?ph10 ?ph11 ?ph12 ?ph13 ?ph14 ?ph15
    ?pa0 ?pa1 ?pa2 ?pa3 ?pa4 ?pa5 ?pa6 ?pa7 ?pa8 ?pa9 ?pa10 ?pa11 ?pa12 ?pa13 ?pa14 ?pa15
  case ph0 => exact n5_st0 k0_t13 k0_t14
  case ph1 => exact n5_st1 k0_t13 k0_t14
  case ph2 => exact n5_st2 k0_t13 k0_t14
  case ph3 => exact n5_st3 k0_t13 k0_t14
  case ph4 => exact n5_st4 k0_t13 k0_t14
  case ph5 => exact n5_st5 k0_t13 k0_t14
  case ph6 => exact n5_st6 k0_t13 k0_t14
  case ph7 => exact n5_st7 k0_t13 k0_t14
  case ph8 => exact n5_st8 k0_t13 k0_t14
  case ph9 => exact n5_st9 k0_t13 k0_t14
  case ph10 => exact n5_st10 k0_t13 k0_t14
  case ph11 => exact n5_st11 k0_t13 k0_t14
  case ph12 => exact n5_st12 k0_t13 k0_t14
  case ph13 => exact n5_st13 k0_t13 k0_t14
  case ph14 => exact n5_st14 k0_t13 k0_t14
  case ph15 => exact n5_st15 k0_t13 k0_t14
  case pa0 =>
    intro i q b hq hb
    refine pay_lane row _ (Memref.read_access_whole (Elt F) cc0_scratch0 row) tb bias v2 _ _ hz v314 (1024 * k0_t13.val + 256 * k0_t14.val + 0) (l0 + k0_t13.val) ?_ hv i q b hq hb
    exact fun i q hq => readAt_lane tb _ _ _ (n5_ld0 k0_t13 k0_t14) i q hq
  case pa1 =>
    intro i q b hq hb
    refine pay_lane row _ (Memref.read_access_whole (Elt F) cc0_scratch0 row) tb bias v2 _ _ hz v314 (1024 * k0_t13.val + 256 * k0_t14.val + 16) (l0 + k0_t13.val) ?_ hv i q b hq hb
    exact fun i q hq => readAt_lane tb _ _ _ (n5_ld1 k0_t13 k0_t14) i q hq
  case pa2 =>
    intro i q b hq hb
    refine pay_lane row _ (Memref.read_access_whole (Elt F) cc0_scratch0 row) tb bias v2 _ _ hz v314 (1024 * k0_t13.val + 256 * k0_t14.val + 32) (l0 + k0_t13.val) ?_ hv i q b hq hb
    exact fun i q hq => readAt_lane tb _ _ _ (n5_ld2 k0_t13 k0_t14) i q hq
  case pa3 =>
    intro i q b hq hb
    refine pay_lane row _ (Memref.read_access_whole (Elt F) cc0_scratch0 row) tb bias v2 _ _ hz v314 (1024 * k0_t13.val + 256 * k0_t14.val + 48) (l0 + k0_t13.val) ?_ hv i q b hq hb
    exact fun i q hq => readAt_lane tb _ _ _ (n5_ld3 k0_t13 k0_t14) i q hq
  case pa4 =>
    intro i q b hq hb
    refine pay_lane row _ (Memref.read_access_whole (Elt F) cc0_scratch0 row) tb bias v2 _ _ hz v314 (1024 * k0_t13.val + 256 * k0_t14.val + 64) (l0 + k0_t13.val) ?_ hv i q b hq hb
    exact fun i q hq => readAt_lane tb _ _ _ (n5_ld4 k0_t13 k0_t14) i q hq
  case pa5 =>
    intro i q b hq hb
    refine pay_lane row _ (Memref.read_access_whole (Elt F) cc0_scratch0 row) tb bias v2 _ _ hz v314 (1024 * k0_t13.val + 256 * k0_t14.val + 80) (l0 + k0_t13.val) ?_ hv i q b hq hb
    exact fun i q hq => readAt_lane tb _ _ _ (n5_ld5 k0_t13 k0_t14) i q hq
  case pa6 =>
    intro i q b hq hb
    refine pay_lane row _ (Memref.read_access_whole (Elt F) cc0_scratch0 row) tb bias v2 _ _ hz v314 (1024 * k0_t13.val + 256 * k0_t14.val + 96) (l0 + k0_t13.val) ?_ hv i q b hq hb
    exact fun i q hq => readAt_lane tb _ _ _ (n5_ld6 k0_t13 k0_t14) i q hq
  case pa7 =>
    intro i q b hq hb
    refine pay_lane row _ (Memref.read_access_whole (Elt F) cc0_scratch0 row) tb bias v2 _ _ hz v314 (1024 * k0_t13.val + 256 * k0_t14.val + 112) (l0 + k0_t13.val) ?_ hv i q b hq hb
    exact fun i q hq => readAt_lane tb _ _ _ (n5_ld7 k0_t13 k0_t14) i q hq
  case pa8 =>
    intro i q b hq hb
    refine pay_lane row _ (Memref.read_access_whole (Elt F) cc0_scratch0 row) tb bias v2 _ _ hz v314 (1024 * k0_t13.val + 256 * k0_t14.val + 128) (l0 + k0_t13.val) ?_ hv i q b hq hb
    exact fun i q hq => readAt_lane tb _ _ _ (n5_ld8 k0_t13 k0_t14) i q hq
  case pa9 =>
    intro i q b hq hb
    refine pay_lane row _ (Memref.read_access_whole (Elt F) cc0_scratch0 row) tb bias v2 _ _ hz v314 (1024 * k0_t13.val + 256 * k0_t14.val + 144) (l0 + k0_t13.val) ?_ hv i q b hq hb
    exact fun i q hq => readAt_lane tb _ _ _ (n5_ld9 k0_t13 k0_t14) i q hq
  case pa10 =>
    intro i q b hq hb
    refine pay_lane row _ (Memref.read_access_whole (Elt F) cc0_scratch0 row) tb bias v2 _ _ hz v314 (1024 * k0_t13.val + 256 * k0_t14.val + 160) (l0 + k0_t13.val) ?_ hv i q b hq hb
    exact fun i q hq => readAt_lane tb _ _ _ (n5_ld10 k0_t13 k0_t14) i q hq
  case pa11 =>
    intro i q b hq hb
    refine pay_lane row _ (Memref.read_access_whole (Elt F) cc0_scratch0 row) tb bias v2 _ _ hz v314 (1024 * k0_t13.val + 256 * k0_t14.val + 176) (l0 + k0_t13.val) ?_ hv i q b hq hb
    exact fun i q hq => readAt_lane tb _ _ _ (n5_ld11 k0_t13 k0_t14) i q hq
  case pa12 =>
    intro i q b hq hb
    refine pay_lane row _ (Memref.read_access_whole (Elt F) cc0_scratch0 row) tb bias v2 _ _ hz v314 (1024 * k0_t13.val + 256 * k0_t14.val + 192) (l0 + k0_t13.val) ?_ hv i q b hq hb
    exact fun i q hq => readAt_lane tb _ _ _ (n5_ld12 k0_t13 k0_t14) i q hq
  case pa13 =>
    intro i q b hq hb
    refine pay_lane row _ (Memref.read_access_whole (Elt F) cc0_scratch0 row) tb bias v2 _ _ hz v314 (1024 * k0_t13.val + 256 * k0_t14.val + 208) (l0 + k0_t13.val) ?_ hv i q b hq hb
    exact fun i q hq => readAt_lane tb _ _ _ (n5_ld13 k0_t13 k0_t14) i q hq
  case pa14 =>
    intro i q b hq hb
    refine pay_lane row _ (Memref.read_access_whole (Elt F) cc0_scratch0 row) tb bias v2 _ _ hz v314 (1024 * k0_t13.val + 256 * k0_t14.val + 224) (l0 + k0_t13.val) ?_ hv i q b hq hb
    exact fun i q hq => readAt_lane tb _ _ _ (n5_ld14 k0_t13 k0_t14) i q hq
  case pa15 =>
    intro i q b hq hb
    refine pay_lane row _ (Memref.read_access_whole (Elt F) cc0_scratch0 row) tb bias v2 _ _ hz v314 (1024 * k0_t13.val + 256 * k0_t14.val + 240) (l0 + k0_t13.val) ?_ hv i q b hq hb
    exact fun i q hq => readAt_lane tb _ _ _ (n5_ld15 k0_t13 k0_t14) i q hq

theorem n5_t3_trips : k0_t14_loop.trips = 4 := by decide +kernel
theorem n5_t2_trips : k0_t13_loop.trips = 4 := by decide +kernel

/-- The bias vector's index word in outer trip `t2` is `196 + t2`. -/
theorem n5_w_eq : ∀ k0_t13 : Fin k0_t13_loop.trips, (Scalar.addi 196#32 (Scalar.addi 0#32 (Scalar.muli (Scf.iv 0#32 1#32 k0_t13) 1#32))).toNat = 196 + k0_t13.val := by decide +kernel

/-- Before outer trip `k`: the token words, the row and the biases as they were, and the staging buffer filled below token
    position `1024 * k`. -/
def n5_I2 (tb : Buf (Elt F) ((a9).view.loc (thr d L))) (row : Buf (Elt F) (((a7).access (.whole S1x100000)).loc (thr d L)))
    (bias : Buf (Elt F) (((a13).access (.whole S208)).loc (thr d L))) (l0 : Nat) (hl0 : l0 + 4 ≤ 208) (k : Nat) (_ : Unit) : sProp 𝕄 :=
  iprop(((a9).view.loc (thr d L) ↦{fullShare} tb) ∗ (((a7).access (.whole S1x100000)).loc (thr d L) ↦{fullShare} row)
    ∗ (((a13).access (.whole S208)).loc (thr d L) ↦{fullShare} bias)
    ∗ ∃ g : Buf (Elt F) ((a11).view.loc (thr d L)), ((a11).view.loc (thr d L) ↦{fullShare} g)
      ∗ ⌜∀ y, (flatOf y).val < 1024 * k → (a11).view.read (Elt F) g y = nestG row tb bias l0 hl0 y⌝)

set_option maxHeartbeats 4000000 in
/-- One outer trip: the bias vector gathered at the trip's position, then the four inner trips. -/
theorem n5_t2_step (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (k0_t13 : Fin k0_t13_loop.trips) (acc : Unit) :
    n5_I2 d L tb row bias 196 (by norm_num) k0_t13.val acc
      ⊢ wp frame (wpE (defs₀ (F := F)) 𝒱₀ (thr d L) none) Set.univ
          (k0_t13_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 0#32 1#32 k0_t13 acc) (n5_I2 d L tb row bias 196 (by norm_num) (k0_t13.val + 1)) := by
  have ht2 : k0_t13.val < 4 := Nat.lt_of_lt_of_le k0_t13.isLt k0_t13_abs.2.1
  unfold n5_I2 k0_t13_body
  iintro ⟨H8, H7, H13, %g, H10, %hg⟩
  sl_exec (disch := exact chkBias_ok _ (lt_of_eq_of_lt (n5_w_eq k0_t13) (by omega)))
  iapply (SparseCore.wp_vectorLoadIdx 𝒱₀ (thr d L) none Set.univ (base := a13) (S := Finset.univ) (q := fullShare) (Finset.subset_univ _)) $$ H13; iintro H13
  sl_for (n5_I3 d L tb row bias 196 (by norm_num) k0_t13.val) $$ [H8 H7 H10]
  case region =>
    intro k acc'
    refine n5_t3_step d L v2 hz k0_t1 v10 k0_t13 _ _ tb htb row bias 196 (by norm_num) ?hv k acc'
    exact fun i b hb => bias_lane bias _ (Memref.read_access_whole (Elt F) cc0_scratch6 bias) _ _ (196 + k0_t13.val) (n5_w_eq k0_t13) i b hb
  · unfold n5_I3
    isplitl [H8]; · iexact H8
    isplitl [H7]; · iexact H7
    iexists g
    isplitl [H10]; · iexact H10
    ipureintro
    intro y hy
    exact hg y (by omega)
  iintro %_ HI
  unfold n5_I3
  icases HI with ⟨H8, H7, %g', H10, %hg'⟩
  sl_exec
  sl_step
  isplitl [H8]; · iexact H8
  isplitl [H7]; · iexact H7
  isplitl [H13]; · iexact H13
  iexists g'
  isplitl [H10]; · iexact H10
  ipureintro
  intro y hy
  refine hg' y ?_
  have h4 : Scf.trips k0_t14_loop.lb k0_t14_loop.ub k0_t14_loop.st = 4 := n5_t3_trips
  omega

set_option maxHeartbeats 4000000 in
/-- The whole nest: from any contents of the staging buffer to the nest's value, the token words, the row and the biases kept. -/
theorem nest5 (v2 : IVec S16 32) (hz : ∀ x, (v2 x).toNat < 1) (k0_t1 : Fin k0_t1_loop.trips) (v10 : BitVec 32)
    (tb : Buf (Elt F) ((a9).view.loc (thr d L))) (htb : ∀ y, (tb y).toNat < 100000)
    (row : Buf (Elt F) (((a7).access (.whole S1x100000)).loc (thr d L)))
    (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} f)) : sProp 𝕄)
      ⊢ wp frame (wpE (defs₀ (F := F)) 𝒱₀ (thr d L) none) Set.univ
          (Scf.Loop.for k0_t13_loop k0_t13_ok ⟨⟩ (k0_t13_body L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2 v2 k0_t1 v10 0#32 1#32))
          (fun _ => iprop(((a9).view.loc (thr d L) ↦{fullShare} tb) ∗ (((a7).access (.whole S1x100000)).loc (thr d L) ↦{fullShare} row)
        ∗ (((a13).access (.whole S208)).loc (thr d L) ↦{fullShare} bias) ∗ ((a11).view.loc (thr d L) ↦{fullShare} nestG row tb bias 196 (by norm_num)))) := by
  iintro ⟨H8, H7, H13, H10⟩
  sl_for (n5_I2 d L tb row bias 196 (by norm_num)) $$ [H8 H7 H13 H10]
  case region =>
    intro k acc
    exact n5_t2_step d L v2 hz k0_t1 v10 tb htb row bias k acc
  isplitl [H8 H7 H13 H10]
  · unfold n5_I2
    isplitl [H8]; · iexact H8
    isplitl [H7]; · iexact H7
    isplitl [H13]; · iexact H13
    iexists f
    isplitl [H10]; · iexact H10
    ipureintro
    intro y hy
    omega
  iintro %_ HI
  unfold n5_I2
  icases HI with ⟨H8, H7, H13, %g, H10, %hg⟩
  have e : g = nestG row tb bias 196 (by norm_num) :=
    funext fun y => hg y (by
      have h4 : Scf.trips k0_t13_loop.lb k0_t13_loop.ub k0_t13_loop.st = 4 := n5_t2_trips
      have := (flatOf y).isLt
      omega)
  subst e
  isplitl [H8]; · iexact H8
  isplitl [H7]; · iexact H7
  isplitl [H13]; · iexact H13
  iexact H10

end Cert.Proof.NestK
end
-- ==== Proof.TripLoopK.lean ====
/-
  The steady-state loop of one feature's trip. Before trip `u` (chunks `2u + 2` and `2u + 3`) both token buffers' next
  chunks are in flight, the two previous chunks' sums are on their way out to the result array, the result's positions below
  `8u` of this feature are written and those from `8u + 8` on are still to write (`inv6`). A trip waits for the even
  chunk's tokens and for its staging buffer's previous copy-out, forms the chunk's sums, starts their copy-out and the
  fetch of the tokens two chunks ahead, then does the same for the odd chunk (`t6_region`).
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.LaunchDefsK
import proofs.«203565_g79912161509654_cont_9to1_m_411_39_alg».proof.Proof.NestSpecK
import proofs.«203565_g79912161509654_cont_9to1_m_411_39_alg».proof.Proof.OutSetsK
import proofs.«203565_g79912161509654_cont_9to1_m_411_39_alg».proof.Proof.ChunkValueK
import proofs.«203565_g79912161509654_cont_9to1_m_411_39_alg».proof.Proof.BiasValueK
import proofs.«203565_g79912161509654_cont_9to1_m_411_39_alg».proof.Proof.SliceReadsK
import proofs.«203565_g79912161509654_cont_9to1_m_411_39_alg».proof.Proof.TripDefsK
import proofs.«203565_g79912161509654_cont_9to1_m_411_39_alg».proof.Proof.OutPiecesK
import proofs.«203565_g79912161509654_cont_9to1_m_411_39_alg».proof.Proof.Nest0K
import proofs.«203565_g79912161509654_cont_9to1_m_411_39_alg».proof.Proof.Nest1K
import proofs.«203565_g79912161509654_cont_9to1_m_411_39_alg».proof.Proof.Nest2K
import proofs.«203565_g79912161509654_cont_9to1_m_411_39_alg».proof.Proof.Nest3K
import proofs.«203565_g79912161509654_cont_9to1_m_411_39_alg».proof.Proof.Nest4K
import proofs.«203565_g79912161509654_cont_9to1_m_411_39_alg».proof.Proof.Nest5K

noncomputable section

namespace Cert.Proof.BodyK

open Cert.Kernel Cert.Kernel.Gen Cert.Proof.LaunchKernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN pointsTo_toks pointsTo_toks_split pointsTo_toks_join Flight_mono)

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

variable (d : Dev nD) (L : grid0.Coords)
abbrev thr (d : Dev nD) (L : grid0.Coords) : Thread nD τ := V d (cV L) (jV L)

/-- A specification of a program's first part, used in the middle of a run: what the part needs is given up, and the rest
    of the program is run from what the part leaves. -/
theorem wp_seq_spec {α β : Type} {c : Thread nD τ} {p : Prog (TpuEff nD τ sig (Elt F) Λ₀ c.2) α} {k : α → Prog (TpuEff nD τ sig (Elt F) Λ₀ c.2) β}
    {Q : β → sProp 𝕄} {R : sProp 𝕄} {post : α → sProp 𝕄}
    (h : R ⊢ wp frame (wpE (defs₀ (F := F)) 𝒱₀ c none) Set.univ p post) :
    R ⊢ iprop((∀ a, post a -∗ wp frame (wpE (defs₀ (F := F)) 𝒱₀ c none) Set.univ (k a) Q)
        -∗ wp frame (wpE (defs₀ (F := F)) 𝒱₀ c none) Set.univ (p >>= k) Q) := by
  rw [wp_bind]
  exact h.trans (wp_wand _ _ _)

theorem nest0' (d : Dev nD) (L : grid0.Coords) (v2 : IVec S16 32) (hz : ∀ x, (v2 x).toNat < 1) (k0_t1 : Fin k0_t1_loop.trips) (v10 : BitVec 32)
    (tb : Buf (Elt F) ((a8).view.loc (thr d L)))
    (row : Buf (Elt F) (((a7).access (.whole S1x100000)).loc (thr d L))) (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t2_loop k0_t2_ok ⟨⟩ (k0_t2_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} Cert.Proof.NestK.nestG row tb bias 0 (by norm_num)))) := by
  iintro ⟨H8, H7, H13, H10, %htb⟩
  iapply (Cert.Proof.NestK.nest0 d L v2 hz k0_t1 v10 tb htb row bias f)
  isplitl [H8]; · iexact H8
  isplitl [H7]; · iexact H7
  isplitl [H13]; · iexact H13
  iexact H10

theorem nest1' (d : Dev nD) (L : grid0.Coords) (v2 : IVec S16 32) (hz : ∀ x, (v2 x).toNat < 1) (k0_t1 : Fin k0_t1_loop.trips) (v10 : BitVec 32)
    (tb : Buf (Elt F) ((a9).view.loc (thr d L)))
    (row : Buf (Elt F) (((a7).access (.whole S1x100000)).loc (thr d L))) (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t4_loop k0_t4_ok ⟨⟩ (k0_t4_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10))
          (fun _ => iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} Cert.Proof.NestK.nestG row tb bias 4 (by norm_num)))) := by
  iintro ⟨H8, H7, H13, H10, %htb⟩
  iapply (Cert.Proof.NestK.nest1 d L v2 hz k0_t1 v10 tb htb row bias f)
  isplitl [H8]; · iexact H8
  isplitl [H7]; · iexact H7
  isplitl [H13]; · iexact H13
  iexact H10

theorem nest2' (d : Dev nD) (L : grid0.Coords) (v2 : IVec S16 32) (hz : ∀ x, (v2 x).toNat < 1) (k0_t1 : Fin k0_t1_loop.trips) (v10 : BitVec 32)
    (k0_t6 : Fin k0_t6_loop.trips) (v311 : BitVec 32) (hv : v311.toNat = 2 * k0_t6.val + 2) (hl0 : 8 * k0_t6.val + 8 + 4 ≤ 208)
    (tb : Buf (Elt F) ((a8).view.loc (thr d L)))
    (row : Buf (Elt F) (((a7).access (.whole S1x100000)).loc (thr d L))) (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t7_loop k0_t7_ok ⟨⟩ (k0_t7_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10 k0_t6 v311))
          (fun _ => iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} Cert.Proof.NestK.nestG row tb bias (8 * k0_t6.val + 8) hl0))) := by
  iintro ⟨H8, H7, H13, H10, %htb⟩
  iapply (Cert.Proof.NestK.nest2 d L v2 hz k0_t1 v10 k0_t6 v311 hv hl0 tb htb row bias f)
  isplitl [H8]; · iexact H8
  isplitl [H7]; · iexact H7
  isplitl [H13]; · iexact H13
  iexact H10

theorem nest3' (d : Dev nD) (L : grid0.Coords) (v2 : IVec S16 32) (hz : ∀ x, (v2 x).toNat < 1) (k0_t1 : Fin k0_t1_loop.trips) (v10 : BitVec 32)
    (k0_t6 : Fin k0_t6_loop.trips) (v381 : BitVec 32) (hv : v381.toNat = 2 * k0_t6.val + 3) (hl0 : 8 * k0_t6.val + 12 + 4 ≤ 208)
    (tb : Buf (Elt F) ((a9).view.loc (thr d L)))
    (row : Buf (Elt F) (((a7).access (.whole S1x100000)).loc (thr d L))) (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t9_loop k0_t9_ok ⟨⟩ (k0_t9_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10 k0_t6 v381))
          (fun _ => iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} Cert.Proof.NestK.nestG row tb bias (8 * k0_t6.val + 12) hl0))) := by
  iintro ⟨H8, H7, H13, H10, %htb⟩
  iapply (Cert.Proof.NestK.nest3 d L v2 hz k0_t1 v10 k0_t6 v381 hv hl0 tb htb row bias f)
  isplitl [H8]; · iexact H8
  isplitl [H7]; · iexact H7
  isplitl [H13]; · iexact H13
  iexact H10

theorem nest4' (d : Dev nD) (L : grid0.Coords) (v2 : IVec S16 32) (hz : ∀ x, (v2 x).toNat < 1) (k0_t1 : Fin k0_t1_loop.trips) (v10 : BitVec 32)
    (tb : Buf (Elt F) ((a8).view.loc (thr d L)))
    (row : Buf (Elt F) (((a7).access (.whole S1x100000)).loc (thr d L))) (bias : Buf (Elt F) (((a13).access (.whole S208)).loc (thr d L)))
    (f : Buf (Elt F) ((a10).view.loc (thr d L))) :
    (iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t11_loop k0_t11_ok ⟨⟩ (k0_t11_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10))
          (fun _ => iprop(((a8).view.loc (thr d L) ↦{fullShare} tb) ∗ (((a7).access (.whole S1x100000)).loc (thr d L) ↦{fullShare} row) ∗ (((a13).access (.whole S208)).loc (thr d L) ↦{fullShare} bias) ∗ ((a10).view.loc (thr d L) ↦{fullShare} Cert.Proof.NestK.nestG row tb bias 192 (by norm_num)))) := by
  iintro ⟨H8, H7, H13, H10, %htb⟩
  iapply (Cert.Proof.NestK.nest4 d L v2 hz k0_t1 v10 tb htb row bias f)
  isplitl [H8]; · iexact H8
  isplitl [H7]; · iexact H7
  isplitl [H13]; · iexact H13
  iexact H10

theorem nest5' (d : Dev nD) (L : grid0.Coords) (v2 : IVec S16 32) (hz : ∀ x, (v2 x).toNat < 1) (k0_t1 : Fin k0_t1_loop.trips) (v10 : BitVec 32)
    (tb : Buf (Elt F) ((a9).view.loc (thr d L)))
    (row : Buf (Elt F) (((a7).access (.whole S1x100000)).loc (thr d L))) (bias : Buf (Elt F) (((a13).access (.whole S208)).loc (thr d L)))
    (f : Buf (Elt F) ((a11).view.loc (thr d L))) :
    (iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} f)
        ∗ ⌜∀ y, (tb y).toNat < 100000⌝) : sProp 𝕄)
      ⊢ wp frame (wpE (defs₀ (F := F)) 𝒱₀ (thr d L) none) Set.univ
          (Scf.Loop.for k0_t13_loop k0_t13_ok ⟨⟩ (k0_t13_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 k0_t1 v10 0#32 1#32))
          (fun _ => iprop(((a9).view.loc (thr d L) ↦{fullShare} tb) ∗ (((a7).access (.whole S1x100000)).loc (thr d L) ↦{fullShare} row) ∗ (((a13).access (.whole S208)).loc (thr d L) ↦{fullShare} bias) ∗ ((a11).view.loc (thr d L) ↦{fullShare} Cert.Proof.NestK.nestG row tb bias 196 (by norm_num)))) := by
  iintro ⟨H8, H7, H13, H10, %htb⟩
  iapply (Cert.Proof.NestK.nest5 d L v2 hz k0_t1 v10 tb htb row bias f)
  isplitl [H8]; · iexact H8
  isplitl [H7]; · iexact H7
  isplitl [H13]; · iexact H13
  iexact H10

section Inv6
variable (d : Dev nD) (L : grid0.Coords) (t : Fin k0_t1_loop.trips) (O : CellTallies nD τ sig (HIx 1)) (W : Waits sig (HIx 1)) (q3 q4 q15 : PosShare TreeShare)
    (embV : Buf (Elt F) ((a3).view.loc (thr d L))) (posV : Buf (Elt F) ((a4).view.loc (thr d L))) (shV : Buf (Elt F) ((a15).view.loc (thr d L)))
    (rowV : Buf (Elt F) (((a7).access (.whole S1x100000)).loc (thr d L))) (biasV : Buf (Elt F) (((a13).access (.whole S208)).loc (thr d L)))
    (f14 : Buf (Elt F) (((a14).access (.whole S64)).loc (thr d L)))
    (Gout g : Buf (Elt F) ((a6).view.loc (thr d L)))

/-- Before trip `u` of the steady-state loop (chunks `2u + 2` and `2u + 3`): both token buffers' next chunks in flight,
    the two previous chunks' results on their way out, the result's positions below `8u` of this feature written, those
    from `8u + 8` on still to write. -/
def inv6 (u : Nat) (_ : PUnit) : sProp 𝕄 :=
  iprop(Transfers.MayWaits (thr d L) (default : HIx 1) O
    ∗ (∃ W', ⌜∀ p ∈ W', p ∈ W ∨ p.2 = none⌝ ∗ owes (thr d L) O W')
    ∗ semVal (thr d L, SemLoc.dma cc0_scratch13.sem) 0 ∗ semVal (thr d L, SemLoc.dma cc0_scoped2.sem) 0
    ∗ ((a3).view.loc (thr d L) ↦{q3} embV) ∗ ((a4).view.loc (thr d L) ↦{q4} posV)
    ∗ (∃ f, (a12).view.loc (thr d L) ↦{fullShare} f) ∗ (((a14).access (.whole S64)).loc (thr d L) ↦{fullShare} f14)
    ∗ (((a7).access (.whole S1x100000)).loc (thr d L) ↦{fullShare} rowV) ∗ (((a13).access (.whole S208)).loc (thr d L) ↦{fullShare} biasV)
    ∗ ((a15).view.loc (thr d L) ↦{shareDrop q15 2} shV)
    ∗ (∃ A, Transfers.Flight countersEmb (thr d L) (SemLoc.dma cc0_scratch9.sem) (default : HIx 1) 131072
          iprop(((a8).view.loc (thr d L) ↦{fullShare} tokChunk shV (2 * u + 2)) ∗ ((a15).view.loc (thr d L) ↦[A]{shareTokN q15 0} shV))
        ∗ ((a15).view.loc (thr d L) ↦[Finset.univ \ A]{shareTokN q15 0} shV))
    ∗ (∃ B, Transfers.Flight countersEmb (thr d L) (SemLoc.dma cc0_scratch10.sem) (default : HIx 1) 131072
          iprop(((a9).view.loc (thr d L) ↦{fullShare} tokChunk shV (2 * u + 3)) ∗ ((a15).view.loc (thr d L) ↦[B]{shareTokN q15 1} shV))
        ∗ ((a15).view.loc (thr d L) ↦[Finset.univ \ B]{shareTokN q15 1} shV))
    ∗ Transfers.Flight countersEmb (thr d L) (SemLoc.dma cc0_scratch11.sem) (default : HIx 1) 131072
          iprop(((a6).view.loc (thr d L) ↦[chunkF L t (8 * u)]{fullShare} Gout)
            ∗ ((a10).view.loc (thr d L) ↦[(a10).view.set]{fullShare} stageOut rowV shV biasV (2 * u)))
    ∗ ((a10).view.loc (thr d L) ↦[Finset.univ \ (a10).view.set]{fullShare} stageOut rowV shV biasV (2 * u))
    ∗ Transfers.Flight countersEmb (thr d L) (SemLoc.dma cc0_scratch12.sem) (default : HIx 1) 131072
          iprop(((a6).view.loc (thr d L) ↦[chunkF L t (8 * u + 4)]{fullShare} Gout)
            ∗ ((a11).view.loc (thr d L) ↦[(a11).view.set]{fullShare} stageOut rowV shV biasV (2 * u + 1)))
    ∗ ((a11).view.loc (thr d L) ↦[Finset.univ \ (a11).view.set]{fullShare} stageOut rowV shV biasV (2 * u + 1))
    ∗ ((a6).view.loc (thr d L) ↦[remSet L t (8 * u + 8)]{fullShare} g)
    ∗ ((a6).view.loc (thr d L) ↦[doneSet L t (8 * u)]{fullShare} Gout))

end Inv6

section Helpers
variable (d : Dev nD) (L : grid0.Coords) (t : Fin k0_t1_loop.trips)

/-- Chunk `p` out of what is still to write. -/
theorem carveChunk (p : Nat) (hp : p + 4 ≤ 200) (g : Buf (Elt F) ((a6).view.loc (thr d L))) :
    ((a6).view.loc (thr d L) ↦[remSet L t p]{fullShare} g : sProp 𝕄)
      ⊢ iprop(((a6).view.loc (thr d L) ↦[chunkSet L t p hp]{fullShare} g) ∗ ((a6).view.loc (thr d L) ↦[remSet L t (p + 4)]{fullShare} g)) := by
  rw [← rem_sdiff_chunk L t p hp]; exact (pointsTo_split_subset (chunk_sub_rem L t p hp)).1

theorem remCast {n n' : Nat} (h : n = n') (g : Buf (Elt F) ((a6).view.loc (thr d L))) :
    ((a6).view.loc (thr d L) ↦[remSet L t n]{fullShare} g : sProp 𝕄) ⊢ ((a6).view.loc (thr d L) ↦[remSet L t n']{fullShare} g) := by
  subst h; exact .rfl

theorem doneCast {n n' : Nat} (h : n = n') (g : Buf (Elt F) ((a6).view.loc (thr d L))) :
    ((a6).view.loc (thr d L) ↦[doneSet L t n]{fullShare} g : sProp 𝕄) ⊢ ((a6).view.loc (thr d L) ↦[doneSet L t n']{fullShare} g) := by
  subst h; exact .rfl

/-- A written chunk joins what is done. -/
theorem joinDone (p : Nat) (hp : p + 4 ≤ 200) (G : Buf (Elt F) ((a6).view.loc (thr d L))) :
    iprop(((a6).view.loc (thr d L) ↦[doneSet L t p]{fullShare} G) ∗ ((a6).view.loc (thr d L) ↦[chunkF L t p]{fullShare} G))
      ⊢ ((a6).view.loc (thr d L) ↦[doneSet L t (p + 4)]{fullShare} G : sProp 𝕄) := by
  rw [chunkF_eq L t p hp, ← done_union_chunk L t p hp]; exact (pointsTo_union (done_disj_chunk L t p hp)).2

theorem toSlice35 (u : Fin k0_t6_loop.trips) (hp : 8 * u.val + 8 + 4 ≤ 200) (g : Buf (Elt F) ((a6).view.loc (thr d L))) :
    ((a6).view.loc (thr d L) ↦[chunkSet L t (8 * u.val + 8) hp]{fullShare} g : sProp 𝕄)
      ⊢ (((a6).slice (Rect.unit (s := S200x8x8x8x128) (k0_off35 L t u) S4x1x8x1x128.size (k0_off35_inb L t u)) (fun _ => rfl)).view.loc (thr d L) ↦[((a6).slice (Rect.unit (s := S200x8x8x8x128) (k0_off35 L t u) S4x1x8x1x128.size (k0_off35_inb L t u)) (fun _ => rfl)).view.set]{fullShare} g) := by
  rw [slice35_set]

theorem toSlice47 (u : Fin k0_t6_loop.trips) (hp : 8 * u.val + 12 + 4 ≤ 200) (g : Buf (Elt F) ((a6).view.loc (thr d L))) :
    ((a6).view.loc (thr d L) ↦[chunkSet L t (8 * u.val + 12) hp]{fullShare} g : sProp 𝕄)
      ⊢ (((a6).slice (Rect.unit (s := S200x8x8x8x128) (k0_off47 L t u) S4x1x8x1x128.size (k0_off47_inb L t u)) (fun _ => rfl)).view.loc (thr d L) ↦[((a6).slice (Rect.unit (s := S200x8x8x8x128) (k0_off47 L t u) S4x1x8x1x128.size (k0_off47_inb L t u)) (fun _ => rfl)).view.set]{fullShare} g) := by
  rw [slice47_set]

end Helpers

section OutPieces
variable (d : Dev nD) (L : grid0.Coords) (t : Fin k0_t1_loop.trips)
theorem outPiece13 (hp : 0 + 4 ≤ 200) (g Gout : Buf (Elt F) ((a6).view.loc (thr d L))) (w : S4x1x8x1x128.Idx → (Elt F) .f32)
    (hw : ∀ y, w y = Gout ((chunkRect L t (0) hp).emb y)) :
    (((a6).slice (Rect.unit (s := S200x8x8x8x128) (k0_off13 L t) S4x1x8x1x128.size (k0_off13_inb L t)) (fun _ => rfl)).view.loc (thr d L) ↦[((a6).slice (Rect.unit (s := S200x8x8x8x128) (k0_off13 L t) S4x1x8x1x128.size (k0_off13_inb L t)) (fun _ => rfl)).view.set]{fullShare} ((a6).slice (Rect.unit (s := S200x8x8x8x128) (k0_off13 L t) S4x1x8x1x128.size (k0_off13_inb L t)) (fun _ => rfl)).view.writes (Elt F) g [⟨Rect.whole (Rect.unit (s := S200x8x8x8x128) (k0_off13 L t) S4x1x8x1x128.size (k0_off13_inb L t)).shape, w⟩] : sProp 𝕄)
      = ((a6).view.loc (thr d L) ↦[chunkF L t (0)]{fullShare} Gout) := by
  rw [pointsTo_congr (out_piece13 L t g Gout w hw), slice13_set, ← chunkF_eq L t (0) hp]

theorem outPiece23 (hp : 4 + 4 ≤ 200) (g Gout : Buf (Elt F) ((a6).view.loc (thr d L))) (w : S4x1x8x1x128.Idx → (Elt F) .f32)
    (hw : ∀ y, w y = Gout ((chunkRect L t (4) hp).emb y)) :
    (((a6).slice (Rect.unit (s := S200x8x8x8x128) (k0_off23 L t) S4x1x8x1x128.size (k0_off23_inb L t)) (fun _ => rfl)).view.loc (thr d L) ↦[((a6).slice (Rect.unit (s := S200x8x8x8x128) (k0_off23 L t) S4x1x8x1x128.size (k0_off23_inb L t)) (fun _ => rfl)).view.set]{fullShare} ((a6).slice (Rect.unit (s := S200x8x8x8x128) (k0_off23 L t) S4x1x8x1x128.size (k0_off23_inb L t)) (fun _ => rfl)).view.writes (Elt F) g [⟨Rect.whole (Rect.unit (s := S200x8x8x8x128) (k0_off23 L t) S4x1x8x1x128.size (k0_off23_inb L t)).shape, w⟩] : sProp 𝕄)
      = ((a6).view.loc (thr d L) ↦[chunkF L t (4)]{fullShare} Gout) := by
  rw [pointsTo_congr (out_piece23 L t g Gout w hw), slice23_set, ← chunkF_eq L t (4) hp]

theorem outPiece35 (u : Fin k0_t6_loop.trips) (hp : 8 * u.val + 8 + 4 ≤ 200) (g Gout : Buf (Elt F) ((a6).view.loc (thr d L))) (w : S4x1x8x1x128.Idx → (Elt F) .f32)
    (hw : ∀ y, w y = Gout ((chunkRect L t (8 * u.val + 8) hp).emb y)) :
    (((a6).slice (Rect.unit (s := S200x8x8x8x128) (k0_off35 L t u) S4x1x8x1x128.size (k0_off35_inb L t u)) (fun _ => rfl)).view.loc (thr d L) ↦[((a6).slice (Rect.unit (s := S200x8x8x8x128) (k0_off35 L t u) S4x1x8x1x128.size (k0_off35_inb L t u)) (fun _ => rfl)).view.set]{fullShare} ((a6).slice (Rect.unit (s := S200x8x8x8x128) (k0_off35 L t u) S4x1x8x1x128.size (k0_off35_inb L t u)) (fun _ => rfl)).view.writes (Elt F) g [⟨Rect.whole (Rect.unit (s := S200x8x8x8x128) (k0_off35 L t u) S4x1x8x1x128.size (k0_off35_inb L t u)).shape, w⟩] : sProp 𝕄)
      = ((a6).view.loc (thr d L) ↦[chunkF L t (8 * u.val + 8)]{fullShare} Gout) := by
  rw [pointsTo_congr (out_piece35 L t u g Gout w hw), slice35_set, ← chunkF_eq L t (8 * u.val + 8) hp]

theorem outPiece47 (u : Fin k0_t6_loop.trips) (hp : 8 * u.val + 12 + 4 ≤ 200) (g Gout : Buf (Elt F) ((a6).view.loc (thr d L))) (w : S4x1x8x1x128.Idx → (Elt F) .f32)
    (hw : ∀ y, w y = Gout ((chunkRect L t (8 * u.val + 12) hp).emb y)) :
    (((a6).slice (Rect.unit (s := S200x8x8x8x128) (k0_off47 L t u) S4x1x8x1x128.size (k0_off47_inb L t u)) (fun _ => rfl)).view.loc (thr d L) ↦[((a6).slice (Rect.unit (s := S200x8x8x8x128) (k0_off47 L t u) S4x1x8x1x128.size (k0_off47_inb L t u)) (fun _ => rfl)).view.set]{fullShare} ((a6).slice (Rect.unit (s := S200x8x8x8x128) (k0_off47 L t u) S4x1x8x1x128.size (k0_off47_inb L t u)) (fun _ => rfl)).view.writes (Elt F) g [⟨Rect.whole (Rect.unit (s := S200x8x8x8x128) (k0_off47 L t u) S4x1x8x1x128.size (k0_off47_inb L t u)).shape, w⟩] : sProp 𝕄)
      = ((a6).view.loc (thr d L) ↦[chunkF L t (8 * u.val + 12)]{fullShare} Gout) := by
  rw [pointsTo_congr (out_piece47 L t u g Gout w hw), slice47_set, ← chunkF_eq L t (8 * u.val + 12) hp]

theorem outPiece59 (hp : 192 + 4 ≤ 200) (g Gout : Buf (Elt F) ((a6).view.loc (thr d L))) (w : S4x1x8x1x128.Idx → (Elt F) .f32)
    (hw : ∀ y, w y = Gout ((chunkRect L t (192) hp).emb y)) :
    (((a6).slice (Rect.unit (s := S200x8x8x8x128) (k0_off59 L t) S4x1x8x1x128.size (k0_off59_inb L t)) (fun _ => rfl)).view.loc (thr d L) ↦[((a6).slice (Rect.unit (s := S200x8x8x8x128) (k0_off59 L t) S4x1x8x1x128.size (k0_off59_inb L t)) (fun _ => rfl)).view.set]{fullShare} ((a6).slice (Rect.unit (s := S200x8x8x8x128) (k0_off59 L t) S4x1x8x1x128.size (k0_off59_inb L t)) (fun _ => rfl)).view.writes (Elt F) g [⟨Rect.whole (Rect.unit (s := S200x8x8x8x128) (k0_off59 L t) S4x1x8x1x128.size (k0_off59_inb L t)).shape, w⟩] : sProp 𝕄)
      = ((a6).view.loc (thr d L) ↦[chunkF L t (192)]{fullShare} Gout) := by
  rw [pointsTo_congr (out_piece59 L t g Gout w hw), slice59_set, ← chunkF_eq L t (192) hp]

theorem outPiece70 (hp : 196 + 4 ≤ 200) (g Gout : Buf (Elt F) ((a6).view.loc (thr d L))) (w : S4x1x8x1x128.Idx → (Elt F) .f32)
    (hw : ∀ y, w y = Gout ((chunkRect L t (196) hp).emb y)) :
    (((a6).slice (Rect.unit (s := S200x8x8x8x128) (k0_off70 L t) S4x1x8x1x128.size (k0_off70_inb L t)) (fun _ => rfl)).view.loc (thr d L) ↦[((a6).slice (Rect.unit (s := S200x8x8x8x128) (k0_off70 L t) S4x1x8x1x128.size (k0_off70_inb L t)) (fun _ => rfl)).view.set]{fullShare} ((a6).slice (Rect.unit (s := S200x8x8x8x128) (k0_off70 L t) S4x1x8x1x128.size (k0_off70_inb L t)) (fun _ => rfl)).view.writes (Elt F) g [⟨Rect.whole (Rect.unit (s := S200x8x8x8x128) (k0_off70 L t) S4x1x8x1x128.size (k0_off70_inb L t)).shape, w⟩] : sProp 𝕄)
      = ((a6).view.loc (thr d L) ↦[chunkF L t (196)]{fullShare} Gout) := by
  rw [pointsTo_congr (out_piece70 L t g Gout w hw), slice70_set, ← chunkF_eq L t (196) hp]

end OutPieces

set_option maxHeartbeats 16000000 in
theorem t6_region (d : Dev nD) (L : grid0.Coords) (t : Fin k0_t1_loop.trips) (O : CellTallies nD τ sig (HIx 1)) (W : Waits sig (HIx 1)) (q3 q4 q15 : PosShare TreeShare)
    (embV : Buf (Elt F) ((a3).view.loc (thr d L))) (posV : Buf (Elt F) ((a4).view.loc (thr d L))) (shV : Buf (Elt F) ((a15).view.loc (thr d L)))
    (hsh : ∀ i, (shV i).toNat < 100000)
    (rowV : Buf (Elt F) (((a7).access (.whole S1x100000)).loc (thr d L))) (biasV : Buf (Elt F) (((a13).access (.whole S208)).loc (thr d L)))
    (f14 : Buf (Elt F) (((a14).access (.whole S64)).loc (thr d L)))
    (Gout g : Buf (Elt F) ((a6).view.loc (thr d L)))
    (hG : ∀ (c p : Nat) (hp : p + 4 ≤ 200), p = 4 * c → ∀ y, stageOut rowV shV biasV c y = Gout ((chunkRect L t p hp).emb y))
    (v2 : IVec S16 32) (hz : ∀ x, (v2 x).toNat < 1) (v10 : BitVec 32) (u : Fin k0_t6_loop.trips) :
    inv6 d L t O W q3 q4 q15 embV posV shV rowV biasV f14 Gout g u.val ⟨⟩
      ⊢ wp frame (wpE (defs₀ (F := F)) 𝒱₀ (thr d L) none) Set.univ
          (k0_t6_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 v2 t v10 u ())
          (inv6 d L t O W q3 q4 q15 embV posV shV rowV biasV f14 Gout g (u.val + 1)) := by
  have hu : u.val < 23 := trips6_lt u
  have h208a : 8 * u.val + 8 + 4 ≤ 208 := by omega
  have h208b : 8 * u.val + 12 + 4 ≤ 208 := by omega
  have h200a : 8 * u.val + 8 + 4 ≤ 200 := by omega
  have h200b : 8 * u.val + 12 + 4 ≤ 200 := by omega
  unfold k0_t6_body inv6
  rw [show 2 * (u.val + 1) + 2 = 2 * u.val + 4 from by omega, show 2 * (u.val + 1) + 3 = 2 * u.val + 5 from by omega,
    show 8 * (u.val + 1) + 8 = 8 * u.val + 16 from by omega, show 8 * (u.val + 1) + 4 = 8 * u.val + 12 from by omega,
    show 2 * (u.val + 1) + 1 = 2 * u.val + 3 from by omega, show 8 * (u.val + 1) = 8 * u.val + 8 from by omega,
    show 2 * (u.val + 1) = 2 * u.val + 2 from by omega]
  iintro ⟨#Hmw, ⟨%W', %hW', HO⟩, S20, Sr2, H3, H4, ⟨%f12, H12⟩, H14, H7, H13, H15r, ⟨%A, S16, H15a⟩, ⟨%B, S17, H15b⟩, S18, H10, S19, H11, Hout, Hdone⟩
  sl_exec
  -- the even chunk's sums
  iapply (wp_seq_spec (nest2' d L v2 hz t v10 u _ (c0_word u) h208a _ _ _ _)) $$ [S16_dst H7 H13 H10]
  · isplitl [S16_dst]; · iexact S16_dst
    isplitl [H7]; · iexact H7
    isplitl [H13]; · iexact H13
    isplitl [H10]; · iexact H10
    ipureintro; exact tokChunk_lt shV hsh _
  iintro %_ ⟨H8, H7, H13, H10⟩
  rw [nestG_stage rowV shV biasV (2 * u.val + 2) (8 * u.val + 8) h208a (by omega)]
  -- its destination out of what is still to write
  ihave Hc := (carveChunk d L t (8 * u.val + 8) h200a g) $$ Hout
  icases Hc with ⟨Hc0, Hout⟩
  ihave Hout := (remCast d L t (show 8 * u.val + 8 + 4 = 8 * u.val + 12 from by omega) g) $$ Hout
  ihave Hc0 := (toSlice35 d L t u h200a g) $$ Hc0
  sl_exec
  -- the odd chunk's sums
  iapply (wp_seq_spec (nest3' d L v2 hz t v10 u _ (c1_word u) h208b _ _ _ _)) $$ [S17_dst H7 H13 H11]
  · isplitl [S17_dst]; · iexact S17_dst
    isplitl [H7]; · iexact H7
    isplitl [H13]; · iexact H13
    isplitl [H11]; · iexact H11
    ipureintro; exact tokChunk_lt shV hsh _
  iintro %_ ⟨H9, H7, H13, H11⟩
  rw [nestG_stage rowV shV biasV (2 * u.val + 3) (8 * u.val + 12) h208b (by omega)]
  ihave Hc := (carveChunk d L t (8 * u.val + 12) h200b g) $$ Hout
  icases Hc with ⟨Hc1, Hout⟩
  ihave Hout := (remCast d L t (show 8 * u.val + 12 + 4 = 8 * u.val + 16 from by omega) g) $$ Hout
  ihave Hc1 := (toSlice47 d L t u h200b g) $$ Hc1
  sl_exec
  sl_step
  isplitr; · iexact Hmw
  isplitl [HO]
  · iexists _; isplitr; swap; · iexact HO
    ipureintro; intro p hp
    simp only [Finset.mem_insert] at hp
    rcases hp with rfl | rfl | rfl | rfl | hp
    · exact .inr rfl
    · exact .inr rfl
    · exact .inr rfl
    · exact .inr rfl
    · exact hW' p hp
  isplitl [S20]; · iexact S20
  isplitl [Sr2]; · iexact Sr2
  isplitl [H3]; · iexact H3
  isplitl [H4]; · iexact H4
  isplitl [H12]; · iexists _; iexact H12
  isplitl [H14]; · iexact H14
  isplitl [H7]; · iexact H7
  isplitl [H13]; · iexact H13
  isplitl [H15r]; · iexact H15r
  isplitl [S16 H15a]
  · iexists ((a15).slice (Rect.unit (s := S204800) (k0_off36 u 2#32) S4096.size (k0_off36_inb u 1)) (fun _ => rfl)).view.set
    isplitl [S16]
    · iapply (Flight_mono (EC := countersEmb) (c := thr d L) (sep_mono (Entails.of_eq (congrArg (fun f => ((a8).view.loc (thr d L) ↦{fullShare} f : sProp 𝕄)) ((View.write_whole_univ _ _ _).trans (tok_read_36_2 u shV)))) .rfl)) $$ S16
    · iexact H15a
  isplitl [S17 H15b]
  · iexists ((a15).slice (Rect.unit (s := S204800) (k0_off48 u) S4096.size (k0_off48_inb u)) (fun _ => rfl)).view.set
    isplitl [S17]
    · iapply (Flight_mono (EC := countersEmb) (c := thr d L) (sep_mono (Entails.of_eq (congrArg (fun f => ((a9).view.loc (thr d L) ↦{fullShare} f : sProp 𝕄)) ((View.write_whole_univ _ _ _).trans (tok_read_48 u shV)))) .rfl)) $$ S17
    · iexact H15b
  isplitl [S18]
  · iapply (Flight_mono (EC := countersEmb) (c := thr d L) (sep_mono (Entails.of_eq (outPiece35 d L t u h200a g Gout (t6_region.sl.dma0 d L shV rowV biasV u) (fun y => hG (2 * u.val + 2) (8 * u.val + 8) h200a (by omega) y))) .rfl)) $$ S18
  isplitl [H10]; · iexact H10
  isplitl [S19]
  · iapply (Flight_mono (EC := countersEmb) (c := thr d L) (sep_mono (Entails.of_eq (outPiece47 d L t u h200b g Gout (t6_region.sl.dma0_2 d L shV rowV biasV u) (fun y => hG (2 * u.val + 3) (8 * u.val + 12) h200b (by omega) y))) .rfl)) $$ S19
  isplitl [H11]; · iexact H11
  isplitl [Hout]; · iexact Hout
  ihave Hd := (joinDone d L t (8 * u.val) (by omega) Gout) $$ [Hdone S18_dst]
  · isplitl [Hdone] <;> iassumption
  ihave Hd := (joinDone d L t (8 * u.val + 4) (by omega) Gout) $$ [Hd S19_dst]
  · isplitl [Hd] <;> iassumption
  iapply (doneCast d L t (show 8 * u.val + 4 + 4 = 8 * u.val + 8 from by omega) Gout) $$ Hd

end Cert.Proof.BodyK
end
-- ==== Proof.StageValueK.lean ====
/-
  The staging buffer against the specification. Once the compute nest has filled a staging buffer for chunk `c` of a
  feature's trip, every entry of it is the specified result at the entry of the result array where the chunk's
  rectangle at position `4 * c` places it: the nest's value for the chunk's run of token words is the staging contents,
  and the chunk's value is the specification's.
-/
import proofs.«203565_g79912161509654_cont_9to1_m_411_39_alg».proof.Proof.TripDefsK
import proofs.«203565_g79912161509654_cont_9to1_m_411_39_alg».proof.Proof.ChunkValueK
import proofs.«203565_g79912161509654_cont_9to1_m_411_39_alg».proof.Proof.SliceReadsK

noncomputable section

namespace Cert.Proof.BodyK

open Cert.Kernel Cert.Kernel.Gen Cert.Proof.LaunchKernel Idealize.ShloMosaic Idealize.ShloMosaic.ValueIdx
open Cert.Proof.Spec Cert.Proof.NestK

variable {F : FTy → Type} [FloatOps F]

/-- The staging contents for chunk `c` are the specified result on the chunk's rectangle at position `p = 4 * c`. -/
theorem stage_value (i : grid0.Coords) (t : Fin k0_t1_loop.trips) (shV : IVec S204800 32) (embV : FVec F S64x100000 .f32)
    (posV : FVec F S32768 .f32) (segV : FVec F S128 .f32)
    (rowV : FVec F S1x100000 .f32)
    (hrow : ∀ y : S1x100000.Idx, rowV y = embV (ix2 (⟨featN i t, featN_lt i t⟩ : Fin 64) (y 1)))
    (biasV : FVec F S208 .f32)
    (hbias : ∀ l : Fin 208, l.val < 200 → biasV (ix1 l)
      = FloatOps.addf (posV (ix1 (⟨featN i t * 512 + l.val, by have := featN_lt i t; have := l.isLt; omega⟩ : Fin 32768)))
          (segV (ix1 (⟨featN i t, by have := featN_lt i t; omega⟩ : Fin 128)))) :
    ∀ (c p : Nat) (hp : p + 4 ≤ 200), p = 4 * c → ∀ y : S4x1x8x1x128.Idx,
      stageOut rowV shV biasV c y = scOut shV embV posV segV ((chunkRect i t p hp).emb y) := by
  intro c p hp hpc y
  subst hpc
  have hc : c < 50 := by omega
  rw [← nestG_stage rowV shV biasV c (4 * c) (by omega) rfl]
  exact chunk_value shV embV posV segV i t c hc rowV hrow (tokChunk shV c) (tokChunk_at shV c hc) biasV hbias y

end Cert.Proof.BodyK

end
-- ==== Proof.BiasReadsK.lean ====
/-
  What the bias of a trip is made of, read lane by lane. The tile's feature D in trip t is the word the kernel computes
  from its grid coordinates and the trip; the segment scratch gathered at that word in every lane is segment 0's feature
  D; and sixteen lanes from N of the position scratch, right after the copy of the position table's run from 512 D landed
  in it, are the table's entries 512 D + N + lane.
-/
import proofs.«203565_g79912161509654_cont_9to1_m_411_39_alg».proof.Kernel
import proofs.«203565_g79912161509654_cont_9to1_m_411_39_alg».proof.Proof.Gen.Kernel
import proofs.«203565_g79912161509654_cont_9to1_m_411_39_alg».proof.Proof.OutOffsK
import proofs.«203565_g79912161509654_cont_9to1_m_411_39_alg».proof.Proof.OutSetsK
import proofs.«203565_g79912161509654_cont_9to1_m_411_39_alg».proof.Proof.SliceReadsK
import Idealize.ShloMosaic.Lib.ValueIdx

noncomputable section

namespace Cert.Proof.BodyK

open Cert.Kernel Cert.Kernel.Gen Idealize.ShloMosaic Idealize.ShloMosaic.ValueIdx

variable {F : FTy → Type}

/-! ## The feature as the kernel computes it -/

/-- The word the kernel computes for the tile's feature: `((2 * subcore + core) * 2) + (0 + trip * 1)` in 32-bit words. -/
abbrev v10W (i : grid0.Coords) (t : Fin k0_t1_loop.trips) : BitVec 32 :=
  Scalar.addi (Scalar.muli (Scalar.addi (Scalar.muli (BitVec.ofNat 32 (i 1).val) 2#32) (BitVec.ofNat 32 (i 0).val)) 2#32)
    (Scalar.addi 0#32 (Scalar.muli (Scf.iv 0#32 1#32 t) 1#32))

/-- It is the feature, on each of the 32 tiles and both trips. -/
theorem v10W_val : ∀ (i : grid0.Coords) (t : Fin k0_t1_loop.trips), (v10W i t).toNat = featN i t := by decide +kernel

/-- The gather's index is inside the segment scratch. -/
theorem chk1_ok (i : grid0.Coords) (t : Fin k0_t1_loop.trips) : k0_chk1 (broadcast S16 (v10W i t)) := by
  intro a x
  match a with
  | ⟨0, _⟩ =>
    show (v10W i t).toNat < 64
    rw [v10W_val]; exact featN_lt i t

/-! ## The segment scratch gathered at the feature -/

/-- Every lane of the gather reads segment 0's feature `featN i t`. -/
theorem seg_at (i : grid0.Coords) (t : Fin k0_t1_loop.trips) (f14 : S64.Idx → Elt F .f32) (segV : FVec F S128 .f32)
    (hseg : ∀ x : Fin 64, f14 (ix1 x) = segV (ix1 (⟨x.val, by omega⟩ : Fin 128)))
    (h : ∀ a x, ((![broadcast S16 (v10W i t)] : Fin 1 → IVec S16 32) a x).toNat < S64.size a) (x : S16.Idx) :
    loadIdx (F := F) (s := S64) (t := S16) (e := .f32)
        (View.read (Elt F) ((Memref.whole cc0_scratch7 : Memref sig .scVector .vmem S64 .f32).access (Rect.whole cc0_scratch7.ty.shape)) f14)
        ![broadcast S16 (v10W i t)] h x
      = segV (ix1 (⟨featN i t, by have := featN_lt i t; omega⟩ : Fin 128)) := by
  have hk : idxAt (s := S64) (t := S16) ![broadcast S16 (v10W i t)] h x = ix1 (⟨featN i t, featN_lt i t⟩ : Fin 64) := by
    funext a
    match a with
    | ⟨0, _⟩ => exact Fin.ext (v10W_val i t)
  have e : (Rect.whole S64).emb (idxAt (s := S64) (t := S16) ![broadcast S16 (v10W i t)] h x)
      = idxAt (s := S64) (t := S16) ![broadcast S16 (v10W i t)] h x := Rect.emb_whole_apply S64 _
  show f14 ((Rect.whole S64).emb (idxAt (s := S64) (t := S16) ![broadcast S16 (v10W i t)] h x)) = _
  rw [e, hk, hseg]

/-! ## The position scratch after the copy -/

/-- Sixteen lanes from `N` of the position scratch, whole-written with the position table's run from `512 * featN i t`. -/
theorem pos_at (i : grid0.Coords) (t : Fin k0_t1_loop.trips)
    (posV : (Memref.whole main_v4_scv : Memref sig .scVector .hbm S32768 .f32).view.ty.Contents (Elt F)) (f12 : (Memref.whole cc0_scratch5 : Memref sig .scVector .vmem S208 .f32).view.ty.Contents (Elt F)) (N : Nat)
    (inb : ∀ a, (![N] : Fin 1 → Nat) a + S16.size a ≤ S208.size a) (x : S16.Idx) :
    View.readAt (Elt F) (Memref.whole cc0_scratch5 : Memref sig .scVector .vmem S208 .f32).view (Rect.unit (s := S208) ![N] S16.size inb).toLoadRect
        (View.write (Elt F) (Memref.whole cc0_scratch5 : Memref sig .scVector .vmem S208 .f32).view f12
          (ReadAs.same.apply (View.read (Elt F) ((Memref.whole main_v4_scv : Memref sig .scVector .hbm S32768 .f32).slice
            (Rect.unit (s := S32768) (k0_off2 i t) S208.size (k0_off2_inb i t)) (fun _ => rfl)).view posV)) Finset.univ) x
      = posV (ix1 (⟨featN i t * 512 + N + (x 0).val, by
          have := featN_lt i t; have h0 : N + 16 ≤ 208 := inb 0; have hx : (x 0).val < 16 := (x 0).isLt; omega⟩ : Fin 32768)) := by
  have h0 : N + 16 ≤ 208 := inb 0
  have hx : (x 0).val < 16 := (x 0).isLt
  rw [View.readAt_apply]
  change View.read (Elt F) (View.whole cc0_scratch5) (View.write (Elt F) (View.whole cc0_scratch5) f12
      (ReadAs.same.apply (View.read (Elt F) ((Memref.whole main_v4_scv : Memref sig .scVector .hbm S32768 .f32).slice
        (Rect.unit (s := S32768) (k0_off2 i t) S208.size (k0_off2_inb i t)) (fun _ => rfl)).view posV)) Finset.univ)
      ((Rect.unit (s := S208) ![N] S16.size inb).toLoadRect.idx x) = _
  rw [View.write_whole_univ, View.read_whole]
  show View.read (Elt F) ((Memref.whole main_v4_scv : Memref sig .scVector .hbm S32768 .f32).slice
      (Rect.unit (s := S32768) (k0_off2 i t) S208.size (k0_off2_inb i t)) (fun _ => rfl)).view posV
        ((Rect.unit (s := S208) ![N] S16.size inb).toLoadRect.idx x) = _
  rw [pos_read]
  refine congrArg posV (congrArg ix1 (Fin.ext ?_))
  show featN i t * 512 + (N + 1 * (x 0).val) = featN i t * 512 + N + (x 0).val
  omega

end Cert.Proof.BodyK

end
-- ==== Proof.BiasPaysK.lean ====
/-
  The thirteen vectors stored into the bias scratch: each is the sum, lane by lane, of its second operand (sixteen
  lanes of the position scratch) and its first (the gathered segment value), in that order.
-/
import proofs.«203565_g79912161509654_cont_9to1_m_411_39_alg».proof.Proof.Gen.Kernel.Skeleton

noncomputable section

namespace Cert.Proof.BodyK

open Cert.Kernel Cert.Kernel.Gen Idealize.ShloMosaic

variable {F : FTy → Type} [FloatOps F]

theorem pay94_apply (a b : Vec F S16 .f32) (x : S16.Idx) : k0_pay94 a b x = FloatOps.addf (b x) (a x) := rfl
theorem pay95_apply (a b : Vec F S16 .f32) (x : S16.Idx) : k0_pay95 a b x = FloatOps.addf (b x) (a x) := rfl
theorem pay96_apply (a b : Vec F S16 .f32) (x : S16.Idx) : k0_pay96 a b x = FloatOps.addf (b x) (a x) := rfl
theorem pay97_apply (a b : Vec F S16 .f32) (x : S16.Idx) : k0_pay97 a b x = FloatOps.addf (b x) (a x) := rfl
theorem pay98_apply (a b : Vec F S16 .f32) (x : S16.Idx) : k0_pay98 a b x = FloatOps.addf (b x) (a x) := rfl
theorem pay99_apply (a b : Vec F S16 .f32) (x : S16.Idx) : k0_pay99 a b x = FloatOps.addf (b x) (a x) := rfl
theorem pay100_apply (a b : Vec F S16 .f32) (x : S16.Idx) : k0_pay100 a b x = FloatOps.addf (b x) (a x) := rfl
theorem pay101_apply (a b : Vec F S16 .f32) (x : S16.Idx) : k0_pay101 a b x = FloatOps.addf (b x) (a x) := rfl
theorem pay102_apply (a b : Vec F S16 .f32) (x : S16.Idx) : k0_pay102 a b x = FloatOps.addf (b x) (a x) := rfl
theorem pay103_apply (a b : Vec F S16 .f32) (x : S16.Idx) : k0_pay103 a b x = FloatOps.addf (b x) (a x) := rfl
theorem pay104_apply (a b : Vec F S16 .f32) (x : S16.Idx) : k0_pay104 a b x = FloatOps.addf (b x) (a x) := rfl
theorem pay105_apply (a b : Vec F S16 .f32) (x : S16.Idx) : k0_pay105 a b x = FloatOps.addf (b x) (a x) := rfl
theorem pay106_apply (a b : Vec F S16 .f32) (x : S16.Idx) : k0_pay106 a b x = FloatOps.addf (b x) (a x) := rfl

end Cert.Proof.BodyK

end
-- ==== Proof.BiasFnK.lean ====
/-
  The bias scratch of a trip as one function. After its thirteen stores the bias scratch holds, at entry l, the position
  table's feature D at position l (entry 512 D + l of the flattened feature-major table) plus segment 0's feature D, D the
  tile's feature in the trip: each stored vector is, lane by lane, sixteen lanes of the position scratch (the table's run
  from 512 D) plus the segment scratch gathered at D, and the thirteen stores cover the 208 entries.
-/
import proofs.«203565_g79912161509654_cont_9to1_m_411_39_alg».proof.Proof.BiasReadsK
import proofs.«203565_g79912161509654_cont_9to1_m_411_39_alg».proof.Proof.BiasPaysK
import proofs.«203565_g79912161509654_cont_9to1_m_411_39_alg».proof.Proof.BiasValueK
import Idealize.ShloMosaic.Lib.Writes

noncomputable section

namespace Cert.Proof.BodyK

open Cert.Kernel Cert.Kernel.Gen Idealize.ShloMosaic Idealize.ShloMosaic.ValueIdx

variable {F : FTy → Type} [FloatOps F]

/-- The bias of the tile's feature in trip `t`: entry `l` is the position table's entry `512 * featN i t + l` plus segment
    0's feature `featN i t`. -/
def biasFn (i : grid0.Coords) (t : Fin k0_t1_loop.trips) (posV : FVec F S32768 .f32) (segV : FVec F S128 .f32) : FVec F S208 .f32 :=
  fun y => FloatOps.addf
    (posV (ix1 (⟨featN i t * 512 + (y 0).val, by have := featN_lt i t; have h : (y 0).val < 208 := (y 0).isLt; omega⟩ : Fin 32768)))
    (segV (ix1 (⟨featN i t, by have := featN_lt i t; omega⟩ : Fin 128)))

/-- The segment scratch gathered at the feature's word, sixteen lanes. -/
abbrev segLane (i : grid0.Coords) (t : Fin k0_t1_loop.trips) (f14 : S64.Idx → Elt F .f32)
    (h : ∀ a x, ((![broadcast S16 (v10W i t)] : Fin 1 → IVec S16 32) a x).toNat < S64.size a) : Vec F S16 .f32 :=
  loadIdx (F := F) (s := S64) (t := S16) (e := .f32)
    (View.read (Elt F) ((Memref.whole cc0_scratch7 : Memref sig .scVector .vmem S64 .f32).access (Rect.whole cc0_scratch7.ty.shape)) f14) ![broadcast S16 (v10W i t)] h

/-- Sixteen lanes from `N` of the position scratch right after the copy of the position table's run landed in it. -/
abbrev posWin (i : grid0.Coords) (t : Fin k0_t1_loop.trips) (posV : FVec F S32768 .f32)
    (f12 : (Memref.whole cc0_scratch5 : Memref sig .scVector .vmem S208 .f32).view.ty.Contents (Elt F)) (N : Nat) (inb : ∀ a, (![N] : Fin 1 → Nat) a + S16.size a ≤ S208.size a) :
    Vec F S16 .f32 :=
  View.readAt (Elt F) (Memref.whole cc0_scratch5 : Memref sig .scVector .vmem S208 .f32).view (Rect.unit (s := S208) ![N] S16.size inb).toLoadRect
    (View.write (Elt F) (Memref.whole cc0_scratch5 : Memref sig .scVector .vmem S208 .f32).view f12
      (ReadAs.same.apply (View.read (Elt F) ((Memref.whole main_v4_scv : Memref sig .scVector .hbm S32768 .f32).slice
        (Rect.unit (s := S32768) (k0_off2 i t) S208.size (k0_off2_inb i t)) (fun _ => rfl)).view posV)) Finset.univ)

/-- One lane of one stored vector is the bias at its entry. -/
theorem bias_lane_eq (i : grid0.Coords) (t : Fin k0_t1_loop.trips) (posV : FVec F S32768 .f32) (segV : FVec F S128 .f32)
    (f12 : (Memref.whole cc0_scratch5 : Memref sig .scVector .vmem S208 .f32).view.ty.Contents (Elt F)) (f14 : S64.Idx → Elt F .f32)
    (hseg : ∀ x : Fin 64, f14 (ix1 x) = segV (ix1 (⟨x.val, by omega⟩ : Fin 128)))
    (h : ∀ a x, ((![broadcast S16 (v10W i t)] : Fin 1 → IVec S16 32) a x).toNat < S64.size a)
    (N : Nat) (inb : ∀ a, (![N] : Fin 1 → Nat) a + S16.size a ≤ S208.size a) (x : S16.Idx) :
    FloatOps.addf (posWin i t posV f12 N inb x) (segLane i t f14 h x)
      = biasFn i t posV segV (ix1 (⟨N + (x 0).val, by
          have h0 : N + 16 ≤ 208 := inb 0; have hx : (x 0).val < 16 := (x 0).isLt; omega⟩ : Fin 208)) := by
  have e1 := pos_at (F := F) i t posV f12 N inb x
  have e2 := seg_at (F := F) i t f14 segV hseg h x
  refine (congrArg₂ (fun a b => FloatOps.addf a b) e1 e2).trans ?_
  unfold biasFn
  refine congrArg (fun a => FloatOps.addf a _) (congrArg posV (congrArg ix1 (Fin.ext ?_)))
  show featN i t * 512 + N + (x 0).val = featN i t * 512 + (N + (x 0).val)
  omega

/-- The bias scratch after the thirteen stores (the last first) is `biasFn`. -/
theorem bias_fn_eq (i : grid0.Coords) (t : Fin k0_t1_loop.trips) (posV : FVec F S32768 .f32) (segV : FVec F S128 .f32)
    (f12 : (Memref.whole cc0_scratch5 : Memref sig .scVector .vmem S208 .f32).view.ty.Contents (Elt F)) (f14 : S64.Idx → Elt F .f32)
    (hseg : ∀ x : Fin 64, f14 (ix1 x) = segV (ix1 (⟨x.val, by omega⟩ : Fin 128)))
    (h : ∀ a x, ((![broadcast S16 (v10W i t)] : Fin 1 → IVec S16 32) a x).toNat < S64.size a)
    (f0 : (Memref.whole cc0_scratch6 : Memref sig .scVector .vmem S208 .f32).view.ty.Contents (Elt F)) :
    (Memref.whole cc0_scratch6 : Memref sig .scVector .vmem S208 .f32).view.writes (Elt F) f0
      [⟨Rect.unit (s := S208) ![192] S16.size inb_S208_S16_192, k0_pay106 (segLane i t f14 h) (posWin i t posV f12 192 inb_S208_S16_192)⟩,
       ⟨Rect.unit (s := S208) ![176] S16.size inb_S208_S16_176, k0_pay105 (segLane i t f14 h) (posWin i t posV f12 176 inb_S208_S16_176)⟩,
       ⟨Rect.unit (s := S208) ![160] S16.size inb_S208_S16_160, k0_pay104 (segLane i t f14 h) (posWin i t posV f12 160 inb_S208_S16_160)⟩,
       ⟨Rect.unit (s := S208) ![144] S16.size inb_S208_S16_144, k0_pay103 (segLane i t f14 h) (posWin i t posV f12 144 inb_S208_S16_144)⟩,
       ⟨Rect.unit (s := S208) ![128] S16.size inb_S208_S16_128, k0_pay102 (segLane i t f14 h) (posWin i t posV f12 128 inb_S208_S16_128)⟩,
       ⟨Rect.unit (s := S208) ![112] S16.size inb_S208_S16_112, k0_pay101 (segLane i t f14 h) (posWin i t posV f12 112 inb_S208_S16_112)⟩,
       ⟨Rect.unit (s := S208) ![96] S16.size inb_S208_S16_96, k0_pay100 (segLane i t f14 h) (posWin i t posV f12 96 inb_S208_S16_96)⟩,
       ⟨Rect.unit (s := S208) ![80] S16.size inb_S208_S16_80, k0_pay99 (segLane i t f14 h) (posWin i t posV f12 80 inb_S208_S16_80)⟩,
       ⟨Rect.unit (s := S208) ![64] S16.size inb_S208_S16_64, k0_pay98 (segLane i t f14 h) (posWin i t posV f12 64 inb_S208_S16_64)⟩,
       ⟨Rect.unit (s := S208) ![48] S16.size inb_S208_S16_48, k0_pay97 (segLane i t f14 h) (posWin i t posV f12 48 inb_S208_S16_48)⟩,
       ⟨Rect.unit (s := S208) ![32] S16.size inb_S208_S16_32, k0_pay96 (segLane i t f14 h) (posWin i t posV f12 32 inb_S208_S16_32)⟩,
       ⟨Rect.unit (s := S208) ![16] S16.size inb_S208_S16_16, k0_pay95 (segLane i t f14 h) (posWin i t posV f12 16 inb_S208_S16_16)⟩,
       ⟨Rect.unit (s := S208) ![0] S16.size inb_S208_S16_0, k0_pay94 (segLane i t f14 h) (posWin i t posV f12 0 inb_S208_S16_0)⟩]
      = biasFn i t posV segV := by
  have hread : ∀ (X : (Memref.whole cc0_scratch6 : Memref sig .scVector .vmem S208 .f32).view.ty.Contents (Elt F)) (j : S208.Idx),
      View.read (Elt F) (Memref.whole cc0_scratch6 : Memref sig .scVector .vmem S208 .f32).view X j = X j := fun _ _ => rfl
  funext y
  obtain ⟨l, rfl⟩ : ∃ l : Fin 208, y = ix1 l := ⟨y 0, eq_ix1 y⟩
  exact (hread _ _).symm.trans
    (bias_pieces (F := F) (Memref.whole cc0_scratch6 : Memref sig .scVector .vmem S208 .f32).view f0 (fun l => biasFn i t posV segV (ix1 l))
      (k0_pay94 (segLane i t f14 h) (posWin i t posV f12 0 inb_S208_S16_0))
      (k0_pay95 (segLane i t f14 h) (posWin i t posV f12 16 inb_S208_S16_16))
      (k0_pay96 (segLane i t f14 h) (posWin i t posV f12 32 inb_S208_S16_32))
      (k0_pay97 (segLane i t f14 h) (posWin i t posV f12 48 inb_S208_S16_48))
      (k0_pay98 (segLane i t f14 h) (posWin i t posV f12 64 inb_S208_S16_64))
      (k0_pay99 (segLane i t f14 h) (posWin i t posV f12 80 inb_S208_S16_80))
      (k0_pay100 (segLane i t f14 h) (posWin i t posV f12 96 inb_S208_S16_96))
      (k0_pay101 (segLane i t f14 h) (posWin i t posV f12 112 inb_S208_S16_112))
      (k0_pay102 (segLane i t f14 h) (posWin i t posV f12 128 inb_S208_S16_128))
      (k0_pay103 (segLane i t f14 h) (posWin i t posV f12 144 inb_S208_S16_144))
      (k0_pay104 (segLane i t f14 h) (posWin i t posV f12 160 inb_S208_S16_160))
      (k0_pay105 (segLane i t f14 h) (posWin i t posV f12 176 inb_S208_S16_176))
      (k0_pay106 (segLane i t f14 h) (posWin i t posV f12 192 inb_S208_S16_192))
      (fun x => (pay94_apply _ _ x).trans (bias_lane_eq i t posV segV f12 f14 hseg h 0 inb_S208_S16_0 x))
      (fun x => (pay95_apply _ _ x).trans (bias_lane_eq i t posV segV f12 f14 hseg h 16 inb_S208_S16_16 x))
      (fun x => (pay96_apply _ _ x).trans (bias_lane_eq i t posV segV f12 f14 hseg h 32 inb_S208_S16_32 x))
      (fun x => (pay97_apply _ _ x).trans (bias_lane_eq i t posV segV f12 f14 hseg h 48 inb_S208_S16_48 x))
      (fun x => (pay98_apply _ _ x).trans (bias_lane_eq i t posV segV f12 f14 hseg h 64 inb_S208_S16_64 x))
      (fun x => (pay99_apply _ _ x).trans (bias_lane_eq i t posV segV f12 f14 hseg h 80 inb_S208_S16_80 x))
      (fun x => (pay100_apply _ _ x).trans (bias_lane_eq i t posV segV f12 f14 hseg h 96 inb_S208_S16_96 x))
      (fun x => (pay101_apply _ _ x).trans (bias_lane_eq i t posV segV f12 f14 hseg h 112 inb_S208_S16_112 x))
      (fun x => (pay102_apply _ _ x).trans (bias_lane_eq i t posV segV f12 f14 hseg h 128 inb_S208_S16_128 x))
      (fun x => (pay103_apply _ _ x).trans (bias_lane_eq i t posV segV f12 f14 hseg h 144 inb_S208_S16_144 x))
      (fun x => (pay104_apply _ _ x).trans (bias_lane_eq i t posV segV f12 f14 hseg h 160 inb_S208_S16_160 x))
      (fun x => (pay105_apply _ _ x).trans (bias_lane_eq i t posV segV f12 f14 hseg h 176 inb_S208_S16_176 x))
      (fun x => (pay106_apply _ _ x).trans (bias_lane_eq i t posV segV f12 f14 hseg h 192 inb_S208_S16_192 x))
      l)

end Cert.Proof.BodyK

end
-- ==== Proof.TripK.lean ====
/-
  One feature of a tile's work. In trip `t` of its feature loop the tile handles feature `featN L t`: it fetches that
  feature's row of the word table, the position table's entries of the feature, and — chunk by chunk, two buffers
  alternating — the token list from its SparseCore's shared scratch; it forms the bias (position entry plus segment
  entry) once, and for each of the fifty chunks of four positions it looks up the feature of every token of the chunk,
  adds the bias of the position, and copies the 4 × 1024 sums out to the result array's chunk. The copies are in flight
  while the next chunk is computed: two token fetches and two copy-outs at any time in the steady state. `trip_spec`
  says that from the tile's resources between features the trip ends with the same resources and the feature's part of
  the result array at the specified sums (`Spec.scOut`): a run to the first two chunks, the steady-state loop by its
  invariant (TripLoop), and the last two chunks, every copy's delivery read as the function it is.
-/
import proofs.«203565_g79912161509654_cont_9to1_m_411_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.LaunchDefsK
import proofs.«203565_g79912161509654_cont_9to1_m_411_39_alg».proof.Proof.NestSpecK
import proofs.«203565_g79912161509654_cont_9to1_m_411_39_alg».proof.Proof.OutSetsK
import proofs.«203565_g79912161509654_cont_9to1_m_411_39_alg».proof.Proof.ChunkValueK
import proofs.«203565_g79912161509654_cont_9to1_m_411_39_alg».proof.Proof.BiasValueK
import proofs.«203565_g79912161509654_cont_9to1_m_411_39_alg».proof.Proof.SliceReadsK
import proofs.«203565_g79912161509654_cont_9to1_m_411_39_alg».proof.Proof.TripDefsK
import proofs.«203565_g79912161509654_cont_9to1_m_411_39_alg».proof.Proof.TripLoopK
import proofs.«203565_g79912161509654_cont_9to1_m_411_39_alg».proof.Proof.StageValueK
import proofs.«203565_g79912161509654_cont_9to1_m_411_39_alg».proof.Proof.BiasReadsK
import proofs.«203565_g79912161509654_cont_9to1_m_411_39_alg».proof.Proof.BiasPaysK
import proofs.«203565_g79912161509654_cont_9to1_m_411_39_alg».proof.Proof.BiasFnK
import proofs.«203565_g79912161509654_cont_9to1_m_411_39_alg».proof.Proof.OutPiecesK
import proofs.«203565_g79912161509654_cont_9to1_m_411_39_alg».proof.Proof.Nest0K
import proofs.«203565_g79912161509654_cont_9to1_m_411_39_alg».proof.Proof.Nest1K
import proofs.«203565_g79912161509654_cont_9to1_m_411_39_alg».proof.Proof.Nest2K
import proofs.«203565_g79912161509654_cont_9to1_m_411_39_alg».proof.Proof.Nest3K
import proofs.«203565_g79912161509654_cont_9to1_m_411_39_alg».proof.Proof.Nest4K
import proofs.«203565_g79912161509654_cont_9to1_m_411_39_alg».proof.Proof.Nest5K

noncomputable section

namespace Cert.Proof.BodyK

open Cert.Kernel Cert.Kernel.Gen Cert.Proof.LaunchKernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN pointsTo_toks pointsTo_toks_split pointsTo_toks_join Flight_mono)

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

/-- The tile's number as the kernel computes it: twice the subcore's plus the SparseCore's. -/
abbrev widW (L : grid0.Coords) : BitVec 32 := Scalar.addi (Scalar.muli (BitVec.ofNat 32 (L 1).val) 2#32) (BitVec.ofNat 32 (L 0).val)

/-- What a tile holds between two features, beside its part of the result: leave to wait, what it owes, its six DMA
    semaphores at rest, read shares of the word table, the position table and the shared token list, its seven work
    buffers at any contents and the segment scratch at the segment table's first row. -/
def tripFrame (d : Dev nD) (L : grid0.Coords) (O : CellTallies nD τ sig (HIx 1)) (W : Waits sig (HIx 1)) (q3 q4 q15 : PosShare TreeShare)
    (embV : Buf (Elt F) ((a3).view.loc (thr d L))) (posV : Buf (Elt F) ((a4).view.loc (thr d L))) (shV : Buf (Elt F) ((a15).view.loc (thr d L)))
    (f14 : Buf (Elt F) (((a14).access (.whole S64)).loc (thr d L))) : sProp 𝕄 :=
  iprop(Transfers.MayWaits (thr d L) (default : HIx 1) O
    ∗ (∃ W', ⌜∀ p ∈ W', p ∈ W ∨ p.2 = none⌝ ∗ owes (thr d L) O W')
    ∗ semVal (thr d L, SemLoc.dma cc0_scratch13.sem) 0 ∗ semVal (thr d L, SemLoc.dma cc0_scratch9.sem) 0 ∗ semVal (thr d L, SemLoc.dma cc0_scratch10.sem) 0
    ∗ semVal (thr d L, SemLoc.dma cc0_scratch11.sem) 0 ∗ semVal (thr d L, SemLoc.dma cc0_scratch12.sem) 0 ∗ semVal (thr d L, SemLoc.dma cc0_scoped2.sem) 0
    ∗ ((a3).view.loc (thr d L) ↦{q3} embV) ∗ ((a4).view.loc (thr d L) ↦{q4} posV) ∗ ((a15).view.loc (thr d L) ↦{q15} shV)
    ∗ (∃ f, (a7).view.loc (thr d L) ↦{fullShare} f) ∗ (∃ f, (a8).view.loc (thr d L) ↦{fullShare} f) ∗ (∃ f, (a9).view.loc (thr d L) ↦{fullShare} f)
    ∗ (∃ f, (a10).view.loc (thr d L) ↦{fullShare} f) ∗ (∃ f, (a11).view.loc (thr d L) ↦{fullShare} f)
    ∗ (∃ f, (a12).view.loc (thr d L) ↦{fullShare} f) ∗ (∃ f, (a13).view.loc (thr d L) ↦{fullShare} f)
    ∗ (((a14).access (.whole S64)).loc (thr d L) ↦{fullShare} f14))

theorem pay1_zero : ∀ x, ((k0_pay1 : IVec S16 32) x).toNat < 1 := fun _ => Nat.zero_lt_one

/-- A wait recorded at the index of no call keeps the recorded waits within what the launch allows. -/
theorem waits_ok {W W1 : Waits sig (HIx 1)} (s : SemLoc sig) (h : ∀ p ∈ W1, p ∈ W ∨ p.2 = none) :
    ∀ p ∈ insert (s, (default : HIx 1)) W1, p ∈ W ∨ p.2 = none := by
  intro p hp
  rcases Finset.mem_insert.mp hp with rfl | hp
  · exact .inr rfl
  · exact h p hp

/-- The row scratch once the word table's row of feature `featN L t` has landed in it. -/
def rowFn (L : grid0.Coords) (t : Fin k0_t1_loop.trips) (embV : FVec F S64x100000 .f32) : FVec F S1x100000 .f32 :=
  fun y => embV (ValueIdx.ix2 (⟨featN L t, featN_lt L t⟩ : Fin 64) (y 1))

/-- A share as two read tokens and the rest. -/
theorem toks2 {ℓ : Loc nD τ sig} {S : Finset (Idx ℓ)} {f : Buf (Elt F) ℓ} (q : PosShare TreeShare) :
    (ℓ ↦[S]{q} f : sProp 𝕄) ⊣⊢ iprop((ℓ ↦[S]{shareDrop q 2} f) ∗ (ℓ ↦[S]{shareTokN q 0} f) ∗ (ℓ ↦[S]{shareTokN q 1} f)) := by
  have h : (ℓ ↦[S]{q} f : sProp 𝕄) ⊣⊢ iprop((ℓ ↦[S]{shareDrop q 2} f) ∗ BI.bigSep Finset.univ (fun i : Fin 2 => ℓ ↦[S]{shareTok q 2 i} f)) := pointsTo_toks q 2
  rw [show (Finset.univ : Finset (Fin 2)) = {0, 1} from by decide, SparseCore.bigSep_insert' (by decide), bigSep_singleton] at h
  exact h

section TripHelpers
variable (d : Dev nD) (L : grid0.Coords) (t : Fin k0_t1_loop.trips)
theorem toSlice13 (hp : 0 + 4 ≤ 200) (g : Buf (Elt F) ((a6).view.loc (thr d L))) :
    ((a6).view.loc (thr d L) ↦[chunkSet L t 0 hp]{fullShare} g : sProp 𝕄) ⊢ (((a6).slice (Rect.unit (s := S200x8x8x8x128) (k0_off13 L t) S4x1x8x1x128.size (k0_off13_inb L t)) (fun _ => rfl)).view.loc (thr d L) ↦[((a6).slice (Rect.unit (s := S200x8x8x8x128) (k0_off13 L t) S4x1x8x1x128.size (k0_off13_inb L t)) (fun _ => rfl)).view.set]{fullShare} g) := by
  rw [slice13_set]
theorem toSlice23 (hp : 4 + 4 ≤ 200) (g : Buf (Elt F) ((a6).view.loc (thr d L))) :
    ((a6).view.loc (thr d L) ↦[chunkSet L t 4 hp]{fullShare} g : sProp 𝕄) ⊢ (((a6).slice (Rect.unit (s := S200x8x8x8x128) (k0_off23 L t) S4x1x8x1x128.size (k0_off23_inb L t)) (fun _ => rfl)).view.loc (thr d L) ↦[((a6).slice (Rect.unit (s := S200x8x8x8x128) (k0_off23 L t) S4x1x8x1x128.size (k0_off23_inb L t)) (fun _ => rfl)).view.set]{fullShare} g) := by
  rw [slice23_set]
theorem toSlice59 (hp : 192 + 4 ≤ 200) (g : Buf (Elt F) ((a6).view.loc (thr d L))) :
    ((a6).view.loc (thr d L) ↦[chunkSet L t 192 hp]{fullShare} g : sProp 𝕄) ⊢ (((a6).slice (Rect.unit (s := S200x8x8x8x128) (k0_off59 L t) S4x1x8x1x128.size (k0_off59_inb L t)) (fun _ => rfl)).view.loc (thr d L) ↦[((a6).slice (Rect.unit (s := S200x8x8x8x128) (k0_off59 L t) S4x1x8x1x128.size (k0_off59_inb L t)) (fun _ => rfl)).view.set]{fullShare} g) := by
  rw [slice59_set]
theorem toSlice70 (hp : 196 + 4 ≤ 200) (g : Buf (Elt F) ((a6).view.loc (thr d L))) :
    ((a6).view.loc (thr d L) ↦[chunkSet L t 196 hp]{fullShare} g : sProp 𝕄) ⊢ (((a6).slice (Rect.unit (s := S200x8x8x8x128) (k0_off70 L t) S4x1x8x1x128.size (k0_off70_inb L t)) (fun _ => rfl)).view.loc (thr d L) ↦[((a6).slice (Rect.unit (s := S200x8x8x8x128) (k0_off70 L t) S4x1x8x1x128.size (k0_off70_inb L t)) (fun _ => rfl)).view.set]{fullShare} g) := by
  rw [slice70_set]
end TripHelpers

/-- Nothing is written yet. -/
theorem doneEmpty (d : Dev nD) (L : grid0.Coords) (t : Fin k0_t1_loop.trips) (G : Buf (Elt F) ((a6).view.loc (thr d L))) :
    ⊢ ((a6).view.loc (thr d L) ↦[doneSet L t 0]{fullShare} G : sProp 𝕄) := by
  rw [done_zero L t, pointsTo_empty]
  exact .rfl

set_option maxHeartbeats 64000000 in
theorem trip_spec (d : Dev nD) (L : grid0.Coords) (O : CellTallies nD τ sig (HIx 1)) (W : Waits sig (HIx 1)) (t : Fin k0_t1_loop.trips) (q3 q4 q15 : PosShare TreeShare)
    (embV : Buf (Elt F) ((a3).view.loc (thr d L))) (posV : Buf (Elt F) ((a4).view.loc (thr d L))) (shV : Buf (Elt F) ((a15).view.loc (thr d L)))
    (hsh : ∀ i, (shV i).toNat < 100000)
    (f14 : Buf (Elt F) (((a14).access (.whole S64)).loc (thr d L))) (segV : FVec F S128 .f32)
    (hseg : ∀ x : Fin 64, f14 (ValueIdx.ix1 x) = segV (ValueIdx.ix1 (⟨x.val, by omega⟩ : Fin 128))) :
    iprop(tripFrame d L O W q3 q4 q15 embV posV shV f14 ∗ (∃ g, (a6).view.loc (thr d L) ↦[featSet L t]{fullShare} g))
      ⊢ wp frame (wpE (defs₀ (F := F)) 𝒱₀ (thr d L) none) Set.univ
          (k0_t1_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 (widW L) t ())
          (fun _ => iprop(tripFrame d L O W q3 q4 q15 embV posV shV f14
            ∗ ((a6).view.loc (thr d L) ↦[featSet L t]{fullShare} Cert.Proof.Spec.scOut shV embV posV segV))) := by
  have ht : t.val < 2 := trips1_lt t
  have b0 : 0 + 4 ≤ 200 := by norm_num
  have b4 : 4 + 4 ≤ 200 := by norm_num
  have b192 : 192 + 4 ≤ 200 := by norm_num
  have b196 : 196 + 4 ≤ 200 := by norm_num
  have hG : ∀ (c p : Nat) (hp : p + 4 ≤ 200), p = 4 * c → ∀ y, stageOut (rowFn L t embV) shV (biasFn L t posV segV) c y = Cert.Proof.Spec.scOut shV embV posV segV ((chunkRect L t p hp).emb y) :=
    stage_value L t shV embV posV segV (rowFn L t embV) (fun _ => rfl) (biasFn L t posV segV) (fun _ _ => rfl)
  unfold tripFrame k0_t1_body
  iintro ⟨⟨#Hmw, ⟨%W', %hW', HO⟩, S20, S16, S17, S18, S19, Sr2, H3, H4, H15, ⟨%f7, H7⟩, ⟨%f8, H8⟩, ⟨%f9, H9⟩, ⟨%f10, H10⟩, ⟨%f11, H11⟩, ⟨%f12, H12⟩, ⟨%f13, H13⟩, H14⟩, ⟨%g, Hout⟩⟩
  -- the shared list's share: a read token per token buffer, and the rest
  ihave Hs := (toks2 (F := F) q15).1 $$ H15
  icases Hs with ⟨H15r, H15a, H15b⟩
  ihave Hout := (Entails.of_eq (congrArg (fun S => ((a6).view.loc (thr d L) ↦[S]{fullShare} g : sProp 𝕄)) (rem_zero L t).symm)) $$ Hout
  sl_exec (disch := exact chk1_ok L t)
  iapply (SparseCore.wp_vectorLoadIdx 𝒱₀ (thr d L) none Set.univ (base := a14) (S := Finset.univ) (q := fullShare) (Finset.subset_univ _)) $$ H14; iintro H14
  sl_exec
  -- the row, bias and first token buffers as the functions they hold
  have e7 : View.write (Elt F) (a7).view f7 (trip_spec.sl.dma0 d L t embV) Finset.univ = rowFn L t embV :=
    (View.write_whole_univ _ _ _).trans (funext (row_read L t embV))
  have e8 : View.write (Elt F) (a8).view f8 (trip_spec.sl.dma0_1 d L shV) Finset.univ = tokChunk shV 0 :=
    (View.write_whole_univ _ _ _).trans (tok_read_lit 0 0 _ rfl shV)
  have e13 : (a13).view.writes (Elt F) (a13).view.junk (trip_spec.sl.H13_13 d L t posV f14 f12) = biasFn L t posV segV :=
    bias_fn_eq L t posV segV f12 f14 hseg (chk1_ok L t) _
  rw [e7, e8, e13]
  -- chunk 0's sums
  iapply (wp_seq_spec (nest0' d L k0_pay1 pay1_zero t _ _ _ _ _)) $$ [H8 H7 H13 H10]
  · isplitl [H8]; · iexact H8
    isplitl [H7]; · iexact H7
    isplitl [H13]; · iexact H13
    isplitl [H10]; · iexact H10
    ipureintro; exact tokChunk_lt shV hsh _
  iintro %_ ⟨H8, H7, H13, H10⟩
  rw [nestG_stage (rowFn L t embV) shV (biasFn L t posV segV) 0 0 (by norm_num) rfl]
  ihave Hc := (carveChunk d L t 0 b0 g) $$ Hout
  icases Hc with ⟨Hc0, Hout⟩
  ihave Hc := (carveChunk d L t 4 b4 g) $$ Hout
  icases Hc with ⟨Hc1, Hout⟩
  ihave Hc0 := (toSlice13 d L t b0 g) $$ Hc0
  ihave Hc1 := (toSlice23 d L t b4 g) $$ Hc1
  sl_exec
  have e9 : View.write (Elt F) (a9).view f9 (trip_spec.sl.dma0_2 d L shV) Finset.univ = tokChunk shV 1 :=
    (View.write_whole_univ _ _ _).trans (tok_read_lit 4096 1 _ rfl shV)
  rw [e9]
  iapply (wp_seq_spec (nest1' d L k0_pay1 pay1_zero t _ _ _ _ _)) $$ [H9 H7 H13 H11]
  · isplitl [H9]; · iexact H9
    isplitl [H7]; · iexact H7
    isplitl [H13]; · iexact H13
    isplitl [H11]; · iexact H11
    ipureintro; exact tokChunk_lt shV hsh _
  iintro %_ ⟨H9, H7, H13, H11⟩
  rw [nestG_stage (rowFn L t embV) shV (biasFn L t posV segV) 1 4 (by norm_num) rfl]
  sl_exec
  -- at the loop: the four copies in flight, in the invariant's terms
  ihave S16 := (Flight_mono (EC := countersEmb) (c := thr d L) (sep_mono (Entails.of_eq (congrArg (fun f => ((a8).view.loc (thr d L) ↦{fullShare} f : sProp 𝕄)) ((View.write_whole_univ _ _ _).trans (tok_read_lit 8192 2 _ rfl shV)))) .rfl)) $$ S16
  ihave S17 := (Flight_mono (EC := countersEmb) (c := thr d L) (sep_mono (Entails.of_eq (congrArg (fun f => ((a9).view.loc (thr d L) ↦{fullShare} f : sProp 𝕄)) ((View.write_whole_univ _ _ _).trans (tok_read_lit 12288 3 _ rfl shV)))) .rfl)) $$ S17
  ihave S18 := (Flight_mono (EC := countersEmb) (c := thr d L) (sep_mono (Entails.of_eq (outPiece13 d L t b0 g (Cert.Proof.Spec.scOut shV embV posV segV) (trip_spec.sl.dma0_4 d L t embV posV shV segV) (fun y => hG 0 0 b0 rfl y))) .rfl)) $$ S18
  ihave S19 := (Flight_mono (EC := countersEmb) (c := thr d L) (sep_mono (Entails.of_eq (outPiece23 d L t b4 g (Cert.Proof.Spec.scOut shV embV posV segV) (trip_spec.sl.dma0_6 d L t embV posV shV segV) (fun y => hG 1 4 b4 rfl y))) .rfl)) $$ S19
  ihave Hdone := (doneEmpty d L t (Cert.Proof.Spec.scOut shV embV posV segV))
  have h23 : Scf.trips k0_t6_loop.lb k0_t6_loop.ub k0_t6_loop.st = 23 := by decide
  sl_for (inv6 d L t O W q3 q4 q15 embV posV shV (rowFn L t embV) (biasFn L t posV segV) f14 (Cert.Proof.Spec.scOut shV embV posV segV) g) $$ [HO S20 Sr2 H3 H4 H12 H14 H7 H13 H15r S16 H15a S17 H15b S18 H10 S19 H11 Hout Hdone]
  case region =>
    intro u _
    exact t6_region d L t O W q3 q4 q15 embV posV shV hsh (rowFn L t embV) (biasFn L t posV segV) f14 (Cert.Proof.Spec.scOut shV embV posV segV) g hG k0_pay1 pay1_zero _ u
  · unfold inv6
    isplitr; · iexact Hmw
    isplitl [HO]
    · iexists _; isplitr; swap; · iexact HO
      ipureintro; intro p hp
      simp only [Finset.mem_insert] at hp
      rcases hp with rfl | rfl | rfl | rfl | hp
      · exact .inr rfl
      · exact .inr rfl
      · exact .inr rfl
      · exact .inr rfl
      · exact hW' p hp
    isplitl [S20]; · iexact S20
    isplitl [Sr2]; · iexact Sr2
    isplitl [H3]; · iexact H3
    isplitl [H4]; · iexact H4
    isplitl [H12]; · iexists _; iexact H12
    isplitl [H14]; · iexact H14
    isplitl [H7]; · iexact H7
    isplitl [H13]; · iexact H13
    isplitl [H15r]; · iexact H15r
    isplitl [S16 H15a]
    · iexists _
      isplitl [S16]; · iexact S16
      iexact H15a
    isplitl [S17 H15b]
    · iexists _
      isplitl [S17]; · iexact S17
      iexact H15b
    isplitl [S18]; · iexact S18
    isplitl [H10]; · iexact H10
    isplitl [S19]; · iexact S19
    isplitl [H11]; · iexact H11
    isplitl [Hout]; · iexact Hout
    iexact Hdone
  iintro %_ HI
  rw [h23]
  unfold inv6
  icases HI with ⟨-, ⟨%W2, %hW2, HO⟩, S20, Sr2, H3, H4, ⟨%f12', H12⟩, H14, H7, H13, H15r, ⟨%A, S16, H15a⟩, ⟨%B, S17, H15b⟩, S18, H10, S19, H11, Hout, Hdone2⟩
  sl_exec
  ihave Hd := (joinDone d L t (8 * 23) (by norm_num) (Cert.Proof.Spec.scOut shV embV posV segV)) $$ [Hdone2 S18_dst]
  · isplitl [Hdone2] <;> iassumption
  -- chunk 48's sums
  iapply (wp_seq_spec (nest4' d L k0_pay1 pay1_zero t _ _ _ _ _)) $$ [S16_dst H7 H13 H10]
  · isplitl [S16_dst]; · iexact S16_dst
    isplitl [H7]; · iexact H7
    isplitl [H13]; · iexact H13
    isplitl [H10]; · iexact H10
    ipureintro; exact tokChunk_lt shV hsh _
  iintro %_ ⟨H8, H7, H13, H10⟩
  rw [nestG_stage (rowFn L t embV) shV (biasFn L t posV segV) (2 * 23 + 2) 192 (by norm_num) (by norm_num)]
  ihave Hout := (remCast d L t (show 8 * 23 + 8 = 192 from rfl) g) $$ Hout
  ihave Hc := (carveChunk d L t 192 b192 g) $$ Hout
  icases Hc with ⟨Hc2, Hout⟩
  ihave Hc2 := (toSlice59 d L t b192 g) $$ Hc2
  sl_exec
  ihave Hd := (joinDone d L t (8 * 23 + 4) (by norm_num) (Cert.Proof.Spec.scOut shV embV posV segV)) $$ [Hd S19_dst]
  · isplitl [Hd] <;> iassumption
  -- chunk 49's sums
  iapply (wp_seq_spec (nest5' d L k0_pay1 pay1_zero t _ _ _ _ _)) $$ [S17_dst H7 H13 H11]
  · isplitl [S17_dst]; · iexact S17_dst
    isplitl [H7]; · iexact H7
    isplitl [H13]; · iexact H13
    isplitl [H11]; · iexact H11
    ipureintro; exact tokChunk_lt shV hsh _
  iintro %_ ⟨H9, H7, H13, H11⟩
  rw [nestG_stage (rowFn L t embV) shV (biasFn L t posV segV) (2 * 23 + 3) 196 (by norm_num) (by norm_num)]
  ihave Hout := (remCast d L t (show 192 + 4 = 196 from rfl) g) $$ Hout
  ihave Hc := (carveChunk d L t 196 b196 g) $$ Hout
  icases Hc with ⟨Hc3, Hout⟩
  ihave Hc3 := (toSlice70 d L t b196 g) $$ Hc3
  sl_exec
  -- the last two chunks at the specified values, joined to what is done: the feature's whole part
  ihave Hc2 := (Entails.of_eq (outPiece59 d L t b192 g (Cert.Proof.Spec.scOut shV embV posV segV) (trip_spec.sl.dma0_8 d L t embV posV shV segV) (fun y => hG (2 * 23 + 2) 192 b192 (by norm_num) y))) $$ Hc2
  ihave Hc3 := (Entails.of_eq (outPiece70 d L t b196 g (Cert.Proof.Spec.scOut shV embV posV segV) (trip_spec.sl.dma0_9 d L t embV posV shV segV) (fun y => hG (2 * 23 + 3) 196 b196 (by norm_num) y))) $$ Hc3
  ihave Hd := (doneCast d L t (show 8 * 23 + 4 + 4 = 192 from rfl) (Cert.Proof.Spec.scOut shV embV posV segV)) $$ Hd
  ihave Hd := (joinDone d L t 192 b192 (Cert.Proof.Spec.scOut shV embV posV segV)) $$ [Hd Hc2]
  · isplitl [Hd] <;> iassumption
  ihave Hd := (doneCast d L t (show 192 + 4 = 196 from rfl) (Cert.Proof.Spec.scOut shV embV posV segV)) $$ Hd
  ihave Hd := (joinDone d L t 196 b196 (Cert.Proof.Spec.scOut shV embV posV segV)) $$ [Hd Hc3]
  · isplitl [Hd] <;> iassumption
  ihave Hd := (doneCast d L t (show 196 + 4 = 200 from rfl) (Cert.Proof.Spec.scOut shV embV posV segV)) $$ Hd
  ihave Hd := (Entails.of_eq (congrArg (fun S => ((a6).view.loc (thr d L) ↦[S]{fullShare} (Cert.Proof.Spec.scOut shV embV posV segV) : sProp 𝕄)) (done_200 L t))) $$ Hd
  ihave H15 := (toks2 (F := F) q15).2 $$ [H15r H15a H15b]
  · isplitl [H15r]; · iexact H15r
    isplitl [H15a]; · iexact H15a
    iexact H15b
  sl_step
  isplitr [Hd]; swap; · iexact Hd
  isplitr; · iexact Hmw
  isplitl [HO]
  · iexists _; isplitr; swap; · iexact HO
    ipureintro
    exact waits_ok _ (waits_ok _ (waits_ok _ (waits_ok _ (waits_ok _ (waits_ok _ hW2)))))
  isplitl [S20]; · iexact S20
  isplitl [S16]; · iexact S16
  isplitl [S17]; · iexact S17
  isplitl [S18]; · iexact S18
  isplitl [S19]; · iexact S19
  isplitl [Sr2]; · iexact Sr2
  isplitl [H3]; · iexact H3
  isplitl [H4]; · iexact H4
  isplitl [H15]; · iexact H15
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexact H14

end Cert.Proof.BodyK
end
-- ==== Proof.BodyK.lean ====
/-
  One tile's task, from what the launch hands it to what it hands back.

  Tile 0 of a SparseCore copies the token ids into the SparseCore's shared scratch; every tile copies the segment
  table's first row into its segment scratch; the tiles meet at the subcore barrier, where tile 0 hands each tile a read
  share of the filled shared scratch; then the tile runs its two features, each filling that feature's entries of the
  result with the specified sums; at the end it returns its read shares, its entries of the result, its share of the shared
  scratch, and its scoped storage.
-/
import proofs.«203565_g79912161509654_cont_9to1_m_411_39_alg».proof.Proof.TripK

noncomputable section

namespace Cert.Proof.BodyK

open Cert.Kernel Cert.Kernel.Gen Cert.Proof.LaunchKernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "a2" => (Memref.whole Cert.Kernel.main_v1_scv : Memref Cert.Kernel.sig Kind.scVector Space.hbm Cert.Kernel.S204800 EltTy.i32)
local notation "a3" => (Memref.whole Cert.Kernel.main_v2_scv : Memref Cert.Kernel.sig Kind.scVector Space.hbm Cert.Kernel.S64x100000 EltTy.f32)
local notation "a4" => (Memref.whole Cert.Kernel.main_v4_scv : Memref Cert.Kernel.sig Kind.scVector Space.hbm Cert.Kernel.S32768 EltTy.f32)
local notation "a5" => (Memref.whole Cert.Kernel.main_v5_scv : Memref Cert.Kernel.sig Kind.scVector Space.hbm Cert.Kernel.S128 EltTy.f32)
local notation "a6" => (Memref.whole Cert.Kernel.main_v6_scv : Memref Cert.Kernel.sig Kind.scVector Space.hbm Cert.Kernel.S200x8x8x8x128 EltTy.f32)
local notation "a7" => (Memref.whole Cert.Kernel.cc0_scratch0 : Memref Cert.Kernel.sig Kind.scVector Space.vmem Cert.Kernel.S1x100000 EltTy.f32)
local notation "a8" => (Memref.whole Cert.Kernel.cc0_scratch1 : Memref Cert.Kernel.sig Kind.scVector Space.vmem Cert.Kernel.S4096 EltTy.i32)
local notation "a9" => (Memref.whole Cert.Kernel.cc0_scratch2 : Memref Cert.Kernel.sig Kind.scVector Space.vmem Cert.Kernel.S4096 EltTy.i32)
local notation "a10" => (Memref.whole Cert.Kernel.cc0_scratch3 : Memref Cert.Kernel.sig Kind.scVector Space.vmem Cert.Kernel.S4x1x8x1x128 EltTy.f32)
local notation "a11" => (Memref.whole Cert.Kernel.cc0_scratch4 : Memref Cert.Kernel.sig Kind.scVector Space.vmem Cert.Kernel.S4x1x8x1x128 EltTy.f32)
local notation "a12" => (Memref.whole Cert.Kernel.cc0_scratch5 : Memref Cert.Kernel.sig Kind.scVector Space.vmem Cert.Kernel.S208 EltTy.f32)
local notation "a13" => (Memref.whole Cert.Kernel.cc0_scratch6 : Memref Cert.Kernel.sig Kind.scVector Space.vmem Cert.Kernel.S208 EltTy.f32)
local notation "a14" => (Memref.whole Cert.Kernel.cc0_scratch7 : Memref Cert.Kernel.sig Kind.scVector Space.vmem Cert.Kernel.S64 EltTy.f32)
local notation "a15" => (Memref.whole Cert.Kernel.cc0_scratch8 : Memref Cert.Kernel.sig Kind.scVector Space.shared Cert.Kernel.S204800 EltTy.i32)
local notation "hW" => Memref.isWhole_whole _

variable (m : (ℓ : Loc nD τ sig) → Buf (Elt F) ℓ)

/-! ## The feature loop runs twice; tile 0 is the tile whose subcore number is 0 -/

theorem trips_eq : k0_t1_loop.trips = 2 := by decide

theorem head_cond : ∀ s : Fin 16, (Scalar.cmpi .ne (Scalar.extui (Scalar.cmpi .eq (BitVec.ofNat 32 s.val) 0#32)) 0#32 = 1#1) ↔ s.val = 0 := by decide

/-! ## The tile's own semaphores and buffers -/

omit [FloatOps F] in
/-- A tile's own semaphores: its eight DMA semaphores. -/
theorem ownSems0_V8 (d : Dev nD) (L : grid0.Coords) :
    (ownSems0 (thr d L) : sProp 𝕄)
      = iprop(semVal (thr d L, SemLoc.dma cc0_scratch9.sem) 0 ∗ semVal (thr d L, SemLoc.dma cc0_scratch10.sem) 0 ∗ semVal (thr d L, SemLoc.dma cc0_scratch11.sem) 0
          ∗ semVal (thr d L, SemLoc.dma cc0_scratch12.sem) 0 ∗ semVal (thr d L, SemLoc.dma cc0_scratch13.sem) 0 ∗ semVal (thr d L, SemLoc.dma cc0_scoped0.sem) 0
          ∗ semVal (thr d L, SemLoc.dma cc0_scoped1.sem) 0 ∗ semVal (thr d L, SemLoc.dma cc0_scoped2.sem) 0) := by
  rw [SparseCore.Cfg.ownSems0_eq]
  show bigSep (Finset.univ.filter fun sm : SemLoc sig => (sm.isScoped Kind.scVector : Prop)) (fun sm => (semVal (thr d L, sm) 0 : sProp 𝕄)) = _
  rw [show (Finset.univ.filter fun sm : SemLoc sig => (sm.isScoped Kind.scVector : Prop))
      = {SemLoc.dma cc0_scratch9.sem, SemLoc.dma cc0_scratch10.sem, SemLoc.dma cc0_scratch11.sem, SemLoc.dma cc0_scratch12.sem, SemLoc.dma cc0_scratch13.sem,
          SemLoc.dma cc0_scoped0.sem, SemLoc.dma cc0_scoped1.sem, SemLoc.dma cc0_scoped2.sem} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tile's eight scratch buffers, by number. -/
abbrev scrRef : Fin 8 → Ref sig .scVector :=
  ![cc0_scratch0, cc0_scratch1, cc0_scratch2, cc0_scratch3, cc0_scratch4, cc0_scratch5, cc0_scratch6, cc0_scratch7]

omit [FloatOps F] in
/-- Two of a tile's scratch buffers of different numbers are different buffers. -/
theorem bref_ne : ∀ (c : Fin τ.nSC) (s : Fin τ.nSub) (i j : Fin 8), i ≠ j →
    (Proc.devRef (Proc.scVector c s) (scrRef i) : DevRef τ sig) ≠ Proc.devRef (Proc.scVector c s) (scrRef j) := by decide +kernel

omit [FloatOps F] in
/-- A tile's own buffers: its eight scratch buffers, each whole at some contents, and the rest. -/
theorem ownBufs_V8 (d : Dev nD) (L : grid0.Coords) :
    (ownBufs (thr d L) : sProp 𝕄)
      = iprop((∃ f, (a7).view.loc (thr d L) ↦{fullShare} f)
          ∗ (∃ f, (a8).view.loc (thr d L) ↦{fullShare} f)
          ∗ (∃ f, (a9).view.loc (thr d L) ↦{fullShare} f)
          ∗ (∃ f, (a10).view.loc (thr d L) ↦{fullShare} f)
          ∗ (∃ f, (a11).view.loc (thr d L) ↦{fullShare} f)
          ∗ (∃ f, (a12).view.loc (thr d L) ↦{fullShare} f)
          ∗ (∃ f, (a13).view.loc (thr d L) ↦{fullShare} f)
          ∗ (∃ f, (a14).view.loc (thr d L) ↦{fullShare} f)
          ∗ bigSep (((((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)).erase (Proc.devRef (Proc.scVector (cV L) (jV L)) (cc0_scratch5 : Ref sig .scVector) : DevRef τ sig)).erase (Proc.devRef (Proc.scVector (cV L) (jV L)) (cc0_scratch6 : Ref sig .scVector) : DevRef τ sig)).erase (Proc.devRef (Proc.scVector (cV L) (jV L)) (cc0_scratch7 : Ref sig .scVector) : DevRef τ sig))
              fun b => iprop(∃ f, ((d, b) : Loc nD τ sig) ↦{fullShare} f)) := by
  unfold SparseCore.Cfg.ownBufs
  rw [SparseCore.bigSep_erase' (show (Proc.devRef (Proc.scVector (cV L) (jV L)) (cc0_scratch0 : Ref sig .scVector) : DevRef τ sig) ∈ (ownRefs (τ := τ) (sig := sig) (Proc.scVector (cV L) (jV L))) from (SparseCore.Cfg.mem_ownRefs_of_owner (p := Proc.scVector (cV L) (jV L)) (b := (Proc.devRef (Proc.scVector (cV L) (jV L)) (cc0_scratch0 : Ref sig .scVector) : DevRef τ sig)) rfl)),
    SparseCore.bigSep_erase' (show (Proc.devRef (Proc.scVector (cV L) (jV L)) (cc0_scratch1 : Ref sig .scVector) : DevRef τ sig) ∈ ((ownRefs (τ := τ) (sig := sig) (Proc.scVector (cV L) (jV L))).erase (Proc.devRef (Proc.scVector (cV L) (jV L)) (cc0_scratch0 : Ref sig .scVector) : DevRef τ sig)) from (Finset.mem_erase.mpr ⟨bref_ne (cV L) (jV L) 1 0 (by decide), (SparseCore.Cfg.mem_ownRefs_of_owner (p := Proc.scVector (cV L) (jV L)) (b := (Proc.devRef (Proc.scVector (cV L) (jV L)) (cc0_scratch1 : Ref sig .scVector) : DevRef τ sig)) rfl)⟩)),
    SparseCore.bigSep_erase' (show (Proc.devRef (Proc.scVector (cV L) (jV L)) (cc0_scratch2 : Ref sig .scVector) : DevRef τ sig) ∈ (((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)) from (Finset.mem_erase.mpr ⟨bref_ne (cV L) (jV L) 2 1 (by decide), (Finset.mem_erase.mpr ⟨bref_ne (cV L) (jV L) 2 0 (by decide), (SparseCore.Cfg.mem_ownRefs_of_owner (p := Proc.scVector (cV L) (jV L)) (b := (Proc.devRef (Proc.scVector (cV L) (jV L)) (cc0_scratch2 : Ref sig .scVector) : DevRef τ sig)) rfl)⟩)⟩)),
    SparseCore.bigSep_erase' (show (Proc.devRef (Proc.scVector (cV L) (jV L)) (cc0_scratch3 : Ref sig .scVector) : DevRef τ sig) ∈ ((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)) from (Finset.mem_erase.mpr ⟨bref_ne (cV L) (jV L) 3 2 (by decide), (Finset.mem_erase.mpr ⟨bref_ne (cV L) (jV L) 3 1 (by decide), (Finset.mem_erase.mpr ⟨bref_ne (cV L) (jV L) 3 0 (by decide), (SparseCore.Cfg.mem_ownRefs_of_owner (p := Proc.scVector (cV L) (jV L)) (b := (Proc.devRef (Proc.scVector (cV L) (jV L)) (cc0_scratch3 : Ref sig .scVector) : DevRef τ sig)) rfl)⟩)⟩)⟩)),
    SparseCore.bigSep_erase' (show (Proc.devRef (Proc.scVector (cV L) (jV L)) (cc0_scratch4 : Ref sig .scVector) : DevRef τ sig) ∈ (((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)) from (Finset.mem_erase.mpr ⟨bref_ne (cV L) (jV L) 4 3 (by decide), (Finset.mem_erase.mpr ⟨bref_ne (cV L) (jV L) 4 2 (by decide), (Finset.mem_erase.mpr ⟨bref_ne (cV L) (jV L) 4 1 (by decide), (Finset.mem_erase.mpr ⟨bref_ne (cV L) (jV L) 4 0 (by decide), (SparseCore.Cfg.mem_ownRefs_of_owner (p := Proc.scVector (cV L) (jV L)) (b := (Proc.devRef (Proc.scVector (cV L) (jV L)) (cc0_scratch4 : Ref sig .scVector) : DevRef τ sig)) rfl)⟩)⟩)⟩)⟩)),
    SparseCore.bigSep_erase' (show (Proc.devRef (Proc.scVector (cV L) (jV L)) (cc0_scratch5 : Ref sig .scVector) : DevRef τ sig) ∈ ((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)) from (Finset.mem_erase.mpr ⟨bref_ne (cV L) (jV L) 5 4 (by decide), (Finset.mem_erase.mpr ⟨bref_ne (cV L) (jV L) 5 3 (by decide), (Finset.mem_erase.mpr ⟨bref_ne (cV L) (jV L) 5 2 (by decide), (Finset.mem_erase.mpr ⟨bref_ne (cV L) (jV L) 5 1 (by decide), (Finset.mem_erase.mpr ⟨bref_ne (cV L) (jV L) 5 0 (by decide), (SparseCore.Cfg.mem_ownRefs_of_owner (p := Proc.scVector (cV L) (jV L)) (b := (Proc.devRef (Proc.scVector (cV L) (jV L)) (cc0_scratch5 : Ref sig .scVector) : DevRef τ sig)) rfl)⟩)⟩)⟩)⟩)⟩)),
    SparseCore.bigSep_erase' (show (Proc.devRef (Proc.scVector (cV L) (jV L)) (cc0_scratch6 : Ref sig .scVector) : DevRef τ sig) ∈ (((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)).erase (Proc.devRef (Proc.scVector (cV L) (jV L)) (cc0_scratch5 : Ref sig .scVector) : DevRef τ sig)) from (Finset.mem_erase.mpr ⟨bref_ne (cV L) (jV L) 6 5 (by decide), (Finset.mem_erase.mpr ⟨bref_ne (cV L) (jV L) 6 4 (by decide), (Finset.mem_erase.mpr ⟨bref_ne (cV L) (jV L) 6 3 (by decide), (Finset.mem_erase.mpr ⟨bref_ne (cV L) (jV L) 6 2 (by decide), (Finset.mem_erase.mpr ⟨bref_ne (cV L) (jV L) 6 1 (by decide), (Finset.mem_erase.mpr ⟨bref_ne (cV L) (jV L) 6 0 (by decide), (SparseCore.Cfg.mem_ownRefs_of_owner (p := Proc.scVector (cV L) (jV L)) (b := (Proc.devRef (Proc.scVector (cV L) (jV L)) (cc0_scratch6 : Ref sig .scVector) : DevRef τ sig)) rfl)⟩)⟩)⟩)⟩)⟩)⟩)),
    SparseCore.bigSep_erase' (show (Proc.devRef (Proc.scVector (cV L) (jV L)) (cc0_scratch7 : Ref sig .scVector) : DevRef τ sig) ∈ ((((((((ownRefs (τ := τ) (sig := sig) (Proc.scVector (cV L) (jV L))).erase (Proc.devRef (Proc.scVector (cV L) (jV L)) (cc0_scratch0 : Ref sig .scVector) : DevRef τ sig)).erase (Proc.devRef (Proc.scVector (cV L) (jV L)) (cc0_scratch1 : Ref sig .scVector) : DevRef τ sig)).erase (Proc.devRef (Proc.scVector (cV L) (jV L)) (cc0_scratch2 : Ref sig .scVector) : DevRef τ sig)).erase (Proc.devRef (Proc.scVector (cV L) (jV L)) (cc0_scratch3 : Ref sig .scVector) : DevRef τ sig)).erase (Proc.devRef (Proc.scVector (cV L) (jV L)) (cc0_scratch4 : Ref sig .scVector) : DevRef τ sig)).erase (Proc.devRef (Proc.scVector (cV L) (jV L)) (cc0_scratch5 : Ref sig .scVector) : DevRef τ sig)).erase (Proc.devRef (Proc.scVector (cV L) (jV L)) (cc0_scratch6 : Ref sig .scVector) : DevRef τ sig)) from (Finset.mem_erase.mpr ⟨bref_ne (cV L) (jV L) 7 6 (by decide), (Finset.mem_erase.mpr ⟨bref_ne (cV L) (jV L) 7 5 (by decide), (Finset.mem_erase.mpr ⟨bref_ne (cV L) (jV L) 7 4 (by decide), (Finset.mem_erase.mpr ⟨bref_ne (cV L) (jV L) 7 3 (by decide), (Finset.mem_erase.mpr ⟨bref_ne (cV L) (jV L) 7 2 (by decide), (Finset.mem_erase.mpr ⟨bref_ne (cV L) (jV L) 7 1 (by decide), (Finset.mem_erase.mpr ⟨bref_ne (cV L) (jV L) 7 0 (by decide), (SparseCore.Cfg.mem_ownRefs_of_owner (p := Proc.scVector (cV L) (jV L)) (b := (Proc.devRef (Proc.scVector (cV L) (jV L)) (cc0_scratch7 : Ref sig .scVector) : DevRef τ sig)) rfl)⟩)⟩)⟩)⟩)⟩)⟩)⟩))]

/-! ## The arrays as the tile addresses them are the device's arrays -/

omit [FloatOps F] in
theorem pts_a2 (d : Dev nD) (L : grid0.Coords) (q : PosShare TreeShare) (f : Buf (Elt F) (tokLoc d)) :
    ((a2).view.loc (thr d L) ↦{q} f : sProp 𝕄) = (tokLoc d ↦{q} f) := rfl
omit [FloatOps F] in
theorem pts_a3 (d : Dev nD) (L : grid0.Coords) (q : PosShare TreeShare) (f : Buf (Elt F) (embLoc d)) :
    ((a3).view.loc (thr d L) ↦{q} f : sProp 𝕄) = (embLoc d ↦{q} f) := rfl
omit [FloatOps F] in
theorem pts_a4 (d : Dev nD) (L : grid0.Coords) (q : PosShare TreeShare) (f : Buf (Elt F) (posLoc d)) :
    ((a4).view.loc (thr d L) ↦{q} f : sProp 𝕄) = (posLoc d ↦{q} f) := rfl
omit [FloatOps F] in
theorem pts_a5 (d : Dev nD) (L : grid0.Coords) (q : PosShare TreeShare) (f : Buf (Elt F) (segLoc d)) :
    ((a5).view.loc (thr d L) ↦{q} f : sProp 𝕄) = (segLoc d ↦{q} f) := rfl
omit [FloatOps F] in
theorem pts_a6 (d : Dev nD) (L : grid0.Coords) (I : Finset S200x8x8x8x128.Idx) (f : Buf (Elt F) (outLoc d)) :
    ((a6).view.loc (thr d L) ↦[I]{fullShare} f : sProp 𝕄) = (outLoc d ↦[I]{fullShare} f) := rfl
omit [FloatOps F] in
theorem pts_a15 (d : Dev nD) (L : grid0.Coords) (q : PosShare TreeShare) (f : Buf (Elt F) (shLoc d (cV L))) :
    ((a15).view.loc (thr d L) ↦{q} f : sProp 𝕄) = (shLoc d (cV L) ↦{q} f) := rfl

omit [FloatOps F] in
theorem pts_a14 (d : Dev nD) (L : grid0.Coords) (f : Buf (Elt F) ((a14).view.loc (thr d L))) :
    ((((a14).access (.whole S64)).loc (thr d L)) ↦{fullShare} f : sProp 𝕄) = ((a14).view.loc (thr d L) ↦{fullShare} f) := rfl

/-! ## What crosses the barrier -/

/-- Before the barrier, tile 0 hands every tile's round that tile's read share of the filled shared scratch: the whole of
    it, split into the sixteen shares. -/
theorem pays_intro_zero (d : Dev nD) (c : Fin τ.nSC) {s : Fin τ.nSub} (h : s.val = 0) :
    (shLoc d c ↦{fullShare} tokSh m d c : sProp 𝕄)
      ⊢ bigSep Finset.univ fun j : Fin (grid0.bound 1) => (bRd (F := F) m).payload (bcell d c (j.castLE hsub0)) 0 s.val := by
  have e : (bigSep Finset.univ fun j : Fin (grid0.bound 1) => (bRd (F := F) m).payload (bcell d c (j.castLE hsub0)) 0 s.val)
      = bigSep Finset.univ fun j : Fin τ.nSub => shPts m d c j :=
    bigSep_congr fun j _ => by
      show bPay m (bcell d c (j.castLE hsub0)) s.val = _
      unfold bPay; dsimp only; rw [if_pos h]; rfl
  rw [e]; exact (pointsTo_shSh (F := F)).1

/-- The other tiles hand over nothing. -/
theorem pays_intro_pos (d : Dev nD) (c : Fin τ.nSC) {s : Fin τ.nSub} (h : s.val ≠ 0) :
    (iprop(emp) : sProp 𝕄) ⊢ bigSep Finset.univ fun j : Fin (grid0.bound 1) => (bRd (F := F) m).payload (bcell d c (j.castLE hsub0)) 0 s.val := by
  rw [show (bigSep Finset.univ fun j : Fin (grid0.bound 1) => (bRd (F := F) m).payload (bcell d c (j.castLE hsub0)) 0 s.val)
      = bigSep Finset.univ fun _ : Fin (grid0.bound 1) => (iprop(emp) : sProp 𝕄) from
      bigSep_congr fun j _ => by
        show bPay m (bcell d c (j.castLE hsub0)) s.val = _
        unfold bPay; dsimp only; rw [if_neg h], bigSep_emp']

/-- After the barrier, what a tile's own round collected holds its read share of the filled shared scratch. -/
theorem pays_elim (d : Dev nD) (c : Fin τ.nSC) (s : Fin τ.nSub) :
    (bigSep ((bRd (F := F) m).duties (bcell d c s) 0 \ ∅) fun n => (bRd (F := F) m).payload (bcell d c s) 0 n) ⊢ (shPts m d c s : sProp 𝕄) := by
  rw [Finset.sdiff_empty, bRd_duties₀]
  refine (bigSep_elim (Φ := fun n => (bRd (F := F) m).payload (bcell d c s) 0 n) (i := (0 : ℕ))
    (Finset.mem_image.mpr ⟨(⟨0, by decide⟩ : Fin τ.nSub), Finset.mem_univ _, rfl⟩)).trans ?_
  show bPay m (bcell d c s) 0 ⊢ _
  unfold bPay; dsimp only; rw [if_pos rfl]

/-! ## What the segment scratch holds after the copy -/

/-- The first 64 entries of the segment table, read through the slice the program copies them by. -/
theorem seg_read (g : FVec F S128 .f32) (x : Fin 64) :
    ReadAs.same.apply (View.read (Elt F) ((a5).slice (Rect.unit (s := S128) ![0] S64.size inb_S128_S64_0) (fun _ => rfl)).view g) (ValueIdx.ix1 x)
      = g (ValueIdx.ix1 (⟨x.val, by omega⟩ : Fin 128)) := by
  rw [ReadAs.apply_same, View.read_apply, cast_eq]
  refine congrArg g (funext fun a => ?_)
  match a with
  | ⟨0, _⟩ => exact Fin.ext (by simp [ValueIdx.ix1])

/-! ## The feature loop -/

/-- The loop's two trips. -/
abbrev t0 : Fin k0_t1_loop.trips := ⟨0, by rw [trips_eq]; decide⟩
abbrev t1 : Fin k0_t1_loop.trips := ⟨1, by rw [trips_eq]; decide⟩

/-- A feature's entries of the result, not yet written (any contents) and written (the specified contents). -/
abbrev featTodo (d : Dev nD) (L : grid0.Coords) (t : Fin k0_t1_loop.trips) : sProp 𝕄 :=
  iprop(∃ g, (a6).view.loc (thr d L) ↦[featSet L t]{fullShare} g)
abbrev featDone (d : Dev nD) (L : grid0.Coords) (t : Fin k0_t1_loop.trips) : sProp 𝕄 :=
  iprop((a6).view.loc (thr d L) ↦[featSet L t]{fullShare} outC m d)

/-- Before trip `k` of the feature loop: what the tile holds between features, the features below `k` written, the others
    still to write. -/
def loopInv (d : Dev nD) (L : grid0.Coords) (O : CellTallies nD τ sig (HIx 1)) (W : Waits sig (HIx 1)) (q3 q4 q15 : PosShare TreeShare)
    (f14 : Buf (Elt F) (((a14).access (.whole S64)).loc (thr d L))) : ℕ → Unit → sProp 𝕄
  | 0, _ => iprop(tripFrame d L O W q3 q4 q15 (embC m d) (posC m d) (tokC m d) f14 ∗ featTodo d L t0 ∗ featTodo d L t1)
  | 1, _ => iprop(tripFrame d L O W q3 q4 q15 (embC m d) (posC m d) (tokC m d) f14 ∗ featDone m d L t0 ∗ featTodo d L t1)
  | _ + 2, _ => iprop(tripFrame d L O W q3 q4 q15 (embC m d) (posC m d) (tokC m d) f14 ∗ featDone m d L t0 ∗ featDone m d L t1)

set_option maxHeartbeats 1000000 in
/-- A trip of the feature loop takes the invariant to the next trip's. -/
theorem loop_step (hr : ∀ (d : Dev nD) i, ((m (a0Loc d) : IVec S1024x200 32) i).toNat < 100000)
    (d : Dev nD) (L : grid0.Coords) (O : CellTallies nD τ sig (HIx 1)) (W : Waits sig (HIx 1)) (q3 q4 q15 : PosShare TreeShare)
    (f14 : Buf (Elt F) (((a14).access (.whole S64)).loc (thr d L)))
    (hseg : ∀ x : Fin 64, f14 (ValueIdx.ix1 x) = segC m d (ValueIdx.ix1 (⟨x.val, by omega⟩ : Fin 128)))
    (k : Fin k0_t1_loop.trips) (acc : Unit) :
    loopInv m d L O W q3 q4 q15 f14 k.val acc
      ⊢ wp frame (wpE (defs₀ (F := F)) 𝒱₀ (thr d L) none) Set.univ
          (k0_t1_body L a2 hW a3 hW a4 hW a5 hW a6 hW a7 hW a8 hW a9 hW a10 hW a11 hW a12 hW a13 hW a14 hW a15 hW cc0_scratch9 cc0_scratch10 cc0_scratch11 cc0_scratch12 cc0_scratch13 cc0_scoped0 cc0_scoped1 cc0_scoped2 (widW L) k acc)
          (loopInv m d L O W q3 q4 q15 f14 (k.val + 1)) := by
  obtain ⟨kv, hk⟩ := k
  have hk2 : kv < 2 := by rw [trips_eq] at hk; exact hk
  match kv, hk, hk2 with
  | 0, hk, _ =>
    show iprop(tripFrame d L O W q3 q4 q15 (embC m d) (posC m d) (tokC m d) f14 ∗ featTodo d L t0 ∗ featTodo d L t1)
      ⊢ wp frame (wpE (defs₀ (F := F)) 𝒱₀ (thr d L) none) Set.univ _ (fun _ => iprop(tripFrame d L O W q3 q4 q15 (embC m d) (posC m d) (tokC m d) f14 ∗ featDone m d L t0 ∗ featTodo d L t1))
    iintro ⟨Hfr, Hf0, Hf1⟩
    iapply (wp_wand_r frame (wpE (defs₀ (F := F)) 𝒱₀ (thr d L) none) Set.univ)
    isplitl [Hfr Hf0]
    · iapply (trip_spec d L O W t0 q3 q4 q15 (embC m d) (posC m d) (tokC m d) (tokC_lt m d (hr d)) f14 (segC m d) hseg)
      isplitl [Hfr] <;> iassumption
    iintro %a ⟨Hfr, Hf0⟩
    isplitl [Hfr]; · iexact Hfr
    isplitl [Hf0]; · iexact Hf0
    iexact Hf1
  | 1, hk, _ =>
    show iprop(tripFrame d L O W q3 q4 q15 (embC m d) (posC m d) (tokC m d) f14 ∗ featDone m d L t0 ∗ featTodo d L t1)
      ⊢ wp frame (wpE (defs₀ (F := F)) 𝒱₀ (thr d L) none) Set.univ _ (fun _ => iprop(tripFrame d L O W q3 q4 q15 (embC m d) (posC m d) (tokC m d) f14 ∗ featDone m d L t0 ∗ featDone m d L t1))
    iintro ⟨Hfr, Hf0, Hf1⟩
    iapply (wp_wand_r frame (wpE (defs₀ (F := F)) 𝒱₀ (thr d L) none) Set.univ)
    isplitl [Hfr Hf1]
    · iapply (trip_spec d L O W t1 q3 q4 q15 (embC m d) (posC m d) (tokC m d) (tokC_lt m d (hr d)) f14 (segC m d) hseg)
      isplitl [Hfr] <;> iassumption
    iintro %a ⟨Hfr, Hf1⟩
    isplitl [Hfr]; · iexact Hfr
    isplitl [Hf0]; · iexact Hf0
    iexact Hf1
  | kv + 2, _, h => exact absurd h (by omega)

/-- After the last trip both features are written. -/
theorem loopInv_end (d : Dev nD) (L : grid0.Coords) (O : CellTallies nD τ sig (HIx 1)) (W : Waits sig (HIx 1)) (q3 q4 q15 : PosShare TreeShare)
    (f14 : Buf (Elt F) (((a14).access (.whole S64)).loc (thr d L))) (acc : Unit) :
    loopInv m d L O W q3 q4 q15 f14 k0_t1_loop.trips acc
      = iprop(tripFrame d L O W q3 q4 q15 (embC m d) (posC m d) (tokC m d) f14 ∗ featDone m d L t0 ∗ featDone m d L t1) :=
  (congrArg (fun n => loopInv m d L O W q3 q4 q15 f14 n acc) trips_eq).trans rfl

/-! ## The task -/

set_option maxHeartbeats 4000000 in
/-- The task of tile 0 of a SparseCore. -/
theorem tile_body_zero (hr : ∀ (d : Dev nD) i, ((m (a0Loc d) : IVec S1024x200 32) i).toNat < 100000)
    (d : Dev nD) (L : grid0.Coords) (h0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goOf m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2)
          fun _ => iprop(tdOf m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : (Scalar.cmpi .ne (Scalar.extui (Scalar.cmpi .eq (BitVec.ofNat 32 (L 1).val) 0#32)) 0#32 = 1#1) := (head_cond (L 1)).mpr h0
  have hfe := outSet_feats L t0 t1 rfl rfl
  simp only [cc0_emb_kernel_eq_skeleton]; unfold cc0_emb_kernel_skel
  rw [(K (F := F)).scopedBufs_V facts d (cV L) (jV L), SparseCore.Cfg.scopedSems0_V (Val := Elt F) d (cV L) (jV L), ownSems0_V8, ownBufs_V8]
  unfold bkit goOf tdOf opsAt shPts
  iintro ⟨#Hlv, ⟨⟨%κ, #Hinv⟩, Htoks, #Hrch, Hat, Hcred⟩, ⟨⟨Htok, Hemb, Hpos, Hseg⟩, Hout, HshGo⟩,
    ⟨⟨%f7, H7⟩, ⟨%f8, H8⟩, ⟨%f9, H9⟩, ⟨%f10, H10⟩, ⟨%f11, H11⟩, ⟨%f12, H12⟩, ⟨%f13, H13⟩, ⟨%f14, H14⟩, Hbufs⟩,
    ⟨Hs9, Hs10, Hs11, Hs12, Hs13, HsA, HsB, HsC⟩, HO⟩
  -- the waits' evidence: at index none, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hsh0 := (Entails.of_eq (shGo_zero (F := F) d (cV L) (show (jV L).val = 0 from h0))) $$ HshGo
  icases Hsh0 with ⟨%fsh, Hsh⟩
  ihave Htok' := (Entails.of_eq (pts_a2 (F := F) d L _ _).symm) $$ Htok
  ihave Hemb' := (Entails.of_eq (pts_a3 (F := F) d L _ _).symm) $$ Hemb
  ihave Hpos' := (Entails.of_eq (pts_a4 (F := F) d L _ _).symm) $$ Hpos
  ihave Hseg' := (Entails.of_eq (pts_a5 (F := F) d L _ _).symm) $$ Hseg
  ihave Hsh' := (Entails.of_eq (pts_a15 (F := F) d L _ _).symm) $$ Hsh
  -- the token ids into the shared scratch, the segment table's first row into the segment scratch, each waited for
  sl_exec
  -- what the two copies left
  have e15 : View.write (Elt F) (a15).view fsh (tile_body_zero.sl.dma0 m d) Finset.univ = tokSh m d (cV L) :=
    (View.write_whole_univ _ _ _).trans rfl
  have e14 : View.write (Elt F) (a14).view f14 (tile_body_zero.sl.dma0_1 m d) Finset.univ = tile_body_zero.sl.dma0_1 m d :=
    View.write_whole_univ _ _ _
  have hseg : ∀ x : Fin 64, (tile_body_zero.sl.dma0_1 m d) (ValueIdx.ix1 x) = segC m d (ValueIdx.ix1 (⟨x.val, by omega⟩ : Fin 128)) := fun x => by
    unfold tile_body_zero.sl.dma0_1
    exact seg_read (segC m d) x
  ihave Hsh2 := (Entails.of_eq (congrArg (fun f => ((a15).view.loc (thr d L) ↦{fullShare} f : sProp 𝕄)) e15)) $$ Hsh'
  ihave H14' := (Entails.of_eq (congrArg (fun f => ((a14).view.loc (thr d L) ↦{fullShare} f : sProp 𝕄)) e14)) $$ H14
  -- the barrier: tile 0 hands every tile its read share of the filled scratch, and receives its own
  ihave Hpays := (pays_intro_zero (F := F) m d (cV L) (s := jV L) h0) $$ [Hsh2]
  · iapply (Entails.of_eq (pts_a15 (F := F) d L _ _)); iexact Hsh2
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hn := (pays_elim (F := F) m d (cV L) (jV L)) $$ Hgot
  ihave Hn' := (Entails.of_eq (pts_a15 (F := F) d L _ _).symm) $$ Hn
  -- the tile's entries of the result, by feature
  ihave Hout2 := (Entails.of_eq (congrArg (fun I => (outLoc d ↦[I]{fullShare} m (outLoc d) : sProp 𝕄)) hfe.1)) $$ Hout
  ihave Hout3 := (pointsTo_union hfe.2).1 $$ Hout2
  icases Hout3 with ⟨Hf0, Hf1⟩
  -- the two features
  sl_for (loopInv m d L O (insert (SemLoc.reg sc_bar0, (some 0 : HIx 1)) (insert (SemLoc.dma cc0_scoped1.sem, (default : HIx 1)) (insert (SemLoc.dma cc0_scoped0.sem, (default : HIx 1)) W))) (shT (cV L) (jV L)) (shT (cV L) (jV L)) (shSh (jV L)) (tile_body_zero.sl.dma0_1 m d))
    $$ [HO Hs13 Hs9 Hs10 Hs11 Hs12 HsC Hemb' Hpos' Hn' H7 H8 H9 H10 H11 H12 H13 H14' Hf0 Hf1]
  case region =>
    intro k acc
    exact loop_step m hr d L O _ _ _ _ _ hseg k acc
  · show _ ⊢ iprop(tripFrame d L O (insert (SemLoc.reg sc_bar0, (some 0 : HIx 1)) (insert (SemLoc.dma cc0_scoped1.sem, (default : HIx 1)) (insert (SemLoc.dma cc0_scoped0.sem, (default : HIx 1)) W))) (shT (cV L) (jV L)) (shT (cV L) (jV L)) (shSh (jV L)) (embC m d) (posC m d) (tokC m d) (tile_body_zero.sl.dma0_1 m d)
        ∗ featTodo d L t0 ∗ featTodo d L t1)
    unfold tripFrame
    iintro ⟨⟨⟨⟨⟨⟨⟨⟨⟨⟨⟨⟨⟨⟨⟨⟨⟨⟨⟨⟨⟨⟨⟨⟨#Hlv, #Hinv⟩, #Hrch⟩, H7⟩, H8⟩, H9⟩, H10⟩, H11⟩, H12⟩, H13⟩, Hs9⟩, Hs10⟩, Hs11⟩, Hs12⟩, Hs13⟩, HsC⟩, #Hmw1⟩, #Hmw2⟩, Hemb'⟩, Hpos'⟩, H14'⟩, HO⟩, Hn'⟩, Hf0⟩, Hf1⟩
    isplitl [HO Hs13 Hs9 Hs10 Hs11 Hs12 HsC Hemb' Hpos' Hn' H7 H8 H9 H10 H11 H12 H13 H14']
    · isplitr; · iexact Hmw2
      isplitl [HO]
      · iexists _; isplitr
        swap; · iexact HO
        ipureintro; exact fun p hp => .inl hp
      isplitl [Hs13]; · iexact Hs13
      isplitl [Hs9]; · iexact Hs9
      isplitl [Hs10]; · iexact Hs10
      isplitl [Hs11]; · iexact Hs11
      isplitl [Hs12]; · iexact Hs12
      isplitl [HsC]; · iexact HsC
      isplitl [Hemb']; · iexact Hemb'
      isplitl [Hpos']; · iexact Hpos'
      isplitl [Hn']; · iexact Hn'
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iapply (Entails.of_eq (pts_a14 (F := F) d L _)); iexact H14'
    isplitl [Hf0]
    · iexists _; iapply (Entails.of_eq (pts_a6 (F := F) d L _ _)); iexact Hf0
    iexists _; iapply (Entails.of_eq (pts_a6 (F := F) d L _ _)); iexact Hf1
  -- after the loop: both features written
  iintro %acc HI
  ihave HI2 := (Entails.of_eq (loopInv_end m d L O _ _ _ _ _ acc)) $$ HI
  icases HI2 with ⟨Hfr, Hf0, Hf1⟩
  unfold tripFrame
  icases Hfr with ⟨-, ⟨%W', %hW', HO⟩, Hs13, Hs9, Hs10, Hs11, Hs12, HsC, Hemb', Hpos', Hn', ⟨%g7, H7⟩, ⟨%g8, H8⟩, ⟨%g9, H9⟩, ⟨%g10, H10⟩,
    ⟨%g11, H11⟩, ⟨%g12, H12⟩, ⟨%g13, H13⟩, H14⟩
  sl_exec
  sl_step
  -- what the tile hands back
  isplitl [Htok' Hemb' Hpos' Hseg' Hf0 Hf1 Hn']
  · isplitl [Htok' Hemb' Hpos' Hseg']
    · isplitl [Htok']; · iapply (Entails.of_eq (pts_a2 (F := F) d L _ _)); iexact Htok'
      isplitl [Hemb']; · iapply (Entails.of_eq (pts_a3 (F := F) d L _ _)); iexact Hemb'
      isplitl [Hpos']; · iapply (Entails.of_eq (pts_a4 (F := F) d L _ _)); iexact Hpos'
      iapply (Entails.of_eq (pts_a5 (F := F) d L _ _)); iexact Hseg'
    isplitl [Hf0 Hf1]
    · iapply (Entails.of_eq (congrArg (fun I => (outLoc d ↦[I]{fullShare} outC m d : sProp 𝕄)) hfe.1).symm)
      iapply (pointsTo_union hfe.2).2
      isplitl [Hf0]
      · iapply (Entails.of_eq (pts_a6 (F := F) d L _ _)); iexact Hf0
      iapply (Entails.of_eq (pts_a6 (F := F) d L _ _)); iexact Hf1
    iapply (Entails.of_eq (pts_a15 (F := F) d L _ _)); iexact Hn'
  isplitl [H7 H8 H9 H10 H11 H12 H13 H14 Hbufs]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iapply (Entails.of_eq (pts_a14 (F := F) d L _).symm); iexact H14
    iexact Hbufs
  isplitl [Hs9 Hs10 Hs11 Hs12 Hs13 HsA HsB HsC]
  · isplitl [Hs9]; · iexact Hs9
    isplitl [Hs10]; · iexact Hs10
    isplitl [Hs11]; · iexact Hs11
    isplitl [Hs12]; · iexact Hs12
    isplitl [Hs13]; · iexact Hs13
    isplitl [HsA]; · iexact HsA
    isplitl [HsB]; · iexact HsB
    iexact HsC
  iexists W'; isplitr
  swap; · iexact HO
  ipureintro; intro p hp
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

set_option maxHeartbeats 4000000 in
/-- The task of the other tiles. -/
theorem tile_body_pos (hr : ∀ (d : Dev nD) i, ((m (a0Loc d) : IVec S1024x200 32) i).toNat < 100000)
    (d : Dev nD) (L : grid0.Coords) (h0 : (L 1).val ≠ 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goOf m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_emb_kernel L a2 hW a3 hW a4 hW a5 hW a6 hW a7 hW a8 hW a9 hW a10 hW a11 hW a12 hW a13 hW a14 hW a15 hW
            cc0_scratch9 cc0_scratch10 cc0_scratch11 cc0_scratch12 cc0_scratch13 cc0_scoped0 cc0_scoped1 cc0_scoped2)
          fun _ => iprop(tdOf m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hC : ¬ (Scalar.cmpi .ne (Scalar.extui (Scalar.cmpi .eq (BitVec.ofNat 32 (L 1).val) 0#32)) 0#32 = 1#1) := fun h => h0 ((head_cond (L 1)).mp h)
  have hfe := outSet_feats L t0 t1 rfl rfl
  simp only [cc0_emb_kernel_eq_skeleton]; unfold cc0_emb_kernel_skel
  rw [(K (F := F)).scopedBufs_V facts d (cV L) (jV L), SparseCore.Cfg.scopedSems0_V (Val := Elt F) d (cV L) (jV L), ownSems0_V8, ownBufs_V8]
  unfold bkit goOf tdOf opsAt shPts
  iintro ⟨#Hlv, ⟨⟨%κ, #Hinv⟩, Htoks, #Hrch, Hat, Hcred⟩, ⟨⟨Htok, Hemb, Hpos, Hseg⟩, Hout, -⟩,
    ⟨⟨%f7, H7⟩, ⟨%f8, H8⟩, ⟨%f9, H9⟩, ⟨%f10, H10⟩, ⟨%f11, H11⟩, ⟨%f12, H12⟩, ⟨%f13, H13⟩, ⟨%f14, H14⟩, Hbufs⟩,
    ⟨Hs9, Hs10, Hs11, Hs12, Hs13, HsA, HsB, HsC⟩, HO⟩
  -- the waits' evidence: at index none, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Htok' := (Entails.of_eq (pts_a2 (F := F) d L _ _).symm) $$ Htok
  ihave Hemb' := (Entails.of_eq (pts_a3 (F := F) d L _ _).symm) $$ Hemb
  ihave Hpos' := (Entails.of_eq (pts_a4 (F := F) d L _ _).symm) $$ Hpos
  ihave Hseg' := (Entails.of_eq (pts_a5 (F := F) d L _ _).symm) $$ Hseg
  -- the segment table's first row into the segment scratch, and the wait
  sl_exec
  -- what the copy left
  have e14 : View.write (Elt F) (a14).view f14 (tile_body_pos.sl.dma0 m d) Finset.univ = tile_body_pos.sl.dma0 m d :=
    View.write_whole_univ _ _ _
  have hseg : ∀ x : Fin 64, (tile_body_pos.sl.dma0 m d) (ValueIdx.ix1 x) = segC m d (ValueIdx.ix1 (⟨x.val, by omega⟩ : Fin 128)) := fun x => by
    unfold tile_body_pos.sl.dma0
    exact seg_read (segC m d) x
  ihave H14' := (Entails.of_eq (congrArg (fun f => ((a14).view.loc (thr d L) ↦{fullShare} f : sProp 𝕄)) e14)) $$ H14
  -- the barrier: the tile hands over nothing, and receives its read share of the filled scratch from tile 0
  ihave Hpays := (pays_intro_pos (F := F) m d (cV L) (s := jV L) h0) $$ []
  · iempintro
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hn := (pays_elim (F := F) m d (cV L) (jV L)) $$ Hgot
  ihave Hn' := (Entails.of_eq (pts_a15 (F := F) d L _ _).symm) $$ Hn
  -- the tile's entries of the result, by feature
  ihave Hout2 := (Entails.of_eq (congrArg (fun I => (outLoc d ↦[I]{fullShare} m (outLoc d) : sProp 𝕄)) hfe.1)) $$ Hout
  ihave Hout3 := (pointsTo_union hfe.2).1 $$ Hout2
  icases Hout3 with ⟨Hf0, Hf1⟩
  -- the two features
  sl_for (loopInv m d L O (insert (SemLoc.reg sc_bar0, (some 0 : HIx 1)) (insert (SemLoc.dma cc0_scoped1.sem, (default : HIx 1)) W)) (shT (cV L) (jV L)) (shT (cV L) (jV L)) (shSh (jV L)) (tile_body_pos.sl.dma0 m d))
    $$ [HO Hs13 Hs9 Hs10 Hs11 Hs12 HsC Hemb' Hpos' Hn' H7 H8 H9 H10 H11 H12 H13 H14' Hf0 Hf1]
  case region =>
    intro k acc
    exact loop_step m hr d L O _ _ _ _ _ hseg k acc
  · show _ ⊢ iprop(tripFrame d L O (insert (SemLoc.reg sc_bar0, (some 0 : HIx 1)) (insert (SemLoc.dma cc0_scoped1.sem, (default : HIx 1)) W)) (shT (cV L) (jV L)) (shT (cV L) (jV L)) (shSh (jV L)) (embC m d) (posC m d) (tokC m d) (tile_body_pos.sl.dma0 m d)
        ∗ featTodo d L t0 ∗ featTodo d L t1)
    unfold tripFrame
    iintro ⟨⟨⟨⟨⟨⟨⟨⟨⟨⟨⟨⟨⟨⟨⟨⟨⟨⟨⟨⟨⟨⟨⟨⟨#Hlv, #Hinv⟩, #Hrch⟩, H7⟩, H8⟩, H9⟩, H10⟩, H11⟩, H12⟩, H13⟩, Hs9⟩, Hs10⟩, Hs11⟩, Hs12⟩, Hs13⟩, HsC⟩, #Hmw1⟩, #Hmw2⟩, Hemb'⟩, Hpos'⟩, H14'⟩, HO⟩, Hn'⟩, Hf0⟩, Hf1⟩
    isplitl [HO Hs13 Hs9 Hs10 Hs11 Hs12 HsC Hemb' Hpos' Hn' H7 H8 H9 H10 H11 H12 H13 H14']
    · isplitr; · iexact Hmw2
      isplitl [HO]
      · iexists _; isplitr
        swap; · iexact HO
        ipureintro; exact fun p hp => .inl hp
      isplitl [Hs13]; · iexact Hs13
      isplitl [Hs9]; · iexact Hs9
      isplitl [Hs10]; · iexact Hs10
      isplitl [Hs11]; · iexact Hs11
      isplitl [Hs12]; · iexact Hs12
      isplitl [HsC]; · iexact HsC
      isplitl [Hemb']; · iexact Hemb'
      isplitl [Hpos']; · iexact Hpos'
      isplitl [Hn']; · iexact Hn'
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iapply (Entails.of_eq (pts_a14 (F := F) d L _)); iexact H14'
    isplitl [Hf0]
    · iexists _; iapply (Entails.of_eq (pts_a6 (F := F) d L _ _)); iexact Hf0
    iexists _; iapply (Entails.of_eq (pts_a6 (F := F) d L _ _)); iexact Hf1
  -- after the loop: both features written
  iintro %acc HI
  ihave HI2 := (Entails.of_eq (loopInv_end m d L O _ _ _ _ _ acc)) $$ HI
  icases HI2 with ⟨Hfr, Hf0, Hf1⟩
  unfold tripFrame
  icases Hfr with ⟨-, ⟨%W', %hW', HO⟩, Hs13, Hs9, Hs10, Hs11, Hs12, HsC, Hemb', Hpos', Hn', ⟨%g7, H7⟩, ⟨%g8, H8⟩, ⟨%g9, H9⟩, ⟨%g10, H10⟩,
    ⟨%g11, H11⟩, ⟨%g12, H12⟩, ⟨%g13, H13⟩, H14⟩
  sl_exec
  sl_step
  -- what the tile hands back
  isplitl [Htok' Hemb' Hpos' Hseg' Hf0 Hf1 Hn']
  · isplitl [Htok' Hemb' Hpos' Hseg']
    · isplitl [Htok']; · iapply (Entails.of_eq (pts_a2 (F := F) d L _ _)); iexact Htok'
      isplitl [Hemb']; · iapply (Entails.of_eq (pts_a3 (F := F) d L _ _)); iexact Hemb'
      isplitl [Hpos']; · iapply (Entails.of_eq (pts_a4 (F := F) d L _ _)); iexact Hpos'
      iapply (Entails.of_eq (pts_a5 (F := F) d L _ _)); iexact Hseg'
    isplitl [Hf0 Hf1]
    · iapply (Entails.of_eq (congrArg (fun I => (outLoc d ↦[I]{fullShare} outC m d : sProp 𝕄)) hfe.1).symm)
      iapply (pointsTo_union hfe.2).2
      isplitl [Hf0]
      · iapply (Entails.of_eq (pts_a6 (F := F) d L _ _)); iexact Hf0
      iapply (Entails.of_eq (pts_a6 (F := F) d L _ _)); iexact Hf1
    iapply (Entails.of_eq (pts_a15 (F := F) d L _ _)); iexact Hn'
  isplitl [H7 H8 H9 H10 H11 H12 H13 H14 Hbufs]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iapply (Entails.of_eq (pts_a14 (F := F) d L _).symm); iexact H14
    iexact Hbufs
  isplitl [Hs9 Hs10 Hs11 Hs12 Hs13 HsA HsB HsC]
  · isplitl [Hs9]; · iexact Hs9
    isplitl [Hs10]; · iexact Hs10
    isplitl [Hs11]; · iexact Hs11
    isplitl [Hs12]; · iexact Hs12
    isplitl [Hs13]; · iexact Hs13
    isplitl [HsA]; · iexact HsA
    isplitl [HsB]; · iexact HsB
    iexact HsC
  iexists W'; isplitr
  swap; · iexact HO
  ipureintro; intro p hp
  rcases hW' p hp with h | h
  · rcases Finset.mem_insert.mp h with h | h; · exact .inr (.inr (h ▸ rfl))
    rcases Finset.mem_insert.mp h with h | h; · exact .inr (.inl (h ▸ rfl))
    exact .inl h
  · exact .inr (.inl h)

/-- One tile's task, whichever tile it is. -/
theorem tile_body (hr : ∀ (d : Dev nD) i, ((m (a0Loc d) : IVec S1024x200 32) i).toNat < 100000) : TileBodySpec (F := F) m := by
  intro d L O W hO hOlev
  by_cases h0 : (L 1).val = 0
  · exact tile_body_zero m hr d L h0 O W hO hOlev
  · exact tile_body_pos m hr d L h0 O W hO hOlev

end Cert.Proof.BodyK

end
-- ==== Proof.lean ====
/-
  The claim of this certificate. An embedding lookup: for batch row `b`, position `l` and feature `d` the result is the
  word table's feature `d` of the token at `(b, l)` plus the position table's entry `(l, d)` plus segment 0's entry `d`.
  The kernel program re-lays its arguments (tokens position-major, the three tables feature-major), has the thirty-two
  tiles of the two SparseCores each compute two features — a tile forms position-plus-segment first and adds it to each
  looked-up feature — and re-lays the result; the reference adds the three looked-up rows left to right. At the ideal
  instance both are one function of the arguments, by associativity of addition on the extended reals, for tokens that
  name rows of the word table (the precondition). The three frames are the programs' runs with the result dropped: the
  kernel's from the launch theorem over the tile body (once at the word-level instance, once at the ideal one), the
  reference's from its host operations' run. The ideal pass rewrote nothing, so nothing is owed for it.
-/
import proofs.«203565_g79912161509654_cont_9to1_m_411_39_alg».proof.Defs
import proofs.«203565_g79912161509654_cont_9to1_m_411_39_alg».proof.Proof.Gen.Kernel
import proofs.«203565_g79912161509654_cont_9to1_m_411_39_alg».proof.Proof.Gen.Kernel.Skeleton
import proofs.«203565_g79912161509654_cont_9to1_m_411_39_alg».proof.Proof.Gen.KernelIdeal
import proofs.«203565_g79912161509654_cont_9to1_m_411_39_alg».proof.Proof.Gen.KernelIdeal.Skeleton
import proofs.«203565_g79912161509654_cont_9to1_m_411_39_alg».proof.Proof.Gen.ReferenceIdeal
import proofs.«203565_g79912161509654_cont_9to1_m_411_39_alg».proof.Proof.Gen.Pre_input_domain
import proofs.«203565_g79912161509654_cont_9to1_m_411_39_alg».proof.Proof.PreRange
import proofs.«203565_g79912161509654_cont_9to1_m_411_39_alg».proof.Proof.RefRun
import proofs.«203565_g79912161509654_cont_9to1_m_411_39_alg».proof.Proof.Final
import proofs.«203565_g79912161509654_cont_9to1_m_411_39_alg».proof.Proof.LaunchDefs
import proofs.«203565_g79912161509654_cont_9to1_m_411_39_alg».proof.Proof.LaunchDefsK
import proofs.«203565_g79912161509654_cont_9to1_m_411_39_alg».proof.Proof.Launch
import proofs.«203565_g79912161509654_cont_9to1_m_411_39_alg».proof.Proof.LaunchK
import proofs.«203565_g79912161509654_cont_9to1_m_411_39_alg».proof.Proof.Body
import proofs.«203565_g79912161509654_cont_9to1_m_411_39_alg».proof.Proof.BodyK
import Idealize.ShloMosaic.Adequacy
import Idealize.ShloMosaic.Init

noncomputable section

namespace Cert.Proof

open Idealize.ShloMosaic Idealize.SL.Sem

/-! ## The claims -/

namespace Claims

/-- Every element type has a value, at the word-level and at the ideal instance. -/
instance nonemptyBits : ∀ e, Nonempty (Elt Bits e) := fun e => by cases e <;> exact ⟨(0 : BitVec _)⟩
instance nonemptyIdeal : ∀ e, Nonempty (Elt Ideal e) := fun e => by
  cases e
  case fp8e4m3 | fp8e5m2 | bf16 | f16 | f32 => exact ⟨(0 : EReal)⟩
  all_goals exact ⟨(0 : BitVec _)⟩

/-- The precondition gives the token range, at the word-level program's launch memory … -/
theorem tokens_K (m : (ℓ : Loc Cert.Kernel.nD Cert.Kernel.τ Cert.Kernel.sig) → Buf (Elt Bits) ℓ) (h : Cert.Pre_Kernel m) :
    ∀ d i, ((m (Cert.Proof.LaunchKernel.a0Loc d) : IVec Cert.Kernel.S1024x200 32) i).toNat < 100000 :=
  fun d => Cert.Pre_input_domain.tokens_lt (F := Bits) _ _ _ _ (h d)

/-- … and at the idealized program's. -/
theorem tokens_I (m : (ℓ : Loc Cert.KernelIdeal.nD Cert.KernelIdeal.τ Cert.KernelIdeal.sig) → Buf (Elt Ideal) ℓ)
    (h : Cert.Pre_KernelIdeal m) :
    ∀ d i, ((m (Cert.Proof.LaunchKernelIdeal.a0Loc d) : IVec Cert.KernelIdeal.S1024x200 32) i).toNat < 100000 :=
  fun d => Cert.Pre_input_domain.tokens_lt (F := Ideal) _ _ _ _ (h d)

theorem frame_k : Cert.frame_Kernel := fun m g hpre =>
  (θ_run (Cert.Kernel.defs (F := Bits)) _ _).mono (fun _ h c => (h c).2)
    (Cert.Proof.LaunchKernel.run_main (F := Bits) m g (tokens_K m hpre) (Cert.Proof.BodyK.tile_body (F := Bits) m (tokens_K m hpre)))

theorem frame_ki : Cert.frame_KernelIdeal := fun m g hpre =>
  (θ_run (Cert.KernelIdeal.defs (F := Ideal)) _ _).mono (fun _ h c => (h c).2)
    (Cert.Proof.LaunchKernelIdeal.run_main (F := Ideal) m g (tokens_I m hpre) (Cert.Proof.Body.tile_body (F := Ideal) m (tokens_I m hpre)))

theorem frame_ri : Cert.frame_ReferenceIdeal := fun m g _ =>
  (θ_run (Cert.ReferenceIdeal.defs (F := Ideal)) _ _).mono (fun _ h c => (h c).2)
    (Cert.ReferenceIdeal.RefValue.run (F := Ideal) m g)

theorem preserves : Cert.preserves_Kernel_KernelIdeal := trivial

/-- At the ideal instance the kernel program's result ends at the host value of its arguments (the launch, with the tile
    body) and the reference's at its composed term of arguments that agree: one function, for tokens in range. -/
theorem algebraic : Cert.algebraic_KernelIdeal_ReferenceIdeal := by
  intro m g m' g' hpre hagree
  have htok := tokens_I m hpre
  refine ⟨Cert.Proof.LaunchKernelIdeal.resC m,
    Cert.Proof.LaunchKernelIdeal.run_main (F := Ideal) m g htok (Cert.Proof.Body.tile_body (F := Ideal) m htok), ?_⟩
  refine (θ_run (Cert.ReferenceIdeal.defs (F := Ideal)) _ _).mono (fun _ h c => ⟨(h c).1.trans ?_, (h c).2⟩)
    (Cert.ReferenceIdeal.RefValue.run (F := Ideal) m' g')
  rw [(hagree c).1, (hagree c).2.1, (hagree c).2.2.1, (hagree c).2.2.2, Cert.Proof.Final.resC_eq]
  exact (Cert.Proof.Final.result_eq _ _ _ _ (htok c)).symm

end Claims

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
